-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1x3000 : Shape := ⟨3, ![2048, 1, 3000]⟩
abbrev S64x1x50 : Shape := ⟨3, ![64, 1, 50]⟩
abbrev S64 : Shape := ⟨1, ![64]⟩
abbrev S128x64x8 : Shape := ⟨3, ![128, 64, 8]⟩
abbrev S128 : Shape := ⟨1, ![128]⟩
abbrev S128x128x8 : Shape := ⟨3, ![128, 128, 8]⟩
abbrev S64x1x400 : Shape := ⟨3, ![64, 1, 400]⟩
abbrev S128x64x7 : Shape := ⟨3, ![128, 64, 7]⟩
abbrev S128x128x7 : Shape := ⟨3, ![128, 128, 7]⟩
abbrev S_ : Shape := ⟨0, ![]⟩

class Facts : Prop where
  bcast_S_S2048x1x3000 : S_.BroadcastsInDim S2048x1x3000 (![] : Fin 0 → Fin S2048x1x3000.rank)
  reducesTo_S2048x1x3000_S_d0_1_2 : S2048x1x3000.ReducesTo [0, 1, 2] S_
  h_S_ : 0 < S_.numel
  bcast_S_S64x1x50 : S_.BroadcastsInDim S64x1x50 (![] : Fin 0 → Fin S64x1x50.rank)
  reducesTo_S64x1x50_S_d0_1_2 : S64x1x50.ReducesTo [0, 1, 2] S_
  bcast_S_S64 : S_.BroadcastsInDim S64 (![] : Fin 0 → Fin S64.rank)
  reducesTo_S64_S_d0 : S64.ReducesTo [0] S_
  bcast_S_S128x64x8 : S_.BroadcastsInDim S128x64x8 (![] : Fin 0 → Fin S128x64x8.rank)
  reducesTo_S128x64x8_S_d0_1_2 : S128x64x8.ReducesTo [0, 1, 2] S_
  bcast_S_S128 : S_.BroadcastsInDim S128 (![] : Fin 0 → Fin S128.rank)
  reducesTo_S128_S_d0 : S128.ReducesTo [0] S_
  bcast_S_S128x128x8 : S_.BroadcastsInDim S128x128x8 (![] : Fin 0 → Fin S128x128x8.rank)
  reducesTo_S128x128x8_S_d0_1_2 : S128x128x8.ReducesTo [0, 1, 2] S_
  bcast_S_S64x1x400 : S_.BroadcastsInDim S64x1x400 (![] : Fin 0 → Fin S64x1x400.rank)
  reducesTo_S64x1x400_S_d0_1_2 : S64x1x400.ReducesTo [0, 1, 2] S_
  bcast_S_S128x64x7 : S_.BroadcastsInDim S128x64x7 (![] : Fin 0 → Fin S128x64x7.rank)
  reducesTo_S128x64x7_S_d0_1_2 : S128x64x7.ReducesTo [0, 1, 2] S_
  bcast_S_S128x128x7 : S_.BroadcastsInDim S128x128x7 (![] : Fin 0 → Fin S128x128x7.rank)
  reducesTo_S128x128x7_S_d0_1_2 : S128x128x7.ReducesTo [0, 1, 2] S_

variable [Facts]

def fn_part10 {F : FTy → Type} [FloatOps F] (main_arg25 : FVec F S128 .f32) (main_arg30 : FVec F S128 .f32) (main_v169 : IVec S_ 1) : IVec S_ 1 :=
  let main_cst_68 : FVec F S_ .f32 := constant S_ .f32 0x00000000#32
  let main_v170 : FVec F S128 .f32 := broadcastInDim S128 ![] bcast_S_S128 main_cst_68
  let main_v171 : IVec S128 1 := cmpf .oge main_arg25 main_v170
  let main_c_69 : IVec S_ 1 := constantI S_ 1 1#1
  let main_v172 : IVec S_ 1 := (fun x v => Host.reduce IntOp.andi x v reducesTo_S128_S_d0 h_S_) main_v171 main_c_69
  let main_v173 : IVec S_ 1 := andi main_v169 main_v172
  let main_cst_70 : FVec F S_ .f32 := constant S_ .f32 0x00000000#32
  let main_v174 : FVec F S128 .f32 := broadcastInDim S128 ![] bcast_S_S128 main_cst_70
  let main_v175 : IVec S128 1 := cmpf .oge main_arg30 main_v174
  let main_c_71 : IVec S_ 1 := constantI S_ 1 1#1
  let main_v176 : IVec S_ 1 := (fun x v => Host.reduce IntOp.andi x v reducesTo_S128_S_d0 h_S_) main_v175 main_c_71
  let main_v177 : IVec S_ 1 := andi main_v173 main_v176
  main_v177

def fn_part9 {F : FTy → Type} [FloatOps F] (main_arg5 : FVec F S64 .f32) (main_arg10 : FVec F S128 .f32) (main_arg15 : FVec F S128 .f32) (main_arg20 : FVec F S64 .f32) (main_arg25 : FVec F S128 .f32) (main_arg30 : FVec F S128 .f32) (main_v153 : IVec S_ 1) : IVec S_ 1 :=
  let main_cst_60 : FVec F S_ .f32 := constant S_ .f32 0x00000000#32
  let main_v154 : FVec F S64 .f32 := broadcastInDim S64 ![] bcast_S_S64 main_cst_60
  let main_v155 : IVec S64 1 := cmpf .oge main_arg5 main_v154
  let main_c_61 : IVec S_ 1 := constantI S_ 1 1#1
  let main_v156 : IVec S_ 1 := (fun x v => Host.reduce IntOp.andi x v reducesTo_S64_S_d0 h_S_) main_v155 main_c_61
  let main_v157 : IVec S_ 1 := andi main_v153 main_v156
  let main_cst_62 : FVec F S_ .f32 := constant S_ .f32 0x00000000#32
  let main_v158 : FVec F S128 .f32 := broadcastInDim S128 ![] bcast_S_S128 main_cst_62
  let main_v159 : IVec S128 1 := cmpf .oge main_arg10 main_v158
  let main_c_63 : IVec S_ 1 := constantI S_ 1 1#1
  let main_v160 : IVec S_ 1 := (fun x v => Host.reduce IntOp.andi x v reducesTo_S128_S_d0 h_S_) main_v159 main_c_63
  let main_v161 : IVec S_ 1 := andi main_v157 main_v160
  let main_cst_64 : FVec F S_ .f32 := constant S_ .f32 0x00000000#32
  let main_v162 : FVec F S128 .f32 := broadcastInDim S128 ![] bcast_S_S128 main_cst_64
  let main_v163 : IVec S128 1 := cmpf .oge main_arg15 main_v162
  let main_c_65 : IVec S_ 1 := constantI S_ 1 1#1
  let main_v164 : IVec S_ 1 := (fun x v => Host.reduce IntOp.andi x v reducesTo_S128_S_d0 h_S_) main_v163 main_c_65
  let main_v165 : IVec S_ 1 := andi main_v161 main_v164
  let main_cst_66 : FVec F S_ .f32 := constant S_ .f32 0x00000000#32
  let main_v166 : FVec F S64 .f32 := broadcastInDim S64 ![] bcast_S_S64 main_cst_66
  let main_v167 : IVec S64 1 := cmpf .oge main_arg20 main_v166
  let main_c_67 : IVec S_ 1 := constantI S_ 1 1#1
  let main_v168 : IVec S_ 1 := (fun x v => Host.reduce IntOp.andi x v reducesTo_S64_S_d0 h_S_) main_v167 main_c_67
  let main_v169 : IVec S_ 1 := andi main_v165 main_v168
  fn_part10 (F := F) main_arg25 main_arg30 main_v169

def fn_part8 {F : FTy → Type} [FloatOps F] (main_arg5 : FVec F S64 .f32) (main_arg10 : FVec F S128 .f32) (main_arg15 : FVec F S128 .f32) (main_arg20 : FVec F S64 .f32) (main_arg25 : FVec F S128 .f32) (main_arg28 : FVec F S128 .f32) (main_arg29 : FVec F S128 .f32) (main_arg30 : FVec F S128 .f32) (main_v133 : IVec S_ 1) (main_v136 : IVec S128 1) : IVec S_ 1 :=
  let main_c_53 : IVec S_ 1 := constantI S_ 1 1#1
  let main_v137 : IVec S_ 1 := (fun x v => Host.reduce IntOp.andi x v reducesTo_S128_S_d0 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128 .f32 := Host.absf main_arg29
  let main_cst_56 : FVec F S_ .f32 := constant S_ .f32 0x7F800000#32
  let main_v145 : FVec F S128 .f32 := broadcastInDim S128 ![] bcast_S_S128 main_cst_56
  let main_v146 : IVec S128 1 := cmpf .olt main_v144 main_v145
  let main_c_57 : IVec S_ 1 := constantI S_ 1 1#1
  let main_v147 : IVec S_ 1 := (fun x v => Host.reduce IntOp.andi x v reducesTo_S128_S_d0 h_S_) main_v146 main_c_57
  let main_v148 : IVec S_ 1 := andi main_v143 main_v147
  let main_v149 : FVec F S128 .f32 := Host.absf main_arg30
  let main_cst_58 : FVec F S_ .f32 := constant S_ .f32 0x7F800000#32
  let main_v150 : FVec F S128 .f32 := broadcastInDim S128 ![] bcast_S_S128 main_cst_58
  let main_v151 : IVec S128 1 := cmpf .olt main_v149 main_v150
  let main_c_59 : IVec S_ 1 := constantI S_ 1 1#1
  let main_v152 : IVec S_ 1 := (fun x v => Host.reduce IntOp.andi x v reducesTo_S128_S_d0 h_S_) main_v151 main_c_59
  let main_v153 : IVec S_ 1 := andi main_v148 main_v152
  fn_part9 (F := F) main_arg5 main_arg10 main_arg15 main_arg20 main_arg25 main_arg30 main_v153

def fn_part7 {F : FTy → Type} [FloatOps F] (main_arg5 : FVec F S64 .f32) (main_arg10 : FVec F S128 .f32) (main_arg15 : FVec F S128 .f32) (main_arg20 : FVec F S64 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128x128x7 .f32 := Host.absf main_arg26
  let main_cst_50 : FVec F S_ .f32 := constant S_ .f32 0x7F800000#32
  let main_v130 : FVec F S128x128x7 .f32 := broadcastInDim S128x128x7 ![] bcast_S_S128x128x7 main_cst_50
  let main_v131 : IVec S128x128x7 1 := cmpf .olt main_v129 main_v130
  let main_c_51 : IVec S_ 1 := constantI S_ 1 1#1
  let main_v132 : IVec S_ 1 := (fun x v => Host.reduce IntOp.andi x v reducesTo_S128x128x7_S_d0_1_2 h_S_) main_v131 main_c_51
  let main_v133 : IVec S_ 1 := andi main_v128 main_v132
  let main_v134 : FVec F S128 .f32 := Host.absf main_arg27
  let main_cst_52 : FVec F S_ .f32 := constant S_ .f32 0x7F800000#32
  let main_v135 : FVec F S128 .f32 := broadcastInDim S128 ![] bcast_S_S128 main_cst_52
  let main_v136 : IVec S128 1 := cmpf .olt main_v134 main_v135
  fn_part8 (F := F) main_arg5 main_arg10 main_arg15 main_arg20 main_arg25 main_arg28 main_arg29 main_arg30 main_v133 main_v136

def fn_part6 {F : FTy → Type} [FloatOps F] (main_arg5 : FVec F S64 .f32) (main_arg10 : FVec F S128 .f32) (main_arg15 : FVec F S128 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64x7 .f32 := Host.absf main_arg21
  let main_cst_40 : FVec F S_ .f32 := constant S_ .f32 0x7F800000#32
  let main_v105 : FVec F S128x64x7 .f32 := broadcastInDim S128x64x7 ![] bcast_S_S128x64x7 main_cst_40
  let main_v106 : IVec S128x64x7 1 := cmpf .olt main_v104 main_v105
  let main_c_41 : IVec S_ 1 := constantI S_ 1 1#1
  let main_v107 : IVec S_ 1 := (fun x v => Host.reduce IntOp.andi x v reducesTo_S128x64x7_S_d0_1_2 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg24
  fn_part7 (F := F) main_arg5 main_arg10 main_arg15 main_arg20 main_arg25 main_arg26 main_arg27 main_arg28 main_arg29 main_arg30 main_v118 main_v119

def fn_part5 {F : FTy → Type} [FloatOps F] (main_arg5 : FVec F S64 .f32) (main_arg10 : FVec F S128 .f32) (main_arg15 : FVec F S128 .f32) (main_arg18 : FVec F S64 .f32) (main_arg19 : FVec F S64 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg18
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg20
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg5 main_arg10 main_arg15 main_arg20 main_arg21 main_arg22 main_arg23 main_arg24 main_arg25 main_arg26 main_arg27 main_arg28 main_arg29 main_arg30 main_v98 main_v101 main_c_39

def fn_part4 {F : FTy → Type} [FloatOps F] (main_arg5 : FVec F S64 .f32) (main_arg10 : FVec F S128 .f32) (main_arg14 : FVec F S128 .f32) (main_arg15 : FVec F S128 .f32) (main_arg16 : FVec F S64x1x400 .f32) (main_arg17 : FVec F S64 .f32) (main_arg18 : FVec F S64 .f32) (main_arg19 : FVec F S64 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S64x1x400 .f32 := Host.absf main_arg16
  let main_cst_30 : FVec F S_ .f32 := constant S_ .f32 0x7F800000#32
  let main_v80 : FVec F S64x1x400 .f32 := broadcastInDim S64x1x400 ![] bcast_S_S64x1x400 main_cst_30
  let main_v81 : IVec S64x1x400 1 := cmpf .olt main_v79 main_v80
  let main_c_31 : IVec S_ 1 := constantI S_ 1 1#1
  let main_v82 : IVec S_ 1 := (fun x v => Host.reduce IntOp.andi x v reducesTo_S64x1x400_S_d0_1_2 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg5 main_arg10 main_arg15 main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg5 : FVec F S64 .f32) (main_arg10 : FVec F S128 .f32) (main_arg11 : FVec F S128x128x8 .f32) (main_arg12 : FVec F S128 .f32) (main_arg13 : FVec F S128 .f32) (main_arg14 : FVec F S128 .f32) (main_arg15 : FVec F S128 .f32) (main_arg16 : FVec F S64x1x400 .f32) (main_arg17 : FVec F S64 .f32) (main_arg18 : FVec F S64 .f32) (main_arg19 : FVec F S64 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128x8 .f32 := Host.absf main_arg11
  let main_cst_20 : FVec F S_ .f32 := constant S_ .f32 0x7F800000#32
  let main_v55 : FVec F S128x128x8 .f32 := broadcastInDim S128x128x8 ![] bcast_S_S128x128x8 main_cst_20
  let main_v56 : IVec S128x128x8 1 := cmpf .olt main_v54 main_v55
  let main_c_21 : IVec S_ 1 := constantI S_ 1 1#1
  let main_v57 : IVec S_ 1 := (fun x v => Host.reduce IntOp.andi x v reducesTo_S128x128x8_S_d0_1_2 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg5 main_arg10 main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg5 : FVec F S64 .f32) (main_arg7 : FVec F S128 .f32) (main_arg8 : FVec F S128 .f32) (main_arg9 : FVec F S128 .f32) (main_arg10 : FVec F S128 .f32) (main_arg11 : FVec F S128x128x8 .f32) (main_arg12 : FVec F S128 .f32) (main_arg13 : FVec F S128 .f32) (main_arg14 : FVec F S128 .f32) (main_arg15 : FVec F S128 .f32) (main_arg16 : FVec F S64x1x400 .f32) (main_arg17 : FVec F S64 .f32) (main_arg18 : FVec F S64 .f32) (main_arg19 : FVec F S64 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg5 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S64 .f32) (main_arg5 : FVec F S64 .f32) (main_arg6 : FVec F S128x64x8 .f32) (main_arg7 : FVec F S128 .f32) (main_arg8 : FVec F S128 .f32) (main_arg9 : FVec F S128 .f32) (main_arg10 : FVec F S128 .f32) (main_arg11 : FVec F S128x128x8 .f32) (main_arg12 : FVec F S128 .f32) (main_arg13 : FVec F S128 .f32) (main_arg14 : FVec F S128 .f32) (main_arg15 : FVec F S128 .f32) (main_arg16 : FVec F S64x1x400 .f32) (main_arg17 : FVec F S64 .f32) (main_arg18 : FVec F S64 .f32) (main_arg19 : FVec F S64 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64x8 .f32 := Host.absf main_arg6
  let main_cst_10 : FVec F S_ .f32 := constant S_ .f32 0x7F800000#32
  let main_v30 : FVec F S128x64x8 .f32 := broadcastInDim S128x64x8 ![] bcast_S_S128x64x8 main_cst_10
  let main_v31 : IVec S128x64x8 1 := cmpf .olt main_v29 main_v30
  let main_c_11 : IVec S_ 1 := constantI S_ 1 1#1
  let main_v32 : IVec S_ 1 := (fun x v => Host.reduce IntOp.andi x v reducesTo_S128x64x8_S_d0_1_2 h_S_) main_v31 main_c_11
  let main_v33 : IVec S_ 1 := andi main_v28 main_v32
  fn_part2 (F := F) main_arg5 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S2048x1x3000 .f32) (main_arg1 : FVec F S64x1x50 .f32) (main_arg2 : FVec F S64 .f32) (main_arg3 : FVec F S64 .f32) (main_arg4 : FVec F S64 .f32) (main_arg5 : FVec F S64 .f32) (main_arg6 : FVec F S128x64x8 .f32) (main_arg7 : FVec F S128 .f32) (main_arg8 : FVec F S128 .f32) (main_arg9 : FVec F S128 .f32) (main_arg10 : FVec F S128 .f32) (main_arg11 : FVec F S128x128x8 .f32) (main_arg12 : FVec F S128 .f32) (main_arg13 : FVec F S128 .f32) (main_arg14 : FVec F S128 .f32) (main_arg15 : FVec F S128 .f32) (main_arg16 : FVec F S64x1x400 .f32) (main_arg17 : FVec F S64 .f32) (main_arg18 : FVec F S64 .f32) (main_arg19 : FVec F S64 .f32) (main_arg20 : FVec F S64 .f32) (main_arg21 : FVec F S128x64x7 .f32) (main_arg22 : FVec F S128 .f32) (main_arg23 : FVec F S128 .f32) (main_arg24 : FVec F S128 .f32) (main_arg25 : FVec F S128 .f32) (main_arg26 : FVec F S128x128x7 .f32) (main_arg27 : FVec F S128 .f32) (main_arg28 : FVec F S128 .f32) (main_arg29 : FVec F S128 .f32) (main_arg30 : FVec F S128 .f32) : IVec S_ 1 :=
  let main_v0 : FVec F S2048x1x3000 .f32 := Host.absf main_arg0
  let main_cst : FVec F S_ .f32 := constant S_ .f32 0x7F800000#32
  let main_v1 : FVec F S2048x1x3000 .f32 := broadcastInDim S2048x1x3000 ![] bcast_S_S2048x1x3000 main_cst
  let main_v2 : IVec S2048x1x3000 1 := cmpf .olt main_v0 main_v1
  let main_c : IVec S_ 1 := constantI S_ 1 1#1
  let main_v3 : IVec S_ 1 := (fun x v => Host.reduce IntOp.andi x v reducesTo_S2048x1x3000_S_d0_1_2 h_S_) main_v2 main_c
  let main_v4 : FVec F S64x1x50 .f32 := Host.absf main_arg1
  let main_cst_0 : FVec F S_ .f32 := constant S_ .f32 0x7F800000#32
  let main_v5 : FVec F S64x1x50 .f32 := broadcastInDim S64x1x50 ![] bcast_S_S64x1x50 main_cst_0
  let main_v6 : IVec S64x1x50 1 := cmpf .olt main_v4 main_v5
  let main_c_1 : IVec S_ 1 := constantI S_ 1 1#1
  let main_v7 : IVec S_ 1 := (fun x v => Host.reduce IntOp.andi x v reducesTo_S64x1x50_S_d0_1_2 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S2048x1x3000 : Shape := ⟨3, ![2048, 1, 3000]⟩
abbrev S64x1x50 : Shape := ⟨3, ![64, 1, 50]⟩
abbrev S64 : Shape := ⟨1, ![64]⟩
abbrev S128x64x8 : Shape := ⟨3, ![128, 64, 8]⟩
abbrev S128 : Shape := ⟨1, ![128]⟩
abbrev S128x128x8 : Shape := ⟨3, ![128, 128, 8]⟩
abbrev S64x1x400 : Shape := ⟨3, ![64, 1, 400]⟩
abbrev S128x64x7 : Shape := ⟨3, ![128, 64, 7]⟩
abbrev S128x128x7 : Shape := ⟨3, ![128, 128, 7]⟩
abbrev S2048x3000 : Shape := ⟨2, ![2048, 3000]⟩
abbrev S_ : Shape := ⟨0, ![]⟩
abbrev S2048x3048 : Shape := ⟨2, ![2048, 3048]⟩
abbrev S2048x254x12 : Shape := ⟨3, ![2048, 254, 12]⟩
abbrev S2048x3500 : Shape := ⟨2, ![2048, 3500]⟩
abbrev S2048x35x100 : Shape := ⟨3, ![2048, 35, 100]⟩
abbrev S64x50 : Shape := ⟨2, ![64, 50]⟩
abbrev S64x1 : Shape := ⟨2, ![64, 1]⟩
abbrev S64x60 : Shape := ⟨2, ![64, 60]⟩
abbrev S60x64 : Shape := ⟨2, ![60, 64]⟩
abbrev S60x128 : Shape := ⟨2, ![60, 128]⟩
abbrev S1x128 : Shape := ⟨2, ![1, 128]⟩
abbrev S8x64x128 : Shape := ⟨3, ![8, 64, 128]⟩
abbrev S512x128 : Shape := ⟨2, ![512, 128]⟩
abbrev S8x128x128 : Shape := ⟨3, ![8, 128, 128]⟩
abbrev S1024x128 : Shape := ⟨2, ![1024, 128]⟩
abbrev S64x400 : Shape := ⟨2, ![64, 400]⟩
abbrev S64x500 : Shape := ⟨2, ![64, 500]⟩
abbrev S500x64 : Shape := ⟨2, ![500, 64]⟩
abbrev S500x128 : Shape := ⟨2, ![500, 128]⟩
abbrev S7x64x128 : Shape := ⟨3, ![7, 64, 128]⟩
abbrev S448x128 : Shape := ⟨2, ![448, 128]⟩
abbrev S7x128x128 : Shape := ⟨3, ![7, 128, 128]⟩
abbrev S896x128 : Shape := ⟨2, ![896, 128]⟩
abbrev S2048x128x80 : Shape := ⟨3, ![2048, 128, 80]⟩
abbrev S8x254x12 : Shape := ⟨3, ![8, 254, 12]⟩
abbrev S8x35x100 : Shape := ⟨3, ![8, 35, 100]⟩
abbrev S8x128x80 : Shape := ⟨3, ![8, 128, 80]⟩
abbrev S8x250x12 : Shape := ⟨3, ![8, 250, 12]⟩
abbrev S8x250x60 : Shape := ⟨3, ![8, 250, 60]⟩
abbrev S8x6x60 : Shape := ⟨3, ![8, 6, 60]⟩
abbrev S8x256x60 : Shape := ⟨3, ![8, 256, 60]⟩
abbrev S2048x60 : Shape := ⟨2, ![2048, 60]⟩
abbrev S2048x128 : Shape := ⟨2, ![2048, 128]⟩
abbrev S8x256x128 : Shape := ⟨3, ![8, 256, 128]⟩
abbrev S8x250x64 : Shape := ⟨3, ![8, 250, 64]⟩
abbrev S8x2x64 : Shape := ⟨3, ![8, 2, 64]⟩
abbrev S8x252x64 : Shape := ⟨3, ![8, 252, 64]⟩
abbrev S8x254x64 : Shape := ⟨3, ![8, 254, 64]⟩
abbrev S8x251x64 : Shape := ⟨3, ![8, 251, 64]⟩
abbrev S8x4x64 : Shape := ⟨3, ![8, 4, 64]⟩
abbrev S8x255x64 : Shape := ⟨3, ![8, 255, 64]⟩
abbrev S8x259x64 : Shape := ⟨3, ![8, 259, 64]⟩
abbrev S8x252x512 : Shape := ⟨3, ![8, 252, 512]⟩
abbrev S8x4x512 : Shape := ⟨3, ![8, 4, 512]⟩
abbrev S8x256x512 : Shape := ⟨3, ![8, 256, 512]⟩
abbrev S2048x512 : Shape := ⟨2, ![2048, 512]⟩
abbrev S8x252x128 : Shape := ⟨3, ![8, 252, 128]⟩
abbrev S8x4x128 : Shape := ⟨3, ![8, 4, 128]⟩
abbrev S8x260x128 : Shape := ⟨3, ![8, 260, 128]⟩
abbrev S8x253x128 : Shape := ⟨3, ![8, 253, 128]⟩
abbrev S8x253x1024 : Shape := ⟨3, ![8, 253, 1024]⟩
abbrev S8x3x1024 : Shape := ⟨3, ![8, 3, 1024]⟩
abbrev S8x256x1024 : Shape := ⟨3, ![8, 256, 1024]⟩
abbrev S2048x1024 : Shape := ⟨2, ![2048, 1024]⟩
abbrev S8x2x128 : Shape := ⟨3, ![8, 2, 128]⟩
abbrev S8x255x128 : Shape := ⟨3, ![8, 255, 128]⟩
abbrev S8x1x128 : Shape := ⟨3, ![8, 1, 128]⟩
abbrev S8x64x4x128 : Shape := ⟨4, ![8, 64, 4, 128]⟩
abbrev S8x31x100 : Shape := ⟨3, ![8, 31, 100]⟩
abbrev S8x31x500 : Shape := ⟨3, ![8, 31, 500]⟩
abbrev S8x1x500 : Shape := ⟨3, ![8, 1, 500]⟩
abbrev S8x32x500 : Shape := ⟨3, ![8, 32, 500]⟩
abbrev S256x500 : Shape := ⟨2, ![256, 500]⟩
abbrev S256x128 : Shape := ⟨2, ![256, 128]⟩
abbrev S8x32x128 : Shape := ⟨3, ![8, 32, 128]⟩
abbrev S8x31x64 : Shape := ⟨3, ![8, 31, 64]⟩
abbrev S8x1x64 : Shape := ⟨3, ![8, 1, 64]⟩
abbrev S8x32x64 : Shape := ⟨3, ![8, 32, 64]⟩
abbrev S8x3x64 : Shape := ⟨3, ![8, 3, 64]⟩
abbrev S8x34x64 : Shape := ⟨3, ![8, 34, 64]⟩
abbrev S8x37x64 : Shape := ⟨3, ![8, 37, 64]⟩
abbrev S8x31x448 : Shape := ⟨3, ![8, 31, 448]⟩
abbrev S8x1x448 : Shape := ⟨3, ![8, 1, 448]⟩
abbrev S8x32x448 : Shape := ⟨3, ![8, 32, 448]⟩
abbrev S256x448 : Shape := ⟨2, ![256, 448]⟩
abbrev S8x31x128 : Shape := ⟨3, ![8, 31, 128]⟩
abbrev S8x3x128 : Shape := ⟨3, ![8, 3, 128]⟩
abbrev S8x34x128 : Shape := ⟨3, ![8, 34, 128]⟩
abbrev S8x37x128 : Shape := ⟨3, ![8, 37, 128]⟩
abbrev S8x31x896 : Shape := ⟨3, ![8, 31, 896]⟩
abbrev S8x1x896 : Shape := ⟨3, ![8, 1, 896]⟩
abbrev S8x32x896 : Shape := ⟨3, ![8, 32, 896]⟩
abbrev S256x896 : Shape := ⟨2, ![256, 896]⟩
abbrev S8x16x2x128 : Shape := ⟨4, ![8, 16, 2, 128]⟩
abbrev S8x16x128 : Shape := ⟨3, ![8, 16, 128]⟩
abbrev S8x80x128 : Shape := ⟨3, ![8, 80, 128]⟩

abbrev nBuf : Space → Nat
  | .hbm => 137
  | .vmem => 18
  | .smem => 0
  | _ => 0

abbrev hbmTy0_0 (i : Nat) : BufTy := match i % 128 with
  | 0 => ⟨S2048x1x3000, .f32⟩
  | 1 => ⟨S64x1x50, .f32⟩
  | 2 => ⟨S64, .f32⟩
  | 3 => ⟨S64, .f32⟩
  | 4 => ⟨S64, .f32⟩
  | 5 => ⟨S64, .f32⟩
  | 6 => ⟨S128x64x8, .f32⟩
  | 7 => ⟨S128, .f32⟩
  | 8 => ⟨S128, .f32⟩
  | 9 => ⟨S128, .f32⟩
  | 10 => ⟨S128, .f32⟩
  | 11 => ⟨S128x128x8, .f32⟩
  | 12 => ⟨S128, .f32⟩
  | 13 => ⟨S128, .f32⟩
  | 14 => ⟨S128, .f32⟩
  | 15 => ⟨S128, .f32⟩
  | 16 => ⟨S64x1x400, .f32⟩
  | 17 => ⟨S64, .f32⟩
  | 18 => ⟨S64, .f32⟩
  | 19 => ⟨S64, .f32⟩
  | 20 => ⟨S64, .f32⟩
  | 21 => ⟨S128x64x7, .f32⟩
  | 22 => ⟨S128, .f32⟩
  | 23 => ⟨S128, .f32⟩
  | 24 => ⟨S128, .f32⟩
  | 25 => ⟨S128, .f32⟩
  | 26 => ⟨S128x128x7, .f32⟩
  | 27 => ⟨S128, .f32⟩
  | 28 => ⟨S128, .f32⟩
  | 29 => ⟨S128, .f32⟩
  | 30 => ⟨S128, .f32⟩
  | 31 => ⟨S2048x3000, .f32⟩
  | 32 => ⟨S_, .i32⟩
  | 33 => ⟨S_, .f32⟩
  | 34 => ⟨S2048x3048, .f32⟩
  | 35 => ⟨S2048x254x12, .f32⟩
  | 36 => ⟨S_, .i32⟩
  | 37 => ⟨S_, .f32⟩
  | 38 => ⟨S2048x3500, .f32⟩
  | 39 => ⟨S2048x35x100, .f32⟩
  | 40 => ⟨S_, .f32⟩
  | 41 => ⟨S64, .f32⟩
  | 42 => ⟨S64, .f32⟩
  | 43 => ⟨S64, .f32⟩
  | 44 => ⟨S64, .f32⟩
  | 45 => ⟨S64, .f32⟩
  | 46 => ⟨S64, .f32⟩
  | 47 => ⟨S64x50, .f32⟩
  | 48 => ⟨S64x1, .f32⟩
  | 49 => ⟨S64x50, .f32⟩
  | 50 => ⟨S64x50, .f32⟩
  | 51 => ⟨S_, .i32⟩
  | 52 => ⟨S_, .f32⟩
  | 53 => ⟨S64x60, .f32⟩
  | 54 => ⟨S60x64, .f32⟩
  | 55 => ⟨S_, .i32⟩
  | 56 => ⟨S_, .f32⟩
  | 57 => ⟨S64x60, .f32⟩
  | 58 => ⟨S60x64, .f32⟩
  | 59 => ⟨S60x128, .f32⟩
  | 60 => ⟨S128, .f32⟩
  | 61 => ⟨S1x128, .f32⟩
  | 62 => ⟨S_, .f32⟩
  | 63 => ⟨S128, .f32⟩
  | 64 => ⟨S128, .f32⟩
  | 65 => ⟨S128, .f32⟩
  | 66 => ⟨S128, .f32⟩
  | 67 => ⟨S128, .f32⟩
  | 68 => ⟨S128, .f32⟩
  | 69 => ⟨S8x64x128, .f32⟩
  | 70 => ⟨S512x128, .f32⟩
  | 71 => ⟨S1x128, .f32⟩
  | 72 => ⟨S512x128, .f32⟩
  | 73 => ⟨S512x128, .f32⟩
  | 74 => ⟨S1x128, .f32⟩
  | 75 => ⟨S_, .f32⟩
  | 76 => ⟨S128, .f32⟩
  | 77 => ⟨S128, .f32⟩
  | 78 => ⟨S128, .f32⟩
  | 79 => ⟨S128, .f32⟩
  | 80 => ⟨S128, .f32⟩
  | 81 => ⟨S128, .f32⟩
  | 82 => ⟨S8x128x128, .f32⟩
  | 83 => ⟨S1024x128, .f32⟩
  | 84 => ⟨S1x128, .f32⟩
  | 85 => ⟨S1024x128, .f32⟩
  | 86 => ⟨S1024x128, .f32⟩
  | 87 => ⟨S1x128, .f32⟩
  | 88 => ⟨S_, .f32⟩
  | 89 => ⟨S64, .f32⟩
  | 90 => ⟨S64, .f32⟩
  | 91 => ⟨S64, .f32⟩
  | 92 => ⟨S64, .f32⟩
  | 93 => ⟨S64, .f32⟩
  | 94 => ⟨S64, .f32⟩
  | 95 => ⟨S64x400, .f32⟩
  | 96 => ⟨S64x1, .f32⟩
  | 97 => ⟨S64x400, .f32⟩
  | 98 => ⟨S64x400, .f32⟩
  | 99 => ⟨S_, .i32⟩
  | 100 => ⟨S_, .f32⟩
  | 101 => ⟨S64x500, .f32⟩
  | 102 => ⟨S500x64, .f32⟩
  | 103 => ⟨S_, .i32⟩
  | 104 => ⟨S_, .f32⟩
  | 105 => ⟨S64x500, .f32⟩
  | 106 => ⟨S500x64, .f32⟩
  | 107 => ⟨S500x128, .f32⟩
  | 108 => ⟨S128, .f32⟩
  | 109 => ⟨S1x128, .f32⟩
  | 110 => ⟨S_, .f32⟩
  | 111 => ⟨S128, .f32⟩
  | 112 => ⟨S128, .f32⟩
  | 113 => ⟨S128, .f32⟩
  | 114 => ⟨S128, .f32⟩
  | 115 => ⟨S128, .f32⟩
  | 116 => ⟨S128, .f32⟩
  | 117 => ⟨S7x64x128, .f32⟩
  | 118 => ⟨S448x128, .f32⟩
  | 119 => ⟨S1x128, .f32⟩
  | 120 => ⟨S448x128, .f32⟩
  | 121 => ⟨S448x128, .f32⟩
  | 122 => ⟨S1x128, .f32⟩
  | 123 => ⟨S_, .f32⟩
  | 124 => ⟨S128, .f32⟩
  | 125 => ⟨S128, .f32⟩
  | 126 => ⟨S128, .f32⟩
  | 127 => ⟨S128, .f32⟩
  | _ => ⟨S2048x1x3000, .f32⟩

abbrev hbmTy0_1 (i : Nat) : BufTy := match i % 128 with
  | 0 => ⟨S128, .f32⟩
  | 1 => ⟨S128, .f32⟩
  | 2 => ⟨S7x128x128, .f32⟩
  | 3 => ⟨S896x128, .f32⟩
  | 4 => ⟨S1x128, .f32⟩
  | 5 => ⟨S896x128, .f32⟩
  | 6 => ⟨S896x128, .f32⟩
  | 7 => ⟨S1x128, .f32⟩
  | 8 => ⟨S2048x128x80, .f32⟩
  | _ => ⟨S2048x1x3000, .f32⟩

abbrev hbmTy (i : Nat) : BufTy := match i / 128 with
  | 0 => hbmTy0_0 i
  | 1 => hbmTy0_1 i
  | _ => ⟨S2048x1x3000, .f32⟩

abbrev bufTy : (tb : Table) → Fin (tcTables nBuf tb) → BufTy
  | .hbm, ⟨i, _⟩ => hbmTy i
  | .local _ .vmem, ⟨0, _⟩ => ⟨S8x254x12, .f32⟩
  | .local _ .vmem, ⟨1, _⟩ => ⟨S8x254x12, .f32⟩
  | .local _ .vmem, ⟨2, _⟩ => ⟨S8x35x100, .f32⟩
  | .local _ .vmem, ⟨3, _⟩ => ⟨S8x35x100, .f32⟩
  | .local _ .vmem, ⟨4, _⟩ => ⟨S60x128, .f32⟩
  | .local _ .vmem, ⟨5, _⟩ => ⟨S1x128, .f32⟩
  | .local _ .vmem, ⟨6, _⟩ => ⟨S512x128, .f32⟩
  | .local _ .vmem, ⟨7, _⟩ => ⟨S1x128, .f32⟩
  | .local _ .vmem, ⟨8, _⟩ => ⟨S1024x128, .f32⟩
  | .local _ .vmem, ⟨9, _⟩ => ⟨S1x128, .f32⟩
  | .local _ .vmem, ⟨10, _⟩ => ⟨S500x128, .f32⟩
  | .local _ .vmem, ⟨11, _⟩ => ⟨S1x128, .f32⟩
  | .local _ .vmem, ⟨12, _⟩ => ⟨S448x128, .f32⟩
  | .local _ .vmem, ⟨13, _⟩ => ⟨S1x128, .f32⟩
  | .local _ .vmem, ⟨14, _⟩ => ⟨S896x128, .f32⟩
  | .local _ .vmem, ⟨15, _⟩ => ⟨S1x128, .f32⟩
  | .local _ .vmem, ⟨16, _⟩ => ⟨S8x128x80, .f32⟩
  | .local _ .vmem, ⟨17, _⟩ => ⟨S8x128x80, .f32⟩
  | _, _ => ⟨S2048x1x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_c : Ref sig .tc := ⟨.hbm, 32, rfl⟩
abbrev main_call0_v0 : Ref sig .tc := ⟨.hbm, 33, rfl⟩
abbrev main_v1 : Ref sig .tc := ⟨.hbm, 34, rfl⟩
abbrev main_v2 : Ref sig .tc := ⟨.hbm, 35, rfl⟩
abbrev main_c_0 : Ref sig .tc := ⟨.hbm, 36, rfl⟩
abbrev main_call1_v0 : Ref sig .tc := ⟨.hbm, 37, rfl⟩
abbrev main_v3 : Ref sig .tc := ⟨.hbm, 38, rfl⟩
abbrev main_v4 : Ref sig .tc := ⟨.hbm, 39, rfl⟩
abbrev main_cst : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_c_1 : Ref sig .tc := ⟨.hbm, 51, rfl⟩
abbrev main_call2_v0 : Ref sig .tc := ⟨.hbm, 52, rfl⟩
abbrev main_v15 : Ref sig .tc := ⟨.hbm, 53, rfl⟩
abbrev main_v16 : Ref sig .tc := ⟨.hbm, 54, rfl⟩
abbrev main_c_2 : Ref sig .tc := ⟨.hbm, 55, rfl⟩
abbrev main_call3_v0 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_3 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_cst_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_5 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_c_6 : Ref sig .tc := ⟨.hbm, 99, rfl⟩
abbrev main_call4_v0 : Ref sig .tc := ⟨.hbm, 100, rfl⟩
abbrev main_v56 : Ref sig .tc := ⟨.hbm, 101, rfl⟩
abbrev main_v57 : Ref sig .tc := ⟨.hbm, 102, rfl⟩
abbrev main_c_7 : Ref sig .tc := ⟨.hbm, 103, rfl⟩
abbrev main_call5_v0 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_cst_8 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_9 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x254x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x35x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S60x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S500x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S448x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S896x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x128x80 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S2048x1x3000_S2048x3000 : S2048x1x3000.ShapeCasts S2048x3000
  pads_S2048x3000_S2048x3048_000_24240 : S2048x3000.Pads (![0, 24] : Fin 2 → Nat) ![0, 24] ![0, 0] S2048x3048
  h_S_ : 0 < S_.numel
  shapeCasts_S2048x3048_S2048x254x12 : S2048x3048.ShapeCasts S2048x254x12
  pads_S2048x3000_S2048x3500_000_2003000 : S2048x3000.Pads (![0, 200] : Fin 2 → Nat) ![0, 300] ![0, 0] S2048x3500
  shapeCasts_S2048x3500_S2048x35x100 : S2048x3500.ShapeCasts S2048x35x100
  bcast_S_S64 : S_.BroadcastsInDim S64 (![] : Fin 0 → Fin S64.rank)
  shapeCasts_S64x1x50_S64x50 : S64x1x50.ShapeCasts S64x50
  bcast_S64_S64x1_0 : S64.BroadcastsInDim S64x1 (![0] : Fin 1 → Fin S64x1.rank)
  bcast_S64x1_S64x50_0_1 : S64x1.BroadcastsInDim S64x50 (![0, 1] : Fin 2 → Fin S64x50.rank)
  pads_S64x50_S64x60_000_0100 : S64x50.Pads (![0, 0] : Fin 2 → Nat) ![0, 10] ![0, 0] S64x60
  transposes_S64x60_S60x64_1_0 : S64x60.Transposes [1, 0] S60x64
  pads_S64x50_S64x60_000_640 : S64x50.Pads (![0, 6] : Fin 2 → Nat) ![0, 4] ![0, 0] S64x60
  concatenates_S60x64_S60x64_S60x128_d1 : Shape.Concatenates [S60x64, S60x64] S60x128 1
  concatenates_S64_S64_S128_d0 : Shape.Concatenates [S64, S64] S128 0
  shapeCasts_S128_S1x128 : S128.ShapeCasts S1x128
  bcast_S_S128 : S_.BroadcastsInDim S128 (![] : Fin 0 → Fin S128.rank)
  transposes_S128x64x8_S8x64x128_2_1_0 : S128x64x8.Transposes [2, 1, 0] S8x64x128
  shapeCasts_S8x64x128_S512x128 : S8x64x128.ShapeCasts S512x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  transposes_S128x128x8_S8x128x128_2_1_0 : S128x128x8.Transposes [2, 1, 0] S8x128x128
  shapeCasts_S8x128x128_S1024x128 : S8x128x128.ShapeCasts S1024x128
  bcast_S1x128_S1024x128_0_1 : S1x128.BroadcastsInDim S1024x128 (![0, 1] : Fin 2 → Fin S1024x128.rank)
  shapeCasts_S64x1x400_S64x400 : S64x1x400.ShapeCasts S64x400
  bcast_S64x1_S64x400_0_1 : S64x1.BroadcastsInDim S64x400 (![0, 1] : Fin 2 → Fin S64x400.rank)
  pads_S64x400_S64x500_000_01000 : S64x400.Pads (![0, 0] : Fin 2 → Nat) ![0, 100] ![0, 0] S64x500
  transposes_S64x500_S500x64_1_0 : S64x500.Transposes [1, 0] S500x64
  pads_S64x400_S64x500_000_50500 : S64x400.Pads (![0, 50] : Fin 2 → Nat) ![0, 50] ![0, 0] S64x500
  concatenates_S500x64_S500x64_S500x128_d1 : Shape.Concatenates [S500x64, S500x64] S500x128 1
  transposes_S128x64x7_S7x64x128_2_1_0 : S128x64x7.Transposes [2, 1, 0] S7x64x128
  shapeCasts_S7x64x128_S448x128 : S7x64x128.ShapeCasts S448x128
  bcast_S1x128_S448x128_0_1 : S1x128.BroadcastsInDim S448x128 (![0, 1] : Fin 2 → Fin S448x128.rank)
  transposes_S128x128x7_S7x128x128_2_1_0 : S128x128x7.Transposes [2, 1, 0] S7x128x128
  shapeCasts_S7x128x128_S896x128 : S7x128x128.ShapeCasts S896x128
  bcast_S1x128_S896x128_0_1 : S1x128.BroadcastsInDim S896x128 (![0, 1] : Fin 2 → Fin S896x128.rank)
  inb_S8x254x12_S8x254x12_0_0_0 : ∀ a, (![0, 0, 0] : Fin 3 → Nat) a + S8x254x12.size a ≤ S8x254x12.size a
  h_S8x254x12 : 0 < S8x254x12.numel
  shapeCasts_S8x254x12_S8x254x12 : S8x254x12.ShapeCasts S8x254x12
  slices_S8x254x12_o0_0_0_S8x250x12 : S8x254x12.Slices ![0, 0, 0] S8x250x12
  slices_S8x254x12_o0_1_0_S8x250x12 : S8x254x12.Slices ![0, 1, 0] S8x250x12
  slices_S8x254x12_o0_2_0_S8x250x12 : S8x254x12.Slices ![0, 2, 0] S8x250x12
  slices_S8x254x12_o0_3_0_S8x250x12 : S8x254x12.Slices ![0, 3, 0] S8x250x12
  slices_S8x254x12_o0_4_0_S8x250x12 : S8x254x12.Slices ![0, 4, 0] S8x250x12
  concatenates_S8x250x12_S8x250x12_S8x250x12_S8x250x12_S8x250x12_S8x250x60_d2 : Shape.Concatenates [S8x250x12, S8x250x12, S8x250x12, S8x250x12, S8x250x12] S8x250x60 2
  concatenates_S8x250x60_S8x6x60_S8x256x60_d1 : Shape.Concatenates [S8x250x60, S8x6x60] S8x256x60 1
  shapeCasts_S8x256x60_S2048x60 : S8x256x60.ShapeCasts S2048x60
  inb_S60x128_S60x128_0_0 : ∀ a, (![0, 0] : Fin 2 → Nat) a + S60x128.size a ≤ S60x128.size a
  h_S60x128 : 0 < S60x128.numel
  shapeCasts_S60x128_S60x128 : S60x128.ShapeCasts S60x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S8x256x128 : S2048x128.ShapeCasts S8x256x128
  slices_S8x256x128_o0_0_0_S8x250x64 : S8x256x128.Slices ![0, 0, 0] S8x250x64
  slices_S8x256x128_o0_0_64_S8x250x64 : S8x256x128.Slices ![0, 0, 64] S8x250x64
  concatenates_S8x2x64_S8x250x64_S8x252x64_d1 : Shape.Concatenates [S8x2x64, S8x250x64] S8x252x64 1
  concatenates_S8x252x64_S8x2x64_S8x254x64_d1 : Shape.Concatenates [S8x252x64, S8x2x64] S8x254x64 1
  slices_S8x254x64_o0_0_0_S8x251x64 : S8x254x64.Slices ![0, 0, 0] S8x251x64
  slices_S8x254x64_o0_1_0_S8x251x64 : S8x254x64.Slices ![0, 1, 0] S8x251x64
  slices_S8x254x64_o0_2_0_S8x251x64 : S8x254x64.Slices ![0, 2, 0] S8x251x64
  slices_S8x254x64_o0_3_0_S8x251x64 : S8x254x64.Slices ![0, 3, 0] S8x251x64
  concatenates_S8x4x64_S8x251x64_S8x255x64_d1 : Shape.Concatenates [S8x4x64, S8x251x64] S8x255x64 1
  concatenates_S8x255x64_S8x4x64_S8x259x64_d1 : Shape.Concatenates [S8x255x64, S8x4x64] S8x259x64 1
  slices_S8x259x64_o0_0_0_S8x252x64 : S8x259x64.Slices ![0, 0, 0] S8x252x64
  slices_S8x259x64_o0_1_0_S8x252x64 : S8x259x64.Slices ![0, 1, 0] S8x252x64
  slices_S8x259x64_o0_2_0_S8x252x64 : S8x259x64.Slices ![0, 2, 0] S8x252x64
  slices_S8x259x64_o0_3_0_S8x252x64 : S8x259x64.Slices ![0, 3, 0] S8x252x64
  slices_S8x259x64_o0_4_0_S8x252x64 : S8x259x64.Slices ![0, 4, 0] S8x252x64
  slices_S8x259x64_o0_5_0_S8x252x64 : S8x259x64.Slices ![0, 5, 0] S8x252x64
  slices_S8x259x64_o0_6_0_S8x252x64 : S8x259x64.Slices ![0, 6, 0] S8x252x64
  slices_S8x259x64_o0_7_0_S8x252x64 : S8x259x64.Slices ![0, 7, 0] S8x252x64
  concatenates_S8x252x64_S8x252x64_S8x252x64_S8x252x64_S8x252x64_S8x252x64_S8x252x64_S8x252x64_S8x252x512_d2 : Shape.Concatenates [S8x252x64, S8x252x64, S8x252x64, S8x252x64, S8x252x64, S8x252x64, S8x252x64, S8x252x64] S8x252x512 2
  concatenates_S8x252x512_S8x4x512_S8x256x512_d1 : Shape.Concatenates [S8x252x512, S8x4x512] S8x256x512 1
  shapeCasts_S8x256x512_S2048x512 : S8x256x512.ShapeCasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S8x256x128_o0_0_0_S8x252x128 : S8x256x128.Slices ![0, 0, 0] S8x252x128
  concatenates_S8x4x128_S8x252x128_S8x256x128_d1 : Shape.Concatenates [S8x4x128, S8x252x128] S8x256x128 1
  concatenates_S8x256x128_S8x4x128_S8x260x128_d1 : Shape.Concatenates [S8x256x128, S8x4x128] S8x260x128 1
  slices_S8x260x128_o0_0_0_S8x253x128 : S8x260x128.Slices ![0, 0, 0] S8x253x128
  slices_S8x260x128_o0_1_0_S8x253x128 : S8x260x128.Slices ![0, 1, 0] S8x253x128
  slices_S8x260x128_o0_2_0_S8x253x128 : S8x260x128.Slices ![0, 2, 0] S8x253x128
  slices_S8x260x128_o0_3_0_S8x253x128 : S8x260x128.Slices ![0, 3, 0] S8x253x128
  slices_S8x260x128_o0_4_0_S8x253x128 : S8x260x128.Slices ![0, 4, 0] S8x253x128
  slices_S8x260x128_o0_5_0_S8x253x128 : S8x260x128.Slices ![0, 5, 0] S8x253x128
  slices_S8x260x128_o0_6_0_S8x253x128 : S8x260x128.Slices ![0, 6, 0] S8x253x128
  slices_S8x260x128_o0_7_0_S8x253x128 : S8x260x128.Slices ![0, 7, 0] S8x253x128
  concatenates_S8x253x128_S8x253x128_S8x253x128_S8x253x128_S8x253x128_S8x253x128_S8x253x128_S8x253x128_S8x253x1024_d2 : Shape.Concatenates [S8x253x128, S8x253x128, S8x253x128, S8x253x128, S8x253x128, S8x253x128, S8x253x128, S8x253x128] S8x253x1024 2
  concatenates_S8x253x1024_S8x3x1024_S8x256x1024_d1 : Shape.Concatenates [S8x253x1024, S8x3x1024] S8x256x1024 1
  shapeCasts_S8x256x1024_S2048x1024 : S8x256x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S8x256x128_o0_0_0_S8x253x128 : S8x256x128.Slices ![0, 0, 0] S8x253x128
  concatenates_S8x2x128_S8x253x128_S8x255x128_d1 : Shape.Concatenates [S8x2x128, S8x253x128] S8x255x128 1
  concatenates_S8x255x128_S8x1x128_S8x256x128_d1 : Shape.Concatenates [S8x255x128, S8x1x128] S8x256x128 1
  shapeCasts_S8x256x128_S8x64x4x128 : S8x256x128.ShapeCasts S8x64x4x128
  reduces_S8x64x4x128_S8x64x128 : S8x64x4x128.Reduces [2] S8x64x128
  inb_S8x35x100_S8x35x100_0_0_0 : ∀ a, (![0, 0, 0] : Fin 3 → Nat) a + S8x35x100.size a ≤ S8x35x100.size a
  h_S8x35x100 : 0 < S8x35x100.numel
  shapeCasts_S8x35x100_S8x35x100 : S8x35x100.ShapeCasts S8x35x100
  slices_S8x35x100_o0_0_0_S8x31x100 : S8x35x100.Slices ![0, 0, 0] S8x31x100
  slices_S8x35x100_o0_1_0_S8x31x100 : S8x35x100.Slices ![0, 1, 0] S8x31x100
  slices_S8x35x100_o0_2_0_S8x31x100 : S8x35x100.Slices ![0, 2, 0] S8x31x100
  slices_S8x35x100_o0_3_0_S8x31x100 : S8x35x100.Slices ![0, 3, 0] S8x31x100
  slices_S8x35x100_o0_4_0_S8x31x100 : S8x35x100.Slices ![0, 4, 0] S8x31x100
  concatenates_S8x31x100_S8x31x100_S8x31x100_S8x31x100_S8x31x100_S8x31x500_d2 : Shape.Concatenates [S8x31x100, S8x31x100, S8x31x100, S8x31x100, S8x31x100] S8x31x500 2
  concatenates_S8x31x500_S8x1x500_S8x32x500_d1 : Shape.Concatenates [S8x31x500, S8x1x500] S8x32x500 1
  shapeCasts_S8x32x500_S256x500 : S8x32x500.ShapeCasts S256x500
  inb_S500x128_S500x128_0_0 : ∀ a, (![0, 0] : Fin 2 → Nat) a + S500x128.size a ≤ S500x128.size a
  h_S500x128 : 0 < S500x128.numel
  shapeCasts_S500x128_S500x128 : S500x128.ShapeCasts S500x128
  broadcasts_S1x128_S256x128 : S1x128.Broadcasts S256x128
  shapeCasts_S256x128_S8x32x128 : S256x128.ShapeCasts S8x32x128
  slices_S8x32x128_o0_0_0_S8x31x64 : S8x32x128.Slices ![0, 0, 0] S8x31x64
  slices_S8x32x128_o0_0_64_S8x31x64 : S8x32x128.Slices ![0, 0, 64] S8x31x64
  iota_S8x31x64_d1_w32 : S8x31x64.Iotas .tc 32 [1]
  concatenates_S8x1x64_S8x31x64_S8x32x64_d1 : Shape.Concatenates [S8x1x64, S8x31x64] S8x32x64 1
  slices_S8x32x64_o0_0_0_S8x31x64 : S8x32x64.Slices ![0, 0, 0] S8x31x64
  slices_S8x32x64_o0_1_0_S8x31x64 : S8x32x64.Slices ![0, 1, 0] S8x31x64
  concatenates_S8x3x64_S8x31x64_S8x34x64_d1 : Shape.Concatenates [S8x3x64, S8x31x64] S8x34x64 1
  concatenates_S8x34x64_S8x3x64_S8x37x64_d1 : Shape.Concatenates [S8x34x64, S8x3x64] S8x37x64 1
  slices_S8x37x64_o0_0_0_S8x31x64 : S8x37x64.Slices ![0, 0, 0] S8x31x64
  slices_S8x37x64_o0_1_0_S8x31x64 : S8x37x64.Slices ![0, 1, 0] S8x31x64
  slices_S8x37x64_o0_2_0_S8x31x64 : S8x37x64.Slices ![0, 2, 0] S8x31x64
  slices_S8x37x64_o0_3_0_S8x31x64 : S8x37x64.Slices ![0, 3, 0] S8x31x64
  slices_S8x37x64_o0_4_0_S8x31x64 : S8x37x64.Slices ![0, 4, 0] S8x31x64
  slices_S8x37x64_o0_5_0_S8x31x64 : S8x37x64.Slices ![0, 5, 0] S8x31x64
  slices_S8x37x64_o0_6_0_S8x31x64 : S8x37x64.Slices ![0, 6, 0] S8x31x64
  concatenates_S8x31x64_S8x31x64_S8x31x64_S8x31x64_S8x31x64_S8x31x64_S8x31x64_S8x31x448_d2 : Shape.Concatenates [S8x31x64, S8x31x64, S8x31x64, S8x31x64, S8x31x64, S8x31x64, S8x31x64] S8x31x448 2
  concatenates_S8x31x448_S8x1x448_S8x32x448_d1 : Shape.Concatenates [S8x31x448, S8x1x448] S8x32x448 1
  shapeCasts_S8x32x448_S256x448 : S8x32x448.ShapeCasts S256x448
  inb_S448x128_S448x128_0_0 : ∀ a, (![0, 0] : Fin 2 → Nat) a + S448x128.size a ≤ S448x128.size a
  h_S448x128 : 0 < S448x128.numel
  shapeCasts_S448x128_S448x128 : S448x128.ShapeCasts S448x128
  slices_S8x32x128_o0_0_0_S8x31x128 : S8x32x128.Slices ![0, 0, 0] S8x31x128
  concatenates_S8x3x128_S8x31x128_S8x34x128_d1 : Shape.Concatenates [S8x3x128, S8x31x128] S8x34x128 1
  concatenates_S8x34x128_S8x3x128_S8x37x128_d1 : Shape.Concatenates [S8x34x128, S8x3x128] S8x37x128 1
  slices_S8x37x128_o0_0_0_S8x31x128 : S8x37x128.Slices ![0, 0, 0] S8x31x128
  slices_S8x37x128_o0_1_0_S8x31x128 : S8x37x128.Slices ![0, 1, 0] S8x31x128
  slices_S8x37x128_o0_2_0_S8x31x128 : S8x37x128.Slices ![0, 2, 0] S8x31x128
  slices_S8x37x128_o0_3_0_S8x31x128 : S8x37x128.Slices ![0, 3, 0] S8x31x128
  slices_S8x37x128_o0_4_0_S8x31x128 : S8x37x128.Slices ![0, 4, 0] S8x31x128
  slices_S8x37x128_o0_5_0_S8x31x128 : S8x37x128.Slices ![0, 5, 0] S8x31x128
  slices_S8x37x128_o0_6_0_S8x31x128 : S8x37x128.Slices ![0, 6, 0] S8x31x128
  concatenates_S8x31x128_S8x31x128_S8x31x128_S8x31x128_S8x31x128_S8x31x128_S8x31x128_S8x31x896_d2 : Shape.Concatenates [S8x31x128, S8x31x128, S8x31x128, S8x31x128, S8x31x128, S8x31x128, S8x31x128] S8x31x896 2
  concatenates_S8x31x896_S8x1x896_S8x32x896_d1 : Shape.Concatenates [S8x31x896, S8x1x896] S8x32x896 1
  shapeCasts_S8x32x896_S256x896 : S8x32x896.ShapeCasts S256x896
  inb_S896x128_S896x128_0_0 : ∀ a, (![0, 0] : Fin 2 → Nat) a + S896x128.size a ≤ S896x128.size a
  h_S896x128 : 0 < S896x128.numel
  shapeCasts_S896x128_S896x128 : S896x128.ShapeCasts S896x128
  concatenates_S8x1x128_S8x31x128_S8x32x128_d1 : Shape.Concatenates [S8x1x128, S8x31x128] S8x32x128 1
  shapeCasts_S8x32x128_S8x16x2x128 : S8x32x128.ShapeCasts S8x16x2x128
  reduces_S8x16x2x128_S8x16x128 : S8x16x2x128.Reduces [2] S8x16x128
  concatenates_S8x64x128_S8x16x128_S8x80x128_d1 : Shape.Concatenates [S8x64x128, S8x16x128] S8x80x128 1
  transposes_S8x80x128_p0_2_1_S8x128x80 : S8x80x128.Transposes [0, 2, 1] S8x128x80
  inb_S8x128x80_S8x128x80_0_0_0 : ∀ a, (![0, 0, 0] : Fin 3 → Nat) a + S8x128x80.size a ≤ S8x128x80.size a
  h_S8x128x80 : 0 < S8x128x80.numel
  dot_S2048x60_S60x128_S2048x128_1_0_0_1_n_n_wf : DotDims.WF S2048x60 S60x128 S2048x128 [1] [0] [0] [1] [] []
  dot_S2048x512_S512x128_S2048x128_1_0_0_1_n_n_wf : DotDims.WF S2048x512 S512x128 S2048x128 [1] [0] [0] [1] [] []
  dot_S2048x1024_S1024x128_S2048x128_1_0_0_1_n_n_wf : DotDims.WF S2048x1024 S1024x128 S2048x128 [1] [0] [0] [1] [] []
  dot_S256x500_S500x128_S256x128_1_0_0_1_n_n_wf : DotDims.WF S256x500 S500x128 S256x128 [1] [0] [0] [1] [] []
  dot_S256x448_S448x128_S256x128_1_0_0_1_n_n_wf : DotDims.WF S256x448 S448x128 S256x128 [1] [0] [0] [1] [] []
  dot_S256x896_S896x128_S256x128_1_0_0_1_n_n_wf : DotDims.WF S256x896 S896x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x254x12.size a ≤ S2048x254x12.size a
  hwx0_0 : ∀ i : grid0.Coords, EltTy.bits .f32 = 32 ∨ (Rect.block (s := S2048x254x12) S8x254x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x35x100.size a ≤ S2048x35x100.size a
  hwx0_1 : ∀ i : grid0.Coords, EltTy.bits .f32 = 32 ∨ (Rect.block (s := S2048x35x100) S8x35x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S60x128.size a ≤ S60x128.size a
  hwx0_2 : ∀ i : grid0.Coords, EltTy.bits .f32 = 32 ∨ (Rect.block (s := S60x128) S60x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S1024x128.size a
  hwx0_6 : ∀ i : grid0.Coords, EltTy.bits .f32 = 32 ∨ (Rect.block (s := S1024x128) S1024x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S500x128.size a ≤ S500x128.size a
  hwx0_8 : ∀ i : grid0.Coords, EltTy.bits .f32 = 32 ∨ (Rect.block (s := S500x128) S500x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S448x128.size a ≤ S448x128.size a
  hwx0_10 : ∀ i : grid0.Coords, EltTy.bits .f32 = 32 ∨ (Rect.block (s := S448x128) S448x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S896x128.size a ≤ S896x128.size a
  hwx0_12 : ∀ i : grid0.Coords, EltTy.bits .f32 = 32 ∨ (Rect.block (s := S896x128) S896x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S8x128x80.size a ≤ S2048x128x80.size a
  hwx0_14 : ∀ i : grid0.Coords, EltTy.bits .f32 = 32 ∨ (Rect.block (s := S2048x128x80) S8x128x80.size (cc0_transform_14 i) (hinb0_14 i)).WholeWords (EltTy.packing .f32)

variable [Facts₀]

def dot_S2048x60_S60x128_S2048x128_1_0_0_1_n_n : DotDims S2048x60 S60x128 S2048x128 where
  lhsContracting := [1]
  rhsContracting := [0]
  lhsNonContracting := [0]
  rhsNonContracting := [1]
  lhsBatch := []
  rhsBatch := []
  wf := dot_S2048x60_S60x128_S2048x128_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S256x500_S500x128_S256x128_1_0_0_1_n_n : DotDims S256x500 S500x128 S256x128 where
  lhsContracting := [1]
  rhsContracting := [0]
  lhsNonContracting := [0]
  rhsNonContracting := [1]
  lhsBatch := []
  rhsBatch := []
  wf := dot_S256x500_S500x128_S256x128_1_0_0_1_n_n_wf
def dot_S256x448_S448x128_S256x128_1_0_0_1_n_n : DotDims S256x448 S448x128 S256x128 where
  lhsContracting := [1]
  rhsContracting := [0]
  lhsNonContracting := [0]
  rhsNonContracting := [1]
  lhsBatch := []
  rhsBatch := []
  wf := dot_S256x448_S448x128_S256x128_1_0_0_1_n_n_wf
def dot_S256x896_S896x128_S256x128_1_0_0_1_n_n : DotDims S256x896 S896x128 S256x128 where
  lhsContracting := [1]
  rhsContracting := [0]
  lhsNonContracting := [0]
  rhsNonContracting := [1]
  lhsBatch := []
  rhsBatch := []
  wf := dot_S256x896_S896x128_S256x128_1_0_0_1_n_n_wf

abbrev win0_0 : Pipeline.Window sig grid0 :=
  Pipeline.Window.ofSpec (Memref.whole main_v2) S8x254x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x35x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S60x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v44) S1024x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S500x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v62) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v73) S448x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v74) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v85) S896x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v86) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v87) S8x128x80.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S2048x1x3000 : Shape := ⟨3, ![2048, 1, 3000]⟩
abbrev S64x1x50 : Shape := ⟨3, ![64, 1, 50]⟩
abbrev S64 : Shape := ⟨1, ![64]⟩
abbrev S128x64x8 : Shape := ⟨3, ![128, 64, 8]⟩
abbrev S128 : Shape := ⟨1, ![128]⟩
abbrev S128x128x8 : Shape := ⟨3, ![128, 128, 8]⟩
abbrev S64x1x400 : Shape := ⟨3, ![64, 1, 400]⟩
abbrev S128x64x7 : Shape := ⟨3, ![128, 64, 7]⟩
abbrev S128x128x7 : Shape := ⟨3, ![128, 128, 7]⟩
abbrev S2048x3000x1 : Shape := ⟨3, ![2048, 3000, 1]⟩
abbrev S_ : Shape := ⟨0, ![]⟩
abbrev S2048x3048x1 : Shape := ⟨3, ![2048, 3048, 1]⟩
abbrev S2048x508x6x1 : Shape := ⟨4, ![2048, 508, 6, 1]⟩
abbrev S2048x508x1x6 : Shape := ⟨4, ![2048, 508, 1, 6]⟩
abbrev S2048x508x6 : Shape := ⟨3, ![2048, 508, 6]⟩
abbrev S64x1x54 : Shape := ⟨3, ![64, 1, 54]⟩
abbrev S64x1x9x6 : Shape := ⟨4, ![64, 1, 9, 6]⟩
abbrev S9x1x6x64 : Shape := ⟨4, ![9, 1, 6, 64]⟩
abbrev S9x6x64 : Shape := ⟨3, ![9, 6, 64]⟩
abbrev S1x64 : Shape := ⟨2, ![1, 64]⟩
abbrev S2048x500x64 : Shape := ⟨3, ![2048, 500, 64]⟩
abbrev S1x508x6 : Shape := ⟨3, ![1, 508, 6]⟩
abbrev S1x500x64 : Shape := ⟨3, ![1, 500, 64]⟩
abbrev S500x64 : Shape := ⟨2, ![500, 64]⟩
abbrev S1x500x6 : Shape := ⟨3, ![1, 500, 6]⟩
abbrev S500x6 : Shape := ⟨2, ![500, 6]⟩
abbrev S1x6x64 : Shape := ⟨3, ![1, 6, 64]⟩
abbrev S6x64 : Shape := ⟨2, ![6, 64]⟩
abbrev S2048x508x64 : Shape := ⟨3, ![2048, 508, 64]⟩
abbrev S2048x254x2x64 : Shape := ⟨4, ![2048, 254, 2, 64]⟩
abbrev S2048x2x254x64 : Shape := ⟨4, ![2048, 2, 254, 64]⟩
abbrev S2048x251x64 : Shape := ⟨3, ![2048, 251, 64]⟩
abbrev S1x2x254x64 : Shape := ⟨4, ![1, 2, 254, 64]⟩
abbrev S1x251x64 : Shape := ⟨3, ![1, 251, 64]⟩
abbrev S2x254x64 : Shape := ⟨3, ![2, 254, 64]⟩
abbrev S254x64 : Shape := ⟨2, ![254, 64]⟩
abbrev S251x64 : Shape := ⟨2, ![251, 64]⟩
abbrev S2048x259x64 : Shape := ⟨3, ![2048, 259, 64]⟩
abbrev S2048x259x1x64 : Shape := ⟨4, ![2048, 259, 1, 64]⟩
abbrev S2048x259x64x1 : Shape := ⟨4, ![2048, 259, 64, 1]⟩
abbrev S128x64x8x1 : Shape := ⟨4, ![128, 64, 8, 1]⟩
abbrev S8x64x1x128 : Shape := ⟨4, ![8, 64, 1, 128]⟩
abbrev S8x64x128 : Shape := ⟨3, ![8, 64, 128]⟩
abbrev S1x128 : Shape := ⟨2, ![1, 128]⟩
abbrev S2048x252x128 : Shape := ⟨3, ![2048, 252, 128]⟩
abbrev S1x259x64 : Shape := ⟨3, ![1, 259, 64]⟩
abbrev S1x252x128 : Shape := ⟨3, ![1, 252, 128]⟩
abbrev S252x128 : Shape := ⟨2, ![252, 128]⟩
abbrev S1x252x64 : Shape := ⟨3, ![1, 252, 64]⟩
abbrev S252x64 : Shape := ⟨2, ![252, 64]⟩
abbrev S1x64x128 : Shape := ⟨3, ![1, 64, 128]⟩
abbrev S64x128 : Shape := ⟨2, ![64, 128]⟩
abbrev S2048x260x128 : Shape := ⟨3, ![2048, 260, 128]⟩
abbrev S2048x260x1x128 : Shape := ⟨4, ![2048, 260, 1, 128]⟩
abbrev S2048x260x128x1 : Shape := ⟨4, ![2048, 260, 128, 1]⟩
abbrev S128x128x8x1 : Shape := ⟨4, ![128, 128, 8, 1]⟩
abbrev S8x128x1x128 : Shape := ⟨4, ![8, 128, 1, 128]⟩
abbrev S8x128x128 : Shape := ⟨3, ![8, 128, 128]⟩
abbrev S2048x253x128 : Shape := ⟨3, ![2048, 253, 128]⟩
abbrev S1x260x128 : Shape := ⟨3, ![1, 260, 128]⟩
abbrev S1x253x128 : Shape := ⟨3, ![1, 253, 128]⟩
abbrev S253x128 : Shape := ⟨2, ![253, 128]⟩
abbrev S1x128x128 : Shape := ⟨3, ![1, 128, 128]⟩
abbrev S128x128 : Shape := ⟨2, ![128, 128]⟩
abbrev S2048x256x128 : Shape := ⟨3, ![2048, 256, 128]⟩
abbrev S2048x64x4x128 : Shape := ⟨4, ![2048, 64, 4, 128]⟩
abbrev S2048x4x64x128 : Shape := ⟨4, ![2048, 4, 64, 128]⟩
abbrev S2048x64x128 : Shape := ⟨3, ![2048, 64, 128]⟩
abbrev S1x4x64x128 : Shape := ⟨4, ![1, 4, 64, 128]⟩
abbrev S4x64x128 : Shape := ⟨3, ![4, 64, 128]⟩
abbrev S2048x3400x1 : Shape := ⟨3, ![2048, 3400, 1]⟩
abbrev S2048x68x50x1 : Shape := ⟨4, ![2048, 68, 50, 1]⟩
abbrev S2048x68x1x50 : Shape := ⟨4, ![2048, 68, 1, 50]⟩
abbrev S2048x68x50 : Shape := ⟨3, ![2048, 68, 50]⟩
abbrev S64x1x8x50 : Shape := ⟨4, ![64, 1, 8, 50]⟩
abbrev S8x1x50x64 : Shape := ⟨4, ![8, 1, 50, 64]⟩
abbrev S8x50x64 : Shape := ⟨3, ![8, 50, 64]⟩
abbrev S2048x61x64 : Shape := ⟨3, ![2048, 61, 64]⟩
abbrev S1x68x50 : Shape := ⟨3, ![1, 68, 50]⟩
abbrev S1x61x64 : Shape := ⟨3, ![1, 61, 64]⟩
abbrev S61x64 : Shape := ⟨2, ![61, 64]⟩
abbrev S1x61x50 : Shape := ⟨3, ![1, 61, 50]⟩
abbrev S61x50 : Shape := ⟨2, ![61, 50]⟩
abbrev S1x50x64 : Shape := ⟨3, ![1, 50, 64]⟩
abbrev S50x64 : Shape := ⟨2, ![50, 64]⟩
abbrev S2048x64x64 : Shape := ⟨3, ![2048, 64, 64]⟩
abbrev S2048x32x2x64 : Shape := ⟨4, ![2048, 32, 2, 64]⟩
abbrev S2048x2x32x64 : Shape := ⟨4, ![2048, 2, 32, 64]⟩
abbrev S2048x31x64 : Shape := ⟨3, ![2048, 31, 64]⟩
abbrev S1x2x32x64 : Shape := ⟨4, ![1, 2, 32, 64]⟩
abbrev S1x31x64 : Shape := ⟨3, ![1, 31, 64]⟩
abbrev S2x32x64 : Shape := ⟨3, ![2, 32, 64]⟩
abbrev S32x64 : Shape := ⟨2, ![32, 64]⟩
abbrev S31x64 : Shape := ⟨2, ![31, 64]⟩
abbrev S2048x37x64 : Shape := ⟨3, ![2048, 37, 64]⟩
abbrev S2048x37x1x64 : Shape := ⟨4, ![2048, 37, 1, 64]⟩
abbrev S2048x37x64x1 : Shape := ⟨4, ![2048, 37, 64, 1]⟩
abbrev S128x64x7x1 : Shape := ⟨4, ![128, 64, 7, 1]⟩
abbrev S7x64x1x128 : Shape := ⟨4, ![7, 64, 1, 128]⟩
abbrev S7x64x128 : Shape := ⟨3, ![7, 64, 128]⟩
abbrev S2048x31x128 : Shape := ⟨3, ![2048, 31, 128]⟩
abbrev S1x37x64 : Shape := ⟨3, ![1, 37, 64]⟩
abbrev S1x31x128 : Shape := ⟨3, ![1, 31, 128]⟩
abbrev S31x128 : Shape := ⟨2, ![31, 128]⟩
abbrev S2048x37x128 : Shape := ⟨3, ![2048, 37, 128]⟩
abbrev S2048x37x1x128 : Shape := ⟨4, ![2048, 37, 1, 128]⟩
abbrev S2048x37x128x1 : Shape := ⟨4, ![2048, 37, 128, 1]⟩
abbrev S128x128x7x1 : Shape := ⟨4, ![128, 128, 7, 1]⟩
abbrev S7x128x1x128 : Shape := ⟨4, ![7, 128, 1, 128]⟩
abbrev S7x128x128 : Shape := ⟨3, ![7, 128, 128]⟩
abbrev S1x37x128 : Shape := ⟨3, ![1, 37, 128]⟩
abbrev S2048x32x128 : Shape := ⟨3, ![2048, 32, 128]⟩
abbrev S2048x16x2x128 : Shape := ⟨4, ![2048, 16, 2, 128]⟩
abbrev S2048x2x16x128 : Shape := ⟨4, ![2048, 2, 16, 128]⟩
abbrev S2048x16x128 : Shape := ⟨3, ![2048, 16, 128]⟩
abbrev S1x2x16x128 : Shape := ⟨4, ![1, 2, 16, 128]⟩
abbrev S1x16x128 : Shape := ⟨3, ![1, 16, 128]⟩
abbrev S2x16x128 : Shape := ⟨3, ![2, 16, 128]⟩
abbrev S16x128 : Shape := ⟨2, ![16, 128]⟩
abbrev S2048x80x128 : Shape := ⟨3, ![2048, 80, 128]⟩
abbrev S2048x128x80 : Shape := ⟨3, ![2048, 128, 80]⟩

abbrev nBuf : Space → Nat
  | .hbm => 190
  | .vmem => 58
  | .smem => 0
  | _ => 0

abbrev hbmTy0_0 (i : Nat) : BufTy := match i % 128 with
  | 0 => ⟨S2048x1x3000, .f32⟩
  | 1 => ⟨S64x1x50, .f32⟩
  | 2 => ⟨S64, .f32⟩
  | 3 => ⟨S64, .f32⟩
  | 4 => ⟨S64, .f32⟩
  | 5 => ⟨S64, .f32⟩
  | 6 => ⟨S128x64x8, .f32⟩
  | 7 => ⟨S128, .f32⟩
  | 8 => ⟨S128, .f32⟩
  | 9 => ⟨S128, .f32⟩
  | 10 => ⟨S128, .f32⟩
  | 11 => ⟨S128x128x8, .f32⟩
  | 12 => ⟨S128, .f32⟩
  | 13 => ⟨S128, .f32⟩
  | 14 => ⟨S128, .f32⟩
  | 15 => ⟨S128, .f32⟩
  | 16 => ⟨S64x1x400, .f32⟩
  | 17 => ⟨S64, .f32⟩
  | 18 => ⟨S64, .f32⟩
  | 19 => ⟨S64, .f32⟩
  | 20 => ⟨S64, .f32⟩
  | 21 => ⟨S128x64x7, .f32⟩
  | 22 => ⟨S128, .f32⟩
  | 23 => ⟨S128, .f32⟩
  | 24 => ⟨S128, .f32⟩
  | 25 => ⟨S128, .f32⟩
  | 26 => ⟨S128x128x7, .f32⟩
  | 27 => ⟨S128, .f32⟩
  | 28 => ⟨S128, .f32⟩
  | 29 => ⟨S128, .f32⟩
  | 30 => ⟨S128, .f32⟩
  | 31 => ⟨S2048x3000x1, .f32⟩
  | 32 => ⟨S_, .i32⟩
  | 33 => ⟨S_, .f32⟩
  | 34 => ⟨S2048x3048x1, .f32⟩
  | 35 => ⟨S2048x508x6x1, .f32⟩
  | 36 => ⟨S2048x508x1x6, .f32⟩
  | 37 => ⟨S2048x508x6, .f32⟩
  | 38 => ⟨S_, .i32⟩
  | 39 => ⟨S_, .f32⟩
  | 40 => ⟨S64x1x54, .f32⟩
  | 41 => ⟨S64x1x9x6, .f32⟩
  | 42 => ⟨S9x1x6x64, .f32⟩
  | 43 => ⟨S9x6x64, .f32⟩
  | 44 => ⟨S_, .f32⟩
  | 45 => ⟨S64, .f32⟩
  | 46 => ⟨S64, .f32⟩
  | 47 => ⟨S64, .f32⟩
  | 48 => ⟨S64, .f32⟩
  | 49 => ⟨S1x64, .f32⟩
  | 50 => ⟨S64, .f32⟩
  | 51 => ⟨S64, .f32⟩
  | 52 => ⟨S1x64, .f32⟩
  | 53 => ⟨S2048x500x64, .f32⟩
  | 54 => ⟨S_, .f32⟩
  | 55 => ⟨S_, .f32⟩
  | 56 => ⟨S2048x508x64, .f32⟩
  | 57 => ⟨S2048x254x2x64, .f32⟩
  | 58 => ⟨S2048x2x254x64, .f32⟩
  | 59 => ⟨S2048x251x64, .f32⟩
  | 60 => ⟨S_, .i32⟩
  | 61 => ⟨S_, .f32⟩
  | 62 => ⟨S2048x259x64, .f32⟩
  | 63 => ⟨S2048x259x1x64, .f32⟩
  | 64 => ⟨S2048x259x64x1, .f32⟩
  | 65 => ⟨S2048x259x64, .f32⟩
  | 66 => ⟨S_, .i32⟩
  | 67 => ⟨S_, .f32⟩
  | 68 => ⟨S128x64x8, .f32⟩
  | 69 => ⟨S128x64x8x1, .f32⟩
  | 70 => ⟨S8x64x1x128, .f32⟩
  | 71 => ⟨S8x64x128, .f32⟩
  | 72 => ⟨S_, .f32⟩
  | 73 => ⟨S128, .f32⟩
  | 74 => ⟨S128, .f32⟩
  | 75 => ⟨S128, .f32⟩
  | 76 => ⟨S128, .f32⟩
  | 77 => ⟨S1x128, .f32⟩
  | 78 => ⟨S128, .f32⟩
  | 79 => ⟨S128, .f32⟩
  | 80 => ⟨S1x128, .f32⟩
  | 81 => ⟨S2048x252x128, .f32⟩
  | 82 => ⟨S_, .i32⟩
  | 83 => ⟨S_, .f32⟩
  | 84 => ⟨S2048x260x128, .f32⟩
  | 85 => ⟨S2048x260x1x128, .f32⟩
  | 86 => ⟨S2048x260x128x1, .f32⟩
  | 87 => ⟨S2048x260x128, .f32⟩
  | 88 => ⟨S_, .i32⟩
  | 89 => ⟨S_, .f32⟩
  | 90 => ⟨S128x128x8, .f32⟩
  | 91 => ⟨S128x128x8x1, .f32⟩
  | 92 => ⟨S8x128x1x128, .f32⟩
  | 93 => ⟨S8x128x128, .f32⟩
  | 94 => ⟨S_, .f32⟩
  | 95 => ⟨S128, .f32⟩
  | 96 => ⟨S128, .f32⟩
  | 97 => ⟨S128, .f32⟩
  | 98 => ⟨S128, .f32⟩
  | 99 => ⟨S1x128, .f32⟩
  | 100 => ⟨S128, .f32⟩
  | 101 => ⟨S128, .f32⟩
  | 102 => ⟨S1x128, .f32⟩
  | 103 => ⟨S2048x253x128, .f32⟩
  | 104 => ⟨S_, .f32⟩
  | 105 => ⟨S_, .f32⟩
  | 106 => ⟨S2048x256x128, .f32⟩
  | 107 => ⟨S2048x64x4x128, .f32⟩
  | 108 => ⟨S2048x4x64x128, .f32⟩
  | 109 => ⟨S2048x64x128, .f32⟩
  | 110 => ⟨S_, .i32⟩
  | 111 => ⟨S_, .f32⟩
  | 112 => ⟨S2048x3400x1, .f32⟩
  | 113 => ⟨S2048x68x50x1, .f32⟩
  | 114 => ⟨S2048x68x1x50, .f32⟩
  | 115 => ⟨S2048x68x50, .f32⟩
  | 116 => ⟨S_, .i32⟩
  | 117 => ⟨S_, .f32⟩
  | 118 => ⟨S64x1x400, .f32⟩
  | 119 => ⟨S64x1x8x50, .f32⟩
  | 120 => ⟨S8x1x50x64, .f32⟩
  | 121 => ⟨S8x50x64, .f32⟩
  | 122 => ⟨S_, .f32⟩
  | 123 => ⟨S64, .f32⟩
  | 124 => ⟨S64, .f32⟩
  | 125 => ⟨S64, .f32⟩
  | 126 => ⟨S64, .f32⟩
  | 127 => ⟨S1x64, .f32⟩
  | _ => ⟨S2048x1x3000, .f32⟩

abbrev hbmTy0_1 (i : Nat) : BufTy := match i % 128 with
  | 0 => ⟨S64, .f32⟩
  | 1 => ⟨S64, .f32⟩
  | 2 => ⟨S1x64, .f32⟩
  | 3 => ⟨S2048x61x64, .f32⟩
  | 4 => ⟨S_, .f32⟩
  | 5 => ⟨S_, .f32⟩
  | 6 => ⟨S2048x64x64, .f32⟩
  | 7 => ⟨S2048x32x2x64, .f32⟩
  | 8 => ⟨S2048x2x32x64, .f32⟩
  | 9 => ⟨S2048x31x64, .f32⟩
  | 10 => ⟨S_, .i32⟩
  | 11 => ⟨S_, .f32⟩
  | 12 => ⟨S2048x37x64, .f32⟩
  | 13 => ⟨S2048x37x1x64, .f32⟩
  | 14 => ⟨S2048x37x64x1, .f32⟩
  | 15 => ⟨S2048x37x64, .f32⟩
  | 16 => ⟨S_, .i32⟩
  | 17 => ⟨S_, .f32⟩
  | 18 => ⟨S128x64x7, .f32⟩
  | 19 => ⟨S128x64x7x1, .f32⟩
  | 20 => ⟨S7x64x1x128, .f32⟩
  | 21 => ⟨S7x64x128, .f32⟩
  | 22 => ⟨S_, .f32⟩
  | 23 => ⟨S128, .f32⟩
  | 24 => ⟨S128, .f32⟩
  | 25 => ⟨S128, .f32⟩
  | 26 => ⟨S128, .f32⟩
  | 27 => ⟨S1x128, .f32⟩
  | 28 => ⟨S128, .f32⟩
  | 29 => ⟨S128, .f32⟩
  | 30 => ⟨S1x128, .f32⟩
  | 31 => ⟨S2048x31x128, .f32⟩
  | 32 => ⟨S_, .i32⟩
  | 33 => ⟨S_, .f32⟩
  | 34 => ⟨S2048x37x128, .f32⟩
  | 35 => ⟨S2048x37x1x128, .f32⟩
  | 36 => ⟨S2048x37x128x1, .f32⟩
  | 37 => ⟨S2048x37x128, .f32⟩
  | 38 => ⟨S_, .i32⟩
  | 39 => ⟨S_, .f32⟩
  | 40 => ⟨S128x128x7, .f32⟩
  | 41 => ⟨S128x128x7x1, .f32⟩
  | 42 => ⟨S7x128x1x128, .f32⟩
  | 43 => ⟨S7x128x128, .f32⟩
  | 44 => ⟨S_, .f32⟩
  | 45 => ⟨S128, .f32⟩
  | 46 => ⟨S128, .f32⟩
  | 47 => ⟨S128, .f32⟩
  | 48 => ⟨S128, .f32⟩
  | 49 => ⟨S1x128, .f32⟩
  | 50 => ⟨S128, .f32⟩
  | 51 => ⟨S128, .f32⟩
  | 52 => ⟨S1x128, .f32⟩
  | 53 => ⟨S2048x31x128, .f32⟩
  | 54 => ⟨S_, .f32⟩
  | 55 => ⟨S_, .f32⟩
  | 56 => ⟨S2048x32x128, .f32⟩
  | 57 => ⟨S2048x16x2x128, .f32⟩
  | 58 => ⟨S2048x2x16x128, .f32⟩
  | 59 => ⟨S2048x16x128, .f32⟩
  | 60 => ⟨S2048x80x128, .f32⟩
  | 61 => ⟨S2048x128x80, .f32⟩
  | _ => ⟨S2048x1x3000, .f32⟩

abbrev hbmTy (i : Nat) : BufTy := match i / 128 with
  | 0 => hbmTy0_0 i
  | 1 => hbmTy0_1 i
  | _ => ⟨S2048x1x3000, .f32⟩

abbrev bufTy : (tb : Table) → Fin (tcTables nBuf tb) → BufTy
  | .hbm, ⟨i, _⟩ => hbmTy i
  | .local _ .vmem, ⟨0, _⟩ => ⟨S1x508x6, .f32⟩
  | .local _ .vmem, ⟨1, _⟩ => ⟨S1x508x6, .f32⟩
  | .local _ .vmem, ⟨2, _⟩ => ⟨S9x6x64, .f32⟩
  | .local _ .vmem, ⟨3, _⟩ => ⟨S1x64, .f32⟩
  | .local _ .vmem, ⟨4, _⟩ => ⟨S1x64, .f32⟩
  | .local _ .vmem, ⟨5, _⟩ => ⟨S1x500x64, .f32⟩
  | .local _ .vmem, ⟨6, _⟩ => ⟨S1x500x64, .f32⟩
  | .local _ .vmem, ⟨7, _⟩ => ⟨S1x2x254x64, .f32⟩
  | .local _ .vmem, ⟨8, _⟩ => ⟨S1x2x254x64, .f32⟩
  | .local _ .vmem, ⟨9, _⟩ => ⟨S1x251x64, .f32⟩
  | .local _ .vmem, ⟨10, _⟩ => ⟨S1x251x64, .f32⟩
  | .local _ .vmem, ⟨11, _⟩ => ⟨S1x259x64, .f32⟩
  | .local _ .vmem, ⟨12, _⟩ => ⟨S1x259x64, .f32⟩
  | .local _ .vmem, ⟨13, _⟩ => ⟨S8x64x128, .f32⟩
  | .local _ .vmem, ⟨14, _⟩ => ⟨S1x128, .f32⟩
  | .local _ .vmem, ⟨15, _⟩ => ⟨S1x128, .f32⟩
  | .local _ .vmem, ⟨16, _⟩ => ⟨S1x252x128, .f32⟩
  | .local _ .vmem, ⟨17, _⟩ => ⟨S1x252x128, .f32⟩
  | .local _ .vmem, ⟨18, _⟩ => ⟨S1x260x128, .f32⟩
  | .local _ .vmem, ⟨19, _⟩ => ⟨S1x260x128, .f32⟩
  | .local _ .vmem, ⟨20, _⟩ => ⟨S8x128x128, .f32⟩
  | .local _ .vmem, ⟨21, _⟩ => ⟨S1x128, .f32⟩
  | .local _ .vmem, ⟨22, _⟩ => ⟨S1x128, .f32⟩
  | .local _ .vmem, ⟨23, _⟩ => ⟨S1x253x128, .f32⟩
  | .local _ .vmem, ⟨24, _⟩ => ⟨S1x253x128, .f32⟩
  | .local _ .vmem, ⟨25, _⟩ => ⟨S1x4x64x128, .f32⟩
  | .local _ .vmem, ⟨26, _⟩ => ⟨S1x4x64x128, .f32⟩
  | .local _ .vmem, ⟨27, _⟩ => ⟨S1x64x128, .f32⟩
  | .local _ .vmem, ⟨28, _⟩ => ⟨S1x64x128, .f32⟩
  | .local _ .vmem, ⟨29, _⟩ => ⟨S1x68x50, .f32⟩
  | .local _ .vmem, ⟨30, _⟩ => ⟨S1x68x50, .f32⟩
  | .local _ .vmem, ⟨31, _⟩ => ⟨S8x50x64, .f32⟩
  | .local _ .vmem, ⟨32, _⟩ => ⟨S1x64, .f32⟩
  | .local _ .vmem, ⟨33, _⟩ => ⟨S1x64, .f32⟩
  | .local _ .vmem, ⟨34, _⟩ => ⟨S1x61x64, .f32⟩
  | .local _ .vmem, ⟨35, _⟩ => ⟨S1x61x64, .f32⟩
  | .local _ .vmem, ⟨36, _⟩ => ⟨S1x2x32x64, .f32⟩
  | .local _ .vmem, ⟨37, _⟩ => ⟨S1x2x32x64, .f32⟩
  | .local _ .vmem, ⟨38, _⟩ => ⟨S1x31x64, .f32⟩
  | .local _ .vmem, ⟨39, _⟩ => ⟨S1x31x64, .f32⟩
  | .local _ .vmem, ⟨40, _⟩ => ⟨S1x37x64, .f32⟩
  | .local _ .vmem, ⟨41, _⟩ => ⟨S1x37x64, .f32⟩
  | .local _ .vmem, ⟨42, _⟩ => ⟨S7x64x128, .f32⟩
  | .local _ .vmem, ⟨43, _⟩ => ⟨S1x128, .f32⟩
  | .local _ .vmem, ⟨44, _⟩ => ⟨S1x128, .f32⟩
  | .local _ .vmem, ⟨45, _⟩ => ⟨S1x31x128, .f32⟩
  | .local _ .vmem, ⟨46, _⟩ => ⟨S1x31x128, .f32⟩
  | .local _ .vmem, ⟨47, _⟩ => ⟨S1x37x128, .f32⟩
  | .local _ .vmem, ⟨48, _⟩ => ⟨S1x37x128, .f32⟩
  | .local _ .vmem, ⟨49, _⟩ => ⟨S7x128x128, .f32⟩
  | .local _ .vmem, ⟨50, _⟩ => ⟨S1x128, .f32⟩
  | .local _ .vmem, ⟨51, _⟩ => ⟨S1x128, .f32⟩
  | .local _ .vmem, ⟨52, _⟩ => ⟨S1x31x128, .f32⟩
  | .local _ .vmem, ⟨53, _⟩ => ⟨S1x31x128, .f32⟩
  | .local _ .vmem, ⟨54, _⟩ => ⟨S1x2x16x128, .f32⟩
  | .local _ .vmem, ⟨55, _⟩ => ⟨S1x2x16x128, .f32⟩
  | .local _ .vmem, ⟨56, _⟩ => ⟨S1x16x128, .f32⟩
  | .local _ .vmem, ⟨57, _⟩ => ⟨S1x16x128, .f32⟩
  | _, _ => ⟨S2048x1x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_c : Ref sig .tc := ⟨.hbm, 32, rfl⟩
abbrev main_call0_v0 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_c_0 : Ref sig .tc := ⟨.hbm, 38, rfl⟩
abbrev main_call1_v0 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_cst : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_1 : Ref sig .tc := ⟨.hbm, 54, rfl⟩
abbrev main_call2_v0 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_2 : Ref sig .tc := ⟨.hbm, 60, rfl⟩
abbrev main_call3_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_c_3 : Ref sig .tc := ⟨.hbm, 66, rfl⟩
abbrev main_call4_v0 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_c_5 : Ref sig .tc := ⟨.hbm, 82, rfl⟩
abbrev main_call5_v0 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_c_6 : Ref sig .tc := ⟨.hbm, 88, rfl⟩
abbrev main_call6_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_7 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_8 : Ref sig .tc := ⟨.hbm, 104, rfl⟩
abbrev main_call7_v0 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_c_9 : Ref sig .tc := ⟨.hbm, 110, rfl⟩
abbrev main_call8_v0 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_c_10 : Ref sig .tc := ⟨.hbm, 116, rfl⟩
abbrev main_call9_v0 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_cst_11 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_cst_12 : Ref sig .tc := ⟨.hbm, 132, rfl⟩
abbrev main_call10_v0 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_c_13 : Ref sig .tc := ⟨.hbm, 138, rfl⟩
abbrev main_call11_v0 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_c_14 : Ref sig .tc := ⟨.hbm, 144, rfl⟩
abbrev main_call12_v0 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_cst_15 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_c_16 : Ref sig .tc := ⟨.hbm, 160, rfl⟩
abbrev main_call13_v0 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_c_17 : Ref sig .tc := ⟨.hbm, 166, rfl⟩
abbrev main_call14_v0 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_cst_18 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_19 : Ref sig .tc := ⟨.hbm, 182, rfl⟩
abbrev main_call15_v0 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg4_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc7_stg0_0 : Ref sig .tc := ⟨.vmem, 40, rfl⟩
abbrev cc7_stg0_1 : Ref sig .tc := ⟨.vmem, 41, rfl⟩
abbrev cc7_stg1_0 : Ref sig .tc := ⟨.vmem, 42, rfl⟩
abbrev cc7_stg2_0 : Ref sig .tc := ⟨.vmem, 43, rfl⟩
abbrev cc7_stg3_0 : Ref sig .tc := ⟨.vmem, 44, rfl⟩
abbrev cc7_stg4_0 : Ref sig .tc := ⟨.vmem, 45, rfl⟩
abbrev cc7_stg4_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg3_0 : Ref sig .tc := ⟨.vmem, 51, rfl⟩
abbrev cc8_stg4_0 : Ref sig .tc := ⟨.vmem, 52, rfl⟩
abbrev cc8_stg4_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc7_sem0_0 : DmaSem sig := 40
abbrev cc7_sem0_1 : DmaSem sig := 41
abbrev cc7_sem1_0 : DmaSem sig := 42
abbrev cc7_sem2_0 : DmaSem sig := 43
abbrev cc7_sem3_0 : DmaSem sig := 44
abbrev cc7_sem4_0 : DmaSem sig := 45
abbrev cc7_sem4_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem3_0 : DmaSem sig := 51
abbrev cc8_sem4_0 : DmaSem sig := 52
abbrev cc8_sem4_1 : DmaSem sig := 53
abbrev cc9_sem0_0 : DmaSem sig := 54
abbrev cc9_sem0_1 : DmaSem sig := 55
abbrev cc9_sem1_0 : DmaSem sig := 56
abbrev cc9_sem1_1 : DmaSem sig := 57

abbrev nD : Nat := 1
abbrev τ : Topo := Topo.v7x

variable {F : FTy → Type} [FloatOps F]

abbrev grid0 : Pipeline.Grid := ⟨1, ![2048], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x508x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x500x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![2048], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x254x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x251x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![2048], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x259x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x252x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![2048], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x260x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x253x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![2048], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x4x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x64x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![2048], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x68x50 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S8x50x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x61x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![2048], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x2x32x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x31x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev grid7 : Pipeline.Grid := ⟨1, ![2048], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x37x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S7x64x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x31x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![2048], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x37x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S7x128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S1x31x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![2048], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x2x16x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x16x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

class Facts₀ : Prop where
  transposes_S2048x1x3000_S2048x3000x1_0_2_1 : S2048x1x3000.Transposes [0, 2, 1] S2048x3000x1
  pads_S2048x3000x1_S2048x3048x1_000_24240_000 : S2048x3000x1.Pads (![0, 24, 0] : Fin 3 → Nat) ![0, 24, 0] ![0, 0, 0] S2048x3048x1
  h_S_ : 0 < S_.numel
  shapeCasts_S2048x3048x1_S2048x508x6x1 : S2048x3048x1.ShapeCasts S2048x508x6x1
  transposes_S2048x508x6x1_S2048x508x1x6_0_1_3_2 : S2048x508x6x1.Transposes [0, 1, 3, 2] S2048x508x1x6
  shapeCasts_S2048x508x1x6_S2048x508x6 : S2048x508x1x6.ShapeCasts S2048x508x6
  pads_S64x1x50_S64x1x54_000_000_040 : S64x1x50.Pads (![0, 0, 0] : Fin 3 → Nat) ![0, 0, 4] ![0, 0, 0] S64x1x54
  shapeCasts_S64x1x54_S64x1x9x6 : S64x1x54.ShapeCasts S64x1x9x6
  transposes_S64x1x9x6_S9x1x6x64_2_1_3_0 : S64x1x9x6.Transposes [2, 1, 3, 0] S9x1x6x64
  shapeCasts_S9x1x6x64_S9x6x64 : S9x1x6x64.ShapeCasts S9x6x64
  bcast_S_S64 : S_.BroadcastsInDim S64 (![] : Fin 0 → Fin S64.rank)
  shapeCasts_S64_S1x64 : S64.ShapeCasts S1x64
  inb_S1x508x6_S1x500x6_0_0_0 : ∀ a, (![0, 0, 0] : Fin 3 → Nat) a + S1x500x6.size a ≤ S1x508x6.size a
  h_S1x500x6 : 0 < S1x500x6.numel
  shapeCasts_S1x500x6_S500x6 : S1x500x6.ShapeCasts S500x6
  inb_S9x6x64_S1x6x64_0_0_0 : ∀ a, (![0, 0, 0] : Fin 3 → Nat) a + S1x6x64.size a ≤ S9x6x64.size a
  h_S1x6x64 : 0 < S1x6x64.numel
  shapeCasts_S1x6x64_S6x64 : S1x6x64.ShapeCasts S6x64
  inb_S1x508x6_S1x500x6_0_1_0 : ∀ a, (![0, 1, 0] : Fin 3 → Nat) a + S1x500x6.size a ≤ S1x508x6.size a
  inb_S9x6x64_S1x6x64_1_0_0 : ∀ a, (![1, 0, 0] : Fin 3 → Nat) a + S1x6x64.size a ≤ S9x6x64.size a
  inb_S1x508x6_S1x500x6_0_2_0 : ∀ a, (![0, 2, 0] : Fin 3 → Nat) a + S1x500x6.size a ≤ S1x508x6.size a
  inb_S9x6x64_S1x6x64_2_0_0 : ∀ a, (![2, 0, 0] : Fin 3 → Nat) a + S1x6x64.size a ≤ S9x6x64.size a
  inb_S1x508x6_S1x500x6_0_3_0 : ∀ a, (![0, 3, 0] : Fin 3 → Nat) a + S1x500x6.size a ≤ S1x508x6.size a
  inb_S9x6x64_S1x6x64_3_0_0 : ∀ a, (![3, 0, 0] : Fin 3 → Nat) a + S1x6x64.size a ≤ S9x6x64.size a
  inb_S1x508x6_S1x500x6_0_4_0 : ∀ a, (![0, 4, 0] : Fin 3 → Nat) a + S1x500x6.size a ≤ S1x508x6.size a
  inb_S9x6x64_S1x6x64_4_0_0 : ∀ a, (![4, 0, 0] : Fin 3 → Nat) a + S1x6x64.size a ≤ S9x6x64.size a
  inb_S1x508x6_S1x500x6_0_5_0 : ∀ a, (![0, 5, 0] : Fin 3 → Nat) a + S1x500x6.size a ≤ S1x508x6.size a
  inb_S9x6x64_S1x6x64_5_0_0 : ∀ a, (![5, 0, 0] : Fin 3 → Nat) a + S1x6x64.size a ≤ S9x6x64.size a
  inb_S1x508x6_S1x500x6_0_6_0 : ∀ a, (![0, 6, 0] : Fin 3 → Nat) a + S1x500x6.size a ≤ S1x508x6.size a
  inb_S9x6x64_S1x6x64_6_0_0 : ∀ a, (![6, 0, 0] : Fin 3 → Nat) a + S1x6x64.size a ≤ S9x6x64.size a
  inb_S1x508x6_S1x500x6_0_7_0 : ∀ a, (![0, 7, 0] : Fin 3 → Nat) a + S1x500x6.size a ≤ S1x508x6.size a
  inb_S9x6x64_S1x6x64_7_0_0 : ∀ a, (![7, 0, 0] : Fin 3 → Nat) a + S1x6x64.size a ≤ S9x6x64.size a
  inb_S1x508x6_S1x500x6_0_8_0 : ∀ a, (![0, 8, 0] : Fin 3 → Nat) a + S1x500x6.size a ≤ S1x508x6.size a
  inb_S9x6x64_S1x6x64_8_0_0 : ∀ a, (![8, 0, 0] : Fin 3 → Nat) a + S1x6x64.size a ≤ S9x6x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S500x64 : S1x64.Broadcasts S500x64
  inb_S1x500x64_S1x500x64_0_0_0 : ∀ a, (![0, 0, 0] : Fin 3 → Nat) a + S1x500x64.size a ≤ S1x500x64.size a
  h_S1x500x64 : 0 < S1x500x64.numel
  shapeCasts_S1x500x64_S500x64 : S1x500x64.ShapeCasts S500x64
  shapeCasts_S500x64_S1x500x64 : S500x64.ShapeCasts S1x500x64
  pads_S2048x500x64_S2048x508x64_000_440_000 : S2048x500x64.Pads (![0, 4, 0] : Fin 3 → Nat) ![0, 4, 0] ![0, 0, 0] S2048x508x64
  shapeCasts_S2048x508x64_S2048x254x2x64 : S2048x508x64.ShapeCasts S2048x254x2x64
  transposes_S2048x254x2x64_S2048x2x254x64_0_2_1_3 : S2048x254x2x64.Transposes [0, 2, 1, 3] S2048x2x254x64
  inb_S1x2x254x64_S1x2x254x64_0_0_0_0 : ∀ a, (![0, 0, 0, 0] : Fin 4 → Nat) a + S1x2x254x64.size a ≤ S1x2x254x64.size a
  h_S1x2x254x64 : 0 < S1x2x254x64.numel
  shapeCasts_S1x2x254x64_S2x254x64 : S1x2x254x64.ShapeCasts S2x254x64
  reduces_S2x254x64_S254x64 : S2x254x64.Reduces [0] S254x64
  slices_S254x64_o0_0_S251x64 : S254x64.Slices ![0, 0] S251x64
  slices_S254x64_o1_0_S251x64 : S254x64.Slices ![1, 0] S251x64
  slices_S254x64_o2_0_S251x64 : S254x64.Slices ![2, 0] S251x64
  slices_S254x64_o3_0_S251x64 : S254x64.Slices ![3, 0] S251x64
  inb_S1x251x64_S1x251x64_0_0_0 : ∀ a, (![0, 0, 0] : Fin 3 → Nat) a + S1x251x64.size a ≤ S1x251x64.size a
  h_S1x251x64 : 0 < S1x251x64.numel
  shapeCasts_S1x251x64_S251x64 : S1x251x64.ShapeCasts S251x64
  shapeCasts_S251x64_S1x251x64 : S251x64.ShapeCasts S1x251x64
  pads_S2048x251x64_S2048x259x64_000_440_000 : S2048x251x64.Pads (![0, 4, 0] : Fin 3 → Nat) ![0, 4, 0] ![0, 0, 0] S2048x259x64
  shapeCasts_S2048x259x64_S2048x259x1x64 : S2048x259x64.ShapeCasts S2048x259x1x64
  transposes_S2048x259x1x64_S2048x259x64x1_0_1_3_2 : S2048x259x1x64.Transposes [0, 1, 3, 2] S2048x259x64x1
  shapeCasts_S2048x259x64x1_S2048x259x64 : S2048x259x64x1.ShapeCasts S2048x259x64
  pads_S128x64x8_S128x64x8_000_000_000 : S128x64x8.Pads (![0, 0, 0] : Fin 3 → Nat) ![0, 0, 0] ![0, 0, 0] S128x64x8
  shapeCasts_S128x64x8_S128x64x8x1 : S128x64x8.ShapeCasts S128x64x8x1
  transposes_S128x64x8x1_S8x64x1x128_2_1_3_0 : S128x64x8x1.Transposes [2, 1, 3, 0] S8x64x1x128
  shapeCasts_S8x64x1x128_S8x64x128 : S8x64x1x128.ShapeCasts S8x64x128
  bcast_S_S128 : S_.BroadcastsInDim S128 (![] : Fin 0 → Fin S128.rank)
  shapeCasts_S128_S1x128 : S128.ShapeCasts S1x128
  inb_S1x259x64_S1x252x64_0_0_0 : ∀ a, (![0, 0, 0] : Fin 3 → Nat) a + S1x252x64.size a ≤ S1x259x64.size a
  h_S1x252x64 : 0 < S1x252x64.numel
  shapeCasts_S1x252x64_S252x64 : S1x252x64.ShapeCasts S252x64
  inb_S8x64x128_S1x64x128_0_0_0 : ∀ a, (![0, 0, 0] : Fin 3 → Nat) a + S1x64x128.size a ≤ S8x64x128.size a
  h_S1x64x128 : 0 < S1x64x128.numel
  shapeCasts_S1x64x128_S64x128 : S1x64x128.ShapeCasts S64x128
  inb_S1x259x64_S1x252x64_0_1_0 : ∀ a, (![0, 1, 0] : Fin 3 → Nat) a + S1x252x64.size a ≤ S1x259x64.size a
  inb_S8x64x128_S1x64x128_1_0_0 : ∀ a, (![1, 0, 0] : Fin 3 → Nat) a + S1x64x128.size a ≤ S8x64x128.size a
  inb_S1x259x64_S1x252x64_0_2_0 : ∀ a, (![0, 2, 0] : Fin 3 → Nat) a + S1x252x64.size a ≤ S1x259x64.size a
  inb_S8x64x128_S1x64x128_2_0_0 : ∀ a, (![2, 0, 0] : Fin 3 → Nat) a + S1x64x128.size a ≤ S8x64x128.size a
  inb_S1x259x64_S1x252x64_0_3_0 : ∀ a, (![0, 3, 0] : Fin 3 → Nat) a + S1x252x64.size a ≤ S1x259x64.size a
  inb_S8x64x128_S1x64x128_3_0_0 : ∀ a, (![3, 0, 0] : Fin 3 → Nat) a + S1x64x128.size a ≤ S8x64x128.size a
  inb_S1x259x64_S1x252x64_0_4_0 : ∀ a, (![0, 4, 0] : Fin 3 → Nat) a + S1x252x64.size a ≤ S1x259x64.size a
  inb_S8x64x128_S1x64x128_4_0_0 : ∀ a, (![4, 0, 0] : Fin 3 → Nat) a + S1x64x128.size a ≤ S8x64x128.size a
  inb_S1x259x64_S1x252x64_0_5_0 : ∀ a, (![0, 5, 0] : Fin 3 → Nat) a + S1x252x64.size a ≤ S1x259x64.size a
  inb_S8x64x128_S1x64x128_5_0_0 : ∀ a, (![5, 0, 0] : Fin 3 → Nat) a + S1x64x128.size a ≤ S8x64x128.size a
  inb_S1x259x64_S1x252x64_0_6_0 : ∀ a, (![0, 6, 0] : Fin 3 → Nat) a + S1x252x64.size a ≤ S1x259x64.size a
  inb_S8x64x128_S1x64x128_6_0_0 : ∀ a, (![6, 0, 0] : Fin 3 → Nat) a + S1x64x128.size a ≤ S8x64x128.size a
  inb_S1x259x64_S1x252x64_0_7_0 : ∀ a, (![0, 7, 0] : Fin 3 → Nat) a + S1x252x64.size a ≤ S1x259x64.size a
  inb_S8x64x128_S1x64x128_7_0_0 : ∀ a, (![7, 0, 0] : Fin 3 → Nat) a + S1x64x128.size a ≤ S8x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S252x128 : S1x128.Broadcasts S252x128
  inb_S1x252x128_S1x252x128_0_0_0 : ∀ a, (![0, 0, 0] : Fin 3 → Nat) a + S1x252x128.size a ≤ S1x252x128.size a
  h_S1x252x128 : 0 < S1x252x128.numel
  shapeCasts_S1x252x128_S252x128 : S1x252x128.ShapeCasts S252x128
  shapeCasts_S252x128_S1x252x128 : S252x128.ShapeCasts S1x252x128
  pads_S2048x252x128_S2048x260x128_000_440_000 : S2048x252x128.Pads (![0, 4, 0] : Fin 3 → Nat) ![0, 4, 0] ![0, 0, 0] S2048x260x128
  shapeCasts_S2048x260x128_S2048x260x1x128 : S2048x260x128.ShapeCasts S2048x260x1x128
  transposes_S2048x260x1x128_S2048x260x128x1_0_1_3_2 : S2048x260x1x128.Transposes [0, 1, 3, 2] S2048x260x128x1
  shapeCasts_S2048x260x128x1_S2048x260x128 : S2048x260x128x1.ShapeCasts S2048x260x128
  pads_S128x128x8_S128x128x8_000_000_000 : S128x128x8.Pads (![0, 0, 0] : Fin 3 → Nat) ![0, 0, 0] ![0, 0, 0] S128x128x8
  shapeCasts_S128x128x8_S128x128x8x1 : S128x128x8.ShapeCasts S128x128x8x1
  transposes_S128x128x8x1_S8x128x1x128_2_1_3_0 : S128x128x8x1.Transposes [2, 1, 3, 0] S8x128x1x128
  shapeCasts_S8x128x1x128_S8x128x128 : S8x128x1x128.ShapeCasts S8x128x128
  inb_S1x260x128_S1x253x128_0_0_0 : ∀ a, (![0, 0, 0] : Fin 3 → Nat) a + S1x253x128.size a ≤ S1x260x128.size a
  h_S1x253x128 : 0 < S1x253x128.numel
  shapeCasts_S1x253x128_S253x128 : S1x253x128.ShapeCasts S253x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  inb_S1x260x128_S1x253x128_0_1_0 : ∀ a, (![0, 1, 0] : Fin 3 → Nat) a + S1x253x128.size a ≤ S1x260x128.size a
  inb_S8x128x128_S1x128x128_1_0_0 : ∀ a, (![1, 0, 0] : Fin 3 → Nat) a + S1x128x128.size a ≤ S8x128x128.size a
  inb_S1x260x128_S1x253x128_0_2_0 : ∀ a, (![0, 2, 0] : Fin 3 → Nat) a + S1x253x128.size a ≤ S1x260x128.size a
  inb_S8x128x128_S1x128x128_2_0_0 : ∀ a, (![2, 0, 0] : Fin 3 → Nat) a + S1x128x128.size a ≤ S8x128x128.size a
  inb_S1x260x128_S1x253x128_0_3_0 : ∀ a, (![0, 3, 0] : Fin 3 → Nat) a + S1x253x128.size a ≤ S1x260x128.size a
  inb_S8x128x128_S1x128x128_3_0_0 : ∀ a, (![3, 0, 0] : Fin 3 → Nat) a + S1x128x128.size a ≤ S8x128x128.size a
  inb_S1x260x128_S1x253x128_0_4_0 : ∀ a, (![0, 4, 0] : Fin 3 → Nat) a + S1x253x128.size a ≤ S1x260x128.size a
  inb_S8x128x128_S1x128x128_4_0_0 : ∀ a, (![4, 0, 0] : Fin 3 → Nat) a + S1x128x128.size a ≤ S8x128x128.size a
  inb_S1x260x128_S1x253x128_0_5_0 : ∀ a, (![0, 5, 0] : Fin 3 → Nat) a + S1x253x128.size a ≤ S1x260x128.size a
  inb_S8x128x128_S1x128x128_5_0_0 : ∀ a, (![5, 0, 0] : Fin 3 → Nat) a + S1x128x128.size a ≤ S8x128x128.size a
  inb_S1x260x128_S1x253x128_0_6_0 : ∀ a, (![0, 6, 0] : Fin 3 → Nat) a + S1x253x128.size a ≤ S1x260x128.size a
  inb_S8x128x128_S1x128x128_6_0_0 : ∀ a, (![6, 0, 0] : Fin 3 → Nat) a + S1x128x128.size a ≤ S8x128x128.size a
  inb_S1x260x128_S1x253x128_0_7_0 : ∀ a, (![0, 7, 0] : Fin 3 → Nat) a + S1x253x128.size a ≤ S1x260x128.size a
  inb_S8x128x128_S1x128x128_7_0_0 : ∀ a, (![7, 0, 0] : Fin 3 → Nat) a + S1x128x128.size a ≤ S8x128x128.size a
  broadcasts_S1x128_S253x128 : S1x128.Broadcasts S253x128
  inb_S1x253x128_S1x253x128_0_0_0 : ∀ a, (![0, 0, 0] : Fin 3 → Nat) a + S1x253x128.size a ≤ S1x253x128.size a
  shapeCasts_S253x128_S1x253x128 : S253x128.ShapeCasts S1x253x128
  pads_S2048x253x128_S2048x256x128_000_210_000 : S2048x253x128.Pads (![0, 2, 0] : Fin 3 → Nat) ![0, 1, 0] ![0, 0, 0] S2048x256x128
  shapeCasts_S2048x256x128_S2048x64x4x128 : S2048x256x128.ShapeCasts S2048x64x4x128
  transposes_S2048x64x4x128_S2048x4x64x128_0_2_1_3 : S2048x64x4x128.Transposes [0, 2, 1, 3] S2048x4x64x128
  inb_S1x4x64x128_S1x4x64x128_0_0_0_0 : ∀ a, (![0, 0, 0, 0] : Fin 4 → Nat) a + S1x4x64x128.size a ≤ S1x4x64x128.size a
  h_S1x4x64x128 : 0 < S1x4x64x128.numel
  shapeCasts_S1x4x64x128_S4x64x128 : S1x4x64x128.ShapeCasts S4x64x128
  reduces_S4x64x128_S64x128 : S4x64x128.Reduces [0] S64x128
  inb_S1x64x128_S1x64x128_0_0_0 : ∀ a, (![0, 0, 0] : Fin 3 → Nat) a + S1x64x128.size a ≤ S1x64x128.size a
  shapeCasts_S64x128_S1x64x128 : S64x128.ShapeCasts S1x64x128
  pads_S2048x3000x1_S2048x3400x1_000_2002000_000 : S2048x3000x1.Pads (![0, 200, 0] : Fin 3 → Nat) ![0, 200, 0] ![0, 0, 0] S2048x3400x1
  shapeCasts_S2048x3400x1_S2048x68x50x1 : S2048x3400x1.ShapeCasts S2048x68x50x1
  transposes_S2048x68x50x1_S2048x68x1x50_0_1_3_2 : S2048x68x50x1.Transposes [0, 1, 3, 2] S2048x68x1x50
  shapeCasts_S2048x68x1x50_S2048x68x50 : S2048x68x1x50.ShapeCasts S2048x68x50
  pads_S64x1x400_S64x1x400_000_000_000 : S64x1x400.Pads (![0, 0, 0] : Fin 3 → Nat) ![0, 0, 0] ![0, 0, 0] S64x1x400
  shapeCasts_S64x1x400_S64x1x8x50 : S64x1x400.ShapeCasts S64x1x8x50
  transposes_S64x1x8x50_S8x1x50x64_2_1_3_0 : S64x1x8x50.Transposes [2, 1, 3, 0] S8x1x50x64
  shapeCasts_S8x1x50x64_S8x50x64 : S8x1x50x64.ShapeCasts S8x50x64
  inb_S1x68x50_S1x61x50_0_0_0 : ∀ a, (![0, 0, 0] : Fin 3 → Nat) a + S1x61x50.size a ≤ S1x68x50.size a
  h_S1x61x50 : 0 < S1x61x50.numel
  shapeCasts_S1x61x50_S61x50 : S1x61x50.ShapeCasts S61x50
  inb_S8x50x64_S1x50x64_0_0_0 : ∀ a, (![0, 0, 0] : Fin 3 → Nat) a + S1x50x64.size a ≤ S8x50x64.size a
  h_S1x50x64 : 0 < S1x50x64.numel
  shapeCasts_S1x50x64_S50x64 : S1x50x64.ShapeCasts S50x64
  inb_S1x68x50_S1x61x50_0_1_0 : ∀ a, (![0, 1, 0] : Fin 3 → Nat) a + S1x61x50.size a ≤ S1x68x50.size a
  inb_S8x50x64_S1x50x64_1_0_0 : ∀ a, (![1, 0, 0] : Fin 3 → Nat) a + S1x50x64.size a ≤ S8x50x64.size a
  inb_S1x68x50_S1x61x50_0_2_0 : ∀ a, (![0, 2, 0] : Fin 3 → Nat) a + S1x61x50.size a ≤ S1x68x50.size a
  inb_S8x50x64_S1x50x64_2_0_0 : ∀ a, (![2, 0, 0] : Fin 3 → Nat) a + S1x50x64.size a ≤ S8x50x64.size a
  inb_S1x68x50_S1x61x50_0_3_0 : ∀ a, (![0, 3, 0] : Fin 3 → Nat) a + S1x61x50.size a ≤ S1x68x50.size a
  inb_S8x50x64_S1x50x64_3_0_0 : ∀ a, (![3, 0, 0] : Fin 3 → Nat) a + S1x50x64.size a ≤ S8x50x64.size a
  inb_S1x68x50_S1x61x50_0_4_0 : ∀ a, (![0, 4, 0] : Fin 3 → Nat) a + S1x61x50.size a ≤ S1x68x50.size a
  inb_S8x50x64_S1x50x64_4_0_0 : ∀ a, (![4, 0, 0] : Fin 3 → Nat) a + S1x50x64.size a ≤ S8x50x64.size a
  inb_S1x68x50_S1x61x50_0_5_0 : ∀ a, (![0, 5, 0] : Fin 3 → Nat) a + S1x61x50.size a ≤ S1x68x50.size a
  inb_S8x50x64_S1x50x64_5_0_0 : ∀ a, (![5, 0, 0] : Fin 3 → Nat) a + S1x50x64.size a ≤ S8x50x64.size a
  inb_S1x68x50_S1x61x50_0_6_0 : ∀ a, (![0, 6, 0] : Fin 3 → Nat) a + S1x61x50.size a ≤ S1x68x50.size a
  inb_S8x50x64_S1x50x64_6_0_0 : ∀ a, (![6, 0, 0] : Fin 3 → Nat) a + S1x50x64.size a ≤ S8x50x64.size a
  inb_S1x68x50_S1x61x50_0_7_0 : ∀ a, (![0, 7, 0] : Fin 3 → Nat) a + S1x61x50.size a ≤ S1x68x50.size a
  inb_S8x50x64_S1x50x64_7_0_0 : ∀ a, (![7, 0, 0] : Fin 3 → Nat) a + S1x50x64.size a ≤ S8x50x64.size a
  broadcasts_S1x64_S61x64 : S1x64.Broadcasts S61x64
  inb_S1x61x64_S1x61x64_0_0_0 : ∀ a, (![0, 0, 0] : Fin 3 → Nat) a + S1x61x64.size a ≤ S1x61x64.size a
  h_S1x61x64 : 0 < S1x61x64.numel
  shapeCasts_S1x61x64_S61x64 : S1x61x64.ShapeCasts S61x64
  shapeCasts_S61x64_S1x61x64 : S61x64.ShapeCasts S1x61x64
  pads_S2048x61x64_S2048x64x64_000_210_000 : S2048x61x64.Pads (![0, 2, 0] : Fin 3 → Nat) ![0, 1, 0] ![0, 0, 0] S2048x64x64
  shapeCasts_S2048x64x64_S2048x32x2x64 : S2048x64x64.ShapeCasts S2048x32x2x64
  transposes_S2048x32x2x64_S2048x2x32x64_0_2_1_3 : S2048x32x2x64.Transposes [0, 2, 1, 3] S2048x2x32x64
  inb_S1x2x32x64_S1x2x32x64_0_0_0_0 : ∀ a, (![0, 0, 0, 0] : Fin 4 → Nat) a + S1x2x32x64.size a ≤ S1x2x32x64.size a
  h_S1x2x32x64 : 0 < S1x2x32x64.numel
  shapeCasts_S1x2x32x64_S2x32x64 : S1x2x32x64.ShapeCasts S2x32x64
  reduces_S2x32x64_S32x64 : S2x32x64.Reduces [0] S32x64
  slices_S32x64_o0_0_S31x64 : S32x64.Slices ![0, 0] S31x64
  slices_S32x64_o1_0_S31x64 : S32x64.Slices ![1, 0] S31x64
  inb_S1x31x64_S1x31x64_0_0_0 : ∀ a, (![0, 0, 0] : Fin 3 → Nat) a + S1x31x64.size a ≤ S1x31x64.size a
  h_S1x31x64 : 0 < S1x31x64.numel
  shapeCasts_S1x31x64_S31x64 : S1x31x64.ShapeCasts S31x64
  shapeCasts_S31x64_S1x31x64 : S31x64.ShapeCasts S1x31x64
  pads_S2048x31x64_S2048x37x64_000_330_000 : S2048x31x64.Pads (![0, 3, 0] : Fin 3 → Nat) ![0, 3, 0] ![0, 0, 0] S2048x37x64
  shapeCasts_S2048x37x64_S2048x37x1x64 : S2048x37x64.ShapeCasts S2048x37x1x64
  transposes_S2048x37x1x64_S2048x37x64x1_0_1_3_2 : S2048x37x1x64.Transposes [0, 1, 3, 2] S2048x37x64x1
  shapeCasts_S2048x37x64x1_S2048x37x64 : S2048x37x64x1.ShapeCasts S2048x37x64
  pads_S128x64x7_S128x64x7_000_000_000 : S128x64x7.Pads (![0, 0, 0] : Fin 3 → Nat) ![0, 0, 0] ![0, 0, 0] S128x64x7
  shapeCasts_S128x64x7_S128x64x7x1 : S128x64x7.ShapeCasts S128x64x7x1
  transposes_S128x64x7x1_S7x64x1x128_2_1_3_0 : S128x64x7x1.Transposes [2, 1, 3, 0] S7x64x1x128
  shapeCasts_S7x64x1x128_S7x64x128 : S7x64x1x128.ShapeCasts S7x64x128
  inb_S1x37x64_S1x31x64_0_0_0 : ∀ a, (![0, 0, 0] : Fin 3 → Nat) a + S1x31x64.size a ≤ S1x37x64.size a
  inb_S7x64x128_S1x64x128_0_0_0 : ∀ a, (![0, 0, 0] : Fin 3 → Nat) a + S1x64x128.size a ≤ S7x64x128.size a
  inb_S1x37x64_S1x31x64_0_1_0 : ∀ a, (![0, 1, 0] : Fin 3 → Nat) a + S1x31x64.size a ≤ S1x37x64.size a
  inb_S7x64x128_S1x64x128_1_0_0 : ∀ a, (![1, 0, 0] : Fin 3 → Nat) a + S1x64x128.size a ≤ S7x64x128.size a
  inb_S1x37x64_S1x31x64_0_2_0 : ∀ a, (![0, 2, 0] : Fin 3 → Nat) a + S1x31x64.size a ≤ S1x37x64.size a
  inb_S7x64x128_S1x64x128_2_0_0 : ∀ a, (![2, 0, 0] : Fin 3 → Nat) a + S1x64x128.size a ≤ S7x64x128.size a
  inb_S1x37x64_S1x31x64_0_3_0 : ∀ a, (![0, 3, 0] : Fin 3 → Nat) a + S1x31x64.size a ≤ S1x37x64.size a
  inb_S7x64x128_S1x64x128_3_0_0 : ∀ a, (![3, 0, 0] : Fin 3 → Nat) a + S1x64x128.size a ≤ S7x64x128.size a
  inb_S1x37x64_S1x31x64_0_4_0 : ∀ a, (![0, 4, 0] : Fin 3 → Nat) a + S1x31x64.size a ≤ S1x37x64.size a
  inb_S7x64x128_S1x64x128_4_0_0 : ∀ a, (![4, 0, 0] : Fin 3 → Nat) a + S1x64x128.size a ≤ S7x64x128.size a
  inb_S1x37x64_S1x31x64_0_5_0 : ∀ a, (![0, 5, 0] : Fin 3 → Nat) a + S1x31x64.size a ≤ S1x37x64.size a
  inb_S7x64x128_S1x64x128_5_0_0 : ∀ a, (![5, 0, 0] : Fin 3 → Nat) a + S1x64x128.size a ≤ S7x64x128.size a
  inb_S1x37x64_S1x31x64_0_6_0 : ∀ a, (![0, 6, 0] : Fin 3 → Nat) a + S1x31x64.size a ≤ S1x37x64.size a
  inb_S7x64x128_S1x64x128_6_0_0 : ∀ a, (![6, 0, 0] : Fin 3 → Nat) a + S1x64x128.size a ≤ S7x64x128.size a
  broadcasts_S1x128_S31x128 : S1x128.Broadcasts S31x128
  inb_S1x31x128_S1x31x128_0_0_0 : ∀ a, (![0, 0, 0] : Fin 3 → Nat) a + S1x31x128.size a ≤ S1x31x128.size a
  h_S1x31x128 : 0 < S1x31x128.numel
  shapeCasts_S1x31x128_S31x128 : S1x31x128.ShapeCasts S31x128
  shapeCasts_S31x128_S1x31x128 : S31x128.ShapeCasts S1x31x128
  pads_S2048x31x128_S2048x37x128_000_330_000 : S2048x31x128.Pads (![0, 3, 0] : Fin 3 → Nat) ![0, 3, 0] ![0, 0, 0] S2048x37x128
  shapeCasts_S2048x37x128_S2048x37x1x128 : S2048x37x128.ShapeCasts S2048x37x1x128
  transposes_S2048x37x1x128_S2048x37x128x1_0_1_3_2 : S2048x37x1x128.Transposes [0, 1, 3, 2] S2048x37x128x1
  shapeCasts_S2048x37x128x1_S2048x37x128 : S2048x37x128x1.ShapeCasts S2048x37x128
  pads_S128x128x7_S128x128x7_000_000_000 : S128x128x7.Pads (![0, 0, 0] : Fin 3 → Nat) ![0, 0, 0] ![0, 0, 0] S128x128x7
  shapeCasts_S128x128x7_S128x128x7x1 : S128x128x7.ShapeCasts S128x128x7x1
  transposes_S128x128x7x1_S7x128x1x128_2_1_3_0 : S128x128x7x1.Transposes [2, 1, 3, 0] S7x128x1x128
  shapeCasts_S7x128x1x128_S7x128x128 : S7x128x1x128.ShapeCasts S7x128x128
  inb_S1x37x128_S1x31x128_0_0_0 : ∀ a, (![0, 0, 0] : Fin 3 → Nat) a + S1x31x128.size a ≤ S1x37x128.size a
  inb_S7x128x128_S1x128x128_0_0_0 : ∀ a, (![0, 0, 0] : Fin 3 → Nat) a + S1x128x128.size a ≤ S7x128x128.size a
  inb_S1x37x128_S1x31x128_0_1_0 : ∀ a, (![0, 1, 0] : Fin 3 → Nat) a + S1x31x128.size a ≤ S1x37x128.size a
  inb_S7x128x128_S1x128x128_1_0_0 : ∀ a, (![1, 0, 0] : Fin 3 → Nat) a + S1x128x128.size a ≤ S7x128x128.size a
  inb_S1x37x128_S1x31x128_0_2_0 : ∀ a, (![0, 2, 0] : Fin 3 → Nat) a + S1x31x128.size a ≤ S1x37x128.size a
  inb_S7x128x128_S1x128x128_2_0_0 : ∀ a, (![2, 0, 0] : Fin 3 → Nat) a + S1x128x128.size a ≤ S7x128x128.size a
  inb_S1x37x128_S1x31x128_0_3_0 : ∀ a, (![0, 3, 0] : Fin 3 → Nat) a + S1x31x128.size a ≤ S1x37x128.size a
  inb_S7x128x128_S1x128x128_3_0_0 : ∀ a, (![3, 0, 0] : Fin 3 → Nat) a + S1x128x128.size a ≤ S7x128x128.size a
  inb_S1x37x128_S1x31x128_0_4_0 : ∀ a, (![0, 4, 0] : Fin 3 → Nat) a + S1x31x128.size a ≤ S1x37x128.size a
  inb_S7x128x128_S1x128x128_4_0_0 : ∀ a, (![4, 0, 0] : Fin 3 → Nat) a + S1x128x128.size a ≤ S7x128x128.size a
  inb_S1x37x128_S1x31x128_0_5_0 : ∀ a, (![0, 5, 0] : Fin 3 → Nat) a + S1x31x128.size a ≤ S1x37x128.size a
  inb_S7x128x128_S1x128x128_5_0_0 : ∀ a, (![5, 0, 0] : Fin 3 → Nat) a + S1x128x128.size a ≤ S7x128x128.size a
  inb_S1x37x128_S1x31x128_0_6_0 : ∀ a, (![0, 6, 0] : Fin 3 → Nat) a + S1x31x128.size a ≤ S1x37x128.size a
  inb_S7x128x128_S1x128x128_6_0_0 : ∀ a, (![6, 0, 0] : Fin 3 → Nat) a + S1x128x128.size a ≤ S7x128x128.size a
  pads_S2048x31x128_S2048x32x128_000_100_000 : S2048x31x128.Pads (![0, 1, 0] : Fin 3 → Nat) ![0, 0, 0] ![0, 0, 0] S2048x32x128
  shapeCasts_S2048x32x128_S2048x16x2x128 : S2048x32x128.ShapeCasts S2048x16x2x128
  transposes_S2048x16x2x128_S2048x2x16x128_0_2_1_3 : S2048x16x2x128.Transposes [0, 2, 1, 3] S2048x2x16x128
  inb_S1x2x16x128_S1x2x16x128_0_0_0_0 : ∀ a, (![0, 0, 0, 0] : Fin 4 → Nat) a + S1x2x16x128.size a ≤ S1x2x16x128.size a
  h_S1x2x16x128 : 0 < S1x2x16x128.numel
  shapeCasts_S1x2x16x128_S2x16x128 : S1x2x16x128.ShapeCasts S2x16x128
  reduces_S2x16x128_S16x128 : S2x16x128.Reduces [0] S16x128
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  shapeCasts_S16x128_S1x16x128 : S16x128.ShapeCasts S1x16x128
  concatenates_S2048x64x128_S2048x16x128_S2048x80x128_d1 : Shape.Concatenates [S2048x64x128, S2048x16x128] S2048x80x128 1
  transposes_S2048x80x128_S2048x128x80_0_2_1 : S2048x80x128.Transposes [0, 2, 1] S2048x128x80
  dot_S500x6_S6x64_S500x64_1_0_0_1_n_n_wf : DotDims.WF S500x6 S6x64 S500x64 [1] [0] [0] [1] [] []
  dot_S252x64_S64x128_S252x128_1_0_0_1_n_n_wf : DotDims.WF S252x64 S64x128 S252x128 [1] [0] [0] [1] [] []
  dot_S253x128_S128x128_S253x128_1_0_0_1_n_n_wf : DotDims.WF S253x128 S128x128 S253x128 [1] [0] [0] [1] [] []
  dot_S61x50_S50x64_S61x64_1_0_0_1_n_n_wf : DotDims.WF S61x50 S50x64 S61x64 [1] [0] [0] [1] [] []
  dot_S31x64_S64x128_S31x128_1_0_0_1_n_n_wf : DotDims.WF S31x64 S64x128 S31x128 [1] [0] [0] [1] [] []
  dot_S31x128_S128x128_S31x128_1_0_0_1_n_n_wf : DotDims.WF S31x128 S128x128 S31x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x508x6.size a ≤ S2048x508x6.size a
  hwx0_0 : ∀ i : grid0.Coords, EltTy.bits .f32 = 32 ∨ (Rect.block (s := S2048x508x6) S1x508x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x6x64.size a ≤ S9x6x64.size a
  hwx0_1 : ∀ i : grid0.Coords, EltTy.bits .f32 = 32 ∨ (Rect.block (s := S9x6x64) S9x6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x500x64.size a ≤ S2048x500x64.size a
  hwx0_4 : ∀ i : grid0.Coords, EltTy.bits .f32 = 32 ∨ (Rect.block (s := S2048x500x64) S1x500x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x254x64.size a ≤ S2048x2x254x64.size a
  hwx1_0 : ∀ i : grid1.Coords, EltTy.bits .f32 = 32 ∨ (Rect.block (s := S2048x2x254x64) S1x2x254x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x251x64.size a ≤ S2048x251x64.size a
  hwx1_1 : ∀ i : grid1.Coords, EltTy.bits .f32 = 32 ∨ (Rect.block (s := S2048x251x64) S1x251x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x259x64.size a ≤ S2048x259x64.size a
  hwx2_0 : ∀ i : grid2.Coords, EltTy.bits .f32 = 32 ∨ (Rect.block (s := S2048x259x64) S1x259x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x64x128.size a ≤ S8x64x128.size a
  hwx2_1 : ∀ i : grid2.Coords, EltTy.bits .f32 = 32 ∨ (Rect.block (s := S8x64x128) S8x64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x252x128.size a ≤ S2048x252x128.size a
  hwx2_4 : ∀ i : grid2.Coords, EltTy.bits .f32 = 32 ∨ (Rect.block (s := S2048x252x128) S1x252x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x260x128.size a ≤ S2048x260x128.size a
  hwx3_0 : ∀ i : grid3.Coords, EltTy.bits .f32 = 32 ∨ (Rect.block (s := S2048x260x128) S1x260x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x128x128.size a ≤ S8x128x128.size a
  hwx3_1 : ∀ i : grid3.Coords, EltTy.bits .f32 = 32 ∨ (Rect.block (s := S8x128x128) S8x128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x253x128.size a ≤ S2048x253x128.size a
  hwx3_4 : ∀ i : grid3.Coords, EltTy.bits .f32 = 32 ∨ (Rect.block (s := S2048x253x128) S1x253x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4x64x128.size a ≤ S2048x4x64x128.size a
  hwx4_0 : ∀ i : grid4.Coords, EltTy.bits .f32 = 32 ∨ (Rect.block (s := S2048x4x64x128) S1x4x64x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x64x128.size a ≤ S2048x64x128.size a
  hwx4_1 : ∀ i : grid4.Coords, EltTy.bits .f32 = 32 ∨ (Rect.block (s := S2048x64x128) S1x64x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x68x50.size a ≤ S2048x68x50.size a
  hwx5_0 : ∀ i : grid5.Coords, EltTy.bits .f32 = 32 ∨ (Rect.block (s := S2048x68x50) S1x68x50.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S8x50x64.size a ≤ S8x50x64.size a
  hwx5_1 : ∀ i : grid5.Coords, EltTy.bits .f32 = 32 ∨ (Rect.block (s := S8x50x64) S8x50x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x61x64.size a ≤ S2048x61x64.size a
  hwx5_4 : ∀ i : grid5.Coords, EltTy.bits .f32 = 32 ∨ (Rect.block (s := S2048x61x64) S1x61x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x2x32x64.size a ≤ S2048x2x32x64.size a
  hwx6_0 : ∀ i : grid6.Coords, EltTy.bits .f32 = 32 ∨ (Rect.block (s := S2048x2x32x64) S1x2x32x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1x31x64.size a ≤ S2048x31x64.size a
  hwx6_1 : ∀ i : grid6.Coords, EltTy.bits .f32 = 32 ∨ (Rect.block (s := S2048x31x64) S1x31x64.size (cc6_transform_1 i) (hinb6_1 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x37x64.size a ≤ S2048x37x64.size a
  hwx7_0 : ∀ i : grid7.Coords, EltTy.bits .f32 = 32 ∨ (Rect.block (s := S2048x37x64) S1x37x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S7x64x128.size a ≤ S7x64x128.size a
  hwx7_1 : ∀ i : grid7.Coords, EltTy.bits .f32 = 32 ∨ (Rect.block (s := S7x64x128) S7x64x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x31x128.size a ≤ S2048x31x128.size a
  hwx7_4 : ∀ i : grid7.Coords, EltTy.bits .f32 = 32 ∨ (Rect.block (s := S2048x31x128) S1x31x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x37x128.size a ≤ S2048x37x128.size a
  hwx8_0 : ∀ i : grid8.Coords, EltTy.bits .f32 = 32 ∨ (Rect.block (s := S2048x37x128) S1x37x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S7x128x128.size a ≤ S7x128x128.size a
  hwx8_1 : ∀ i : grid8.Coords, EltTy.bits .f32 = 32 ∨ (Rect.block (s := S7x128x128) S7x128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1x31x128.size a ≤ S2048x31x128.size a
  hwx8_4 : ∀ i : grid8.Coords, EltTy.bits .f32 = 32 ∨ (Rect.block (s := S2048x31x128) S1x31x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x2x16x128.size a ≤ S2048x2x16x128.size a
  hwx9_0 : ∀ i : grid9.Coords, EltTy.bits .f32 = 32 ∨ (Rect.block (s := S2048x2x16x128) S1x2x16x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1x16x128.size a ≤ S2048x16x128.size a
  hwx9_1 : ∀ i : grid9.Coords, EltTy.bits .f32 = 32 ∨ (Rect.block (s := S2048x16x128) S1x16x128.size (cc9_transform_1 i) (hinb9_1 i)).WholeWords (EltTy.packing .f32)

variable [Facts₀]

def dot_S500x6_S6x64_S500x64_1_0_0_1_n_n : DotDims S500x6 S6x64 S500x64 where
  lhsContracting := [1]
  rhsContracting := [0]
  lhsNonContracting := [0]
  rhsNonContracting := [1]
  lhsBatch := []
  rhsBatch := []
  wf := dot_S500x6_S6x64_S500x64_1_0_0_1_n_n_wf
def dot_S252x64_S64x128_S252x128_1_0_0_1_n_n : DotDims S252x64 S64x128 S252x128 where
  lhsContracting := [1]
  rhsContracting := [0]
  lhsNonContracting := [0]
  rhsNonContracting := [1]
  lhsBatch := []
  rhsBatch := []
  wf := dot_S252x64_S64x128_S252x128_1_0_0_1_n_n_wf
def dot_S253x128_S128x128_S253x128_1_0_0_1_n_n : DotDims S253x128 S128x128 S253x128 where
  lhsContracting := [1]
  rhsContracting := [0]
  lhsNonContracting := [0]
  rhsNonContracting := [1]
  lhsBatch := []
  rhsBatch := []
  wf := dot_S253x128_S128x128_S253x128_1_0_0_1_n_n_wf
def dot_S61x50_S50x64_S61x64_1_0_0_1_n_n : DotDims S61x50 S50x64 S61x64 where
  lhsContracting := [1]
  rhsContracting := [0]
  lhsNonContracting := [0]
  rhsNonContracting := [1]
  lhsBatch := []
  rhsBatch := []
  wf := dot_S61x50_S50x64_S61x64_1_0_0_1_n_n_wf
def dot_S31x64_S64x128_S31x128_1_0_0_1_n_n : DotDims S31x64 S64x128 S31x128 where
  lhsContracting := [1]
  rhsContracting := [0]
  lhsNonContracting := [0]
  rhsNonContracting := [1]
  lhsBatch := []
  rhsBatch := []
  wf := dot_S31x64_S64x128_S31x128_1_0_0_1_n_n_wf
def dot_S31x128_S128x128_S31x128_1_0_0_1_n_n : DotDims S31x128 S128x128 S31x128 where
  lhsContracting := [1]
  rhsContracting := [0]
  lhsNonContracting := [0]
  rhsNonContracting := [1]
  lhsBatch := []
  rhsBatch := []
  wf := dot_S31x128_S128x128_S31x128_1_0_0_1_n_n_wf

abbrev win0_0 : Pipeline.Window sig grid0 :=
  Pipeline.Window.ofSpec (Memref.whole main_v4) S1x508x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S9x6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x500x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S1x2x254x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x251x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v25) S1x259x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S8x64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x252x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S1x260x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S8x128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x253x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S1x4x64x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S1x64x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v63) S1x68x50.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v67) S8x50x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S1x61x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v79) S1x2x32x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S1x31x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

abbrev win7_0 : Pipeline.Window sig grid7 :=
  Pipeline.Window.ofSpec (Memref.whole main_v84) S1x37x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S7x64x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v97) S1x31x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v101) S1x37x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S7x128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v110) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v113) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v114) S1x31x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v117) S1x2x16x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v118) S1x16x128.size cc9_transform_1 reads9_1 true false 2 stage9_1 sem9_1
    hrank9 hreads9_1 hinb9_1 nbuf9_1 (Memref.isWhole_whole _) hwx9_1 hstage9_1

abbrev win9 : Fin 2 → Pipeline.Window sig grid9 := fun | 0 => win9_0 | 1 => win9_1 | ⟨_ + 2, h⟩ => absurd h (Nat.not_lt.2 (Nat.le_add_left _ _))
abbrev spec9 : Fin 2 → Pipeline.WinSpec sig grid9.rank := fun w => (win9 w).toWinSpec

class Facts : Prop extends Facts₀ where

variable [Facts]
-- ==== Proof.Frames.lean ====
/-
  The three frame claims and the idealization claim. Each program's frame (it terminates, nothing faults,
  its argument arrays end unchanged) is the generated frame certificate of that program; the ideal pass
  rewrote nothing, so there is nothing to preserve.
-/
import proofs.«125144_g2000006933354569_pallasbulk_1054_1_alg».proof.Defs
import proofs.«125144_g2000006933354569_pallasbulk_1054_1_alg».proof.Proof.Gen.Kernel.Frame
import proofs.«125144_g2000006933354569_pallasbulk_1054_1_alg».proof.Proof.Gen.KernelIdeal.Frame
import proofs.«125144_g2000006933354569_pallasbulk_1054_1_alg».proof.Proof.Gen.ReferenceIdeal.Frame
import proofs.«125144_g2000006933354569_pallasbulk_1054_1_alg».proof.Proof.Gen.Pre_finite_inputs

noncomputable section

namespace Cert.Proof.Frames

open Idealize.ShloMosaic Idealize.SL.Sem

theorem frame_p : @Cert.frame_Kernel Cert.Kernel.Gen.facts Cert.Pre_finite_inputs.Gen.facts :=
  fun m ρ _ => Cert.Kernel.Gen.frame m ρ
theorem frame_pi : @Cert.frame_KernelIdeal Cert.KernelIdeal.Gen.facts Cert.Pre_finite_inputs.Gen.facts :=
  fun m ρ _ => Cert.KernelIdeal.Gen.frame m ρ
theorem frame_ri : @Cert.frame_ReferenceIdeal Cert.ReferenceIdeal.Gen.facts Cert.Pre_finite_inputs.Gen.facts :=
  fun m ρ _ => Cert.ReferenceIdeal.Gen.frame m ρ
theorem preserves : Cert.preserves_Kernel_KernelIdeal := trivial

end Cert.Proof.Frames

end
-- ==== Proof.PreReal.lean ====
/-
  The precondition of the certificate, decoded. The printed predicate takes 31 float arrays and answers the
  conjunction, over all of them, of "every entry x has |x| < +∞", and, for the six variance arrays (arguments 5, 10,
  15, 20, 25 and 30), of "every entry x has x ≥ 0". Read at the extended reals, |x| < +∞ says x is neither +∞ nor −∞,
  that is, x is a real number; and x ≥ 0 is the order of the extended reals. Each conjunct is a reduction by "and" of
  a comparison taken entry by entry, and a conjunction of one-bit words that equals 1 has every word equal to 1.
-/
import proofs.«125144_g2000006933354569_pallasbulk_1054_1_alg».proof.Pre_finite_inputs
import proofs.«125144_g2000006933354569_pallasbulk_1054_1_alg».proof.Proof.Gen.Pre_finite_inputs
import Idealize.ShloMosaic.PureOps.Ideal
import Idealize.ShloMosaic.Lib.ReduceAll
import Idealize.ShloMosaic.Lib.ValueIdx

noncomputable section

namespace Cert.PreReal

open Idealize.ShloMosaic Cert.Pre_finite_inputs

/-- An extended real that is a real number. -/
def IsReal (x : EReal) : Prop := ∃ r : ℝ, x = (r : EReal)

/-- The shape of a scalar has one index. -/
instance : Subsingleton S_.Idx := ⟨fun a b => funext fun d => d.elim0⟩

/-- The f32 pattern 0x7F800000 denotes +∞. -/
theorem inf_bits : Ideal.ofBits .f32 0x7F800000#32 = (⊤ : EReal) := by
  simp [Ideal.ofBits, Ideal.ieee]

/-- The f32 pattern 0 denotes 0. -/
theorem zero_bits : Ideal.ofBits .f32 0x00000000#32 = (0 : EReal) := by
  simp [Ideal.ofBits, Ideal.ieee]

theorem ofBool_eq_one (b : Bool) : BitVec.ofBool b = 1#1 ↔ b = true := by cases b <;> decide

/-- |x| < +∞ says x is a real number. -/
theorem isReal_of_abs_lt (x : EReal) (h : Ideal.cmp .olt (max x (-x)) (Ideal.ofBits .f32 0x7F800000#32) = 1#1) :
    IsReal x := by
  rw [inf_bits] at h
  induction x using EReal.rec with
  | bot => simp [Ideal.cmp, ofBool_eq_one] at h
  | coe r => exact ⟨r, rfl⟩
  | top => simp [Ideal.cmp, ofBool_eq_one] at h

/-- x ≥ 0 read back. -/
theorem nonneg_of_oge (x : EReal) (h : Ideal.cmp .oge x (Ideal.ofBits .f32 0x00000000#32) = 1#1) : 0 ≤ x := by
  rw [zero_bits] at h
  simpa [Ideal.cmp, ofBool_eq_one] using h

/-- A jnp.all(|x| < +∞) that holds says every entry of x is a real number. -/
theorem all_lt_inf {S : Shape} {axes : List (Fin S.rank)} (hb : S_.BroadcastsInDim S (![] : Fin 0 → Fin S.rank))
    (hr : S.ReducesTo axes S_) (hu : 0 < S_.numel) (x : FVec Ideal S .f32) (j : S_.Idx)
    (h : Host.reduce IntOp.andi
        (cmpf .olt (Host.absf x) (broadcastInDim S ![] hb (constant (F := Ideal) S_ .f32 0x7F800000#32)))
        (constantI S_ 1 1#1) hr hu j = 1#1) :
    ∀ i, IsReal (x i) := fun i =>
  isReal_of_abs_lt (x i) (Host.reduce_andi_all _ _ hr hu j h i)

/-- A jnp.all(x ≥ 0) that holds says every entry of x is nonnegative. -/
theorem all_ge_zero {S : Shape} {axes : List (Fin S.rank)} (hb : S_.BroadcastsInDim S (![] : Fin 0 → Fin S.rank))
    (hr : S.ReducesTo axes S_) (hu : 0 < S_.numel) (x : FVec Ideal S .f32) (j : S_.Idx)
    (h : Host.reduce IntOp.andi
        (cmpf .oge x (broadcastInDim S ![] hb (constant (F := Ideal) S_ .f32 0x00000000#32)))
        (constantI S_ 1 1#1) hr hu j = 1#1) :
    ∀ i, 0 ≤ x i := fun i =>
  nonneg_of_oge (x i) (Host.reduce_andi_all _ _ hr hu j h i)

variable [Cert.Pre_finite_inputs.Facts]

/-- What the precondition says of the 31 arrays: every entry is a real number, and the six variance
    arrays have nonnegative entries. -/
structure Good (a0 : FVec Ideal S2048x1x3000 .f32) (a1 : FVec Ideal S64x1x50 .f32) (a2 : FVec Ideal S64 .f32) (a3 : FVec Ideal S64 .f32) (a4 : FVec Ideal S64 .f32) (a5 : FVec Ideal S64 .f32) (a6 : FVec Ideal S128x64x8 .f32) (a7 : FVec Ideal S128 .f32) (a8 : FVec Ideal S128 .f32) (a9 : FVec Ideal S128 .f32) (a10 : FVec Ideal S128 .f32) (a11 : FVec Ideal S128x128x8 .f32) (a12 : FVec Ideal S128 .f32) (a13 : FVec Ideal S128 .f32) (a14 : FVec Ideal S128 .f32) (a15 : FVec Ideal S128 .f32) (a16 : FVec Ideal S64x1x400 .f32) (a17 : FVec Ideal S64 .f32) (a18 : FVec Ideal S64 .f32) (a19 : FVec Ideal S64 .f32) (a20 : FVec Ideal S64 .f32) (a21 : FVec Ideal S128x64x7 .f32) (a22 : FVec Ideal S128 .f32) (a23 : FVec Ideal S128 .f32) (a24 : FVec Ideal S128 .f32) (a25 : FVec Ideal S128 .f32) (a26 : FVec Ideal S128x128x7 .f32) (a27 : FVec Ideal S128 .f32) (a28 : FVec Ideal S128 .f32) (a29 : FVec Ideal S128 .f32) (a30 : FVec Ideal S128 .f32) : Prop where
  r0 : ∀ i, IsReal (a0 i)
  r1 : ∀ i, IsReal (a1 i)
  r2 : ∀ i, IsReal (a2 i)
  r3 : ∀ i, IsReal (a3 i)
  r4 : ∀ i, IsReal (a4 i)
  r5 : ∀ i, IsReal (a5 i)
  r6 : ∀ i, IsReal (a6 i)
  r7 : ∀ i, IsReal (a7 i)
  r8 : ∀ i, IsReal (a8 i)
  r9 : ∀ i, IsReal (a9 i)
  r10 : ∀ i, IsReal (a10 i)
  r11 : ∀ i, IsReal (a11 i)
  r12 : ∀ i, IsReal (a12 i)
  r13 : ∀ i, IsReal (a13 i)
  r14 : ∀ i, IsReal (a14 i)
  r15 : ∀ i, IsReal (a15 i)
  r16 : ∀ i, IsReal (a16 i)
  r17 : ∀ i, IsReal (a17 i)
  r18 : ∀ i, IsReal (a18 i)
  r19 : ∀ i, IsReal (a19 i)
  r20 : ∀ i, IsReal (a20 i)
  r21 : ∀ i, IsReal (a21 i)
  r22 : ∀ i, IsReal (a22 i)
  r23 : ∀ i, IsReal (a23 i)
  r24 : ∀ i, IsReal (a24 i)
  r25 : ∀ i, IsReal (a25 i)
  r26 : ∀ i, IsReal (a26 i)
  r27 : ∀ i, IsReal (a27 i)
  r28 : ∀ i, IsReal (a28 i)
  r29 : ∀ i, IsReal (a29 i)
  r30 : ∀ i, IsReal (a30 i)
  v5 : ∀ i, 0 ≤ a5 i
  v10 : ∀ i, 0 ≤ a10 i
  v15 : ∀ i, 0 ≤ a15 i
  v20 : ∀ i, 0 ≤ a20 i
  v25 : ∀ i, 0 ≤ a25 i
  v30 : ∀ i, 0 ≤ a30 i

/-- THE PRECONDITION DECODED: if the printed predicate answers 1 on the 31 arrays, every entry of every array is a
    real number and the six variance arrays are nonnegative. The predicate unfolds to a left-nested conjunction of
    37 reductions; each is read back by the lemma for its kind. -/
theorem good_of_pre (a0 : FVec Ideal S2048x1x3000 .f32) (a1 : FVec Ideal S64x1x50 .f32) (a2 : FVec Ideal S64 .f32) (a3 : FVec Ideal S64 .f32) (a4 : FVec Ideal S64 .f32) (a5 : FVec Ideal S64 .f32) (a6 : FVec Ideal S128x64x8 .f32) (a7 : FVec Ideal S128 .f32) (a8 : FVec Ideal S128 .f32) (a9 : FVec Ideal S128 .f32) (a10 : FVec Ideal S128 .f32) (a11 : FVec Ideal S128x128x8 .f32) (a12 : FVec Ideal S128 .f32) (a13 : FVec Ideal S128 .f32) (a14 : FVec Ideal S128 .f32) (a15 : FVec Ideal S128 .f32) (a16 : FVec Ideal S64x1x400 .f32) (a17 : FVec Ideal S64 .f32) (a18 : FVec Ideal S64 .f32) (a19 : FVec Ideal S64 .f32) (a20 : FVec Ideal S64 .f32) (a21 : FVec Ideal S128x64x7 .f32) (a22 : FVec Ideal S128 .f32) (a23 : FVec Ideal S128 .f32) (a24 : FVec Ideal S128 .f32) (a25 : FVec Ideal S128 .f32) (a26 : FVec Ideal S128x128x7 .f32) (a27 : FVec Ideal S128 .f32) (a28 : FVec Ideal S128 .f32) (a29 : FVec Ideal S128 .f32) (a30 : FVec Ideal S128 .f32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 = fun _ => 1#1) :
    Good a0 a1 a2 a3 a4 a5 a6 a7 a8 a9 a10 a11 a12 a13 a14 a15 a16 a17 a18 a19 a20 a21 a22 a23 a24 a25 a26 a27 a28 a29 a30 := by
  have e := congrFun h ValueIdx.ix0
  dsimp only [fn, fn_part1, fn_part2, fn_part3, fn_part4, fn_part5, fn_part6, fn_part7, fn_part8, fn_part9, fn_part10, andi] at e
  simp only [IntOp.andi_eq_one] at e
  obtain ⟨⟨⟨⟨⟨⟨⟨⟨⟨⟨⟨⟨⟨⟨⟨⟨⟨⟨⟨⟨⟨⟨⟨⟨⟨⟨⟨⟨⟨⟨⟨⟨⟨⟨⟨⟨c0, c1⟩, c2⟩, c3⟩, c4⟩, c5⟩, c6⟩, c7⟩, c8⟩, c9⟩, c10⟩, c11⟩, c12⟩, c13⟩, c14⟩, c15⟩, c16⟩, c17⟩, c18⟩, c19⟩, c20⟩, c21⟩, c22⟩, c23⟩, c24⟩, c25⟩, c26⟩, c27⟩, c28⟩, c29⟩, c30⟩, c31⟩, c32⟩, c33⟩, c34⟩, c35⟩, c36⟩ := e
  exact ⟨all_lt_inf _ _ _ a0 _ c0,
    all_lt_inf _ _ _ a1 _ c1,
    all_lt_inf _ _ _ a2 _ c2,
    all_lt_inf _ _ _ a3 _ c3,
    all_lt_inf _ _ _ a4 _ c4,
    all_lt_inf _ _ _ a5 _ c5,
    all_lt_inf _ _ _ a6 _ c6,
    all_lt_inf _ _ _ a7 _ c7,
    all_lt_inf _ _ _ a8 _ c8,
    all_lt_inf _ _ _ a9 _ c9,
    all_lt_inf _ _ _ a10 _ c10,
    all_lt_inf _ _ _ a11 _ c11,
    all_lt_inf _ _ _ a12 _ c12,
    all_lt_inf _ _ _ a13 _ c13,
    all_lt_inf _ _ _ a14 _ c14,
    all_lt_inf _ _ _ a15 _ c15,
    all_lt_inf _ _ _ a16 _ c16,
    all_lt_inf _ _ _ a17 _ c17,
    all_lt_inf _ _ _ a18 _ c18,
    all_lt_inf _ _ _ a19 _ c19,
    all_lt_inf _ _ _ a20 _ c20,
    all_lt_inf _ _ _ a21 _ c21,
    all_lt_inf _ _ _ a22 _ c22,
    all_lt_inf _ _ _ a23 _ c23,
    all_lt_inf _ _ _ a24 _ c24,
    all_lt_inf _ _ _ a25 _ c25,
    all_lt_inf _ _ _ a26 _ c26,
    all_lt_inf _ _ _ a27 _ c27,
    all_lt_inf _ _ _ a28 _ c28,
    all_lt_inf _ _ _ a29 _ c29,
    all_lt_inf _ _ _ a30 _ c30,
    all_ge_zero _ _ _ a5 _ c31,
    all_ge_zero _ _ _ a10 _ c32,
    all_ge_zero _ _ _ a15 _ c33,
    all_ge_zero _ _ _ a20 _ c34,
    all_ge_zero _ _ _ a25 _ c35,
    all_ge_zero _ _ _ a30 _ c36⟩

end Cert.PreReal

end
-- ==== Proof.Spec.lean ====
/-
  The network both programs compute, written once as plain mathematics on the extended reals.

  A signal `x b` of 3000 samples goes through two branches. Each branch is: a strided convolution of the
  zero-padded signal, three times "convolution, batch normalisation in evaluation mode, tanh-GELU", with
  a max pooling (padding with the most negative finite float) after the first and after the third. The
  two branches' outputs are laid side by side along time and read channel-major.

  Everything is indexed by natural numbers; an array of literal extents enters through `ofArr1` … `ofArr3`,
  which read `0` outside the extents (never used: every index the formulas reach is inside).
  Batch normalisation is the affine map  y ↦ y · s + t  with  s = γ / √(v + ε),  t = β − μ · s.
-/
import Idealize.ShloMosaic.PureOps.Ideal
import Idealize.ShloMosaic.Lib.ValueIdx

noncomputable section

namespace Cert.Spec

open Idealize.ShloMosaic Idealize.ShloMosaic.ValueIdx

/-- The most negative finite single-precision number, the fill of the max poolings. -/
def NEG : EReal := Ideal.ofBits .f32 0xFF7FFFFF#32
/-- The batch normalisations' ε (the single-precision number nearest 1e-5). -/
def eps : EReal := Ideal.ofBits .f32 0x3727C5AC#32
def cHalf : EReal := Ideal.ofBits .f32 0x3F000000#32
def cCube : EReal := Ideal.ofBits .f32 0x3D372713#32
def cSqrt : EReal := Ideal.ofBits .f32 0x3F4C422A#32
def cOne : EReal := Ideal.ofBits .f32 0x3F800000#32

/-- tanh-GELU in the association both programs use:
    (½·y) · (1 + tanh (c · (y + ((k·y)·y)·y))). -/
def gelu (y : EReal) : EReal :=
  (cHalf * y) * (cOne + Ideal.tanh (cSqrt * (y + ((cCube * y) * y) * y)))

/-- Batch normalisation's scale  γ / √(v + ε). -/
def scale (g v : ℕ → EReal) (c : ℕ) : EReal := Ideal.div (g c) (Ideal.sqrt (v c + eps))
/-- Batch normalisation's shift  β − μ · s. -/
def shift (b mu : ℕ → EReal) (s : ℕ → EReal) (c : ℕ) : EReal := b c - mu c * s c

/-- A length-`L` sequence padded with `p` zeros in front (and zeros behind). -/
def zpad (p L : ℕ) (f : ℕ → EReal) (j : ℕ) : EReal := if p ≤ j ∧ j < p + L then f (j - p) else 0
/-- A length-`L` sequence padded with `p` copies of `NEG` in front (and `NEG` behind). -/
def npad (p L : ℕ) (f : ℕ → EReal) (j : ℕ) : EReal := if p ≤ j ∧ j < p + L then f (j - p) else NEG
/-- Max pooling with stride `s` and window `k` of an already padded sequence. -/
def pool (s k : ℕ) (f : ℕ → EReal) (l : ℕ) : EReal := (Finset.range k).sup fun j => f (s * l + j)

/-- The arrays the network is a function of, by natural-number indices. -/
structure Params where
  x : ℕ → ℕ → EReal
  w1 : ℕ → ℕ → EReal
  g1 : ℕ → EReal
  b1 : ℕ → EReal
  m1 : ℕ → EReal
  v1 : ℕ → EReal
  w2 : ℕ → ℕ → ℕ → EReal
  g2 : ℕ → EReal
  b2 : ℕ → EReal
  m2 : ℕ → EReal
  v2 : ℕ → EReal
  w3 : ℕ → ℕ → ℕ → EReal
  g3 : ℕ → EReal
  b3 : ℕ → EReal
  m3 : ℕ → EReal
  v3 : ℕ → EReal
  w4 : ℕ → ℕ → EReal
  g4 : ℕ → EReal
  b4 : ℕ → EReal
  m4 : ℕ → EReal
  v4 : ℕ → EReal
  w5 : ℕ → ℕ → ℕ → EReal
  g5 : ℕ → EReal
  b5 : ℕ → EReal
  m5 : ℕ → EReal
  v5 : ℕ → EReal
  w6 : ℕ → ℕ → ℕ → EReal
  g6 : ℕ → EReal
  b6 : ℕ → EReal
  m6 : ℕ → EReal
  v6 : ℕ → EReal

variable (P : Params)

def s1 : ℕ → EReal := scale P.g1 P.v1
def t1 : ℕ → EReal := shift P.b1 P.m1 (s1 P)
def s2 : ℕ → EReal := scale P.g2 P.v2
def t2 : ℕ → EReal := shift P.b2 P.m2 (s2 P)
def s3 : ℕ → EReal := scale P.g3 P.v3
def t3 : ℕ → EReal := shift P.b3 P.m3 (s3 P)
def s4 : ℕ → EReal := scale P.g4 P.v4
def t4 : ℕ → EReal := shift P.b4 P.m4 (s4 P)
def s5 : ℕ → EReal := scale P.g5 P.v5
def t5 : ℕ → EReal := shift P.b5 P.m5 (s5 P)
def s6 : ℕ → EReal := scale P.g6 P.v6
def t6 : ℕ → EReal := shift P.b6 P.m6 (s6 P)

/-! ## Branch 1 -/

/-- 50 taps, stride 6, padding 24: 3000 samples to 500 positions, 64 channels. -/
def H1 (b l co : ℕ) : EReal :=
  gelu ((∑ k ∈ Finset.range 50, zpad 24 3000 (P.x b) (6 * l + k) * P.w1 co k) * s1 P co + t1 P co)
/-- Window 8, stride 2, padding 4: 500 positions to 251. -/
def P1 (b l c : ℕ) : EReal := pool 2 8 (npad 4 500 fun j => H1 P b j c) l
/-- 8 taps, padding 4, 64 to 128 channels: 251 positions to 252. -/
def H2 (b l co : ℕ) : EReal :=
  gelu ((∑ k ∈ Finset.range 8, ∑ ci ∈ Finset.range 64, zpad 4 251 (fun j => P1 P b j ci) (l + k) * P.w2 co ci k)
    * s2 P co + t2 P co)
/-- 8 taps, padding 4, 128 channels: 252 positions to 253. -/
def H3 (b l co : ℕ) : EReal :=
  gelu ((∑ k ∈ Finset.range 8, ∑ ci ∈ Finset.range 128, zpad 4 252 (fun j => H2 P b j ci) (l + k) * P.w3 co ci k)
    * s3 P co + t3 P co)
/-- Window 4, stride 4, padding 2: 253 positions to 64. -/
def X1 (b l c : ℕ) : EReal := pool 4 4 (npad 2 253 fun j => H3 P b j c) l

/-! ## Branch 2 -/

/-- 400 taps, stride 50, padding 200: 3000 samples to 61 positions, 64 channels. -/
def G1 (b l co : ℕ) : EReal :=
  gelu ((∑ k ∈ Finset.range 400, zpad 200 3000 (P.x b) (50 * l + k) * P.w4 co k) * s4 P co + t4 P co)
/-- Window 4, stride 2, padding 2: 61 positions to 31. -/
def Q1 (b l c : ℕ) : EReal := pool 2 4 (npad 2 61 fun j => G1 P b j c) l
/-- 7 taps, padding 3, 64 to 128 channels: 31 positions to 31. -/
def G2 (b l co : ℕ) : EReal :=
  gelu ((∑ k ∈ Finset.range 7, ∑ ci ∈ Finset.range 64, zpad 3 31 (fun j => Q1 P b j ci) (l + k) * P.w5 co ci k)
    * s5 P co + t5 P co)
/-- 7 taps, padding 3, 128 channels: 31 positions to 31. -/
def G3 (b l co : ℕ) : EReal :=
  gelu ((∑ k ∈ Finset.range 7, ∑ ci ∈ Finset.range 128, zpad 3 31 (fun j => G2 P b j ci) (l + k) * P.w6 co ci k)
    * s6 P co + t6 P co)
/-- Window 2, stride 2, padding 1: 31 positions to 16. -/
def X2 (b l c : ℕ) : EReal := pool 2 2 (npad 1 31 fun j => G3 P b j c) l

/-- The result: channel `c` of sample `b` at time `l`; times 0…63 are branch 1, times 64…79 branch 2. -/
def Out (b c l : ℕ) : EReal := if l < 64 then X1 P b l c else X2 P b (l - 64) c

/-! ## Arrays of literal extents as functions of natural numbers -/

def ofArr1 {n0 : ℕ} (a : (⟨1, ![n0]⟩ : Shape).Idx → EReal) (i : ℕ) : EReal :=
  if h : i < n0 then a (ix1 ⟨i, h⟩) else 0
def ofArr3 {n0 n1 n2 : ℕ} (a : (⟨3, ![n0, n1, n2]⟩ : Shape).Idx → EReal) (i j k : ℕ) : EReal :=
  if h : i < n0 ∧ j < n1 ∧ k < n2 then a (ix3 ⟨i, h.1⟩ ⟨j, h.2.1⟩ ⟨k, h.2.2⟩) else 0

theorem ofArr1_val {n0 : ℕ} (a : (⟨1, ![n0]⟩ : Shape).Idx → EReal) (i : Fin n0) : ofArr1 a i.val = a (ix1 i) := by
  simp [ofArr1]
theorem ofArr3_val {n0 n1 n2 : ℕ} (a : (⟨3, ![n0, n1, n2]⟩ : Shape).Idx → EReal) (i : Fin n0) (j : Fin n1) (k : Fin n2) :
    ofArr3 a i.val j.val k.val = a (ix3 i j k) := by
  simp [ofArr3]

/-- The network's arrays from the programs' 31 argument arrays, in the programs' order. -/
def params
    (a0 : (⟨3, ![2048, 1, 3000]⟩ : Shape).Idx → EReal) (a1 : (⟨3, ![64, 1, 50]⟩ : Shape).Idx → EReal)
    (a2 a3 a4 a5 : (⟨1, ![64]⟩ : Shape).Idx → EReal)
    (a6 : (⟨3, ![128, 64, 8]⟩ : Shape).Idx → EReal) (a7 a8 a9 a10 : (⟨1, ![128]⟩ : Shape).Idx → EReal)
    (a11 : (⟨3, ![128, 128, 8]⟩ : Shape).Idx → EReal) (a12 a13 a14 a15 : (⟨1, ![128]⟩ : Shape).Idx → EReal)
    (a16 : (⟨3, ![64, 1, 400]⟩ : Shape).Idx → EReal) (a17 a18 a19 a20 : (⟨1, ![64]⟩ : Shape).Idx → EReal)
    (a21 : (⟨3, ![128, 64, 7]⟩ : Shape).Idx → EReal) (a22 a23 a24 a25 : (⟨1, ![128]⟩ : Shape).Idx → EReal)
    (a26 : (⟨3, ![128, 128, 7]⟩ : Shape).Idx → EReal) (a27 a28 a29 a30 : (⟨1, ![128]⟩ : Shape).Idx → EReal) : Params where
  x := fun b j => ofArr3 a0 b 0 j
  w1 := fun co k => ofArr3 a1 co 0 k
  g1 := ofArr1 a2
  b1 := ofArr1 a3
  m1 := ofArr1 a4
  v1 := ofArr1 a5
  w2 := ofArr3 a6
  g2 := ofArr1 a7
  b2 := ofArr1 a8
  m2 := ofArr1 a9
  v2 := ofArr1 a10
  w3 := ofArr3 a11
  g3 := ofArr1 a12
  b3 := ofArr1 a13
  m3 := ofArr1 a14
  v3 := ofArr1 a15
  w4 := fun co k => ofArr3 a16 co 0 k
  g4 := ofArr1 a17
  b4 := ofArr1 a18
  m4 := ofArr1 a19
  v4 := ofArr1 a20
  w5 := ofArr3 a21
  g5 := ofArr1 a22
  b5 := ofArr1 a23
  m5 := ofArr1 a24
  v5 := ofArr1 a25
  w6 := ofArr3 a26
  g6 := ofArr1 a27
  b6 := ofArr1 a28
  m6 := ofArr1 a29
  v6 := ofArr1 a30

/-- The result array: entry (b, c, l) of the [2048, 128, 80] output. -/
def outArr (P : Params) : (⟨3, ![2048, 128, 80]⟩ : Shape).Idx → EReal :=
  fun i => Out P (i 0).val (i 1).val (i 2).val

end Cert.Spec

end
-- ==== Proof.KIface.lean ====
/-
  The kernel body's values, named: what each block the body loads holds (in terms of the network's arrays,
  for the batch rows B … B+7 of one grid point), and what each intermediate array of the body is (in terms
  of the network's layers). The body's lemmas take and give these statements.
-/
import proofs.«125144_g2000006933354569_pallasbulk_1054_1_alg».proof.Proof.Spec
import proofs.«125144_g2000006933354569_pallasbulk_1054_1_alg».proof.KernelIdeal

noncomputable section

namespace Cert.KernelIdeal.KIface

open Cert.KernelIdeal Cert.Spec Idealize.ShloMosaic Idealize.ShloMosaic.ValueIdx

variable (P : Params) (B : ℕ)

/-- Two neighbouring positions of the first layer of branch 1 joined by max, NEG-padded by two on each side:
    row j of this is the pair (2(j−2), 2(j−2)+1). -/
def mp1 (b c : ℕ) (j : ℕ) : EReal := npad 2 250 (fun u => max (H1 P b (2 * u) c) (H1 P b (2 * u + 1) c)) j

/-- The blocks one grid point loads, for batch rows B … B+7. -/
structure KHyp (x0 : S8x254x12.Idx → EReal) (x1 : S8x35x100.Idx → EReal) (x2 : S60x128.Idx → EReal) (x3 : S1x128.Idx → EReal)
    (x4 : S512x128.Idx → EReal) (x5 : S1x128.Idx → EReal) (x6 : S1024x128.Idx → EReal) (x7 : S1x128.Idx → EReal)
    (x8 : S500x128.Idx → EReal) (x9 : S1x128.Idx → EReal) (x10 : S448x128.Idx → EReal) (x11 : S1x128.Idx → EReal)
    (x12 : S896x128.Idx → EReal) (x13 : S1x128.Idx → EReal) : Prop where
  /-- the signal zero-padded by 24, twelve samples to a row -/
  hx0 : ∀ (bb : Fin 8) (u : Fin 254) (r : Fin 12), x0 (ix3 bb u r) = zpad 24 3000 (P.x (B + bb.val)) (12 * u.val + r.val)
  /-- the signal zero-padded by 200, a hundred samples to a row -/
  hx1 : ∀ (bb : Fin 8) (u : Fin 35) (r : Fin 100), x1 (ix3 bb u r) = zpad 200 3000 (P.x (B + bb.val)) (100 * u.val + r.val)
  /-- the scaled taps of the first layer, once from row 0 (even positions) and once from row 6 (odd positions) -/
  hx2 : ∀ (j : Fin 60) (c : Fin 128), x2 (ix2 j c) =
    if c.val < 64 then zpad 0 50 (fun k => P.w1 c.val k * s1 P c.val) j.val
    else zpad 6 50 (fun k => P.w1 (c.val - 64) k * s1 P (c.val - 64)) j.val
  hx3 : ∀ c : Fin 128, x3 (ix2 0 c) = t1 P (c.val % 64)
  /-- the scaled taps of the second layer, row k·64 + ci -/
  hx4 : ∀ (j : Fin 512) (co : Fin 128), x4 (ix2 j co) = P.w2 co.val (j.val % 64) (j.val / 64) * s2 P co.val
  hx5 : ∀ co : Fin 128, x5 (ix2 0 co) = t2 P co.val
  hx6 : ∀ (j : Fin 1024) (co : Fin 128), x6 (ix2 j co) = P.w3 co.val (j.val % 128) (j.val / 128) * s3 P co.val
  hx7 : ∀ co : Fin 128, x7 (ix2 0 co) = t3 P co.val
  hx8 : ∀ (j : Fin 500) (c : Fin 128), x8 (ix2 j c) =
    if c.val < 64 then zpad 0 400 (fun k => P.w4 c.val k * s4 P c.val) j.val
    else zpad 50 400 (fun k => P.w4 (c.val - 64) k * s4 P (c.val - 64)) j.val
  hx9 : ∀ c : Fin 128, x9 (ix2 0 c) = t4 P (c.val % 64)
  hx10 : ∀ (j : Fin 448) (co : Fin 128), x10 (ix2 j co) = P.w5 co.val (j.val % 64) (j.val / 64) * s5 P co.val
  hx11 : ∀ co : Fin 128, x11 (ix2 0 co) = t5 P co.val
  hx12 : ∀ (j : Fin 896) (co : Fin 128), x12 (ix2 j co) = P.w6 co.val (j.val % 128) (j.val / 128) * s6 P co.val
  hx13 : ∀ co : Fin 128, x13 (ix2 0 co) = t6 P co.val

/-! ## The body's intermediate arrays -/

/-- the pair-maxima of layer 1, padded -/
def IsMP (v39 : S8x254x64.Idx → EReal) : Prop :=
  ∀ (bb : Fin 8) (j : Fin 254) (c : Fin 64), v39 (ix3 bb j c) = mp1 P (B + bb.val) c.val j.val
/-- the running max over the first three of a window's four pairs -/
def IsV44 (v44 : S8x251x64.Idx → EReal) : Prop :=
  ∀ (bb : Fin 8) (l : Fin 251) (c : Fin 64), v44 (ix3 bb l c) =
    max (max (mp1 P (B + bb.val) c.val l.val) (mp1 P (B + bb.val) c.val (l.val + 1))) (mp1 P (B + bb.val) c.val (l.val + 2))
/-- layer 2 of branch 1, zero-padded by 4 on each side -/
def IsH2Z (v91 : S8x260x128.Idx → EReal) : Prop :=
  ∀ (bb : Fin 8) (j : Fin 260) (co : Fin 128), v91 (ix3 bb j co) = zpad 4 252 (fun l => H2 P (B + bb.val) l co.val) j.val
def IsV92 (v92 : S8x253x128.Idx → EReal) : Prop :=
  ∀ (bb : Fin 8) (l : Fin 253) (co : Fin 128), v92 (ix3 bb l co) = zpad 4 252 (fun l' => H2 P (B + bb.val) l' co.val) l.val
/-- branch 1's output -/
def IsX1 (v132 : S8x64x128.Idx → EReal) : Prop :=
  ∀ (bb : Fin 8) (l : Fin 64) (c : Fin 128), v132 (ix3 bb l c) = X1 P (B + bb.val) l.val c.val
/-- the signal zero-padded by 200, rows o … o+30 -/
def IsXBs (o : ℕ) (v : S8x31x100.Idx → EReal) : Prop :=
  ∀ (bb : Fin 8) (u : Fin 31) (r : Fin 100), v (ix3 bb u r) = zpad 200 3000 (P.x (B + bb.val)) (100 * (u.val + o) + r.val)
def IsXB (v : S8x35x100.Idx → EReal) : Prop :=
  ∀ (bb : Fin 8) (u : Fin 35) (r : Fin 100), v (ix3 bb u r) = zpad 200 3000 (P.x (B + bb.val)) (100 * u.val + r.val)
/-- the pooled first layer of branch 2, zero-padded by 3 on each side -/
def IsQ1Z (v183 : S8x37x64.Idx → EReal) : Prop :=
  ∀ (bb : Fin 8) (j : Fin 37) (c : Fin 64), v183 (ix3 bb j c) = zpad 3 31 (fun l => Q1 P (B + bb.val) l c.val) j.val
/-- the seven shifted copies of layer 2 of branch 2 (zero-padded by 3), side by side: column k·128 + ci -/
def IsWin6 (v230 : S8x31x896.Idx → EReal) : Prop :=
  ∀ (bb : Fin 8) (l : Fin 31) (j : Fin 896), v230 (ix3 bb l j) =
    zpad 3 31 (fun l' => G2 P (B + bb.val) l' (j.val % 128)) (l.val + j.val / 128)

end Cert.KernelIdeal.KIface

end
-- ==== Proof.KIface2.lean ====
/-
  The fourteen arrays the kernel program's launch reads, as the host operations before it leave them, in
  terms of the network's arrays: the two paddings of the signal and, per layer, the taps with the
  batch-norm scale folded in and the shift row.
-/
import proofs.«125144_g2000006933354569_pallasbulk_1054_1_alg».proof.Proof.KIface

noncomputable section

namespace Cert.KernelIdeal.KIface

open Cert.KernelIdeal Cert.Spec Idealize.ShloMosaic Idealize.ShloMosaic.ValueIdx

/-- What the launch's fourteen input arrays hold. -/
structure KArr (P : Params) (A0 : S2048x254x12.Idx → EReal) (A1 : S2048x35x100.Idx → EReal) (A2 : S60x128.Idx → EReal) (A3 : S1x128.Idx → EReal)
    (A4 : S512x128.Idx → EReal) (A5 : S1x128.Idx → EReal) (A6 : S1024x128.Idx → EReal) (A7 : S1x128.Idx → EReal)
    (A8 : S500x128.Idx → EReal) (A9 : S1x128.Idx → EReal) (A10 : S448x128.Idx → EReal) (A11 : S1x128.Idx → EReal)
    (A12 : S896x128.Idx → EReal) (A13 : S1x128.Idx → EReal) : Prop where
  h0 : ∀ (b : Fin 2048) (u : Fin 254) (r : Fin 12), A0 (ix3 b u r) = zpad 24 3000 (P.x b.val) (12 * u.val + r.val)
  h1 : ∀ (b : Fin 2048) (u : Fin 35) (r : Fin 100), A1 (ix3 b u r) = zpad 200 3000 (P.x b.val) (100 * u.val + r.val)
  h2 : ∀ (j : Fin 60) (c : Fin 128), A2 (ix2 j c) =
    if c.val < 64 then zpad 0 50 (fun k => P.w1 c.val k * s1 P c.val) j.val
    else zpad 6 50 (fun k => P.w1 (c.val - 64) k * s1 P (c.val - 64)) j.val
  h3 : ∀ c : Fin 128, A3 (ix2 0 c) = t1 P (c.val % 64)
  h4 : ∀ (j : Fin 512) (co : Fin 128), A4 (ix2 j co) = P.w2 co.val (j.val % 64) (j.val / 64) * s2 P co.val
  h5 : ∀ co : Fin 128, A5 (ix2 0 co) = t2 P co.val
  h6 : ∀ (j : Fin 1024) (co : Fin 128), A6 (ix2 j co) = P.w3 co.val (j.val % 128) (j.val / 128) * s3 P co.val
  h7 : ∀ co : Fin 128, A7 (ix2 0 co) = t3 P co.val
  h8 : ∀ (j : Fin 500) (c : Fin 128), A8 (ix2 j c) =
    if c.val < 64 then zpad 0 400 (fun k => P.w4 c.val k * s4 P c.val) j.val
    else zpad 50 400 (fun k => P.w4 (c.val - 64) k * s4 P (c.val - 64)) j.val
  h9 : ∀ c : Fin 128, A9 (ix2 0 c) = t4 P (c.val % 64)
  h10 : ∀ (j : Fin 448) (co : Fin 128), A10 (ix2 j co) = P.w5 co.val (j.val % 64) (j.val / 64) * s5 P co.val
  h11 : ∀ co : Fin 128, A11 (ix2 0 co) = t5 P co.val
  h12 : ∀ (j : Fin 896) (co : Fin 128), A12 (ix2 j co) = P.w6 co.val (j.val % 128) (j.val / 128) * s6 P co.val
  h13 : ∀ co : Fin 128, A13 (ix2 0 co) = t6 P co.val

end Cert.KernelIdeal.KIface

end
-- ==== Proof.KParams.lean ====
/-
  The network's arrays read off the kernel program's launch memory: argument k of the program is the
  k-th array of `Cert.Spec.params`.
-/
import proofs.«125144_g2000006933354569_pallasbulk_1054_1_alg».proof.Proof.Spec
import proofs.«125144_g2000006933354569_pallasbulk_1054_1_alg».proof.KernelIdeal

noncomputable section

namespace Cert.KernelIdeal

open Idealize.ShloMosaic Idealize.SL.Sem

/-- The network's arrays as core `c` of the kernel program is launched with them. -/
def PK (m : (ℓ : Loc nD τ sig) → Buf (Elt Ideal) ℓ) (c : Dev nD) : Cert.Spec.Params :=
  Cert.Spec.params (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))

end Cert.KernelIdeal

end
-- ==== Proof.KProlog1.lean ====
/-
  What the kernel program's host operations leave in the launch arrays of branch 1, in terms of the network's
  arrays: the signal zero-padded and cut into rows of twelve, and per layer the taps with the batch-norm scale
  s = γ / √(v + ε) folded in and the shift row t = β − μ · s.

  Each array is read at an index, operation by operation: a reshape by the row-major position, a padding by
  whether the index is inside, a transpose by swapping coordinates, a concatenation by which piece the index
  falls in, a spread-out vector by the coordinate it keeps.
-/
import proofs.«125144_g2000006933354569_pallasbulk_1054_1_alg».proof.Proof.Gen.KernelIdeal.Frame
import proofs.«125144_g2000006933354569_pallasbulk_1054_1_alg».proof.Proof.KIface2
import proofs.«125144_g2000006933354569_pallasbulk_1054_1_alg».proof.Proof.KParams
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.KProlog

open Cert.KernelIdeal Cert.KernelIdeal.Gen Cert.Spec Idealize.ShloMosaic Idealize.ShloMosaic.ValueIdx
  Idealize.ShloMosaic.StableHlo Idealize.SL.Sem

/-! ## Reading the host's operations at an index -/

/-- A scalar constant spread over any shape reads as the constant everywhere. -/
theorem bcast_const_apply {t : Shape} (dims : Fin S_.rank → Fin t.rank) (h : S_.BroadcastsInDim t dims) (b : BitVec FTy.f32.bits) (j : t.Idx) :
    broadcastInDim t dims h (constant (F := Ideal) S_ .f32 b) j = Ideal.ofBits .f32 b := rfl

/-- Batch normalisation's scale vector read at an entry. -/
theorem bn_scale_apply {n : ℕ} (g v : (⟨1, ![n]⟩ : Shape).Idx → EReal) (dims : Fin S_.rank → Fin (⟨1, ![n]⟩ : Shape).rank)
    (h : S_.BroadcastsInDim ⟨1, ![n]⟩ dims) (i : Fin n) :
    Host.divf (F := Ideal) (φ := .f32) g (Host.sqrt (F := Ideal) (φ := .f32) (addf (F := Ideal) (φ := .f32) v
      (broadcastInDim _ dims h (constant (F := Ideal) S_ .f32 0x3727C5AC#32)))) (ix1 i)
      = scale (ofArr1 g) (ofArr1 v) i.val := by
  simp only [addf_apply, Host.divf, Host.sqrt, Ideal.hostDivf_def, Ideal.hostUnary_sqrt_def, bcast_const_apply, scale, ofArr1_val, eps]

/-- Batch normalisation's shift vector read at an entry. -/
theorem bn_shift_apply {n : ℕ} (b mu g v : (⟨1, ![n]⟩ : Shape).Idx → EReal) (dims : Fin S_.rank → Fin (⟨1, ![n]⟩ : Shape).rank)
    (h : S_.BroadcastsInDim ⟨1, ![n]⟩ dims) (i : Fin n) :
    subf (F := Ideal) (φ := .f32) b (mulf (F := Ideal) (φ := .f32) mu (Host.divf (F := Ideal) (φ := .f32) g (Host.sqrt (F := Ideal) (φ := .f32) (addf (F := Ideal) (φ := .f32) v
      (broadcastInDim _ dims h (constant (F := Ideal) S_ .f32 0x3727C5AC#32)))))) (ix1 i)
      = shift (ofArr1 b) (ofArr1 mu) (scale (ofArr1 g) (ofArr1 v)) i.val := by
  rw [subf_apply, mulf_apply, bn_scale_apply]
  simp only [shift, ofArr1_val]

/-- A row vector spread down the rows of a matrix reads, at (j, co), the vector's entry co. -/
theorem bcast_row_apply {M N : ℕ} (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (j : Fin M) (co : Fin N) :
    broadcastInDim ⟨2, ![M, N]⟩ ![0, 1] h2 (broadcastInDim ⟨2, ![1, N]⟩ ![1] h1 v) (ix2 j co) = v (ix1 co) := by
  refine (broadcastInDim_apply _ _ _ _ (ix2 (0 : Fin 1) co) ?_).trans ?_
  · intro a
    match a with
    | ⟨0, _⟩ => show (0 : ℕ) = if (1 : ℕ) = 1 then 0 else _; rw [if_pos rfl]
    | ⟨1, _⟩ => show co.val = if N = 1 then 0 else co.val; split <;> omega
  · refine broadcastInDim_apply _ _ _ _ (ix1 co) ?_
    intro a
    match a with
    | ⟨0, _⟩ => show co.val = if N = 1 then 0 else co.val; split <;> omega

/-- The taps [N, C, K] turned to [K, C, N] and flattened to [K·C, N] read, at (j, co), tap j / C of input channel j % C
    of output channel co. -/
theorem taps_apply {K C N M : ℕ} (w : (⟨3, ![N, C, K]⟩ : Shape).Idx → EReal)
    (hT : (⟨3, ![N, C, K]⟩ : Shape).Transposes [2, 1, 0] ⟨3, ![K, C, N]⟩)
    (hS : (⟨3, ![K, C, N]⟩ : Shape).ShapeCasts ⟨2, ![M, N]⟩) (hM : M = K * C) (j : Fin M) (co : Fin N) :
    shapeCast ⟨2, ![M, N]⟩ (transpose ⟨3, ![K, C, N]⟩ [2, 1, 0] w hT) hS (ix2 j co)
      = ofArr3 w co.val (j.val % C) (j.val / C) := by
  have hj : j.val < K * C := hM ▸ j.isLt
  have hC : 0 < C := by
    rcases Nat.eq_zero_or_pos C with h | h
    · subst h; simp at hj
    · exact h
  have h1 : j.val % C < C := Nat.mod_lt _ hC
  have h2 : j.val / C < K := (Nat.div_lt_iff_lt_mul hC).2 hj
  refine (shapeCast_apply _ hS _ (ix3 ⟨j.val / C, h2⟩ ⟨j.val % C, h1⟩ co) ?_).trans ?_
  · rw [Shape.rowMajor_val_three, Shape.rowMajor_val_two]
    show (j.val / C * C + j.val % C) * N + co.val = j.val * N + co.val
    rw [Nat.div_add_mod']
  · refine (transpose_apply _ w hT _ (ix3 co ⟨j.val % C, h1⟩ ⟨j.val / C, h2⟩) ?_).trans ?_
    · intro b
      match b with
      | ⟨0, _⟩ => rfl
      | ⟨1, _⟩ => rfl
      | ⟨2, _⟩ => rfl
    · exact (ofArr3_val w co ⟨j.val % C, h1⟩ ⟨j.val / C, h2⟩).symm

theorem ofArr3_of_lt {n0 n1 n2 : ℕ} (a : (⟨3, ![n0, n1, n2]⟩ : Shape).Idx → EReal) (i j k : ℕ) (hi : i < n0) (hj : j < n1)
    (hk : k < n2) : ofArr3 a i j k = a (ix3 ⟨i, hi⟩ ⟨j, hj⟩ ⟨k, hk⟩) := by
  unfold ofArr3
  rw [dif_pos ⟨hi, hj, hk⟩]

/-- The integer zero converted, as a scalar array: zero at its one index. -/
theorem zero_scalar_apply (i : S_.Idx) : (sitofp (F := Ideal) .f32 (constantI S_ 32 0#32) : S_.Idx → EReal) i = 0 := by
  show ((((0#32 : BitVec 32).toInt : ℤ) : ℝ) : EReal) = 0
  simp

/-- A matrix padded along its rows (lo in front, hi behind, nothing between) reads the operand inside and the padding
    value outside. -/
theorem pad_row_apply {A n lo hi L : ℕ} (x : (⟨2, ![A, n]⟩ : Shape).Idx → EReal) {u : Shape} (v : u.Idx → EReal)
    (hP : (⟨2, ![A, n]⟩ : Shape).Pads ![0, lo] ![0, hi] ![0, 0] ⟨2, ![A, L]⟩) (hu : 0 < u.numel) (a : Fin A) (q : Fin L) :
    pad ⟨2, ![A, L]⟩ ![0, lo] ![0, hi] ![0, 0] x v hP hu (ix2 a q)
      = if h : lo ≤ q.val ∧ q.val < lo + n then x (ix2 a ⟨q.val - lo, by omega⟩) else v (Shape.Idx.first hu) := by
  split
  · next h =>
    refine pad_apply_of_inside _ _ _ x v hP hu _ (ix2 a ⟨q.val - lo, by omega⟩) ?_
    intro a'
    match a' with
    | ⟨0, _⟩ => show a.val = 0 + a.val * (0 + 1); omega
    | ⟨1, _⟩ => show q.val = lo + (q.val - lo) * (0 + 1); omega
  · next h =>
    refine pad_apply_of_not_inside _ _ _ x v hP hu _ (1 : Fin 2) ?_
    show ¬(lo ≤ q.val ∧ (q.val - lo) % (0 + 1) = 0 ∧ (q.val - lo) / (0 + 1) < n)
    rintro ⟨h1, -, h3⟩
    rw [Nat.zero_add, Nat.div_one] at h3
    exact h ⟨h1, by omega⟩

/-- An [A, 1, n] array read as [A, n]. -/
theorem shapeCast_drop_mid_apply {A n : ℕ} (x : (⟨3, ![A, 1, n]⟩ : Shape).Idx → EReal)
    (h : (⟨3, ![A, 1, n]⟩ : Shape).ShapeCasts ⟨2, ![A, n]⟩) (a : Fin A) (k : Fin n) :
    shapeCast ⟨2, ![A, n]⟩ x h (ix2 a k) = ofArr3 x a.val 0 k.val := by
  rw [ofArr3_of_lt x a.val 0 k.val a.isLt Nat.one_pos k.isLt]
  refine shapeCast_apply x h _ _ ?_
  rw [Shape.rowMajor_val_three, Shape.rowMajor_val_two]
  show (a.val * 1 + 0) * n + k.val = a.val * n + k.val
  rw [Nat.mul_one, Nat.add_zero]

/-- A column vector spread along the rows of a matrix reads, at (a, k), the vector's entry a. -/
theorem bcast_col_apply {A n : ℕ} (v : (⟨1, ![A]⟩ : Shape).Idx → EReal)
    (h1 : (⟨1, ![A]⟩ : Shape).BroadcastsInDim ⟨2, ![A, 1]⟩ ![0])
    (h2 : (⟨2, ![A, 1]⟩ : Shape).BroadcastsInDim ⟨2, ![A, n]⟩ ![0, 1]) (a : Fin A) (k : Fin n) :
    broadcastInDim ⟨2, ![A, n]⟩ ![0, 1] h2 (broadcastInDim ⟨2, ![A, 1]⟩ ![0] h1 v) (ix2 a k) = v (ix1 a) := by
  refine (broadcastInDim_apply _ _ _ _ (ix2 a (0 : Fin 1)) ?_).trans ?_
  · intro a'
    match a' with
    | ⟨0, _⟩ => show a.val = if A = 1 then 0 else a.val; split <;> omega
    | ⟨1, _⟩ => show (0 : ℕ) = if (1 : ℕ) = 1 then 0 else _; rw [if_pos rfl]
  · refine broadcastInDim_apply _ _ _ _ (ix1 a) ?_
    intro a'
    match a' with
    | ⟨0, _⟩ => show a.val = if A = 1 then 0 else a.val; split <;> omega

/-- The first layer's taps [A, 1, n] read as [A, n] and multiplied by the scale of their output channel. -/
theorem scaled_row_apply {A n : ℕ} (w : (⟨3, ![A, 1, n]⟩ : Shape).Idx → EReal)
    (hS : (⟨3, ![A, 1, n]⟩ : Shape).ShapeCasts ⟨2, ![A, n]⟩) (g v : (⟨1, ![A]⟩ : Shape).Idx → EReal)
    (dims : Fin S_.rank → Fin (⟨1, ![A]⟩ : Shape).rank) (hB : S_.BroadcastsInDim ⟨1, ![A]⟩ dims)
    (h1 : (⟨1, ![A]⟩ : Shape).BroadcastsInDim ⟨2, ![A, 1]⟩ ![0])
    (h2 : (⟨2, ![A, 1]⟩ : Shape).BroadcastsInDim ⟨2, ![A, n]⟩ ![0, 1]) (a : Fin A) (k : Fin n) :
    mulf (F := Ideal) (φ := .f32) (fun i => shapeCast ⟨2, ![A, n]⟩ w hS i)
        (broadcastInDim ⟨2, ![A, n]⟩ ![0, 1] h2 (broadcastInDim ⟨2, ![A, 1]⟩ ![0] h1
          (Host.divf (F := Ideal) (φ := .f32) g (Host.sqrt (F := Ideal) (φ := .f32) (addf (F := Ideal) (φ := .f32) v
            (broadcastInDim _ dims hB (constant (F := Ideal) S_ .f32 0x3727C5AC#32))))))) (ix2 a k)
      = ofArr3 w a.val 0 k.val * scale (ofArr1 g) (ofArr1 v) a.val := by
  rw [mulf_apply, bcast_col_apply, bn_scale_apply]
  exact congrArg (· * _) (shapeCast_drop_mid_apply w hS a k)

/-! ## The launch arrays of branch 1 -/

variable (m : (ℓ : Loc nD τ sig) → Buf (Elt Ideal) ℓ) (c : Dev nD)

set_option maxHeartbeats 4000000 in
/-- The signal zero-padded by 24 on each side, twelve samples to a row. -/
theorem arr0 (b : Fin 2048) (u : Fin 254) (r : Fin 12) :
    (V m c main_v2 : S2048x254x12.Idx → EReal) (ix3 b u r) = zpad 24 3000 ((PK m c).x b.val) (12 * u.val + r.val) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.toBuf, TRef.ofBuf, cast_eq]
  have hq : 12 * u.val + r.val < 3048 := by omega
  refine (shapeCast_apply _ _ (ix3 b u r) (ix2 b ⟨12 * u.val + r.val, hq⟩) ?_).trans ?_
  · rw [Shape.rowMajor_val_two, Shape.rowMajor_val_three]
    show b.val * 3048 + (12 * u.val + r.val) = (b.val * 254 + u.val) * 12 + r.val
    omega
  refine (pad_row_apply (A := 2048) (n := 3000) (lo := 24) (hi := 24) (L := 3048) _ _ _ _ b ⟨12 * u.val + r.val, hq⟩).trans ?_
  unfold zpad
  by_cases h : 24 ≤ 12 * u.val + r.val ∧ 12 * u.val + r.val < 24 + 3000
  · rw [dif_pos h, if_pos h]
    exact shapeCast_drop_mid_apply (A := 2048) (n := 3000) _ _ b ⟨12 * u.val + r.val - 24, by omega⟩
  · rw [dif_neg h, if_neg h]
    exact zero_scalar_apply _

set_option maxHeartbeats 4000000 in
/-- The first layer's scaled taps, once from row 0 and once from row 6. -/
theorem arr2 (j : Fin 60) (cc : Fin 128) : (V m c main_v19 : S60x128.Idx → EReal) (ix2 j cc) =
    if cc.val < 64 then zpad 0 50 (fun k => (PK m c).w1 cc.val k * s1 (PK m c) cc.val) j.val
    else zpad 6 50 (fun k => (PK m c).w1 (cc.val - 64) k * s1 (PK m c) (cc.val - 64)) j.val := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  simp only [TRef.toBuf, TRef.ofBuf, cast_eq]
  by_cases hc : cc.val < 64
  · rw [if_pos hc]
    refine (concatenate_pair_apply_left (t := S60x128) (s₁ := S60x64) (s₂ := S60x64) 1 _ _ _ (ix2 j cc) rfl (ix2 j ⟨cc.val, hc⟩) ?_).trans ?_
    · intro b
      match b with
      | ⟨0, _⟩ => rfl
      | ⟨1, _⟩ => rfl
    refine (transpose_ix2_apply (a := 64) (b := 60) _ _ j ⟨cc.val, hc⟩).trans ?_
    refine (pad_row_apply (A := 64) (n := 50) (lo := 0) (hi := 10) (L := 60) _ _ _ _ ⟨cc.val, hc⟩ j).trans ?_
    unfold zpad
    by_cases h : 0 ≤ j.val ∧ j.val < 0 + 50
    · rw [dif_pos h, if_pos h]
      refine (scaled_row_apply (A := 64) (n := 50) _ _ _ _ _ _ _ _ ⟨cc.val, hc⟩ ⟨j.val - 0, by omega⟩).trans ?_
      simp only [s1, PK, params]
    · rw [dif_neg h, if_neg h]
      exact zero_scalar_apply _
  · rw [if_neg hc]
    have h2 : cc.val - 64 < 64 := by omega
    refine (concatenate_pair_apply_right (t := S60x128) (s₁ := S60x64) (s₂ := S60x64) 1 _ _ _ (ix2 j cc) rfl rfl (ix2 j ⟨cc.val - 64, h2⟩) ?_ ?_).trans ?_
    · intro b hb
      match b with
      | ⟨0, _⟩ => rfl
      | ⟨1, _⟩ => exact absurd rfl hb
    · show cc.val - 64 + 64 = cc.val
      omega
    refine (transpose_ix2_apply (a := 64) (b := 60) _ _ j ⟨cc.val - 64, h2⟩).trans ?_
    refine (pad_row_apply (A := 64) (n := 50) (lo := 6) (hi := 4) (L := 60) _ _ _ _ ⟨cc.val - 64, h2⟩ j).trans ?_
    unfold zpad
    by_cases h : 6 ≤ j.val ∧ j.val < 6 + 50
    · rw [dif_pos h, if_pos h]
      refine (scaled_row_apply (A := 64) (n := 50) _ _ _ _ _ _ _ _ ⟨cc.val - 64, h2⟩ ⟨j.val - 6, by omega⟩).trans ?_
      simp only [s1, PK, params]
    · rw [dif_neg h, if_neg h]
      exact zero_scalar_apply _

set_option maxHeartbeats 4000000 in
/-- The first layer's shift row, twice side by side. -/
theorem arr3 (cc : Fin 128) : (V m c main_v21 : S1x128.Idx → EReal) (ix2 0 cc) = t1 (PK m c) (cc.val % 64) := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  refine (shapeCast_a_1a_apply (a := 128) _ _ (0 : Fin 1) cc).trans ?_
  by_cases hc : cc.val < 64
  · refine (concatenate_pair_apply_left (t := S128) (s₁ := S64) (s₂ := S64) 0 _ _ _ (ix1 cc) rfl (ix1 ⟨cc.val, hc⟩) ?_).trans ?_
    · intro b
      match b with
      | ⟨0, _⟩ => rfl
    after_results_simp
    refine (bn_shift_apply _ _ _ _ _ _ _).trans ?_
    simp only [t1, s1, PK, params, Nat.mod_eq_of_lt hc]
  · have h2 : cc.val - 64 < 64 := by omega
    refine (concatenate_pair_apply_right (t := S128) (s₁ := S64) (s₂ := S64) 0 _ _ _ (ix1 cc) rfl rfl (ix1 ⟨cc.val - 64, h2⟩) ?_ ?_).trans ?_
    · intro b hb
      match b with
      | ⟨0, _⟩ => exact absurd rfl hb
    · show cc.val - 64 + 64 = cc.val
      omega
    after_results_simp
    refine (bn_shift_apply _ _ _ _ _ _ _).trans ?_
    have e : cc.val % 64 = cc.val - 64 := by omega
    simp only [t1, s1, PK, params, e]

set_option maxHeartbeats 4000000 in
/-- The second layer's scaled taps, row k·64 + ci. -/
theorem arr4 (j : Fin 512) (co : Fin 128) : (V m c main_v32 : S512x128.Idx → EReal) (ix2 j co) =
    (PK m c).w2 co.val (j.val % 64) (j.val / 64) * s2 (PK m c) co.val := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rw [mulf_apply]
  refine congrArg₂ (· * ·) ?_ ?_
  · exact taps_apply (K := 8) (C := 64) (N := 128) (M := 512) _ _ _ rfl j co
  · refine (bcast_row_apply (M := 512) (N := 128) _ _ _ j co).trans ?_
    refine (bn_scale_apply _ _ _ _ _).trans ?_
    simp only [s2, PK, params]

set_option maxHeartbeats 4000000 in
/-- The second layer's shift row. -/
theorem arr5 (co : Fin 128) : (V m c main_v33 : S1x128.Idx → EReal) (ix2 0 co) = t2 (PK m c) co.val := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  refine (shapeCast_a_1a_apply (a := 128) _ _ (0 : Fin 1) co).trans ?_
  refine (bn_shift_apply _ _ _ _ _ _ _).trans ?_
  simp only [t2, s2, PK, params]

set_option maxHeartbeats 4000000 in
/-- The third layer's scaled taps, row k·128 + ci. -/
theorem arr6 (j : Fin 1024) (co : Fin 128) : (V m c main_v44 : S1024x128.Idx → EReal) (ix2 j co) =
    (PK m c).w3 co.val (j.val % 128) (j.val / 128) * s3 (PK m c) co.val := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  rw [mulf_apply]
  refine congrArg₂ (· * ·) ?_ ?_
  · exact taps_apply (K := 8) (C := 128) (N := 128) (M := 1024) _ _ _ rfl j co
  · refine (bcast_row_apply (M := 1024) (N := 128) _ _ _ j co).trans ?_
    refine (bn_scale_apply _ _ _ _ _).trans ?_
    simp only [s3, PK, params]

set_option maxHeartbeats 4000000 in
/-- The third layer's shift row. -/
theorem arr7 (co : Fin 128) : (V m c main_v45 : S1x128.Idx → EReal) (ix2 0 co) = t3 (PK m c) co.val := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
  after_results_simp
  refine (shapeCast_a_1a_apply (a := 128) _ _ (0 : Fin 1) co).trans ?_
  refine (bn_shift_apply _ _ _ _ _ _ _).trans ?_
  simp only [t3, s3, PK, params]

end Cert.KernelIdeal.KProlog
end
-- ==== Proof.KProlog2.lean ====
/-
  The launch arrays of branch 2 as the host operations before the launch leave them, read entry by entry
  in terms of the network's arrays: the signal zero-padded by 200 and cut into rows of a hundred, and per
  layer the taps with the batch-normalisation scale γ / √(v + ε) folded in and the shift row β − μ · s.

  Each array is first written as one composed term over the launch contents (the host's operations in the
  host's order), then read at an index: a reshape through row-major positions, a padding by cases on the
  position, a transpose by swapping coordinates, a concatenation by the half the column falls in.
  The auxiliary terms and their index lemmas live in the namespace `B2`; the seven results are `arr1`, `arr8` … `arr13`.
-/
import proofs.«125144_g2000006933354569_pallasbulk_1054_1_alg».proof.Proof.KIface2
import proofs.«125144_g2000006933354569_pallasbulk_1054_1_alg».proof.Proof.KParams
import proofs.«125144_g2000006933354569_pallasbulk_1054_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
noncomputable section
namespace Cert.KernelIdeal.KProlog
open Cert.KernelIdeal Cert.KernelIdeal.Gen Cert.KernelIdeal.KIface Cert.Spec Idealize.ShloMosaic Idealize.ShloMosaic.ValueIdx Idealize.ShloMosaic.StableHlo
open Idealize.SL.Sem

variable (m : (ℓ : Loc nD τ sig) → Buf (Elt Ideal) ℓ) (c : Dev nD)

namespace B2

/-- The integer zero converted to a float is the real zero. -/
theorem sitofp_zero : FloatOps.sitofp (F := Ideal) FTy.f32 (0#32 : BitVec 32) = (0 : EReal) := by
  show (((0#32 : BitVec 32).toInt : ℝ) : EReal) = 0
  simp

/-- The padding value of every host padding: the integer zero converted. -/
def zf : S_.Idx → EReal := sitofp (F := Ideal) .f32 (constantI S_ 32 0#32)

theorem zf_apply (i : S_.Idx) : zf i = 0 := by
  unfold zf
  rw [sitofp_apply, constantI_apply, sitofp_zero]

/-- The batch-normalisation scale row as the host computes it: γ / √(v + ε). -/
def hScale {n : ℕ} (h : S_.BroadcastsInDim (⟨1, ![n]⟩ : Shape) (![] : Fin 0 → Fin 1))
    (g v : (⟨1, ![n]⟩ : Shape).Idx → EReal) : (⟨1, ![n]⟩ : Shape).Idx → EReal :=
  Host.divf (F := Ideal) (φ := .f32) g (Host.sqrt (F := Ideal) (φ := .f32) (addf (F := Ideal) (φ := .f32) v
    (broadcastInDim (⟨1, ![n]⟩ : Shape) ![] h (constant (F := Ideal) S_ .f32 0x3727C5AC#32))))

theorem hScale_apply {n : ℕ} (h : S_.BroadcastsInDim (⟨1, ![n]⟩ : Shape) (![] : Fin 0 → Fin 1))
    (g v : (⟨1, ![n]⟩ : Shape).Idx → EReal) (i : Fin n) :
    hScale h g v (ix1 i) = scale (ofArr1 g) (ofArr1 v) i.val := by
  unfold scale hScale
  rw [ofArr1_val, ofArr1_val]
  show Ideal.div (g (ix1 i)) (Ideal.sqrt (v (ix1 i) + broadcastInDim (⟨1, ![n]⟩ : Shape) ![] h (constant (F := Ideal) S_ .f32 0x3727C5AC#32) (ix1 i))) = _
  rw [broadcastInDim_apply _ h _ (ix1 i) ix0 (fun a => a.elim0), constant_apply]
  rfl

/-- The batch-normalisation shift row as the host computes it: β − μ · s. -/
def hShift {n : ℕ} (b mu s : (⟨1, ![n]⟩ : Shape).Idx → EReal) : (⟨1, ![n]⟩ : Shape).Idx → EReal :=
  subf (F := Ideal) (φ := .f32) b (mulf (F := Ideal) (φ := .f32) mu s)

theorem hShift_apply {n : ℕ} (h : S_.BroadcastsInDim (⟨1, ![n]⟩ : Shape) (![] : Fin 0 → Fin 1))
    (b mu g v : (⟨1, ![n]⟩ : Shape).Idx → EReal) (i : Fin n) :
    hShift b mu (hScale h g v) (ix1 i) = shift (ofArr1 b) (ofArr1 mu) (scale (ofArr1 g) (ofArr1 v)) i.val := by
  unfold shift hShift
  rw [ofArr1_val, ofArr1_val, ← hScale_apply h]
  rfl

/-- The taps of a first layer ([64, 1, 400] read as [64, 400]) scaled row by row. -/
def hTaps1 (W : S64x1x400.Idx → EReal) (s : S64.Idx → EReal) : S64x400.Idx → EReal :=
  mulf (F := Ideal) (φ := .f32) (shapeCast S64x400 W shapeCasts_S64x1x400_S64x400)
    (broadcastInDim S64x400 ![0, 1] bcast_S64x1_S64x400_0_1 (broadcastInDim S64x1 ![0] bcast_S64_S64x1_0 s))

theorem hTaps1_apply (W : S64x1x400.Idx → EReal) (s : S64.Idx → EReal) (co : Fin 64) (k : Fin 400) :
    hTaps1 W s (ix2 co k) = W (ix3 co 0 k) * s (ix1 co) := by
  unfold hTaps1
  rw [mulf_apply]
  rw [shapeCast_apply W _ (ix2 co k) (ix3 co 0 k) (by
    rw [Shape.rowMajor_val_three, Shape.rowMajor_val_two]
    show (co.val * 1 + 0) * 400 + k.val = co.val * 400 + k.val
    omega)]
  rw [broadcastInDim_apply _ bcast_S64x1_S64x400_0_1 _ (ix2 co k) (ix2 co 0) (fun a => match a with | ⟨0, _⟩ => by simp | ⟨1, _⟩ => by simp)]
  rw [broadcastInDim_apply _ bcast_S64_S64x1_0 _ (ix2 co 0) (ix1 co) (fun a => match a with | ⟨0, _⟩ => by simp)]

/-- A row of the scaled taps padded with zeros in front and behind. -/
theorem padRow_apply (p q : ℕ) (M : S64x400.Idx → EReal) (hp : S64x400.Pads (![0, p] : Fin 2 → ℕ) ![0, q] ![0, 0] S64x500)
    (f : ℕ → EReal) (co : Fin 64) (hf : ∀ k : Fin 400, M (ix2 co k) = f k.val) (j : Fin 500) :
    pad S64x500 ![0, p] ![0, q] ![0, 0] M zf hp h_S_ (ix2 co j) = zpad p 400 f j.val := by
  unfold zpad
  by_cases h : p ≤ j.val ∧ j.val < p + 400
  · rw [if_pos h, pad_apply_of_inside _ _ _ _ _ _ _ (ix2 co j) (ix2 co ⟨j.val - p, by omega⟩)
      (fun a => match a with
        | ⟨0, _⟩ => by show co.val = 0 + co.val * (0 + 1); omega
        | ⟨1, _⟩ => by show j.val = p + (j.val - p) * (0 + 1); omega)]
    exact hf ⟨j.val - p, _⟩
  · rw [if_neg h, pad_apply_of_not_inside _ _ _ _ _ _ _ (ix2 co j) (1 : Fin 2) (by
      show ¬(p ≤ j.val ∧ (j.val - p) % 1 = 0 ∧ (j.val - p) / 1 < 400)
      omega), zf_apply]

/-- Two half-width matrices side by side. -/
def cat500 (a b : S500x64.Idx → EReal) : S500x128.Idx → EReal :=
  concatenate S500x128 1 [⟨S500x64, a⟩, ⟨S500x64, b⟩] concatenates_S500x64_S500x64_S500x128_d1
theorem cat500_eq (a b : S500x64.Idx → EReal) :
    concatenate S500x128 1 [⟨S500x64, a⟩, ⟨S500x64, b⟩] concatenates_S500x64_S500x64_S500x128_d1 = cat500 a b := rfl

theorem cat500_apply_left (a b : S500x64.Idx → EReal) (j : Fin 500) (c : Fin 128) (h : c.val < 64) :
    cat500 a b (ix2 j c) = a (ix2 j ⟨c.val, h⟩) :=
  concatenate_pair_apply_left (1 : Fin 2) a b _ (ix2 j c) rfl (ix2 j ⟨c.val, h⟩)
    (fun d => match d with | ⟨0, _⟩ => rfl | ⟨1, _⟩ => rfl)

theorem cat500_apply_right (a b : S500x64.Idx → EReal) (j : Fin 500) (c : Fin 128) (h : ¬ c.val < 64) :
    cat500 a b (ix2 j c) = b (ix2 j ⟨c.val - 64, by omega⟩) :=
  concatenate_pair_apply_right (1 : Fin 2) a b _ (ix2 j c) rfl rfl (ix2 j ⟨c.val - 64, by omega⟩)
    (fun d hd => match d, hd with | ⟨0, _⟩, _ => rfl | ⟨1, _⟩, hd => absurd rfl hd)
    (by show c.val - 64 + 64 = c.val; omega)

/-- A row of 64 entries twice, end to end. -/
def cat64 (a b : S64.Idx → EReal) : S128.Idx → EReal :=
  concatenate S128 0 [⟨S64, a⟩, ⟨S64, b⟩] concatenates_S64_S64_S128_d0
theorem cat64_eq (a b : S64.Idx → EReal) :
    concatenate S128 0 [⟨S64, a⟩, ⟨S64, b⟩] concatenates_S64_S64_S128_d0 = cat64 a b := rfl

theorem cat64_self_apply (a : S64.Idx → EReal) (c : Fin 128) :
    cat64 a a (ix1 c) = a (ix1 ⟨c.val % 64, Nat.mod_lt _ (by norm_num)⟩) := by
  unfold cat64
  by_cases h : c.val < 64
  · rw [concatenate_pair_apply_left (0 : Fin 1) a a _ (ix1 c) rfl (ix1 ⟨c.val, h⟩) (fun d => match d with | ⟨0, _⟩ => rfl)]
    congr 2
    exact Fin.ext (Nat.mod_eq_of_lt h).symm
  · rw [concatenate_pair_apply_right (0 : Fin 1) a a _ (ix1 c) rfl rfl (ix1 ⟨c.val - 64, by omega⟩)
      (fun d hd => match d, hd with | ⟨0, _⟩, hd => absurd rfl hd) (by show c.val - 64 + 64 = c.val; omega)]
    congr 2
    exact Fin.ext (by show c.val - 64 = c.val % 64; omega)

/-- The taps of a later layer ([128, C, K] transposed to [K, C, 128] and read as [K·C, 128]) scaled column by column. -/
def hTapsT {K C N : ℕ} (W : (⟨3, ![128, C, K]⟩ : Shape).Idx → EReal) (s : S128.Idx → EReal)
    (hT : (⟨3, ![128, C, K]⟩ : Shape).Transposes [2, 1, 0] ⟨3, ![K, C, 128]⟩)
    (hS : (⟨3, ![K, C, 128]⟩ : Shape).ShapeCasts ⟨2, ![N, 128]⟩)
    (hB : S1x128.BroadcastsInDim (⟨2, ![N, 128]⟩ : Shape) ![0, 1]) : (⟨2, ![N, 128]⟩ : Shape).Idx → EReal :=
  mulf (F := Ideal) (φ := .f32) (shapeCast ⟨2, ![N, 128]⟩ (transpose ⟨3, ![K, C, 128]⟩ [2, 1, 0] W hT) hS)
    (broadcastInDim ⟨2, ![N, 128]⟩ ![0, 1] hB (broadcastInDim S1x128 ![1] bcast_S128_S1x128_1 s))

theorem hTapsT_apply {K C N : ℕ} (W : (⟨3, ![128, C, K]⟩ : Shape).Idx → EReal) (s : S128.Idx → EReal)
    (hT : (⟨3, ![128, C, K]⟩ : Shape).Transposes [2, 1, 0] ⟨3, ![K, C, 128]⟩)
    (hS : (⟨3, ![K, C, 128]⟩ : Shape).ShapeCasts ⟨2, ![N, 128]⟩)
    (hB : S1x128.BroadcastsInDim (⟨2, ![N, 128]⟩ : Shape) ![0, 1])
    (hC : 0 < C) (hN : N = K * C) (j : Fin N) (co : Fin 128) :
    hTapsT W s hT hS hB (ix2 j co) = ofArr3 W co.val (j.val % C) (j.val / C) * s (ix1 co) := by
  have h1 : j.val % C < C := Nat.mod_lt _ hC
  have h2 : j.val / C < K := Nat.div_lt_of_lt_mul (by rw [Nat.mul_comm, ← hN]; exact j.isLt)
  unfold hTapsT
  rw [mulf_apply]
  rw [shapeCast_apply _ hS (ix2 j co) (ix3 ⟨j.val / C, h2⟩ ⟨j.val % C, h1⟩ co) (by
    rw [Shape.rowMajor_val_three, Shape.rowMajor_val_two]
    show (j.val / C * C + j.val % C) * 128 + co.val = j.val * 128 + co.val
    rw [Nat.div_add_mod'])]
  rw [transpose_apply _ W hT (ix3 ⟨j.val / C, h2⟩ ⟨j.val % C, h1⟩ co) (ix3 co ⟨j.val % C, h1⟩ ⟨j.val / C, h2⟩)
    (fun d => match d with | ⟨0, _⟩ => rfl | ⟨1, _⟩ => rfl | ⟨2, _⟩ => rfl)]
  rw [broadcastInDim_apply _ hB _ (ix2 j co) (ix2 0 co) (fun a => match a with
    | ⟨0, _⟩ => by show (0 : ℕ) = if (1 : ℕ) = 1 then 0 else j.val; simp
    | ⟨1, _⟩ => by show co.val = if (128 : ℕ) = 1 then 0 else co.val; simp)]
  rw [broadcastInDim_apply _ bcast_S128_S1x128_1 _ (ix2 0 co) (ix1 co) (fun a => match a with | ⟨0, _⟩ => by simp)]
  rw [← ofArr3_val W co ⟨j.val % C, h1⟩ ⟨j.val / C, h2⟩]

/-- The signal read as rows, padded by 200 zeros in front and 300 behind, cut into rows of a hundred. -/
theorem xpad_apply (A0 : S2048x1x3000.Idx → EReal) (b : Fin 2048) (u : Fin 35) (r : Fin 100) :
    shapeCast S2048x35x100
      (pad S2048x3500 ![0, 200] ![0, 300] ![0, 0] (shapeCast S2048x3000 A0 shapeCasts_S2048x1x3000_S2048x3000)
        zf pads_S2048x3000_S2048x3500_000_2003000 h_S_)
      shapeCasts_S2048x3500_S2048x35x100 (ix3 b u r)
    = zpad 200 3000 (fun k => ofArr3 A0 b.val 0 k) (100 * u.val + r.val) := by
  have hj : 100 * u.val + r.val < 3500 := by omega
  rw [shapeCast_apply _ _ (ix3 b u r) (ix2 b ⟨100 * u.val + r.val, hj⟩) (by
    rw [Shape.rowMajor_val_three, Shape.rowMajor_val_two]
    show b.val * 3500 + (100 * u.val + r.val) = (b.val * 35 + u.val) * 100 + r.val
    omega)]
  unfold zpad
  by_cases h : 200 ≤ 100 * u.val + r.val ∧ 100 * u.val + r.val < 200 + 3000
  · rw [if_pos h]
    rw [pad_apply_of_inside _ _ _ _ _ _ _ (ix2 b ⟨100 * u.val + r.val, hj⟩) (ix2 b ⟨100 * u.val + r.val - 200, by omega⟩)
      (fun a => match a with
        | ⟨0, _⟩ => by show b.val = 0 + b.val * (0 + 1); omega
        | ⟨1, _⟩ => by show 100 * u.val + r.val = 200 + (100 * u.val + r.val - 200) * (0 + 1); omega)]
    rw [shapeCast_apply _ _ _ (ix3 b 0 ⟨100 * u.val + r.val - 200, by omega⟩) (by
      rw [Shape.rowMajor_val_three, Shape.rowMajor_val_two]
      show (b.val * 1 + 0) * 3000 + (100 * u.val + r.val - 200) = b.val * 3000 + (100 * u.val + r.val - 200)
      omega)]
    exact (ofArr3_val A0 b 0 ⟨_, _⟩).symm
  · rw [if_neg h]
    rw [pad_apply_of_not_inside _ _ _ _ _ _ _ (ix2 b ⟨100 * u.val + r.val, hj⟩) (1 : Fin 2) (by
      show ¬(200 ≤ 100 * u.val + r.val ∧ (100 * u.val + r.val - 200) % 1 = 0 ∧ (100 * u.val + r.val - 200) / 1 < 3000)
      omega)]
    exact zf_apply _

end B2

open B2

/-! ## The launch arrays of branch 2 as the region finds them -/

set_option maxHeartbeats 2000000 in
/-- The signal zero-padded by 200, a hundred samples to a row. -/
theorem arr1 (b : Fin 2048) (u : Fin 35) (r : Fin 100) :
    (V m c main_v4 : S2048x35x100.Idx → EReal) (ix3 b u r) = zpad 200 3000 ((PK m c).x b.val) (100 * u.val + r.val) := by
  have e : (V m c main_v4 : S2048x35x100.Idx → EReal) =
      shapeCast S2048x35x100
        (pad S2048x3500 ![0, 200] ![0, 300] ![0, 0]
          (shapeCast S2048x3000 (m ((c.tc : Thread nD τ).loc main_arg0)) shapeCasts_S2048x1x3000_S2048x3000)
          zf pads_S2048x3000_S2048x3500_000_2003000 h_S_)
        shapeCasts_S2048x3500_S2048x35x100 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
    rfl
  rw [e, xpad_apply]
  rfl

set_option maxHeartbeats 2000000 in
/-- The scaled taps of the first layer, once from row 0 and once from row 50. -/
theorem arr8 (j : Fin 500) (cc : Fin 128) :
    (V m c main_v60 : S500x128.Idx → EReal) (ix2 j cc) =
      if cc.val < 64 then zpad 0 400 (fun k => (PK m c).w4 cc.val k * s4 (PK m c) cc.val) j.val
      else zpad 50 400 (fun k => (PK m c).w4 (cc.val - 64) k * s4 (PK m c) (cc.val - 64)) j.val := by
  have e : (V m c main_v60 : S500x128.Idx → EReal) =
      cat500
        (transpose S500x64 [1, 0] (pad S64x500 ![0, 0] ![0, 100] ![0, 0]
          (hTaps1 (m ((c.tc : Thread nD τ).loc main_arg16)) (hScale bcast_S_S64 (m ((c.tc : Thread nD τ).loc main_arg17)) (m ((c.tc : Thread nD τ).loc main_arg20))))
          zf pads_S64x400_S64x500_000_01000 h_S_) transposes_S64x500_S500x64_1_0)
        (transpose S500x64 [1, 0] (pad S64x500 ![0, 50] ![0, 50] ![0, 0]
          (hTaps1 (m ((c.tc : Thread nD τ).loc main_arg16)) (hScale bcast_S_S64 (m ((c.tc : Thread nD τ).loc main_arg17)) (m ((c.tc : Thread nD τ).loc main_arg20))))
          zf pads_S64x400_S64x500_000_50500 h_S_) transposes_S64x500_S500x64_1_0) := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat500_eq]
    rfl
  have hf : ∀ (co : Fin 64) (k : Fin 400),
      hTaps1 (m ((c.tc : Thread nD τ).loc main_arg16)) (hScale bcast_S_S64 (m ((c.tc : Thread nD τ).loc main_arg17)) (m ((c.tc : Thread nD τ).loc main_arg20))) (ix2 co k)
        = (PK m c).w4 co.val k.val * s4 (PK m c) co.val := by
    intro co k
    rw [hTaps1_apply, hScale_apply, ← ofArr3_val (m ((c.tc : Thread nD τ).loc main_arg16)) co 0 k]
    rfl
  rw [e]
  by_cases h : cc.val < 64
  · rw [if_pos h, cat500_apply_left _ _ j cc h, transpose_ix2_apply]
    exact padRow_apply 0 100 _ _ _ ⟨cc.val, h⟩ (fun k => hf ⟨cc.val, h⟩ k) j
  · rw [if_neg h, cat500_apply_right _ _ j cc h, transpose_ix2_apply]
    exact padRow_apply 50 50 _ _ _ ⟨cc.val - 64, by omega⟩ (fun k => hf ⟨cc.val - 64, by omega⟩ k) j

set_option maxHeartbeats 2000000 in
/-- The first layer's shift row, twice. -/
theorem arr9 (cc : Fin 128) : (V m c main_v62 : S1x128.Idx → EReal) (ix2 0 cc) = t4 (PK m c) (cc.val % 64) := by
  have e : (V m c main_v62 : S1x128.Idx → EReal) =
      shapeCast S1x128
        (cat64 (hShift (m ((c.tc : Thread nD τ).loc main_arg18)) (m ((c.tc : Thread nD τ).loc main_arg19)) (hScale bcast_S_S64 (m ((c.tc : Thread nD τ).loc main_arg17)) (m ((c.tc : Thread nD τ).loc main_arg20))))
          (hShift (m ((c.tc : Thread nD τ).loc main_arg18)) (m ((c.tc : Thread nD τ).loc main_arg19)) (hScale bcast_S_S64 (m ((c.tc : Thread nD τ).loc main_arg17)) (m ((c.tc : Thread nD τ).loc main_arg20)))))
        shapeCasts_S128_S1x128 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat64_eq]
    rfl
  rw [e, shapeCast_a_1a_apply, cat64_self_apply, hShift_apply]
  rfl

set_option maxHeartbeats 2000000 in
/-- The scaled taps of the second layer, row k·64 + ci. -/
theorem arr10 (j : Fin 448) (co : Fin 128) :
    (V m c main_v73 : S448x128.Idx → EReal) (ix2 j co) = (PK m c).w5 co.val (j.val % 64) (j.val / 64) * s5 (PK m c) co.val := by
  have e : (V m c main_v73 : S448x128.Idx → EReal) =
      hTapsT (K := 7) (C := 64) (N := 448) (m ((c.tc : Thread nD τ).loc main_arg21)) (hScale bcast_S_S128 (m ((c.tc : Thread nD τ).loc main_arg22)) (m ((c.tc : Thread nD τ).loc main_arg25)))
        transposes_S128x64x7_S7x64x128_2_1_0 shapeCasts_S7x64x128_S448x128 bcast_S1x128_S448x128_0_1 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
    rfl
  rw [e, hTapsT_apply _ _ _ _ _ (by norm_num) (by norm_num), hScale_apply]
  rfl

set_option maxHeartbeats 2000000 in
/-- The second layer's shift row. -/
theorem arr11 (co : Fin 128) : (V m c main_v74 : S1x128.Idx → EReal) (ix2 0 co) = t5 (PK m c) co.val := by
  have e : (V m c main_v74 : S1x128.Idx → EReal) =
      shapeCast S1x128 (hShift (m ((c.tc : Thread nD τ).loc main_arg23)) (m ((c.tc : Thread nD τ).loc main_arg24)) (hScale bcast_S_S128 (m ((c.tc : Thread nD τ).loc main_arg22)) (m ((c.tc : Thread nD τ).loc main_arg25)))) shapeCasts_S128_S1x128 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
    rfl
  rw [e, shapeCast_a_1a_apply, hShift_apply]
  rfl

set_option maxHeartbeats 2000000 in
/-- The scaled taps of the third layer, row k·128 + ci. -/
theorem arr12 (j : Fin 896) (co : Fin 128) :
    (V m c main_v85 : S896x128.Idx → EReal) (ix2 j co) = (PK m c).w6 co.val (j.val % 128) (j.val / 128) * s6 (PK m c) co.val := by
  have e : (V m c main_v85 : S896x128.Idx → EReal) =
      hTapsT (K := 7) (C := 128) (N := 896) (m ((c.tc : Thread nD τ).loc main_arg26)) (hScale bcast_S_S128 (m ((c.tc : Thread nD τ).loc main_arg27)) (m ((c.tc : Thread nD τ).loc main_arg30)))
        transposes_S128x128x7_S7x128x128_2_1_0 shapeCasts_S7x128x128_S896x128 bcast_S1x128_S896x128_0_1 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
    rfl
  rw [e, hTapsT_apply _ _ _ _ _ (by norm_num) (by norm_num), hScale_apply]
  rfl

set_option maxHeartbeats 2000000 in
/-- The third layer's shift row. -/
theorem arr13 (co : Fin 128) : (V m c main_v86 : S1x128.Idx → EReal) (ix2 0 co) = t6 (PK m c) co.val := by
  have e : (V m c main_v86 : S1x128.Idx → EReal) =
      shapeCast S1x128 (hShift (m ((c.tc : Thread nD τ).loc main_arg28)) (m ((c.tc : Thread nD τ).loc main_arg29)) (hScale bcast_S_S128 (m ((c.tc : Thread nD τ).loc main_arg27)) (m ((c.tc : Thread nD τ).loc main_arg30)))) shapeCasts_S128_S1x128 := by
    dsimp only [Gen.V]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
    rfl
  rw [e, shapeCast_a_1a_apply, hShift_apply]
  rfl

end Cert.KernelIdeal.KProlog
end
-- ==== Proof.KFinal.lean ====
/-
  The kernel program from its blocks to its result array. Each of the fourteen blocks a grid point loads is read
  off its array where the window's rectangle says (coordinate = block index × block size + coordinate inside the
  block; the index maps are decided once over the 256 grid points), the body's result for a point is its payloads
  composed over the loaded blocks, and, the output blocks tiling the [2048, 128, 80] result along the batch axis
  (row b is in the block of point b / 8), the result array after the run is the network's output as soon as every
  point's block is.
-/
import proofs.«125144_g2000006933354569_pallasbulk_1054_1_alg».proof.Proof.KIface2
import proofs.«125144_g2000006933354569_pallasbulk_1054_1_alg».proof.Proof.KParams
import proofs.«125144_g2000006933354569_pallasbulk_1054_1_alg».proof.Proof.Gen.KernelIdeal.Value
import Idealize.ShloMosaic.Lib.ValueIdx
import Idealize.ShloMosaic.Lib.Pipeline.Value

noncomputable section

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a rank-3 whole-block rectangle, as a function. -/
theorem offs3_zero : (![0, 0, 0] : Fin 3 → Nat) = fun _ => 0 := funext fun a => by fin_cases a <;> rfl
/-- The zero offsets of a rank-2 whole-block rectangle, as a function. -/
theorem offs2_zero : (![0, 0] : Fin 2 → Nat) = fun _ => 0 := funext fun a => by fin_cases a <;> rfl

/-! ## The printed index maps over the grid -/

/-- Windows 0, 1 and 14 move along the batch axis with the grid point and stay at block 0 on the other two. -/
theorem idx_batch : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_14.index t (0 : Fin 3) = t.val ∧ win0_14.index t (1 : Fin 3) = 0 ∧ win0_14.index t (2 : Fin 3) = 0 :=
  (by decide +kernel : ∀ t : Fin grid0.N, _)

/-- Windows 2 … 13 are staged whole: block (0, 0) at every point. -/
theorem idx_whole : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-! ## Each block read off its array: coordinate = block index × block size + 1 × coordinate inside the block -/

/-- Window 0's block at point t is batch rows 8t … 8t+7 of its array. -/
theorem iblk0_apply (c : Dev nD) (t : Fin cfg0.N) (bb : Fin 8) (u : Fin 254) (r : Fin 12) (k : S2048x254x12.Idx)
    (hk0 : (k 0).val = 8 * t.val + bb.val) (hk1 : (k 1).val = u.val) (hk2 : (k 2).val = r.val) :
    (iblk m c 0 t : S8x254x12.Idx → EReal) (ix3 bb u r) = (V m c main_v2 : S2048x254x12.Idx → EReal) k := by
  obtain ⟨e0, e1, e2, -⟩ := idx_batch t
  unfold iblk
  rw [View.read_apply]
  show V m c main_v2 _ = V m c main_v2 _
  congr 1
  funext a
  apply Fin.ext
  match a with
  | ⟨0, _⟩ => show win0_0.index t (0 : Fin 3) * 8 + 1 * bb.val = (k 0).val; rw [e0, hk0]; omega
  | ⟨1, _⟩ => show win0_0.index t (1 : Fin 3) * 254 + 1 * u.val = (k 1).val; rw [e1, hk1]; omega
  | ⟨2, _⟩ => show win0_0.index t (2 : Fin 3) * 12 + 1 * r.val = (k 2).val; rw [e2, hk2]; omega

/-- Window 1's block at point t is batch rows 8t … 8t+7 of its array. -/
theorem iblk1_apply (c : Dev nD) (t : Fin cfg0.N) (bb : Fin 8) (u : Fin 35) (r : Fin 100) (k : S2048x35x100.Idx)
    (hk0 : (k 0).val = 8 * t.val + bb.val) (hk1 : (k 1).val = u.val) (hk2 : (k 2).val = r.val) :
    (iblk m c 1 t : S8x35x100.Idx → EReal) (ix3 bb u r) = (V m c main_v4 : S2048x35x100.Idx → EReal) k := by
  obtain ⟨-, -, -, e0, e1, e2, -⟩ := idx_batch t
  unfold iblk
  rw [View.read_apply]
  show V m c main_v4 _ = V m c main_v4 _
  congr 1
  funext a
  apply Fin.ext
  match a with
  | ⟨0, _⟩ => show win0_1.index t (0 : Fin 3) * 8 + 1 * bb.val = (k 0).val; rw [e0, hk0]; omega
  | ⟨1, _⟩ => show win0_1.index t (1 : Fin 3) * 35 + 1 * u.val = (k 1).val; rw [e1, hk1]; omega
  | ⟨2, _⟩ => show win0_1.index t (2 : Fin 3) * 100 + 1 * r.val = (k 2).val; rw [e2, hk2]; omega

/-- Window 2's block is its whole array at every point. -/
theorem iblk2_eq (c : Dev nD) (t : Fin cfg0.N) : (iblk m c 2 t : S60x128.Idx → EReal) = (V m c main_v19 : S60x128.Idx → EReal) := by
  obtain ⟨e0, e1, -⟩ := idx_whole t
  funext y
  unfold iblk
  rw [View.read_apply]
  show V m c main_v19 _ = V m c main_v19 _
  congr 1
  funext a
  apply Fin.ext
  match a with
  | ⟨0, _⟩ => show win0_2.index t (0 : Fin 2) * 60 + 1 * (y 0).val = (y 0).val; rw [e0]; omega
  | ⟨1, _⟩ => show win0_2.index t (1 : Fin 2) * 128 + 1 * (y 1).val = (y 1).val; rw [e1]; omega

/-- Window 3's block is its whole array at every point. -/
theorem iblk3_eq (c : Dev nD) (t : Fin cfg0.N) : (iblk m c 3 t : S1x128.Idx → EReal) = (V m c main_v21 : S1x128.Idx → EReal) := by
  obtain ⟨-, -, e0, e1, -⟩ := idx_whole t
  funext y
  unfold iblk
  rw [View.read_apply]
  show V m c main_v21 _ = V m c main_v21 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Window 4's block is its whole array at every point. -/
theorem iblk4_eq (c : Dev nD) (t : Fin cfg0.N) : (iblk m c 4 t : S512x128.Idx → EReal) = (V m c main_v32 : S512x128.Idx → EReal) := by
  obtain ⟨-, -, -, -, e0, e1, -⟩ := idx_whole t
  funext y
  unfold iblk
  rw [View.read_apply]
  show V m c main_v32 _ = V m c main_v32 _
  congr 1
  funext a
  apply Fin.ext
  match a with
  | ⟨0, _⟩ => show win0_4.index t (0 : Fin 2) * 512 + 1 * (y 0).val = (y 0).val; rw [e0]; omega
  | ⟨1, _⟩ => show win0_4.index t (1 : Fin 2) * 128 + 1 * (y 1).val = (y 1).val; rw [e1]; omega

/-- Window 5's block is its whole array at every point. -/
theorem iblk5_eq (c : Dev nD) (t : Fin cfg0.N) : (iblk m c 5 t : S1x128.Idx → EReal) = (V m c main_v33 : S1x128.Idx → EReal) := by
  obtain ⟨-, -, -, -, -, -, e0, e1, -⟩ := idx_whole t
  funext y
  unfold iblk
  rw [View.read_apply]
  show V m c main_v33 _ = V m c main_v33 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block is its whole array at every point. -/
theorem iblk6_eq (c : Dev nD) (t : Fin cfg0.N) : (iblk m c 6 t : S1024x128.Idx → EReal) = (V m c main_v44 : S1024x128.Idx → EReal) := by
  obtain ⟨-, -, -, -, -, -, -, -, e0, e1, -⟩ := idx_whole t
  funext y
  unfold iblk
  rw [View.read_apply]
  show V m c main_v44 _ = V m c main_v44 _
  congr 1
  funext a
  apply Fin.ext
  match a with
  | ⟨0, _⟩ => show win0_6.index t (0 : Fin 2) * 1024 + 1 * (y 0).val = (y 0).val; rw [e0]; omega
  | ⟨1, _⟩ => show win0_6.index t (1 : Fin 2) * 128 + 1 * (y 1).val = (y 1).val; rw [e1]; omega

/-- Window 7's block is its whole array at every point. -/
theorem iblk7_eq (c : Dev nD) (t : Fin cfg0.N) : (iblk m c 7 t : S1x128.Idx → EReal) = (V m c main_v45 : S1x128.Idx → EReal) := by
  obtain ⟨-, -, -, -, -, -, -, -, -, -, e0, e1, -⟩ := idx_whole t
  funext y
  unfold iblk
  rw [View.read_apply]
  show V m c main_v45 _ = V m c main_v45 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- Window 8's block is its whole array at every point. -/
theorem iblk8_eq (c : Dev nD) (t : Fin cfg0.N) : (iblk m c 8 t : S500x128.Idx → EReal) = (V m c main_v60 : S500x128.Idx → EReal) := by
  obtain ⟨-, -, -, -, -, -, -, -, -, -, -, -, e0, e1, -⟩ := idx_whole t
  funext y
  unfold iblk
  rw [View.read_apply]
  show V m c main_v60 _ = V m c main_v60 _
  congr 1
  funext a
  apply Fin.ext
  match a with
  | ⟨0, _⟩ => show win0_8.index t (0 : Fin 2) * 500 + 1 * (y 0).val = (y 0).val; rw [e0]; omega
  | ⟨1, _⟩ => show win0_8.index t (1 : Fin 2) * 128 + 1 * (y 1).val = (y 1).val; rw [e1]; omega

/-- Window 9's block is its whole array at every point. -/
theorem iblk9_eq (c : Dev nD) (t : Fin cfg0.N) : (iblk m c 9 t : S1x128.Idx → EReal) = (V m c main_v62 : S1x128.Idx → EReal) := by
  obtain ⟨-, -, -, -, -, -, -, -, -, -, -, -, -, -, e0, e1, -⟩ := idx_whole t
  funext y
  unfold iblk
  rw [View.read_apply]
  show V m c main_v62 _ = V m c main_v62 _
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 128 + 1 * (y 1).val = (y 1).val; rw [e1]; omega

/-- Window 10's block is its whole array at every point. -/
theorem iblk10_eq (c : Dev nD) (t : Fin cfg0.N) : (iblk m c 10 t : S448x128.Idx → EReal) = (V m c main_v73 : S448x128.Idx → EReal) := by
  obtain ⟨-, -, -, -, -, -, -, -, -, -, -, -, -, -, -, -, e0, e1, -⟩ := idx_whole t
  funext y
  unfold iblk
  rw [View.read_apply]
  show V m c main_v73 _ = V m c main_v73 _
  congr 1
  funext a
  apply Fin.ext
  match a with
  | ⟨0, _⟩ => show win0_10.index t (0 : Fin 2) * 448 + 1 * (y 0).val = (y 0).val; rw [e0]; omega
  | ⟨1, _⟩ => show win0_10.index t (1 : Fin 2) * 128 + 1 * (y 1).val = (y 1).val; rw [e1]; omega

/-- Window 11's block is its whole array at every point. -/
theorem iblk11_eq (c : Dev nD) (t : Fin cfg0.N) : (iblk m c 11 t : S1x128.Idx → EReal) = (V m c main_v74 : S1x128.Idx → EReal) := by
  obtain ⟨-, -, -, -, -, -, -, -, -, -, -, -, -, -, -, -, -, -, e0, e1, -⟩ := idx_whole t
  funext y
  unfold iblk
  rw [View.read_apply]
  show V m c main_v74 _ = V m c main_v74 _
  congr 1
  funext a
  apply Fin.ext
  match a with
  | ⟨0, _⟩ => show win0_11.index t (0 : Fin 2) * 1 + 1 * (y 0).val = (y 0).val; rw [e0]; omega
  | ⟨1, _⟩ => show win0_11.index t (1 : Fin 2) * 128 + 1 * (y 1).val = (y 1).val; rw [e1]; omega

/-- Window 12's block is its whole array at every point. -/
theorem iblk12_eq (c : Dev nD) (t : Fin cfg0.N) : (iblk m c 12 t : S896x128.Idx → EReal) = (V m c main_v85 : S896x128.Idx → EReal) := by
  obtain ⟨-, -, -, -, -, -, -, -, -, -, -, -, -, -, -, -, -, -, -, -, e0, e1, -⟩ := idx_whole t
  funext y
  unfold iblk
  rw [View.read_apply]
  show V m c main_v85 _ = V m c main_v85 _
  congr 1
  funext a
  apply Fin.ext
  match a with
  | ⟨0, _⟩ => show win0_12.index t (0 : Fin 2) * 896 + 1 * (y 0).val = (y 0).val; rw [e0]; omega
  | ⟨1, _⟩ => show win0_12.index t (1 : Fin 2) * 128 + 1 * (y 1).val = (y 1).val; rw [e1]; omega

/-- Window 13's block is its whole array at every point. -/
theorem iblk13_eq (c : Dev nD) (t : Fin cfg0.N) : (iblk m c 13 t : S1x128.Idx → EReal) = (V m c main_v86 : S1x128.Idx → EReal) := by
  obtain ⟨-, -, -, -, -, -, -, -, -, -, -, -, -, -, -, -, -, -, -, -, -, -, e0, e1⟩ := idx_whole t
  funext y
  unfold iblk
  rw [View.read_apply]
  show V m c main_v86 _ = V m c main_v86 _
  congr 1
  funext a
  apply Fin.ext
  match a with
  | ⟨0, _⟩ => show win0_13.index t (0 : Fin 2) * 1 + 1 * (y 0).val = (y 0).val; rw [e0]; omega
  | ⟨1, _⟩ => show win0_13.index t (1 : Fin 2) * 128 + 1 * (y 1).val = (y 1).val; rw [e1]; omega

/-! ## What one grid point loads -/

/-- The fourteen blocks of grid point t hold, for batch rows 8t … 8t+7, what the fourteen arrays hold. -/
theorem khyp_of_karr (c : Dev nD) (t : Fin cfg0.N)
    (hA : KIface.KArr (PK m c) (V m c main_v2) (V m c main_v4) (V m c main_v19) (V m c main_v21) (V m c main_v32) (V m c main_v33) (V m c main_v44) (V m c main_v45) (V m c main_v60) (V m c main_v62) (V m c main_v73) (V m c main_v74) (V m c main_v85) (V m c main_v86)) :
    KIface.KHyp (PK m c) (8 * t.val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  have ht : t.val < 256 := lt_of_lt_of_eq t.isLt N_0
  refine ⟨fun bb u r => ?_, fun bb u r => ?_, ?_, ?_, ?_, ?_, ?_, ?_, ?_, ?_, ?_, ?_, ?_, ?_⟩
  · rw [iblk0_apply m c t bb u r (ix3 ⟨8 * t.val + bb.val, by omega⟩ u r) rfl rfl rfl]
    exact hA.h0 _ u r
  · rw [iblk1_apply m c t bb u r (ix3 ⟨8 * t.val + bb.val, by omega⟩ u r) rfl rfl rfl]
    exact hA.h1 _ u r
  · rw [iblk2_eq m c t]; exact hA.h2
  · rw [iblk3_eq m c t]; exact hA.h3
  · rw [iblk4_eq m c t]; exact hA.h4
  · rw [iblk5_eq m c t]; exact hA.h5
  · rw [iblk6_eq m c t]; exact hA.h6
  · rw [iblk7_eq m c t]; exact hA.h7
  · rw [iblk8_eq m c t]; exact hA.h8
  · rw [iblk9_eq m c t]; exact hA.h9
  · rw [iblk10_eq m c t]; exact hA.h10
  · rw [iblk11_eq m c t]; exact hA.h11
  · rw [iblk12_eq m c t]; exact hA.h12
  · rw [iblk13_eq m c t]; exact hA.h13

/-! ## The body's result as its payloads composed over the loaded blocks -/

/-- The one whole-block store of the body leaves the last payload; each load through a whole-block rectangle reads its block. -/
theorem out_unfold (x0 : Vec Ideal S8x254x12 .f32) (x1 : Vec Ideal S8x35x100 .f32) (x2 : Vec Ideal S60x128 .f32) (x3 : Vec Ideal S1x128 .f32) (x4 : Vec Ideal S512x128 .f32) (x5 : Vec Ideal S1x128 .f32) (x6 : Vec Ideal S1024x128 .f32) (x7 : Vec Ideal S1x128 .f32) (x8 : Vec Ideal S500x128 .f32) (x9 : Vec Ideal S1x128 .f32) (x10 : Vec Ideal S448x128 .f32) (x11 : Vec Ideal S1x128 .f32) (x12 : Vec Ideal S896x128 .f32) (x13 : Vec Ideal S1x128 .f32) :
    out0_14 (F := Ideal) x0 x1 x2 x3 x4 x5 x6 x7 x8 x9 x10 x11 x12 x13 =
      k0_pay1 (F := Ideal) (k0_pay6 (k0_pay4 (k0_pay2 x0 x2 x3) (k0_pay3 x0 x2 x3) x4 x5) (k0_pay5 (k0_pay2 x0 x2 x3) (k0_pay3 x0 x2 x3) x4 x5) x6 x7) (k0_pay12 (k0_pay11 (k0_pay7 x1) (k0_pay8 x1) (k0_pay9 x1) (k0_pay10 x1) x8 x9) x10 x11) (k0_pay13 (F := Ideal)) x12 x13 := by
  unfold out0_14
  rw [View.canon_unit_zero offs3_zero]
  simp only [View.ld_unit_zero (S := S8x254x12) offs3_zero, View.ld_unit_zero (S := S8x35x100) offs3_zero, View.ld_unit_zero (S := S60x128) offs2_zero, View.ld_unit_zero (S := S1x128) offs2_zero, View.ld_unit_zero (S := S512x128) offs2_zero, View.ld_unit_zero (S := S1024x128) offs2_zero, View.ld_unit_zero (S := S500x128) offs2_zero, View.ld_unit_zero (S := S448x128) offs2_zero, View.ld_unit_zero (S := S896x128) offs2_zero]

/-! ## From the blocks to the result array -/

/-- A block that holds the network's output for batch rows B … B+7 is the block of the result array at those rows. -/
theorem out_block (P : Cert.Spec.Params) (B : ℕ) (X : S8x128x80.Idx → EReal)
    (hX : ∀ (bb : Fin 8) (ch : Fin 128) (l : Fin 80), X (ix3 bb ch l) = Cert.Spec.Out P (B + bb.val) ch.val l.val)
    (j : S8x128x80.Idx) (k : S2048x128x80.Idx)
    (hk0 : (k 0).val = B + (j 0).val) (hk1 : (k 1).val = (j 1).val) (hk2 : (k 2).val = (j 2).val) :
    X j = Cert.Spec.outArr P k := by
  obtain ⟨bb, ch, l, rfl⟩ : ∃ (bb : Fin 8) (ch : Fin 128) (l : Fin 80), j = ix3 bb ch l := ⟨j 0, j 1, j 2, eq_ix3 j⟩
  rw [hX]
  show _ = Cert.Spec.Out P (k 0).val (k 1).val (k 2).val
  rw [hk0, hk1, hk2]

/-- What grid point t writes back is block t of the network's result array. -/
theorem flushed_eq (c : Dev nD) (t : Fin cfg0.N)
    (hout : ∀ (bb : Fin 8) (ch : Fin 128) (l : Fin 80),
      out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 bb ch l) = Cert.Spec.Out (PK m c) (8 * t.val + bb.val) ch.val l.val) :
    (dats m 0 c).flushed 14 t = ((cfg0.win 14).blk t).view.read (Elt Ideal) (Cert.Spec.outArr (PK m c)) := by
  obtain ⟨-, -, -, -, -, -, e0, e1, e2⟩ := idx_batch t
  rw [Value.flushed14]
  funext j
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) j = Cert.Spec.outArr (PK m c) (((cfg0.win 14).blk t).view.emb j)
  refine out_block (PK m c) (8 * t.val) _ hout j _ ?_ ?_ ?_
  · show win0_14.index t (0 : Fin 3) * 8 + 1 * (j 0).val = 8 * t.val + (j 0).val; rw [e0]; omega
  · show win0_14.index t (1 : Fin 3) * 128 + 1 * (j 1).val = (j 1).val; rw [e1]; omega
  · show win0_14.index t (2 : Fin 3) * 80 + 1 * (j 2).val = (j 2).val; rw [e2]; omega

/-- An index of the result array is in point t's block iff each coordinate is in the block's range on its axis. -/
theorem mem_blk (t : Fin cfg0.N) (i : S2048x128x80.Idx) :
    i ∈ ((cfg0.win 14).blk t).view.set ↔ ∀ a : Fin 3, win0_14.index t a * S8x128x80.size a ≤ (i a).val ∧ (i a).val < win0_14.index t a * S8x128x80.size a + S8x128x80.size a := by
  show i ∈ ((View.whole main_v87).slice (win0_14.rect t)).set ↔ _
  rw [View.set_slice_whole, Rect.mem_set_unit]
  exact Iff.rfl

/-- Every index of the result array is in the block of the point that stages its batch row: row b is point b / 8's. -/
theorem cover (i : S2048x128x80.Idx) : ∃ t : Fin cfg0.N, (cfg0.win 14).flush t = true ∧ i ∈ ((cfg0.win 14).blk t).view.set := by
  have hi0 : (i 0).val < 2048 := (i 0).isLt
  have hi1 : (i 1).val < 128 := (i 1).isLt
  have hi2 : (i 2).val < 80 := (i 2).isLt
  have hN : (i 0).val / 8 < cfg0.N := by rw [show cfg0.N = 256 from N_0]; omega
  refine ⟨⟨(i 0).val / 8, hN⟩, flush0_14 _, ?_⟩
  obtain ⟨-, -, -, -, -, -, e0, e1, e2⟩ := idx_batch ⟨(i 0).val / 8, hN⟩
  rw [mem_blk]
  intro a
  match a with
  | ⟨0, _⟩ => show win0_14.index _ (0 : Fin 3) * 8 ≤ (i 0).val ∧ (i 0).val < win0_14.index _ (0 : Fin 3) * 8 + 8; rw [e0]; show (i 0).val / 8 * 8 ≤ (i 0).val ∧ (i 0).val < (i 0).val / 8 * 8 + 8; omega
  | ⟨1, _⟩ => show win0_14.index _ (1 : Fin 3) * 128 ≤ (i 1).val ∧ (i 1).val < win0_14.index _ (1 : Fin 3) * 128 + 128; rw [e1]; omega
  | ⟨2, _⟩ => show win0_14.index _ (2 : Fin 3) * 80 ≤ (i 2).val ∧ (i 2).val < win0_14.index _ (2 : Fin 3) * 80 + 80; rw [e2]; omega

/-- The result array after the run is the network's output, when every point's block is. -/
theorem final (c : Dev nD)
    (hout : ∀ (t : Fin cfg0.N) (bb : Fin 8) (ch : Fin 128) (l : Fin 80),
      out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 bb ch l) = Cert.Spec.Out (PK m c) (8 * t.val + bb.val) ch.val l.val) :
    (dats m 0 c).arrAt 14 cfg0.N = Cert.Spec.outArr (PK m c) :=
  (dats m 0 c).arrAt_eq_of_cover 14 (Cert.Spec.outArr (PK m c)) (fun t _ => flushed_eq m c t (hout t)) cover

/-! ## The run, read -/

/-- The kernel program's run: the result array ends holding the network's output on the launch's arrays, the 31
    arguments unchanged — when every grid point's block of every core is the network's output on its batch rows. -/
theorem run
    (hout : ∀ (c : Dev nD) (t : Fin cfg0.N) (bb : Fin 8) (ch : Fin 128) (l : Fin 80),
      out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 bb ch l) = Cert.Spec.Out (PK m c) (8 * t.val + bb.val) ch.val l.val) :
    θ_run defs (onTc (τ := τ) (main (F := Ideal))) ⟨m, fun _ => 0, ρ⟩ fun r => ∀ c : Dev nD,
      r.2.mem ((c : Thread nD τ).loc main_v87) = Cert.Spec.outArr (PK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30) :=
  (θ_run defs _ _).mono (fun r h c => ⟨(h c).1.trans (final m c (hout c)), (h c).2⟩) (Value.run_blocks m ρ)

end Cert.KernelIdeal.KFinal

end
-- ==== Proof.SpecReal.lean ====
/-
  The network of the specification takes real numbers to real numbers. Its arrays are read as extended reals; when
  every entry of every array is a real number and the six variances are nonnegative, every quantity the specification
  forms is a real number: sums, products, maxima over nonempty windows, tanh, and γ / √(v + ε) with v + ε a positive
  real. On real numbers the extended reals' arithmetic is the reals', so the algebra of finite sums (a common factor
  comes out of a sum; a sum over K · C indices is a double sum; terms that vanish outside a window drop out) holds.
-/
import proofs.«125144_g2000006933354569_pallasbulk_1054_1_alg».proof.Proof.Spec
import Idealize.ShloMosaic.PureOps.Ideal

noncomputable section

namespace Cert.Spec

open Idealize.ShloMosaic Idealize.ShloMosaic.ValueIdx

/-! ## Real numbers among the extended reals -/

/-- An extended real that is a real number. -/
def IsReal (x : EReal) : Prop := ∃ r : ℝ, x = (r : EReal)

/-- A real number is a real number. -/
theorem isReal_coe (r : ℝ) : IsReal (r : EReal) := ⟨r, rfl⟩
/-- Zero is a real number. -/
theorem isReal_zero : IsReal 0 := ⟨0, rfl⟩
/-- One is a real number. -/
theorem isReal_one : IsReal 1 := ⟨1, rfl⟩

/-- A real number is not +∞. -/
theorem IsReal.ne_top {x : EReal} (h : IsReal x) : x ≠ ⊤ := by
  obtain ⟨r, rfl⟩ := h; exact EReal.coe_ne_top r
/-- A real number is not −∞. -/
theorem IsReal.ne_bot {x : EReal} (h : IsReal x) : x ≠ ⊥ := by
  obtain ⟨r, rfl⟩ := h; exact EReal.coe_ne_bot r

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- The negative of a real is real. -/
theorem IsReal.neg {x : EReal} (hx : IsReal x) : IsReal (-x) := by
  obtain ⟨a, rfl⟩ := hx; exact ⟨-a, (EReal.coe_neg a).symm⟩
/-- The larger of two reals is real. -/
theorem IsReal.max {x y : EReal} (hx : IsReal x) (hy : IsReal y) : IsReal (max x y) := by
  rcases le_total x y with h | h
  · rw [max_eq_right h]; exact hy
  · rw [max_eq_left h]; exact hx

/-- A finite sum of reals is real. -/
theorem isReal_sum {ι : Type*} (S : Finset ι) (f : ι → EReal) (h : ∀ i ∈ S, IsReal (f i)) : IsReal (∑ i ∈ S, f i) :=
  Finset.sum_induction f IsReal (fun _ _ => IsReal.add) isReal_zero h

/-- The supremum of a nonempty finite family of reals is real (the empty supremum is −∞). -/
theorem isReal_finset_sup {ι : Type*} (S : Finset ι) (hS : S.Nonempty) (f : ι → EReal) (h : ∀ i ∈ S, IsReal (f i)) :
    IsReal (S.sup f) := by
  classical
  induction hS using Finset.Nonempty.cons_induction with
  | singleton a => rw [Finset.sup_singleton]; exact h a (Finset.mem_singleton_self a)
  | cons a s ha hs ih =>
    rw [Finset.sup_cons]
    exact (h a (Finset.mem_cons_self a s)).max (ih fun i hi => h i (Finset.mem_cons.2 (Or.inr hi)))

/-- The supremum of f 0, …, f k, all real, is real. -/
theorem isReal_sup (k : ℕ) (f : ℕ → EReal) (h : ∀ j, j < k + 1 → IsReal (f j)) : IsReal ((Finset.range (k + 1)).sup f) :=
  isReal_finset_sup _ ⟨0, Finset.mem_range.2 (Nat.succ_pos k)⟩ f fun i hi => h i (Finset.mem_range.1 hi)

/-! ## The single-precision constants -/

/-- A single-precision pattern whose exponent field is not all ones denotes a real number. -/
theorem isReal_ieee (e m : ℕ) {w : ℕ} (b : BitVec w) (h : (b.extractLsb' m e).toNat ≠ 2 ^ e - 1) :
    IsReal (Ideal.ieee e m b) := by
  unfold Ideal.ieee
  dsimp only
  rw [if_neg h]
  split_ifs <;> exact ⟨_, rfl⟩

/-- A pattern with sign bit 0 and an exponent field neither zero nor all ones denotes a positive number. -/
theorem ieee_pos (e m : ℕ) {w : ℕ} (b : BitVec w) (h : (b.extractLsb' m e).toNat ≠ 2 ^ e - 1)
    (h0 : (b.extractLsb' m e).toNat ≠ 0) (hs : (b.extractLsb' (e + m) 1 == 1#1) = false) : 0 < Ideal.ieee e m b := by
  unfold Ideal.ieee
  dsimp only
  rw [if_neg h, if_neg h0, hs]
  refine EReal.coe_pos.2 ?_
  simp only [Bool.false_eq_true, if_false, one_mul]
  positivity

theorem isReal_NEG : IsReal NEG := isReal_ieee 8 23 (0xFF7FFFFF#32 : BitVec 32) (by decide)
theorem isReal_eps : IsReal eps := isReal_ieee 8 23 (0x3727C5AC#32 : BitVec 32) (by decide)
theorem isReal_cHalf : IsReal cHalf := isReal_ieee 8 23 (0x3F000000#32 : BitVec 32) (by decide)
theorem isReal_cCube : IsReal cCube := isReal_ieee 8 23 (0x3D372713#32 : BitVec 32) (by decide)
theorem isReal_cSqrt : IsReal cSqrt := isReal_ieee 8 23 (0x3F4C422A#32 : BitVec 32) (by decide)
theorem isReal_cOne : IsReal cOne := isReal_ieee 8 23 (0x3F800000#32 : BitVec 32) (by decide)
/-- ε is positive. -/
theorem eps_pos : 0 < eps := ieee_pos 8 23 (0x3727C5AC#32 : BitVec 32) (by decide) (by decide) (by decide)

/-! ## The operations of the network keep real numbers real -/

/-- The hyperbolic tangent of a real is real. -/
theorem isReal_tanh {x : EReal} (hx : IsReal x) : IsReal (Ideal.tanh x) := by
  obtain ⟨r, rfl⟩ := hx; exact ⟨Real.tanh r, rfl⟩

/-- tanh-GELU of a real is real: it is built from sums, products and tanh. -/
theorem isReal_gelu {y : EReal} (hy : IsReal y) : IsReal (gelu y) :=
  (isReal_cHalf.mul hy).mul
    (isReal_cOne.add (isReal_tanh (isReal_cSqrt.mul (hy.add (((isReal_cCube.mul hy).mul hy).mul hy)))))

/-- A sequence of reals padded with zeros is a sequence of reals. -/
theorem isReal_zpad (p L : ℕ) (f : ℕ → EReal) (h : ∀ i, IsReal (f i)) (j : ℕ) : IsReal (zpad p L f j) := by
  unfold zpad; split_ifs
  · exact h _
  · exact isReal_zero

/-- A sequence of reals padded with the most negative finite number is a sequence of reals. -/
theorem isReal_npad (p L : ℕ) (f : ℕ → EReal) (h : ∀ i, IsReal (f i)) (j : ℕ) : IsReal (npad p L f j) := by
  unfold npad; split_ifs
  · exact h _
  · exact isReal_NEG

/-- The maximum over a window of at least one real is real. -/
theorem isReal_pool (s k : ℕ) (hk : 1 ≤ k) (f : ℕ → EReal) (h : ∀ i, IsReal (f i)) (l : ℕ) : IsReal (pool s k f l) := by
  obtain ⟨k, rfl⟩ : ∃ k', k = k' + 1 := ⟨k - 1, by omega⟩
  exact isReal_sup k (fun j => f (s * l + j)) fun j _ => h _

/-- The square root of a positive real is a positive real. -/
theorem sqrt_coe_pos {r : ℝ} (hr : 0 < r) : Ideal.sqrt (r : EReal) = ((Real.sqrt r : ℝ) : EReal) ∧ Real.sqrt r ≠ 0 := by
  refine ⟨?_, (Real.sqrt_pos.2 hr).ne'⟩
  rw [Ideal.sqrt_coe, if_neg (not_lt.2 hr.le)]

/-- A real divided by a nonzero real is real. -/
theorem isReal_div {x : EReal} (hx : IsReal x) {y : ℝ} (hy : y ≠ 0) : IsReal (Ideal.div x (y : EReal)) := by
  rw [Ideal.div_coe hy]; exact hx.mul (isReal_coe _)

/-- γ / √(v + ε) is real when γ and v are and v ≥ 0: v + ε is a positive real. -/
theorem isReal_scale (g v : ℕ → EReal) (c : ℕ) (hg : IsReal (g c)) (hv : IsReal (v c)) (h0 : 0 ≤ v c) :
    IsReal (scale g v c) := by
  unfold scale
  obtain ⟨r, hr⟩ := hv
  obtain ⟨e, he⟩ := isReal_eps
  have he0 : 0 < e := by have := eps_pos; rw [he] at this; exact EReal.coe_pos.1 this
  have hr0 : 0 ≤ r := by rw [hr] at h0; exact EReal.coe_nonneg.1 h0
  rw [hr, he, ← EReal.coe_add, (sqrt_coe_pos (add_pos_of_nonneg_of_pos hr0 he0)).1]
  exact isReal_div hg (sqrt_coe_pos (add_pos_of_nonneg_of_pos hr0 he0)).2

/-- β − μ · s is real when β, μ and s are. -/
theorem isReal_shift (b mu s : ℕ → EReal) (c : ℕ) (hb : IsReal (b c)) (hm : IsReal (mu c)) (hs : IsReal (s c)) :
    IsReal (shift b mu s c) := hb.sub (hm.mul hs)

/-! ## The arrays -/

/-- An array of reals read by natural-number indices (0 outside the extents) reads reals. -/
theorem isReal_ofArr1 {n0 : ℕ} (a : (⟨1, ![n0]⟩ : Shape).Idx → EReal) (h : ∀ i, IsReal (a i)) (i : ℕ) :
    IsReal (ofArr1 a i) := by
  unfold ofArr1; split_ifs
  · exact h _
  · exact isReal_zero
theorem isReal_ofArr3 {n0 n1 n2 : ℕ} (a : (⟨3, ![n0, n1, n2]⟩ : Shape).Idx → EReal) (h : ∀ i, IsReal (a i)) (i j k : ℕ) :
    IsReal (ofArr3 a i j k) := by
  unfold ofArr3; split_ifs
  · exact h _
  · exact isReal_zero
/-- A nonnegative array read by natural-number indices (0 outside the extents) reads nonnegative numbers. -/
theorem ofArr1_nonneg {n0 : ℕ} (a : (⟨1, ![n0]⟩ : Shape).Idx → EReal) (h : ∀ i, 0 ≤ a i) (i : ℕ) : 0 ≤ ofArr1 a i := by
  unfold ofArr1; split_ifs
  · exact h _
  · exact le_refl _

/-- Every entry of every array is a real number, and the six variances are nonnegative. -/
structure Params.Real (P : Params) : Prop where
  x : ∀ b j, IsReal (P.x b j)
  w1 : ∀ co k, IsReal (P.w1 co k)
  g1 : ∀ c, IsReal (P.g1 c)
  b1 : ∀ c, IsReal (P.b1 c)
  m1 : ∀ c, IsReal (P.m1 c)
  v1 : ∀ c, IsReal (P.v1 c)
  w2 : ∀ co ci k, IsReal (P.w2 co ci k)
  g2 : ∀ c, IsReal (P.g2 c)
  b2 : ∀ c, IsReal (P.b2 c)
  m2 : ∀ c, IsReal (P.m2 c)
  v2 : ∀ c, IsReal (P.v2 c)
  w3 : ∀ co ci k, IsReal (P.w3 co ci k)
  g3 : ∀ c, IsReal (P.g3 c)
  b3 : ∀ c, IsReal (P.b3 c)
  m3 : ∀ c, IsReal (P.m3 c)
  v3 : ∀ c, IsReal (P.v3 c)
  w4 : ∀ co k, IsReal (P.w4 co k)
  g4 : ∀ c, IsReal (P.g4 c)
  b4 : ∀ c, IsReal (P.b4 c)
  m4 : ∀ c, IsReal (P.m4 c)
  v4 : ∀ c, IsReal (P.v4 c)
  w5 : ∀ co ci k, IsReal (P.w5 co ci k)
  g5 : ∀ c, IsReal (P.g5 c)
  b5 : ∀ c, IsReal (P.b5 c)
  m5 : ∀ c, IsReal (P.m5 c)
  v5 : ∀ c, IsReal (P.v5 c)
  w6 : ∀ co ci k, IsReal (P.w6 co ci k)
  g6 : ∀ c, IsReal (P.g6 c)
  b6 : ∀ c, IsReal (P.b6 c)
  m6 : ∀ c, IsReal (P.m6 c)
  v6 : ∀ c, IsReal (P.v6 c)
  v1nn : ∀ c, 0 ≤ P.v1 c
  v2nn : ∀ c, 0 ≤ P.v2 c
  v3nn : ∀ c, 0 ≤ P.v3 c
  v4nn : ∀ c, 0 ≤ P.v4 c
  v5nn : ∀ c, 0 ≤ P.v5 c
  v6nn : ∀ c, 0 ≤ P.v6 c

/-- The network's arrays are real (and its variances nonnegative) when the 31 argument arrays are. -/
theorem real_params
    (a0 : (⟨3, ![2048, 1, 3000]⟩ : Shape).Idx → EReal) (a1 : (⟨3, ![64, 1, 50]⟩ : Shape).Idx → EReal)
    (a2 a3 a4 a5 : (⟨1, ![64]⟩ : Shape).Idx → EReal)
    (a6 : (⟨3, ![128, 64, 8]⟩ : Shape).Idx → EReal) (a7 a8 a9 a10 : (⟨1, ![128]⟩ : Shape).Idx → EReal)
    (a11 : (⟨3, ![128, 128, 8]⟩ : Shape).Idx → EReal) (a12 a13 a14 a15 : (⟨1, ![128]⟩ : Shape).Idx → EReal)
    (a16 : (⟨3, ![64, 1, 400]⟩ : Shape).Idx → EReal) (a17 a18 a19 a20 : (⟨1, ![64]⟩ : Shape).Idx → EReal)
    (a21 : (⟨3, ![128, 64, 7]⟩ : Shape).Idx → EReal) (a22 a23 a24 a25 : (⟨1, ![128]⟩ : Shape).Idx → EReal)
    (a26 : (⟨3, ![128, 128, 7]⟩ : Shape).Idx → EReal) (a27 a28 a29 a30 : (⟨1, ![128]⟩ : Shape).Idx → EReal)
    (h0 : ∀ i, IsReal (a0 i)) (h1 : ∀ i, IsReal (a1 i)) (h2 : ∀ i, IsReal (a2 i)) (h3 : ∀ i, IsReal (a3 i)) (h4 : ∀ i, IsReal (a4 i)) (h5 : ∀ i, IsReal (a5 i)) (h6 : ∀ i, IsReal (a6 i)) (h7 : ∀ i, IsReal (a7 i)) (h8 : ∀ i, IsReal (a8 i)) (h9 : ∀ i, IsReal (a9 i)) (h10 : ∀ i, IsReal (a10 i)) (h11 : ∀ i, IsReal (a11 i)) (h12 : ∀ i, IsReal (a12 i)) (h13 : ∀ i, IsReal (a13 i)) (h14 : ∀ i, IsReal (a14 i)) (h15 : ∀ i, IsReal (a15 i)) (h16 : ∀ i, IsReal (a16 i)) (h17 : ∀ i, IsReal (a17 i)) (h18 : ∀ i, IsReal (a18 i)) (h19 : ∀ i, IsReal (a19 i)) (h20 : ∀ i, IsReal (a20 i)) (h21 : ∀ i, IsReal (a21 i)) (h22 : ∀ i, IsReal (a22 i)) (h23 : ∀ i, IsReal (a23 i)) (h24 : ∀ i, IsReal (a24 i)) (h25 : ∀ i, IsReal (a25 i)) (h26 : ∀ i, IsReal (a26 i)) (h27 : ∀ i, IsReal (a27 i)) (h28 : ∀ i, IsReal (a28 i)) (h29 : ∀ i, IsReal (a29 i)) (h30 : ∀ i, IsReal (a30 i))
    (n5 : ∀ i, 0 ≤ a5 i) (n10 : ∀ i, 0 ≤ a10 i) (n15 : ∀ i, 0 ≤ a15 i) (n20 : ∀ i, 0 ≤ a20 i) (n25 : ∀ i, 0 ≤ a25 i) (n30 : ∀ i, 0 ≤ a30 i) :
    (params a0 a1 a2 a3 a4 a5 a6 a7 a8 a9 a10 a11 a12 a13 a14 a15 a16 a17 a18 a19 a20 a21 a22 a23 a24 a25 a26 a27 a28 a29 a30).Real where
  x := fun b j => isReal_ofArr3 a0 h0 b 0 j
  w1 := fun co k => isReal_ofArr3 a1 h1 co 0 k
  g1 := fun c => isReal_ofArr1 a2 h2 c
  b1 := fun c => isReal_ofArr1 a3 h3 c
  m1 := fun c => isReal_ofArr1 a4 h4 c
  v1 := fun c => isReal_ofArr1 a5 h5 c
  w2 := fun co ci k => isReal_ofArr3 a6 h6 co ci k
  g2 := fun c => isReal_ofArr1 a7 h7 c
  b2 := fun c => isReal_ofArr1 a8 h8 c
  m2 := fun c => isReal_ofArr1 a9 h9 c
  v2 := fun c => isReal_ofArr1 a10 h10 c
  w3 := fun co ci k => isReal_ofArr3 a11 h11 co ci k
  g3 := fun c => isReal_ofArr1 a12 h12 c
  b3 := fun c => isReal_ofArr1 a13 h13 c
  m3 := fun c => isReal_ofArr1 a14 h14 c
  v3 := fun c => isReal_ofArr1 a15 h15 c
  w4 := fun co k => isReal_ofArr3 a16 h16 co 0 k
  g4 := fun c => isReal_ofArr1 a17 h17 c
  b4 := fun c => isReal_ofArr1 a18 h18 c
  m4 := fun c => isReal_ofArr1 a19 h19 c
  v4 := fun c => isReal_ofArr1 a20 h20 c
  w5 := fun co ci k => isReal_ofArr3 a21 h21 co ci k
  g5 := fun c => isReal_ofArr1 a22 h22 c
  b5 := fun c => isReal_ofArr1 a23 h23 c
  m5 := fun c => isReal_ofArr1 a24 h24 c
  v5 := fun c => isReal_ofArr1 a25 h25 c
  w6 := fun co ci k => isReal_ofArr3 a26 h26 co ci k
  g6 := fun c => isReal_ofArr1 a27 h27 c
  b6 := fun c => isReal_ofArr1 a28 h28 c
  m6 := fun c => isReal_ofArr1 a29 h29 c
  v6 := fun c => isReal_ofArr1 a30 h30 c
  v1nn := fun c => ofArr1_nonneg a5 n5 c
  v2nn := fun c => ofArr1_nonneg a10 n10 c
  v3nn := fun c => ofArr1_nonneg a15 n15 c
  v4nn := fun c => ofArr1_nonneg a20 n20 c
  v5nn := fun c => ofArr1_nonneg a25 n25 c
  v6nn := fun c => ofArr1_nonneg a30 n30 c

/-! ## The layers -/

section Layers
variable {P : Params} (h : P.Real)
include h

theorem isReal_s1 (c : ℕ) : IsReal (s1 P c) := isReal_scale _ _ c (h.g1 c) (h.v1 c) (h.v1nn c)
theorem isReal_t1 (c : ℕ) : IsReal (t1 P c) := isReal_shift _ _ _ c (h.b1 c) (h.m1 c) (isReal_s1 h c)
theorem isReal_s2 (c : ℕ) : IsReal (s2 P c) := isReal_scale _ _ c (h.g2 c) (h.v2 c) (h.v2nn c)
theorem isReal_t2 (c : ℕ) : IsReal (t2 P c) := isReal_shift _ _ _ c (h.b2 c) (h.m2 c) (isReal_s2 h c)
theorem isReal_s3 (c : ℕ) : IsReal (s3 P c) := isReal_scale _ _ c (h.g3 c) (h.v3 c) (h.v3nn c)
theorem isReal_t3 (c : ℕ) : IsReal (t3 P c) := isReal_shift _ _ _ c (h.b3 c) (h.m3 c) (isReal_s3 h c)
theorem isReal_s4 (c : ℕ) : IsReal (s4 P c) := isReal_scale _ _ c (h.g4 c) (h.v4 c) (h.v4nn c)
theorem isReal_t4 (c : ℕ) : IsReal (t4 P c) := isReal_shift _ _ _ c (h.b4 c) (h.m4 c) (isReal_s4 h c)
theorem isReal_s5 (c : ℕ) : IsReal (s5 P c) := isReal_scale _ _ c (h.g5 c) (h.v5 c) (h.v5nn c)
theorem isReal_t5 (c : ℕ) : IsReal (t5 P c) := isReal_shift _ _ _ c (h.b5 c) (h.m5 c) (isReal_s5 h c)
theorem isReal_s6 (c : ℕ) : IsReal (s6 P c) := isReal_scale _ _ c (h.g6 c) (h.v6 c) (h.v6nn c)
theorem isReal_t6 (c : ℕ) : IsReal (t6 P c) := isReal_shift _ _ _ c (h.b6 c) (h.m6 c) (isReal_s6 h c)

/-- Branch 1, first convolution: a finite sum of products of reals, scaled, shifted and passed through GELU. -/
theorem isReal_H1 (b l co : ℕ) : IsReal (H1 P b l co) :=
  isReal_gelu (((isReal_sum _ _ fun k _ => (isReal_zpad _ _ _ (h.x b) _).mul (h.w1 co k)).mul (isReal_s1 h co)).add
    (isReal_t1 h co))
theorem isReal_P1 (b l c : ℕ) : IsReal (P1 P b l c) :=
  isReal_pool 2 8 (by decide) _ (isReal_npad _ _ _ fun j => isReal_H1 h b j c) l
theorem isReal_H2 (b l co : ℕ) : IsReal (H2 P b l co) :=
  isReal_gelu (((isReal_sum _ _ fun k _ => isReal_sum _ _ fun ci _ =>
    (isReal_zpad _ _ _ (fun j => isReal_P1 h b j ci) _).mul (h.w2 co ci k)).mul (isReal_s2 h co)).add (isReal_t2 h co))
theorem isReal_H3 (b l co : ℕ) : IsReal (H3 P b l co) :=
  isReal_gelu (((isReal_sum _ _ fun k _ => isReal_sum _ _ fun ci _ =>
    (isReal_zpad _ _ _ (fun j => isReal_H2 h b j ci) _).mul (h.w3 co ci k)).mul (isReal_s3 h co)).add (isReal_t3 h co))
theorem isReal_X1 (b l c : ℕ) : IsReal (X1 P b l c) :=
  isReal_pool 4 4 (by decide) _ (isReal_npad _ _ _ fun j => isReal_H3 h b j c) l
/-- Branch 2, likewise. -/
theorem isReal_G1 (b l co : ℕ) : IsReal (G1 P b l co) :=
  isReal_gelu (((isReal_sum _ _ fun k _ => (isReal_zpad _ _ _ (h.x b) _).mul (h.w4 co k)).mul (isReal_s4 h co)).add
    (isReal_t4 h co))
theorem isReal_Q1 (b l c : ℕ) : IsReal (Q1 P b l c) :=
  isReal_pool 2 4 (by decide) _ (isReal_npad _ _ _ fun j => isReal_G1 h b j c) l
theorem isReal_G2 (b l co : ℕ) : IsReal (G2 P b l co) :=
  isReal_gelu (((isReal_sum _ _ fun k _ => isReal_sum _ _ fun ci _ =>
    (isReal_zpad _ _ _ (fun j => isReal_Q1 h b j ci) _).mul (h.w5 co ci k)).mul (isReal_s5 h co)).add (isReal_t5 h co))
theorem isReal_G3 (b l co : ℕ) : IsReal (G3 P b l co) :=
  isReal_gelu (((isReal_sum _ _ fun k _ => isReal_sum _ _ fun ci _ =>
    (isReal_zpad _ _ _ (fun j => isReal_G2 h b j ci) _).mul (h.w6 co ci k)).mul (isReal_s6 h co)).add (isReal_t6 h co))
theorem isReal_X2 (b l c : ℕ) : IsReal (X2 P b l c) :=
  isReal_pool 2 2 (by decide) _ (isReal_npad _ _ _ fun j => isReal_G3 h b j c) l
/-- Every entry of the result is a real number. -/
theorem isReal_Out (b c l : ℕ) : IsReal (Out P b c l) := by
  unfold Out; split_ifs
  · exact isReal_X1 h b l c
  · exact isReal_X2 h b (l - 64) c

end Layers

/-! ## Sums -/

/-- The coercion of the reals into the extended reals commutes with finite sums. -/
theorem coe_finset_sum {ι : Type*} (S : Finset ι) (f : ι → ℝ) : ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- A common real factor comes out of a finite sum of products of reals. -/
theorem sum_mul_scale {ι : Type*} (S : Finset ι) (a w : ι → EReal) (s : EReal) (ha : ∀ i ∈ S, IsReal (a i))
    (hw : ∀ i ∈ S, IsReal (w i)) (hs : IsReal s) : ∑ i ∈ S, a i * (w i * s) = (∑ i ∈ S, a i * w i) * s := by
  classical
  obtain ⟨σ, rfl⟩ := hs
  have key : ∀ i ∈ S, a i = (((a i).toReal : ℝ) : EReal) ∧ w i = (((w i).toReal : ℝ) : EReal) := fun i hi =>
    ⟨(EReal.coe_toReal (ha i hi).ne_top (ha i hi).ne_bot).symm, (EReal.coe_toReal (hw i hi).ne_top (hw i hi).ne_bot).symm⟩
  have e1 : ∑ i ∈ S, a i * (w i * (σ : EReal)) = ∑ i ∈ S, (((a i).toReal * ((w i).toReal * σ) : ℝ) : EReal) :=
    Finset.sum_congr rfl fun i hi => by
      conv_lhs => rw [(key i hi).1, (key i hi).2]
      rw [EReal.coe_mul, EReal.coe_mul]
  have e2 : ∑ i ∈ S, a i * w i = ∑ i ∈ S, (((a i).toReal * (w i).toReal : ℝ) : EReal) :=
    Finset.sum_congr rfl fun i hi => by
      conv_lhs => rw [(key i hi).1, (key i hi).2]
      rw [EReal.coe_mul]
  rw [e1, e2, ← coe_finset_sum, ← coe_finset_sum, ← EReal.coe_mul, Finset.sum_mul]
  congr 1
  exact Finset.sum_congr rfl fun i _ => (mul_assoc _ _ _).symm

/-- A sum over K · C consecutive indices is a sum over K blocks of C. -/
theorem sum_range_mul {M : Type*} [AddCommMonoid M] (K C : ℕ) (f : ℕ → M) :
    ∑ j ∈ Finset.range (K * C), f j = ∑ k ∈ Finset.range K, ∑ c ∈ Finset.range C, f (k * C + c) := by
  induction K with
  | zero => simp
  | succ K ih => rw [Nat.succ_mul, Finset.sum_range_add, ih, Finset.sum_range_succ]

/-- A sum whose terms vanish from n on is the sum of its first n terms. -/
theorem sum_range_zero_tail {M : Type*} [AddCommMonoid M] (n m : ℕ) (h : n ≤ m) (f : ℕ → M)
    (hz : ∀ j, n ≤ j → j < m → f j = 0) : ∑ j ∈ Finset.range m, f j = ∑ j ∈ Finset.range n, f j := by
  obtain ⟨d, rfl⟩ := Nat.exists_eq_add_of_le h
  have tail : ∑ x ∈ Finset.range d, f (n + x) = 0 := Finset.sum_eq_zero fun x hx =>
    hz _ (Nat.le_add_right _ _) (Nat.add_lt_add_left (Finset.mem_range.1 hx) _)
  rw [Finset.sum_range_add, tail, add_zero]

/-- A sum whose terms vanish outside the window [q, q + n) is the sum over the window. -/
theorem sum_range_shift_zero {M : Type*} [AddCommMonoid M] (q n m : ℕ) (h : q + n ≤ m) (f : ℕ → M) (g : ℕ → M)
    (hin : ∀ k, k < n → f (q + k) = g k) (hout : ∀ j, j < m → (j < q ∨ q + n ≤ j) → f j = 0) :
    ∑ j ∈ Finset.range m, f j = ∑ k ∈ Finset.range n, g k := by
  have head : ∑ x ∈ Finset.range q, f x = 0 := Finset.sum_eq_zero fun x hx => by
    have hxq := Finset.mem_range.1 hx
    exact hout x (by omega) (Or.inl hxq)
  rw [sum_range_zero_tail (q + n) m h f fun j hj hjm => hout j hjm (Or.inr hj), Finset.sum_range_add, head, zero_add]
  exact Finset.sum_congr rfl fun k hk => hin k (Finset.mem_range.1 hk)

/-! ## Max pooling, one window position at a time -/

/-- The maximum over an empty window is −∞. -/
theorem pool_zero (s : ℕ) (f : ℕ → EReal) (l : ℕ) : pool s 0 f l = ⊥ := by
  unfold pool; rw [Finset.range_zero, Finset.sup_empty]

/-- A window of k + 1 positions is a window of k positions and one more. -/
theorem pool_succ (s k : ℕ) (f : ℕ → EReal) (l : ℕ) : pool s (k + 1) f l = max (pool s k f l) (f (s * l + k)) := by
  unfold pool
  rw [Finset.range_add_one, Finset.sup_insert, max_comm]

/-- The product with zero is zero at every extended real, the infinities included. -/
example (x : EReal) : x * 0 = 0 := mul_zero x
example (x : EReal) : 0 * x = 0 := zero_mul x

end Cert.Spec

end
-- ==== Proof.SpecReal2.lean ====
/-
  Two laws of folded convolutions on real numbers. A kernel that multiplies each weight by the batch normalisation's
  scale before summing computes, on real numbers, the plain convolution times the scale; the sum may run over the
  pairs (tap, channel) laid out as one index, or over a kernel padded with zeros.
-/
import proofs.«125144_g2000006933354569_pallasbulk_1054_1_alg».proof.Proof.SpecReal

noncomputable section

namespace Cert.Spec

open Idealize.ShloMosaic

/-- A folded convolution: summing over the K · C pairs (tap, channel) laid out tap-major, with the scale s folded into
    the weights, is the double sum over taps and channels, times s. All terms are real. -/
theorem conv_fold (K C : ℕ) (hC : 0 < C) (z : ℕ → ℕ → EReal) (w : ℕ → ℕ → EReal) (s : EReal)
    (hz : ∀ k ci, k < K → ci < C → IsReal (z k ci)) (hw : ∀ k ci, k < K → ci < C → IsReal (w ci k)) (hs : IsReal s) :
    ∑ j ∈ Finset.range (K * C), z (j / C) (j % C) * (w (j % C) (j / C) * s)
      = (∑ k ∈ Finset.range K, ∑ ci ∈ Finset.range C, z k ci * w ci k) * s := by
  have split : ∑ j ∈ Finset.range (K * C), z (j / C) (j % C) * (w (j % C) (j / C) * s)
      = ∑ k ∈ Finset.range K, ∑ ci ∈ Finset.range C, z k ci * (w ci k * s) := by
    rw [sum_range_mul K C fun j => z (j / C) (j % C) * (w (j % C) (j / C) * s)]
    refine Finset.sum_congr rfl fun k _ => Finset.sum_congr rfl fun ci hci => ?_
    have hci' := Finset.mem_range.1 hci
    have hd : (k * C + ci) / C = k := by
      rw [Nat.mul_comm, Nat.mul_add_div hC, Nat.div_eq_of_lt hci', Nat.add_zero]
    have hm : (k * C + ci) % C = ci := by
      rw [Nat.mul_comm, Nat.mul_add_mod, Nat.mod_eq_of_lt hci']
    simp only [hd, hm]
  rw [split, ← Finset.sum_product' (Finset.range K) (Finset.range C) fun k ci => z k ci * (w ci k * s),
    ← Finset.sum_product' (Finset.range K) (Finset.range C) fun k ci => z k ci * w ci k]
  refine sum_mul_scale _ (fun p : ℕ × ℕ => z p.1 p.2) (fun p : ℕ × ℕ => w p.2 p.1) s (fun p hp => ?_) (fun p hp => ?_) hs
  · obtain ⟨h1, h2⟩ := Finset.mem_product.1 hp
    exact hz _ _ (Finset.mem_range.1 h1) (Finset.mem_range.1 h2)
  · obtain ⟨h1, h2⟩ := Finset.mem_product.1 hp
    exact hw _ _ (Finset.mem_range.1 h1) (Finset.mem_range.1 h2)

/-- A folded one-channel convolution: against a kernel of K scaled taps padded with q zeros in front, the sum over all
    J positions is the sum over the K taps, times the scale. -/
theorem conv1_fold (J q K : ℕ) (h : q + K ≤ J) (xz : ℕ → EReal) (w : ℕ → EReal) (s : EReal)
    (hx : ∀ j, j < J → IsReal (xz j)) (hw : ∀ k, k < K → IsReal (w k)) (hs : IsReal s) :
    ∑ j ∈ Finset.range J, xz j * zpad q K (fun k => w k * s) j = (∑ k ∈ Finset.range K, xz (q + k) * w k) * s := by
  rw [sum_range_shift_zero q K J h (fun j => xz j * zpad q K (fun k => w k * s) j) (fun k => xz (q + k) * (w k * s))]
  · exact sum_mul_scale _ (fun k => xz (q + k)) w s
      (fun k hk => hx _ (by have := Finset.mem_range.1 hk; omega)) (fun k hk => hw _ (Finset.mem_range.1 hk)) hs
  · intro k hk
    show xz (q + k) * zpad q K (fun k => w k * s) (q + k) = xz (q + k) * (w k * s)
    unfold zpad
    rw [if_pos ⟨Nat.le_add_right _ _, Nat.add_lt_add_left hk _⟩, Nat.add_sub_cancel_left]
  · intro j _ hj
    show xz j * zpad q K (fun k => w k * s) j = 0
    unfold zpad
    rw [if_neg (by omega), mul_zero]

end Cert.Spec

end
-- ==== Proof.KPay2.lean ====
/-
  The first layer of branch 1 in the kernel body: the padded pair-maxima (rows of the 254-row array) and the
  running maximum over three consecutive rows.

  The kernel computes the layer as ONE matrix product: row bb·256 + u of the window matrix holds the 60 samples
  xz(12u), …, xz(12u + 59) of the zero-padded signal, and the tap matrix holds the 50 scaled taps twice, from row 0
  in columns 0…63 (output position 2u) and from row 6 in columns 64…127 (output position 2u + 1). After the shift
  row and the activation, the two column halves are joined by max, and two rows of the most negative finite number
  are put in front and behind.
-/
import proofs.«125144_g2000006933354569_pallasbulk_1054_1_alg».proof.Proof.Gen.KernelIdeal.Skeleton
import proofs.«125144_g2000006933354569_pallasbulk_1054_1_alg».proof.Proof.KIface
import proofs.«125144_g2000006933354569_pallasbulk_1054_1_alg».proof.Proof.SpecReal
import proofs.«125144_g2000006933354569_pallasbulk_1054_1_alg».proof.Proof.SpecReal2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen Cert.Spec Idealize.ShloMosaic Idealize.ShloMosaic.ValueIdx

/-- The eleven pointwise operations of the activation, at an index: tanh-GELU of the pre-activation there. -/
theorem pay2_gelu_apply {s : Shape} (y : FVec Ideal s .f32) (i : s.Idx) :
    mulf (mulf (broadcast s (Scalar.ofBits (F := Ideal) .f32 0x3F000000#32)) y)
      (addf (broadcast s (Scalar.ofBits (F := Ideal) .f32 0x3F800000#32))
        (tanh (mulf (broadcast s (Scalar.ofBits (F := Ideal) .f32 0x3F4C422A#32))
          (addf y (mulf (mulf (mulf (broadcast s (Scalar.ofBits (F := Ideal) .f32 0x3D372713#32)) y) y) y))))) i
      = Cert.Spec.gelu (y i) := rfl

/-- Two rows of the most negative finite number in front of and behind a 250-row array. -/
theorem pay2_pad_apply (v35 : FVec Ideal S8x250x64 .f32) (bb : Fin 8) (j : Fin 254) (c : Fin 64)
    (f : ℕ → EReal) (hf : ∀ u : Fin 250, v35 (ix3 bb u c) = f u.val) :
    concatenate S8x254x64 1 [⟨S8x252x64, concatenate S8x252x64 1 [⟨S8x2x64, broadcast S8x2x64 (Scalar.ofBits (F := Ideal) .f32 0xFF7FFFFF#32)⟩, ⟨S8x250x64, v35⟩] concatenates_S8x2x64_S8x250x64_S8x252x64_d1⟩, ⟨S8x2x64, broadcast S8x2x64 (Scalar.ofBits (F := Ideal) .f32 0xFF7FFFFF#32)⟩] concatenates_S8x252x64_S8x2x64_S8x254x64_d1 (ix3 bb j c)
      = Cert.Spec.npad 2 250 f j.val := by
  unfold Cert.Spec.npad
  by_cases h1 : j.val < 252
  · refine (concatenate_pair_apply_left (t := S8x254x64) (s₁ := S8x252x64) (s₂ := S8x2x64) 1 _ _ _ (ix3 bb j c) rfl
      (ix3 bb (⟨j.val, h1⟩ : Fin 252) c) ?_).trans ?_
    · intro b
      match b with
      | ⟨0, _⟩ => rfl
      | ⟨1, _⟩ => rfl
      | ⟨2, _⟩ => rfl
    · by_cases h2 : j.val < 2
      · refine (concatenate_pair_apply_left (t := S8x252x64) (s₁ := S8x2x64) (s₂ := S8x250x64) 1 _ _ _
          (ix3 bb (⟨j.val, h1⟩ : Fin 252) c) rfl (ix3 bb (⟨j.val, h2⟩ : Fin 2) c) ?_).trans ?_
        · intro b
          match b with
          | ⟨0, _⟩ => rfl
          | ⟨1, _⟩ => rfl
          | ⟨2, _⟩ => rfl
        · rw [if_neg (by omega)]; rfl
      · refine (concatenate_pair_apply_right (t := S8x252x64) (s₁ := S8x2x64) (s₂ := S8x250x64) 1 _ _ _
          (ix3 bb (⟨j.val, h1⟩ : Fin 252) c) rfl rfl (ix3 bb (⟨j.val - 2, by omega⟩ : Fin 250) c) ?_ ?_).trans ?_
        · intro b hb
          match b with
          | ⟨0, _⟩ => rfl
          | ⟨1, _⟩ => exact absurd rfl hb
          | ⟨2, _⟩ => rfl
        · show j.val - 2 + 2 = j.val
          omega
        · rw [if_pos (by omega)]; exact hf ⟨j.val - 2, by omega⟩
  · refine (concatenate_pair_apply_right (t := S8x254x64) (s₁ := S8x252x64) (s₂ := S8x2x64) 1 _ _ _ (ix3 bb j c) rfl rfl
      (ix3 bb (⟨j.val - 252, by have := j.isLt; omega⟩ : Fin 2) c) ?_ ?_).trans ?_
    · intro b hb
      match b with
      | ⟨0, _⟩ => rfl
      | ⟨1, _⟩ => exact absurd rfl hb
      | ⟨2, _⟩ => rfl
    · show j.val - 252 + 252 = j.val
      omega
    · rw [if_neg (by omega)]; rfl

/-- Row u of the 250-row maximum of the two channel halves of the [8·256, 128] array read as [8, 256, 128]. -/
theorem pay2_halves_apply (v31 : FVec Ideal S2048x128 .f32) (bb : Fin 8) (u : Fin 250) (c : Fin 64) :
    maximumf (extractStridedSlice S8x250x64 ![0, 0, 0] (shapeCast S8x256x128 v31 shapeCasts_S2048x128_S8x256x128) slices_S8x256x128_o0_0_0_S8x250x64)
        (extractStridedSlice S8x250x64 ![0, 0, 64] (shapeCast S8x256x128 v31 shapeCasts_S2048x128_S8x256x128) slices_S8x256x128_o0_0_64_S8x250x64) (ix3 bb u c)
      = max (v31 (ix2 (⟨bb.val * 256 + u.val, by omega⟩ : Fin 2048) (⟨c.val, by omega⟩ : Fin 128)))
          (v31 (ix2 (⟨bb.val * 256 + u.val, by omega⟩ : Fin 2048) (⟨c.val + 64, by omega⟩ : Fin 128))) := by
  rw [maximumf_apply]
  congr 1
  · refine (extractStridedSlice_apply _ _ _ (ix3 bb u c) (ix3 bb (⟨u.val, by omega⟩ : Fin 256) (⟨c.val, by omega⟩ : Fin 128)) ?_).trans ?_
    · intro a
      match a with
      | ⟨0, _⟩ => exact (Nat.zero_add _).symm
      | ⟨1, _⟩ => exact (Nat.zero_add _).symm
      | ⟨2, _⟩ => exact (Nat.zero_add _).symm
    · refine shapeCast_apply _ _ _ _ ?_
      rw [Shape.rowMajor_val_two, Shape.rowMajor_val_three]
      show (bb.val * 256 + u.val) * 128 + c.val = (bb.val * 256 + u.val) * 128 + c.val
      rfl
  · refine (extractStridedSlice_apply _ _ _ (ix3 bb u c) (ix3 bb (⟨u.val, by omega⟩ : Fin 256) (⟨c.val + 64, by omega⟩ : Fin 128)) ?_).trans ?_
    · intro a
      match a with
      | ⟨0, _⟩ => exact (Nat.zero_add _).symm
      | ⟨1, _⟩ => exact (Nat.zero_add _).symm
      | ⟨2, _⟩ => exact Nat.add_comm _ _
    · refine shapeCast_apply _ _ _ _ ?_
      rw [Shape.rowMajor_val_two, Shape.rowMajor_val_three]
      show (bb.val * 256 + u.val) * 128 + (c.val + 64) = (bb.val * 256 + u.val) * 128 + (c.val + 64)
      rfl

/-- The [2048, 60] × [60, 128] product into the zero array, at an entry: the sum over the 60 contracted positions. -/
theorem pay2_mm_apply (A : FVec Ideal S2048x60 .f32) (W : FVec Ideal S60x128 .f32) (r : Fin 2048) (c : Fin 128) :
    matmul dot_S2048x60_S60x128_S2048x128_1_0_0_1_n_n none A W (constant (F := Ideal) S2048x128 .f32 0x00000000#32) (ix2 r c)
      = ∑ k : Fin 60, A (ix2 r k) * W (ix2 k c) := by
  show FloatOps.matmul dot_S2048x60_S60x128_S2048x128_1_0_0_1_n_n none A W (constant (F := Ideal) S2048x128 .f32 0x00000000#32) (ix2 r c) = _
  rw [Ideal.matmul_constant_zero_apply, ← Equiv.sum_comp (contrEquiv1 dot_S2048x60_S60x128_S2048x128_1_0_0_1_n_n 60 rfl rfl).symm]
  refine Finset.sum_congr rfl fun k _ => ?_
  have c2 := contrEquiv1_symm_val dot_S2048x60_S60x128_S2048x128_1_0_0_1_n_n 60 rfl rfl k
  have l2 : dot_S2048x60_S60x128_S2048x128_1_0_0_1_n_n.lhsIdx (ix2 r c) ((contrEquiv1 _ 60 rfl rfl).symm k) = ix2 r k := by
    funext ax; apply Fin.ext
    match ax with
    | ⟨0, _⟩ => simp [DotDims.lhsIdx, dot_S2048x60_S60x128_S2048x128_1_0_0_1_n_n]; rfl
    | ⟨1, _⟩ => simp [DotDims.lhsIdx, dot_S2048x60_S60x128_S2048x128_1_0_0_1_n_n]; exact c2
  have r2 : dot_S2048x60_S60x128_S2048x128_1_0_0_1_n_n.rhsIdx (ix2 r c) ((contrEquiv1 _ 60 rfl rfl).symm k) = ix2 k c := by
    funext ax; apply Fin.ext
    match ax with
    | ⟨0, _⟩ => simp [DotDims.rhsIdx, dot_S2048x60_S60x128_S2048x128_1_0_0_1_n_n]; exact c2
    | ⟨1, _⟩ => simp [DotDims.rhsIdx, dot_S2048x60_S60x128_S2048x128_1_0_0_1_n_n]; rfl
  rw [l2, r2]

/-- Five row-shifted copies of a [8, 254, 12] array side by side: entry (u, k) is the source at (u + k / 12, k % 12). -/
theorem pay2_win7_apply (v1 : FVec Ideal S8x254x12 .f32) (bb : Fin 8) (u : Fin 250) (k : Fin 60) :
    concatenate S8x250x60 2 [⟨S8x250x12, extractStridedSlice S8x250x12 ![0, 0, 0] v1 slices_S8x254x12_o0_0_0_S8x250x12⟩, ⟨S8x250x12, extractStridedSlice S8x250x12 ![0, 1, 0] v1 slices_S8x254x12_o0_1_0_S8x250x12⟩, ⟨S8x250x12, extractStridedSlice S8x250x12 ![0, 2, 0] v1 slices_S8x254x12_o0_2_0_S8x250x12⟩, ⟨S8x250x12, extractStridedSlice S8x250x12 ![0, 3, 0] v1 slices_S8x254x12_o0_3_0_S8x250x12⟩, ⟨S8x250x12, extractStridedSlice S8x250x12 ![0, 4, 0] v1 slices_S8x254x12_o0_4_0_S8x250x12⟩] concatenates_S8x250x12_S8x250x12_S8x250x12_S8x250x12_S8x250x12_S8x250x60_d2 (ix3 bb u k)
      = v1 (ix3 bb (⟨u.val + k.val / 12, by omega⟩ : Fin 254) (⟨k.val % 12, by omega⟩ : Fin 12)) := by
  have hk := k.isLt
  have hcases : k.val / 12 = 0 ∨ k.val / 12 = 1 ∨ k.val / 12 = 2 ∨ k.val / 12 = 3 ∨ k.val / 12 = 4 := by omega
  rcases hcases with h | h | h | h | h
  · refine (concatenate_apply_piece (t := S8x250x60) 2 _ _ (ix3 bb u k) 0 (by simp) S8x250x12 _ rfl rfl 0 rfl
      (ix3 bb u (⟨k.val % 12, by omega⟩ : Fin 12)) ?_ ?_).trans ?_
    · intro b hb
      match b with
      | ⟨0, _⟩ => rfl
      | ⟨1, _⟩ => rfl
      | ⟨2, _⟩ => exact absurd rfl hb
    · show 0 + k.val % 12 = k.val
      omega
    · exact slice3_axis1_apply 0 _ _ bb u _ _ (by show u.val + k.val / 12 = 0 + u.val; omega)
  · refine (concatenate_apply_piece (t := S8x250x60) 2 _ _ (ix3 bb u k) 1 (by simp) S8x250x12 _ rfl rfl 12 rfl
      (ix3 bb u (⟨k.val % 12, by omega⟩ : Fin 12)) ?_ ?_).trans ?_
    · intro b hb
      match b with
      | ⟨0, _⟩ => rfl
      | ⟨1, _⟩ => rfl
      | ⟨2, _⟩ => exact absurd rfl hb
    · show 12 + k.val % 12 = k.val
      omega
    · exact slice3_axis1_apply 1 _ _ bb u _ _ (by show u.val + k.val / 12 = 1 + u.val; omega)
  · refine (concatenate_apply_piece (t := S8x250x60) 2 _ _ (ix3 bb u k) 2 (by simp) S8x250x12 _ rfl rfl 24 rfl
      (ix3 bb u (⟨k.val % 12, by omega⟩ : Fin 12)) ?_ ?_).trans ?_
    · intro b hb
      match b with
      | ⟨0, _⟩ => rfl
      | ⟨1, _⟩ => rfl
      | ⟨2, _⟩ => exact absurd rfl hb
    · show 24 + k.val % 12 = k.val
      omega
    · exact slice3_axis1_apply 2 _ _ bb u _ _ (by show u.val + k.val / 12 = 2 + u.val; omega)
  · refine (concatenate_apply_piece (t := S8x250x60) 2 _ _ (ix3 bb u k) 3 (by simp) S8x250x12 _ rfl rfl 36 rfl
      (ix3 bb u (⟨k.val % 12, by omega⟩ : Fin 12)) ?_ ?_).trans ?_
    · intro b hb
      match b with
      | ⟨0, _⟩ => rfl
      | ⟨1, _⟩ => rfl
      | ⟨2, _⟩ => exact absurd rfl hb
    · show 36 + k.val % 12 = k.val
      omega
    · exact slice3_axis1_apply 3 _ _ bb u _ _ (by show u.val + k.val / 12 = 3 + u.val; omega)
  · refine (concatenate_apply_piece (t := S8x250x60) 2 _ _ (ix3 bb u k) 4 (by simp) S8x250x12 _ rfl rfl 48 rfl
      (ix3 bb u (⟨k.val % 12, by omega⟩ : Fin 12)) ?_ ?_).trans ?_
    · intro b hb
      match b with
      | ⟨0, _⟩ => rfl
      | ⟨1, _⟩ => rfl
      | ⟨2, _⟩ => exact absurd rfl hb
    · show 48 + k.val % 12 = k.val
      omega
    · exact slice3_axis1_apply 4 _ _ bb u _ _ (by show u.val + k.val / 12 = 4 + u.val; omega)

/-- The window matrix: row bb·256 + u (u < 250), column k is the block at (u + k / 12, k % 12). -/
theorem pay2_win_apply (x0 : Vec Ideal S8x254x12 .f32) (bb : Fin 8) (u : Fin 250) (k : Fin 60) :
    shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60 (ix2 (⟨bb.val * 256 + u.val, by omega⟩ : Fin 2048) k)
      = x0 (ix3 bb (⟨u.val + k.val / 12, by omega⟩ : Fin 254) (⟨k.val % 12, by omega⟩ : Fin 12)) := by
  refine (shapeCast_apply _ _ (ix2 (⟨bb.val * 256 + u.val, by omega⟩ : Fin 2048) k) (ix3 bb (⟨u.val, by omega⟩ : Fin 256) k) ?_).trans ?_
  · rw [Shape.rowMajor_val_three, Shape.rowMajor_val_two]
    rfl
  refine (concatenate_pair_apply_left (t := S8x256x60) (s₁ := S8x250x60) (s₂ := S8x6x60) 1 _ _ _
    (ix3 bb (⟨u.val, by omega⟩ : Fin 256) k) rfl (ix3 bb u k) ?_).trans ?_
  · intro b
    match b with
    | ⟨0, _⟩ => rfl
    | ⟨1, _⟩ => rfl
    | ⟨2, _⟩ => rfl
  rw [pay2_win7_apply, shapeCast_self]

/-- A row of the window matrix against a column of the tap matrix, as a sum over the 60 window positions. -/
theorem pay2_row_apply (P : Cert.Spec.Params) (B : ℕ)
    (x0 : Vec Ideal S8x254x12 .f32) (x2 : Vec Ideal S60x128 .f32)
    (hx0 : ∀ (bb : Fin 8) (u : Fin 254) (r : Fin 12), x0 (ix3 bb u r) = zpad 24 3000 (P.x (B + bb.val)) (12 * u.val + r.val))
    (hx2 : ∀ (j : Fin 60) (c : Fin 128), x2 (ix2 j c) =
      if c.val < 64 then zpad 0 50 (fun k => P.w1 c.val k * s1 P c.val) j.val
      else zpad 6 50 (fun k => P.w1 (c.val - 64) k * s1 P (c.val - 64)) j.val)
    (bb : Fin 8) (u : Fin 250) (c : Fin 128) :
    ∑ k : Fin 60, shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60 (ix2 (⟨bb.val * 256 + u.val, by omega⟩ : Fin 2048) k)
        * shapeCast S60x128 x2 shapeCasts_S60x128_S60x128 (ix2 k c)
      = ∑ j ∈ Finset.range 60, zpad 24 3000 (P.x (B + bb.val)) (12 * u.val + j) *
          (if c.val < 64 then zpad 0 50 (fun k => P.w1 c.val k * s1 P c.val) j
           else zpad 6 50 (fun k => P.w1 (c.val - 64) k * s1 P (c.val - 64)) j) := by
  rw [← Fin.sum_univ_eq_sum_range (fun j => zpad 24 3000 (P.x (B + bb.val)) (12 * u.val + j) *
          (if c.val < 64 then zpad 0 50 (fun k => P.w1 c.val k * s1 P c.val) j
           else zpad 6 50 (fun k => P.w1 (c.val - 64) k * s1 P (c.val - 64)) j)) 60]
  refine Finset.sum_congr rfl fun k _ => ?_
  rw [pay2_win_apply, shapeCast_self, hx0, hx2]
  have e : 12 * (u.val + k.val / 12) + k.val % 12 = 12 * u.val + k.val := by omega
  show zpad 24 3000 (P.x (B + bb.val)) (12 * (u.val + k.val / 12) + k.val % 12) * _ = _
  rw [e]

/-- Channels 0…63 of row bb·256 + u: the first layer at the even position 2u. -/
theorem pay2_layer_even (P : Cert.Spec.Params) (B : ℕ) (hP : P.Real)
    (x0 : Vec Ideal S8x254x12 .f32) (x2 : Vec Ideal S60x128 .f32) (x3 : Vec Ideal S1x128 .f32)
    (hx0 : ∀ (bb : Fin 8) (u : Fin 254) (r : Fin 12), x0 (ix3 bb u r) = zpad 24 3000 (P.x (B + bb.val)) (12 * u.val + r.val))
    (hx2 : ∀ (j : Fin 60) (c : Fin 128), x2 (ix2 j c) =
      if c.val < 64 then zpad 0 50 (fun k => P.w1 c.val k * s1 P c.val) j.val
      else zpad 6 50 (fun k => P.w1 (c.val - 64) k * s1 P (c.val - 64)) j.val)
    (hx3 : ∀ c : Fin 128, x3 (ix2 0 c) = t1 P (c.val % 64))
    (bb : Fin 8) (u : Fin 250) (c : Fin 64) :
    mulf (mulf (broadcast S2048x128 (Scalar.ofBits (F := Ideal) .f32 0x3F000000#32)) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))) (addf (broadcast S2048x128 (Scalar.ofBits (F := Ideal) .f32 0x3F800000#32)) (tanh (mulf (broadcast S2048x128 (Scalar.ofBits (F := Ideal) .f32 0x3F4C422A#32)) (addf (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128)) (mulf (mulf (mulf (broadcast S2048x128 (Scalar.ofBits (F := Ideal) .f32 0x3D372713#32)) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))))))) (ix2 (⟨bb.val * 256 + u.val, by omega⟩ : Fin 2048) (⟨c.val, by omega⟩ : Fin 128))
      = H1 P (B + bb.val) (2 * u.val) c.val := by
  refine (pay2_gelu_apply _ _).trans ?_
  unfold H1
  congr 1
  rw [addf_apply, pay2_mm_apply, pay2_row_apply P B x0 x2 hx0 hx2, broadcastTo_1b_ab_apply, shapeCast_self, hx3]
  have hc : c.val < 64 := c.isLt
  have e64 : c.val % 64 = c.val := Nat.mod_eq_of_lt hc
  simp only [hc, if_true, e64]
  have h := conv1_fold 60 0 50 (by norm_num) (fun j => zpad 24 3000 (P.x (B + bb.val)) (12 * u.val + j))
    (fun k => P.w1 c.val k) (s1 P c.val)
    (fun j _ => isReal_zpad 24 3000 _ (fun i => hP.x _ i) _) (fun k _ => hP.w1 _ k) (isReal_s1 hP _)
  rw [h]
  congr 2
  refine Finset.sum_congr rfl fun k _ => ?_
  congr 2
  omega

/-- Channels 64…127 of row bb·256 + u: the first layer at the odd position 2u + 1. -/
theorem pay2_layer_odd (P : Cert.Spec.Params) (B : ℕ) (hP : P.Real)
    (x0 : Vec Ideal S8x254x12 .f32) (x2 : Vec Ideal S60x128 .f32) (x3 : Vec Ideal S1x128 .f32)
    (hx0 : ∀ (bb : Fin 8) (u : Fin 254) (r : Fin 12), x0 (ix3 bb u r) = zpad 24 3000 (P.x (B + bb.val)) (12 * u.val + r.val))
    (hx2 : ∀ (j : Fin 60) (c : Fin 128), x2 (ix2 j c) =
      if c.val < 64 then zpad 0 50 (fun k => P.w1 c.val k * s1 P c.val) j.val
      else zpad 6 50 (fun k => P.w1 (c.val - 64) k * s1 P (c.val - 64)) j.val)
    (hx3 : ∀ c : Fin 128, x3 (ix2 0 c) = t1 P (c.val % 64))
    (bb : Fin 8) (u : Fin 250) (c : Fin 64) :
    mulf (mulf (broadcast S2048x128 (Scalar.ofBits (F := Ideal) .f32 0x3F000000#32)) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))) (addf (broadcast S2048x128 (Scalar.ofBits (F := Ideal) .f32 0x3F800000#32)) (tanh (mulf (broadcast S2048x128 (Scalar.ofBits (F := Ideal) .f32 0x3F4C422A#32)) (addf (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128)) (mulf (mulf (mulf (broadcast S2048x128 (Scalar.ofBits (F := Ideal) .f32 0x3D372713#32)) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))) (addf (matmul (φ₁ := .f32) (φ₂ := .f32) dot_S2048x60_S60x128_S2048x128_1_0_0_1_n_n none (shapeCast S2048x60 (concatenate S8x256x60 1 [⟨S8x250x60, concatenate S8x250x60 2 [⟨S8x250x12, extractStridedSlice S8x250x12 ![0, 0, 0] (shapeCast S8x254x12 x0 shapeCasts_S8x254x12_S8x254x12) slices_S8x254x12_o0_0_0_S8x250x12⟩, ⟨S8x250x12, extractStridedSlice S8x250x12 ![0, 1, 0] (shapeCast S8x254x12 x0 shapeCasts_S8x254x12_S8x254x12) slices_S8x254x12_o0_1_0_S8x250x12⟩, ⟨S8x250x12, extractStridedSlice S8x250x12 ![0, 2, 0] (shapeCast S8x254x12 x0 shapeCasts_S8x254x12_S8x254x12) slices_S8x254x12_o0_2_0_S8x250x12⟩, ⟨S8x250x12, extractStridedSlice S8x250x12 ![0, 3, 0] (shapeCast S8x254x12 x0 shapeCasts_S8x254x12_S8x254x12) slices_S8x254x12_o0_3_0_S8x250x12⟩, ⟨S8x250x12, extractStridedSlice S8x250x12 ![0, 4, 0] (shapeCast S8x254x12 x0 shapeCasts_S8x254x12_S8x254x12) slices_S8x254x12_o0_4_0_S8x250x12⟩] concatenates_S8x250x12_S8x250x12_S8x250x12_S8x250x12_S8x250x12_S8x250x60_d2⟩, ⟨S8x6x60, broadcast S8x6x60 (Scalar.sitofp (F := Ideal) .f32 0#32)⟩] concatenates_S8x250x60_S8x6x60_S8x256x60_d1) shapeCasts_S8x256x60_S2048x60) (shapeCast S60x128 x2 shapeCasts_S60x128_S60x128) (constant (F := Ideal) S2048x128 .f32 0x00000000#32)) (broadcastTo S2048x128 (shapeCast S1x128 x3 shapeCasts_S1x128_S1x128) broadcasts_S1x128_S2048x128))))))) (ix2 (⟨bb.val * 256 + u.val, by omega⟩ : Fin 2048) (⟨c.val + 64, by omega⟩ : Fin 128))
      = H1 P (B + bb.val) (2 * u.val + 1) c.val := by
  refine (pay2_gelu_apply _ _).trans ?_
  unfold H1
  congr 1
  rw [addf_apply, pay2_mm_apply, pay2_row_apply P B x0 x2 hx0 hx2, broadcastTo_1b_ab_apply, shapeCast_self, hx3]
  have hc : ¬ (c.val + 64 < 64) := by omega
  have e64 : (c.val + 64) % 64 = c.val := by omega
  have e : c.val + 64 - 64 = c.val := by omega
  simp only [hc, if_false, e64, e]
  have h := conv1_fold 60 6 50 (by norm_num) (fun j => zpad 24 3000 (P.x (B + bb.val)) (12 * u.val + j))
    (fun k => P.w1 c.val k) (s1 P c.val)
    (fun j _ => isReal_zpad 24 3000 _ (fun i => hP.x _ i) _) (fun k _ => hP.w1 _ k) (isReal_s1 hP _)
  rw [h]
  congr 2
  refine Finset.sum_congr rfl fun k _ => ?_
  congr 2
  omega

/-- The padded pair-maxima of the first layer. -/
theorem pay2_spec (P : Cert.Spec.Params) (B : ℕ) (hP : P.Real)
    (x0 : Vec Ideal S8x254x12 .f32) (x2 : Vec Ideal S60x128 .f32) (x3 : Vec Ideal S1x128 .f32)
    (hx0 : ∀ (bb : Fin 8) (u : Fin 254) (r : Fin 12), x0 (ix3 bb u r) = zpad 24 3000 (P.x (B + bb.val)) (12 * u.val + r.val))
    (hx2 : ∀ (j : Fin 60) (c : Fin 128), x2 (ix2 j c) =
      if c.val < 64 then zpad 0 50 (fun k => P.w1 c.val k * s1 P c.val) j.val
      else zpad 6 50 (fun k => P.w1 (c.val - 64) k * s1 P (c.val - 64)) j.val)
    (hx3 : ∀ c : Fin 128, x3 (ix2 0 c) = t1 P (c.val % 64)) :
    KIface.IsMP P B (k0_pay2 (F := Ideal) x0 x2 x3) := by
  intro bb j c
  unfold KIface.mp1 k0_pay2
  refine pay2_pad_apply _ bb j c _ fun u => ?_
  rw [pay2_halves_apply]
  congr 1
  · exact pay2_layer_even P B hP x0 x2 x3 hx0 hx2 hx3 bb u c
  · exact pay2_layer_odd P B hP x0 x2 x3 hx0 hx2 hx3 bb u c

/-- The running maximum over three consecutive rows of the padded pair-maxima. -/
theorem pay3_spec (P : Cert.Spec.Params) (B : ℕ) (hP : P.Real)
    (x0 : Vec Ideal S8x254x12 .f32) (x2 : Vec Ideal S60x128 .f32) (x3 : Vec Ideal S1x128 .f32)
    (hx0 : ∀ (bb : Fin 8) (u : Fin 254) (r : Fin 12), x0 (ix3 bb u r) = zpad 24 3000 (P.x (B + bb.val)) (12 * u.val + r.val))
    (hx2 : ∀ (j : Fin 60) (c : Fin 128), x2 (ix2 j c) =
      if c.val < 64 then zpad 0 50 (fun k => P.w1 c.val k * s1 P c.val) j.val
      else zpad 6 50 (fun k => P.w1 (c.val - 64) k * s1 P (c.val - 64)) j.val)
    (hx3 : ∀ c : Fin 128, x3 (ix2 0 c) = t1 P (c.val % 64)) :
    KIface.IsV44 P B (k0_pay3 (F := Ideal) x0 x2 x3) := by
  intro bb l c
  have h2 := pay2_spec P B hP x0 x2 x3 hx0 hx2 hx3
  unfold k0_pay3
  simp only [maximumf_apply]
  rw [slice3_axis1_apply 0 _ _ bb l c ⟨l.val, by omega⟩ (by simp), slice3_axis1_apply 1 _ _ bb l c ⟨l.val + 1, by omega⟩ (by simp; omega),
      slice3_axis1_apply 2 _ _ bb l c ⟨l.val + 2, by omega⟩ (by simp; omega)]
  rw [h2 bb ⟨l.val, by omega⟩ c, h2 bb ⟨l.val + 1, by omega⟩ c, h2 bb ⟨l.val + 2, by omega⟩ c]

end Cert.KernelIdeal.KBody
end
-- ==== Proof.KPay4.lean ====
/-
  The second payload of the kernel's body: the pooled first layer of branch 1 from the pair-maxima, its zero padding,
  the window matrix of eight shifted copies, the matrix product with the scaled taps of layer 2 plus the shift,
  the activation, and the zero padding of the 252 rows kept. The payload is split into these stages; each stage
  is read at an index, and the stages are put together against the network's layer 2.
-/
import proofs.«125144_g2000006933354569_pallasbulk_1054_1_alg».proof.Proof.Gen.KernelIdeal.Skeleton
import proofs.«125144_g2000006933354569_pallasbulk_1054_1_alg».proof.Proof.KIface
import proofs.«125144_g2000006933354569_pallasbulk_1054_1_alg».proof.Proof.SpecReal
import proofs.«125144_g2000006933354569_pallasbulk_1054_1_alg».proof.Proof.SpecReal2
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.KBody
open Cert.KernelIdeal Cert.KernelIdeal.Gen Cert.Spec Idealize.ShloMosaic Idealize.ShloMosaic.ValueIdx

namespace Pay4

/-- Two neighbouring positions 2m, 2m+1 of a sequence of length 500 padded by four on each side are one position m of
    the sequence of pair-maxima, of length 250 and padded by two. -/
theorem npad_pair (h : ℕ → EReal) (m : ℕ) :
    max (npad 4 500 h (2 * m)) (npad 4 500 h (2 * m + 1)) = npad 2 250 (fun u => max (h (2 * u)) (h (2 * u + 1))) m := by
  unfold npad
  by_cases hm : 2 ≤ m ∧ m < 2 + 250
  · rw [if_pos hm, if_pos (by omega), if_pos (by omega)]
    rw [show 2 * m - 4 = 2 * (m - 2) by omega, show 2 * m + 1 - 4 = 2 * (m - 2) + 1 by omega]
  · rw [if_neg hm, if_neg (by omega), if_neg (by omega), max_self]

/-- The pooling window of eight positions 2l … 2l+7 is four neighbouring pairs. -/
theorem P1_eq_mp (P : Params) (b l c : ℕ) :
    P1 P b l c = max (max (max (KIface.mp1 P b c l) (KIface.mp1 P b c (l + 1))) (KIface.mp1 P b c (l + 2))) (KIface.mp1 P b c (l + 3)) := by
  have e := npad_pair (fun j => H1 P b j c)
  unfold P1 KIface.mp1
  rw [← e, ← e, ← e, ← e]
  rw [show (8 : ℕ) = 0 + 1 + 1 + 1 + 1 + 1 + 1 + 1 + 1 from rfl]
  simp only [pool_succ, pool_zero]
  rw [show 2 * (l + 1) = 2 * l + 2 by omega, show 2 * (l + 2) = 2 * l + 4 by omega, show 2 * (l + 3) = 2 * l + 6 by omega]
  simp only [Nat.add_zero, Nat.zero_add, bot_sup_eq, max_assoc]

/-! ## The payload in stages -/

/-- The pooled first layer with four zero rows before and after (259 rows). -/
def p1z (v39 : FVec Ideal S8x254x64 .f32) (v44 : FVec Ideal S8x251x64 .f32) : FVec Ideal S8x259x64 .f32 :=
  concatenate S8x259x64 1 [⟨S8x255x64, concatenate S8x255x64 1 [⟨S8x4x64, broadcast S8x4x64 (Scalar.sitofp (F := Ideal) .f32 0#32)⟩,
    ⟨S8x251x64, maximumf v44 (extractStridedSlice S8x251x64 ![0, 3, 0] v39 slices_S8x254x64_o0_3_0_S8x251x64)⟩] concatenates_S8x4x64_S8x251x64_S8x255x64_d1⟩,
    ⟨S8x4x64, broadcast S8x4x64 (Scalar.sitofp (F := Ideal) .f32 0#32)⟩] concatenates_S8x255x64_S8x4x64_S8x259x64_d1

/-- Eight row-shifted copies side by side. -/
def win2 (v51 : FVec Ideal S8x259x64 .f32) : FVec Ideal S8x252x512 .f32 :=
  concatenate S8x252x512 2 [⟨S8x252x64, extractStridedSlice S8x252x64 ![0, 0, 0] v51 slices_S8x259x64_o0_0_0_S8x252x64⟩,
    ⟨S8x252x64, extractStridedSlice S8x252x64 ![0, 1, 0] v51 slices_S8x259x64_o0_1_0_S8x252x64⟩,
    ⟨S8x252x64, extractStridedSlice S8x252x64 ![0, 2, 0] v51 slices_S8x259x64_o0_2_0_S8x252x64⟩,
    ⟨S8x252x64, extractStridedSlice S8x252x64 ![0, 3, 0] v51 slices_S8x259x64_o0_3_0_S8x252x64⟩,
    ⟨S8x252x64, extractStridedSlice S8x252x64 ![0, 4, 0] v51 slices_S8x259x64_o0_4_0_S8x252x64⟩,
    ⟨S8x252x64, extractStridedSlice S8x252x64 ![0, 5, 0] v51 slices_S8x259x64_o0_5_0_S8x252x64⟩,
    ⟨S8x252x64, extractStridedSlice S8x252x64 ![0, 6, 0] v51 slices_S8x259x64_o0_6_0_S8x252x64⟩,
    ⟨S8x252x64, extractStridedSlice S8x252x64 ![0, 7, 0] v51 slices_S8x259x64_o0_7_0_S8x252x64⟩]
    concatenates_S8x252x64_S8x252x64_S8x252x64_S8x252x64_S8x252x64_S8x252x64_S8x252x64_S8x252x64_S8x252x512_d2

/-- Four zero rows appended and the batch and row axes merged. -/
def lhs2 (v60 : FVec Ideal S8x252x512 .f32) : FVec Ideal S2048x512 .f32 :=
  shapeCast S2048x512 (concatenate S8x256x512 1 [⟨S8x252x512, v60⟩, ⟨S8x4x512, broadcast S8x4x512 (Scalar.sitofp (F := Ideal) .f32 0#32)⟩]
    concatenates_S8x252x512_S8x4x512_S8x256x512_d1) shapeCasts_S8x256x512_S2048x512

/-- The matrix product plus the shift row. -/
def pre2 (v64 : FVec Ideal S2048x512 .f32) (v65 : Vec Ideal S512x128 .f32) (v68 : Vec Ideal S1x128 .f32) : FVec Ideal S2048x128 .f32 :=
  addf (matmul dot_S2048x512_S512x128_S2048x128_1_0_0_1_n_n none v64 (shapeCast S512x128 v65 shapeCasts_S512x128_S512x128 : FVec Ideal S512x128 .f32)
      (constant (F := Ideal) S2048x128 .f32 0x00000000#32))
    (broadcastTo S2048x128 (shapeCast S1x128 v68 shapeCasts_S1x128_S1x128 : FVec Ideal S1x128 .f32) broadcasts_S1x128_S2048x128)

/-- The activation, as the program spells it. -/
def act2 (v71 : FVec Ideal S2048x128 .f32) : FVec Ideal S2048x128 .f32 :=
  mulf (mulf (broadcast S2048x128 (Scalar.ofBits (F := Ideal) .f32 0x3F000000#32)) v71)
    (addf (broadcast S2048x128 (Scalar.ofBits (F := Ideal) .f32 0x3F800000#32))
      (tanh (mulf (broadcast S2048x128 (Scalar.ofBits (F := Ideal) .f32 0x3F4C422A#32))
        (addf v71 (mulf (mulf (mulf (broadcast S2048x128 (Scalar.ofBits (F := Ideal) .f32 0x3D372713#32)) v71) v71) v71)))))

/-- The rows split again, rows 0 … 251 kept, four zero rows before and after. -/
def tail2 (v84 : FVec Ideal S2048x128 .f32) : FVec Ideal S8x260x128 .f32 :=
  concatenate S8x260x128 1 [⟨S8x256x128, concatenate S8x256x128 1 [⟨S8x4x128, broadcast S8x4x128 (Scalar.sitofp (F := Ideal) .f32 0#32)⟩,
    ⟨S8x252x128, extractStridedSlice S8x252x128 ![0, 0, 0] (shapeCast S8x256x128 v84 shapeCasts_S2048x128_S8x256x128) slices_S8x256x128_o0_0_0_S8x252x128⟩]
      concatenates_S8x4x128_S8x252x128_S8x256x128_d1⟩,
    ⟨S8x4x128, broadcast S8x4x128 (Scalar.sitofp (F := Ideal) .f32 0#32)⟩] concatenates_S8x256x128_S8x4x128_S8x260x128_d1

theorem pay4_eq (v39 : FVec Ideal S8x254x64 .f32) (v44 : FVec Ideal S8x251x64 .f32) (v65 : Vec Ideal S512x128 .f32) (v68 : Vec Ideal S1x128 .f32) :
    k0_pay4 (F := Ideal) v39 v44 v65 v68 = tail2 (act2 (pre2 (lhs2 (win2 (p1z v39 v44))) v65 v68)) := rfl

/-! ## Two pieces joined along the middle axis of a rank-3 array, read at an index -/

section Cat
variable {α : Type}

/-- Below the first piece's extent the join reads the first piece. -/
theorem cat3_axis1_left {n0 n2 m1 m2 m : ℕ} (x₁ : (⟨3, ![n0, m1, n2]⟩ : Shape).Idx → α) (x₂ : (⟨3, ![n0, m2, n2]⟩ : Shape).Idx → α)
    (h : Shape.Concatenates [(⟨3, ![n0, m1, n2]⟩ : Shape), ⟨3, ![n0, m2, n2]⟩] ⟨3, ![n0, m, n2]⟩ 1)
    (a : Fin n0) (j : Fin m) (e : Fin n2) (k : Fin m1) (hk : k.val = j.val) :
    concatenate ⟨3, ![n0, m, n2]⟩ 1 [⟨⟨3, ![n0, m1, n2]⟩, x₁⟩, ⟨⟨3, ![n0, m2, n2]⟩, x₂⟩] h (ix3 a j e) = x₁ (ix3 a k e) :=
  concatenate_pair_apply_left 1 x₁ x₂ h _ rfl _ (fun b => by
    match b with
    | ⟨0, _⟩ => rfl
    | ⟨1, _⟩ => exact hk
    | ⟨2, _⟩ => rfl)

/-- From the first piece's extent on it reads the second piece, that extent less. -/
theorem cat3_axis1_right {n0 n2 m1 m2 m : ℕ} (x₁ : (⟨3, ![n0, m1, n2]⟩ : Shape).Idx → α) (x₂ : (⟨3, ![n0, m2, n2]⟩ : Shape).Idx → α)
    (h : Shape.Concatenates [(⟨3, ![n0, m1, n2]⟩ : Shape), ⟨3, ![n0, m2, n2]⟩] ⟨3, ![n0, m, n2]⟩ 1)
    (a : Fin n0) (j : Fin m) (e : Fin n2) (k : Fin m2) (hk : k.val + m1 = j.val) :
    concatenate ⟨3, ![n0, m, n2]⟩ 1 [⟨⟨3, ![n0, m1, n2]⟩, x₁⟩, ⟨⟨3, ![n0, m2, n2]⟩, x₂⟩] h (ix3 a j e) = x₂ (ix3 a k e) :=
  concatenate_pair_apply_right 1 x₁ x₂ h _ rfl rfl _
    (fun b hb => by
      match b with
      | ⟨0, _⟩ => rfl
      | ⟨1, _⟩ => exact absurd rfl hb
      | ⟨2, _⟩ => rfl)
    hk

end Cat

/-- The integer zero converted is the real zero. -/
theorem sitofp_zero : Scalar.sitofp (F := Ideal) .f32 0#32 = (0 : EReal) := by
  rw [Ideal.scalar_sitofp_def]; simp

/-- The padded pooled layer at a row: zero on the four rows before and after, the pair-maxima's maximum between. -/
theorem p1z_apply (v39 : FVec Ideal S8x254x64 .f32) (v44 : FVec Ideal S8x251x64 .f32) (bb : Fin 8) (j : Fin 259) (c : Fin 64) :
    p1z v39 v44 (ix3 bb j c) =
      if h : 4 ≤ j.val ∧ j.val < 4 + 251 then
        max (v44 (ix3 bb ⟨j.val - 4, by omega⟩ c)) (v39 (ix3 bb ⟨j.val - 4 + 3, by omega⟩ c))
      else 0 := by
  unfold p1z
  by_cases h2 : j.val < 255
  · rw [cat3_axis1_left _ _ _ bb j c ⟨j.val, h2⟩ rfl]
    by_cases h1 : j.val < 4
    · rw [cat3_axis1_left _ _ _ bb ⟨j.val, h2⟩ c ⟨j.val, h1⟩ rfl, dif_neg (by omega), broadcast_apply, sitofp_zero]
    · rw [cat3_axis1_right _ _ _ bb ⟨j.val, h2⟩ c ⟨j.val - 4, by omega⟩ (by show j.val - 4 + 4 = j.val; omega), dif_pos (by omega),
        maximumf_apply, slice3_axis1_apply 3 _ _ bb ⟨j.val - 4, by omega⟩ c ⟨j.val - 4 + 3, by omega⟩ (by show j.val - 4 + 3 = 3 + (j.val - 4); omega)]
  · rw [cat3_axis1_right _ _ _ bb j c ⟨j.val - 255, by omega⟩ (by show j.val - 255 + 255 = j.val; omega), dif_neg (by omega), broadcast_apply, sitofp_zero]

-- Piece K of the eight: columns K·64 … K·64 + 63 read the copy shifted down by K rows.
set_option hygiene false in
local macro "win_case " K:num : tactic => `(tactic| (
  refine (concatenate_apply_piece 2 _ _ (ix3 bb l q) $K (by simp) S8x252x64 _ rfl rfl ($K * 64) rfl
    (ix3 bb l (⟨q.val % 64, Nat.mod_lt _ (by decide)⟩ : Fin 64))
    (fun b hb => by
      match b with
      | ⟨0, _⟩ => rfl
      | ⟨1, _⟩ => rfl
      | ⟨2, _⟩ => exact absurd rfl hb)
    (by show $K * 64 + q.val % 64 = q.val; omega)).trans ?_
  exact slice3_axis1_apply $K _ _ bb l _ _ (by show l.val + q.val / 64 = $K + l.val; omega)))

/-- Column k·64 + ci of the window matrix at row l is channel ci of row l + k. -/
theorem win2_apply (v51 : FVec Ideal S8x259x64 .f32) (bb : Fin 8) (l : Fin 252) (q : Fin 512) :
    win2 v51 (ix3 bb l q) = v51 (ix3 bb ⟨l.val + q.val / 64, by omega⟩ ⟨q.val % 64, Nat.mod_lt _ (by decide)⟩) := by
  have hq := q.isLt
  unfold win2
  rcases (show q.val / 64 = 0 ∨ q.val / 64 = 1 ∨ q.val / 64 = 2 ∨ q.val / 64 = 3 ∨ q.val / 64 = 4 ∨ q.val / 64 = 5 ∨
      q.val / 64 = 6 ∨ q.val / 64 = 7 by omega) with h | h | h | h | h | h | h | h
  · win_case 0
  · win_case 1
  · win_case 2
  · win_case 3
  · win_case 4
  · win_case 5
  · win_case 6
  · win_case 7

/-- Row bb·256 + l of the merged window matrix is row l of batch bb, for the 252 rows that are not padding. -/
theorem lhs2_apply (v60 : FVec Ideal S8x252x512 .f32) (bb : Fin 8) (l : Fin 252) (q : Fin 512) :
    lhs2 v60 (ix2 (⟨bb.val * 256 + l.val, by omega⟩ : Fin 2048) q) = v60 (ix3 bb l q) := by
  unfold lhs2
  refine (shapeCast_apply _ _ (ix2 (⟨bb.val * 256 + l.val, by omega⟩ : Fin 2048) q) (ix3 bb (⟨l.val, by omega⟩ : Fin 256) q) (by
    rw [Shape.rowMajor_val_three, Shape.rowMajor_val_two]
    show (bb.val * 256 + l.val) * 512 + q.val = (bb.val * 256 + l.val) * 512 + q.val
    rfl)).trans ?_
  exact cat3_axis1_left _ _ _ bb ⟨l.val, by omega⟩ q l rfl

/-- The product with the weight matrix into the zero accumulator, at an entry: the sum over the 512 columns. -/
theorem mm2_apply (A : FVec Ideal S2048x512 .f32) (W : FVec Ideal S512x128 .f32) (r : Fin 2048) (co : Fin 128) :
    matmul dot_S2048x512_S512x128_S2048x128_1_0_0_1_n_n none A W (constant (F := Ideal) S2048x128 .f32 0x00000000#32) (ix2 r co) =
      ∑ q : Fin 512, A (ix2 r q) * W (ix2 q co) := by
  show FloatOps.matmul dot_S2048x512_S512x128_S2048x128_1_0_0_1_n_n none A W (constant (F := Ideal) S2048x128 .f32 0x00000000#32) (ix2 r co) = _
  rw [Ideal.matmul_constant_zero_apply, ← Equiv.sum_comp (contrEquiv1 dot_S2048x512_S512x128_S2048x128_1_0_0_1_n_n 512 rfl rfl).symm]
  refine Finset.sum_congr rfl fun q _ => ?_
  have c2 := contrEquiv1_symm_val dot_S2048x512_S512x128_S2048x128_1_0_0_1_n_n 512 rfl rfl q
  have l2 : dot_S2048x512_S512x128_S2048x128_1_0_0_1_n_n.lhsIdx (ix2 r co) ((contrEquiv1 _ 512 rfl rfl).symm q) = ix2 r q := by
    funext ax; apply Fin.ext
    match ax with
    | ⟨0, _⟩ => simp [DotDims.lhsIdx, dot_S2048x512_S512x128_S2048x128_1_0_0_1_n_n]; rfl
    | ⟨1, _⟩ => simp [DotDims.lhsIdx, dot_S2048x512_S512x128_S2048x128_1_0_0_1_n_n]; exact c2
  have r2 : dot_S2048x512_S512x128_S2048x128_1_0_0_1_n_n.rhsIdx (ix2 r co) ((contrEquiv1 _ 512 rfl rfl).symm q) = ix2 q co := by
    funext ax; apply Fin.ext
    match ax with
    | ⟨0, _⟩ => simp [DotDims.rhsIdx, dot_S2048x512_S512x128_S2048x128_1_0_0_1_n_n]; exact c2
    | ⟨1, _⟩ => simp [DotDims.rhsIdx, dot_S2048x512_S512x128_S2048x128_1_0_0_1_n_n]; rfl
  rw [l2, r2]

/-- The pre-activation at an entry. -/
theorem pre2_apply (v64 : FVec Ideal S2048x512 .f32) (v65 : Vec Ideal S512x128 .f32) (v68 : Vec Ideal S1x128 .f32) (r : Fin 2048) (co : Fin 128) :
    pre2 v64 v65 v68 (ix2 r co) = (∑ q : Fin 512, v64 (ix2 r q) * v65 (ix2 q co)) + v68 (ix2 (0 : Fin 1) co) := by
  unfold pre2
  rw [addf_apply, shapeCast_self, shapeCast_self, broadcastTo_1b_ab_apply, mm2_apply]

/-- The program's activation chain is the tanh-GELU of the network. -/
theorem act2_apply (v71 : FVec Ideal S2048x128 .f32) (i : S2048x128.Idx) : act2 v71 i = gelu (v71 i) := rfl

/-- The stored array at a row: zero on the four rows before and after, the activation's rows 0 … 251 of the batch between. -/
theorem tail2_apply (v84 : FVec Ideal S2048x128 .f32) (bb : Fin 8) (j : Fin 260) (co : Fin 128) :
    tail2 v84 (ix3 bb j co) =
      if h : 4 ≤ j.val ∧ j.val < 4 + 252 then v84 (ix2 (⟨bb.val * 256 + (j.val - 4), by omega⟩ : Fin 2048) co) else 0 := by
  unfold tail2
  by_cases h2 : j.val < 256
  · rw [cat3_axis1_left _ _ _ bb j co ⟨j.val, h2⟩ rfl]
    by_cases h1 : j.val < 4
    · rw [cat3_axis1_left _ _ _ bb ⟨j.val, h2⟩ co ⟨j.val, h1⟩ rfl, dif_neg (by omega), broadcast_apply, sitofp_zero]
    · rw [cat3_axis1_right _ _ _ bb ⟨j.val, h2⟩ co ⟨j.val - 4, by omega⟩ (by show j.val - 4 + 4 = j.val; omega), dif_pos (by omega),
        slice3_axis1_apply 0 _ _ bb ⟨j.val - 4, by omega⟩ co ⟨j.val - 4, by omega⟩ (by show j.val - 4 = 0 + (j.val - 4); omega)]
      exact shapeCast_apply _ _ (ix3 bb (⟨j.val - 4, by omega⟩ : Fin 256) co) (ix2 (⟨bb.val * 256 + (j.val - 4), by omega⟩ : Fin 2048) co) (by
        rw [Shape.rowMajor_val_three, Shape.rowMajor_val_two]
        show (bb.val * 256 + (j.val - 4)) * 128 + co.val = (bb.val * 256 + (j.val - 4)) * 128 + co.val
        rfl)
  · rw [cat3_axis1_right _ _ _ bb j co ⟨j.val - 256, by omega⟩ (by show j.val - 256 + 256 = j.val; omega), dif_neg (by omega), broadcast_apply, sitofp_zero]

end Pay4

/-! ## The statements -/

open Pay4

/-- The running maximum over three pairs and the fourth pair make the pooled first layer. -/
theorem p1_of_mp (P : Params) (B : ℕ) (v39 : FVec Ideal S8x254x64 .f32) (v44 : FVec Ideal S8x251x64 .f32)
    (h39 : KIface.IsMP P B v39) (h44 : KIface.IsV44 P B v44) (bb : Fin 8) (l : Fin 251) (c : Fin 64) :
    max (v44 (ix3 bb l c)) (v39 (ix3 bb ⟨l.val + 3, by omega⟩ c)) = P1 P (B + bb.val) l.val c.val := by
  rw [h44 bb l c, h39 bb ⟨l.val + 3, by omega⟩ c, P1_eq_mp]

/-- The padded pooled layer is the pooled first layer zero-padded by four. -/
theorem Pay4.p1z_spec (P : Params) (B : ℕ) (v39 : FVec Ideal S8x254x64 .f32) (v44 : FVec Ideal S8x251x64 .f32)
    (h39 : KIface.IsMP P B v39) (h44 : KIface.IsV44 P B v44) (bb : Fin 8) (j : Fin 259) (c : Fin 64) :
    p1z v39 v44 (ix3 bb j c) = zpad 4 251 (fun l => P1 P (B + bb.val) l c.val) j.val := by
  rw [p1z_apply]
  unfold zpad
  by_cases h : 4 ≤ j.val ∧ j.val < 4 + 251
  · rw [dif_pos h, if_pos h]
    exact p1_of_mp P B v39 v44 h39 h44 bb ⟨j.val - 4, by omega⟩ c
  · rw [dif_neg h, if_neg h]

/-- The second payload is layer 2 of branch 1, zero-padded by four on each side. -/
theorem pay4_spec (P : Params) (B : ℕ) (hP : P.Real) (v39 : FVec Ideal S8x254x64 .f32) (v44 : FVec Ideal S8x251x64 .f32)
    (x4 : Vec Ideal S512x128 .f32) (x5 : Vec Ideal S1x128 .f32)
    (h39 : KIface.IsMP P B v39) (h44 : KIface.IsV44 P B v44)
    (hx4 : ∀ (j : Fin 512) (co : Fin 128), x4 (ix2 j co) = P.w2 co.val (j.val % 64) (j.val / 64) * s2 P co.val)
    (hx5 : ∀ co : Fin 128, x5 (ix2 0 co) = t2 P co.val) :
    KIface.IsH2Z P B (k0_pay4 (F := Ideal) v39 v44 x4 x5) := by
  intro bb j co
  rw [pay4_eq, tail2_apply]
  unfold zpad
  by_cases h : 4 ≤ j.val ∧ j.val < 4 + 252
  · rw [dif_pos h, if_pos h, act2_apply, pre2_apply, hx5 co]
    unfold H2
    refine congrArg gelu (congrArg (· + t2 P co.val) ?_)
    have hterm : ∀ q : Fin 512,
        lhs2 (win2 (p1z v39 v44)) (ix2 (⟨bb.val * 256 + (j.val - 4), by omega⟩ : Fin 2048) q) * x4 (ix2 q co) =
          (fun n : ℕ => zpad 4 251 (fun j' => P1 P (B + bb.val) j' (n % 64)) (j.val - 4 + n / 64) *
            (P.w2 co.val (n % 64) (n / 64) * s2 P co.val)) q.val := by
      intro q
      rw [lhs2_apply _ bb ⟨j.val - 4, by omega⟩ q, win2_apply, p1z_spec P B v39 v44 h39 h44, hx4 q co]
    rw [Finset.sum_congr rfl fun q _ => hterm q, Fin.sum_univ_eq_sum_range (fun n : ℕ => zpad 4 251 (fun j' => P1 P (B + bb.val) j' (n % 64)) (j.val - 4 + n / 64) *
            (P.w2 co.val (n % 64) (n / 64) * s2 P co.val)) 512]
    exact conv_fold 8 64 (by decide) (fun k ci => zpad 4 251 (fun j' => P1 P (B + bb.val) j' ci) (j.val - 4 + k)) (fun ci k => P.w2 co.val ci k)
      (s2 P co.val) (fun k ci _ _ => isReal_zpad _ _ _ (fun i => isReal_P1 hP _ i ci) _) (fun k ci _ _ => hP.w2 _ _ _) (isReal_s2 hP _)
  · rw [dif_neg h, if_neg h]

/-- Its first 253 rows. -/
theorem pay5_spec (P : Params) (B : ℕ) (hP : P.Real) (v39 : FVec Ideal S8x254x64 .f32) (v44 : FVec Ideal S8x251x64 .f32)
    (x4 : Vec Ideal S512x128 .f32) (x5 : Vec Ideal S1x128 .f32)
    (h39 : KIface.IsMP P B v39) (h44 : KIface.IsV44 P B v44)
    (hx4 : ∀ (j : Fin 512) (co : Fin 128), x4 (ix2 j co) = P.w2 co.val (j.val % 64) (j.val / 64) * s2 P co.val)
    (hx5 : ∀ co : Fin 128, x5 (ix2 0 co) = t2 P co.val) :
    KIface.IsV92 P B (k0_pay5 (F := Ideal) v39 v44 x4 x5) := by
  intro bb l co
  unfold k0_pay5
  rw [slice3_axis1_apply 0 _ _ bb l co ⟨l.val, by omega⟩ (by simp)]
  exact pay4_spec P B hP v39 v44 x4 x5 h39 h44 hx4 hx5 bb ⟨l.val, by omega⟩ co

end Cert.KernelIdeal.KBody
end
-- ==== Proof.KPay6.lean ====
/-
  Branch 1's third convolution, its activation and the last max pooling, as the kernel's body computes them:
  the body's value `k0_pay6` is the network's `X1`.

  The body lays eight row-shifted copies of the zero-padded second layer side by side (column k·128 + ci), so that
  row bb·256 + l of the resulting matrix is the convolution window at position l; one matrix product with the
  scaled taps, the shift row and the tanh-GELU give the third layer at the rows l < 253. These rows, padded with
  the most negative finite number by two in front and one behind, are read four at a time and joined by max.
-/
import proofs.«125144_g2000006933354569_pallasbulk_1054_1_alg».proof.Proof.Gen.KernelIdeal.Skeleton
import proofs.«125144_g2000006933354569_pallasbulk_1054_1_alg».proof.Proof.KIface
import proofs.«125144_g2000006933354569_pallasbulk_1054_1_alg».proof.Proof.SpecReal2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen Cert.Spec Idealize.ShloMosaic Idealize.ShloMosaic.ValueIdx

/-! ## The body's value in four stages -/

/-- The window matrix: eight row-shifted copies of the padded second layer side by side, three zero rows
    appended to each sample's 253, the samples' rows one after another. -/
def p6Win (v91 : FVec Ideal S8x260x128 .f32) (v92 : FVec Ideal S8x253x128 .f32) : FVec Ideal S2048x1024 .f32 :=
  have v93 : FVec Ideal S8x253x128 .f32 := extractStridedSlice S8x253x128 ![0, 1, 0] v91 slices_S8x260x128_o0_1_0_S8x253x128
  have v94 : FVec Ideal S8x253x128 .f32 := extractStridedSlice S8x253x128 ![0, 2, 0] v91 slices_S8x260x128_o0_2_0_S8x253x128
  have v95 : FVec Ideal S8x253x128 .f32 := extractStridedSlice S8x253x128 ![0, 3, 0] v91 slices_S8x260x128_o0_3_0_S8x253x128
  have v96 : FVec Ideal S8x253x128 .f32 := extractStridedSlice S8x253x128 ![0, 4, 0] v91 slices_S8x260x128_o0_4_0_S8x253x128
  have v97 : FVec Ideal S8x253x128 .f32 := extractStridedSlice S8x253x128 ![0, 5, 0] v91 slices_S8x260x128_o0_5_0_S8x253x128
  have v98 : FVec Ideal S8x253x128 .f32 := extractStridedSlice S8x253x128 ![0, 6, 0] v91 slices_S8x260x128_o0_6_0_S8x253x128
  have v99 : FVec Ideal S8x253x128 .f32 := extractStridedSlice S8x253x128 ![0, 7, 0] v91 slices_S8x260x128_o0_7_0_S8x253x128
  have v100 : FVec Ideal S8x253x1024 .f32 := concatenate S8x253x1024 2 [⟨S8x253x128, v92⟩, ⟨S8x253x128, v93⟩, ⟨S8x253x128, v94⟩, ⟨S8x253x128, v95⟩, ⟨S8x253x128, v96⟩, ⟨S8x253x128, v97⟩, ⟨S8x253x128, v98⟩, ⟨S8x253x128, v99⟩] concatenates_S8x253x128_S8x253x128_S8x253x128_S8x253x128_S8x253x128_S8x253x128_S8x253x128_S8x253x128_S8x253x1024_d2
  have v101 : Ideal .f32 := Scalar.sitofp .f32 0#32
  have v102 : FVec Ideal S8x3x1024 .f32 := broadcast S8x3x1024 v101
  have v103 : FVec Ideal S8x256x1024 .f32 := concatenate S8x256x1024 1 [⟨S8x253x1024, v100⟩, ⟨S8x3x1024, v102⟩] concatenates_S8x253x1024_S8x3x1024_S8x256x1024_d1
  have v104 : FVec Ideal S2048x1024 .f32 := shapeCast S2048x1024 v103 shapeCasts_S8x256x1024_S2048x1024
  v104

/-- The pre-activation: the window matrix times the scaled taps, plus the shift row. -/
def p6Pre (v104 : FVec Ideal S2048x1024 .f32) (v105 : Vec Ideal S1024x128 .f32) (v108 : Vec Ideal S1x128 .f32) : FVec Ideal S2048x128 .f32 :=
  have v106 : FVec Ideal S1024x128 .f32 := shapeCast S1024x128 v105 shapeCasts_S1024x128_S1024x128
  have cst_26 : FVec Ideal S2048x128 .f32 := constant S2048x128 .f32 0x00000000#32
  have v107 : FVec Ideal S2048x128 .f32 := matmul dot_S2048x1024_S1024x128_S2048x128_1_0_0_1_n_n none v104 v106 cst_26
  have v109 : FVec Ideal S1x128 .f32 := shapeCast S1x128 v108 shapeCasts_S1x128_S1x128
  have v110 : FVec Ideal S2048x128 .f32 := broadcastTo S2048x128 v109 broadcasts_S1x128_S2048x128
  have v111 : FVec Ideal S2048x128 .f32 := addf v107 v110
  v111

/-- The tanh-GELU, pointwise. -/
def p6Act (v111 : FVec Ideal S2048x128 .f32) : FVec Ideal S2048x128 .f32 :=
  have cst_29 : Ideal .f32 := Scalar.ofBits .f32 0x3F000000#32
  have v112 : FVec Ideal S2048x128 .f32 := broadcast S2048x128 cst_29
  have v113 : FVec Ideal S2048x128 .f32 := mulf v112 v111
  have cst_30 : Ideal .f32 := Scalar.ofBits .f32 0x3D372713#32
  have v114 : FVec Ideal S2048x128 .f32 := broadcast S2048x128 cst_30
  have v115 : FVec Ideal S2048x128 .f32 := mulf v114 v111
  have v116 : FVec Ideal S2048x128 .f32 := mulf v115 v111
  have v117 : FVec Ideal S2048x128 .f32 := mulf v116 v111
  have v118 : FVec Ideal S2048x128 .f32 := addf v111 v117
  have cst_31 : Ideal .f32 := Scalar.ofBits .f32 0x3F4C422A#32
  have v119 : FVec Ideal S2048x128 .f32 := broadcast S2048x128 cst_31
  have v120 : FVec Ideal S2048x128 .f32 := mulf v119 v118
  have v121 : FVec Ideal S2048x128 .f32 := tanh v120
  have cst_32 : Ideal .f32 := Scalar.ofBits .f32 0x3F800000#32
  have v122 : FVec Ideal S2048x128 .f32 := broadcast S2048x128 cst_32
  have v123 : FVec Ideal S2048x128 .f32 := addf v122 v121
  have v124 : FVec Ideal S2048x128 .f32 := mulf v113 v123
  v124

/-- The pooling: rows 0 … 252 of each sample, padded to 256 rows, joined four at a time by max. -/
def p6Pool (v124 : FVec Ideal S2048x128 .f32) : FVec Ideal S8x64x128 .f32 :=
  have v125 : FVec Ideal S8x256x128 .f32 := shapeCast S8x256x128 v124 shapeCasts_S2048x128_S8x256x128
  have v126 : FVec Ideal S8x253x128 .f32 := extractStridedSlice S8x253x128 ![0, 0, 0] v125 slices_S8x256x128_o0_0_0_S8x253x128
  have cst_33 : Ideal .f32 := Scalar.ofBits .f32 0xFF7FFFFF#32
  have v127 : FVec Ideal S8x2x128 .f32 := broadcast S8x2x128 cst_33
  have v128 : FVec Ideal S8x255x128 .f32 := concatenate S8x255x128 1 [⟨S8x2x128, v127⟩, ⟨S8x253x128, v126⟩] concatenates_S8x2x128_S8x253x128_S8x255x128_d1
  have v129 : FVec Ideal S8x1x128 .f32 := broadcast S8x1x128 cst_33
  have v130 : FVec Ideal S8x256x128 .f32 := concatenate S8x256x128 1 [⟨S8x255x128, v128⟩, ⟨S8x1x128, v129⟩] concatenates_S8x255x128_S8x1x128_S8x256x128_d1
  have v131 : FVec Ideal S8x64x4x128 .f32 := shapeCast S8x64x4x128 v130 shapeCasts_S8x256x128_S8x64x4x128
  have v132 : FVec Ideal S8x64x128 .f32 := multiReduction .maximumf [2] S8x64x128 v131 0xFF800000#32 reduces_S8x64x4x128_S8x64x128 (.inl rfl) rfl
  v132

theorem pay6_eq (v91 : FVec Ideal S8x260x128 .f32) (v92 : FVec Ideal S8x253x128 .f32) (v105 : Vec Ideal S1024x128 .f32) (v108 : Vec Ideal S1x128 .f32) :
    k0_pay6 (F := Ideal) v91 v92 v105 v108 = p6Pool (p6Act (p6Pre (p6Win v91 v92) v105 v108)) := rfl

/-! ## The activation -/

/-- The body's eleven pointwise operations are the tanh-GELU of the pre-activation. -/
theorem p6Act_apply (y : FVec Ideal S2048x128 .f32) (i : S2048x128.Idx) : p6Act y i = gelu (y i) := by
  unfold p6Act gelu cHalf cCube cSqrt cOne
  rfl

/-! ## The matrix product and the shift row -/

/-- The one matrix product's dimension numbers: rows by columns, one contracted axis of extent 1024. -/
abbrev p6D : DotDims S2048x1024 S1024x128 S2048x128 := dot_S2048x1024_S1024x128_S2048x128_1_0_0_1_n_n

theorem p6D_lhs (r : Fin 2048) (co : Fin 128) (i : Fin 1024) :
    p6D.lhsIdx (ix2 r co) ((contrEquiv1 p6D 1024 rfl rfl).symm i) = ix2 r i := by
  funext a
  match a with
  | ⟨0, _⟩ => apply Fin.ext; simp [DotDims.lhsIdx, p6D, dot_S2048x1024_S1024x128_S2048x128_1_0_0_1_n_n]; rfl
  | ⟨1, _⟩ =>
    apply Fin.ext
    rw [show (⟨1, by decide⟩ : Fin S2048x1024.rank) = (1 : Fin 2) from rfl, p6D.lhsIdx_val_of_single (cl := 1) rfl]
    exact contrEquiv1_symm_val p6D 1024 rfl rfl i

theorem p6D_rhs (r : Fin 2048) (co : Fin 128) (i : Fin 1024) :
    p6D.rhsIdx (ix2 r co) ((contrEquiv1 p6D 1024 rfl rfl).symm i) = ix2 i co := by
  funext a
  match a with
  | ⟨1, _⟩ => apply Fin.ext; simp [DotDims.rhsIdx, p6D, dot_S2048x1024_S1024x128_S2048x128_1_0_0_1_n_n]; rfl
  | ⟨0, _⟩ =>
    apply Fin.ext
    rw [show (⟨0, by decide⟩ : Fin S1024x128.rank) = (0 : Fin 2) from rfl, p6D.rhsIdx_val_of_single (cr := 0) rfl]
    exact contrEquiv1_symm_val p6D 1024 rfl rfl i

/-- The pre-activation at row r, channel co: the row of the window matrix against the column of taps, plus the shift. -/
theorem p6Pre_apply (w : FVec Ideal S2048x1024 .f32) (x6 : Vec Ideal S1024x128 .f32) (x7 : Vec Ideal S1x128 .f32)
    (r : Fin 2048) (co : Fin 128) :
    p6Pre w x6 x7 (ix2 r co) = (∑ j : Fin 1024, w (ix2 r j) * x6 (ix2 j co)) + x7 (ix2 (0 : Fin 1) co) := by
  unfold p6Pre
  simp only [addf_apply, shapeCast_self]
  rw [broadcastTo_1b_ab_apply]
  congr 1
  refine (Ideal.matmul_constant_zero_apply p6D none w x6 (ix2 r co)).trans ?_
  rw [← Equiv.sum_comp (contrEquiv1 p6D 1024 rfl rfl).symm]
  refine Finset.sum_congr rfl fun i _ => ?_
  rw [p6D_lhs, p6D_rhs]

/-! ## The window matrix -/

variable (P : Params) (B : ℕ)

/-- The eight row-shifted copies side by side: column j of row l is channel j % 128 of the padded second layer at
    row l + j / 128. -/
theorem p6_cat8_apply (v91 : FVec Ideal S8x260x128 .f32) (v92 : FVec Ideal S8x253x128 .f32)
    (h91 : KIface.IsH2Z P B v91) (h92 : KIface.IsV92 P B v92) (bb : Fin 8) (l : Fin 253) (j : Fin 1024) :
    concatenate S8x253x1024 2 [⟨S8x253x128, v92⟩, ⟨S8x253x128, extractStridedSlice S8x253x128 ![0, 1, 0] v91 slices_S8x260x128_o0_1_0_S8x253x128⟩, ⟨S8x253x128, extractStridedSlice S8x253x128 ![0, 2, 0] v91 slices_S8x260x128_o0_2_0_S8x253x128⟩, ⟨S8x253x128, extractStridedSlice S8x253x128 ![0, 3, 0] v91 slices_S8x260x128_o0_3_0_S8x253x128⟩, ⟨S8x253x128, extractStridedSlice S8x253x128 ![0, 4, 0] v91 slices_S8x260x128_o0_4_0_S8x253x128⟩, ⟨S8x253x128, extractStridedSlice S8x253x128 ![0, 5, 0] v91 slices_S8x260x128_o0_5_0_S8x253x128⟩, ⟨S8x253x128, extractStridedSlice S8x253x128 ![0, 6, 0] v91 slices_S8x260x128_o0_6_0_S8x253x128⟩, ⟨S8x253x128, extractStridedSlice S8x253x128 ![0, 7, 0] v91 slices_S8x260x128_o0_7_0_S8x253x128⟩]
        concatenates_S8x253x128_S8x253x128_S8x253x128_S8x253x128_S8x253x128_S8x253x128_S8x253x128_S8x253x128_S8x253x1024_d2 (ix3 bb l j)
      = zpad 4 252 (fun l' => H2 P (B + bb.val) l' (j.val % 128)) (l.val + j.val / 128) := by
  have hj := j.isLt
  have hl := l.isLt
  have hk8 : j.val / 128 < 8 := by omega
  obtain ⟨k, hk⟩ : ∃ k, j.val / 128 = k := ⟨_, rfl⟩
  rw [hk]
  rw [hk] at hk8
  interval_cases k
  · -- tap 0
    refine (concatenate_apply_piece (2 : Fin 3) _ _ (ix3 bb l j) 0 (by simp) S8x253x128 _ rfl rfl 0 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 0 + j.val % 128 = j.val
      omega
    · rw [h92 bb l ⟨j.val % 128, Nat.mod_lt _ (by norm_num)⟩, Nat.add_zero]
  · -- tap 1
    refine (concatenate_apply_piece (2 : Fin 3) _ _ (ix3 bb l j) 1 (by simp) S8x253x128 _ rfl rfl 128 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 128 + j.val % 128 = j.val
      omega
    · rw [slice3_axis1_apply 1 v91 _ bb l ⟨j.val % 128, Nat.mod_lt _ (by norm_num)⟩ ⟨l.val + 1, by omega⟩ (Nat.add_comm _ _),
        h91 bb ⟨l.val + 1, by omega⟩ ⟨j.val % 128, Nat.mod_lt _ (by norm_num)⟩]
  · -- tap 2
    refine (concatenate_apply_piece (2 : Fin 3) _ _ (ix3 bb l j) 2 (by simp) S8x253x128 _ rfl rfl 256 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 256 + j.val % 128 = j.val
      omega
    · rw [slice3_axis1_apply 2 v91 _ bb l ⟨j.val % 128, Nat.mod_lt _ (by norm_num)⟩ ⟨l.val + 2, by omega⟩ (Nat.add_comm _ _),
        h91 bb ⟨l.val + 2, by omega⟩ ⟨j.val % 128, Nat.mod_lt _ (by norm_num)⟩]
  · -- tap 3
    refine (concatenate_apply_piece (2 : Fin 3) _ _ (ix3 bb l j) 3 (by simp) S8x253x128 _ rfl rfl 384 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 384 + j.val % 128 = j.val
      omega
    · rw [slice3_axis1_apply 3 v91 _ bb l ⟨j.val % 128, Nat.mod_lt _ (by norm_num)⟩ ⟨l.val + 3, by omega⟩ (Nat.add_comm _ _),
        h91 bb ⟨l.val + 3, by omega⟩ ⟨j.val % 128, Nat.mod_lt _ (by norm_num)⟩]
  · -- tap 4
    refine (concatenate_apply_piece (2 : Fin 3) _ _ (ix3 bb l j) 4 (by simp) S8x253x128 _ rfl rfl 512 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 512 + j.val % 128 = j.val
      omega
    · rw [slice3_axis1_apply 4 v91 _ bb l ⟨j.val % 128, Nat.mod_lt _ (by norm_num)⟩ ⟨l.val + 4, by omega⟩ (Nat.add_comm _ _),
        h91 bb ⟨l.val + 4, by omega⟩ ⟨j.val % 128, Nat.mod_lt _ (by norm_num)⟩]
  · -- tap 5
    refine (concatenate_apply_piece (2 : Fin 3) _ _ (ix3 bb l j) 5 (by simp) S8x253x128 _ rfl rfl 640 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 640 + j.val % 128 = j.val
      omega
    · rw [slice3_axis1_apply 5 v91 _ bb l ⟨j.val % 128, Nat.mod_lt _ (by norm_num)⟩ ⟨l.val + 5, by omega⟩ (Nat.add_comm _ _),
        h91 bb ⟨l.val + 5, by omega⟩ ⟨j.val % 128, Nat.mod_lt _ (by norm_num)⟩]
  · -- tap 6
    refine (concatenate_apply_piece (2 : Fin 3) _ _ (ix3 bb l j) 6 (by simp) S8x253x128 _ rfl rfl 768 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 768 + j.val % 128 = j.val
      omega
    · rw [slice3_axis1_apply 6 v91 _ bb l ⟨j.val % 128, Nat.mod_lt _ (by norm_num)⟩ ⟨l.val + 6, by omega⟩ (Nat.add_comm _ _),
        h91 bb ⟨l.val + 6, by omega⟩ ⟨j.val % 128, Nat.mod_lt _ (by norm_num)⟩]
  · -- tap 7
    refine (concatenate_apply_piece (2 : Fin 3) _ _ (ix3 bb l j) 7 (by simp) S8x253x128 _ rfl rfl 896 (by simp)
      (ix3 bb l ⟨j.val % 128, Nat.mod_lt _ (by norm_num)⟩) ?_ ?_).trans ?_
    · intro b hb
      match b with
      | ⟨0, _⟩ => rfl
      | ⟨1, _⟩ => rfl
      | ⟨2, _⟩ => exact absurd rfl hb
    · show 896 + j.val % 128 = j.val
      omega
    · rw [slice3_axis1_apply 7 v91 _ bb l ⟨j.val % 128, Nat.mod_lt _ (by norm_num)⟩ ⟨l.val + 7, by omega⟩ (Nat.add_comm _ _),
        h91 bb ⟨l.val + 7, by omega⟩ ⟨j.val % 128, Nat.mod_lt _ (by norm_num)⟩]

/-- The window matrix: row bb·256 + l, column j is channel j % 128 of the padded second layer at row l + j / 128
    when l < 253, and zero on the three appended rows. -/
theorem p6Win_apply (v91 : FVec Ideal S8x260x128 .f32) (v92 : FVec Ideal S8x253x128 .f32)
    (h91 : KIface.IsH2Z P B v91) (h92 : KIface.IsV92 P B v92) (bb : Fin 8) (l : Fin 256) (j : Fin 1024)
    (r : Fin 2048) (hr : r.val = bb.val * 256 + l.val) :
    p6Win v91 v92 (ix2 r j)
      = if l.val < 253 then zpad 4 252 (fun l' => H2 P (B + bb.val) l' (j.val % 128)) (l.val + j.val / 128) else 0 := by
  unfold p6Win
  refine (shapeCast_apply _ _ (ix2 r j) (ix3 bb l j) ?_).trans ?_
  · rw [Shape.rowMajor_val_three, Shape.rowMajor_val_two]
    show (bb.val * 256 + l.val) * 1024 + j.val = r.val * 1024 + j.val
    rw [hr]
  by_cases hl : l.val < 253
  · rw [if_pos hl]
    refine (concatenate_pair_apply_left (t := S8x256x1024) (s₁ := S8x253x1024) (s₂ := S8x3x1024) (1 : Fin 3) _ _ _ (ix3 bb l j) rfl
      (ix3 bb (⟨l.val, hl⟩ : Fin 253) j) ?_).trans ?_
    · intro b
      match b with
      | ⟨0, _⟩ => rfl
      | ⟨1, _⟩ => rfl
      | ⟨2, _⟩ => rfl
    · exact p6_cat8_apply P B v91 v92 h91 h92 bb ⟨l.val, hl⟩ j
  · rw [if_neg hl]
    have hl' := l.isLt
    refine (concatenate_pair_apply_right (t := S8x256x1024) (s₁ := S8x253x1024) (s₂ := S8x3x1024) (1 : Fin 3) _ _ _ (ix3 bb l j) rfl rfl
      (ix3 bb (⟨l.val - 253, by omega⟩ : Fin 3) j) ?_ ?_).trans ?_
    · intro b hb
      match b with
      | ⟨0, _⟩ => rfl
      | ⟨1, _⟩ => exact absurd rfl hb
      | ⟨2, _⟩ => rfl
    · show l.val - 253 + 253 = l.val
      omega
    · rw [broadcast_apply, Ideal.scalar_sitofp_def]
      simp

/-! ## The pooling -/

/-- A fold of max from ⊥ over the coordinates 0 … n−1 is the supremum over `range n`. -/
theorem p6_fold_max_bot_eq_sup (n : ℕ) (F : Fin n → EReal) (G : ℕ → EReal) (h : ∀ k : Fin n, F k = G k.val) :
    (Finset.univ : Finset (Fin n)).fold max ⊥ F = (Finset.range n).sup G := by
  refine le_antisymm ?_ ?_
  · refine (Finset.fold_max_le _).2 ⟨bot_le, fun k _ => ?_⟩
    rw [h k]
    exact Finset.le_sup (f := G) (Finset.mem_range.2 k.isLt)
  · refine Finset.sup_le fun j hj => ?_
    refine (Finset.le_fold_max _).2 (Or.inr ⟨⟨j, Finset.mem_range.1 hj⟩, Finset.mem_univ _, ?_⟩)
    rw [h]

theorem p6_ofBits_neg_inf : Ideal.ofBits .f32 0xFF800000#32 = ⊥ := by
  simp [Ideal.ofBits, Ideal.ieee]

/-- The padded rows: row m of a sample's 256 is row m − 2 of the activation when 2 ≤ m < 255, and the most
    negative finite number otherwise. -/
theorem p6_pad_apply (g : FVec Ideal S2048x128 .f32) (f : ℕ → ℕ → ℕ → EReal)
    (hg : ∀ (bb : Fin 8) (l : Fin 253) (c : Fin 128) (r : Fin 2048), r.val = bb.val * 256 + l.val →
      g (ix2 r c) = f bb.val l.val c.val)
    (bb : Fin 8) (m : Fin 256) (c : Fin 128) :
    concatenate S8x256x128 1 [⟨S8x255x128, concatenate S8x255x128 1 [⟨S8x2x128, broadcast S8x2x128 (Scalar.ofBits (F := Ideal) .f32 0xFF7FFFFF#32)⟩,
        ⟨S8x253x128, extractStridedSlice S8x253x128 ![0, 0, 0] (shapeCast S8x256x128 g shapeCasts_S2048x128_S8x256x128) slices_S8x256x128_o0_0_0_S8x253x128⟩]
        concatenates_S8x2x128_S8x253x128_S8x255x128_d1⟩, ⟨S8x1x128, broadcast S8x1x128 (Scalar.ofBits (F := Ideal) .f32 0xFF7FFFFF#32)⟩]
        concatenates_S8x255x128_S8x1x128_S8x256x128_d1 (ix3 bb m c)
      = npad 2 253 (fun j => f bb.val j c.val) m.val := by
  have hm := m.isLt
  unfold npad
  by_cases h255 : m.val < 255
  · refine (concatenate_pair_apply_left (t := S8x256x128) (s₁ := S8x255x128) (s₂ := S8x1x128) (1 : Fin 3) _ _ _ (ix3 bb m c) rfl
      (ix3 bb (⟨m.val, h255⟩ : Fin 255) c) ?_).trans ?_
    · intro b
      match b with
      | ⟨0, _⟩ => rfl
      | ⟨1, _⟩ => rfl
      | ⟨2, _⟩ => rfl
    by_cases h2 : m.val < 2
    · rw [if_neg (by omega)]
      refine (concatenate_pair_apply_left (t := S8x255x128) (s₁ := S8x2x128) (s₂ := S8x253x128) (1 : Fin 3) _ _ _ (ix3 bb (⟨m.val, h255⟩ : Fin 255) c) rfl
        (ix3 bb (⟨m.val, h2⟩ : Fin 2) c) ?_).trans ?_
      · intro b
        match b with
        | ⟨0, _⟩ => rfl
        | ⟨1, _⟩ => rfl
        | ⟨2, _⟩ => rfl
      · rfl
    · rw [if_pos (by omega)]
      refine (concatenate_pair_apply_right (t := S8x255x128) (s₁ := S8x2x128) (s₂ := S8x253x128) (1 : Fin 3) _ _ _ (ix3 bb (⟨m.val, h255⟩ : Fin 255) c) rfl rfl
        (ix3 bb (⟨m.val - 2, by omega⟩ : Fin 253) c) ?_ ?_).trans ?_
      · intro b hb
        match b with
        | ⟨0, _⟩ => rfl
        | ⟨1, _⟩ => exact absurd rfl hb
        | ⟨2, _⟩ => rfl
      · show m.val - 2 + 2 = m.val
        omega
      · rw [slice3_axis1_apply 0 _ _ bb (⟨m.val - 2, by omega⟩ : Fin 253) c (⟨m.val - 2, by omega⟩ : Fin 256) (Nat.zero_add _).symm]
        refine (shapeCast_apply _ _ (ix3 bb (⟨m.val - 2, by omega⟩ : Fin 256) c)
          (ix2 (⟨bb.val * 256 + (m.val - 2), by have := bb.isLt; omega⟩ : Fin 2048) c) ?_).trans ?_
        · rw [Shape.rowMajor_val_three, Shape.rowMajor_val_two]
          rfl
        · exact hg bb ⟨m.val - 2, by omega⟩ c _ rfl
  · rw [if_neg (by omega)]
    refine (concatenate_pair_apply_right (t := S8x256x128) (s₁ := S8x255x128) (s₂ := S8x1x128) (1 : Fin 3) _ _ _ (ix3 bb m c) rfl rfl
      (ix3 bb (⟨m.val - 255, by omega⟩ : Fin 1) c) ?_ ?_).trans ?_
    · intro b hb
      match b with
      | ⟨0, _⟩ => rfl
      | ⟨1, _⟩ => exact absurd rfl hb
      | ⟨2, _⟩ => rfl
    · show m.val - 255 + 255 = m.val
      omega
    · rfl

/-- The source index over result index (bb, q, c) with coordinate k on the joined axis. -/
theorem p6_lift (bb : Fin 8) (q : Fin 64) (c : Fin 128) (k : Fin 4) :
    reduces_S8x64x4x128_S8x64x128.lift (ix3 bb q c) k = ix4 bb q k c := by
  funext a
  match a with
  | ⟨0, _⟩ => rfl
  | ⟨1, _⟩ => rfl
  | ⟨2, _⟩ => rfl
  | ⟨3, _⟩ => rfl

/-- The pooling stage is the network's max pooling of window 4, stride 4, padding 2 of what the rows l < 253 of the
    activation hold. -/
theorem p6Pool_apply (g : FVec Ideal S2048x128 .f32) (f : ℕ → ℕ → ℕ → EReal)
    (hg : ∀ (bb : Fin 8) (l : Fin 253) (c : Fin 128) (r : Fin 2048), r.val = bb.val * 256 + l.val →
      g (ix2 r c) = f bb.val l.val c.val)
    (bb : Fin 8) (q : Fin 64) (c : Fin 128) :
    p6Pool g (ix3 bb q c) = Cert.Spec.pool 4 4 (npad 2 253 fun j => f bb.val j c.val) q.val := by
  unfold p6Pool Cert.Spec.pool
  refine (Ideal.multiReduction_maximumf_single _ _ reduces_S8x64x4x128_S8x64x128 _ _ (ix3 bb q c)).trans ?_
  show (Finset.univ : Finset (Fin 4)).fold max (Ideal.ofBits .f32 0xFF800000#32) _ = _
  rw [p6_ofBits_neg_inf]
  refine p6_fold_max_bot_eq_sup 4 _ _ fun k => ?_
  show shapeCast S8x64x4x128 _ shapeCasts_S8x256x128_S8x64x4x128 (reduces_S8x64x4x128_S8x64x128.lift (ix3 bb q c) k) = _
  rw [p6_lift]
  have hq := q.isLt
  have hk := k.isLt
  refine (shapeCast_apply _ _ (ix4 bb q k c) (ix3 bb (⟨4 * q.val + k.val, by omega⟩ : Fin 256) c) ?_).trans ?_
  · rw [Shape.rowMajor_val_three, Shape.rowMajor_val_four]
    show (bb.val * 256 + (4 * q.val + k.val)) * 128 + c.val = ((bb.val * 64 + q.val) * 4 + k.val) * 128 + c.val
    omega
  · exact p6_pad_apply g f hg bb ⟨4 * q.val + k.val, by omega⟩ c

/-! ## The third layer, and the result -/

/-- Rows l < 253 of the activation are the network's third layer of branch 1: the row of the window matrix against
    the scaled taps is, on real numbers, the convolution times the scale. -/
theorem p6_h3 (hP : P.Real) (v91 : FVec Ideal S8x260x128 .f32) (v92 : FVec Ideal S8x253x128 .f32)
    (x6 : Vec Ideal S1024x128 .f32) (x7 : Vec Ideal S1x128 .f32)
    (h91 : KIface.IsH2Z P B v91) (h92 : KIface.IsV92 P B v92)
    (hx6 : ∀ (j : Fin 1024) (co : Fin 128), x6 (ix2 j co) = P.w3 co.val (j.val % 128) (j.val / 128) * s3 P co.val)
    (hx7 : ∀ co : Fin 128, x7 (ix2 0 co) = t3 P co.val)
    (bb : Fin 8) (l : Fin 253) (co : Fin 128) (r : Fin 2048) (hr : r.val = bb.val * 256 + l.val) :
    p6Act (p6Pre (p6Win v91 v92) x6 x7) (ix2 r co) = H3 P (B + bb.val) l.val co.val := by
  have hl := l.isLt
  rw [p6Act_apply, p6Pre_apply, hx7]
  unfold H3
  congr 2
  have hterm : ∀ j : Fin 1024, p6Win v91 v92 (ix2 r j) * x6 (ix2 j co)
      = (fun j : ℕ => zpad 4 252 (fun l' => H2 P (B + bb.val) l' (j % 128)) (l.val + j / 128)
          * (P.w3 co.val (j % 128) (j / 128) * s3 P co.val)) j.val := by
    intro j
    rw [p6Win_apply P B v91 v92 h91 h92 bb ⟨l.val, by omega⟩ j r hr, if_pos hl, hx6]
  rw [Finset.sum_congr rfl fun j _ => hterm j, Fin.sum_univ_eq_sum_range
    (fun j : ℕ => zpad 4 252 (fun l' => H2 P (B + bb.val) l' (j % 128)) (l.val + j / 128)
      * (P.w3 co.val (j % 128) (j / 128) * s3 P co.val)) 1024]
  exact conv_fold 8 128 (by norm_num) (fun k ci => zpad 4 252 (fun l' => H2 P (B + bb.val) l' ci) (l.val + k))
    (fun ci k => P.w3 co.val ci k) (s3 P co.val)
    (fun k ci _ _ => isReal_zpad 4 252 _ (fun i => isReal_H2 hP _ i _) _)
    (fun k ci _ _ => hP.w3 _ _ _) (isReal_s3 hP _)

/-- **The body's value `k0_pay6` is branch 1's output.** -/
theorem pay6_spec (hP : P.Real) (v91 : FVec Ideal S8x260x128 .f32) (v92 : FVec Ideal S8x253x128 .f32)
    (x6 : Vec Ideal S1024x128 .f32) (x7 : Vec Ideal S1x128 .f32)
    (h91 : KIface.IsH2Z P B v91) (h92 : KIface.IsV92 P B v92)
    (hx6 : ∀ (j : Fin 1024) (co : Fin 128), x6 (ix2 j co) = P.w3 co.val (j.val % 128) (j.val / 128) * s3 P co.val)
    (hx7 : ∀ co : Fin 128, x7 (ix2 0 co) = t3 P co.val) :
    KIface.IsX1 P B (k0_pay6 (F := Ideal) v91 v92 x6 x7) := by
  intro bb q c
  rw [pay6_eq, p6Pool_apply _ (fun b l co => H3 P (B + b) l co)
    (fun bb' l c' r hr => p6_h3 P B hP v91 v92 x6 x7 h91 h92 hx6 hx7 bb' l c' r hr) bb q c]
  rfl

end Cert.KernelIdeal.KBody

end
-- ==== Proof.KPay11.lean ====
/-
  The first layer of branch 2 in the kernel body, and its pooling.

  The padded signal (200 zeros in front) is held a hundred samples to a row. Five row slices side by side give, in
  row l, the 500 samples from 100·l on; one product with a 500 × 128 matrix of scaled taps then yields two
  positions of the stride-50 convolution at once: columns 0 … 63 use the taps from sample 0 of the window (position
  2l), columns 64 … 127 the taps from sample 50 (position 2l + 1). After the shift and the tanh-GELU the even and
  odd positions are joined by max (the odd position of row 30 is position 61, past the layer's 61 positions, and is
  replaced by the most negative finite number), a row of that number is put in front, and two neighbouring rows are
  joined by max: the window of four positions 2l − 2 … 2l + 1 of the max pooling with stride 2 and padding 2.
  Three zero rows on either side make it the zero-padded input of the next layer.
-/
import proofs.«125144_g2000006933354569_pallasbulk_1054_1_alg».proof.Proof.Gen.KernelIdeal.Skeleton
import proofs.«125144_g2000006933354569_pallasbulk_1054_1_alg».proof.Proof.KIface
import proofs.«125144_g2000006933354569_pallasbulk_1054_1_alg».proof.Proof.SpecReal
import proofs.«125144_g2000006933354569_pallasbulk_1054_1_alg».proof.Proof.SpecReal2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen Cert.Spec Idealize.ShloMosaic Idealize.ShloMosaic.ValueIdx

def p11win (v134 : FVec Ideal S8x35x100 .f32) (v135 v136 v137 : FVec Ideal S8x31x100 .f32) : FVec Ideal S256x500 .f32 :=
  have v138 : FVec Ideal S8x31x100 .f32 := extractStridedSlice S8x31x100 ![0, 3, 0] v134 slices_S8x35x100_o0_3_0_S8x31x100
  have v139 : FVec Ideal S8x31x100 .f32 := extractStridedSlice S8x31x100 ![0, 4, 0] v134 slices_S8x35x100_o0_4_0_S8x31x100
  have v140 : FVec Ideal S8x31x500 .f32 := concatenate S8x31x500 2 [⟨S8x31x100, v135⟩, ⟨S8x31x100, v136⟩, ⟨S8x31x100, v137⟩, ⟨S8x31x100, v138⟩, ⟨S8x31x100, v139⟩] concatenates_S8x31x100_S8x31x100_S8x31x100_S8x31x100_S8x31x100_S8x31x500_d2
  have v141 : Ideal .f32 := Scalar.sitofp .f32 0#32
  have v142 : FVec Ideal S8x1x500 .f32 := broadcast S8x1x500 v141
  have v143 : FVec Ideal S8x32x500 .f32 := concatenate S8x32x500 1 [⟨S8x31x500, v140⟩, ⟨S8x1x500, v142⟩] concatenates_S8x31x500_S8x1x500_S8x32x500_d1
  have v144 : FVec Ideal S256x500 .f32 := shapeCast S256x500 v143 shapeCasts_S8x32x500_S256x500
  v144

def p11pre (v144 : FVec Ideal S256x500 .f32) (v145 : Vec Ideal S500x128 .f32) (v148 : Vec Ideal S1x128 .f32) : FVec Ideal S256x128 .f32 :=
  have v146 : FVec Ideal S500x128 .f32 := shapeCast S500x128 v145 shapeCasts_S500x128_S500x128
  have cst_41 : FVec Ideal S256x128 .f32 := constant S256x128 .f32 0x00000000#32
  have v147 : FVec Ideal S256x128 .f32 := matmul dot_S256x500_S500x128_S256x128_1_0_0_1_n_n none v144 v146 cst_41
  have v149 : FVec Ideal S1x128 .f32 := shapeCast S1x128 v148 shapeCasts_S1x128_S1x128
  have v150 : FVec Ideal S256x128 .f32 := broadcastTo S256x128 v149 broadcasts_S1x128_S256x128
  have v151 : FVec Ideal S256x128 .f32 := addf v147 v150
  v151

def p11act (v151 : FVec Ideal S256x128 .f32) : FVec Ideal S256x128 .f32 :=
  have cst_44 : Ideal .f32 := Scalar.ofBits .f32 0x3F000000#32
  have v152 : FVec Ideal S256x128 .f32 := broadcast S256x128 cst_44
  have v153 : FVec Ideal S256x128 .f32 := mulf v152 v151
  have cst_45 : Ideal .f32 := Scalar.ofBits .f32 0x3D372713#32
  have v154 : FVec Ideal S256x128 .f32 := broadcast S256x128 cst_45
  have v155 : FVec Ideal S256x128 .f32 := mulf v154 v151
  have v156 : FVec Ideal S256x128 .f32 := mulf v155 v151
  have v157 : FVec Ideal S256x128 .f32 := mulf v156 v151
  have v158 : FVec Ideal S256x128 .f32 := addf v151 v157
  have cst_46 : Ideal .f32 := Scalar.ofBits .f32 0x3F4C422A#32
  have v159 : FVec Ideal S256x128 .f32 := broadcast S256x128 cst_46
  have v160 : FVec Ideal S256x128 .f32 := mulf v159 v158
  have v161 : FVec Ideal S256x128 .f32 := tanh v160
  have cst_47 : Ideal .f32 := Scalar.ofBits .f32 0x3F800000#32
  have v162 : FVec Ideal S256x128 .f32 := broadcast S256x128 cst_47
  have v163 : FVec Ideal S256x128 .f32 := addf v162 v161
  have v164 : FVec Ideal S256x128 .f32 := mulf v153 v163
  v164

def p11tail (v164 : FVec Ideal S256x128 .f32) : FVec Ideal S8x37x64 .f32 :=
  have v165 : FVec Ideal S8x32x128 .f32 := shapeCast S8x32x128 v164 shapeCasts_S256x128_S8x32x128
  have v166 : FVec Ideal S8x31x64 .f32 := extractStridedSlice S8x31x64 ![0, 0, 0] v165 slices_S8x32x128_o0_0_0_S8x31x64
  have v167 : FVec Ideal S8x31x64 .f32 := extractStridedSlice S8x31x64 ![0, 0, 64] v165 slices_S8x32x128_o0_0_64_S8x31x64
  have v168 : IVec S8x31x64 32 := iota .tc S8x31x64 32 [1] iota_S8x31x64_d1_w32
  have v169 : IVec S8x31x64 32 := broadcast S8x31x64 30#32
  have v170 : IVec S8x31x64 1 := cmpi .slt v168 v169
  have cst_48 : Ideal .f32 := Scalar.ofBits .f32 0xFF7FFFFF#32
  have v171 : FVec Ideal S8x31x64 .f32 := broadcast S8x31x64 cst_48
  have v172 : FVec Ideal S8x31x64 .f32 := select v170 v167 v171
  have v173 : FVec Ideal S8x31x64 .f32 := maximumf v166 v172
  have cst_49 : Ideal .f32 := Scalar.ofBits .f32 0xFF7FFFFF#32
  have v174 : FVec Ideal S8x1x64 .f32 := broadcast S8x1x64 cst_49
  have v175 : FVec Ideal S8x32x64 .f32 := concatenate S8x32x64 1 [⟨S8x1x64, v174⟩, ⟨S8x31x64, v173⟩] concatenates_S8x1x64_S8x31x64_S8x32x64_d1
  have v176 : FVec Ideal S8x31x64 .f32 := extractStridedSlice S8x31x64 ![0, 0, 0] v175 slices_S8x32x64_o0_0_0_S8x31x64
  have v177 : FVec Ideal S8x31x64 .f32 := extractStridedSlice S8x31x64 ![0, 1, 0] v175 slices_S8x32x64_o0_1_0_S8x31x64
  have v178 : FVec Ideal S8x31x64 .f32 := maximumf v176 v177
  have v179 : Ideal .f32 := Scalar.sitofp .f32 0#32
  have v180 : FVec Ideal S8x3x64 .f32 := broadcast S8x3x64 v179
  have v181 : FVec Ideal S8x34x64 .f32 := concatenate S8x34x64 1 [⟨S8x3x64, v180⟩, ⟨S8x31x64, v178⟩] concatenates_S8x3x64_S8x31x64_S8x34x64_d1
  have v182 : FVec Ideal S8x3x64 .f32 := broadcast S8x3x64 v179
  have v183 : FVec Ideal S8x37x64 .f32 := concatenate S8x37x64 1 [⟨S8x34x64, v181⟩, ⟨S8x3x64, v182⟩] concatenates_S8x34x64_S8x3x64_S8x37x64_d1
  v183

/-- The payload is the four stages composed (the stages are its own lines, regrouped). -/
theorem pay11_eq (v134 : FVec Ideal S8x35x100 .f32) (v135 v136 v137 : FVec Ideal S8x31x100 .f32) (x8 : Vec Ideal S500x128 .f32) (x9 : Vec Ideal S1x128 .f32) :
    k0_pay11 (F := Ideal) v134 v135 v136 v137 x8 x9 = p11tail (p11act (p11pre (p11win v134 v135 v136 v137) x8 x9)) := rfl

/-- The matrix product plus the shift row, read at an entry: a sum over the 500 window columns. -/
theorem p11pre_apply (lhs : FVec Ideal S256x500 .f32) (x8 : Vec Ideal S500x128 .f32) (x9 : Vec Ideal S1x128 .f32)
    (r : Fin 256) (c : Fin 128) :
    p11pre lhs x8 x9 (ix2 r c) = (∑ k : Fin 500, lhs (ix2 r k) * x8 (ix2 k c)) + x9 (ix2 0 c) := by
  unfold p11pre
  simp only [addf_apply]
  rw [shapeCast_self, shapeCast_self, broadcastTo_1b_ab_apply, matmul, Ideal.matmul_constant_zero_apply,
    ← Equiv.sum_comp (contrEquiv1 dot_S256x500_S500x128_S256x128_1_0_0_1_n_n 500 rfl rfl).symm]
  congr 1
  refine Finset.sum_congr rfl fun k _ => ?_
  have c2 := contrEquiv1_symm_val dot_S256x500_S500x128_S256x128_1_0_0_1_n_n 500 rfl rfl k
  have l2 : dot_S256x500_S500x128_S256x128_1_0_0_1_n_n.lhsIdx (ix2 r c) ((contrEquiv1 _ 500 rfl rfl).symm k) = ix2 r k := by
    funext ax; apply Fin.ext
    match ax with
    | ⟨0, _⟩ => simp [DotDims.lhsIdx, dot_S256x500_S500x128_S256x128_1_0_0_1_n_n]; rfl
    | ⟨1, _⟩ => simp [DotDims.lhsIdx, dot_S256x500_S500x128_S256x128_1_0_0_1_n_n]; exact c2
  have r2 : dot_S256x500_S500x128_S256x128_1_0_0_1_n_n.rhsIdx (ix2 r c) ((contrEquiv1 _ 500 rfl rfl).symm k) = ix2 k c := by
    funext ax; apply Fin.ext
    match ax with
    | ⟨0, _⟩ => simp [DotDims.rhsIdx, dot_S256x500_S500x128_S256x128_1_0_0_1_n_n]; exact c2
    | ⟨1, _⟩ => simp [DotDims.rhsIdx, dot_S256x500_S500x128_S256x128_1_0_0_1_n_n]; rfl
  rw [l2, r2]

/-- The eleven pointwise operations after the shift are the tanh-GELU of the entry. -/
theorem p11act_apply (y : FVec Ideal S256x128 .f32) (i : S256x128.Idx) : p11act y i = gelu (y i) := by
  unfold p11act
  simp only [mulf_apply, addf_apply, broadcast_apply]
  rfl

/-! ## The mathematics: folding the scale out of the sums, and the pooling window -/

theorem zpad_congr (p L : ℕ) (f g : ℕ → EReal) (h : ∀ l, l < L → f l = g l) (j : ℕ) : zpad p L f j = zpad p L g j := by
  unfold zpad
  split
  · next hj => exact h _ (by omega)
  · rfl

theorem npad_in (p L : ℕ) (f : ℕ → EReal) (j i : ℕ) (h1 : p ≤ j) (h2 : j < p + L) (hi : j - p = i) : npad p L f j = f i := by
  unfold npad; rw [if_pos ⟨h1, h2⟩, hi]

theorem npad_out (p L : ℕ) (f : ℕ → EReal) (j : ℕ) (h : j < p ∨ p + L ≤ j) : npad p L f j = NEG := by
  unfold npad; rw [if_neg (by omega)]

/-- A window of four is two windows of two. -/
theorem pool4 (f : ℕ → EReal) (l : ℕ) :
    pool 2 4 f l = max (max (f (2 * l)) (f (2 * l + 1))) (max (f (2 * l + 2)) (f (2 * l + 3))) := by
  rw [pool_succ, pool_succ, pool_succ, pool_succ, pool_zero, Nat.add_zero, max_bot_left, max_assoc]

/-- The even columns of the product: position 2l of the layer, before the shift. -/
theorem g1_even {P : Params} (hP : P.Real) (b l c : ℕ) :
    ∑ j ∈ Finset.range 500, zpad 200 3000 (P.x b) (100 * l + j) * zpad 0 400 (fun k => P.w4 c k * s4 P c) j
      = (∑ k ∈ Finset.range 400, zpad 200 3000 (P.x b) (50 * (2 * l) + k) * P.w4 c k) * s4 P c := by
  rw [conv1_fold 500 0 400 (by norm_num) (fun j => zpad 200 3000 (P.x b) (100 * l + j)) (P.w4 c) (s4 P c)
    (fun j _ => isReal_zpad _ _ _ (hP.x b) _) (fun k _ => hP.w4 c k) (isReal_s4 hP c)]
  congr 1
  refine Finset.sum_congr rfl fun k _ => ?_
  congr 2
  omega

/-- The odd columns: position 2l + 1, whose window starts fifty samples later. -/
theorem g1_odd {P : Params} (hP : P.Real) (b l c : ℕ) :
    ∑ j ∈ Finset.range 500, zpad 200 3000 (P.x b) (100 * l + j) * zpad 50 400 (fun k => P.w4 c k * s4 P c) j
      = (∑ k ∈ Finset.range 400, zpad 200 3000 (P.x b) (50 * (2 * l + 1) + k) * P.w4 c k) * s4 P c := by
  rw [conv1_fold 500 50 400 (by norm_num) (fun j => zpad 200 3000 (P.x b) (100 * l + j)) (P.w4 c) (s4 P c)
    (fun j _ => isReal_zpad _ _ _ (hP.x b) _) (fun k _ => hP.w4 c k) (isReal_s4 hP c)]
  congr 1
  refine Finset.sum_congr rfl fun k _ => ?_
  congr 2
  omega

/-- The pooling window of four positions 2l−2 … 2l+1 of a length-61 sequence, as the kernel groups it: the pair
    (2l−2, 2l−1) — the fill at l = 0 — and the pair (2l, 2l+1), whose second member is the fill at l = 30. -/
theorem q1_pool (G : ℕ → EReal) (l : ℕ) (hl : l < 31) :
    max (if l = 0 then NEG else max (G (2 * (l - 1))) (if l - 1 < 30 then G (2 * (l - 1) + 1) else NEG))
        (max (G (2 * l)) (if l < 30 then G (2 * l + 1) else NEG))
      = pool 2 4 (npad 2 61 G) l := by
  rw [pool4]
  rcases Nat.eq_zero_or_pos l with h0 | h0
  · subst h0
    rw [npad_out 2 61 G (2 * 0) (by omega), npad_out 2 61 G (2 * 0 + 1) (by omega),
      npad_in 2 61 G (2 * 0 + 2) (2 * 0) (by omega) (by omega) (by omega),
      npad_in 2 61 G (2 * 0 + 3) (2 * 0 + 1) (by omega) (by omega) (by omega)]
    simp
  · by_cases h30 : l < 30
    · rw [npad_in 2 61 G (2 * l) (2 * (l - 1)) (by omega) (by omega) (by omega),
        npad_in 2 61 G (2 * l + 1) (2 * (l - 1) + 1) (by omega) (by omega) (by omega),
        npad_in 2 61 G (2 * l + 2) (2 * l) (by omega) (by omega) (by omega),
        npad_in 2 61 G (2 * l + 3) (2 * l + 1) (by omega) (by omega) (by omega),
        if_neg (show ¬ l = 0 by omega), if_pos (show l - 1 < 30 by omega), if_pos h30]
    · rw [npad_in 2 61 G (2 * l) (2 * (l - 1)) (by omega) (by omega) (by omega),
        npad_in 2 61 G (2 * l + 1) (2 * (l - 1) + 1) (by omega) (by omega) (by omega),
        npad_in 2 61 G (2 * l + 2) (2 * l) (by omega) (by omega) (by omega),
        npad_out 2 61 G (2 * l + 3) (by omega),
        if_neg (show ¬ l = 0 by omega), if_pos (show l - 1 < 30 by omega), if_neg h30]

variable (P : Params) (B : ℕ)

/-! ## The padded signal and its row slices -/

/-- The loaded block of the padded signal, a hundred samples to a row. -/
theorem pay7_spec (x1 : Vec Ideal S8x35x100 .f32)
    (hx1 : ∀ (bb : Fin 8) (u : Fin 35) (r : Fin 100), x1 (ix3 bb u r) = zpad 200 3000 (P.x (B + bb.val)) (100 * u.val + r.val)) :
    KIface.IsXB P B (k0_pay7 (F := Ideal) x1) := by
  intro bb u r
  unfold k0_pay7
  rw [shapeCast_self]
  exact hx1 bb u r

theorem pay8_spec (x1 : Vec Ideal S8x35x100 .f32)
    (hx1 : ∀ (bb : Fin 8) (u : Fin 35) (r : Fin 100), x1 (ix3 bb u r) = zpad 200 3000 (P.x (B + bb.val)) (100 * u.val + r.val)) :
    KIface.IsXBs P B 0 (k0_pay8 (F := Ideal) x1) := by
  intro bb u r
  have hu := u.isLt
  unfold k0_pay8
  rw [slice3_axis1_apply 0 _ _ bb u r ⟨u.val + 0, by omega⟩ (by show u.val + 0 = 0 + u.val; omega)]
  exact pay7_spec P B x1 hx1 bb ⟨u.val + 0, by omega⟩ r

theorem pay9_spec (x1 : Vec Ideal S8x35x100 .f32)
    (hx1 : ∀ (bb : Fin 8) (u : Fin 35) (r : Fin 100), x1 (ix3 bb u r) = zpad 200 3000 (P.x (B + bb.val)) (100 * u.val + r.val)) :
    KIface.IsXBs P B 1 (k0_pay9 (F := Ideal) x1) := by
  intro bb u r
  have hu := u.isLt
  unfold k0_pay9
  rw [slice3_axis1_apply 1 _ _ bb u r ⟨u.val + 1, by omega⟩ (by show u.val + 1 = 1 + u.val; omega)]
  exact pay7_spec P B x1 hx1 bb ⟨u.val + 1, by omega⟩ r

theorem pay10_spec (x1 : Vec Ideal S8x35x100 .f32)
    (hx1 : ∀ (bb : Fin 8) (u : Fin 35) (r : Fin 100), x1 (ix3 bb u r) = zpad 200 3000 (P.x (B + bb.val)) (100 * u.val + r.val)) :
    KIface.IsXBs P B 2 (k0_pay10 (F := Ideal) x1) := by
  intro bb u r
  have hu := u.isLt
  unfold k0_pay10
  rw [slice3_axis1_apply 2 _ _ bb u r ⟨u.val + 2, by omega⟩ (by show u.val + 2 = 2 + u.val; omega)]
  exact pay7_spec P B x1 hx1 bb ⟨u.val + 2, by omega⟩ r

/-- Five row slices of the padded signal side by side: column a·100 + r of row l is sample 100·(l + a) + r. -/
theorem p11win5_apply (v134 : FVec Ideal S8x35x100 .f32) (v135 v136 v137 : FVec Ideal S8x31x100 .f32)
    (h134 : KIface.IsXB P B v134) (h135 : KIface.IsXBs P B 0 v135) (h136 : KIface.IsXBs P B 1 v136) (h137 : KIface.IsXBs P B 2 v137)
    (bb : Fin 8) (l : Fin 31) (k : Fin 500) :
    concatenate S8x31x500 2 [⟨S8x31x100, v135⟩, ⟨S8x31x100, v136⟩, ⟨S8x31x100, v137⟩,
        ⟨S8x31x100, extractStridedSlice S8x31x100 ![0, 3, 0] v134 slices_S8x35x100_o0_3_0_S8x31x100⟩,
        ⟨S8x31x100, extractStridedSlice S8x31x100 ![0, 4, 0] v134 slices_S8x35x100_o0_4_0_S8x31x100⟩]
        concatenates_S8x31x100_S8x31x100_S8x31x100_S8x31x100_S8x31x100_S8x31x500_d2 (ix3 bb l k)
      = zpad 200 3000 (P.x (B + bb.val)) (100 * l.val + k.val) := by
  have hk := k.isLt
  have hl := l.isLt
  rcases (show k.val / 100 = 0 ∨ k.val / 100 = 1 ∨ k.val / 100 = 2 ∨ k.val / 100 = 3 ∨ k.val / 100 = 4 by omega)
    with h0 | h0 | h0 | h0 | h0
  · refine (concatenate_apply_piece 2 _ _ (ix3 bb l k) 0 (by simp) S8x31x100 v135 rfl rfl 0 rfl
      (ix3 bb l ⟨k.val - 0, by omega⟩) (fun b hb => ?_) (by show 0 + (k.val - 0) = k.val; omega)).trans ?_
    · match b with
      | ⟨0, _⟩ => rfl
      | ⟨1, _⟩ => rfl
      | ⟨2, _⟩ => exact absurd rfl hb
    · rw [h135]; congr 1
  · refine (concatenate_apply_piece 2 _ _ (ix3 bb l k) 1 (by simp) S8x31x100 v136 rfl rfl 100 rfl
      (ix3 bb l ⟨k.val - 100, by omega⟩) (fun b hb => ?_) (by show 100 + (k.val - 100) = k.val; omega)).trans ?_
    · match b with
      | ⟨0, _⟩ => rfl
      | ⟨1, _⟩ => rfl
      | ⟨2, _⟩ => exact absurd rfl hb
    · rw [h136]; congr 1; show 100 * (l.val + 1) + (k.val - 100) = _; omega
  · refine (concatenate_apply_piece 2 _ _ (ix3 bb l k) 2 (by simp) S8x31x100 v137 rfl rfl 200 rfl
      (ix3 bb l ⟨k.val - 200, by omega⟩) (fun b hb => ?_) (by show 200 + (k.val - 200) = k.val; omega)).trans ?_
    · match b with
      | ⟨0, _⟩ => rfl
      | ⟨1, _⟩ => rfl
      | ⟨2, _⟩ => exact absurd rfl hb
    · rw [h137]; congr 1; show 100 * (l.val + 2) + (k.val - 200) = _; omega
  · refine (concatenate_apply_piece 2 _ _ (ix3 bb l k) 3 (by simp) S8x31x100 _ rfl rfl 300 rfl
      (ix3 bb l ⟨k.val - 300, by omega⟩) (fun b hb => ?_) (by show 300 + (k.val - 300) = k.val; omega)).trans ?_
    · match b with
      | ⟨0, _⟩ => rfl
      | ⟨1, _⟩ => rfl
      | ⟨2, _⟩ => exact absurd rfl hb
    · rw [slice3_axis1_apply 3 _ _ bb l _ ⟨3 + l.val, by omega⟩ rfl, h134]; congr 1; show 100 * (3 + l.val) + (k.val - 300) = _; omega
  · refine (concatenate_apply_piece 2 _ _ (ix3 bb l k) 4 (by simp) S8x31x100 _ rfl rfl 400 rfl
      (ix3 bb l ⟨k.val - 400, by omega⟩) (fun b hb => ?_) (by show 400 + (k.val - 400) = k.val; omega)).trans ?_
    · match b with
      | ⟨0, _⟩ => rfl
      | ⟨1, _⟩ => rfl
      | ⟨2, _⟩ => exact absurd rfl hb
    · rw [slice3_axis1_apply 4 _ _ bb l _ ⟨4 + l.val, by omega⟩ rfl, h134]; congr 1; show 100 * (4 + l.val) + (k.val - 400) = _; omega

/-- The window matrix: row bb·32 + l holds the 500 samples from 100·l on; the appended row 31 is zero. -/
theorem p11win_apply (v134 : FVec Ideal S8x35x100 .f32) (v135 v136 v137 : FVec Ideal S8x31x100 .f32)
    (h134 : KIface.IsXB P B v134) (h135 : KIface.IsXBs P B 0 v135) (h136 : KIface.IsXBs P B 1 v136) (h137 : KIface.IsXBs P B 2 v137)
    (bb : Fin 8) (l : Fin 32) (k : Fin 500) :
    p11win v134 v135 v136 v137 (ix2 ⟨bb.val * 32 + l.val, by omega⟩ k)
      = if l.val < 31 then zpad 200 3000 (P.x (B + bb.val)) (100 * l.val + k.val) else 0 := by
  unfold p11win
  refine (shapeCast_apply _ _ (ix2 ⟨bb.val * 32 + l.val, by omega⟩ k) (ix3 bb l k) ?_).trans ?_
  · rw [Shape.rowMajor_val_three, Shape.rowMajor_val_two]; rfl
  by_cases hl : l.val < 31
  · rw [if_pos hl]
    refine (concatenate_pair_apply_left (t := S8x32x500) (s₁ := S8x31x500) (s₂ := S8x1x500) 1 _ _ _ (ix3 bb l k) rfl
      (ix3 bb (⟨l.val, hl⟩ : Fin 31) k) (fun b => ?_)).trans ?_
    · match b with
      | ⟨0, _⟩ => rfl
      | ⟨1, _⟩ => rfl
      | ⟨2, _⟩ => rfl
    · exact p11win5_apply P B v134 v135 v136 v137 h134 h135 h136 h137 bb ⟨l.val, hl⟩ k
  · rw [if_neg hl]
    have hl2 := l.isLt
    refine (concatenate_pair_apply_right (t := S8x32x500) (s₁ := S8x31x500) (s₂ := S8x1x500) 1 _ _ _ (ix3 bb l k) rfl rfl
      (ix3 bb (0 : Fin 1) k) (fun b hb => ?_) ?_).trans ?_
    · match b with
      | ⟨0, _⟩ => rfl
      | ⟨1, _⟩ => exact absurd rfl hb
      | ⟨2, _⟩ => rfl
    · show 0 + 31 = l.val
      omega
    · simp [broadcast_apply]

/-- Among the row numbers 0 … 30, "below 30" as the signed comparison of 32-bit words decides it. -/
theorem slt30 (l : Fin 31) : IntOp.cmpi .slt (BitVec.ofNat 32 l.val) 30#32 = if l.val < 30 then 1#1 else 0#1 := by
  revert l; decide

/-- The activation matrix viewed as eight blocks of 32 rows. -/
theorem p11rows_apply (v164 : FVec Ideal S256x128 .f32) (bb : Fin 8) (l : Fin 32) (c : Fin 128) :
    shapeCast S8x32x128 v164 shapeCasts_S256x128_S8x32x128 (ix3 bb l c) = v164 (ix2 ⟨bb.val * 32 + l.val, by omega⟩ c) :=
  shapeCast_apply _ _ _ _ (by rw [Shape.rowMajor_val_three, Shape.rowMajor_val_two]; rfl)

/-- Even and odd positions joined by max; the odd position of row 30 lies past the layer and is replaced by the fill. -/
theorem p11evenodd_apply (v165 : FVec Ideal S8x32x128 .f32) (bb : Fin 8) (l : Fin 31) (c : Fin 64) :
    maximumf (F := Ideal) (extractStridedSlice S8x31x64 ![0, 0, 0] v165 slices_S8x32x128_o0_0_0_S8x31x64)
      (select (cmpi .slt (iota .tc S8x31x64 32 [1] iota_S8x31x64_d1_w32) (broadcast S8x31x64 30#32))
        (extractStridedSlice S8x31x64 ![0, 0, 64] v165 slices_S8x32x128_o0_0_64_S8x31x64)
        (broadcast S8x31x64 (Scalar.ofBits (F := Ideal) .f32 0xFF7FFFFF#32))) (ix3 bb l c)
      = max (v165 (ix3 bb ⟨l.val, by omega⟩ ⟨c.val, by omega⟩))
          (if l.val < 30 then v165 (ix3 bb ⟨l.val, by omega⟩ ⟨c.val + 64, by omega⟩) else NEG) := by
  rw [maximumf_apply, select_apply, broadcast_apply]
  rw [extractStridedSlice_apply ![0, 0, 0] v165 _ (ix3 bb l c) (ix3 bb ⟨l.val, by omega⟩ ⟨c.val, by omega⟩) (fun a => by
        match a with
        | ⟨0, _⟩ => exact (Nat.zero_add _).symm
        | ⟨1, _⟩ => exact (Nat.zero_add _).symm
        | ⟨2, _⟩ => exact (Nat.zero_add _).symm),
      extractStridedSlice_apply ![0, 0, 64] v165 _ (ix3 bb l c) (ix3 bb ⟨l.val, by omega⟩ ⟨c.val + 64, by omega⟩) (fun a => by
        match a with
        | ⟨0, _⟩ => exact (Nat.zero_add _).symm
        | ⟨1, _⟩ => exact (Nat.zero_add _).symm
        | ⟨2, _⟩ => exact Nat.add_comm _ _)]
  have hc : cmpi .slt (iota .tc S8x31x64 32 [1] iota_S8x31x64_d1_w32) (broadcast S8x31x64 30#32) (ix3 bb l c)
      = if l.val < 30 then 1#1 else 0#1 := by
    show IntOp.cmpi .slt (iota .tc S8x31x64 32 [1] iota_S8x31x64_d1_w32 (ix3 bb l c)) 30#32 = _
    rw [iota_single_apply]
    exact slt30 l
  rw [hc]
  split
  · rw [select_one]
  · rw [select_zero]; rfl

/-- The same, on the activation matrix and in terms of its entries by natural-number row and column. -/
theorem p11m2_apply (v164 : FVec Ideal S256x128 .f32) (bb : Fin 8) (l : Fin 31) (c : Fin 64) (g : ℕ → ℕ → EReal)
    (hg : ∀ (l : Fin 31) (c' : Fin 128), v164 (ix2 ⟨bb.val * 32 + l.val, by omega⟩ c') = g l.val c'.val) :
    maximumf (F := Ideal) (extractStridedSlice S8x31x64 ![0, 0, 0] (shapeCast S8x32x128 v164 shapeCasts_S256x128_S8x32x128) slices_S8x32x128_o0_0_0_S8x31x64)
      (select (cmpi .slt (iota .tc S8x31x64 32 [1] iota_S8x31x64_d1_w32) (broadcast S8x31x64 30#32))
        (extractStridedSlice S8x31x64 ![0, 0, 64] (shapeCast S8x32x128 v164 shapeCasts_S256x128_S8x32x128) slices_S8x32x128_o0_0_64_S8x31x64)
        (broadcast S8x31x64 (Scalar.ofBits (F := Ideal) .f32 0xFF7FFFFF#32))) (ix3 bb l c)
      = max (g l.val c.val) (if l.val < 30 then g l.val (c.val + 64) else NEG) := by
  rw [p11evenodd_apply, p11rows_apply, p11rows_apply]
  exact congrArg₂ max (hg l ⟨c.val, by omega⟩) (by rw [hg l ⟨c.val + 64, by omega⟩])

/-- A row of the fill in front: row 0 is the fill … -/
theorem p11negrow_zero (X : FVec Ideal S8x31x64 .f32) (bb : Fin 8) (m : Fin 32) (h : m.val = 0) (c : Fin 64) :
    concatenate S8x32x64 1 [⟨S8x1x64, broadcast S8x1x64 (Scalar.ofBits (F := Ideal) .f32 0xFF7FFFFF#32)⟩, ⟨S8x31x64, X⟩]
        concatenates_S8x1x64_S8x31x64_S8x32x64_d1 (ix3 bb m c) = NEG := by
  refine (concatenate_pair_apply_left (t := S8x32x64) (s₁ := S8x1x64) (s₂ := S8x31x64) 1 _ _ _ (ix3 bb m c) rfl
    (ix3 bb (0 : Fin 1) c) (fun b => ?_)).trans ?_
  · match b with
      | ⟨0, _⟩ => rfl
      | ⟨1, _⟩ => exact h.symm
      | ⟨2, _⟩ => rfl
  · rfl

/-- … and row l + 1 is the old row l. -/
theorem p11negrow_succ (X : FVec Ideal S8x31x64 .f32) (bb : Fin 8) (m : Fin 32) (l : Fin 31) (h : m.val = l.val + 1) (c : Fin 64) :
    concatenate S8x32x64 1 [⟨S8x1x64, broadcast S8x1x64 (Scalar.ofBits (F := Ideal) .f32 0xFF7FFFFF#32)⟩, ⟨S8x31x64, X⟩]
        concatenates_S8x1x64_S8x31x64_S8x32x64_d1 (ix3 bb m c) = X (ix3 bb l c) := by
  refine concatenate_pair_apply_right (t := S8x32x64) (s₁ := S8x1x64) (s₂ := S8x31x64) 1 _ _ _ (ix3 bb m c) rfl rfl
    (ix3 bb l c) (fun b hb => ?_) ?_
  · match b with
      | ⟨0, _⟩ => rfl
      | ⟨1, _⟩ => exact absurd rfl hb
      | ⟨2, _⟩ => rfl
  · exact h.symm

/-- The maximum of two neighbouring rows. -/
theorem p11pairmax_apply (Y : FVec Ideal S8x32x64 .f32) (bb : Fin 8) (l : Fin 31) (c : Fin 64) :
    maximumf (F := Ideal) (extractStridedSlice S8x31x64 ![0, 0, 0] Y slices_S8x32x64_o0_0_0_S8x31x64)
      (extractStridedSlice S8x31x64 ![0, 1, 0] Y slices_S8x32x64_o0_1_0_S8x31x64) (ix3 bb l c)
      = max (Y (ix3 bb ⟨l.val, by omega⟩ c)) (Y (ix3 bb ⟨l.val + 1, by omega⟩ c)) := by
  rw [maximumf_apply, slice3_axis1_apply 0 _ _ bb l c ⟨l.val, by omega⟩ (by simp),
    slice3_axis1_apply 1 _ _ bb l c ⟨l.val + 1, by omega⟩ (by simp; omega)]

/-- Three rows of zeros in front of and behind 31 rows: the zero-padded sequence. -/
theorem p11zpad_apply (X : FVec Ideal S8x31x64 .f32) (bb : Fin 8) (j : Fin 37) (c : Fin 64) (Xn : ℕ → EReal)
    (hX : ∀ l : Fin 31, X (ix3 bb l c) = Xn l.val) :
    concatenate S8x37x64 1 [⟨S8x34x64, concatenate S8x34x64 1 [⟨S8x3x64, broadcast S8x3x64 (Scalar.sitofp (F := Ideal) .f32 0#32)⟩, ⟨S8x31x64, X⟩]
          concatenates_S8x3x64_S8x31x64_S8x34x64_d1⟩,
        ⟨S8x3x64, broadcast S8x3x64 (Scalar.sitofp (F := Ideal) .f32 0#32)⟩] concatenates_S8x34x64_S8x3x64_S8x37x64_d1 (ix3 bb j c)
      = zpad 3 31 Xn j.val := by
  have hj := j.isLt
  unfold zpad
  by_cases h1 : j.val < 34
  · refine (concatenate_pair_apply_left (t := S8x37x64) (s₁ := S8x34x64) (s₂ := S8x3x64) 1 _ _ _ (ix3 bb j c) rfl
      (ix3 bb (⟨j.val, h1⟩ : Fin 34) c) (fun b => ?_)).trans ?_
    · match b with
      | ⟨0, _⟩ => rfl
      | ⟨1, _⟩ => rfl
      | ⟨2, _⟩ => rfl
    by_cases h2 : j.val < 3
    · rw [if_neg (by omega)]
      refine (concatenate_pair_apply_left (t := S8x34x64) (s₁ := S8x3x64) (s₂ := S8x31x64) 1 _ _ _ (ix3 bb (⟨j.val, h1⟩ : Fin 34) c) rfl
        (ix3 bb (⟨j.val, h2⟩ : Fin 3) c) (fun b => ?_)).trans ?_
      · match b with
      | ⟨0, _⟩ => rfl
      | ⟨1, _⟩ => rfl
      | ⟨2, _⟩ => rfl
      · simp [broadcast_apply]
    · rw [if_pos (by omega)]
      refine (concatenate_pair_apply_right (t := S8x34x64) (s₁ := S8x3x64) (s₂ := S8x31x64) 1 _ _ _ (ix3 bb (⟨j.val, h1⟩ : Fin 34) c) rfl rfl
        (ix3 bb (⟨j.val - 3, by omega⟩ : Fin 31) c) (fun b hb => ?_) ?_).trans ?_
      · match b with
      | ⟨0, _⟩ => rfl
      | ⟨1, _⟩ => exact absurd rfl hb
      | ⟨2, _⟩ => rfl
      · show (j.val - 3) + 3 = j.val
        omega
      · exact hX ⟨j.val - 3, by omega⟩
  · rw [if_neg (by omega)]
    refine (concatenate_pair_apply_right (t := S8x37x64) (s₁ := S8x34x64) (s₂ := S8x3x64) 1 _ _ _ (ix3 bb j c) rfl rfl
      (ix3 bb (⟨j.val - 34, by omega⟩ : Fin 3) c) (fun b hb => ?_) ?_).trans ?_
    · match b with
      | ⟨0, _⟩ => rfl
      | ⟨1, _⟩ => exact absurd rfl hb
      | ⟨2, _⟩ => rfl
    · show (j.val - 34) + 34 = j.val
      omega
    · simp [broadcast_apply]

/-- From the activation matrix to the stored block: pair maxima over even and odd positions, a window of two of
    those with the fill in front, and three zero rows on either side. -/
theorem p11tail_apply (v164 : FVec Ideal S256x128 .f32) (bb : Fin 8) (j : Fin 37) (c : Fin 64) (g : ℕ → ℕ → EReal)
    (hg : ∀ (l : Fin 31) (c' : Fin 128), v164 (ix2 ⟨bb.val * 32 + l.val, by omega⟩ c') = g l.val c'.val) :
    p11tail v164 (ix3 bb j c) = zpad 3 31 (fun l =>
      max (if l = 0 then NEG else max (g (l - 1) c.val) (if l - 1 < 30 then g (l - 1) (c.val + 64) else NEG))
        (max (g l c.val) (if l < 30 then g l (c.val + 64) else NEG))) j.val := by
  unfold p11tail
  refine p11zpad_apply _ bb j c _ (fun l => ?_)
  have hl := l.isLt
  refine (p11pairmax_apply _ bb l c).trans ?_
  by_cases h0 : l.val = 0
  · rw [p11negrow_zero _ bb ⟨l.val, by omega⟩ h0 c, p11negrow_succ _ bb ⟨l.val + 1, by omega⟩ l rfl c,
      p11m2_apply v164 bb l c g hg, if_pos h0]
  · rw [p11negrow_succ _ bb ⟨l.val, by omega⟩ ⟨l.val - 1, by omega⟩ (by show l.val = l.val - 1 + 1; omega) c,
      p11negrow_succ _ bb ⟨l.val + 1, by omega⟩ l rfl c,
      p11m2_apply v164 bb l c g hg, p11m2_apply v164 bb ⟨l.val - 1, by omega⟩ c g hg, if_neg h0]

/-! ## The layer -/

/-- The activation matrix: row bb·32 + l, column c is the first layer of branch 2 at position 2l (columns below 64)
    or 2l + 1 (columns from 64 on), channel c mod 64. -/
theorem p11geo_apply (hP : P.Real) (x8 : Vec Ideal S500x128 .f32) (x9 : Vec Ideal S1x128 .f32)
    (hx8 : ∀ (j : Fin 500) (c : Fin 128), x8 (ix2 j c) =
      if c.val < 64 then zpad 0 400 (fun k => P.w4 c.val k * s4 P c.val) j.val
      else zpad 50 400 (fun k => P.w4 (c.val - 64) k * s4 P (c.val - 64)) j.val)
    (hx9 : ∀ c : Fin 128, x9 (ix2 0 c) = t4 P (c.val % 64))
    (v134 : FVec Ideal S8x35x100 .f32) (v135 v136 v137 : FVec Ideal S8x31x100 .f32)
    (h134 : KIface.IsXB P B v134) (h135 : KIface.IsXBs P B 0 v135) (h136 : KIface.IsXBs P B 1 v136) (h137 : KIface.IsXBs P B 2 v137)
    (bb : Fin 8) (l : Fin 31) (c' : Fin 128) :
    p11act (p11pre (p11win v134 v135 v136 v137) x8 x9) (ix2 ⟨bb.val * 32 + l.val, by omega⟩ c')
      = G1 P (B + bb.val) (2 * l.val + c'.val / 64) (c'.val % 64) := by
  have hl := l.isLt
  have hc := c'.isLt
  rw [p11act_apply, p11pre_apply, hx9]
  have hsum : ∑ k : Fin 500, p11win v134 v135 v136 v137 (ix2 ⟨bb.val * 32 + l.val, by omega⟩ k) * x8 (ix2 k c')
      = ∑ k ∈ Finset.range 500, zpad 200 3000 (P.x (B + bb.val)) (100 * l.val + k) *
          (if c'.val < 64 then zpad 0 400 (fun k => P.w4 c'.val k * s4 P c'.val) k
           else zpad 50 400 (fun k => P.w4 (c'.val - 64) k * s4 P (c'.val - 64)) k) := by
    rw [Finset.sum_range]
    refine Finset.sum_congr rfl fun k _ => ?_
    have hw : p11win v134 v135 v136 v137 (ix2 ⟨bb.val * 32 + l.val, by omega⟩ k)
        = zpad 200 3000 (P.x (B + bb.val)) (100 * l.val + k.val) :=
      (p11win_apply P B v134 v135 v136 v137 h134 h135 h136 h137 bb ⟨l.val, by omega⟩ k).trans (if_pos hl)
    rw [hw, hx8 k c']
  rw [hsum]
  unfold G1
  by_cases h64 : c'.val < 64
  · have e1 : c'.val / 64 = 0 := by omega
    have e2 : c'.val % 64 = c'.val := by omega
    simp only [if_pos h64]
    rw [e1, e2, Nat.add_zero, g1_even hP]
  · have e1 : c'.val / 64 = 1 := by omega
    have e2 : c'.val % 64 = c'.val - 64 := by omega
    simp only [if_neg h64]
    rw [e1, e2, g1_odd hP]

/-- The stored block is the pooled first layer of branch 2, zero-padded by three on each side. -/
theorem pay11_spec (hP : P.Real) (x8 : Vec Ideal S500x128 .f32) (x9 : Vec Ideal S1x128 .f32)
    (hx8 : ∀ (j : Fin 500) (c : Fin 128), x8 (ix2 j c) =
      if c.val < 64 then zpad 0 400 (fun k => P.w4 c.val k * s4 P c.val) j.val
      else zpad 50 400 (fun k => P.w4 (c.val - 64) k * s4 P (c.val - 64)) j.val)
    (hx9 : ∀ c : Fin 128, x9 (ix2 0 c) = t4 P (c.val % 64))
    (v134 : FVec Ideal S8x35x100 .f32) (v135 v136 v137 : FVec Ideal S8x31x100 .f32)
    (h134 : KIface.IsXB P B v134) (h135 : KIface.IsXBs P B 0 v135) (h136 : KIface.IsXBs P B 1 v136) (h137 : KIface.IsXBs P B 2 v137) :
    KIface.IsQ1Z P B (k0_pay11 (F := Ideal) v134 v135 v136 v137 x8 x9) := by
  intro bb j c
  have hc := c.isLt
  rw [pay11_eq, p11tail_apply _ bb j c (fun l c' => G1 P (B + bb.val) (2 * l + c' / 64) (c' % 64))
    (fun l c' => p11geo_apply P B hP x8 x9 hx8 hx9 v134 v135 v136 v137 h134 h135 h136 h137 bb l c')]
  refine zpad_congr 3 31 _ _ (fun l hl => ?_) j.val
  have e1 : c.val / 64 = 0 := by omega
  have e2 : c.val % 64 = c.val := by omega
  have e3 : (c.val + 64) / 64 = 1 := by omega
  have e4 : (c.val + 64) % 64 = c.val := by omega
  simp only [e1, e2, e3, e4, Nat.add_zero]
  exact q1_pool (fun j => G1 P (B + bb.val) j c.val) l hl

end Cert.KernelIdeal.KBody

end
-- ==== Proof.KPay12.lean ====
/-
  The payload of the kernel body that turns the pooled, zero-padded first layer of branch 2 into the window matrix
  of its third layer: seven shifted row-slices side by side form the window matrix of layer 2; one matrix product
  with the taps (which carry the batch-normalisation scale), the shift row and the tanh-GELU give layer 2 at the rows
  below 31 of each block of 32; those rows, zero-padded by three on each side, are again laid out as seven shifted
  row-slices side by side.
-/
import proofs.«125144_g2000006933354569_pallasbulk_1054_1_alg».proof.Proof.Gen.KernelIdeal.Skeleton
import proofs.«125144_g2000006933354569_pallasbulk_1054_1_alg».proof.Proof.KIface
import proofs.«125144_g2000006933354569_pallasbulk_1054_1_alg».proof.Proof.SpecReal
import proofs.«125144_g2000006933354569_pallasbulk_1054_1_alg».proof.Proof.SpecReal2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen Cert.Spec Idealize.ShloMosaic Idealize.ShloMosaic.ValueIdx

namespace Pay12

section Window
variable {α : Type}

/-- Seven row-slices of a rank-3 array (offsets 0 … 6 along axis 1), laid side by side along axis 2: column j of row q
    is the source at row q + j / c, column j % c. -/
theorem win7_apply {n0 n1 c m n : ℕ} (X : (⟨3, ![n0, n1, c]⟩ : Shape).Idx → α)
    (h0 : (⟨3, ![n0, n1, c]⟩ : Shape).Slices ![0, 0, 0] ⟨3, ![n0, m, c]⟩)
    (h1 : (⟨3, ![n0, n1, c]⟩ : Shape).Slices ![0, 1, 0] ⟨3, ![n0, m, c]⟩)
    (h2 : (⟨3, ![n0, n1, c]⟩ : Shape).Slices ![0, 2, 0] ⟨3, ![n0, m, c]⟩)
    (h3 : (⟨3, ![n0, n1, c]⟩ : Shape).Slices ![0, 3, 0] ⟨3, ![n0, m, c]⟩)
    (h4 : (⟨3, ![n0, n1, c]⟩ : Shape).Slices ![0, 4, 0] ⟨3, ![n0, m, c]⟩)
    (h5 : (⟨3, ![n0, n1, c]⟩ : Shape).Slices ![0, 5, 0] ⟨3, ![n0, m, c]⟩)
    (h6 : (⟨3, ![n0, n1, c]⟩ : Shape).Slices ![0, 6, 0] ⟨3, ![n0, m, c]⟩)
    (hcat : Shape.Concatenates [(⟨3, ![n0, m, c]⟩ : Shape), ⟨3, ![n0, m, c]⟩, ⟨3, ![n0, m, c]⟩, ⟨3, ![n0, m, c]⟩,
      ⟨3, ![n0, m, c]⟩, ⟨3, ![n0, m, c]⟩, ⟨3, ![n0, m, c]⟩] ⟨3, ![n0, m, n]⟩ 2)
    (p : Fin n0) (q : Fin m) (j : Fin n) (k : Fin n1) (r : Fin c) (hk : k.val = q.val + j.val / c) (hr : r.val = j.val % c) :
    concatenate ⟨3, ![n0, m, n]⟩ 2
      [⟨⟨3, ![n0, m, c]⟩, extractStridedSlice ⟨3, ![n0, m, c]⟩ ![0, 0, 0] X h0⟩,
       ⟨⟨3, ![n0, m, c]⟩, extractStridedSlice ⟨3, ![n0, m, c]⟩ ![0, 1, 0] X h1⟩,
       ⟨⟨3, ![n0, m, c]⟩, extractStridedSlice ⟨3, ![n0, m, c]⟩ ![0, 2, 0] X h2⟩,
       ⟨⟨3, ![n0, m, c]⟩, extractStridedSlice ⟨3, ![n0, m, c]⟩ ![0, 3, 0] X h3⟩,
       ⟨⟨3, ![n0, m, c]⟩, extractStridedSlice ⟨3, ![n0, m, c]⟩ ![0, 4, 0] X h4⟩,
       ⟨⟨3, ![n0, m, c]⟩, extractStridedSlice ⟨3, ![n0, m, c]⟩ ![0, 5, 0] X h5⟩,
       ⟨⟨3, ![n0, m, c]⟩, extractStridedSlice ⟨3, ![n0, m, c]⟩ ![0, 6, 0] X h6⟩] hcat (ix3 p q j) = X (ix3 p k r) := by
  have hn : n = 7 * c := by
    have e := hcat.2.2
    simp at e
    omega
  have hcpos : 0 < c := Nat.pos_of_ne_zero fun h0c => by have := r.isLt; omega
  have hdm := Nat.div_add_mod j.val c
  have hjlt : j.val / c < 7 := by
    rw [Nat.div_lt_iff_lt_mul hcpos]; have := j.isLt; omega
  have hoff : ∀ b : Fin 3, b ≠ 2 → ((ix3 p q r : (⟨3, ![n0, m, c]⟩ : Shape).Idx) b).val = ((ix3 p q j : (⟨3, ![n0, m, n]⟩ : Shape).Idx) b).val := by
    intro b hb
    match b with
    | ⟨0, _⟩ => rfl
    | ⟨1, _⟩ => rfl
    | ⟨2, _⟩ => exact absurd rfl hb
  have key : ∀ (K : ℕ) (hK : K < 7) (Y : (⟨3, ![n0, m, c]⟩ : Shape).Idx → α)
      (L : List ((s : Shape) × (s.Idx → α))) (hL : L.map (·.1) = [(⟨3, ![n0, m, c]⟩ : Shape), ⟨3, ![n0, m, c]⟩, ⟨3, ![n0, m, c]⟩, ⟨3, ![n0, m, c]⟩,
      ⟨3, ![n0, m, c]⟩, ⟨3, ![n0, m, c]⟩, ⟨3, ![n0, m, c]⟩]) (hcat' : Shape.Concatenates (L.map (·.1)) ⟨3, ![n0, m, n]⟩ 2)
      (hlen : K < L.length) (hY : L[K] = ⟨⟨3, ![n0, m, c]⟩, Y⟩), j.val / c = K →
      concatenate ⟨3, ![n0, m, n]⟩ 2 L hcat' (ix3 p q j) = Y (ix3 p q r) := by
    intro K hK Y L hL hcat' hlen hY e
    rw [e] at hdm
    refine concatenate_apply_piece 2 L hcat' (ix3 p q j) K hlen ⟨3, ![n0, m, c]⟩ Y hY rfl (K * c) ?_ (ix3 p q r)
      (fun b hb => hoff b hb) ?_
    · rw [List.map_take, hL]
      interval_cases K <;> simp <;> omega
    · show K * c + r.val = j.val
      rw [hr, Nat.mul_comm]; exact hdm
  have hcases : j.val / c = 0 ∨ j.val / c = 1 ∨ j.val / c = 2 ∨ j.val / c = 3 ∨ j.val / c = 4 ∨ j.val / c = 5 ∨ j.val / c = 6 := by
    generalize j.val / c = d at hjlt
    omega
  rcases hcases with e | e | e | e | e | e | e
  · rw [e] at hk
    refine (key 0 (by omega) (extractStridedSlice ⟨3, ![n0, m, c]⟩ ![0, 0, 0] X h0) _ rfl _ (by simp) rfl e).trans ?_
    exact slice3_axis1_apply 0 X h0 p q r k (by omega)
  · rw [e] at hk
    refine (key 1 (by omega) (extractStridedSlice ⟨3, ![n0, m, c]⟩ ![0, 1, 0] X h1) _ rfl _ (by simp) rfl e).trans ?_
    exact slice3_axis1_apply 1 X h1 p q r k (by omega)
  · rw [e] at hk
    refine (key 2 (by omega) (extractStridedSlice ⟨3, ![n0, m, c]⟩ ![0, 2, 0] X h2) _ rfl _ (by simp) rfl e).trans ?_
    exact slice3_axis1_apply 2 X h2 p q r k (by omega)
  · rw [e] at hk
    refine (key 3 (by omega) (extractStridedSlice ⟨3, ![n0, m, c]⟩ ![0, 3, 0] X h3) _ rfl _ (by simp) rfl e).trans ?_
    exact slice3_axis1_apply 3 X h3 p q r k (by omega)
  · rw [e] at hk
    refine (key 4 (by omega) (extractStridedSlice ⟨3, ![n0, m, c]⟩ ![0, 4, 0] X h4) _ rfl _ (by simp) rfl e).trans ?_
    exact slice3_axis1_apply 4 X h4 p q r k (by omega)
  · rw [e] at hk
    refine (key 5 (by omega) (extractStridedSlice ⟨3, ![n0, m, c]⟩ ![0, 5, 0] X h5) _ rfl _ (by simp) rfl e).trans ?_
    exact slice3_axis1_apply 5 X h5 p q r k (by omega)
  · rw [e] at hk
    refine (key 6 (by omega) (extractStridedSlice ⟨3, ![n0, m, c]⟩ ![0, 6, 0] X h6) _ rfl _ (by simp) rfl e).trans ?_
    exact slice3_axis1_apply 6 X h6 p q r k (by omega)
end Window

/-- The eleven pointwise operations of the tanh-GELU, read at an index. -/
theorem gelu_chain_apply {s : Shape} (y : FVec Ideal s .f32) (i : s.Idx) :
    mulf (mulf (broadcast s (Scalar.ofBits (F := Ideal) .f32 0x3F000000#32)) y)
      (addf (broadcast s (Scalar.ofBits (F := Ideal) .f32 0x3F800000#32))
        (tanh (mulf (broadcast s (Scalar.ofBits (F := Ideal) .f32 0x3F4C422A#32))
          (addf y (mulf (mulf (mulf (broadcast s (Scalar.ofBits (F := Ideal) .f32 0x3D372713#32)) y) y) y))))) i
      = Cert.Spec.gelu (y i) := rfl

section Pad
variable {α : Type}

/-- Rows appended along axis 1: the rows before them are the first piece's. -/
theorem append_rows_apply_left {n0 n1 k m n2 : ℕ} (X : (⟨3, ![n0, n1, n2]⟩ : Shape).Idx → α) (Z : (⟨3, ![n0, k, n2]⟩ : Shape).Idx → α)
    (h : Shape.Concatenates [(⟨3, ![n0, n1, n2]⟩ : Shape), ⟨3, ![n0, k, n2]⟩] ⟨3, ![n0, m, n2]⟩ 1)
    (p : Fin n0) (q : Fin m) (r : Fin n2) (k : Fin n1) (hk : k.val = q.val) :
    concatenate ⟨3, ![n0, m, n2]⟩ 1 [⟨_, X⟩, ⟨_, Z⟩] h (ix3 p q r) = X (ix3 p k r) :=
  concatenate_pair_apply_left 1 X Z h (ix3 p q r) rfl (ix3 p k r) fun b => by
    match b with
    | ⟨0, _⟩ => rfl
    | ⟨1, _⟩ => exact hk
    | ⟨2, _⟩ => rfl

/-- Rows appended along axis 1: the rows from the first piece's extent on are the second piece's. -/
theorem append_rows_apply_right {n0 n1 k m n2 : ℕ} (X : (⟨3, ![n0, n1, n2]⟩ : Shape).Idx → α) (Z : (⟨3, ![n0, k, n2]⟩ : Shape).Idx → α)
    (h : Shape.Concatenates [(⟨3, ![n0, n1, n2]⟩ : Shape), ⟨3, ![n0, k, n2]⟩] ⟨3, ![n0, m, n2]⟩ 1)
    (p : Fin n0) (q : Fin m) (r : Fin n2) (q' : Fin k) (hq : q'.val + n1 = q.val) :
    concatenate ⟨3, ![n0, m, n2]⟩ 1 [⟨_, X⟩, ⟨_, Z⟩] h (ix3 p q r) = Z (ix3 p q' r) :=
  concatenate_pair_apply_right 1 X Z h (ix3 p q r) rfl rfl (ix3 p q' r) (fun b hb => by
    match b with
    | ⟨0, _⟩ => rfl
    | ⟨1, _⟩ => exact absurd rfl hb
    | ⟨2, _⟩ => rfl) hq

/-- A block of rows with a constant block before it and a constant block behind it (axis 1). -/
theorem pad_rows_apply {n0 a n1 mid b tot n2 : ℕ} (z : α) (X : (⟨3, ![n0, n1, n2]⟩ : Shape).Idx → α)
    (h1 : Shape.Concatenates [(⟨3, ![n0, a, n2]⟩ : Shape), ⟨3, ![n0, n1, n2]⟩] ⟨3, ![n0, mid, n2]⟩ 1)
    (h2 : Shape.Concatenates [(⟨3, ![n0, mid, n2]⟩ : Shape), ⟨3, ![n0, b, n2]⟩] ⟨3, ![n0, tot, n2]⟩ 1)
    (p : Fin n0) (q : Fin tot) (r : Fin n2) :
    concatenate ⟨3, ![n0, tot, n2]⟩ 1
      [⟨_, concatenate ⟨3, ![n0, mid, n2]⟩ 1 [⟨⟨3, ![n0, a, n2]⟩, broadcast ⟨3, ![n0, a, n2]⟩ z⟩, ⟨_, X⟩] h1⟩,
       ⟨⟨3, ![n0, b, n2]⟩, broadcast ⟨3, ![n0, b, n2]⟩ z⟩] h2 (ix3 p q r)
      = if hq : a ≤ q.val ∧ q.val < a + n1 then X (ix3 p ⟨q.val - a, by omega⟩ r) else z := by
  have hmid : mid = a + n1 := by have e := h1.2.2; simp at e; omega
  have htot : tot = mid + b := by have e := h2.2.2; simp at e; omega
  by_cases hlt : q.val < mid
  · rw [append_rows_apply_left _ _ h2 p q r ⟨q.val, hlt⟩ rfl]
    by_cases ha : q.val < a
    · rw [append_rows_apply_left _ _ h1 p ⟨q.val, hlt⟩ r ⟨q.val, ha⟩ rfl, dif_neg (by omega)]
      rfl
    · rw [append_rows_apply_right _ _ h1 p ⟨q.val, hlt⟩ r ⟨q.val - a, by omega⟩ (by show q.val - a + a = q.val; omega),
        dif_pos ⟨by omega, by omega⟩]
  · rw [append_rows_apply_right _ _ h2 p q r ⟨q.val - mid, by have := q.isLt; omega⟩ (by show q.val - mid + mid = q.val; omega),
      dif_neg (by omega)]
    rfl
end Pad

section Reshape
variable {α : Type}

/-- [a, b, c] read as [a·b, c]: row R is (R / b, R % b). -/
theorem flatten_rows_apply {a b c M : ℕ} (x : (⟨3, ![a, b, c]⟩ : Shape).Idx → α)
    (h : (⟨3, ![a, b, c]⟩ : Shape).ShapeCasts ⟨2, ![M, c]⟩) (R : Fin M) (j : Fin c) (p : Fin a) (q : Fin b)
    (hR : R.val = p.val * b + q.val) :
    shapeCast ⟨2, ![M, c]⟩ x h (ix2 R j) = x (ix3 p q j) :=
  shapeCast_apply x h _ _ (by
    rw [Shape.rowMajor_val_three, Shape.rowMajor_val_two]
    show (p.val * b + q.val) * c + j.val = R.val * c + j.val
    rw [hR])

/-- [a·b, c] read as [a, b, c]: entry (p, q) is row p·b + q. -/
theorem split_rows_apply {a b c M : ℕ} (x : (⟨2, ![M, c]⟩ : Shape).Idx → α)
    (h : (⟨2, ![M, c]⟩ : Shape).ShapeCasts ⟨3, ![a, b, c]⟩) (p : Fin a) (q : Fin b) (j : Fin c) (R : Fin M)
    (hR : R.val = p.val * b + q.val) :
    shapeCast ⟨3, ![a, b, c]⟩ x h (ix3 p q j) = x (ix2 R j) :=
  shapeCast_apply x h _ _ (by
    rw [Shape.rowMajor_val_three, Shape.rowMajor_val_two]
    show R.val * c + j.val = (p.val * b + q.val) * c + j.val
    rw [hR])
end Reshape

/-- The matrix product [256,448] × [448,128] into the zero accumulator, read at an index: the sum over the 448 columns. -/
theorem matmul5_apply (A : FVec Ideal S256x448 .f32) (W : FVec Ideal S448x128 .f32) (R : Fin 256) (co : Fin 128) :
    matmul dot_S256x448_S448x128_S256x128_1_0_0_1_n_n none A W (constant (F := Ideal) S256x128 .f32 0x00000000#32) (ix2 R co)
      = ∑ j : Fin 448, A (ix2 R j) * W (ix2 j co) := by
  simp only [matmul]
  rw [Ideal.matmul_constant_zero_apply,
    ← Equiv.sum_comp (contrEquiv1 dot_S256x448_S448x128_S256x128_1_0_0_1_n_n 448 rfl rfl).symm]
  refine Finset.sum_congr rfl fun j _ => ?_
  have hl : dot_S256x448_S448x128_S256x128_1_0_0_1_n_n.lhsIdx (ix2 R co)
      ((contrEquiv1 dot_S256x448_S448x128_S256x128_1_0_0_1_n_n 448 rfl rfl).symm j) = ix2 R j := by
    funext a
    match a with
    | ⟨0, _⟩ => rfl
    | ⟨1, _⟩ =>
      refine Fin.ext ?_
      exact (DotDims.lhsIdx_val_of_single _ (cl := (1 : Fin 2)) rfl _ _).trans (contrEquiv1_symm_val dot_S256x448_S448x128_S256x128_1_0_0_1_n_n 448 rfl rfl j)
  have hr : dot_S256x448_S448x128_S256x128_1_0_0_1_n_n.rhsIdx (ix2 R co)
      ((contrEquiv1 dot_S256x448_S448x128_S256x128_1_0_0_1_n_n 448 rfl rfl).symm j) = ix2 j co := by
    funext a
    match a with
    | ⟨1, _⟩ => rfl
    | ⟨0, _⟩ =>
      refine Fin.ext ?_
      exact (DotDims.rhsIdx_val_of_single _ (cr := (0 : Fin 2)) rfl _ _).trans (contrEquiv1_symm_val dot_S256x448_S448x128_S256x128_1_0_0_1_n_n 448 rfl rfl j)
  rw [hl, hr]

end Pay12

open Pay12

/-- The payload that builds the im2col matrix of layer 3 of branch 2 from the pooled, zero-padded first layer:
    one matrix product with the scaled taps, the shift, the GELU, the zero padding and the seven shifted copies. -/
theorem pay12_spec (P : Params) (B : ℕ) (hP : P.Real)
    (v183 : Vec Ideal S8x37x64 .f32) (x10 : Vec Ideal S448x128 .f32) (x11 : Vec Ideal S1x128 .f32)
    (h183 : KIface.IsQ1Z P B v183)
    (hx10 : ∀ (j : Fin 448) (co : Fin 128), x10 (ix2 j co) = P.w5 co.val (j.val % 64) (j.val / 64) * s5 P co.val)
    (hx11 : ∀ co : Fin 128, x11 (ix2 0 co) = t5 P co.val) :
    KIface.IsWin6 P B (k0_pay12 (F := Ideal) v183 x10 x11) := by
  unfold k0_pay12
  extract_lets v184 v185 v186 v187 v188 v189 v190 v191 v192 v193 v194 v195 v197 cst_54 v198 v200 v201 v202 cst_57 v203 v204 cst_58 v205 v206 v207 v208 v209 cst_59 v210 v211 v212 cst_60 v213 v214 v215 v216 v217 v219 v220 v222 v223 v224 v225 v226 v227 v228 v229 v230
  -- the window matrix of the padded first layer: column k·64 + ci of row l is the layer at row l + k, channel ci
  have e191 : ∀ (bb : Fin 8) (l : Fin 31) (j : Fin 448), v191 (ix3 bb l j)
      = zpad 3 31 (fun l' => Q1 P (B + bb.val) l' (j.val % 64)) (l.val + j.val / 64) := by
    intro bb l j
    have hj := j.isLt
    have hl := l.isLt
    rw [show v191 (ix3 bb l j) = v183 (ix3 bb ⟨l.val + j.val / 64, by omega⟩ ⟨j.val % 64, by omega⟩) from
      win7_apply v183 _ _ _ _ _ _ _ _ bb l j _ _ rfl rfl]
    exact h183 bb _ _
  -- its rows, flattened: row bb·32 + l
  have e195 : ∀ (bb : Fin 8) (l : Fin 31) (j : Fin 448), v195 (ix2 ⟨bb.val * 32 + l.val, by omega⟩ j)
      = zpad 3 31 (fun l' => Q1 P (B + bb.val) l' (j.val % 64)) (l.val + j.val / 64) := by
    intro bb l j
    have hl := l.isLt
    rw [show v195 (ix2 ⟨bb.val * 32 + l.val, by omega⟩ j) = v194 (ix3 bb ⟨l.val, by omega⟩ j) from
        flatten_rows_apply v194 _ _ j bb ⟨l.val, by omega⟩ rfl,
      show v194 (ix3 bb ⟨l.val, by omega⟩ j) = v191 (ix3 bb ⟨l.val, hl⟩ j) from
        append_rows_apply_left v191 v193 _ bb ⟨l.val, by omega⟩ j ⟨l.val, hl⟩ rfl]
    exact e191 bb l j
  -- the pre-activation: the convolution, scaled and shifted
  have e202 : ∀ (bb : Fin 8) (l : Fin 31) (co : Fin 128), v202 (ix2 ⟨bb.val * 32 + l.val, by omega⟩ co)
      = (∑ k ∈ Finset.range 7, ∑ ci ∈ Finset.range 64,
          zpad 3 31 (fun j => Q1 P (B + bb.val) j ci) (l.val + k) * P.w5 co.val ci k) * s5 P co.val + t5 P co.val := by
    intro bb l co
    show v198 (ix2 ⟨bb.val * 32 + l.val, by omega⟩ co) + v201 (ix2 ⟨bb.val * 32 + l.val, by omega⟩ co) = _
    have e201 : v201 (ix2 ⟨bb.val * 32 + l.val, by omega⟩ co) = t5 P co.val := by
      rw [show v201 (ix2 ⟨bb.val * 32 + l.val, by omega⟩ co) = v200 (ix2 (0 : Fin 1) co) from
        broadcastTo_1b_ab_apply v200 _ _ co, show v200 = x11 from shapeCast_self x11 _]
      exact hx11 co
    have e198 : v198 (ix2 ⟨bb.val * 32 + l.val, by omega⟩ co)
        = ∑ j : Fin 448, v195 (ix2 ⟨bb.val * 32 + l.val, by omega⟩ j) * x10 (ix2 j co) := by
      rw [show v198 (ix2 ⟨bb.val * 32 + l.val, by omega⟩ co)
          = ∑ j : Fin 448, v195 (ix2 ⟨bb.val * 32 + l.val, by omega⟩ j) * v197 (ix2 j co) from matmul5_apply v195 v197 _ co,
        show v197 = x10 from shapeCast_self x10 _]
    rw [e201, e198]
    congr 1
    rw [Finset.sum_congr rfl fun j _ => by rw [e195 bb l j, hx10 j co],
      Fin.sum_univ_eq_sum_range (fun j => zpad 3 31 (fun l' => Q1 P (B + bb.val) l' (j % 64)) (l.val + j / 64)
        * (P.w5 co.val (j % 64) (j / 64) * s5 P co.val)) 448]
    exact conv_fold 7 64 (by norm_num) (fun k ci => zpad 3 31 (fun l' => Q1 P (B + bb.val) l' ci) (l.val + k))
      (fun ci k => P.w5 co.val ci k) (s5 P co.val)
      (fun k ci _ _ => isReal_zpad 3 31 _ (fun i => isReal_Q1 hP _ i ci) _) (fun k ci _ _ => hP.w5 _ _ _) (isReal_s5 hP _)
  -- layer 2 of branch 2 at the rows that are kept
  have e217 : ∀ (bb : Fin 8) (l : Fin 31) (co : Fin 128), v217 (ix3 bb l co) = G2 P (B + bb.val) l.val co.val := by
    intro bb l co
    have hl := l.isLt
    rw [show v217 (ix3 bb l co) = v216 (ix3 bb ⟨l.val, by omega⟩ co) from
        slice3_axis1_apply 0 v216 _ bb l co ⟨l.val, by omega⟩ (by simp),
      show v216 (ix3 bb ⟨l.val, by omega⟩ co) = v215 (ix2 ⟨bb.val * 32 + l.val, by omega⟩ co) from
        split_rows_apply v215 _ bb ⟨l.val, by omega⟩ co ⟨bb.val * 32 + l.val, by omega⟩ rfl,
      show v215 (ix2 ⟨bb.val * 32 + l.val, by omega⟩ co) = gelu (v202 (ix2 ⟨bb.val * 32 + l.val, by omega⟩ co)) from
        gelu_chain_apply v202 _,
      e202 bb l co]
    rfl
  -- zero-padded by three rows before and three behind
  have e222 : ∀ (bb : Fin 8) (q : Fin 37) (co : Fin 128), v222 (ix3 bb q co)
      = zpad 3 31 (fun l' => G2 P (B + bb.val) l' co.val) q.val := by
    intro bb q co
    rw [show v222 (ix3 bb q co) = (if hq : 3 ≤ q.val ∧ q.val < 3 + 31 then v217 (ix3 bb ⟨q.val - 3, by omega⟩ co) else v192) from
      pad_rows_apply v192 v217 _ _ bb q co]
    unfold zpad
    by_cases hq : 3 ≤ q.val ∧ q.val < 3 + 31
    · rw [dif_pos hq, if_pos hq]
      exact e217 bb _ co
    · rw [dif_neg hq, if_neg hq]
      show Scalar.sitofp (F := Ideal) .f32 0#32 = 0
      simp [Ideal.scalar_sitofp_def]
  -- the seven shifted copies side by side
  intro bb l j
  have hj := j.isLt
  have hl := l.isLt
  rw [show v230 (ix3 bb l j) = v222 (ix3 bb ⟨l.val + j.val / 128, by omega⟩ ⟨j.val % 128, by omega⟩) from
    win7_apply v222 _ _ _ _ _ _ _ _ bb l j _ _ rfl rfl]
  exact e222 bb _ _

end Cert.KernelIdeal.KBody
end
-- ==== Proof.KPay1.lean ====
/-
  The block the kernel body stores, read entry by entry.

  One zero row is appended to the array of seven shifted copies of branch 2's second layer (zero-padded by 3), and the
  result is read as a 256 × 896 matrix: row bb · 32 + l, column k · 128 + ci is the padded second layer at position
  l + k, channel ci. Its product with the 896 × 128 matrix of weights, each already multiplied by the batch
  normalisation's scale, plus the shift row, is on the rows l < 31 the third layer before its activation: on real
  numbers the scale comes out of the sum, and the sum over 896 columns is the double sum over 7 taps and 128 channels.
  Eleven pointwise operations are tanh-GELU. Row 31 of each batch row is dropped; with one row of the most negative
  finite number in front, the 32 rows are pooled two by two (window 2, stride 2, padding 1), the maximum taken from −∞:
  branch 2's output, 16 positions. Placed after branch 1's 64 positions along time and read channel-major, this is the
  network's output.
-/
import proofs.«125144_g2000006933354569_pallasbulk_1054_1_alg».proof.Proof.Gen.KernelIdeal.Skeleton
import proofs.«125144_g2000006933354569_pallasbulk_1054_1_alg».proof.Proof.KIface
import proofs.«125144_g2000006933354569_pallasbulk_1054_1_alg».proof.Proof.SpecReal
import proofs.«125144_g2000006933354569_pallasbulk_1054_1_alg».proof.Proof.SpecReal2
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KBody

open Cert.KernelIdeal Cert.KernelIdeal.Gen Idealize.ShloMosaic Idealize.ShloMosaic.ValueIdx

/-! ## The operations of this payload read at an index -/

namespace Pay1
/-- The product of a 256 × 896 by an 896 × 128 matrix into a zero accumulator, read at an entry. -/
theorem matmul6_apply (A : FVec Ideal S256x896 .f32) (W : FVec Ideal S896x128 .f32) (r : Fin 256) (c : Fin 128) :
    matmul (F := Ideal) dot_S256x896_S896x128_S256x128_1_0_0_1_n_n none A W (constant (F := Ideal) S256x128 .f32 0x00000000#32) (ix2 r c)
      = ∑ j : Fin 896, A (ix2 r j) * W (ix2 j c) := by
  refine (Ideal.matmul_constant_zero_apply _ _ _ _ _).trans ?_
  rw [← Equiv.sum_comp (contrEquiv1 dot_S256x896_S896x128_S256x128_1_0_0_1_n_n 896 rfl rfl).symm]
  refine Finset.sum_congr rfl fun j _ => ?_
  have c2 := contrEquiv1_symm_val dot_S256x896_S896x128_S256x128_1_0_0_1_n_n 896 rfl rfl j
  have l2 : dot_S256x896_S896x128_S256x128_1_0_0_1_n_n.lhsIdx (ix2 r c) ((contrEquiv1 _ 896 rfl rfl).symm j) = ix2 r j := by
    funext ax; apply Fin.ext
    match ax with
    | ⟨0, _⟩ => simp [DotDims.lhsIdx, dot_S256x896_S896x128_S256x128_1_0_0_1_n_n]; rfl
    | ⟨1, _⟩ => simp [DotDims.lhsIdx, dot_S256x896_S896x128_S256x128_1_0_0_1_n_n]; exact c2
  have r2 : dot_S256x896_S896x128_S256x128_1_0_0_1_n_n.rhsIdx (ix2 r c) ((contrEquiv1 _ 896 rfl rfl).symm j) = ix2 j c := by
    funext ax; apply Fin.ext
    match ax with
    | ⟨0, _⟩ => simp [DotDims.rhsIdx, dot_S256x896_S896x128_S256x128_1_0_0_1_n_n]; exact c2
    | ⟨1, _⟩ => simp [DotDims.rhsIdx, dot_S256x896_S896x128_S256x128_1_0_0_1_n_n]; rfl
  rw [l2, r2]

/-- Two arrays joined along the middle axis, read in the first. -/
theorem concat3_left {α : Type} {n0 n1 n1' m n2 : ℕ} (x₁ : (⟨3, ![n0, n1, n2]⟩ : Shape).Idx → α) (x₂ : (⟨3, ![n0, n1', n2]⟩ : Shape).Idx → α)
    (h : Shape.Concatenates [⟨3, ![n0, n1, n2]⟩, ⟨3, ![n0, n1', n2]⟩] ⟨3, ![n0, m, n2]⟩ 1)
    (a : Fin n0) (j : Fin m) (e : Fin n2) (k : Fin n1) (hk : k.val = j.val) :
    concatenate ⟨3, ![n0, m, n2]⟩ 1 [⟨⟨3, ![n0, n1, n2]⟩, x₁⟩, ⟨⟨3, ![n0, n1', n2]⟩, x₂⟩] h (ix3 a j e) = x₁ (ix3 a k e) :=
  concatenate_pair_apply_left 1 x₁ x₂ h (ix3 a j e) rfl (ix3 a k e) fun b => by
    match b with
    | ⟨0, _⟩ => rfl
    | ⟨1, _⟩ => exact hk
    | ⟨2, _⟩ => rfl

/-- Two arrays joined along the middle axis, read in the second. -/
theorem concat3_right {α : Type} {n0 n1 n1' m n2 : ℕ} (x₁ : (⟨3, ![n0, n1, n2]⟩ : Shape).Idx → α) (x₂ : (⟨3, ![n0, n1', n2]⟩ : Shape).Idx → α)
    (h : Shape.Concatenates [⟨3, ![n0, n1, n2]⟩, ⟨3, ![n0, n1', n2]⟩] ⟨3, ![n0, m, n2]⟩ 1)
    (a : Fin n0) (j : Fin m) (e : Fin n2) (k : Fin n1') (hk : k.val + n1 = j.val) :
    concatenate ⟨3, ![n0, m, n2]⟩ 1 [⟨⟨3, ![n0, n1, n2]⟩, x₁⟩, ⟨⟨3, ![n0, n1', n2]⟩, x₂⟩] h (ix3 a j e) = x₂ (ix3 a k e) :=
  concatenate_pair_apply_right 1 x₁ x₂ h (ix3 a j e) rfl rfl (ix3 a k e) (fun b hb => by
    match b with
    | ⟨0, _⟩ => rfl
    | ⟨1, _⟩ => exact absurd rfl hb
    | ⟨2, _⟩ => rfl) hk

/-- A rank-3 array viewed as a matrix whose rows are the pairs of leading coordinates. -/
theorem cast3to2_apply {α : Type} {a b c m : ℕ} (x : (⟨3, ![a, b, c]⟩ : Shape).Idx → α)
    (h : (⟨3, ![a, b, c]⟩ : Shape).ShapeCasts ⟨2, ![m, c]⟩) (r : Fin m) (e : Fin c) (p : Fin a) (q : Fin b)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- A matrix viewed as a rank-3 array by splitting its row coordinate. -/
theorem cast2to3_apply {α : Type} {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_three, Shape.rowMajor_val_two]
    show r.val * c + e.val = (p.val * b + q.val) * c + e.val
    rw [hr])

/-- A rank-3 array viewed as a rank-4 array by splitting its middle coordinate. -/
theorem cast3to4_apply {α : Type} {a b b1 b2 c : ℕ} (x : (⟨3, ![a, b, c]⟩ : Shape).Idx → α)
    (h : (⟨3, ![a, b, c]⟩ : Shape).ShapeCasts ⟨4, ![a, b1, b2, c]⟩) (p : Fin a) (q1 : Fin b1) (q2 : Fin b2) (e : Fin c) (q : Fin b)
    (hb : b = b1 * b2) (hq : q.val = q1.val * b2 + q2.val) :
    shapeCast ⟨4, ![a, b1, b2, c]⟩ x h (ix4 p q1 q2 e) = x (ix3 p q e) :=
  shapeCast_apply x h _ _ (by
    rw [Shape.rowMajor_val_three, Shape.rowMajor_val_four]
    show (p.val * b + q.val) * c + e.val = ((p.val * b1 + q1.val) * b2 + q2.val) * c + e.val
    rw [hq, hb]; ring)

/-- The index over (p, q, e) with coordinate k on the reduced third axis. -/
theorem lift4_axis2 {a b k' c : ℕ} (h : (⟨4, ![a, b, k', c]⟩ : Shape).Reduces [2] ⟨3, ![a, b, c]⟩)
    (p : Fin a) (q : Fin b) (e : Fin c) (k : Fin k') :
    h.lift (ix3 p q e) k = ix4 p q k e := by
  funext ax; apply Fin.ext
  show h.liftVal (ix3 p q e) k.val ax = (ix4 p q k e ax).val
  unfold Shape.Reduces.liftVal
  match ax with
  | ⟨0, _⟩ => simp
  | ⟨1, _⟩ => simp
  | ⟨2, _⟩ => simp
  | ⟨3, _⟩ => simp

/-- The word 0xFF800000 is −∞. -/
theorem ofBits_neg_inf : Ideal.ofBits .f32 0xFF800000#32 = (⊥ : EReal) := by
  simp [Ideal.ofBits, Ideal.ieee]

/-- The running maximum from −∞ over two entries is the larger of the two. -/
theorem fold_max_fin2 (f : Fin 2 → EReal) : (Finset.univ : Finset (Fin 2)).fold max ⊥ f = max (f 0) (f 1) := by
  have hu : (Finset.univ : Finset (Fin 2)) = insert 0 {1} := by decide
  rw [hu, Finset.fold_insert (by decide), Finset.fold_singleton]
  simp

/-- The maximum over an axis of two entries, from −∞: the larger of the two entries. -/
theorem reduceMax4_axis2_apply {a b c : ℕ} (src : FVec Ideal ⟨4, ![a, b, 2, c]⟩ .f32)
    (h : (⟨4, ![a, b, 2, c]⟩ : Shape).Reduces [2] ⟨3, ![a, b, c]⟩) (hφ : FKind.Formats .f32)
    (hacc : (0xFF800000#32 : BitVec 32) = FKind.maximumf.neutral .f32 hφ) (p : Fin a) (q : Fin b) (e : Fin c) :
    multiReduction (F := Ideal) .maximumf [2] ⟨3, ![a, b, c]⟩ src 0xFF800000#32 h hφ hacc (ix3 p q e)
      = max (src (ix4 p q 0 e)) (src (ix4 p q 1 e)) := by
  refine (Ideal.multiReduction_maximumf_single src _ h hφ hacc (ix3 p q e)).trans ?_
  have hf : (src ∘ h.lift (ix3 p q e)) = fun k : Fin 2 => src (ix4 p q k e) :=
    funext fun k => congrArg src (lift4_axis2 h p q e k)
  exact (congrArg₂ (fun (b : EReal) (g : Fin 2 → EReal) => (Finset.univ : Finset (Fin 2)).fold max b g) ofBits_neg_inf hf).trans
    (fold_max_fin2 _)

/-- The eleven pointwise operations of the activation, read at an index: tanh-GELU of the entry. -/
theorem gelu_chain_apply {s : Shape} (y : FVec Ideal s .f32) (i : s.Idx) :
    mulf (F := Ideal) (mulf (F := Ideal) (broadcast s (Scalar.ofBits (F := Ideal) .f32 0x3F000000#32)) y)
      (addf (F := Ideal) (broadcast s (Scalar.ofBits (F := Ideal) .f32 0x3F800000#32))
        (tanh (F := Ideal) (mulf (F := Ideal) (broadcast s (Scalar.ofBits (F := Ideal) .f32 0x3F4C422A#32))
          (addf (F := Ideal) y (mulf (F := Ideal) (mulf (F := Ideal) (mulf (F := Ideal) (broadcast s (Scalar.ofBits (F := Ideal) .f32 0x3D372713#32)) y) y) y))))) i
      = Cert.Spec.gelu (y i) := rfl

/-! ## The stages of the payload -/

/-- The rows of the last layer with one row of the pooling's fill in front: the padded sequence the pooling reads.
    Row j of batch row bb is entry j of npad 1 31 G3. -/
theorem pad_stage (P : Cert.Spec.Params) (B : ℕ) (g : FVec Ideal S256x128 .f32)
    (hg : ∀ (bb : Fin 8) (q : Fin 31) (c : Fin 128) (r : Fin 256), r.val = bb.val * 32 + q.val →
      g (ix2 r c) = Cert.Spec.G3 P (B + bb.val) q.val c.val)
    (bb : Fin 8) (j : Fin 32) (c : Fin 128) :
    concatenate S8x32x128 1 [⟨S8x1x128, broadcast S8x1x128 (Scalar.ofBits (F := Ideal) .f32 0xFF7FFFFF#32)⟩,
        ⟨S8x31x128, extractStridedSlice S8x31x128 ![0, 0, 0] (shapeCast S8x32x128 g shapeCasts_S256x128_S8x32x128)
          slices_S8x32x128_o0_0_0_S8x31x128⟩] concatenates_S8x1x128_S8x31x128_S8x32x128_d1 (ix3 bb j c)
      = Cert.Spec.npad 1 31 (fun j' => Cert.Spec.G3 P (B + bb.val) j' c.val) j.val := by
  have hj32 := j.isLt
  unfold Cert.Spec.npad
  by_cases hj : j.val = 0
  · rw [if_neg (by omega), concat3_left _ _ _ bb j c ⟨0, by omega⟩ (by simp [hj])]
    rfl
  · rw [if_pos (by omega), concat3_right _ _ _ bb j c ⟨j.val - 1, by omega⟩ (by show j.val - 1 + 1 = j.val; omega)]
    rw [slice3_axis1_apply 0 _ _ bb ⟨j.val - 1, by omega⟩ c ⟨j.val - 1, by omega⟩ (by simp)]
    rw [cast2to3_apply _ _ bb ⟨j.val - 1, by omega⟩ c ⟨bb.val * 32 + (j.val - 1), by omega⟩ rfl]
    exact hg bb ⟨j.val - 1, by omega⟩ c _ rfl

/-- Pooling the padded rows two by two, placing the result after branch 1 along time and reading channel-major:
    the network's output. -/
theorem out_stage (P : Cert.Spec.Params) (B : ℕ) (v132 : FVec Ideal S8x64x128 .f32) (g : FVec Ideal S256x128 .f32)
    (h132 : KIface.IsX1 P B v132)
    (hg : ∀ (bb : Fin 8) (q : Fin 31) (c : Fin 128) (r : Fin 256), r.val = bb.val * 32 + q.val →
      g (ix2 r c) = Cert.Spec.G3 P (B + bb.val) q.val c.val)
    (bb : Fin 8) (c : Fin 128) (l : Fin 80) :
    transpose S8x128x80 [0, 2, 1] (concatenate S8x80x128 1 [⟨S8x64x128, v132⟩, ⟨S8x16x128,
      multiReduction (F := Ideal) .maximumf [2] S8x16x128 (shapeCast S8x16x2x128 (concatenate S8x32x128 1
        [⟨S8x1x128, broadcast S8x1x128 (Scalar.ofBits (F := Ideal) .f32 0xFF7FFFFF#32)⟩,
         ⟨S8x31x128, extractStridedSlice S8x31x128 ![0, 0, 0] (shapeCast S8x32x128 g shapeCasts_S256x128_S8x32x128)
           slices_S8x32x128_o0_0_0_S8x31x128⟩]
        concatenates_S8x1x128_S8x31x128_S8x32x128_d1) shapeCasts_S8x32x128_S8x16x2x128) 0xFF800000#32
        reduces_S8x16x2x128_S8x16x128 (.inl rfl) rfl⟩]
      concatenates_S8x64x128_S8x16x128_S8x80x128_d1) transposes_S8x80x128_p0_2_1_S8x128x80 (ix3 bb c l)
    = Cert.Spec.Out P (B + bb.val) c.val l.val := by
  have hl80 := l.isLt
  rw [transpose_ix3_021_apply]
  unfold Cert.Spec.Out
  by_cases hl : l.val < 64
  · rw [if_pos hl, concat3_left _ _ _ bb l c ⟨l.val, hl⟩ rfl]
    exact h132 bb ⟨l.val, hl⟩ c
  · rw [if_neg hl, concat3_right _ _ _ bb l c ⟨l.val - 64, by omega⟩ (by show l.val - 64 + 64 = l.val; omega)]
    refine (reduceMax4_axis2_apply _ _ _ _ bb ⟨l.val - 64, by omega⟩ c).trans ?_
    rw [cast3to4_apply _ _ bb ⟨l.val - 64, by omega⟩ 0 c ⟨2 * (l.val - 64), by omega⟩ rfl (by simp; omega),
      cast3to4_apply _ _ bb ⟨l.val - 64, by omega⟩ 1 c ⟨2 * (l.val - 64) + 1, by omega⟩ rfl (by simp; omega)]
    rw [pad_stage P B g hg, pad_stage P B g hg]
    unfold Cert.Spec.X2
    rw [Cert.Spec.pool_succ, Cert.Spec.pool_succ, Cert.Spec.pool_zero, max_bot_left]
    rfl

/-- The last layer before its activation: a row of the window matrix against a column of the scaled weights, plus the
    shift, is the convolution over 7 taps and 128 channels of the zero-padded previous layer, scaled and shifted. -/
theorem pre_stage (P : Cert.Spec.Params) (B : ℕ) (hP : P.Real)
    (v230 : FVec Ideal S8x31x896 .f32) (v231 : Ideal .f32) (x12 : Vec Ideal S896x128 .f32) (x13 : Vec Ideal S1x128 .f32)
    (h230 : KIface.IsWin6 P B v230)
    (hx12 : ∀ (j : Fin 896) (co : Fin 128), x12 (ix2 j co) = P.w6 co.val (j.val % 128) (j.val / 128) * Cert.Spec.s6 P co.val)
    (hx13 : ∀ co : Fin 128, x13 (ix2 0 co) = Cert.Spec.t6 P co.val)
    (bb : Fin 8) (q : Fin 31) (c : Fin 128) (r : Fin 256) (hr : r.val = bb.val * 32 + q.val) :
    addf (F := Ideal) (matmul (F := Ideal) dot_S256x896_S896x128_S256x128_1_0_0_1_n_n none
        (shapeCast S256x896 (concatenate S8x32x896 1 [⟨S8x31x896, v230⟩, ⟨S8x1x896, broadcast S8x1x896 v231⟩]
          concatenates_S8x31x896_S8x1x896_S8x32x896_d1) shapeCasts_S8x32x896_S256x896)
        (shapeCast S896x128 x12 shapeCasts_S896x128_S896x128 : FVec Ideal S896x128 .f32)
        (constant (F := Ideal) S256x128 .f32 0x00000000#32))
      (broadcastTo S256x128 (shapeCast S1x128 x13 shapeCasts_S1x128_S1x128 : FVec Ideal S1x128 .f32)
        broadcasts_S1x128_S256x128) (ix2 r c)
    = (∑ k ∈ Finset.range 7, ∑ ci ∈ Finset.range 128,
        Cert.Spec.zpad 3 31 (fun j => Cert.Spec.G2 P (B + bb.val) j ci) (q.val + k) * P.w6 c.val ci k)
      * Cert.Spec.s6 P c.val + Cert.Spec.t6 P c.val := by
  have hq := q.isLt
  have hb := bb.isLt
  rw [addf_apply, shapeCast_self, shapeCast_self, matmul6_apply, broadcastTo_1b_ab_apply, hx13]
  congr 1
  refine Eq.trans (Finset.sum_congr rfl (g := fun j : Fin 896 =>
      Cert.Spec.zpad 3 31 (fun l' => Cert.Spec.G2 P (B + bb.val) l' (j.val % 128)) (q.val + j.val / 128)
        * (P.w6 c.val (j.val % 128) (j.val / 128) * Cert.Spec.s6 P c.val)) fun j _ => ?_) ?_
  · rw [cast3to2_apply _ _ r j bb ⟨q.val, by omega⟩ hr, concat3_left (m := 32) v230 _ _ bb ⟨q.val, by omega⟩ j q rfl,
      h230 bb q j, hx12 j c]
  · rw [Fin.sum_univ_eq_sum_range (fun j =>
      Cert.Spec.zpad 3 31 (fun l' => Cert.Spec.G2 P (B + bb.val) l' (j % 128)) (q.val + j / 128)
        * (P.w6 c.val (j % 128) (j / 128) * Cert.Spec.s6 P c.val)) 896]
    exact Cert.Spec.conv_fold 7 128 (by norm_num)
      (fun k ci => Cert.Spec.zpad 3 31 (fun l' => Cert.Spec.G2 P (B + bb.val) l' ci) (q.val + k))
      (fun ci k => P.w6 c.val ci k) (Cert.Spec.s6 P c.val)
      (fun k ci _ _ => Cert.Spec.isReal_zpad _ _ _ (fun i => Cert.Spec.isReal_G2 hP _ _ _) _)
      (fun k ci _ _ => hP.w6 _ _ _) (Cert.Spec.isReal_s6 hP _)

end Pay1

open Pay1

/-! ## The two payloads -/

/-- The constant the body appends as a last window row is the real number zero. -/
theorem pay13_zero : k0_pay13 (F := Ideal) = 0 := by
  unfold k0_pay13
  simp [Ideal.scalar_sitofp_def]

/-- The block the body stores: entry (bb, c, l) is the network's output for batch row B + bb, channel c, time l. -/
theorem pay1_spec (P : Cert.Spec.Params) (B : ℕ) (hP : P.Real)
    (v132 : FVec Ideal S8x64x128 .f32) (v230 : FVec Ideal S8x31x896 .f32) (v231 : Ideal .f32)
    (x12 : Vec Ideal S896x128 .f32) (x13 : Vec Ideal S1x128 .f32)
    (h132 : KIface.IsX1 P B v132) (h230 : KIface.IsWin6 P B v230) (h231 : v231 = 0)
    (hx12 : ∀ (j : Fin 896) (co : Fin 128), x12 (ix2 j co) = P.w6 co.val (j.val % 128) (j.val / 128) * Cert.Spec.s6 P co.val)
    (hx13 : ∀ co : Fin 128, x13 (ix2 0 co) = Cert.Spec.t6 P co.val)
    (bb : Fin 8) (c : Fin 128) (l : Fin 80) :
    k0_pay1 (F := Ideal) v132 v230 v231 x12 x13 (ix3 bb c l) = Cert.Spec.Out P (B + bb.val) c.val l.val := by
  unfold k0_pay1
  refine out_stage P B v132 _ h132 (fun bb q c r hr => ?_) bb c l
  rw [gelu_chain_apply, pre_stage P B hP v230 v231 x12 x13 h230 hx12 hx13 bb q c r hr]
  rfl

end Cert.KernelIdeal.KBody

end
-- ==== Proof.KOut.lean ====
/-
  The kernel body's stored block, layer by layer: for the batch rows B … B+7 whose blocks a grid point
  loads, entry (bb, c, l) of the block it stores is the network's output for row B + bb, channel c, time l.
  Each payload of the body is one stretch of the network (first layer and pair maxima; pooling and second
  layer; third layer and pooling; the same for branch 2; the last layer, its pooling, the two branches
  side by side and the transposition), and the stretches compose.
-/
import proofs.«125144_g2000006933354569_pallasbulk_1054_1_alg».proof.Proof.KPay2
import proofs.«125144_g2000006933354569_pallasbulk_1054_1_alg».proof.Proof.KPay4
import proofs.«125144_g2000006933354569_pallasbulk_1054_1_alg».proof.Proof.KPay6
import proofs.«125144_g2000006933354569_pallasbulk_1054_1_alg».proof.Proof.KPay11
import proofs.«125144_g2000006933354569_pallasbulk_1054_1_alg».proof.Proof.KPay12
import proofs.«125144_g2000006933354569_pallasbulk_1054_1_alg».proof.Proof.KPay1

noncomputable section

namespace Cert.KernelIdeal.KBody

open Cert.KernelIdeal Cert.KernelIdeal.Gen Cert.Spec Idealize.ShloMosaic Idealize.ShloMosaic.ValueIdx

/-- The composed payloads at an index are the network's output. -/
theorem pay_eq (P : Params) (B : ℕ) (hP : P.Real)
    (x0 : Vec Ideal S8x254x12 .f32) (x1 : Vec Ideal S8x35x100 .f32) (x2 : Vec Ideal S60x128 .f32) (x3 : Vec Ideal S1x128 .f32)
    (x4 : Vec Ideal S512x128 .f32) (x5 : Vec Ideal S1x128 .f32) (x6 : Vec Ideal S1024x128 .f32) (x7 : Vec Ideal S1x128 .f32)
    (x8 : Vec Ideal S500x128 .f32) (x9 : Vec Ideal S1x128 .f32) (x10 : Vec Ideal S448x128 .f32) (x11 : Vec Ideal S1x128 .f32)
    (x12 : Vec Ideal S896x128 .f32) (x13 : Vec Ideal S1x128 .f32)
    (h : KIface.KHyp P B x0 x1 x2 x3 x4 x5 x6 x7 x8 x9 x10 x11 x12 x13) (bb : Fin 8) (ch : Fin 128) (l : Fin 80) :
    k0_pay1 (F := Ideal)
      (k0_pay6 (k0_pay4 (k0_pay2 x0 x2 x3) (k0_pay3 x0 x2 x3) x4 x5) (k0_pay5 (k0_pay2 x0 x2 x3) (k0_pay3 x0 x2 x3) x4 x5) x6 x7)
      (k0_pay12 (k0_pay11 (k0_pay7 x1) (k0_pay8 x1) (k0_pay9 x1) (k0_pay10 x1) x8 x9) x10 x11)
      (k0_pay13 (F := Ideal)) x12 x13 (ix3 bb ch l) = Out P (B + bb.val) ch.val l.val := by
  have h39 := pay2_spec P B hP x0 x2 x3 h.hx0 h.hx2 h.hx3
  have h44 := pay3_spec P B hP x0 x2 x3 h.hx0 h.hx2 h.hx3
  have h91 := pay4_spec P B hP _ _ x4 x5 h39 h44 h.hx4 h.hx5
  have h92 := pay5_spec P B hP _ _ x4 x5 h39 h44 h.hx4 h.hx5
  have h132 := pay6_spec P B hP _ _ x6 x7 h91 h92 h.hx6 h.hx7
  have h183 := pay11_spec P B hP x8 x9 h.hx8 h.hx9 _ _ _ _ (pay7_spec P B x1 h.hx1) (pay8_spec P B x1 h.hx1)
    (pay9_spec P B x1 h.hx1) (pay10_spec P B x1 h.hx1)
  have h230 := pay12_spec P B hP _ x10 x11 h183 h.hx10 h.hx11
  exact pay1_spec P B hP _ _ _ x12 x13 h132 h230 pay13_zero h.hx12 h.hx13 bb ch l

end Cert.KernelIdeal.KBody

end
-- ==== Proof.RefRun.lean ====
/-
  The reference program's run with EVERY unscoped buffer named: every weakly fair execution of its @main
  terminates without a fault, and each buffer of the program ends at the contents the fold over the
  program's segments gives it (`Gen.W53`: host operations applied in order, each launch's arrays at what
  its write-backs leave). The frame claim keeps only the argument arrays of this; the value claim needs
  the result array too, so the same launch theorem is instantiated once more with the whole post kept.
-/
import proofs.«125144_g2000006933354569_pallasbulk_1054_1_alg».proof.Proof.Gen.ReferenceIdeal.Frame

set_option maxRecDepth 16384

noncomputable section

namespace Cert.ReferenceIdeal.RefRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of the reference program after its run is the segment fold's last valuation. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W53 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W53 m ρ c b)
    (hfin := fun c s' => by
      iintro ⟨⟨Hh, -⟩, HSI⟩
      unfold StableHlo.held
      imodintro
      iapply (pointsTo_read_all (Pipeline.ucRefs τ sig) (fun b => (((c : Thread nD τ)).1, b)) (W53 m ρ c) s')
      isplitl [Hh] <;> iassumption)
    (hQ := fun s h => h)

/-- The result array and any argument array after the run. -/
theorem run_result : θ_run defs (onTc (τ := τ) (main (F := F))) ⟨m, fun _ => 0, ρ⟩ (fun r => ∀ c : Dev nD,
    r.2.mem ((c.tc : Thread nD τ).loc main_v120) = W53 m ρ c main_v120) :=
  (θ_run defs _ _).mono (fun r h c => h c _ (mem_uc main_v120 (by decide))) (run_all m ρ)

end Cert.ReferenceIdeal.RefRun

end
-- ==== Proof.RIface.lean ====
/-
  The network's arrays read off the reference program's launch memory, and readers of rank-2 and rank-4
  arrays by natural-number indices (0 outside the extents), as `Cert.Spec.ofArr1` / `ofArr3` are for ranks 1 and 3.
-/
import proofs.«125144_g2000006933354569_pallasbulk_1054_1_alg».proof.Proof.Spec
import proofs.«125144_g2000006933354569_pallasbulk_1054_1_alg».proof.ReferenceIdeal

noncomputable section

namespace Cert.Spec

open Idealize.ShloMosaic Idealize.ShloMosaic.ValueIdx

def ofArr2 {n0 n1 : ℕ} (a : (⟨2, ![n0, n1]⟩ : Shape).Idx → EReal) (i j : ℕ) : EReal :=
  if h : i < n0 ∧ j < n1 then a (ix2 ⟨i, h.1⟩ ⟨j, h.2⟩) else 0
def ofArr4 {n0 n1 n2 n3 : ℕ} (a : (⟨4, ![n0, n1, n2, n3]⟩ : Shape).Idx → EReal) (i j k l : ℕ) : EReal :=
  if h : i < n0 ∧ j < n1 ∧ k < n2 ∧ l < n3 then a (ix4 ⟨i, h.1⟩ ⟨j, h.2.1⟩ ⟨k, h.2.2.1⟩ ⟨l, h.2.2.2⟩) else 0

theorem ofArr2_val {n0 n1 : ℕ} (a : (⟨2, ![n0, n1]⟩ : Shape).Idx → EReal) (i : Fin n0) (j : Fin n1) :
    ofArr2 a i.val j.val = a (ix2 i j) := by
  simp [ofArr2]
theorem ofArr4_val {n0 n1 n2 n3 : ℕ} (a : (⟨4, ![n0, n1, n2, n3]⟩ : Shape).Idx → EReal) (i : Fin n0) (j : Fin n1) (k : Fin n2)
    (l : Fin n3) : ofArr4 a i.val j.val k.val l.val = a (ix4 i j k l) := by
  simp [ofArr4]

end Cert.Spec

namespace Cert.ReferenceIdeal

open Idealize.ShloMosaic Idealize.SL.Sem

/-- The network's arrays as core `c` of the reference program is launched with them. -/
def PR (m : (ℓ : Loc nD τ sig) → Buf (Elt Ideal) ℓ) (c : Dev nD) : Cert.Spec.Params :=
  Cert.Spec.params (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))

end Cert.ReferenceIdeal

end
-- ==== Proof.SpecRef.lean ====
/-
  Two regroupings the reference program's arrangement needs: a strided one-channel convolution computed
  as A taps of S lanes each (with the taps zero-padded up to A·S) is the plain K-tap sum, and a maximum
  over a window of K·C positions is the maximum over K groups of C.
-/
import proofs.«125144_g2000006933354569_pallasbulk_1054_1_alg».proof.Proof.SpecReal

noncomputable section

namespace Cert.Spec

open Finset

/-- A supremum over `range (K * C)` taken group by group. -/
theorem sup_range_mul {α : Type*} [SemilatticeSup α] [OrderBot α] (K C : ℕ) (f : ℕ → α) :
    (range (K * C)).sup f = (range K).sup fun k => (range C).sup fun c => f (k * C + c) := by
  induction K with
  | zero => simp
  | succ K ih =>
    rw [Nat.succ_mul, Finset.range_add_one (n := K), Finset.sup_insert, ← ih]
    apply le_antisymm
    · apply Finset.sup_le
      intro j hj
      rw [mem_range] at hj
      by_cases h : j < K * C
      · exact le_sup_of_le_right (le_sup (f := f) (mem_range.2 h))
      · have : j = K * C + (j - K * C) := by omega
        rw [this]
        exact le_sup_of_le_left (le_sup (f := fun c => f (K * C + c)) (mem_range.2 (by omega)))
    · apply sup_le
      · apply Finset.sup_le
        intro c hc
        rw [mem_range] at hc
        exact le_sup (f := f) (mem_range.2 (by omega))
      · exact Finset.sup_mono (range_mono (by omega))

/-- `zpad 0 K w` is `w` below `K` and zero from `K` on. -/
theorem zpad_zero_lt (K : ℕ) (w : ℕ → EReal) (k : ℕ) (h : k < K) : zpad 0 K w k = w k := by
  simp [zpad, h]
theorem zpad_zero_ge (K : ℕ) (w : ℕ → EReal) (k : ℕ) (h : K ≤ k) : zpad 0 K w k = 0 := by
  simp [zpad]; omega

/-- A stride-`S` convolution by `A` taps of `S` lanes, the `K ≤ A·S` weights zero-padded to `A·S`, is the
    `K`-tap sum: position `l + a`, lane `q` of the phase-split signal is sample `S·(l + a) + q = S·l + (a·S + q)`. -/
theorem conv1_ref (A S K : ℕ) (hK : K ≤ A * S) (xz w : ℕ → EReal) (l : ℕ) :
    ∑ a ∈ range A, ∑ q ∈ range S, xz (S * (l + a) + q) * zpad 0 K w (S * a + q)
      = ∑ k ∈ range K, xz (S * l + k) * w k := by
  have h1 : ∑ a ∈ range A, ∑ q ∈ range S, xz (S * (l + a) + q) * zpad 0 K w (S * a + q)
      = ∑ j ∈ range (A * S), xz (S * l + j) * zpad 0 K w j := by
    rw [sum_range_mul A S (fun j => xz (S * l + j) * zpad 0 K w j)]
    refine Finset.sum_congr rfl fun a _ => Finset.sum_congr rfl fun q _ => ?_
    rw [show S * (l + a) + q = S * l + (a * S + q) by ring, show S * a + q = a * S + q by ring]
  rw [h1, sum_range_zero_tail K (A * S) hK _ (fun j hj _ => by rw [zpad_zero_ge K w j hj, mul_zero])]
  exact Finset.sum_congr rfl fun k hk => by rw [zpad_zero_lt K w k (mem_range.1 hk)]

/-- A padded sequence only reads its `L` entries. -/
theorem zpad_congr (p L : ℕ) (f g : ℕ → EReal) (h : ∀ j, j < L → f j = g j) (j : ℕ) : zpad p L f j = zpad p L g j := by
  unfold zpad
  split
  · next hj => exact h _ (by omega)
  · rfl
theorem npad_congr (p L : ℕ) (f g : ℕ → EReal) (h : ∀ j, j < L → f j = g j) (j : ℕ) : npad p L f j = npad p L g j := by
  unfold npad
  split
  · next hj => exact h _ (by omega)
  · rfl

/-- An array of extents [n0, n1, n2] read through its row `b` (as a [1, n1, n2] block) and through itself agree. -/
theorem ofArr3_row {n0 n1 n2 : ℕ} (X : (⟨3, ![n0, n1, n2]⟩ : Idealize.ShloMosaic.Shape).Idx → EReal) (b : Fin n0)
    (R : (⟨3, ![1, n1, n2]⟩ : Idealize.ShloMosaic.Shape).Idx → EReal)
    (hR : ∀ (j : Fin n1) (k : Fin n2), R (Idealize.ShloMosaic.ValueIdx.ix3 0 j k) = X (Idealize.ShloMosaic.ValueIdx.ix3 b j k)) (j k : ℕ) :
    ofArr3 R 0 j k = ofArr3 X b.val j k := by
  unfold ofArr3
  by_cases h : j < n1 ∧ k < n2
  · rw [dif_pos ⟨by omega, h.1, h.2⟩, dif_pos ⟨b.isLt, h.1, h.2⟩]
    exact hR ⟨j, h.1⟩ ⟨k, h.2⟩
  · rw [dif_neg (fun h' => h ⟨h'.2.1, h'.2.2⟩), dif_neg (fun h' => h ⟨h'.2.1, h'.2.2⟩)]

end Cert.Spec

end
-- ==== Proof.RConvA.lean ====
/-
  The reference's convolution regions 0, 2 and 3 (branch 1), each body read at an index.

  A region's body takes a block x0 of rows (one leading unit axis), a stack x1 of A weight matrices, and one row each
  of scale x2 and shift x3. It adds, left to right onto a zero splat, the A products
  (rows a … a+L-1 of x0) × (matrix a of x1), multiplies by the scale row, adds the shift row, applies the tanh-GELU
  and stores the result over the whole output block. So at row l and channel co the output is
      gelu ((Σ_{a<A} Σ_{q<K} x0[0, l+a, q] · x1[a, q, co]) · x2[0, co] + x3[0, co]).
  No realness is needed: only  0 + m = m  is used, which holds on all of the extended reals.
-/
import proofs.«125144_g2000006933354569_pallasbulk_1054_1_alg».proof.Proof.Gen.ReferenceIdeal.Frame
import proofs.«125144_g2000006933354569_pallasbulk_1054_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RBody

open Cert.ReferenceIdeal Cert.ReferenceIdeal.Gen Cert.Spec Idealize.ShloMosaic Idealize.ShloMosaic.ValueIdx

/-! ## One tap -/

/-- One tap at (l, co): row l of a block of rows against column co of a weight matrix, both carrying a leading
    unit axis. -/
private def tap {L K N : ℕ} (v : (⟨3, ![1, L, K]⟩ : Shape).Idx → EReal) (w : (⟨3, ![1, K, N]⟩ : Shape).Idx → EReal)
    (l : Fin L) (co : Fin N) : EReal := ∑ q : Fin K, v (ix3 0 l q) * w (ix3 0 q co)

/-- A plain [L,K] × [K,N] matrix product into the zero splat, of two operands that drop a leading unit axis, is the
    tap. The four hypotheses on the operand indices say the dimension numbers are the plain ones: rows × contraction
    on the left, contraction × columns on the right. -/
private theorem matmul_tap {L K N : ℕ} (D : DotDims ⟨2, ![L, K]⟩ ⟨2, ![K, N]⟩ ⟨2, ![L, N]⟩)
    (hr : D.contr.rank = 1) (hs : D.contr.size ⟨0, by omega⟩ = K)
    (h00 : ∀ j k, (D.lhsIdx j k 0).val = (j 0).val) (h01 : ∀ j k, (D.lhsIdx j k 1).val = (k ⟨0, by omega⟩).val)
    (h10 : ∀ j k, (D.rhsIdx j k 0).val = (k ⟨0, by omega⟩).val) (h11 : ∀ j k, (D.rhsIdx j k 1).val = (j 1).val)
    (prec : Option ContractPrecision)
    (v : (⟨3, ![1, L, K]⟩ : Shape).Idx → EReal) (w : (⟨3, ![1, K, N]⟩ : Shape).Idx → EReal)
    (hv : (⟨3, ![1, L, K]⟩ : Shape).ShapeCasts ⟨2, ![L, K]⟩) (hw : (⟨3, ![1, K, N]⟩ : Shape).ShapeCasts ⟨2, ![K, N]⟩)
    (l : Fin L) (co : Fin N) :
    matmul (F := Ideal) (φ₁ := .f32) (φ₂ := .f32) D prec (shapeCast ⟨2, ![L, K]⟩ v hv) (shapeCast ⟨2, ![K, N]⟩ w hw)
      (constant ⟨2, ![L, N]⟩ .f32 0x00000000#32) (ix2 l co) = tap v w l co := by
  refine (Ideal.matmul_constant_zero_apply D prec _ _ (ix2 l co)).trans ?_
  unfold tap
  rw [← Equiv.sum_comp (contrEquiv1 D K hr hs).symm]
  refine Finset.sum_congr rfl fun q _ => ?_
  have e1 : D.lhsIdx (ix2 l co) ((contrEquiv1 D K hr hs).symm q) = ix2 l q := by
    funext a
    match a with
    | ⟨0, _⟩ => exact Fin.ext (h00 _ _)
    | ⟨1, _⟩ => exact Fin.ext ((h01 _ _).trans (contrEquiv1_symm_val D K hr hs q))
  have e2 : D.rhsIdx (ix2 l co) ((contrEquiv1 D K hr hs).symm q) = ix2 q co := by
    funext a
    match a with
    | ⟨0, _⟩ => exact Fin.ext ((h10 _ _).trans (contrEquiv1_symm_val D K hr hs q))
    | ⟨1, _⟩ => exact Fin.ext (h11 _ _)
  rw [e1, e2, shapeCast_1ab_ab_apply, shapeCast_1ab_ab_apply]

/-- The tap of the loads "m rows of x0 from row a" and "matrix a of x1": the sum over the K input channels of
    x0[0, l+a, q] · x1[a, q, co], the arrays read by natural-number indices. -/
private theorem tap_ld {n m K N A : ℕ} (x0 : (⟨3, ![1, n, K]⟩ : Shape).Idx → EReal)
    (x1 : (⟨3, ![A, K, N]⟩ : Shape).Idx → EReal) (a : ℕ)
    (inb0 : ∀ i, (![0, a, 0] : Fin 3 → ℕ) i + (![1, m, K] : Fin 3 → ℕ) i ≤ (⟨3, ![1, n, K]⟩ : Shape).size i)
    (inb1 : ∀ i, (![a, 0, 0] : Fin 3 → ℕ) i + (![1, K, N] : Fin 3 → ℕ) i ≤ (⟨3, ![A, K, N]⟩ : Shape).size i)
    (l : Fin m) (co : Fin N) :
    tap (View.ld (Val := Elt Ideal) (e' := .f32) x0 (Rect.unit (s := ⟨3, ![1, n, K]⟩) ![0, a, 0] ![1, m, K] inb0))
        (View.ld (Val := Elt Ideal) (e' := .f32) x1 (Rect.unit (s := ⟨3, ![A, K, N]⟩) ![a, 0, 0] ![1, K, N] inb1)) l co =
      ∑ q ∈ Finset.range K, ofArr3 x0 0 (l.val + a) q * ofArr3 x1 a q co.val := by
  have h0 : a + m ≤ n := inb0 1
  have h1 : a + 1 ≤ A := inb1 0
  unfold tap
  rw [Finset.sum_range]
  refine Finset.sum_congr rfl fun q _ => ?_
  have e0 : ofArr3 x0 0 (l.val + a) q.val = x0 (ix3 (0 : Fin 1) ⟨l.val + a, by omega⟩ q) :=
    ofArr3_val x0 (0 : Fin 1) ⟨l.val + a, by omega⟩ q
  have e1 : ofArr3 x1 a q.val co.val = x1 (ix3 ⟨a, by omega⟩ q co) := ofArr3_val x1 ⟨a, by omega⟩ q co
  rw [e0, e1]
  -- a load through a unit-stride rectangle reads the array at (offset + index), axis by axis
  refine congrArg₂ (· * ·) (congrArg x0 (funext fun i => ?_)) (congrArg x1 (funext fun i => ?_))
  · match i with
    | ⟨0, _⟩ => exact Fin.ext (by show 0 + 1 * 0 = 0; omega)
    | ⟨1, _⟩ => exact Fin.ext (by show a + 1 * l.val = l.val + a; omega)
    | ⟨2, _⟩ => exact Fin.ext (by show 0 + 1 * q.val = q.val; omega)
  · match i with
    | ⟨0, _⟩ => exact Fin.ext (by show a + 1 * 0 = a; omega)
    | ⟨1, _⟩ => exact Fin.ext (by show 0 + 1 * q.val = q.val; omega)
    | ⟨2, _⟩ => exact Fin.ext (by show 0 + 1 * co.val = co.val; omega)

/-! ## Small facts -/

private theorem zeros2 : (![0, 0] : Fin 2 → ℕ) = fun _ => 0 := by
  funext a; match a with | ⟨0, _⟩ => rfl | ⟨1, _⟩ => rfl
private theorem zeros3 : (![0, 0, 0] : Fin 3 → ℕ) = fun _ => 0 := by
  funext a; match a with | ⟨0, _⟩ => rfl | ⟨1, _⟩ => rfl | ⟨2, _⟩ => rfl

/-- The elementwise tanh at an index. -/
private theorem tanhv_apply {s : Shape} (x : FVec Ideal s .f32) (i : s.Idx) : tanh x i = Ideal.tanh (x i) := rfl

/-- A sum over nine taps, written out left to right. -/
private theorem sum_range_nine (f : ℕ → EReal) :
    ∑ a ∈ Finset.range 9, f a = f 0 + f 1 + f 2 + f 3 + f 4 + f 5 + f 6 + f 7 + f 8 := by
  simp only [Finset.sum_range_succ, Finset.sum_range_zero, zero_add]

/-- A sum over eight taps, written out left to right. -/
private theorem sum_range_eight (f : ℕ → EReal) :
    ∑ a ∈ Finset.range 8, f a = f 0 + f 1 + f 2 + f 3 + f 4 + f 5 + f 6 + f 7 := by
  simp only [Finset.sum_range_succ, Finset.sum_range_zero, zero_add]

/-! ## Region 0: 9 taps, 6 input channels, 64 output channels, 500 output rows of a 508-row block -/

/-- One of the body's products read at (l, co). -/
private theorem tap_0 (prec : Option ContractPrecision) (v : Vec Ideal S1x500x6 .f32) (w : Vec Ideal S1x6x64 .f32)
    (l : Fin 500) (co : Fin 64) :
    matmul (F := Ideal) (φ₁ := .f32) (φ₂ := .f32) dot_S500x6_S6x64_S500x64_1_0_0_1_n_n prec
      (shapeCast S500x6 v shapeCasts_S1x500x6_S500x6) (shapeCast S6x64 w shapeCasts_S1x6x64_S6x64)
      (constant S500x64 .f32 0x00000000#32) (ix2 l co) = tap v w l co :=
  matmul_tap dot_S500x6_S6x64_S500x64_1_0_0_1_n_n rfl rfl (fun _ _ => rfl) (fun _ _ => rfl) (fun _ _ => rfl)
    (fun _ _ => rfl) prec v w _ _ l co

/-- The first four taps, added left to right onto the zero splat. -/
private theorem pay2_0_apply (v1 : Vec Ideal S1x500x6 .f32) (v3 : Vec Ideal S1x6x64 .f32) (v7 : Vec Ideal S1x500x6 .f32)
    (v9 : Vec Ideal S1x6x64 .f32) (v13 : Vec Ideal S1x500x6 .f32) (v15 : Vec Ideal S1x6x64 .f32)
    (v19 : Vec Ideal S1x500x6 .f32) (v21 : Vec Ideal S1x6x64 .f32) (l : Fin 500) (co : Fin 64) :
    k0_pay2 (F := Ideal) v1 v3 v7 v9 v13 v15 v19 v21 (ix2 l co) =
      tap v1 v3 l co + tap v7 v9 l co + tap v13 v15 l co + tap v19 v21 l co := by
  unfold k0_pay2
  simp only [addf_apply, broadcast_apply, tap_0]
  rw [Ideal.ofBits_def, Ideal.ofBits_zero_f32, zero_add]

/-- The last five taps added onto the first four. -/
private theorem pay4_0_apply (v24 : FVec Ideal S500x64 .f32) (v25 : Vec Ideal S1x500x6 .f32) (v27 : Vec Ideal S1x6x64 .f32)
    (v31 : Vec Ideal S1x500x6 .f32) (v33 : Vec Ideal S1x6x64 .f32) (v37 : Vec Ideal S1x500x6 .f32)
    (v39 : Vec Ideal S1x6x64 .f32) (v43 : Vec Ideal S1x500x6 .f32) (v45 : Vec Ideal S1x6x64 .f32)
    (v49 : Vec Ideal S1x500x6 .f32) (v51 : Vec Ideal S1x6x64 .f32) (l : Fin 500) (co : Fin 64) :
    k0_pay4 (F := Ideal) v24 (k0_pay3 (F := Ideal) v25) v27 v31 v33 v37 v39 v43 v45 v49 v51 (ix2 l co) =
      v24 (ix2 l co) + tap v25 v27 l co + tap v31 v33 l co + tap v37 v39 l co + tap v43 v45 l co
        + tap v49 v51 l co := by
  unfold k0_pay4 k0_pay3
  simp only [addf_apply, tap_0]

/-- The batch normalisation's scale and shift, each one row laid along every output row, then the GELU chain,
    stored with a leading unit axis. -/
private theorem pay1_0_apply (v54 : FVec Ideal S500x64 .f32) (v55 v59 : Vec Ideal S1x64 .f32) (l : Fin 500) (co : Fin 64) :
    k0_pay1 (F := Ideal) v54 v55 v59 (ix3 0 l co) = gelu (v54 (ix2 l co) * v55 (ix2 0 co) + v59 (ix2 0 co)) := by
  unfold k0_pay1
  rw [shapeCast_ab_1ab_apply]
  simp only [mulf_apply, addf_apply, broadcast_apply, tanhv_apply, shapeCast_self, broadcastTo_1b_ab_apply]
  rfl

/-- Region 0's output block at row l and channel co: the GELU of the normalised convolution
    Σ_{a<9} Σ_{q<6} x0[0, l+a, q] · x1[a, q, co]. -/
theorem out0_4_apply (x0 : Vec Ideal S1x508x6 .f32) (x1 : Vec Ideal S9x6x64 .f32) (x2 x3 : Vec Ideal S1x64 .f32)
    (l : Fin 500) (co : Fin 64) :
    out0_4 (F := Ideal) x0 x1 x2 x3 (ix3 0 l co) =
      gelu ((∑ a ∈ Finset.range 9, ∑ q ∈ Finset.range 6, ofArr3 x0 0 (l.val + a) q * ofArr3 x1 a q co.val)
        * x2 (ix2 0 co) + x3 (ix2 0 co)) := by
  have t0 : tap (View.ld x0 r0_0) (View.ld x1 r0_1) l co = _ := tap_ld x0 x1 0 _ _ l co
  have t1 : tap (View.ld x0 r0_2) (View.ld x1 r0_3) l co = _ := tap_ld x0 x1 1 _ _ l co
  have t2 : tap (View.ld x0 r0_4) (View.ld x1 r0_5) l co = _ := tap_ld x0 x1 2 _ _ l co
  have t3 : tap (View.ld x0 r0_6) (View.ld x1 r0_7) l co = _ := tap_ld x0 x1 3 _ _ l co
  have t4 : tap (View.ld x0 r0_8) (View.ld x1 r0_9) l co = _ := tap_ld x0 x1 4 _ _ l co
  have t5 : tap (View.ld x0 r0_10) (View.ld x1 r0_11) l co = _ := tap_ld x0 x1 5 _ _ l co
  have t6 : tap (View.ld x0 r0_12) (View.ld x1 r0_13) l co = _ := tap_ld x0 x1 6 _ _ l co
  have t7 : tap (View.ld x0 r0_14) (View.ld x1 r0_15) l co = _ := tap_ld x0 x1 7 _ _ l co
  have t8 : tap (View.ld x0 r0_16) (View.ld x1 r0_17) l co = _ := tap_ld x0 x1 8 _ _ l co
  unfold out0_4
  rw [View.canon_unit_zero zeros3, pay1_0_apply, pay4_0_apply, pay2_0_apply, t0, t1, t2, t3, t4, t5, t6, t7, t8,
    View.ld_unit_zero zeros2, View.ld_unit_zero zeros2, sum_range_nine]

/-! ## Region 2: 8 taps, 64 input channels, 128 output channels, 252 output rows of a 259-row block -/

/-- One of the body's products read at (l, co). -/
private theorem tap_2 (prec : Option ContractPrecision) (v : Vec Ideal S1x252x64 .f32) (w : Vec Ideal S1x64x128 .f32)
    (l : Fin 252) (co : Fin 128) :
    matmul (F := Ideal) (φ₁ := .f32) (φ₂ := .f32) dot_S252x64_S64x128_S252x128_1_0_0_1_n_n prec (shapeCast S252x64 v shapeCasts_S1x252x64_S252x64)
      (shapeCast S64x128 w shapeCasts_S1x64x128_S64x128) (constant S252x128 .f32 0x00000000#32) (ix2 l co) = tap v w l co :=
  matmul_tap dot_S252x64_S64x128_S252x128_1_0_0_1_n_n rfl rfl (fun _ _ => rfl) (fun _ _ => rfl) (fun _ _ => rfl) (fun _ _ => rfl) prec v w _ _ l co

/-- The first four taps, added left to right onto the zero splat. -/
private theorem pay2_2_apply (v1 : Vec Ideal S1x252x64 .f32) (v3 : Vec Ideal S1x64x128 .f32) (v7 : Vec Ideal S1x252x64 .f32) (v9 : Vec Ideal S1x64x128 .f32) (v13 : Vec Ideal S1x252x64 .f32) (v15 : Vec Ideal S1x64x128 .f32) (v19 : Vec Ideal S1x252x64 .f32) (v21 : Vec Ideal S1x64x128 .f32)
    (l : Fin 252) (co : Fin 128) :
    k2_pay2 (F := Ideal) v1 v3 v7 v9 v13 v15 v19 v21 (ix2 l co) =
      tap v1 v3 l co + tap v7 v9 l co + tap v13 v15 l co + tap v19 v21 l co := by
  unfold k2_pay2
  simp only [addf_apply, broadcast_apply, tap_2]
  rw [Ideal.ofBits_def, Ideal.ofBits_zero_f32, zero_add]

/-- The last four taps added onto the first four, then the batch normalisation's scale and shift, each one row laid
    along every output row. -/
private theorem pay4_2_apply (v24 : FVec Ideal S252x128 .f32) (v25 : Vec Ideal S1x252x64 .f32) (v27 : Vec Ideal S1x64x128 .f32) (v31 : Vec Ideal S1x252x64 .f32) (v33 : Vec Ideal S1x64x128 .f32) (v37 : Vec Ideal S1x252x64 .f32) (v39 : Vec Ideal S1x64x128 .f32) (v43 : Vec Ideal S1x252x64 .f32) (v45 : Vec Ideal S1x64x128 .f32)
    (v49 v53 : Vec Ideal S1x128 .f32) (l : Fin 252) (co : Fin 128) :
    k2_pay4 (F := Ideal) v24 (k2_pay3 (F := Ideal) v25) v27 v31 v33 v37 v39 v43 v45 v49 v53 (ix2 l co) =
      (v24 (ix2 l co) + tap v25 v27 l co + tap v31 v33 l co + tap v37 v39 l co + tap v43 v45 l co) * v49 (ix2 0 co)
        + v53 (ix2 0 co) := by
  unfold k2_pay4 k2_pay3
  simp only [addf_apply, mulf_apply, tap_2, shapeCast_self, broadcastTo_1b_ab_apply]

/-- The GELU chain, stored with a leading unit axis. -/
private theorem pay1_2_apply (v56 : FVec Ideal S252x128 .f32) (l : Fin 252) (co : Fin 128) :
    k2_pay1 (F := Ideal) v56 (Scalar.ofBits .f32 0x3F000000#32) (ix3 0 l co) = gelu (v56 (ix2 l co)) := by
  unfold k2_pay1
  rw [shapeCast_ab_1ab_apply]
  simp only [mulf_apply, addf_apply, broadcast_apply, tanhv_apply]
  rfl

/-- Region 2's output block at row l and channel co: the GELU of the normalised convolution
    Σ_{a<8} Σ_{q<64} x0[0, l+a, q] · x1[a, q, co]. -/
theorem out2_4_apply (x0 : Vec Ideal S1x259x64 .f32) (x1 : Vec Ideal S8x64x128 .f32) (x2 x3 : Vec Ideal S1x128 .f32)
    (l : Fin 252) (co : Fin 128) :
    out2_4 (F := Ideal) x0 x1 x2 x3 (ix3 0 l co) =
      gelu ((∑ a ∈ Finset.range 8, ∑ q ∈ Finset.range 64, ofArr3 x0 0 (l.val + a) q * ofArr3 x1 a q co.val)
        * x2 (ix2 0 co) + x3 (ix2 0 co)) := by
  have t0 : tap (View.ld x0 r2_0) (View.ld x1 r2_1) l co = _ := tap_ld x0 x1 0 _ _ l co
  have t1 : tap (View.ld x0 r2_2) (View.ld x1 r2_3) l co = _ := tap_ld x0 x1 1 _ _ l co
  have t2 : tap (View.ld x0 r2_4) (View.ld x1 r2_5) l co = _ := tap_ld x0 x1 2 _ _ l co
  have t3 : tap (View.ld x0 r2_6) (View.ld x1 r2_7) l co = _ := tap_ld x0 x1 3 _ _ l co
  have t4 : tap (View.ld x0 r2_8) (View.ld x1 r2_9) l co = _ := tap_ld x0 x1 4 _ _ l co
  have t5 : tap (View.ld x0 r2_10) (View.ld x1 r2_11) l co = _ := tap_ld x0 x1 5 _ _ l co
  have t6 : tap (View.ld x0 r2_12) (View.ld x1 r2_13) l co = _ := tap_ld x0 x1 6 _ _ l co
  have t7 : tap (View.ld x0 r2_14) (View.ld x1 r2_15) l co = _ := tap_ld x0 x1 7 _ _ l co
  unfold out2_4
  rw [View.canon_unit_zero zeros3, pay1_2_apply, pay4_2_apply, pay2_2_apply, t0, t1, t2, t3, t4, t5, t6, t7,
    View.ld_unit_zero zeros2, View.ld_unit_zero zeros2, sum_range_eight]

/-! ## Region 3: 8 taps, 128 input channels, 128 output channels, 253 output rows of a 260-row block -/

/-- One of the body's products read at (l, co). -/
private theorem tap_3 (prec : Option ContractPrecision) (v : Vec Ideal S1x253x128 .f32) (w : Vec Ideal S1x128x128 .f32)
    (l : Fin 253) (co : Fin 128) :
    matmul (F := Ideal) (φ₁ := .f32) (φ₂ := .f32) dot_S253x128_S128x128_S253x128_1_0_0_1_n_n prec (shapeCast S253x128 v shapeCasts_S1x253x128_S253x128)
      (shapeCast S128x128 w shapeCasts_S1x128x128_S128x128) (constant S253x128 .f32 0x00000000#32) (ix2 l co) = tap v w l co :=
  matmul_tap dot_S253x128_S128x128_S253x128_1_0_0_1_n_n rfl rfl (fun _ _ => rfl) (fun _ _ => rfl) (fun _ _ => rfl) (fun _ _ => rfl) prec v w _ _ l co

/-- The first four taps, added left to right onto the zero splat. -/
private theorem pay2_3_apply (v1 : Vec Ideal S1x253x128 .f32) (v3 : Vec Ideal S1x128x128 .f32) (v7 : Vec Ideal S1x253x128 .f32) (v9 : Vec Ideal S1x128x128 .f32) (v13 : Vec Ideal S1x253x128 .f32) (v15 : Vec Ideal S1x128x128 .f32) (v19 : Vec Ideal S1x253x128 .f32) (v21 : Vec Ideal S1x128x128 .f32)
    (l : Fin 253) (co : Fin 128) :
    k3_pay2 (F := Ideal) v1 v3 v7 v9 v13 v15 v19 v21 (ix2 l co) =
      tap v1 v3 l co + tap v7 v9 l co + tap v13 v15 l co + tap v19 v21 l co := by
  unfold k3_pay2
  simp only [addf_apply, broadcast_apply, tap_3]
  rw [Ideal.ofBits_def, Ideal.ofBits_zero_f32, zero_add]

/-- The last four taps added onto the first four, then the batch normalisation's scale and shift, each one row laid
    along every output row. -/
private theorem pay4_3_apply (v24 : FVec Ideal S253x128 .f32) (v25 : Vec Ideal S1x253x128 .f32) (v27 : Vec Ideal S1x128x128 .f32) (v31 : Vec Ideal S1x253x128 .f32) (v33 : Vec Ideal S1x128x128 .f32) (v37 : Vec Ideal S1x253x128 .f32) (v39 : Vec Ideal S1x128x128 .f32) (v43 : Vec Ideal S1x253x128 .f32) (v45 : Vec Ideal S1x128x128 .f32)
    (v49 v53 : Vec Ideal S1x128 .f32) (l : Fin 253) (co : Fin 128) :
    k3_pay4 (F := Ideal) v24 (k3_pay3 (F := Ideal) v25) v27 v31 v33 v37 v39 v43 v45 v49 v53 (ix2 l co) =
      (v24 (ix2 l co) + tap v25 v27 l co + tap v31 v33 l co + tap v37 v39 l co + tap v43 v45 l co) * v49 (ix2 0 co)
        + v53 (ix2 0 co) := by
  unfold k3_pay4 k3_pay3
  simp only [addf_apply, mulf_apply, tap_3, shapeCast_self, broadcastTo_1b_ab_apply]

/-- The GELU chain, stored with a leading unit axis. -/
private theorem pay1_3_apply (v56 : FVec Ideal S253x128 .f32) (l : Fin 253) (co : Fin 128) :
    k3_pay1 (F := Ideal) v56 (Scalar.ofBits .f32 0x3F000000#32) (ix3 0 l co) = gelu (v56 (ix2 l co)) := by
  unfold k3_pay1
  rw [shapeCast_ab_1ab_apply]
  simp only [mulf_apply, addf_apply, broadcast_apply, tanhv_apply]
  rfl

/-- Region 3's output block at row l and channel co: the GELU of the normalised convolution
    Σ_{a<8} Σ_{q<128} x0[0, l+a, q] · x1[a, q, co]. -/
theorem out3_4_apply (x0 : Vec Ideal S1x260x128 .f32) (x1 : Vec Ideal S8x128x128 .f32) (x2 x3 : Vec Ideal S1x128 .f32)
    (l : Fin 253) (co : Fin 128) :
    out3_4 (F := Ideal) x0 x1 x2 x3 (ix3 0 l co) =
      gelu ((∑ a ∈ Finset.range 8, ∑ q ∈ Finset.range 128, ofArr3 x0 0 (l.val + a) q * ofArr3 x1 a q co.val)
        * x2 (ix2 0 co) + x3 (ix2 0 co)) := by
  have t0 : tap (View.ld x0 r3_0) (View.ld x1 r3_1) l co = _ := tap_ld x0 x1 0 _ _ l co
  have t1 : tap (View.ld x0 r3_2) (View.ld x1 r3_3) l co = _ := tap_ld x0 x1 1 _ _ l co
  have t2 : tap (View.ld x0 r3_4) (View.ld x1 r3_5) l co = _ := tap_ld x0 x1 2 _ _ l co
  have t3 : tap (View.ld x0 r3_6) (View.ld x1 r3_7) l co = _ := tap_ld x0 x1 3 _ _ l co
  have t4 : tap (View.ld x0 r3_8) (View.ld x1 r3_9) l co = _ := tap_ld x0 x1 4 _ _ l co
  have t5 : tap (View.ld x0 r3_10) (View.ld x1 r3_11) l co = _ := tap_ld x0 x1 5 _ _ l co
  have t6 : tap (View.ld x0 r3_12) (View.ld x1 r3_13) l co = _ := tap_ld x0 x1 6 _ _ l co
  have t7 : tap (View.ld x0 r3_14) (View.ld x1 r3_15) l co = _ := tap_ld x0 x1 7 _ _ l co
  unfold out3_4
  rw [View.canon_unit_zero zeros3, pay1_3_apply, pay4_3_apply, pay2_3_apply, t0, t1, t2, t3, t4, t5, t6, t7,
    View.ld_unit_zero zeros2, View.ld_unit_zero zeros2, sum_range_eight]

end Cert.ReferenceIdeal.RBody

end
-- ==== Proof.RRegionA.lean ====
/-
  From blocks to the array, for the reference's regions 0 to 4 (branch 1: convolution, max pooling, two
  convolutions, max pooling).

  Every one of these regions runs over the 2048 batch rows. Grid point `t` stages batch row `t` of each
  batch-indexed array (a block of leading extent 1) and the whole of every weight, scale and shift array, and
  writes back batch row `t` of the output. So the output array, at batch row `b`, is the body's result of
  row `b` of the input and the whole other arrays.

  Per region: the index maps read at a point (`idxR_W`: `![t, 0, …]` for a batch-indexed window, all zero for
  a whole one, by arithmetic on the point's one coordinate); each input block read where its rectangle says
  (`iblkR_W`: a block's coordinate is index × size + the coordinate inside); the whole-array function `GR`
  whose block `t` is what point `t` writes back (`flushedR`); batch row `b` lies in point `b`'s block
  (`mem_blkR`); hence the array at one index (`regionR_at`). Everything is stated at a parameter `V`, the
  buffer contents when the region is entered.
-/
import proofs.«125144_g2000006933354569_pallasbulk_1054_1_alg».proof.Proof.Gen.ReferenceIdeal.Frame
import Idealize.ShloMosaic.Lib.ValueIdx
import Idealize.ShloMosaic.Lib.Pipeline.Value

set_option maxRecDepth 16384

noncomputable section

namespace Cert.ReferenceIdeal.RRegion

open Cert.ReferenceIdeal Cert.ReferenceIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Region 0 -/

theorem stride0 : grid0.stride 0 = 1 := by decide

theorem lt0 (t : Fin cfg0.N) : t.val < 2048 := by
  have hN : cfg0.N = 2048 := N_0
  have ht := t.isLt
  omega

/-- The grid is the 2048 batch rows: point `t`'s one coordinate is `t`. -/
theorem coord0 (t : Fin cfg0.N) : (grid0.coords t 0).val = t.val := by
  have ht := lt0 t
  show t.val / grid0.stride 0 % 2048 = t.val
  rw [stride0]; omega

theorem idx0_0 (t : Fin cfg0.N) : win0_0.index t = ![t.val, 0, 0] := by
  have ht := lt0 t
  show cc0_transform_0 (grid0.coords t) = _
  unfold cc0_transform_0
  simp only [coord0, BitVec.toNat_ofNat]
  congr 1
  omega

theorem idx0_1 (t : Fin cfg0.N) : win0_1.index t = ![0, 0, 0] := by
  show cc0_transform_1 (grid0.coords t) = _
  unfold cc0_transform_1
  rfl

theorem idx0_2 (t : Fin cfg0.N) : win0_2.index t = ![0, 0] := by
  show cc0_transform_2 (grid0.coords t) = _
  unfold cc0_transform_2
  rfl

theorem idx0_3 (t : Fin cfg0.N) : win0_3.index t = ![0, 0] := by
  show cc0_transform_3 (grid0.coords t) = _
  unfold cc0_transform_3
  rfl

theorem idx0_4 (t : Fin cfg0.N) : win0_4.index t = ![t.val, 0, 0] := by
  have ht := lt0 t
  show cc0_transform_4 (grid0.coords t) = _
  unfold cc0_transform_4
  simp only [coord0, BitVec.toNat_ofNat]
  congr 1
  omega

/-- Window 0's block at point `t` is batch row `t` of its array. -/
theorem iblk0_0 (c : Dev nD) (t : Fin cfg0.N) :
    (iblk0 V c 0 t : S1x508x6.Idx → EReal)
      = fun y => (V c (Pipeline.arrRef spec0 0) : S2048x508x6.Idx → EReal) (ix3 ⟨t.val, lt0 t⟩ (y 1) (y 2)) := by
  funext y
  have hy : (y 0).val < 1 := (y 0).isLt
  have e := idx0_0 t
  have hemb : (((cfg0.win 0).blk t).view.emb y : S2048x508x6.Idx) = ix3 ⟨t.val, lt0 t⟩ (y 1) (y 2) := by
    funext a
    apply Fin.ext
    match a with
    | ⟨0, _⟩ => show win0_0.index t 0 * 1 + 1 * (y 0).val = t.val; rw [e]; show t.val * 1 + 1 * (y 0).val = t.val; omega
    | ⟨1, _⟩ => show win0_0.index t 1 * 508 + 1 * (y 1).val = (y 1).val; rw [e]; show 0 * 508 + 1 * (y 1).val = (y 1).val; omega
    | ⟨2, _⟩ => show win0_0.index t 2 * 6 + 1 * (y 2).val = (y 2).val; rw [e]; show 0 * 6 + 1 * (y 2).val = (y 2).val; omega
  exact congrArg (V c (Pipeline.arrRef spec0 0) : S2048x508x6.Idx → EReal) hemb

/-- Window 1 stages its whole array at every point. -/
theorem iblk0_1 (c : Dev nD) (t : Fin cfg0.N) :
    (iblk0 V c 1 t : S9x6x64.Idx → EReal) = (V c (Pipeline.arrRef spec0 1) : S9x6x64.Idx → EReal) := by
  funext y
  have e := idx0_1 t
  have hemb : (((cfg0.win 1).blk t).view.emb y : S9x6x64.Idx) = y := by
    funext a
    apply Fin.ext
    match a with
    | ⟨0, _⟩ => show win0_1.index t 0 * 9 + 1 * (y 0).val = (y 0).val; rw [e]; show 0 * 9 + 1 * (y 0).val = (y 0).val; omega
    | ⟨1, _⟩ => show win0_1.index t 1 * 6 + 1 * (y 1).val = (y 1).val; rw [e]; show 0 * 6 + 1 * (y 1).val = (y 1).val; omega
    | ⟨2, _⟩ => show win0_1.index t 2 * 64 + 1 * (y 2).val = (y 2).val; rw [e]; show 0 * 64 + 1 * (y 2).val = (y 2).val; omega
  exact congrArg (V c (Pipeline.arrRef spec0 1) : S9x6x64.Idx → EReal) hemb

/-- Window 2 stages its whole array at every point. -/
theorem iblk0_2 (c : Dev nD) (t : Fin cfg0.N) :
    (iblk0 V c 2 t : S1x64.Idx → EReal) = (V c (Pipeline.arrRef spec0 2) : S1x64.Idx → EReal) := by
  funext y
  have e := idx0_2 t
  have hemb : (((cfg0.win 2).blk t).view.emb y : S1x64.Idx) = y := by
    funext a
    apply Fin.ext
    match a with
    | ⟨0, _⟩ => show win0_2.index t 0 * 1 + 1 * (y 0).val = (y 0).val; rw [e]; show 0 * 1 + 1 * (y 0).val = (y 0).val; omega
    | ⟨1, _⟩ => show win0_2.index t 1 * 64 + 1 * (y 1).val = (y 1).val; rw [e]; show 0 * 64 + 1 * (y 1).val = (y 1).val; omega
  exact congrArg (V c (Pipeline.arrRef spec0 2) : S1x64.Idx → EReal) hemb

/-- Window 3 stages its whole array at every point. -/
theorem iblk0_3 (c : Dev nD) (t : Fin cfg0.N) :
    (iblk0 V c 3 t : S1x64.Idx → EReal) = (V c (Pipeline.arrRef spec0 3) : S1x64.Idx → EReal) := by
  funext y
  have e := idx0_3 t
  have hemb : (((cfg0.win 3).blk t).view.emb y : S1x64.Idx) = y := by
    funext a
    apply Fin.ext
    match a with
    | ⟨0, _⟩ => show win0_3.index t 0 * 1 + 1 * (y 0).val = (y 0).val; rw [e]; show 0 * 1 + 1 * (y 0).val = (y 0).val; omega
    | ⟨1, _⟩ => show win0_3.index t 1 * 64 + 1 * (y 1).val = (y 1).val; rw [e]; show 0 * 64 + 1 * (y 1).val = (y 1).val; omega
  exact congrArg (V c (Pipeline.arrRef spec0 3) : S1x64.Idx → EReal) hemb

/-- The array region 0 leaves: at batch row `i 0`, the body's result of row `i 0` of the input and the whole weights, scale and shift. -/
def G0 (c : Dev nD) : S2048x500x64.Idx → EReal := fun i =>
  out0_4 (F := Ideal) (fun y => (V c (Pipeline.arrRef spec0 0) : S2048x508x6.Idx → EReal) (ix3 (i 0) (y 1) (y 2)))
      (V c (Pipeline.arrRef spec0 1)) (V c (Pipeline.arrRef spec0 2)) (V c (Pipeline.arrRef spec0 3)) (ix3 0 (i 1) (i 2))

/-- `G0` at an index whose batch coordinate is `b` and whose other coordinates are those of `k`. -/
theorem G0_at (c : Dev nD) (i : S2048x500x64.Idx) (b : Fin 2048) (k : S1x500x64.Idx)
    (h0 : (i 0).val = b.val) (hk : (k 0).val = 0) (h1 : (i 1).val = (k 1).val) (h2 : (i 2).val = (k 2).val) :
    G0 V c i = out0_4 (F := Ideal) (fun y => (V c (Pipeline.arrRef spec0 0) : S2048x508x6.Idx → EReal) (ix3 b (y 1) (y 2)))
      (V c (Pipeline.arrRef spec0 1)) (V c (Pipeline.arrRef spec0 2)) (V c (Pipeline.arrRef spec0 3)) k := by
  have eb : i 0 = b := Fin.ext h0
  have ek : (ix3 0 (i 1) (i 2) : S1x500x64.Idx) = k := by
    funext a
    apply Fin.ext
    match a with
    | ⟨0, _⟩ => exact hk.symm
    | ⟨1, _⟩ => exact h1
    | ⟨2, _⟩ => exact h2
  unfold G0
  rw [eb, ek]

/-- Reading an array through point `t`'s block of the output window is reading it at the block's indices. -/
theorem read_blk0 (f : S2048x500x64.Idx → EReal) (t : Fin cfg0.N) (j : ((cfg0.win 4).xblock (grid0.coords t)).Idx) :
    ((cfg0.win 4).blk t).view.read (Elt Ideal) f j = f (((cfg0.win 4).blk t).view.emb j) := rfl

/-- The write-back moves the whole staging buffer. -/
theorem cut_blk0 (X : S1x500x64.Idx → EReal) (t : Fin cfg0.N) (j : ((cfg0.win 4).xblock (grid0.coords t)).Idx) :
    (cfg0.win 4).cut (grid0.coords t) X j = X ((cfg0.win 4).xinj (grid0.coords t) j) := rfl

/-- What point `t` writes back is block `t` of `G0`. -/
theorem flushed0 (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4, iblk0_0, iblk0_1, iblk0_2, iblk0_3]
  funext j
  rw [read_blk0, cut_blk0]
  have hj : (j 0).val < 1 := (j 0).isLt
  have e := idx0_4 t
  refine (G0_at V c (((cfg0.win 4).blk t).view.emb j) ⟨t.val, lt0 t⟩ ((cfg0.win 4).xinj (grid0.coords t) j) ?_ ?_ ?_ ?_).symm
  · show win0_4.index t 0 * 1 + 1 * (j 0).val = t.val; rw [e]; show t.val * 1 + 1 * (j 0).val = t.val; omega
  · show (j 0).val = 0; omega
  · show win0_4.index t 1 * 500 + 1 * (j 1).val = (j 1).val; rw [e]; show 0 * 500 + 1 * (j 1).val = (j 1).val; omega
  · show win0_4.index t 2 * 64 + 1 * (j 2).val = (j 2).val; rw [e]; show 0 * 64 + 1 * (j 2).val = (j 2).val; omega

/-- An index of the output array whose batch coordinate is `t` lies in point `t`'s block. -/
theorem mem_blk0 (t : Fin cfg0.N) (b : Fin 2048) (l : Fin 500) (co : Fin 64) (h : b.val = t.val) :
    (ix3 b l co : S2048x500x64.Idx) ∈ ((cfg0.win 4).blk t).view.set := by
  show (ix3 b l co : S2048x500x64.Idx) ∈ ((View.whole main_v17).slice (win0_4.rect t)).set
  rw [View.set_slice_whole, Rect.mem_set_unit]
  have e := idx0_4 t
  intro a
  match a with
  | ⟨0, _⟩ => show win0_4.index t 0 * 1 ≤ b.val ∧ b.val < win0_4.index t 0 * 1 + 1; rw [e]; show t.val * 1 ≤ b.val ∧ b.val < t.val * 1 + 1; omega
  | ⟨1, _⟩ => show win0_4.index t 1 * 500 ≤ l.val ∧ l.val < win0_4.index t 1 * 500 + 500; rw [e]; show 0 * 500 ≤ l.val ∧ l.val < 0 * 500 + 500; omega
  | ⟨2, _⟩ => show win0_4.index t 2 * 64 ≤ co.val ∧ co.val < win0_4.index t 2 * 64 + 64; rw [e]; show 0 * 64 ≤ co.val ∧ co.val < 0 * 64 + 64; omega

/-- REGION 0: the output array at batch row `b` is the body's result of row `b` of the input and the whole weights, scale and shift
    (batch row `b` is covered by grid point `b`, and every point writes back its block of `G0`). -/
theorem region0_at (c : Dev nD) (b : Fin 2048) (l : Fin 500) (co : Fin 64) :
    ((dat0 V c).arrAt 4 cfg0.N : S2048x500x64.Idx → EReal) (ix3 b l co)
      = out0_4 (F := Ideal) (fun y => (V c (Pipeline.arrRef spec0 0) : S2048x508x6.Idx → EReal) (ix3 b (y 1) (y 2)))
      (V c (Pipeline.arrRef spec0 1)) (V c (Pipeline.arrRef spec0 2)) (V c (Pipeline.arrRef spec0 3)) (ix3 0 l co) := by
  have hN : cfg0.N = 2048 := N_0
  have hb := b.isLt
  have h := (dat0 V c).arrAt_apply_of_mem 4 (G0 V c) (fun t _ => flushed0 V c t) cfg0.N ⟨b.val, by omega⟩ (ix3 b l co)
    (by show b.val < cfg0.N; omega) (flush0_4 _) (mem_blk0 _ b l co rfl)
  exact h.trans (G0_at V c _ b (ix3 0 l co) rfl rfl rfl rfl)

/-! ## Region 1 -/

theorem stride1 : grid1.stride 0 = 1 := by decide

theorem lt1 (t : Fin cfg1.N) : t.val < 2048 := by
  have hN : cfg1.N = 2048 := N_1
  have ht := t.isLt
  omega

/-- The grid is the 2048 batch rows: point `t`'s one coordinate is `t`. -/
theorem coord1 (t : Fin cfg1.N) : (grid1.coords t 0).val = t.val := by
  have ht := lt1 t
  show t.val / grid1.stride 0 % 2048 = t.val
  rw [stride1]; omega

theorem idx1_0 (t : Fin cfg1.N) : win1_0.index t = ![t.val, 0, 0, 0] := by
  have ht := lt1 t
  show cc1_transform_0 (grid1.coords t) = _
  unfold cc1_transform_0
  simp only [coord1, BitVec.toNat_ofNat]
  congr 1
  omega

theorem idx1_1 (t : Fin cfg1.N) : win1_1.index t = ![t.val, 0, 0] := by
  have ht := lt1 t
  show cc1_transform_1 (grid1.coords t) = _
  unfold cc1_transform_1
  simp only [coord1, BitVec.toNat_ofNat]
  congr 1
  omega

/-- Window 0's block at point `t` is batch row `t` of its array. -/
theorem iblk1_0 (c : Dev nD) (t : Fin cfg1.N) :
    (iblk1 V c 0 t : S1x2x254x64.Idx → EReal)
      = fun y => (V c (Pipeline.arrRef spec1 0) : S2048x2x254x64.Idx → EReal) (ix4 ⟨t.val, lt1 t⟩ (y 1) (y 2) (y 3)) := by
  funext y
  have hy : (y 0).val < 1 := (y 0).isLt
  have e := idx1_0 t
  have hemb : (((cfg1.win 0).blk t).view.emb y : S2048x2x254x64.Idx) = ix4 ⟨t.val, lt1 t⟩ (y 1) (y 2) (y 3) := by
    funext a
    apply Fin.ext
    match a with
    | ⟨0, _⟩ => show win1_0.index t 0 * 1 + 1 * (y 0).val = t.val; rw [e]; show t.val * 1 + 1 * (y 0).val = t.val; omega
    | ⟨1, _⟩ => show win1_0.index t 1 * 2 + 1 * (y 1).val = (y 1).val; rw [e]; show 0 * 2 + 1 * (y 1).val = (y 1).val; omega
    | ⟨2, _⟩ => show win1_0.index t 2 * 254 + 1 * (y 2).val = (y 2).val; rw [e]; show 0 * 254 + 1 * (y 2).val = (y 2).val; omega
    | ⟨3, _⟩ => show win1_0.index t 3 * 64 + 1 * (y 3).val = (y 3).val; rw [e]; show 0 * 64 + 1 * (y 3).val = (y 3).val; omega
  exact congrArg (V c (Pipeline.arrRef spec1 0) : S2048x2x254x64.Idx → EReal) hemb

/-- The array region 1 leaves: at batch row `i 0`, the body's result of row `i 0` of the input. -/
def G1 (c : Dev nD) : S2048x251x64.Idx → EReal := fun i =>
  out1_1 (F := Ideal) (fun y => (V c (Pipeline.arrRef spec1 0) : S2048x2x254x64.Idx → EReal) (ix4 (i 0) (y 1) (y 2) (y 3))) (ix3 0 (i 1) (i 2))

/-- `G1` at an index whose batch coordinate is `b` and whose other coordinates are those of `k`. -/
theorem G1_at (c : Dev nD) (i : S2048x251x64.Idx) (b : Fin 2048) (k : S1x251x64.Idx)
    (h0 : (i 0).val = b.val) (hk : (k 0).val = 0) (h1 : (i 1).val = (k 1).val) (h2 : (i 2).val = (k 2).val) :
    G1 V c i = out1_1 (F := Ideal) (fun y => (V c (Pipeline.arrRef spec1 0) : S2048x2x254x64.Idx → EReal) (ix4 b (y 1) (y 2) (y 3))) k := by
  have eb : i 0 = b := Fin.ext h0
  have ek : (ix3 0 (i 1) (i 2) : S1x251x64.Idx) = k := by
    funext a
    apply Fin.ext
    match a with
    | ⟨0, _⟩ => exact hk.symm
    | ⟨1, _⟩ => exact h1
    | ⟨2, _⟩ => exact h2
  unfold G1
  rw [eb, ek]

/-- Reading an array through point `t`'s block of the output window is reading it at the block's indices. -/
theorem read_blk1 (f : S2048x251x64.Idx → EReal) (t : Fin cfg1.N) (j : ((cfg1.win 1).xblock (grid1.coords t)).Idx) :
    ((cfg1.win 1).blk t).view.read (Elt Ideal) f j = f (((cfg1.win 1).blk t).view.emb j) := rfl

/-- The write-back moves the whole staging buffer. -/
theorem cut_blk1 (X : S1x251x64.Idx → EReal) (t : Fin cfg1.N) (j : ((cfg1.win 1).xblock (grid1.coords t)).Idx) :
    (cfg1.win 1).cut (grid1.coords t) X j = X ((cfg1.win 1).xinj (grid1.coords t) j) := rfl

/-- What point `t` writes back is block `t` of `G1`. -/
theorem flushed1 (c : Dev nD) (t : Fin cfg1.N) :
    (dat1 V c).flushed 1 t = ((cfg1.win 1).blk t).view.read (Elt Ideal) (G1 V c) := by
  show (cfg1.win 1).cut (grid1.coords t) ((dat1 V c).after 1 t) = _
  rw [after1_1, iblk1_0]
  funext j
  rw [read_blk1, cut_blk1]
  have hj : (j 0).val < 1 := (j 0).isLt
  have e := idx1_1 t
  refine (G1_at V c (((cfg1.win 1).blk t).view.emb j) ⟨t.val, lt1 t⟩ ((cfg1.win 1).xinj (grid1.coords t) j) ?_ ?_ ?_ ?_).symm
  · show win1_1.index t 0 * 1 + 1 * (j 0).val = t.val; rw [e]; show t.val * 1 + 1 * (j 0).val = t.val; omega
  · show (j 0).val = 0; omega
  · show win1_1.index t 1 * 251 + 1 * (j 1).val = (j 1).val; rw [e]; show 0 * 251 + 1 * (j 1).val = (j 1).val; omega
  · show win1_1.index t 2 * 64 + 1 * (j 2).val = (j 2).val; rw [e]; show 0 * 64 + 1 * (j 2).val = (j 2).val; omega

/-- An index of the output array whose batch coordinate is `t` lies in point `t`'s block. -/
theorem mem_blk1 (t : Fin cfg1.N) (b : Fin 2048) (l : Fin 251) (co : Fin 64) (h : b.val = t.val) :
    (ix3 b l co : S2048x251x64.Idx) ∈ ((cfg1.win 1).blk t).view.set := by
  show (ix3 b l co : S2048x251x64.Idx) ∈ ((View.whole main_v21).slice (win1_1.rect t)).set
  rw [View.set_slice_whole, Rect.mem_set_unit]
  have e := idx1_1 t
  intro a
  match a with
  | ⟨0, _⟩ => show win1_1.index t 0 * 1 ≤ b.val ∧ b.val < win1_1.index t 0 * 1 + 1; rw [e]; show t.val * 1 ≤ b.val ∧ b.val < t.val * 1 + 1; omega
  | ⟨1, _⟩ => show win1_1.index t 1 * 251 ≤ l.val ∧ l.val < win1_1.index t 1 * 251 + 251; rw [e]; show 0 * 251 ≤ l.val ∧ l.val < 0 * 251 + 251; omega
  | ⟨2, _⟩ => show win1_1.index t 2 * 64 ≤ co.val ∧ co.val < win1_1.index t 2 * 64 + 64; rw [e]; show 0 * 64 ≤ co.val ∧ co.val < 0 * 64 + 64; omega

/-- REGION 1: the output array at batch row `b` is the body's result of row `b` of the input
    (batch row `b` is covered by grid point `b`, and every point writes back its block of `G1`). -/
theorem region1_at (c : Dev nD) (b : Fin 2048) (l : Fin 251) (co : Fin 64) :
    ((dat1 V c).arrAt 1 cfg1.N : S2048x251x64.Idx → EReal) (ix3 b l co)
      = out1_1 (F := Ideal) (fun y => (V c (Pipeline.arrRef spec1 0) : S2048x2x254x64.Idx → EReal) (ix4 b (y 1) (y 2) (y 3))) (ix3 0 l co) := by
  have hN : cfg1.N = 2048 := N_1
  have hb := b.isLt
  have h := (dat1 V c).arrAt_apply_of_mem 1 (G1 V c) (fun t _ => flushed1 V c t) cfg1.N ⟨b.val, by omega⟩ (ix3 b l co)
    (by show b.val < cfg1.N; omega) (flush1_1 _) (mem_blk1 _ b l co rfl)
  exact h.trans (G1_at V c _ b (ix3 0 l co) rfl rfl rfl rfl)

/-! ## Region 2 -/

theorem stride2 : grid2.stride 0 = 1 := by decide

theorem lt2 (t : Fin cfg2.N) : t.val < 2048 := by
  have hN : cfg2.N = 2048 := N_2
  have ht := t.isLt
  omega

/-- The grid is the 2048 batch rows: point `t`'s one coordinate is `t`. -/
theorem coord2 (t : Fin cfg2.N) : (grid2.coords t 0).val = t.val := by
  have ht := lt2 t
  show t.val / grid2.stride 0 % 2048 = t.val
  rw [stride2]; omega

theorem idx2_0 (t : Fin cfg2.N) : win2_0.index t = ![t.val, 0, 0] := by
  have ht := lt2 t
  show cc2_transform_0 (grid2.coords t) = _
  unfold cc2_transform_0
  simp only [coord2, BitVec.toNat_ofNat]
  congr 1
  omega

theorem idx2_1 (t : Fin cfg2.N) : win2_1.index t = ![0, 0, 0] := by
  show cc2_transform_1 (grid2.coords t) = _
  unfold cc2_transform_1
  rfl

theorem idx2_2 (t : Fin cfg2.N) : win2_2.index t = ![0, 0] := by
  show cc2_transform_2 (grid2.coords t) = _
  unfold cc2_transform_2
  rfl

theorem idx2_3 (t : Fin cfg2.N) : win2_3.index t = ![0, 0] := by
  show cc2_transform_3 (grid2.coords t) = _
  unfold cc2_transform_3
  rfl

theorem idx2_4 (t : Fin cfg2.N) : win2_4.index t = ![t.val, 0, 0] := by
  have ht := lt2 t
  show cc2_transform_4 (grid2.coords t) = _
  unfold cc2_transform_4
  simp only [coord2, BitVec.toNat_ofNat]
  congr 1
  omega

/-- Window 0's block at point `t` is batch row `t` of its array. -/
theorem iblk2_0 (c : Dev nD) (t : Fin cfg2.N) :
    (iblk2 V c 0 t : S1x259x64.Idx → EReal)
      = fun y => (V c (Pipeline.arrRef spec2 0) : S2048x259x64.Idx → EReal) (ix3 ⟨t.val, lt2 t⟩ (y 1) (y 2)) := by
  funext y
  have hy : (y 0).val < 1 := (y 0).isLt
  have e := idx2_0 t
  have hemb : (((cfg2.win 0).blk t).view.emb y : S2048x259x64.Idx) = ix3 ⟨t.val, lt2 t⟩ (y 1) (y 2) := by
    funext a
    apply Fin.ext
    match a with
    | ⟨0, _⟩ => show win2_0.index t 0 * 1 + 1 * (y 0).val = t.val; rw [e]; show t.val * 1 + 1 * (y 0).val = t.val; omega
    | ⟨1, _⟩ => show win2_0.index t 1 * 259 + 1 * (y 1).val = (y 1).val; rw [e]; show 0 * 259 + 1 * (y 1).val = (y 1).val; omega
    | ⟨2, _⟩ => show win2_0.index t 2 * 64 + 1 * (y 2).val = (y 2).val; rw [e]; show 0 * 64 + 1 * (y 2).val = (y 2).val; omega
  exact congrArg (V c (Pipeline.arrRef spec2 0) : S2048x259x64.Idx → EReal) hemb

/-- Window 1 stages its whole array at every point. -/
theorem iblk2_1 (c : Dev nD) (t : Fin cfg2.N) :
    (iblk2 V c 1 t : S8x64x128.Idx → EReal) = (V c (Pipeline.arrRef spec2 1) : S8x64x128.Idx → EReal) := by
  funext y
  have e := idx2_1 t
  have hemb : (((cfg2.win 1).blk t).view.emb y : S8x64x128.Idx) = y := by
    funext a
    apply Fin.ext
    match a with
    | ⟨0, _⟩ => show win2_1.index t 0 * 8 + 1 * (y 0).val = (y 0).val; rw [e]; show 0 * 8 + 1 * (y 0).val = (y 0).val; omega
    | ⟨1, _⟩ => show win2_1.index t 1 * 64 + 1 * (y 1).val = (y 1).val; rw [e]; show 0 * 64 + 1 * (y 1).val = (y 1).val; omega
    | ⟨2, _⟩ => show win2_1.index t 2 * 128 + 1 * (y 2).val = (y 2).val; rw [e]; show 0 * 128 + 1 * (y 2).val = (y 2).val; omega
  exact congrArg (V c (Pipeline.arrRef spec2 1) : S8x64x128.Idx → EReal) hemb

/-- Window 2 stages its whole array at every point. -/
theorem iblk2_2 (c : Dev nD) (t : Fin cfg2.N) :
    (iblk2 V c 2 t : S1x128.Idx → EReal) = (V c (Pipeline.arrRef spec2 2) : S1x128.Idx → EReal) := by
  funext y
  have e := idx2_2 t
  have hemb : (((cfg2.win 2).blk t).view.emb y : S1x128.Idx) = y := by
    funext a
    apply Fin.ext
    match a with
    | ⟨0, _⟩ => show win2_2.index t 0 * 1 + 1 * (y 0).val = (y 0).val; rw [e]; show 0 * 1 + 1 * (y 0).val = (y 0).val; omega
    | ⟨1, _⟩ => show win2_2.index t 1 * 128 + 1 * (y 1).val = (y 1).val; rw [e]; show 0 * 128 + 1 * (y 1).val = (y 1).val; omega
  exact congrArg (V c (Pipeline.arrRef spec2 2) : S1x128.Idx → EReal) hemb

/-- Window 3 stages its whole array at every point. -/
theorem iblk2_3 (c : Dev nD) (t : Fin cfg2.N) :
    (iblk2 V c 3 t : S1x128.Idx → EReal) = (V c (Pipeline.arrRef spec2 3) : S1x128.Idx → EReal) := by
  funext y
  have e := idx2_3 t
  have hemb : (((cfg2.win 3).blk t).view.emb y : S1x128.Idx) = y := by
    funext a
    apply Fin.ext
    match a with
    | ⟨0, _⟩ => show win2_3.index t 0 * 1 + 1 * (y 0).val = (y 0).val; rw [e]; show 0 * 1 + 1 * (y 0).val = (y 0).val; omega
    | ⟨1, _⟩ => show win2_3.index t 1 * 128 + 1 * (y 1).val = (y 1).val; rw [e]; show 0 * 128 + 1 * (y 1).val = (y 1).val; omega
  exact congrArg (V c (Pipeline.arrRef spec2 3) : S1x128.Idx → EReal) hemb

/-- The array region 2 leaves: at batch row `i 0`, the body's result of row `i 0` of the input and the whole weights, scale and shift. -/
def G2 (c : Dev nD) : S2048x252x128.Idx → EReal := fun i =>
  out2_4 (F := Ideal) (fun y => (V c (Pipeline.arrRef spec2 0) : S2048x259x64.Idx → EReal) (ix3 (i 0) (y 1) (y 2)))
      (V c (Pipeline.arrRef spec2 1)) (V c (Pipeline.arrRef spec2 2)) (V c (Pipeline.arrRef spec2 3)) (ix3 0 (i 1) (i 2))

/-- `G2` at an index whose batch coordinate is `b` and whose other coordinates are those of `k`. -/
theorem G2_at (c : Dev nD) (i : S2048x252x128.Idx) (b : Fin 2048) (k : S1x252x128.Idx)
    (h0 : (i 0).val = b.val) (hk : (k 0).val = 0) (h1 : (i 1).val = (k 1).val) (h2 : (i 2).val = (k 2).val) :
    G2 V c i = out2_4 (F := Ideal) (fun y => (V c (Pipeline.arrRef spec2 0) : S2048x259x64.Idx → EReal) (ix3 b (y 1) (y 2)))
      (V c (Pipeline.arrRef spec2 1)) (V c (Pipeline.arrRef spec2 2)) (V c (Pipeline.arrRef spec2 3)) k := by
  have eb : i 0 = b := Fin.ext h0
  have ek : (ix3 0 (i 1) (i 2) : S1x252x128.Idx) = k := by
    funext a
    apply Fin.ext
    match a with
    | ⟨0, _⟩ => exact hk.symm
    | ⟨1, _⟩ => exact h1
    | ⟨2, _⟩ => exact h2
  unfold G2
  rw [eb, ek]

/-- Reading an array through point `t`'s block of the output window is reading it at the block's indices. -/
theorem read_blk2 (f : S2048x252x128.Idx → EReal) (t : Fin cfg2.N) (j : ((cfg2.win 4).xblock (grid2.coords t)).Idx) :
    ((cfg2.win 4).blk t).view.read (Elt Ideal) f j = f (((cfg2.win 4).blk t).view.emb j) := rfl

/-- The write-back moves the whole staging buffer. -/
theorem cut_blk2 (X : S1x252x128.Idx → EReal) (t : Fin cfg2.N) (j : ((cfg2.win 4).xblock (grid2.coords t)).Idx) :
    (cfg2.win 4).cut (grid2.coords t) X j = X ((cfg2.win 4).xinj (grid2.coords t) j) := rfl

/-- What point `t` writes back is block `t` of `G2`. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4, iblk2_0, iblk2_1, iblk2_2, iblk2_3]
  funext j
  rw [read_blk2, cut_blk2]
  have hj : (j 0).val < 1 := (j 0).isLt
  have e := idx2_4 t
  refine (G2_at V c (((cfg2.win 4).blk t).view.emb j) ⟨t.val, lt2 t⟩ ((cfg2.win 4).xinj (grid2.coords t) j) ?_ ?_ ?_ ?_).symm
  · show win2_4.index t 0 * 1 + 1 * (j 0).val = t.val; rw [e]; show t.val * 1 + 1 * (j 0).val = t.val; omega
  · show (j 0).val = 0; omega
  · show win2_4.index t 1 * 252 + 1 * (j 1).val = (j 1).val; rw [e]; show 0 * 252 + 1 * (j 1).val = (j 1).val; omega
  · show win2_4.index t 2 * 128 + 1 * (j 2).val = (j 2).val; rw [e]; show 0 * 128 + 1 * (j 2).val = (j 2).val; omega

/-- An index of the output array whose batch coordinate is `t` lies in point `t`'s block. -/
theorem mem_blk2 (t : Fin cfg2.N) (b : Fin 2048) (l : Fin 252) (co : Fin 128) (h : b.val = t.val) :
    (ix3 b l co : S2048x252x128.Idx) ∈ ((cfg2.win 4).blk t).view.set := by
  show (ix3 b l co : S2048x252x128.Idx) ∈ ((View.whole main_v38).slice (win2_4.rect t)).set
  rw [View.set_slice_whole, Rect.mem_set_unit]
  have e := idx2_4 t
  intro a
  match a with
  | ⟨0, _⟩ => show win2_4.index t 0 * 1 ≤ b.val ∧ b.val < win2_4.index t 0 * 1 + 1; rw [e]; show t.val * 1 ≤ b.val ∧ b.val < t.val * 1 + 1; omega
  | ⟨1, _⟩ => show win2_4.index t 1 * 252 ≤ l.val ∧ l.val < win2_4.index t 1 * 252 + 252; rw [e]; show 0 * 252 ≤ l.val ∧ l.val < 0 * 252 + 252; omega
  | ⟨2, _⟩ => show win2_4.index t 2 * 128 ≤ co.val ∧ co.val < win2_4.index t 2 * 128 + 128; rw [e]; show 0 * 128 ≤ co.val ∧ co.val < 0 * 128 + 128; omega

/-- REGION 2: the output array at batch row `b` is the body's result of row `b` of the input and the whole weights, scale and shift
    (batch row `b` is covered by grid point `b`, and every point writes back its block of `G2`). -/
theorem region2_at (c : Dev nD) (b : Fin 2048) (l : Fin 252) (co : Fin 128) :
    ((dat2 V c).arrAt 4 cfg2.N : S2048x252x128.Idx → EReal) (ix3 b l co)
      = out2_4 (F := Ideal) (fun y => (V c (Pipeline.arrRef spec2 0) : S2048x259x64.Idx → EReal) (ix3 b (y 1) (y 2)))
      (V c (Pipeline.arrRef spec2 1)) (V c (Pipeline.arrRef spec2 2)) (V c (Pipeline.arrRef spec2 3)) (ix3 0 l co) := by
  have hN : cfg2.N = 2048 := N_2
  have hb := b.isLt
  have h := (dat2 V c).arrAt_apply_of_mem 4 (G2 V c) (fun t _ => flushed2 V c t) cfg2.N ⟨b.val, by omega⟩ (ix3 b l co)
    (by show b.val < cfg2.N; omega) (flush2_4 _) (mem_blk2 _ b l co rfl)
  exact h.trans (G2_at V c _ b (ix3 0 l co) rfl rfl rfl rfl)

/-! ## Region 3 -/

theorem stride3 : grid3.stride 0 = 1 := by decide

theorem lt3 (t : Fin cfg3.N) : t.val < 2048 := by
  have hN : cfg3.N = 2048 := N_3
  have ht := t.isLt
  omega

/-- The grid is the 2048 batch rows: point `t`'s one coordinate is `t`. -/
theorem coord3 (t : Fin cfg3.N) : (grid3.coords t 0).val = t.val := by
  have ht := lt3 t
  show t.val / grid3.stride 0 % 2048 = t.val
  rw [stride3]; omega

theorem idx3_0 (t : Fin cfg3.N) : win3_0.index t = ![t.val, 0, 0] := by
  have ht := lt3 t
  show cc3_transform_0 (grid3.coords t) = _
  unfold cc3_transform_0
  simp only [coord3, BitVec.toNat_ofNat]
  congr 1
  omega

theorem idx3_1 (t : Fin cfg3.N) : win3_1.index t = ![0, 0, 0] := by
  show cc3_transform_1 (grid3.coords t) = _
  unfold cc3_transform_1
  rfl

theorem idx3_2 (t : Fin cfg3.N) : win3_2.index t = ![0, 0] := by
  show cc3_transform_2 (grid3.coords t) = _
  unfold cc3_transform_2
  rfl

theorem idx3_3 (t : Fin cfg3.N) : win3_3.index t = ![0, 0] := by
  show cc3_transform_3 (grid3.coords t) = _
  unfold cc3_transform_3
  rfl

theorem idx3_4 (t : Fin cfg3.N) : win3_4.index t = ![t.val, 0, 0] := by
  have ht := lt3 t
  show cc3_transform_4 (grid3.coords t) = _
  unfold cc3_transform_4
  simp only [coord3, BitVec.toNat_ofNat]
  congr 1
  omega

/-- Window 0's block at point `t` is batch row `t` of its array. -/
theorem iblk3_0 (c : Dev nD) (t : Fin cfg3.N) :
    (iblk3 V c 0 t : S1x260x128.Idx → EReal)
      = fun y => (V c (Pipeline.arrRef spec3 0) : S2048x260x128.Idx → EReal) (ix3 ⟨t.val, lt3 t⟩ (y 1) (y 2)) := by
  funext y
  have hy : (y 0).val < 1 := (y 0).isLt
  have e := idx3_0 t
  have hemb : (((cfg3.win 0).blk t).view.emb y : S2048x260x128.Idx) = ix3 ⟨t.val, lt3 t⟩ (y 1) (y 2) := by
    funext a
    apply Fin.ext
    match a with
    | ⟨0, _⟩ => show win3_0.index t 0 * 1 + 1 * (y 0).val = t.val; rw [e]; show t.val * 1 + 1 * (y 0).val = t.val; omega
    | ⟨1, _⟩ => show win3_0.index t 1 * 260 + 1 * (y 1).val = (y 1).val; rw [e]; show 0 * 260 + 1 * (y 1).val = (y 1).val; omega
    | ⟨2, _⟩ => show win3_0.index t 2 * 128 + 1 * (y 2).val = (y 2).val; rw [e]; show 0 * 128 + 1 * (y 2).val = (y 2).val; omega
  exact congrArg (V c (Pipeline.arrRef spec3 0) : S2048x260x128.Idx → EReal) hemb

/-- Window 1 stages its whole array at every point. -/
theorem iblk3_1 (c : Dev nD) (t : Fin cfg3.N) :
    (iblk3 V c 1 t : S8x128x128.Idx → EReal) = (V c (Pipeline.arrRef spec3 1) : S8x128x128.Idx → EReal) := by
  funext y
  have e := idx3_1 t
  have hemb : (((cfg3.win 1).blk t).view.emb y : S8x128x128.Idx) = y := by
    funext a
    apply Fin.ext
    match a with
    | ⟨0, _⟩ => show win3_1.index t 0 * 8 + 1 * (y 0).val = (y 0).val; rw [e]; show 0 * 8 + 1 * (y 0).val = (y 0).val; omega
    | ⟨1, _⟩ => show win3_1.index t 1 * 128 + 1 * (y 1).val = (y 1).val; rw [e]; show 0 * 128 + 1 * (y 1).val = (y 1).val; omega
    | ⟨2, _⟩ => show win3_1.index t 2 * 128 + 1 * (y 2).val = (y 2).val; rw [e]; show 0 * 128 + 1 * (y 2).val = (y 2).val; omega
  exact congrArg (V c (Pipeline.arrRef spec3 1) : S8x128x128.Idx → EReal) hemb

/-- Window 2 stages its whole array at every point. -/
theorem iblk3_2 (c : Dev nD) (t : Fin cfg3.N) :
    (iblk3 V c 2 t : S1x128.Idx → EReal) = (V c (Pipeline.arrRef spec3 2) : S1x128.Idx → EReal) := by
  funext y
  have e := idx3_2 t
  have hemb : (((cfg3.win 2).blk t).view.emb y : S1x128.Idx) = y := by
    funext a
    apply Fin.ext
    match a with
    | ⟨0, _⟩ => show win3_2.index t 0 * 1 + 1 * (y 0).val = (y 0).val; rw [e]; show 0 * 1 + 1 * (y 0).val = (y 0).val; omega
    | ⟨1, _⟩ => show win3_2.index t 1 * 128 + 1 * (y 1).val = (y 1).val; rw [e]; show 0 * 128 + 1 * (y 1).val = (y 1).val; omega
  exact congrArg (V c (Pipeline.arrRef spec3 2) : S1x128.Idx → EReal) hemb

/-- Window 3 stages its whole array at every point. -/
theorem iblk3_3 (c : Dev nD) (t : Fin cfg3.N) :
    (iblk3 V c 3 t : S1x128.Idx → EReal) = (V c (Pipeline.arrRef spec3 3) : S1x128.Idx → EReal) := by
  funext y
  have e := idx3_3 t
  have hemb : (((cfg3.win 3).blk t).view.emb y : S1x128.Idx) = y := by
    funext a
    apply Fin.ext
    match a with
    | ⟨0, _⟩ => show win3_3.index t 0 * 1 + 1 * (y 0).val = (y 0).val; rw [e]; show 0 * 1 + 1 * (y 0).val = (y 0).val; omega
    | ⟨1, _⟩ => show win3_3.index t 1 * 128 + 1 * (y 1).val = (y 1).val; rw [e]; show 0 * 128 + 1 * (y 1).val = (y 1).val; omega
  exact congrArg (V c (Pipeline.arrRef spec3 3) : S1x128.Idx → EReal) hemb

/-- The array region 3 leaves: at batch row `i 0`, the body's result of row `i 0` of the input and the whole weights, scale and shift. -/
def G3 (c : Dev nD) : S2048x253x128.Idx → EReal := fun i =>
  out3_4 (F := Ideal) (fun y => (V c (Pipeline.arrRef spec3 0) : S2048x260x128.Idx → EReal) (ix3 (i 0) (y 1) (y 2)))
      (V c (Pipeline.arrRef spec3 1)) (V c (Pipeline.arrRef spec3 2)) (V c (Pipeline.arrRef spec3 3)) (ix3 0 (i 1) (i 2))

/-- `G3` at an index whose batch coordinate is `b` and whose other coordinates are those of `k`. -/
theorem G3_at (c : Dev nD) (i : S2048x253x128.Idx) (b : Fin 2048) (k : S1x253x128.Idx)
    (h0 : (i 0).val = b.val) (hk : (k 0).val = 0) (h1 : (i 1).val = (k 1).val) (h2 : (i 2).val = (k 2).val) :
    G3 V c i = out3_4 (F := Ideal) (fun y => (V c (Pipeline.arrRef spec3 0) : S2048x260x128.Idx → EReal) (ix3 b (y 1) (y 2)))
      (V c (Pipeline.arrRef spec3 1)) (V c (Pipeline.arrRef spec3 2)) (V c (Pipeline.arrRef spec3 3)) k := by
  have eb : i 0 = b := Fin.ext h0
  have ek : (ix3 0 (i 1) (i 2) : S1x253x128.Idx) = k := by
    funext a
    apply Fin.ext
    match a with
    | ⟨0, _⟩ => exact hk.symm
    | ⟨1, _⟩ => exact h1
    | ⟨2, _⟩ => exact h2
  unfold G3
  rw [eb, ek]

/-- Reading an array through point `t`'s block of the output window is reading it at the block's indices. -/
theorem read_blk3 (f : S2048x253x128.Idx → EReal) (t : Fin cfg3.N) (j : ((cfg3.win 4).xblock (grid3.coords t)).Idx) :
    ((cfg3.win 4).blk t).view.read (Elt Ideal) f j = f (((cfg3.win 4).blk t).view.emb j) := rfl

/-- The write-back moves the whole staging buffer. -/
theorem cut_blk3 (X : S1x253x128.Idx → EReal) (t : Fin cfg3.N) (j : ((cfg3.win 4).xblock (grid3.coords t)).Idx) :
    (cfg3.win 4).cut (grid3.coords t) X j = X ((cfg3.win 4).xinj (grid3.coords t) j) := rfl

/-- What point `t` writes back is block `t` of `G3`. -/
theorem flushed3 (c : Dev nD) (t : Fin cfg3.N) :
    (dat3 V c).flushed 4 t = ((cfg3.win 4).blk t).view.read (Elt Ideal) (G3 V c) := by
  show (cfg3.win 4).cut (grid3.coords t) ((dat3 V c).after 4 t) = _
  rw [after3_4, iblk3_0, iblk3_1, iblk3_2, iblk3_3]
  funext j
  rw [read_blk3, cut_blk3]
  have hj : (j 0).val < 1 := (j 0).isLt
  have e := idx3_4 t
  refine (G3_at V c (((cfg3.win 4).blk t).view.emb j) ⟨t.val, lt3 t⟩ ((cfg3.win 4).xinj (grid3.coords t) j) ?_ ?_ ?_ ?_).symm
  · show win3_4.index t 0 * 1 + 1 * (j 0).val = t.val; rw [e]; show t.val * 1 + 1 * (j 0).val = t.val; omega
  · show (j 0).val = 0; omega
  · show win3_4.index t 1 * 253 + 1 * (j 1).val = (j 1).val; rw [e]; show 0 * 253 + 1 * (j 1).val = (j 1).val; omega
  · show win3_4.index t 2 * 128 + 1 * (j 2).val = (j 2).val; rw [e]; show 0 * 128 + 1 * (j 2).val = (j 2).val; omega

/-- An index of the output array whose batch coordinate is `t` lies in point `t`'s block. -/
theorem mem_blk3 (t : Fin cfg3.N) (b : Fin 2048) (l : Fin 253) (co : Fin 128) (h : b.val = t.val) :
    (ix3 b l co : S2048x253x128.Idx) ∈ ((cfg3.win 4).blk t).view.set := by
  show (ix3 b l co : S2048x253x128.Idx) ∈ ((View.whole main_v55).slice (win3_4.rect t)).set
  rw [View.set_slice_whole, Rect.mem_set_unit]
  have e := idx3_4 t
  intro a
  match a with
  | ⟨0, _⟩ => show win3_4.index t 0 * 1 ≤ b.val ∧ b.val < win3_4.index t 0 * 1 + 1; rw [e]; show t.val * 1 ≤ b.val ∧ b.val < t.val * 1 + 1; omega
  | ⟨1, _⟩ => show win3_4.index t 1 * 253 ≤ l.val ∧ l.val < win3_4.index t 1 * 253 + 253; rw [e]; show 0 * 253 ≤ l.val ∧ l.val < 0 * 253 + 253; omega
  | ⟨2, _⟩ => show win3_4.index t 2 * 128 ≤ co.val ∧ co.val < win3_4.index t 2 * 128 + 128; rw [e]; show 0 * 128 ≤ co.val ∧ co.val < 0 * 128 + 128; omega

/-- REGION 3: the output array at batch row `b` is the body's result of row `b` of the input and the whole weights, scale and shift
    (batch row `b` is covered by grid point `b`, and every point writes back its block of `G3`). -/
theorem region3_at (c : Dev nD) (b : Fin 2048) (l : Fin 253) (co : Fin 128) :
    ((dat3 V c).arrAt 4 cfg3.N : S2048x253x128.Idx → EReal) (ix3 b l co)
      = out3_4 (F := Ideal) (fun y => (V c (Pipeline.arrRef spec3 0) : S2048x260x128.Idx → EReal) (ix3 b (y 1) (y 2)))
      (V c (Pipeline.arrRef spec3 1)) (V c (Pipeline.arrRef spec3 2)) (V c (Pipeline.arrRef spec3 3)) (ix3 0 l co) := by
  have hN : cfg3.N = 2048 := N_3
  have hb := b.isLt
  have h := (dat3 V c).arrAt_apply_of_mem 4 (G3 V c) (fun t _ => flushed3 V c t) cfg3.N ⟨b.val, by omega⟩ (ix3 b l co)
    (by show b.val < cfg3.N; omega) (flush3_4 _) (mem_blk3 _ b l co rfl)
  exact h.trans (G3_at V c _ b (ix3 0 l co) rfl rfl rfl rfl)

/-! ## Region 4 -/

theorem stride4 : grid4.stride 0 = 1 := by decide

theorem lt4 (t : Fin cfg4.N) : t.val < 2048 := by
  have hN : cfg4.N = 2048 := N_4
  have ht := t.isLt
  omega

/-- The grid is the 2048 batch rows: point `t`'s one coordinate is `t`. -/
theorem coord4 (t : Fin cfg4.N) : (grid4.coords t 0).val = t.val := by
  have ht := lt4 t
  show t.val / grid4.stride 0 % 2048 = t.val
  rw [stride4]; omega

theorem idx4_0 (t : Fin cfg4.N) : win4_0.index t = ![t.val, 0, 0, 0] := by
  have ht := lt4 t
  show cc4_transform_0 (grid4.coords t) = _
  unfold cc4_transform_0
  simp only [coord4, BitVec.toNat_ofNat]
  congr 1
  omega

theorem idx4_1 (t : Fin cfg4.N) : win4_1.index t = ![t.val, 0, 0] := by
  have ht := lt4 t
  show cc4_transform_1 (grid4.coords t) = _
  unfold cc4_transform_1
  simp only [coord4, BitVec.toNat_ofNat]
  congr 1
  omega

/-- Window 0's block at point `t` is batch row `t` of its array. -/
theorem iblk4_0 (c : Dev nD) (t : Fin cfg4.N) :
    (iblk4 V c 0 t : S1x4x64x128.Idx → EReal)
      = fun y => (V c (Pipeline.arrRef spec4 0) : S2048x4x64x128.Idx → EReal) (ix4 ⟨t.val, lt4 t⟩ (y 1) (y 2) (y 3)) := by
  funext y
  have hy : (y 0).val < 1 := (y 0).isLt
  have e := idx4_0 t
  have hemb : (((cfg4.win 0).blk t).view.emb y : S2048x4x64x128.Idx) = ix4 ⟨t.val, lt4 t⟩ (y 1) (y 2) (y 3) := by
    funext a
    apply Fin.ext
    match a with
    | ⟨0, _⟩ => show win4_0.index t 0 * 1 + 1 * (y 0).val = t.val; rw [e]; show t.val * 1 + 1 * (y 0).val = t.val; omega
    | ⟨1, _⟩ => show win4_0.index t 1 * 4 + 1 * (y 1).val = (y 1).val; rw [e]; show 0 * 4 + 1 * (y 1).val = (y 1).val; omega
    | ⟨2, _⟩ => show win4_0.index t 2 * 64 + 1 * (y 2).val = (y 2).val; rw [e]; show 0 * 64 + 1 * (y 2).val = (y 2).val; omega
    | ⟨3, _⟩ => show win4_0.index t 3 * 128 + 1 * (y 3).val = (y 3).val; rw [e]; show 0 * 128 + 1 * (y 3).val = (y 3).val; omega
  exact congrArg (V c (Pipeline.arrRef spec4 0) : S2048x4x64x128.Idx → EReal) hemb

/-- The array region 4 leaves: at batch row `i 0`, the body's result of row `i 0` of the input. -/
def G4 (c : Dev nD) : S2048x64x128.Idx → EReal := fun i =>
  out4_1 (F := Ideal) (fun y => (V c (Pipeline.arrRef spec4 0) : S2048x4x64x128.Idx → EReal) (ix4 (i 0) (y 1) (y 2) (y 3))) (ix3 0 (i 1) (i 2))

/-- `G4` at an index whose batch coordinate is `b` and whose other coordinates are those of `k`. -/
theorem G4_at (c : Dev nD) (i : S2048x64x128.Idx) (b : Fin 2048) (k : S1x64x128.Idx)
    (h0 : (i 0).val = b.val) (hk : (k 0).val = 0) (h1 : (i 1).val = (k 1).val) (h2 : (i 2).val = (k 2).val) :
    G4 V c i = out4_1 (F := Ideal) (fun y => (V c (Pipeline.arrRef spec4 0) : S2048x4x64x128.Idx → EReal) (ix4 b (y 1) (y 2) (y 3))) k := by
  have eb : i 0 = b := Fin.ext h0
  have ek : (ix3 0 (i 1) (i 2) : S1x64x128.Idx) = k := by
    funext a
    apply Fin.ext
    match a with
    | ⟨0, _⟩ => exact hk.symm
    | ⟨1, _⟩ => exact h1
    | ⟨2, _⟩ => exact h2
  unfold G4
  rw [eb, ek]

/-- Reading an array through point `t`'s block of the output window is reading it at the block's indices. -/
theorem read_blk4 (f : S2048x64x128.Idx → EReal) (t : Fin cfg4.N) (j : ((cfg4.win 1).xblock (grid4.coords t)).Idx) :
    ((cfg4.win 1).blk t).view.read (Elt Ideal) f j = f (((cfg4.win 1).blk t).view.emb j) := rfl

/-- The write-back moves the whole staging buffer. -/
theorem cut_blk4 (X : S1x64x128.Idx → EReal) (t : Fin cfg4.N) (j : ((cfg4.win 1).xblock (grid4.coords t)).Idx) :
    (cfg4.win 1).cut (grid4.coords t) X j = X ((cfg4.win 1).xinj (grid4.coords t) j) := rfl

/-- What point `t` writes back is block `t` of `G4`. -/
theorem flushed4 (c : Dev nD) (t : Fin cfg4.N) :
    (dat4 V c).flushed 1 t = ((cfg4.win 1).blk t).view.read (Elt Ideal) (G4 V c) := by
  show (cfg4.win 1).cut (grid4.coords t) ((dat4 V c).after 1 t) = _
  rw [after4_1, iblk4_0]
  funext j
  rw [read_blk4, cut_blk4]
  have hj : (j 0).val < 1 := (j 0).isLt
  have e := idx4_1 t
  refine (G4_at V c (((cfg4.win 1).blk t).view.emb j) ⟨t.val, lt4 t⟩ ((cfg4.win 1).xinj (grid4.coords t) j) ?_ ?_ ?_ ?_).symm
  · show win4_1.index t 0 * 1 + 1 * (j 0).val = t.val; rw [e]; show t.val * 1 + 1 * (j 0).val = t.val; omega
  · show (j 0).val = 0; omega
  · show win4_1.index t 1 * 64 + 1 * (j 1).val = (j 1).val; rw [e]; show 0 * 64 + 1 * (j 1).val = (j 1).val; omega
  · show win4_1.index t 2 * 128 + 1 * (j 2).val = (j 2).val; rw [e]; show 0 * 128 + 1 * (j 2).val = (j 2).val; omega

/-- An index of the output array whose batch coordinate is `t` lies in point `t`'s block. -/
theorem mem_blk4 (t : Fin cfg4.N) (b : Fin 2048) (l : Fin 64) (co : Fin 128) (h : b.val = t.val) :
    (ix3 b l co : S2048x64x128.Idx) ∈ ((cfg4.win 1).blk t).view.set := by
  show (ix3 b l co : S2048x64x128.Idx) ∈ ((View.whole main_v59).slice (win4_1.rect t)).set
  rw [View.set_slice_whole, Rect.mem_set_unit]
  have e := idx4_1 t
  intro a
  match a with
  | ⟨0, _⟩ => show win4_1.index t 0 * 1 ≤ b.val ∧ b.val < win4_1.index t 0 * 1 + 1; rw [e]; show t.val * 1 ≤ b.val ∧ b.val < t.val * 1 + 1; omega
  | ⟨1, _⟩ => show win4_1.index t 1 * 64 ≤ l.val ∧ l.val < win4_1.index t 1 * 64 + 64; rw [e]; show 0 * 64 ≤ l.val ∧ l.val < 0 * 64 + 64; omega
  | ⟨2, _⟩ => show win4_1.index t 2 * 128 ≤ co.val ∧ co.val < win4_1.index t 2 * 128 + 128; rw [e]; show 0 * 128 ≤ co.val ∧ co.val < 0 * 128 + 128; omega

/-- REGION 4: the output array at batch row `b` is the body's result of row `b` of the input
    (batch row `b` is covered by grid point `b`, and every point writes back its block of `G4`). -/
theorem region4_at (c : Dev nD) (b : Fin 2048) (l : Fin 64) (co : Fin 128) :
    ((dat4 V c).arrAt 1 cfg4.N : S2048x64x128.Idx → EReal) (ix3 b l co)
      = out4_1 (F := Ideal) (fun y => (V c (Pipeline.arrRef spec4 0) : S2048x4x64x128.Idx → EReal) (ix4 b (y 1) (y 2) (y 3))) (ix3 0 l co) := by
  have hN : cfg4.N = 2048 := N_4
  have hb := b.isLt
  have h := (dat4 V c).arrAt_apply_of_mem 1 (G4 V c) (fun t _ => flushed4 V c t) cfg4.N ⟨b.val, by omega⟩ (ix3 b l co)
    (by show b.val < cfg4.N; omega) (flush4_1 _) (mem_blk4 _ b l co rfl)
  exact h.trans (G4_at V c _ b (ix3 0 l co) rfl rfl rfl rfl)

end Cert.ReferenceIdeal.RRegion

end
-- ==== Proof.RGlueA.lean ====
/-
  The reference program's host operations between its launches, read at an index: the arrays regions 0, 1 and 2 are
  entered with, as the specification's quantities. Each array is a composition of transposes, reshapes and pads of an
  argument array or of the previous region's result; read at coordinates, a reshape matches row-major positions, a
  transpose permutes coordinates, and a pad answers the operand inside its extent and the padding value outside. The
  scale and shift arrays are γ / √(v + ε) and β − μ · γ / √(v + ε) entry by entry, in the host's order of operations.
-/
import proofs.«125144_g2000006933354569_pallasbulk_1054_1_alg».proof.Proof.Gen.ReferenceIdeal.Frame
import proofs.«125144_g2000006933354569_pallasbulk_1054_1_alg».proof.Proof.RIface
import Idealize.ShloMosaic.Lib.StableHlo.Run
import Idealize.ShloMosaic.Lib.ValueLayout
import Idealize.ShloMosaic.Lib.KernelVsHost

set_option maxRecDepth 16384

noncomputable section

namespace Cert.ReferenceIdeal.RGlue

open Cert.ReferenceIdeal Cert.ReferenceIdeal.Gen Cert.Spec
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

namespace A

/-! ## Index maps of the host operations, by coordinates -/

section Layout
variable {α : Type}

/-- A reshape that drops a unit third axis: (i, j, k) reads (i, j, 0, k). -/
theorem shapeCast_ab1c_abc {a b c : ℕ} (x : (⟨4, ![a, b, 1, c]⟩ : Shape).Idx → α)
    (h : (⟨4, ![a, b, 1, c]⟩ : Shape).ShapeCasts ⟨3, ![a, b, c]⟩) (i : Fin a) (j : Fin b) (k : Fin c) :
    shapeCast ⟨3, ![a, b, c]⟩ x h (ix3 i j k) = x (ix4 i j (0 : Fin 1) k) :=
  shapeCast_apply x h _ _ (by
    rw [Shape.rowMajor_val_four, Shape.rowMajor_val_three]
    show ((i.val * b + j.val) * 1 + 0) * c + k.val = (i.val * b + j.val) * c + k.val
    rw [Nat.mul_one, Nat.add_zero])

/-- A reshape that drops a unit second axis: (i, j, k) reads (i, 0, j, k). -/
theorem shapeCast_a1bc_abc {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    rw [Nat.mul_one, Nat.add_zero])

/-- A reshape that drops a unit last axis: (i, j, k) reads (i, j, k, 0). -/
theorem shapeCast_abc1_abc {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- A reshape that adds a unit last axis: (i, j, k, u) reads (i, j, k). -/
theorem shapeCast_abc_abc1 {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- A reshape that adds a unit third axis: (i, j, u, k) reads (i, j, k). -/
theorem shapeCast_abc_ab1c {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- A reshape that splits the middle axis of n = b · c entries into b rows of c: (i, j, k, l) reads (i, j · c + k, l). -/
theorem shapeCast_and_abcd {a n b c d : ℕ} (x : (⟨3, ![a, n, d]⟩ : Shape).Idx → α)
    (h : (⟨3, ![a, n, d]⟩ : Shape).ShapeCasts ⟨4, ![a, b, c, d]⟩) (hn : n = b * c) (i : Fin a) (j : Fin b) (k : Fin c)
    (l : Fin d) (hlt : j.val * c + k.val < n) :
    shapeCast ⟨4, ![a, b, c, d]⟩ x h (ix4 i j k l) = x (ix3 i ⟨j.val * c + k.val, hlt⟩ l) :=
  shapeCast_apply x h _ _ (by
    rw [Shape.rowMajor_val_four, Shape.rowMajor_val_three]
    show (i.val * n + (j.val * c + k.val)) * d + l.val = ((i.val * b + j.val) * c + k.val) * d + l.val
    rw [hn, Nat.add_mul (i.val * b) j.val c, Nat.mul_assoc, Nat.add_assoc])

/-- A reshape that splits the last axis of n = b · c entries into b rows of c: (i, u, j, k) reads (i, u, j · c + k). -/
theorem shapeCast_a1n_a1bc {a n b c : ℕ} (x : (⟨3, ![a, 1, n]⟩ : Shape).Idx → α)
    (h : (⟨3, ![a, 1, n]⟩ : Shape).ShapeCasts ⟨4, ![a, 1, b, c]⟩) (hn : n = b * c) (i : Fin a) (u : Fin 1) (j : Fin b)
    (k : Fin c) (hlt : j.val * c + k.val < n) :
    shapeCast ⟨4, ![a, 1, b, c]⟩ x h (ix4 i u j k) = x (ix3 i u ⟨j.val * c + k.val, hlt⟩) :=
  shapeCast_apply x h _ _ (by
    rw [Shape.rowMajor_val_four, Shape.rowMajor_val_three]
    show (i.val * 1 + u.val) * n + (j.val * c + k.val) = ((i.val * 1 + u.val) * b + j.val) * c + k.val
    rw [hn, Nat.add_mul ((i.val * 1 + u.val) * b) j.val c, Nat.mul_assoc, Nat.add_assoc])

/-- The transpose that exchanges the last two of four axes: (i, j, p, q) reads (i, j, q, p). -/
theorem transpose_0132 {a b c d : ℕ} (x : (⟨4, ![a, b, c, d]⟩ : Shape).Idx → α)
    (h : (⟨4, ![a, b, c, d]⟩ : Shape).Transposes [0, 1, 3, 2] ⟨4, ![a, b, d, c]⟩) (i : Fin a) (j : Fin b) (p : Fin d)
    (q : Fin c) : transpose ⟨4, ![a, b, d, c]⟩ [0, 1, 3, 2] x h (ix4 i j p q) = x (ix4 i j q p) :=
  transpose_apply _ x h _ _ fun e => match e with | ⟨0, _⟩ => rfl | ⟨1, _⟩ => rfl | ⟨2, _⟩ => rfl | ⟨3, _⟩ => rfl

/-- The transpose that exchanges the middle two of four axes: (i, p, q, l) reads (i, q, p, l). -/
theorem transpose_0213 {a b c d : ℕ} (x : (⟨4, ![a, b, c, d]⟩ : Shape).Idx → α)
    (h : (⟨4, ![a, b, c, d]⟩ : Shape).Transposes [0, 2, 1, 3] ⟨4, ![a, c, b, d]⟩) (i : Fin a) (p : Fin c) (q : Fin b)
    (l : Fin d) : transpose ⟨4, ![a, c, b, d]⟩ [0, 2, 1, 3] x h (ix4 i p q l) = x (ix4 i q p l) :=
  transpose_apply _ x h _ _ fun e => match e with | ⟨0, _⟩ => rfl | ⟨1, _⟩ => rfl | ⟨2, _⟩ => rfl | ⟨3, _⟩ => rfl

/-- The transpose with permutation [2, 1, 3, 0]: (p, q, r, s) reads (s, q, p, r). -/
theorem transpose_2130 {a b c d : ℕ} (x : (⟨4, ![a, b, c, d]⟩ : Shape).Idx → α)
    (h : (⟨4, ![a, b, c, d]⟩ : Shape).Transposes [2, 1, 3, 0] ⟨4, ![c, b, d, a]⟩) (p : Fin c) (q : Fin b) (r : Fin d)
    (s : Fin a) : transpose ⟨4, ![c, b, d, a]⟩ [2, 1, 3, 0] x h (ix4 p q r s) = x (ix4 s q p r) :=
  transpose_apply _ x h _ _ fun e => match e with | ⟨0, _⟩ => rfl | ⟨1, _⟩ => rfl | ⟨2, _⟩ => rfl | ⟨3, _⟩ => rfl

end Layout

section Pad
variable {α : Type}

/-- A rank-3 pad without interior padding, read inside the operand: the operand's entry. -/
theorem pad3_inside {a b e A B E l0 l1 l2 h0 h1 h2 : ℕ} (x : (⟨3, ![a, b, e]⟩ : Shape).Idx → α) {u : Shape} (v : u.Idx → α)
    (h : (⟨3, ![a, b, e]⟩ : Shape).Pads ![l0, l1, l2] ![h0, h1, h2] ![0, 0, 0] ⟨3, ![A, B, E]⟩) (hu : 0 < u.numel)
    (i : Fin A) (j : Fin B) (k : Fin E) (i' : Fin a) (j' : Fin b) (k' : Fin e)
    (hi : i.val = l0 + i'.val) (hj : j.val = l1 + j'.val) (hk : k.val = l2 + k'.val) :
    pad ⟨3, ![A, B, E]⟩ ![l0, l1, l2] ![h0, h1, h2] ![0, 0, 0] x v h hu (ix3 i j k) = x (ix3 i' j' k') :=
  pad_apply_of_inside _ _ _ x v h hu _ _ fun ax => match ax with
    | ⟨0, _⟩ => by show i.val = l0 + i'.val * (0 + 1); omega
    | ⟨1, _⟩ => by show j.val = l1 + j'.val * (0 + 1); omega
    | ⟨2, _⟩ => by show k.val = l2 + k'.val * (0 + 1); omega

/-- A rank-3 pad without interior padding, read outside the operand along the middle axis: the padding value. -/
theorem pad3_outside1 {a b e A B E l0 l1 l2 h0 h1 h2 : ℕ} (x : (⟨3, ![a, b, e]⟩ : Shape).Idx → α) {u : Shape} (v : u.Idx → α)
    (h : (⟨3, ![a, b, e]⟩ : Shape).Pads ![l0, l1, l2] ![h0, h1, h2] ![0, 0, 0] ⟨3, ![A, B, E]⟩) (hu : 0 < u.numel)
    (i : Fin A) (j : Fin B) (k : Fin E) (hout : j.val < l1 ∨ l1 + b ≤ j.val) :
    pad ⟨3, ![A, B, E]⟩ ![l0, l1, l2] ![h0, h1, h2] ![0, 0, 0] x v h hu (ix3 i j k) = v (Shape.Idx.first hu) :=
  pad_apply_of_not_inside _ _ _ x v h hu _ ⟨1, (by decide : 1 < 3)⟩ (by
    show ¬(l1 ≤ j.val ∧ (j.val - l1) % (0 + 1) = 0 ∧ (j.val - l1) / (0 + 1) < b)
    rw [Nat.zero_add, Nat.div_one]
    omega)

/-- A rank-3 pad without interior padding, read outside the operand along the last axis: the padding value. -/
theorem pad3_outside2 {a b e A B E l0 l1 l2 h0 h1 h2 : ℕ} (x : (⟨3, ![a, b, e]⟩ : Shape).Idx → α) {u : Shape} (v : u.Idx → α)
    (h : (⟨3, ![a, b, e]⟩ : Shape).Pads ![l0, l1, l2] ![h0, h1, h2] ![0, 0, 0] ⟨3, ![A, B, E]⟩) (hu : 0 < u.numel)
    (i : Fin A) (j : Fin B) (k : Fin E) (hout : k.val < l2 ∨ l2 + e ≤ k.val) :
    pad ⟨3, ![A, B, E]⟩ ![l0, l1, l2] ![h0, h1, h2] ![0, 0, 0] x v h hu (ix3 i j k) = v (Shape.Idx.first hu) :=
  pad_apply_of_not_inside _ _ _ x v h hu _ ⟨2, (by decide : 2 < 3)⟩ (by
    show ¬(l2 ≤ k.val ∧ (k.val - l2) % (0 + 1) = 0 ∧ (k.val - l2) / (0 + 1) < e)
    rw [Nat.zero_add, Nat.div_one]
    omega)

/-- The integer constant 0 converted to a float is 0. -/
theorem sitofp_zero (i : (⟨0, ![]⟩ : Shape).Idx) :
    sitofp (F := Ideal) .f32 (constantI ⟨0, ![]⟩ 32 0#32) i = (0 : EReal) := by
  show (((0#32 : BitVec 32).toInt : ℝ) : EReal) = 0
  simp

end Pad

section Arrays

/-! ## Region 0's arrays at its entry -/

/-- Region 0's signal array as the host operations compute it from the launch memory: transpose, pad with 24 zeros on
    each side of the time axis, and lay out as 508 rows of 6. -/
theorem v4_eq : @Eq (S2048x508x6.Idx → EReal) (W5 m ρ c (Proc.devRef .tc main_v4))
    (shapeCast S2048x508x6 (transpose S2048x508x1x6 [0, 1, 3, 2]
      (shapeCast S2048x508x6x1
        (pad S2048x3048x1 ![0, 24, 0] ![0, 24, 0] ![0, 0, 0]
          (transpose S2048x3000x1 [0, 2, 1] (m ((c : Thread nD τ).loc main_arg0)) transposes_S2048x1x3000_S2048x3000x1_0_2_1)
          (sitofp (F := Ideal) .f32 (constantI S_ 32 0#32)) pads_S2048x3000x1_S2048x3048x1_000_24240_000 h_S_)
        shapeCasts_S2048x3048x1_S2048x508x6x1)
      transposes_S2048x508x6x1_S2048x508x1x6_0_1_3_2) shapeCasts_S2048x508x1x6_S2048x508x6) := by
  show StableHlo.after hostOps0_4 (StableHlo.after hostOps0_3 (StableHlo.after hostOps0_2 (StableHlo.after hostOps0_1 (StableHlo.after hostOps0 (W0 m ρ c))))) (Proc.devRef .tc main_v4) = _
  after_results_simp
  rfl

/-- Region 0's weight array as the host operations compute it: 4 zeros appended to the 50 taps, laid out as 9 rows of 6,
    channel last. -/
theorem v8_eq : @Eq (S9x6x64.Idx → EReal) (W5 m ρ c (Proc.devRef .tc main_v8))
    (shapeCast S9x6x64 (transpose S9x1x6x64 [2, 1, 3, 0]
      (shapeCast S64x1x9x6
        (pad S64x1x54 ![0, 0, 0] ![0, 0, 4] ![0, 0, 0] (m ((c : Thread nD τ).loc main_arg1))
          (sitofp (F := Ideal) .f32 (constantI S_ 32 0#32)) pads_S64x1x50_S64x1x54_000_000_040 h_S_)
        shapeCasts_S64x1x54_S64x1x9x6)
      transposes_S64x1x9x6_S9x1x6x64_2_1_3_0) shapeCasts_S9x1x6x64_S9x6x64) := by
  show StableHlo.after hostOps0_4 (StableHlo.after hostOps0_3 (StableHlo.after hostOps0_2 (StableHlo.after hostOps0_1 (StableHlo.after hostOps0 (W0 m ρ c))))) (Proc.devRef .tc main_v8) = _
  after_results_simp
  rfl

/-- Region 0's scale array as the host operations compute it from the launch memory: γ / √(v + ε). -/
theorem v13_eq : @Eq (S1x64.Idx → EReal) (W5 m ρ c (Proc.devRef .tc main_v13))
    (shapeCast S1x64 (Host.divf (F := Ideal) (m ((c : Thread nD τ).loc main_arg2))
      (Host.sqrt (addf (m ((c : Thread nD τ).loc main_arg5))
        (broadcastInDim S64 ![] bcast_S_S64 (constant (F := Ideal) S_ .f32 0x3727C5AC#32))))) shapeCasts_S64_S1x64) := by
  show StableHlo.after hostOps0_4 (StableHlo.after hostOps0_3 (StableHlo.after hostOps0_2 (StableHlo.after hostOps0_1 (StableHlo.after hostOps0 (W0 m ρ c))))) (Proc.devRef .tc main_v13) = _
  after_results_simp
  rfl

/-- Region 0's shift array as the host operations compute it: β − μ · (γ / √(v + ε)). -/
theorem v16_eq : @Eq (S1x64.Idx → EReal) (W5 m ρ c (Proc.devRef .tc main_v16))
    (shapeCast S1x64 (subf (F := Ideal) (m ((c : Thread nD τ).loc main_arg3))
      (mulf (m ((c : Thread nD τ).loc main_arg4))
        (Host.divf (m ((c : Thread nD τ).loc main_arg2))
          (Host.sqrt (addf (m ((c : Thread nD τ).loc main_arg5))
            (broadcastInDim S64 ![] bcast_S_S64 (constant (F := Ideal) S_ .f32 0x3727C5AC#32))))))) shapeCasts_S64_S1x64) := by
  show StableHlo.after hostOps0_4 (StableHlo.after hostOps0_3 (StableHlo.after hostOps0_2 (StableHlo.after hostOps0_1 (StableHlo.after hostOps0 (W0 m ρ c))))) (Proc.devRef .tc main_v16) = _
  after_results_simp
  rfl

/-! ## Region 1's array at its entry -/

/-- Region 1's array as the host operations compute it from region 0's result: pad the time axis with 4 copies of the
    most negative finite number on each side, lay out as 254 rows of 2, phase first. -/
theorem v20_eq : @Eq (S2048x2x254x64.Idx → EReal) (W9 m ρ c (Proc.devRef .tc main_v20))
    (transpose S2048x2x254x64 [0, 2, 1, 3]
      (shapeCast S2048x254x2x64
        (pad S2048x508x64 ![0, 4, 0] ![0, 4, 0] ![0, 0, 0] (W6 m ρ c (Proc.devRef .tc main_v17) : S2048x500x64.Idx → EReal)
          (constant (F := Ideal) S_ .f32 0xFF7FFFFF#32) pads_S2048x500x64_S2048x508x64_000_440_000 h_S_)
        shapeCasts_S2048x508x64_S2048x254x2x64)
      transposes_S2048x254x2x64_S2048x2x254x64_0_2_1_3) := by
  show StableHlo.after hostOps1_2 (StableHlo.after hostOps1_1 (StableHlo.after hostOps1 (W6 m ρ c))) (Proc.devRef .tc main_v20) = _
  after_results_simp
  rfl

/-! ## Region 2's arrays at its entry -/

/-! The argument arrays region 2's host operations read are as launched: no host operation before them and neither of
    regions 0 and 1 writes an argument array. -/
theorem W10_main_arg6 : W10 m ρ c (Proc.devRef .tc main_arg6) = m ((c : Thread nD τ).loc main_arg6) := by
  rw [W10_of_ne m ρ c main_arg6 (by decide)]
  show StableHlo.after hostOps1_2 (StableHlo.after hostOps1_1 (StableHlo.after hostOps1 (W6 m ρ c))) (Proc.devRef .tc main_arg6) = _
  after_results_simp
  rw [W6_of_ne m ρ c main_arg6 (by decide)]
  show StableHlo.after hostOps0_4 (StableHlo.after hostOps0_3 (StableHlo.after hostOps0_2 (StableHlo.after hostOps0_1 (StableHlo.after hostOps0 (W0 m ρ c))))) (Proc.devRef .tc main_arg6) = _
  after_results_simp

theorem W10_main_arg7 : W10 m ρ c (Proc.devRef .tc main_arg7) = m ((c : Thread nD τ).loc main_arg7) := by
  rw [W10_of_ne m ρ c main_arg7 (by decide)]
  show StableHlo.after hostOps1_2 (StableHlo.after hostOps1_1 (StableHlo.after hostOps1 (W6 m ρ c))) (Proc.devRef .tc main_arg7) = _
  after_results_simp
  rw [W6_of_ne m ρ c main_arg7 (by decide)]
  show StableHlo.after hostOps0_4 (StableHlo.after hostOps0_3 (StableHlo.after hostOps0_2 (StableHlo.after hostOps0_1 (StableHlo.after hostOps0 (W0 m ρ c))))) (Proc.devRef .tc main_arg7) = _
  after_results_simp

theorem W10_main_arg8 : W10 m ρ c (Proc.devRef .tc main_arg8) = m ((c : Thread nD τ).loc main_arg8) := by
  rw [W10_of_ne m ρ c main_arg8 (by decide)]
  show StableHlo.after hostOps1_2 (StableHlo.after hostOps1_1 (StableHlo.after hostOps1 (W6 m ρ c))) (Proc.devRef .tc main_arg8) = _
  after_results_simp
  rw [W6_of_ne m ρ c main_arg8 (by decide)]
  show StableHlo.after hostOps0_4 (StableHlo.after hostOps0_3 (StableHlo.after hostOps0_2 (StableHlo.after hostOps0_1 (StableHlo.after hostOps0 (W0 m ρ c))))) (Proc.devRef .tc main_arg8) = _
  after_results_simp

theorem W10_main_arg9 : W10 m ρ c (Proc.devRef .tc main_arg9) = m ((c : Thread nD τ).loc main_arg9) := by
  rw [W10_of_ne m ρ c main_arg9 (by decide)]
  show StableHlo.after hostOps1_2 (StableHlo.after hostOps1_1 (StableHlo.after hostOps1 (W6 m ρ c))) (Proc.devRef .tc main_arg9) = _
  after_results_simp
  rw [W6_of_ne m ρ c main_arg9 (by decide)]
  show StableHlo.after hostOps0_4 (StableHlo.after hostOps0_3 (StableHlo.after hostOps0_2 (StableHlo.after hostOps0_1 (StableHlo.after hostOps0 (W0 m ρ c))))) (Proc.devRef .tc main_arg9) = _
  after_results_simp

theorem W10_main_arg10 : W10 m ρ c (Proc.devRef .tc main_arg10) = m ((c : Thread nD τ).loc main_arg10) := by
  rw [W10_of_ne m ρ c main_arg10 (by decide)]
  show StableHlo.after hostOps1_2 (StableHlo.after hostOps1_1 (StableHlo.after hostOps1 (W6 m ρ c))) (Proc.devRef .tc main_arg10) = _
  after_results_simp
  rw [W6_of_ne m ρ c main_arg10 (by decide)]
  show StableHlo.after hostOps0_4 (StableHlo.after hostOps0_3 (StableHlo.after hostOps0_2 (StableHlo.after hostOps0_1 (StableHlo.after hostOps0 (W0 m ρ c))))) (Proc.devRef .tc main_arg10) = _
  after_results_simp

/-- Region 2's input array as the host operations compute it from region 1's result: 4 zeros on each side of the time
    axis (the reshapes and the transpose only pass through a unit axis). -/
theorem v25_eq : @Eq (S2048x259x64.Idx → EReal) (W15 m ρ c (Proc.devRef .tc main_v25))
    (shapeCast S2048x259x64 (transpose S2048x259x64x1 [0, 1, 3, 2]
      (shapeCast S2048x259x1x64
        (pad S2048x259x64 ![0, 4, 0] ![0, 4, 0] ![0, 0, 0] (W10 m ρ c (Proc.devRef .tc main_v21) : S2048x251x64.Idx → EReal)
          (sitofp (F := Ideal) .f32 (constantI S_ 32 0#32)) pads_S2048x251x64_S2048x259x64_000_440_000 h_S_)
        shapeCasts_S2048x259x64_S2048x259x1x64)
      transposes_S2048x259x1x64_S2048x259x64x1_0_1_3_2) shapeCasts_S2048x259x64x1_S2048x259x64) := by
  show StableHlo.after hostOps2_4 (StableHlo.after hostOps2_3 (StableHlo.after hostOps2_2 (StableHlo.after hostOps2_1 (StableHlo.after hostOps2 (W10 m ρ c))))) (Proc.devRef .tc main_v25) = _
  after_results_simp
  rfl

/-- Region 2's weight array as the host operations compute it: the weights with the tap axis first and the output
    channel last (the pad adds nothing). -/
theorem v29_eq : @Eq (S8x64x128.Idx → EReal) (W15 m ρ c (Proc.devRef .tc main_v29))
    (shapeCast S8x64x128 (transpose S8x64x1x128 [2, 1, 3, 0]
      (shapeCast S128x64x8x1
        (pad S128x64x8 ![0, 0, 0] ![0, 0, 0] ![0, 0, 0] (m ((c : Thread nD τ).loc main_arg6))
          (sitofp (F := Ideal) .f32 (constantI S_ 32 0#32)) pads_S128x64x8_S128x64x8_000_000_000 h_S_)
        shapeCasts_S128x64x8_S128x64x8x1)
      transposes_S128x64x8x1_S8x64x1x128_2_1_3_0) shapeCasts_S8x64x1x128_S8x64x128) := by
  show StableHlo.after hostOps2_4 (StableHlo.after hostOps2_3 (StableHlo.after hostOps2_2 (StableHlo.after hostOps2_1 (StableHlo.after hostOps2 (W10 m ρ c))))) (Proc.devRef .tc main_v29) = _
  after_results_simp
  rw [W10_main_arg6]
  rfl

/-- Region 2's scale array as the host operations compute it: γ / √(v + ε). -/
theorem v34_eq : @Eq (S1x128.Idx → EReal) (W15 m ρ c (Proc.devRef .tc main_v34))
    (shapeCast S1x128 (Host.divf (F := Ideal) (m ((c : Thread nD τ).loc main_arg7))
      (Host.sqrt (addf (m ((c : Thread nD τ).loc main_arg10))
        (broadcastInDim S128 ![] bcast_S_S128 (constant (F := Ideal) S_ .f32 0x3727C5AC#32))))) shapeCasts_S128_S1x128) := by
  show StableHlo.after hostOps2_4 (StableHlo.after hostOps2_3 (StableHlo.after hostOps2_2 (StableHlo.after hostOps2_1 (StableHlo.after hostOps2 (W10 m ρ c))))) (Proc.devRef .tc main_v34) = _
  after_results_simp
  rw [W10_main_arg7, W10_main_arg10]
  rfl

/-- Region 2's shift array as the host operations compute it: β − μ · (γ / √(v + ε)). -/
theorem v37_eq : @Eq (S1x128.Idx → EReal) (W15 m ρ c (Proc.devRef .tc main_v37))
    (shapeCast S1x128 (subf (F := Ideal) (m ((c : Thread nD τ).loc main_arg8))
      (mulf (m ((c : Thread nD τ).loc main_arg9))
        (Host.divf (m ((c : Thread nD τ).loc main_arg7))
          (Host.sqrt (addf (m ((c : Thread nD τ).loc main_arg10))
            (broadcastInDim S128 ![] bcast_S_S128 (constant (F := Ideal) S_ .f32 0x3727C5AC#32))))))) shapeCasts_S128_S1x128) := by
  show StableHlo.after hostOps2_4 (StableHlo.after hostOps2_3 (StableHlo.after hostOps2_2 (StableHlo.after hostOps2_1 (StableHlo.after hostOps2 (W10 m ρ c))))) (Proc.devRef .tc main_v37) = _
  after_results_simp
  rw [W10_main_arg7, W10_main_arg8, W10_main_arg9, W10_main_arg10]
  rfl

end Arrays

end A
open A

/-! ## The arrays at the entries of regions 0, 1 and 2, read at an index -/
theorem in0_0 (b : Fin 2048) (u : Fin 508) (r : Fin 6) :
    (W5 m ρ c (Proc.devRef .tc main_v4) : S2048x508x6.Idx → EReal) (ix3 b u r)
      = zpad 24 3000 ((PR m c).x b.val) (6 * u.val + r.val) := by
  have hu := u.isLt
  have hr := r.isLt
  have hlt : u.val * 6 + r.val < 3048 := by omega
  rw [v4_eq, shapeCast_ab1c_abc, transpose_0132, shapeCast_and_abcd _ _ (by decide) b u r 0 hlt,
    show 6 * u.val + r.val = u.val * 6 + r.val from by omega]
  unfold zpad
  by_cases hin : 24 ≤ u.val * 6 + r.val ∧ u.val * 6 + r.val < 24 + 3000
  · rw [if_pos hin,
      pad3_inside _ _ _ _ b ⟨u.val * 6 + r.val, hlt⟩ 0 b ⟨u.val * 6 + r.val - 24, by omega⟩ 0 (by simp) (by simp; omega) (by simp),
      transpose_ix3_021_apply]
    exact (ofArr3_val (m ((c : Thread nD τ).loc main_arg0)) b 0 ⟨u.val * 6 + r.val - 24, by omega⟩).symm
  · rw [if_neg hin, pad3_outside1 _ _ _ _ b ⟨u.val * 6 + r.val, hlt⟩ 0 (by simp; omega)]
    exact sitofp_zero _

theorem in0_1 (a : Fin 9) (r : Fin 6) (co : Fin 64) :
    (W5 m ρ c (Proc.devRef .tc main_v8) : S9x6x64.Idx → EReal) (ix3 a r co)
      = zpad 0 50 ((PR m c).w1 co.val) (6 * a.val + r.val) := by
  have ha := a.isLt
  have hr := r.isLt
  have hlt : a.val * 6 + r.val < 54 := by omega
  rw [v8_eq, shapeCast_a1bc_abc, transpose_2130, shapeCast_a1n_a1bc _ _ (by decide) co 0 a r hlt,
    show 6 * a.val + r.val = a.val * 6 + r.val from by omega]
  unfold zpad
  by_cases hin : 0 ≤ a.val * 6 + r.val ∧ a.val * 6 + r.val < 0 + 50
  · rw [if_pos hin,
      pad3_inside _ _ _ _ co 0 ⟨a.val * 6 + r.val, hlt⟩ co 0 ⟨a.val * 6 + r.val, by omega⟩ (by simp) (by simp) (by simp)]
    exact (ofArr3_val (m ((c : Thread nD τ).loc main_arg1)) co 0 ⟨a.val * 6 + r.val, by omega⟩).symm
  · rw [if_neg hin, pad3_outside2 _ _ _ _ co 0 ⟨a.val * 6 + r.val, hlt⟩ (by simp; omega)]
    exact sitofp_zero _

theorem in0_2 (co : Fin 64) :
    (W5 m ρ c (Proc.devRef .tc main_v13) : S1x64.Idx → EReal) (ix2 0 co) = s1 (PR m c) co.val := by
  rw [v13_eq, shapeCast_a_1a_apply]
  simp only [s1, scale, PR, params, ofArr1_val]
  rfl

theorem in0_3 (co : Fin 64) :
    (W5 m ρ c (Proc.devRef .tc main_v16) : S1x64.Idx → EReal) (ix2 0 co) = t1 (PR m c) co.val := by
  rw [v16_eq, shapeCast_a_1a_apply]
  simp only [t1, shift, s1, scale, PR, params, ofArr1_val]
  rfl

theorem in1_0 (b : Fin 2048) (ph : Fin 2) (u : Fin 254) (ch : Fin 64) :
    (W9 m ρ c (Proc.devRef .tc main_v20) : S2048x2x254x64.Idx → EReal) (ix4 b ph u ch)
      = npad 4 500 (fun j => ofArr3 (W6 m ρ c (Proc.devRef .tc main_v17) : S2048x500x64.Idx → EReal) b.val j ch.val)
          (2 * u.val + ph.val) := by
  have hu := u.isLt
  have hp := ph.isLt
  have hlt : u.val * 2 + ph.val < 508 := by omega
  rw [v20_eq, transpose_0213, shapeCast_and_abcd _ _ (by decide) b u ph ch hlt,
    show 2 * u.val + ph.val = u.val * 2 + ph.val from by omega]
  unfold npad
  by_cases hin : 4 ≤ u.val * 2 + ph.val ∧ u.val * 2 + ph.val < 4 + 500
  · rw [if_pos hin,
      pad3_inside _ _ _ _ b ⟨u.val * 2 + ph.val, hlt⟩ ch b ⟨u.val * 2 + ph.val - 4, by omega⟩ ch (by simp) (by simp; omega) (by simp)]
    exact (ofArr3_val (W6 m ρ c (Proc.devRef .tc main_v17) : S2048x500x64.Idx → EReal) b ⟨u.val * 2 + ph.val - 4, by omega⟩ ch).symm
  · rw [if_neg hin, pad3_outside1 _ _ _ _ b ⟨u.val * 2 + ph.val, hlt⟩ ch (by simp; omega)]
    rfl

theorem in2_0 (b : Fin 2048) (j : Fin 259) (ci : Fin 64) :
    (W15 m ρ c (Proc.devRef .tc main_v25) : S2048x259x64.Idx → EReal) (ix3 b j ci)
      = zpad 4 251 (fun l => ofArr3 (W10 m ρ c (Proc.devRef .tc main_v21) : S2048x251x64.Idx → EReal) b.val l ci.val) j.val := by
  have hj := j.isLt
  rw [v25_eq, shapeCast_abc1_abc, transpose_0132, shapeCast_abc_ab1c]
  unfold zpad
  by_cases hin : 4 ≤ j.val ∧ j.val < 4 + 251
  · rw [if_pos hin, pad3_inside _ _ _ _ b j ci b ⟨j.val - 4, by omega⟩ ci (by simp) (by simp; omega) (by simp)]
    exact (ofArr3_val (W10 m ρ c (Proc.devRef .tc main_v21) : S2048x251x64.Idx → EReal) b ⟨j.val - 4, by omega⟩ ci).symm
  · rw [if_neg hin, pad3_outside1 _ _ _ _ b j ci (by omega)]
    exact sitofp_zero _

theorem in2_1 (k : Fin 8) (ci : Fin 64) (co : Fin 128) :
    (W15 m ρ c (Proc.devRef .tc main_v29) : S8x64x128.Idx → EReal) (ix3 k ci co) = (PR m c).w2 co.val ci.val k.val := by
  rw [v29_eq, shapeCast_ab1c_abc, transpose_2130, shapeCast_abc_abc1,
    pad3_inside _ _ _ _ co ci k co ci k (by simp) (by simp) (by simp)]
  exact (ofArr3_val (m ((c : Thread nD τ).loc main_arg6)) co ci k).symm

theorem in2_2 (co : Fin 128) :
    (W15 m ρ c (Proc.devRef .tc main_v34) : S1x128.Idx → EReal) (ix2 0 co) = s2 (PR m c) co.val := by
  rw [v34_eq, shapeCast_a_1a_apply]
  simp only [s2, scale, PR, params, ofArr1_val]
  rfl

theorem in2_3 (co : Fin 128) :
    (W15 m ρ c (Proc.devRef .tc main_v37) : S1x128.Idx → EReal) (ix2 0 co) = t2 (PR m c) co.val := by
  rw [v37_eq, shapeCast_a_1a_apply]
  simp only [t2, shift, s2, scale, PR, params, ofArr1_val]
  rfl

end Cert.ReferenceIdeal.RGlue

end
-- ==== Proof.RStage0.lean ====
/-
  Stage 0 of the reference program's chain: region 0 leaves the first convolution layer of branch 1 in its
  output array. The region reads the zero-padded signal six samples to a row and the 50 taps zero-padded to 54 and
  laid six to a row, and adds 9 taps of 6 lanes each; regrouped, that is the 50-tap stride-6 convolution.
-/
import proofs.«125144_g2000006933354569_pallasbulk_1054_1_alg».proof.Proof.Gen.ReferenceIdeal.Frame
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RConvA
import proofs.«125144_g2000006933354569_pallasbulk_1054_1_alg».proof.Proof.RRegionA
import proofs.«125144_g2000006933354569_pallasbulk_1054_1_alg».proof.Proof.RGlueA

noncomputable section

namespace Cert.ReferenceIdeal.RStage

open Cert.ReferenceIdeal Cert.ReferenceIdeal.Gen Cert.Spec Idealize.ShloMosaic Idealize.ShloMosaic.TcCoe Idealize.ShloMosaic.ValueIdx Idealize.SL.Sem
open Cert.ReferenceIdeal.RBody

/-- Region 0's body on a block holding the sequence `xz` six samples to a row, against taps `w` zero-padded from 50
    to 54 and laid six to a row: the 50-tap stride-6 sum, scaled, shifted and activated. Row `l + a`, lane `q` of the
    block is sample `6·(l + a) + q = 6·l + (6·a + q)`. -/
theorem conv0_core (xz w : ℕ → EReal) (R : Vec Ideal S1x508x6 .f32) (T : Vec Ideal S9x6x64 .f32) (x2 x3 : Vec Ideal S1x64 .f32)
    (co : Fin 64)
    (hR : ∀ (u : Fin 508) (r : Fin 6), R (ix3 0 u r) = xz (6 * u.val + r.val))
    (hT : ∀ (a : Fin 9) (r : Fin 6), T (ix3 a r co) = zpad 0 50 w (6 * a.val + r.val))
    (l : Fin 500) :
    out0_4 (F := Ideal) R T x2 x3 (ix3 0 l co)
      = gelu ((∑ k ∈ Finset.range 50, xz (6 * l.val + k) * w k) * x2 (ix2 0 co) + x3 (ix2 0 co)) := by
  rw [out0_4_apply, ← conv1_ref 9 6 50 (by norm_num) xz w l.val]
  congr 3
  refine Finset.sum_congr rfl fun a ha => Finset.sum_congr rfl fun q hq => ?_
  have ha' := Finset.mem_range.1 ha
  have hq' := Finset.mem_range.1 hq
  have hu : l.val + a < 508 := by have := l.isLt; omega
  have ex := (ofArr3_val R 0 ⟨l.val + a, hu⟩ ⟨q, hq'⟩).trans (hR ⟨l.val + a, hu⟩ ⟨q, hq'⟩)
  have ew := (ofArr3_val T ⟨a, ha'⟩ ⟨q, hq'⟩ co).trans (hT ⟨a, ha'⟩ ⟨q, hq'⟩)
  exact congrArg₂ (· * ·) ex ew

variable (m : (ℓ : Loc nD τ sig) → Buf (Elt Ideal) ℓ) (ρ : Dev nD → PrngReg)

/-- STAGE 0: region 0's output array, when the region is left, is the first convolution layer of branch 1. -/
theorem stage0 (c : Dev nD) : ∀ (b : Fin 2048) (l : Fin 500) (co : Fin 64),
    (W6 m ρ c (Proc.devRef .tc main_v17) : S2048x500x64.Idx → EReal) (ix3 b l co) = H1 (PR m c) b.val l.val co.val := by
  intro b l co
  have hW : W6 m ρ c (Proc.devRef .tc main_v17) = (dat0 (V5 m ρ) c).arrAt 4 cfg0.N := W6_arr m ρ c 4
  refine (congrFun hW (ix3 b l co)).trans ?_
  refine (RRegion.region0_at (V5 m ρ) c b l co).trans ?_
  refine (conv0_core (zpad 24 3000 ((PR m c).x b.val)) ((PR m c).w1 co.val) _ _ _ _ co (fun u r => ?_) (fun a r => ?_) l).trans ?_
  · exact RGlue.in0_0 m ρ c b u r
  · exact RGlue.in0_1 m ρ c a r co
  · unfold H1
    have h2 : (V5 m ρ c (Pipeline.arrRef spec0 2) : S1x64.Idx → EReal) (ix2 0 co) = s1 (PR m c) co.val := RGlue.in0_2 m ρ c co
    have h3 : (V5 m ρ c (Pipeline.arrRef spec0 3) : S1x64.Idx → EReal) (ix2 0 co) = t1 (PR m c) co.val := RGlue.in0_3 m ρ c co
    rw [h2, h3]

end Cert.ReferenceIdeal.RStage
end
-- ==== Proof.RPool.lean ====
/-
  The four max-pooling regions of the reference program, read at an index: what each leaves in its output
  buffer is the supremum, over the pooling window's shifts and the input's phases, of the input block.
-/
import proofs.«125144_g2000006933354569_pallasbulk_1054_1_alg».proof.Proof.Gen.ReferenceIdeal.Frame
import proofs.«125144_g2000006933354569_pallasbulk_1054_1_alg».proof.Proof.RIface
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RBody

open Cert.ReferenceIdeal Cert.ReferenceIdeal.Gen Cert.Spec Idealize.ShloMosaic Idealize.ShloMosaic.ValueIdx

/-! ## Small facts -/

private theorem zeros3 : (![0, 0, 0] : Fin 3 → Nat) = fun _ => 0 := funext fun a => by fin_cases a <;> rfl
private theorem zeros4 : (![0, 0, 0, 0] : Fin 4 → Nat) = fun _ => 0 := funext fun a => by fin_cases a <;> rfl

/-- A supremum over all of `Fin n` is the supremum over `range n` of a function of the values. -/
private theorem sup_univ_eq_sup_range {n : ℕ} (f : Fin n → EReal) (g : ℕ → EReal) (hfg : ∀ k : Fin n, f k = g k.val) :
    (Finset.univ : Finset (Fin n)).sup f = (Finset.range n).sup g := by
  apply le_antisymm
  · apply Finset.sup_le; intro k _; rw [hfg]; exact Finset.le_sup (f := g) (Finset.mem_range.2 k.isLt)
  · apply Finset.sup_le; intro k hk
    have hk' := Finset.mem_range.1 hk
    rw [show g k = f ⟨k, hk'⟩ from (hfg ⟨k, hk'⟩).symm]; exact Finset.le_sup (Finset.mem_univ _)

/-- The fold of `max` from the word of −∞ over an axis's coordinates is the supremum over their values:
    −∞ is `⊥`, the unit of `max`. -/
private theorem fold_max_neg_inf {n : ℕ} (f : Fin n → EReal) (g : ℕ → EReal) (hfg : ∀ k : Fin n, f k = g k.val) :
    (Finset.univ : Finset (Fin n)).fold max (FloatOps.ofBits (F := Ideal) .f32 0xFF800000#32) f = (Finset.range n).sup g := by
  have hb : (FloatOps.ofBits (F := Ideal) .f32 0xFF800000#32) = (⊥ : EReal) := by
    show Ideal.ofBits .f32 0xFF800000#32 = ⊥
    simp [Ideal.ofBits, Ideal.ieee]
  rw [hb]
  exact sup_univ_eq_sup_range f g hfg

private theorem sup_range_two (M : ℕ → EReal) : (Finset.range 2).sup M = max (M 0) (M 1) := by
  have h : Finset.range 2 = insert 1 (insert 0 ∅) := by decide
  rw [h, Finset.sup_insert, Finset.sup_insert, Finset.sup_empty, sup_bot_eq]
  exact max_comm _ _

private theorem sup_range_four (M : ℕ → EReal) : (Finset.range 4).sup M = max (max (max (M 0) (M 1)) (M 2)) (M 3) := by
  have h : Finset.range 4 = insert 3 (insert 2 (insert 1 (insert 0 ∅))) := by decide
  rw [h, Finset.sup_insert, Finset.sup_insert, Finset.sup_insert, Finset.sup_insert, Finset.sup_empty, sup_bot_eq]
  show max (M 3) (max (M 2) (max (M 1) (M 0))) = _
  rw [max_comm (M 3), max_comm (M 2), max_comm (M 1)]

/-! ## Region 1: window 4 over the two phases of a 254-row block -/

/-- The maximum over the 2 phases of region 1's block, at row `j` and channel `c`. -/
theorem red1_apply (x0 : Vec Ideal S1x2x254x64 .f32) (j : Fin 254) (c : Fin 64) :
    multiReduction (F := Ideal) .maximumf [0] S254x64 (shapeCast S2x254x64 x0 shapeCasts_S1x2x254x64_S2x254x64)
        0xFF800000#32 reduces_S2x254x64_S254x64 (.inl rfl) rfl (ix2 j c)
      = (Finset.range 2).sup fun ph => ofArr4 x0 0 ph j.val c.val := by
  refine (Ideal.multiReduction_maximumf_single _ _ reduces_S2x254x64_S254x64 _ _ (ix2 j c)).trans ?_
  refine fold_max_neg_inf (n := 2) _ _ (fun (k : Fin 2) => ?_)
  show shapeCast S2x254x64 x0 _ (reduces_S2x254x64_S254x64.lift (ix2 j c) k) = ofArr4 x0 0 k.val j.val c.val
  have hl : reduces_S2x254x64_S254x64.lift (ix2 j c) k = ix3 k j c := by
    funext a; fin_cases a <;> rfl
  rw [hl]
  exact (shapeCast_1abc_abc_apply x0 _ k j c).trans (ofArr4_val x0 0 k j c).symm

theorem out1_1_apply (x0 : Vec Ideal S1x2x254x64 .f32) (l : Fin 251) (c : Fin 64) :
    out1_1 (F := Ideal) x0 (ix3 0 l c)
      = (Finset.range 4).sup fun a => (Finset.range 2).sup fun ph => ofArr4 x0 0 ph (l.val + a) c.val := by
  unfold out1_1
  rw [View.canon_unit_zero zeros3, View.ld_unit_zero zeros4]
  unfold k1_pay1
  rw [shapeCast_ab_1ab_apply]
  simp only [maximumf_apply]
  rw [slice2_axis0_apply 0 _ _ l c ⟨l.val, by omega⟩ (by simp), slice2_axis0_apply 1 _ _ l c ⟨l.val + 1, by omega⟩ (by simp; omega),
    slice2_axis0_apply 2 _ _ l c ⟨l.val + 2, by omega⟩ (by simp; omega), slice2_axis0_apply 3 _ _ l c ⟨l.val + 3, by omega⟩ (by simp; omega)]
  rw [red1_apply, red1_apply, red1_apply, red1_apply]
  exact (sup_range_four fun a => (Finset.range 2).sup fun ph => ofArr4 x0 0 ph (l.val + a) c.val).symm

/-! ## Region 4: the four phases of a 64-row block -/

/-- The maximum over the 4 phases of region 4's block, at row `j` and channel `c`. -/
theorem red4_apply (x0 : Vec Ideal S1x4x64x128 .f32) (j : Fin 64) (c : Fin 128) :
    multiReduction (F := Ideal) .maximumf [0] S64x128 (shapeCast S4x64x128 x0 shapeCasts_S1x4x64x128_S4x64x128)
        0xFF800000#32 reduces_S4x64x128_S64x128 (.inl rfl) rfl (ix2 j c)
      = (Finset.range 4).sup fun ph => ofArr4 x0 0 ph j.val c.val := by
  refine (Ideal.multiReduction_maximumf_single _ _ reduces_S4x64x128_S64x128 _ _ (ix2 j c)).trans ?_
  refine fold_max_neg_inf (n := 4) _ _ (fun (k : Fin 4) => ?_)
  show shapeCast S4x64x128 x0 _ (reduces_S4x64x128_S64x128.lift (ix2 j c) k) = ofArr4 x0 0 k.val j.val c.val
  have hl : reduces_S4x64x128_S64x128.lift (ix2 j c) k = ix3 k j c := by
    funext a; fin_cases a <;> rfl
  rw [hl]
  exact (shapeCast_1abc_abc_apply x0 _ k j c).trans (ofArr4_val x0 0 k j c).symm

theorem out4_1_apply (x0 : Vec Ideal S1x4x64x128 .f32) (l : Fin 64) (c : Fin 128) :
    out4_1 (F := Ideal) x0 (ix3 0 l c) = (Finset.range 4).sup fun ph => ofArr4 x0 0 ph l.val c.val := by
  unfold out4_1
  rw [View.canon_unit_zero zeros3, View.ld_unit_zero zeros4]
  unfold k4_pay1
  rw [shapeCast_ab_1ab_apply]
  exact red4_apply x0 l c

/-! ## Region 6: window 2 over the two phases of a 32-row block -/

/-- The maximum over the 2 phases of region 6's block, at row `j` and channel `c`. -/
theorem red6_apply (x0 : Vec Ideal S1x2x32x64 .f32) (j : Fin 32) (c : Fin 64) :
    multiReduction (F := Ideal) .maximumf [0] S32x64 (shapeCast S2x32x64 x0 shapeCasts_S1x2x32x64_S2x32x64)
        0xFF800000#32 reduces_S2x32x64_S32x64 (.inl rfl) rfl (ix2 j c)
      = (Finset.range 2).sup fun ph => ofArr4 x0 0 ph j.val c.val := by
  refine (Ideal.multiReduction_maximumf_single _ _ reduces_S2x32x64_S32x64 _ _ (ix2 j c)).trans ?_
  refine fold_max_neg_inf (n := 2) _ _ (fun (k : Fin 2) => ?_)
  show shapeCast S2x32x64 x0 _ (reduces_S2x32x64_S32x64.lift (ix2 j c) k) = ofArr4 x0 0 k.val j.val c.val
  have hl : reduces_S2x32x64_S32x64.lift (ix2 j c) k = ix3 k j c := by
    funext a; fin_cases a <;> rfl
  rw [hl]
  exact (shapeCast_1abc_abc_apply x0 _ k j c).trans (ofArr4_val x0 0 k j c).symm

theorem out6_1_apply (x0 : Vec Ideal S1x2x32x64 .f32) (l : Fin 31) (c : Fin 64) :
    out6_1 (F := Ideal) x0 (ix3 0 l c)
      = (Finset.range 2).sup fun a => (Finset.range 2).sup fun ph => ofArr4 x0 0 ph (l.val + a) c.val := by
  unfold out6_1
  rw [View.canon_unit_zero zeros3, View.ld_unit_zero zeros4]
  unfold k6_pay1
  rw [shapeCast_ab_1ab_apply]
  simp only [maximumf_apply]
  rw [slice2_axis0_apply 0 _ _ l c ⟨l.val, by omega⟩ (by simp), slice2_axis0_apply 1 _ _ l c ⟨l.val + 1, by omega⟩ (by simp; omega)]
  rw [red6_apply, red6_apply]
  exact (sup_range_two fun a => (Finset.range 2).sup fun ph => ofArr4 x0 0 ph (l.val + a) c.val).symm

/-! ## Region 9: the two phases of a 16-row block -/

/-- The maximum over the 2 phases of region 9's block, at row `j` and channel `c`. -/
theorem red9_apply (x0 : Vec Ideal S1x2x16x128 .f32) (j : Fin 16) (c : Fin 128) :
    multiReduction (F := Ideal) .maximumf [0] S16x128 (shapeCast S2x16x128 x0 shapeCasts_S1x2x16x128_S2x16x128)
        0xFF800000#32 reduces_S2x16x128_S16x128 (.inl rfl) rfl (ix2 j c)
      = (Finset.range 2).sup fun ph => ofArr4 x0 0 ph j.val c.val := by
  refine (Ideal.multiReduction_maximumf_single _ _ reduces_S2x16x128_S16x128 _ _ (ix2 j c)).trans ?_
  refine fold_max_neg_inf (n := 2) _ _ (fun (k : Fin 2) => ?_)
  show shapeCast S2x16x128 x0 _ (reduces_S2x16x128_S16x128.lift (ix2 j c) k) = ofArr4 x0 0 k.val j.val c.val
  have hl : reduces_S2x16x128_S16x128.lift (ix2 j c) k = ix3 k j c := by
    funext a; fin_cases a <;> rfl
  rw [hl]
  exact (shapeCast_1abc_abc_apply x0 _ k j c).trans (ofArr4_val x0 0 k j c).symm

theorem out9_1_apply (x0 : Vec Ideal S1x2x16x128 .f32) (l : Fin 16) (c : Fin 128) :
    out9_1 (F := Ideal) x0 (ix3 0 l c) = (Finset.range 2).sup fun ph => ofArr4 x0 0 ph l.val c.val := by
  unfold out9_1
  rw [View.canon_unit_zero zeros3, View.ld_unit_zero zeros4]
  unfold k9_pay1
  rw [shapeCast_ab_1ab_apply]
  exact red9_apply x0 l c

end Cert.ReferenceIdeal.RBody

end
-- ==== Proof.RStage1.lean ====
/-
  Stage 1 of the reference program's chain: given the first convolution layer in region 0's output array,
  the first max-pooling region leaves the first pooled layer in its output array.
-/
import proofs.«125144_g2000006933354569_pallasbulk_1054_1_alg».proof.Proof.Gen.ReferenceIdeal.Frame
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RPool
import proofs.«125144_g2000006933354569_pallasbulk_1054_1_alg».proof.Proof.RRegionA
import proofs.«125144_g2000006933354569_pallasbulk_1054_1_alg».proof.Proof.RGlueA

noncomputable section

namespace Cert.ReferenceIdeal.RStage

open Cert.ReferenceIdeal Cert.ReferenceIdeal.Gen Cert.Spec Idealize.ShloMosaic Idealize.ShloMosaic.TcCoe Idealize.ShloMosaic.ValueIdx Idealize.SL.Sem
open Cert.ReferenceIdeal.RBody

/-- Region 1's body on a block holding, at channel `ch`, the phase-split padded sequence `f`: the pooled sequence.
    Row `l + a`, phase `ph` of the block is sample `2·(l + a) + ph = 2·l + (2·a + ph)` of the padded sequence. -/
theorem pool1_core (f : ℕ → EReal) (R : Vec Ideal S1x2x254x64 .f32) (ch : Fin 64)
    (hR : ∀ (ph : Fin 2) (u : Fin 254), R (ix4 0 ph u ch) = npad 4 500 f (2 * u.val + ph.val))
    (l : Fin 251) :
    out1_1 (F := Ideal) R (ix3 0 l ch) = Cert.Spec.pool 2 8 (npad 4 500 f) l.val := by
  rw [out1_1_apply]
  unfold Cert.Spec.pool
  rw [show (8 : ℕ) = 4 * 2 from rfl, sup_range_mul 4 2]
  refine Finset.sup_congr rfl fun a ha => Finset.sup_congr rfl fun ph hph => ?_
  have ha' := Finset.mem_range.1 ha
  have hph' := Finset.mem_range.1 hph
  have hu : l.val + a < 254 := by omega
  have e := ofArr4_val R 0 ⟨ph, hph'⟩ ⟨l.val + a, hu⟩ ch
  refine e.trans ((hR ⟨ph, hph'⟩ ⟨l.val + a, hu⟩).trans ?_)
  show npad 4 500 f (2 * (l.val + a) + ph) = npad 4 500 f (2 * l.val + (a * 2 + ph))
  rw [show 2 * (l.val + a) + ph = 2 * l.val + (a * 2 + ph) by ring]

variable (m : (ℓ : Loc nD τ sig) → Buf (Elt Ideal) ℓ) (ρ : Dev nD → PrngReg)

/-- STAGE 1: given the first convolution layer in region 0's output array, region 1's output array is the
    first pooled layer. -/
theorem stage1 (c : Dev nD)
    (h0 : ∀ (b : Fin 2048) (l : Fin 500) (co : Fin 64),
      (W6 m ρ c (Proc.devRef .tc main_v17) : S2048x500x64.Idx → EReal) (ix3 b l co) = H1 (PR m c) b.val l.val co.val) :
    ∀ (b : Fin 2048) (l : Fin 251) (ch : Fin 64),
      (W10 m ρ c (Proc.devRef .tc main_v21) : S2048x251x64.Idx → EReal) (ix3 b l ch) = P1 (PR m c) b.val l.val ch.val := by
  intro b l ch
  have hW : W10 m ρ c (Proc.devRef .tc main_v21) = (dat1 (V9 m ρ) c).arrAt 1 cfg1.N := W10_arr m ρ c 1
  refine (congrFun hW (ix3 b l ch)).trans ?_
  refine (RRegion.region1_at (V9 m ρ) c b l ch).trans ?_
  refine pool1_core (fun j => H1 (PR m c) b.val j ch.val) _ ch (fun ph u => ?_) l
  show (W9 m ρ c (Proc.devRef .tc main_v20) : S2048x2x254x64.Idx → EReal) (ix4 b ph u ch) = _
  rw [RGlue.in1_0 m ρ c b ph u ch]
  refine npad_congr 4 500 _ _ (fun j hj => ?_) _
  exact (ofArr3_val (W6 m ρ c (Proc.devRef .tc main_v17) : S2048x500x64.Idx → EReal) b ⟨j, hj⟩ ch).trans (h0 b ⟨j, hj⟩ ch)

end Cert.ReferenceIdeal.RStage

end
-- ==== Proof.RStage2.lean ====
/-
  Stage 2 of the reference program's chain: the third launch's output array, at the launch's exit, is layer 2 of
  branch 1 (eight taps over the zero-padded pooled first layer, 64 to 128 channels, batch normalisation, GELU),
  given that the second launch's output array is the pooled first layer.
-/
import proofs.«125144_g2000006933354569_pallasbulk_1054_1_alg».proof.Proof.Gen.ReferenceIdeal.Frame
import proofs.«125144_g2000006933354569_pallasbulk_1054_1_alg».proof.Proof.Spec
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RConvA
import proofs.«125144_g2000006933354569_pallasbulk_1054_1_alg».proof.Proof.RRegionA
import proofs.«125144_g2000006933354569_pallasbulk_1054_1_alg».proof.Proof.RGlueA
import Idealize.ShloMosaic.Lib.ValueIdx

noncomputable section

namespace Cert.ReferenceIdeal.RStage

open Cert.ReferenceIdeal Cert.ReferenceIdeal.Gen Cert.Spec Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Region 2's output array is layer 2 of branch 1, given that region 1's is the pooled first layer: the region's
    body at batch row b is the eight-tap convolution of the zero-padded previous layer with the second layer's
    weights, scaled, shifted and passed through GELU, term for term the network's formula. -/
theorem stage2
    (h1 : ∀ (b : Fin 2048) (l : Fin 251) (ch : Fin 64),
      (W10 m ρ c (Proc.devRef .tc main_v21) : S2048x251x64.Idx → EReal) (ix3 b l ch) = P1 (PR m c) b.val l.val ch.val) :
    ∀ (b : Fin 2048) (l : Fin 252) (co : Fin 128),
      (W16 m ρ c (Proc.devRef .tc main_v38) : S2048x252x128.Idx → EReal) (ix3 b l co) = H2 (PR m c) b.val l.val co.val := by
  intro b l co
  have e1 : (W16 m ρ c (Proc.devRef .tc main_v38) : S2048x252x128.Idx → EReal) = (dat2 (V15 m ρ) c).arrAt 4 cfg2.N :=
    W16_arr m ρ c 4
  rw [e1, RRegion.region2_at (V15 m ρ) c b l co, RBody.out2_4_apply]
  unfold H2
  refine congrArg gelu ?_
  refine congrArg₂ (· + ·) (congrArg₂ (· * ·) ?_ (RGlue.in2_2 m ρ c co)) (RGlue.in2_3 m ρ c co)
  refine Finset.sum_congr rfl fun a ha => Finset.sum_congr rfl fun q hq => ?_
  have ha' := Finset.mem_range.1 ha
  have hq' := Finset.mem_range.1 hq
  have hl := l.isLt
  refine congrArg₂ (· * ·) ?_ ?_
  · rw [ofArr3_row (V15 m ρ c (Pipeline.arrRef spec2 0) : S2048x259x64.Idx → EReal) b _ (fun j k => rfl)]
    refine (ofArr3_val (V15 m ρ c (Pipeline.arrRef spec2 0) : S2048x259x64.Idx → EReal) b ⟨l.val + a, by omega⟩ ⟨q, hq'⟩).trans ?_
    refine (RGlue.in2_0 m ρ c b ⟨l.val + a, by omega⟩ ⟨q, hq'⟩).trans ?_
    exact zpad_congr 4 251 _ _ (fun j hj =>
      (ofArr3_val (W10 m ρ c (Proc.devRef .tc main_v21) : S2048x251x64.Idx → EReal) b ⟨j, hj⟩ ⟨q, hq'⟩).trans (h1 b ⟨j, hj⟩ ⟨q, hq'⟩)) _
  · exact (ofArr3_val (V15 m ρ c (Pipeline.arrRef spec2 1) : S8x64x128.Idx → EReal) ⟨a, ha'⟩ ⟨q, hq'⟩ co).trans
      (RGlue.in2_1 m ρ c ⟨a, ha'⟩ ⟨q, hq'⟩ co)

end Cert.ReferenceIdeal.RStage
end
-- ==== Proof.RGlueB.lean ====
/-
  What the reference program's third convolution, second max pooling and fourth convolution (the second branch's
  first) are launched with, as plain mathematics.

  Between two launches the host prepares the next launch's arrays: the previous output (or the signal) padded along
  time — with zeros for a convolution, with the most negative finite number for a pooling —, the time axis split into
  rows where the launch strides over it, the weights read tap-major, and batch normalisation's two rows
  s = γ / √(v + ε)  and  t = β − μ · s.  Each prepared array is read here at an index and found to be the
  specification's expression: a padded sequence (`zpad` / `npad`) of the previous layer's array, an entry of the
  network's weights, or the specification's `s` and `t`.

  The layout steps are stated once for arbitrary extents (a unit axis moved, a split axis, a transposition of four
  axes), then the padding read at an index, then the two normalisation rows; the three launches' arrays follow.
-/
import proofs.«125144_g2000006933354569_pallasbulk_1054_1_alg».proof.Proof.Gen.ReferenceIdeal.Frame
import proofs.«125144_g2000006933354569_pallasbulk_1054_1_alg».proof.Proof.RIface
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.ValueIdxCoords

set_option maxRecDepth 16384

noncomputable section

namespace Cert.ReferenceIdeal.RGlue

open Cert.ReferenceIdeal Cert.ReferenceIdeal.Gen Cert.Spec
open Idealize.ShloMosaic Idealize.ShloMosaic.TcCoe Idealize.ShloMosaic.ValueIdx Idealize.SL.Sem

section Layout
variable {α : Type}

/-- A unit axis inserted before the last axis, swapped with it, and dropped again changes nothing. -/
theorem unitSwap_apply {B L C : ℕ} (x : (⟨3, ![B, L, C]⟩ : Shape).Idx → α)
    (h1 : (⟨3, ![B, L, C]⟩ : Shape).ShapeCasts ⟨4, ![B, L, 1, C]⟩)
    (ht : (⟨4, ![B, L, 1, C]⟩ : Shape).Transposes [0, 1, 3, 2] ⟨4, ![B, L, C, 1]⟩)
    (h2 : (⟨4, ![B, L, C, 1]⟩ : Shape).ShapeCasts ⟨3, ![B, L, C]⟩) (b : Fin B) (l : Fin L) (c : Fin C) :
    shapeCast ⟨3, ![B, L, C]⟩ (transpose ⟨4, ![B, L, C, 1]⟩ [0, 1, 3, 2] (shapeCast ⟨4, ![B, L, 1, C]⟩ x h1) ht) h2 (ix3 b l c)
      = x (ix3 b l c) := by
  rw [shapeCast_apply _ h2 (ix3 b l c) (ix4 b l c 0) (by
        rw [Shape.rowMajor_val_four, Shape.rowMajor_val_three]
        simp [ix3_0, ix3_1, ix3_2, ix4_0, ix4_1, ix4_2, ix4_3]),
      transpose_apply _ _ ht (ix4 b l c 0) (ix4 b l 0 c) (by intro a; fin_cases a <;> rfl),
      shapeCast_apply _ h1 (ix4 b l 0 c) (ix3 b l c) (by
        rw [Shape.rowMajor_val_four, Shape.rowMajor_val_three]
        simp [ix3_0, ix3_1, ix3_2, ix4_0, ix4_1, ix4_2, ix4_3])]

/-- The middle axis split as U rows of R, the rows' entries moved last: entry (b, u, r) is entry (b, R·u + r, 0). -/
theorem splitSwap_apply {B N U R : ℕ} (hN : N = U * R) (x : (⟨3, ![B, N, 1]⟩ : Shape).Idx → α)
    (h1 : (⟨3, ![B, N, 1]⟩ : Shape).ShapeCasts ⟨4, ![B, U, R, 1]⟩)
    (ht : (⟨4, ![B, U, R, 1]⟩ : Shape).Transposes [0, 1, 3, 2] ⟨4, ![B, U, 1, R]⟩)
    (h2 : (⟨4, ![B, U, 1, R]⟩ : Shape).ShapeCasts ⟨3, ![B, U, R]⟩) (b : Fin B) (u : Fin U) (r : Fin R) (k : Fin N)
    (hk : k.val = R * u.val + r.val) :
    shapeCast ⟨3, ![B, U, R]⟩ (transpose ⟨4, ![B, U, 1, R]⟩ [0, 1, 3, 2] (shapeCast ⟨4, ![B, U, R, 1]⟩ x h1) ht) h2 (ix3 b u r)
      = x (ix3 b k 0) := by
  rw [shapeCast_apply _ h2 (ix3 b u r) (ix4 b u 0 r) (by
        rw [Shape.rowMajor_val_four, Shape.rowMajor_val_three]
        simp [ix3_0, ix3_1, ix3_2, ix4_0, ix4_1, ix4_2, ix4_3]),
      transpose_apply _ _ ht (ix4 b u 0 r) (ix4 b u r 0) (by intro a; fin_cases a <;> rfl),
      shapeCast_apply _ h1 (ix4 b u r 0) (ix3 b k 0) (by
        rw [Shape.rowMajor_val_four, Shape.rowMajor_val_three]
        simp [ix3_0, ix3_1, ix3_2, ix4_0, ix4_1, ix4_2, ix4_3, hk, hN]; ring)]

/-- A weight array [Co, Ci, K] read tap-major: entry (k, ci, co) of the result is entry (co, ci, k). -/
theorem weightSwap_apply {Co Ci K : ℕ} (x : (⟨3, ![Co, Ci, K]⟩ : Shape).Idx → α)
    (h1 : (⟨3, ![Co, Ci, K]⟩ : Shape).ShapeCasts ⟨4, ![Co, Ci, K, 1]⟩)
    (ht : (⟨4, ![Co, Ci, K, 1]⟩ : Shape).Transposes [2, 1, 3, 0] ⟨4, ![K, Ci, 1, Co]⟩)
    (h2 : (⟨4, ![K, Ci, 1, Co]⟩ : Shape).ShapeCasts ⟨3, ![K, Ci, Co]⟩) (k : Fin K) (ci : Fin Ci) (co : Fin Co) :
    shapeCast ⟨3, ![K, Ci, Co]⟩ (transpose ⟨4, ![K, Ci, 1, Co]⟩ [2, 1, 3, 0] (shapeCast ⟨4, ![Co, Ci, K, 1]⟩ x h1) ht) h2 (ix3 k ci co)
      = x (ix3 co ci k) := by
  rw [shapeCast_apply _ h2 (ix3 k ci co) (ix4 k ci 0 co) (by
        rw [Shape.rowMajor_val_four, Shape.rowMajor_val_three]
        simp [ix3_0, ix3_1, ix3_2, ix4_0, ix4_1, ix4_2, ix4_3]),
      transpose_apply _ _ ht (ix4 k ci 0 co) (ix4 co ci k 0) (by intro a; fin_cases a <;> rfl),
      shapeCast_apply _ h1 (ix4 co ci k 0) (ix3 co ci k) (by
        rw [Shape.rowMajor_val_four, Shape.rowMajor_val_three]
        simp [ix3_0, ix3_1, ix3_2, ix4_0, ix4_1, ix4_2, ix4_3])]

/-- A one-channel weight array [Co, 1, A·R] read as A groups of R taps: entry (a, r, co) is entry (co, 0, R·a + r). -/
theorem weightSplit_apply {Co N A R : ℕ} (hN : N = A * R) (x : (⟨3, ![Co, 1, N]⟩ : Shape).Idx → α)
    (h1 : (⟨3, ![Co, 1, N]⟩ : Shape).ShapeCasts ⟨4, ![Co, 1, A, R]⟩)
    (ht : (⟨4, ![Co, 1, A, R]⟩ : Shape).Transposes [2, 1, 3, 0] ⟨4, ![A, 1, R, Co]⟩)
    (h2 : (⟨4, ![A, 1, R, Co]⟩ : Shape).ShapeCasts ⟨3, ![A, R, Co]⟩) (a : Fin A) (r : Fin R) (co : Fin Co) (k : Fin N)
    (hk : k.val = R * a.val + r.val) :
    shapeCast ⟨3, ![A, R, Co]⟩ (transpose ⟨4, ![A, 1, R, Co]⟩ [2, 1, 3, 0] (shapeCast ⟨4, ![Co, 1, A, R]⟩ x h1) ht) h2 (ix3 a r co)
      = x (ix3 co 0 k) := by
  rw [shapeCast_apply _ h2 (ix3 a r co) (ix4 a 0 r co) (by
        rw [Shape.rowMajor_val_four, Shape.rowMajor_val_three]
        simp [ix3_0, ix3_1, ix3_2, ix4_0, ix4_1, ix4_2, ix4_3]),
      transpose_apply _ _ ht (ix4 a 0 r co) (ix4 co 0 a r) (by intro a; fin_cases a <;> rfl),
      shapeCast_apply _ h1 (ix4 co 0 a r) (ix3 co 0 k) (by
        rw [Shape.rowMajor_val_four, Shape.rowMajor_val_three]
        simp [ix3_0, ix3_1, ix3_2, ix4_0, ix4_1, ix4_2, ix4_3, hk, hN]; ring)]

/-- The middle axis split as U windows of S phases, phase-major: entry (b, ph, u, ch) is entry (b, S·u + ph, ch). -/
theorem phaseSplit_apply {B N U S C : ℕ} (hN : N = U * S) (x : (⟨3, ![B, N, C]⟩ : Shape).Idx → α)
    (h1 : (⟨3, ![B, N, C]⟩ : Shape).ShapeCasts ⟨4, ![B, U, S, C]⟩)
    (ht : (⟨4, ![B, U, S, C]⟩ : Shape).Transposes [0, 2, 1, 3] ⟨4, ![B, S, U, C]⟩)
    (b : Fin B) (ph : Fin S) (u : Fin U) (ch : Fin C) (k : Fin N) (hk : k.val = S * u.val + ph.val) :
    transpose ⟨4, ![B, S, U, C]⟩ [0, 2, 1, 3] (shapeCast ⟨4, ![B, U, S, C]⟩ x h1) ht (ix4 b ph u ch) = x (ix3 b k ch) := by
  rw [transpose_apply _ _ ht (ix4 b ph u ch) (ix4 b u ph ch) (by intro a; fin_cases a <;> rfl),
      shapeCast_apply _ h1 (ix4 b u ph ch) (ix3 b k ch) (by
        rw [Shape.rowMajor_val_four, Shape.rowMajor_val_three]
        show (b.val * N + k.val) * C + ch.val = ((b.val * U + u.val) * S + ph.val) * C + ch.val
        rw [hk, hN]; ring)]

end Layout

section Pads
variable {α : Type}

/-- A rank-3 array padded along its middle axis only, read at an index: the operand inside, the fill outside. -/
theorem padMid_apply {B L L' C p q : ℕ} (x : (⟨3, ![B, L, C]⟩ : Shape).Idx → α) {u : Shape} (v : u.Idx → α)
    (h : (⟨3, ![B, L, C]⟩ : Shape).Pads ![0, p, 0] ![0, q, 0] ![0, 0, 0] ⟨3, ![B, L', C]⟩) (hu : 0 < u.numel)
    (b : Fin B) (j : Fin L') (c : Fin C) :
    pad ⟨3, ![B, L', C]⟩ ![0, p, 0] ![0, q, 0] ![0, 0, 0] x v h hu (ix3 b j c)
      = if hj : p ≤ j.val ∧ j.val < p + L then x (ix3 b ⟨j.val - p, by omega⟩ c) else v (Shape.Idx.first hu) := by
  split_ifs with hj
  · refine pad_apply_of_inside _ _ _ x v h hu (ix3 b j c) (ix3 b ⟨j.val - p, by omega⟩ c) ?_
    intro a
    fin_cases a
    · show b.val = 0 + b.val * (0 + 1)
      omega
    · show j.val = p + (j.val - p) * (0 + 1)
      omega
    · show c.val = 0 + c.val * (0 + 1)
      omega
  · refine pad_apply_of_not_inside _ _ _ x v h hu (ix3 b j c) 1 ?_
    show ¬(p ≤ j.val ∧ (j.val - p) % (0 + 1) = 0 ∧ (j.val - p) / (0 + 1) < L)
    rw [Nat.zero_add, Nat.div_one]
    omega

/-- A rank-3 array "padded" by nothing is itself. -/
theorem padNone_apply {A B C : ℕ} (x : (⟨3, ![A, B, C]⟩ : Shape).Idx → α) {u : Shape} (v : u.Idx → α)
    (h : (⟨3, ![A, B, C]⟩ : Shape).Pads ![0, 0, 0] ![0, 0, 0] ![0, 0, 0] ⟨3, ![A, B, C]⟩) (hu : 0 < u.numel)
    (a : Fin A) (b : Fin B) (c : Fin C) :
    pad ⟨3, ![A, B, C]⟩ ![0, 0, 0] ![0, 0, 0] ![0, 0, 0] x v h hu (ix3 a b c) = x (ix3 a b c) := by
  refine pad_apply_of_inside _ _ _ x v h hu (ix3 a b c) (ix3 a b c) ?_
  intro i
  fin_cases i
  · show a.val = 0 + a.val * (0 + 1)
    omega
  · show b.val = 0 + b.val * (0 + 1)
    omega
  · show c.val = 0 + c.val * (0 + 1)
    omega

end Pads

section Fills

/-- The integer zero converted to a float is the real zero, at every index. -/
theorem zeroFill_apply {s : Shape} (i : s.Idx) :
    (sitofp .f32 (constantI s 32 0#32) : FVec Ideal s .f32) i = (0 : EReal) := by
  show ((((0#32 : BitVec 32).toInt : ℤ) : ℝ) : EReal) = 0
  simp

end Fills

section Norm

/-- The batch normalisation's scale row as the host computes it:  γ / √(v + ε)  laid out as one row. -/
theorem scaleRow_apply {C : ℕ} (g v : FVec Ideal ⟨1, ![C]⟩ .f32)
    (hb : (⟨0, ![]⟩ : Shape).BroadcastsInDim ⟨1, ![C]⟩ (![] : Fin 0 → Fin 1))
    (h1 : (⟨1, ![C]⟩ : Shape).ShapeCasts ⟨2, ![1, C]⟩) (co : Fin C) :
    shapeCast ⟨2, ![1, C]⟩
        (Host.divf g (Host.sqrt (addf v (broadcastInDim ⟨1, ![C]⟩ ![] hb (constant (F := Ideal) ⟨0, ![]⟩ .f32 0x3727C5AC#32)))))
        h1 (ix2 0 co)
      = Cert.Spec.scale (Cert.Spec.ofArr1 g) (Cert.Spec.ofArr1 v) co.val := by
  rw [shapeCast_a_1a_apply, Cert.Spec.scale, Cert.Spec.ofArr1_val, Cert.Spec.ofArr1_val]
  rfl

/-- The batch normalisation's shift row as the host computes it:  β − μ · s  laid out as one row. -/
theorem shiftRow_apply {C : ℕ} (b mu s : FVec Ideal ⟨1, ![C]⟩ .f32)
    (h1 : (⟨1, ![C]⟩ : Shape).ShapeCasts ⟨2, ![1, C]⟩) (co : Fin C) :
    shapeCast ⟨2, ![1, C]⟩ (subf b (mulf mu s)) h1 (ix2 0 co)
      = Cert.Spec.ofArr1 b co.val - Cert.Spec.ofArr1 mu co.val * s (ix1 co) := by
  rw [shapeCast_a_1a_apply, Cert.Spec.ofArr1_val, Cert.Spec.ofArr1_val]
  rfl

end Norm

variable (m : (ℓ : Loc nD τ sig) → Buf (Elt Ideal) ℓ) (ρ : Dev nD → PrngReg) (c : Dev nD)

/-- One stretch of host operations leaves a buffer none of them writes as it was. -/
local macro "keep_host" ops:ident : tactic =>
  `(tactic| refine Eq.trans (StableHlo.after_of_forall_not_mem $ops _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))) ?_)

/-- From the exit of the third launch back to the contents after the first stretch of host operations. -/
local macro "walk16" : tactic =>
  `(tactic| (refine Eq.trans (W16_of_ne _ _ _ _ (by decide)) ?_
             keep_host hostOps2_4; keep_host hostOps2_3; keep_host hostOps2_2; keep_host hostOps2_1; keep_host hostOps2
             refine Eq.trans (W10_of_ne _ _ _ _ (by decide)) ?_
             keep_host hostOps1_2; keep_host hostOps1_1; keep_host hostOps1
             refine Eq.trans (W6_of_ne _ _ _ _ (by decide)) ?_
             keep_host hostOps0_4; keep_host hostOps0_3; keep_host hostOps0_2; keep_host hostOps0_1))

/-- From the exit of the fifth launch back to the contents after the first stretch of host operations. -/
local macro "walk26" : tactic =>
  `(tactic| (refine Eq.trans (W26_of_ne _ _ _ _ (by decide)) ?_
             keep_host hostOps4_2; keep_host hostOps4_1; keep_host hostOps4
             refine Eq.trans (W22_of_ne _ _ _ _ (by decide)) ?_
             keep_host hostOps3_4; keep_host hostOps3_3; keep_host hostOps3_2; keep_host hostOps3_1; keep_host hostOps3
             walk16))

/-! ## The third convolution's arrays (the launch entered after the stretches that follow the second convolution) -/

theorem W16_arg11 : W16 m ρ c (Proc.devRef .tc main_arg11) = m ((c : Thread nD τ).loc main_arg11) := by
  walk16; keep_host hostOps0; rfl
theorem W16_arg12 : W16 m ρ c (Proc.devRef .tc main_arg12) = m ((c : Thread nD τ).loc main_arg12) := by
  walk16; keep_host hostOps0; rfl
theorem W16_arg13 : W16 m ρ c (Proc.devRef .tc main_arg13) = m ((c : Thread nD τ).loc main_arg13) := by
  walk16; keep_host hostOps0; rfl
theorem W16_arg14 : W16 m ρ c (Proc.devRef .tc main_arg14) = m ((c : Thread nD τ).loc main_arg14) := by
  walk16; keep_host hostOps0; rfl
theorem W16_arg15 : W16 m ρ c (Proc.devRef .tc main_arg15) = m ((c : Thread nD τ).loc main_arg15) := by
  walk16; keep_host hostOps0; rfl

/-- The padded input: the second convolution's output with four zero rows on either side of the time axis. -/
theorem v42_eq : (W21 m ρ c (Proc.devRef .tc main_v42) : S2048x260x128.Idx → EReal) =
    shapeCast S2048x260x128 (transpose S2048x260x128x1 [0, 1, 3, 2] (shapeCast S2048x260x1x128
      (pad S2048x260x128 ![0, 4, 0] ![0, 4, 0] ![0, 0, 0] (W16 m ρ c (Proc.devRef .tc main_v38) : S2048x252x128.Idx → EReal)
        (sitofp .f32 (constantI S_ 32 0#32) : FVec Ideal S_ .f32) pads_S2048x252x128_S2048x260x128_000_440_000 h_S_)
      shapeCasts_S2048x260x128_S2048x260x1x128) transposes_S2048x260x1x128_S2048x260x128x1_0_1_3_2)
      shapeCasts_S2048x260x128x1_S2048x260x128 := by
  show StableHlo.after hostOps3_4 (StableHlo.after hostOps3_3 (StableHlo.after hostOps3_2 (StableHlo.after hostOps3_1
    (StableHlo.after hostOps3 (W16 m ρ c))))) (Proc.devRef .tc main_v42) = _
  after_results
  rfl

theorem in3_0 (b : Fin 2048) (j : Fin 260) (ci : Fin 128) :
    (W21 m ρ c (Proc.devRef .tc main_v42) : S2048x260x128.Idx → EReal) (ix3 b j ci)
      = zpad 4 252 (fun l => ofArr3 (W16 m ρ c (Proc.devRef .tc main_v38) : S2048x252x128.Idx → EReal) b.val l ci.val) j.val := by
  rw [v42_eq, unitSwap_apply, padMid_apply, zpad]
  by_cases hj : 4 ≤ j.val ∧ j.val < 4 + 252
  · rw [dif_pos hj, if_pos hj]
    exact (ofArr3_val _ b ⟨j.val - 4, by omega⟩ ci).symm
  · rw [dif_neg hj, if_neg hj]
    exact zeroFill_apply _

/-- The weights, tap-major. -/
theorem v46_eq : (W21 m ρ c (Proc.devRef .tc main_v46) : S8x128x128.Idx → EReal) =
    shapeCast S8x128x128 (transpose S8x128x1x128 [2, 1, 3, 0] (shapeCast S128x128x8x1
      (pad S128x128x8 ![0, 0, 0] ![0, 0, 0] ![0, 0, 0] (W16 m ρ c (Proc.devRef .tc main_arg11) : S128x128x8.Idx → EReal)
        (sitofp .f32 (constantI S_ 32 0#32) : FVec Ideal S_ .f32) pads_S128x128x8_S128x128x8_000_000_000 h_S_)
      shapeCasts_S128x128x8_S128x128x8x1) transposes_S128x128x8x1_S8x128x1x128_2_1_3_0) shapeCasts_S8x128x1x128_S8x128x128 := by
  show StableHlo.after hostOps3_4 (StableHlo.after hostOps3_3 (W19 m ρ c)) (Proc.devRef .tc main_v46) = _
  after_results
  rfl

theorem in3_1 (k : Fin 8) (ci : Fin 128) (co : Fin 128) :
    (W21 m ρ c (Proc.devRef .tc main_v46) : S8x128x128.Idx → EReal) (ix3 k ci co) = (PR m c).w3 co.val ci.val k.val := by
  rw [v46_eq, weightSwap_apply, padNone_apply, W16_arg11]
  exact (ofArr3_val _ co ci k).symm

/-- The scale row  γ / √(v + ε). -/
theorem v51_eq : (W21 m ρ c (Proc.devRef .tc main_v51) : S1x128.Idx → EReal) =
    shapeCast S1x128 (Host.divf (W16 m ρ c (Proc.devRef .tc main_arg12) : FVec Ideal S128 .f32)
      (Host.sqrt (addf (W16 m ρ c (Proc.devRef .tc main_arg15) : FVec Ideal S128 .f32)
        (broadcastInDim S128 ![] bcast_S_S128 (constant (F := Ideal) S_ .f32 0x3727C5AC#32))))) shapeCasts_S128_S1x128 := by
  show StableHlo.after hostOps3_4 (StableHlo.after hostOps3_3 (StableHlo.after hostOps3_2 (StableHlo.after hostOps3_1
    (StableHlo.after hostOps3 (W16 m ρ c))))) (Proc.devRef .tc main_v51) = _
  after_results_simp
  rfl

theorem in3_2 (co : Fin 128) :
    (W21 m ρ c (Proc.devRef .tc main_v51) : S1x128.Idx → EReal) (ix2 0 co) = s3 (PR m c) co.val := by
  rw [v51_eq, W16_arg12, W16_arg15]
  exact scaleRow_apply _ _ _ _ co

/-- The shift row  β − μ · s. -/
theorem v54_eq : (W21 m ρ c (Proc.devRef .tc main_v54) : S1x128.Idx → EReal) =
    shapeCast S1x128 (subf (W16 m ρ c (Proc.devRef .tc main_arg13) : FVec Ideal S128 .f32)
      (mulf (W16 m ρ c (Proc.devRef .tc main_arg14) : FVec Ideal S128 .f32)
        (Host.divf (W16 m ρ c (Proc.devRef .tc main_arg12) : FVec Ideal S128 .f32)
          (Host.sqrt (addf (W16 m ρ c (Proc.devRef .tc main_arg15) : FVec Ideal S128 .f32)
            (broadcastInDim S128 ![] bcast_S_S128 (constant (F := Ideal) S_ .f32 0x3727C5AC#32))))))) shapeCasts_S128_S1x128 := by
  show StableHlo.after hostOps3_4 (StableHlo.after hostOps3_3 (StableHlo.after hostOps3_2 (StableHlo.after hostOps3_1
    (StableHlo.after hostOps3 (W16 m ρ c))))) (Proc.devRef .tc main_v54) = _
  after_results_simp
  rfl

theorem in3_3 (co : Fin 128) :
    (W21 m ρ c (Proc.devRef .tc main_v54) : S1x128.Idx → EReal) (ix2 0 co) = t3 (PR m c) co.val := by
  rw [v54_eq, W16_arg12, W16_arg13, W16_arg14, W16_arg15, shiftRow_apply]
  show _ = shift (PR m c).b3 (PR m c).m3 (s3 (PR m c)) co.val
  rw [shift, ← in3_2 m ρ c co, v51_eq, W16_arg12, W16_arg15, shapeCast_a_1a_apply]
  rfl

/-! ## The second max pooling's array (the launch entered after the stretches that follow the third convolution) -/

/-- The third convolution's output padded with the most negative finite number, two rows in front and one behind,
    and laid out phase-major. -/
theorem v58_eq : (W25 m ρ c (Proc.devRef .tc main_v58) : S2048x4x64x128.Idx → EReal) =
    transpose S2048x4x64x128 [0, 2, 1, 3] (shapeCast S2048x64x4x128
      (pad S2048x256x128 ![0, 2, 0] ![0, 1, 0] ![0, 0, 0] (W22 m ρ c (Proc.devRef .tc main_v55) : S2048x253x128.Idx → EReal)
        (constant (F := Ideal) S_ .f32 0xFF7FFFFF#32) pads_S2048x253x128_S2048x256x128_000_210_000 h_S_)
      shapeCasts_S2048x256x128_S2048x64x4x128) transposes_S2048x64x4x128_S2048x4x64x128_0_2_1_3 := by
  show StableHlo.after hostOps4_2 (StableHlo.after hostOps4_1 (StableHlo.after hostOps4 (W22 m ρ c)))
    (Proc.devRef .tc main_v58) = _
  after_results
  rfl

theorem in4_0 (b : Fin 2048) (ph : Fin 4) (u : Fin 64) (ch : Fin 128) :
    (W25 m ρ c (Proc.devRef .tc main_v58) : S2048x4x64x128.Idx → EReal) (ix4 b ph u ch)
      = npad 2 253 (fun j => ofArr3 (W22 m ρ c (Proc.devRef .tc main_v55) : S2048x253x128.Idx → EReal) b.val j ch.val)
          (4 * u.val + ph.val) := by
  rw [v58_eq, phaseSplit_apply (B := 2048) (N := 256) (U := 64) (S := 4) (C := 128) rfl _ _ _ b ph u ch
        ⟨4 * u.val + ph.val, by omega⟩ rfl,
      padMid_apply, npad]
  by_cases hj : 2 ≤ 4 * u.val + ph.val ∧ 4 * u.val + ph.val < 2 + 253
  · rw [dif_pos hj, if_pos hj]
    exact (ofArr3_val _ b ⟨4 * u.val + ph.val - 2, by omega⟩ ch).symm
  · rw [dif_neg hj, if_neg hj]
    rfl

/-! ## The second branch's first convolution's arrays (the launch entered after the stretches that follow the second
    max pooling) -/

theorem W26_arg16 : W26 m ρ c (Proc.devRef .tc main_arg16) = m ((c : Thread nD τ).loc main_arg16) := by
  walk26; keep_host hostOps0; rfl
theorem W26_arg17 : W26 m ρ c (Proc.devRef .tc main_arg17) = m ((c : Thread nD τ).loc main_arg17) := by
  walk26; keep_host hostOps0; rfl
theorem W26_arg18 : W26 m ρ c (Proc.devRef .tc main_arg18) = m ((c : Thread nD τ).loc main_arg18) := by
  walk26; keep_host hostOps0; rfl
theorem W26_arg19 : W26 m ρ c (Proc.devRef .tc main_arg19) = m ((c : Thread nD τ).loc main_arg19) := by
  walk26; keep_host hostOps0; rfl
theorem W26_arg20 : W26 m ρ c (Proc.devRef .tc main_arg20) = m ((c : Thread nD τ).loc main_arg20) := by
  walk26; keep_host hostOps0; rfl

/-- The signal with its unit channel axis last, as the first host operation leaves it and nothing since has changed it. -/
theorem W26_v0 : (W26 m ρ c (Proc.devRef .tc main_v0) : S2048x3000x1.Idx → EReal) =
    transpose S2048x3000x1 [0, 2, 1] (m ((c : Thread nD τ).loc main_arg0) : S2048x1x3000.Idx → EReal)
      transposes_S2048x1x3000_S2048x3000x1_0_2_1 := by
  refine Eq.trans (b := W1 m ρ c (Proc.devRef .tc main_v0)) ?_ ?_
  · walk26; rfl
  · show StableHlo.after hostOps0 (W0 m ρ c) (Proc.devRef .tc main_v0) = _
    after_results

/-- The padded signal, 200 zeros on either side, as 68 rows of 50 samples. -/
theorem v63_eq : (W31 m ρ c (Proc.devRef .tc main_v63) : S2048x68x50.Idx → EReal) =
    shapeCast S2048x68x50 (transpose S2048x68x1x50 [0, 1, 3, 2] (shapeCast S2048x68x50x1
      (pad S2048x3400x1 ![0, 200, 0] ![0, 200, 0] ![0, 0, 0] (W26 m ρ c (Proc.devRef .tc main_v0) : S2048x3000x1.Idx → EReal)
        (sitofp .f32 (constantI S_ 32 0#32) : FVec Ideal S_ .f32) pads_S2048x3000x1_S2048x3400x1_000_2002000_000 h_S_)
      shapeCasts_S2048x3400x1_S2048x68x50x1) transposes_S2048x68x50x1_S2048x68x1x50_0_1_3_2)
      shapeCasts_S2048x68x1x50_S2048x68x50 := by
  show StableHlo.after hostOps5_4 (StableHlo.after hostOps5_3 (StableHlo.after hostOps5_2 (StableHlo.after hostOps5_1
    (StableHlo.after hostOps5 (W26 m ρ c))))) (Proc.devRef .tc main_v63) = _
  after_results
  rfl

theorem in5_0 (b : Fin 2048) (u : Fin 68) (r : Fin 50) :
    (W31 m ρ c (Proc.devRef .tc main_v63) : S2048x68x50.Idx → EReal) (ix3 b u r)
      = zpad 200 3000 ((PR m c).x b.val) (50 * u.val + r.val) := by
  rw [v63_eq, splitSwap_apply (B := 2048) (N := 3400) (U := 68) (R := 50) rfl _ _ _ _ b u r
        ⟨50 * u.val + r.val, by omega⟩ rfl,
      padMid_apply, zpad]
  by_cases hj : 200 ≤ 50 * u.val + r.val ∧ 50 * u.val + r.val < 200 + 3000
  · rw [dif_pos hj, if_pos hj, W26_v0,
      transpose_apply _ _ _ (ix3 b ⟨50 * u.val + r.val - 200, by omega⟩ (0 : Fin 1))
        (ix3 b (0 : Fin 1) ⟨50 * u.val + r.val - 200, by omega⟩) (by intro a; fin_cases a <;> rfl)]
    exact (ofArr3_val _ b (0 : Fin 1) ⟨50 * u.val + r.val - 200, by omega⟩).symm
  · rw [dif_neg hj, if_neg hj]
    exact zeroFill_apply _

/-- The weights as 8 groups of 50 taps. -/
theorem v67_eq : (W31 m ρ c (Proc.devRef .tc main_v67) : S8x50x64.Idx → EReal) =
    shapeCast S8x50x64 (transpose S8x1x50x64 [2, 1, 3, 0] (shapeCast S64x1x8x50
      (pad S64x1x400 ![0, 0, 0] ![0, 0, 0] ![0, 0, 0] (W26 m ρ c (Proc.devRef .tc main_arg16) : S64x1x400.Idx → EReal)
        (sitofp .f32 (constantI S_ 32 0#32) : FVec Ideal S_ .f32) pads_S64x1x400_S64x1x400_000_000_000 h_S_)
      shapeCasts_S64x1x400_S64x1x8x50) transposes_S64x1x8x50_S8x1x50x64_2_1_3_0) shapeCasts_S8x1x50x64_S8x50x64 := by
  show StableHlo.after hostOps5_4 (StableHlo.after hostOps5_3 (StableHlo.after hostOps5_2 (StableHlo.after hostOps5_1
    (StableHlo.after hostOps5 (W26 m ρ c))))) (Proc.devRef .tc main_v67) = _
  after_results
  rfl

theorem in5_1 (a : Fin 8) (r : Fin 50) (co : Fin 64) :
    (W31 m ρ c (Proc.devRef .tc main_v67) : S8x50x64.Idx → EReal) (ix3 a r co) = (PR m c).w4 co.val (50 * a.val + r.val) := by
  rw [v67_eq, weightSplit_apply (Co := 64) (N := 400) (A := 8) (R := 50) rfl _ _ _ _ a r co
        ⟨50 * a.val + r.val, by omega⟩ rfl,
      padNone_apply, W26_arg16]
  exact (ofArr3_val _ co (0 : Fin 1) ⟨50 * a.val + r.val, by omega⟩).symm

/-- The scale row  γ / √(v + ε). -/
theorem v72_eq : (W31 m ρ c (Proc.devRef .tc main_v72) : S1x64.Idx → EReal) =
    shapeCast S1x64 (Host.divf (W26 m ρ c (Proc.devRef .tc main_arg17) : FVec Ideal S64 .f32)
      (Host.sqrt (addf (W26 m ρ c (Proc.devRef .tc main_arg20) : FVec Ideal S64 .f32)
        (broadcastInDim S64 ![] bcast_S_S64 (constant (F := Ideal) S_ .f32 0x3727C5AC#32))))) shapeCasts_S64_S1x64 := by
  show StableHlo.after hostOps5_4 (StableHlo.after hostOps5_3 (StableHlo.after hostOps5_2 (StableHlo.after hostOps5_1
    (StableHlo.after hostOps5 (W26 m ρ c))))) (Proc.devRef .tc main_v72) = _
  after_results_simp
  rfl

theorem in5_2 (co : Fin 64) :
    (W31 m ρ c (Proc.devRef .tc main_v72) : S1x64.Idx → EReal) (ix2 0 co) = s4 (PR m c) co.val := by
  rw [v72_eq, W26_arg17, W26_arg20]
  exact scaleRow_apply _ _ _ _ co

/-- The shift row  β − μ · s. -/
theorem v75_eq : (W31 m ρ c (Proc.devRef .tc main_v75) : S1x64.Idx → EReal) =
    shapeCast S1x64 (subf (W26 m ρ c (Proc.devRef .tc main_arg18) : FVec Ideal S64 .f32)
      (mulf (W26 m ρ c (Proc.devRef .tc main_arg19) : FVec Ideal S64 .f32)
        (Host.divf (W26 m ρ c (Proc.devRef .tc main_arg17) : FVec Ideal S64 .f32)
          (Host.sqrt (addf (W26 m ρ c (Proc.devRef .tc main_arg20) : FVec Ideal S64 .f32)
            (broadcastInDim S64 ![] bcast_S_S64 (constant (F := Ideal) S_ .f32 0x3727C5AC#32))))))) shapeCasts_S64_S1x64 := by
  show StableHlo.after hostOps5_4 (StableHlo.after hostOps5_3 (StableHlo.after hostOps5_2 (StableHlo.after hostOps5_1
    (StableHlo.after hostOps5 (W26 m ρ c))))) (Proc.devRef .tc main_v75) = _
  after_results_simp
  rfl

theorem in5_3 (co : Fin 64) :
    (W31 m ρ c (Proc.devRef .tc main_v75) : S1x64.Idx → EReal) (ix2 0 co) = t4 (PR m c) co.val := by
  rw [v75_eq, W26_arg17, W26_arg18, W26_arg19, W26_arg20, shiftRow_apply]
  show _ = shift (PR m c).b4 (PR m c).m4 (s4 (PR m c)) co.val
  rw [shift, ← in5_2 m ρ c co, v72_eq, W26_arg17, W26_arg20, shapeCast_a_1a_apply]
  rfl

end Cert.ReferenceIdeal.RGlue

end
-- ==== Proof.RStage3.lean ====
/-
  The third layer of branch 1 as the reference program computes it: its fourth kernel launch leaves, in its output
  array, the network's layer `H3`, given that the array it reads holds the layer `H2`.

  The launch's body, read at a position l and an output channel co of sample b, is the tanh-GELU of the sum over the
  8 taps and 128 input channels of the padded input times the weights, times the scale, plus the shift; the arrays it
  reads hold the second layer zero-padded by 4, the third layer's weights, and the batch normalisation's scale and
  shift. That is the definition of `H3`, term for term.
-/
import proofs.«125144_g2000006933354569_pallasbulk_1054_1_alg».proof.Proof.Gen.ReferenceIdeal.Frame
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RRegionA
import proofs.«125144_g2000006933354569_pallasbulk_1054_1_alg».proof.Proof.RConvA
import proofs.«125144_g2000006933354569_pallasbulk_1054_1_alg».proof.Proof.RGlueB
import Idealize.ShloMosaic.Lib.ValueIdx

noncomputable section

namespace Cert.ReferenceIdeal.RStage

open Cert.ReferenceIdeal Cert.ReferenceIdeal.Gen Cert.Spec Idealize.ShloMosaic Idealize.ShloMosaic.ValueIdx Idealize.SL.Sem

open Cert.ReferenceIdeal.RRegion Cert.ReferenceIdeal.RBody Cert.ReferenceIdeal.RGlue

/-- The body's formula with the network's arrays in it is the third layer. -/
theorem conv3_core (P : Params) (bv : ℕ) (X0 : S1x260x128.Idx → EReal) (X1 : S8x128x128.Idx → EReal) (x2 x3 : S1x128.Idx → EReal)
    (h0 : ∀ (j : Fin 260) (ci : Fin 128), X0 (ix3 0 j ci) = zpad 4 252 (fun l => H2 P bv l ci.val) j.val)
    (h1 : ∀ (k : Fin 8) (ci co : Fin 128), X1 (ix3 k ci co) = P.w3 co.val ci.val k.val)
    (h2 : ∀ co : Fin 128, x2 (ix2 0 co) = s3 P co.val) (h3 : ∀ co : Fin 128, x3 (ix2 0 co) = t3 P co.val)
    (l : Fin 253) (co : Fin 128) :
    gelu ((∑ a ∈ Finset.range 8, ∑ q ∈ Finset.range 128, ofArr3 X0 0 (l.val + a) q * ofArr3 X1 a q co.val) * x2 (ix2 0 co)
        + x3 (ix2 0 co)) = H3 P bv l.val co.val := by
  have hl := l.isLt
  unfold H3
  rw [h2, h3]
  congr 3
  refine Finset.sum_congr rfl fun a ha => Finset.sum_congr rfl fun q hq => ?_
  rw [Finset.mem_range] at ha hq
  have e0 := ofArr3_val X0 (0 : Fin 1) ⟨l.val + a, by omega⟩ ⟨q, hq⟩
  have e1 := ofArr3_val X1 ⟨a, ha⟩ ⟨q, hq⟩ co
  rw [show ofArr3 X0 0 (l.val + a) q = _ from e0, show ofArr3 X1 a q co.val = _ from e1, h0, h1]

variable (m : (ℓ : Loc nD τ sig) → Buf (Elt Ideal) ℓ) (ρ : Dev nD → PrngReg) (c : Dev nD)

/-- **Stage 3**: the fourth launch's output array holds the third layer of branch 1, given that its input holds the
    second. -/
theorem stage3
    (h2 : ∀ (b : Fin 2048) (l : Fin 252) (co : Fin 128),
      (W16 m ρ c (Proc.devRef .tc main_v38) : S2048x252x128.Idx → EReal) (ix3 b l co) = H2 (PR m c) b.val l.val co.val) :
    ∀ (b : Fin 2048) (l : Fin 253) (co : Fin 128),
      (W22 m ρ c (Proc.devRef .tc main_v55) : S2048x253x128.Idx → EReal) (ix3 b l co) = H3 (PR m c) b.val l.val co.val := by
  intro b l co
  rw [show W22 m ρ c (Proc.devRef .tc main_v55) = _ from W22_arr m ρ c 4, region3_at, out3_4_apply]
  refine conv3_core (PR m c) b.val _ _ _ _ (fun j ci => ?_) (fun k ci co' => in3_1 m ρ c k ci co') (fun co' => in3_2 m ρ c co')
    (fun co' => in3_3 m ρ c co') l co
  show (W21 m ρ c (Proc.devRef .tc main_v42) : S2048x260x128.Idx → EReal) (ix3 b j ci) = _
  rw [in3_0]
  refine zpad_congr 4 252 _ _ (fun l' hl' => ?_) _
  have e := ofArr3_val (W16 m ρ c (Proc.devRef .tc main_v38) : S2048x252x128.Idx → EReal) b ⟨l', hl'⟩ ci
  rw [show ofArr3 (W16 m ρ c (Proc.devRef .tc main_v38) : S2048x252x128.Idx → EReal) b.val l' ci.val = _ from e, h2]

end Cert.ReferenceIdeal.RStage

end
-- ==== Proof.RStage4.lean ====
/-
  Region 4 of the reference program: the max pooling that ends branch 1. Given that the region's input holds the
  third convolution layer H3, the region's output array is the pooled layer X1: the pooling window of X1 at
  position l (stride 4, width 4, two NEG copies of padding) is exactly the four phases of row l of the padded,
  phase-split input.
-/
import proofs.«125144_g2000006933354569_pallasbulk_1054_1_alg».proof.Proof.Gen.ReferenceIdeal.Frame
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RPool
import proofs.«125144_g2000006933354569_pallasbulk_1054_1_alg».proof.Proof.RRegionA
import proofs.«125144_g2000006933354569_pallasbulk_1054_1_alg».proof.Proof.RGlueB
import Idealize.ShloMosaic.Lib.ValueIdx

noncomputable section

namespace Cert.ReferenceIdeal.RStage

open Cert.ReferenceIdeal Cert.ReferenceIdeal.Gen Cert.Spec Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- Row b of a batch-indexed rank-4 array, read by natural-number indices, is the array read at batch b. -/
theorem ofArr4_row4 {N Q A B : ℕ} (X : (⟨4, ![N, Q, A, B]⟩ : Shape).Idx → EReal) (b : Fin N) (ph : Fin Q) (u : Fin A) (ch : Fin B) :
    ofArr4 (fun y => X (ix4 b (y 1) (y 2) (y 3)) : (⟨4, ![1, Q, A, B]⟩ : Shape).Idx → EReal) 0 ph.val u.val ch.val = X (ix4 b ph u ch) :=
  ofArr4_val (fun y => X (ix4 b (y 1) (y 2) (y 3)) : (⟨4, ![1, Q, A, B]⟩ : Shape).Idx → EReal) (0 : Fin 1) ph u ch

/-- The pooling of branch 1's third layer over arrays: if the output Y at batch row b is the body's result of row b
    of X, X holds the third layer Z padded by two copies of NEG and split into 4 phases (position 4u + ph at phase ph,
    row u), and Z is the layer H3, then Y is the pooled layer X1: the window of X1 at l is the four phases of row l. -/
theorem pool4_of (P : Params) (Y : S2048x64x128.Idx → EReal) (X : S2048x4x64x128.Idx → EReal) (Z : S2048x253x128.Idx → EReal)
    (hY : ∀ (b : Fin 2048) (l : Fin 64) (ch : Fin 128), Y (ix3 b l ch) = out4_1 (F := Ideal) (fun y => X (ix4 b (y 1) (y 2) (y 3))) (ix3 0 l ch))
    (hX : ∀ (b : Fin 2048) (ph : Fin 4) (u : Fin 64) (ch : Fin 128),
      X (ix4 b ph u ch) = npad 2 253 (fun j => ofArr3 Z b.val j ch.val) (4 * u.val + ph.val))
    (hZ : ∀ (b : Fin 2048) (l : Fin 253) (co : Fin 128), Z (ix3 b l co) = H3 P b.val l.val co.val)
    (b : Fin 2048) (l : Fin 64) (ch : Fin 128) : Y (ix3 b l ch) = X1 P b.val l.val ch.val := by
  rw [hY, RBody.out4_1_apply]
  unfold X1 Cert.Spec.pool
  refine Finset.sup_congr rfl fun ph hph => ?_
  have hph' : ph < 4 := Finset.mem_range.1 hph
  refine (ofArr4_row4 X b ⟨ph, hph'⟩ l ch).trans ?_
  refine (hX b ⟨ph, hph'⟩ l ch).trans ?_
  refine npad_congr 2 253 _ _ (fun j hj => ?_) _
  exact (ofArr3_val Z b ⟨j, hj⟩ ch).trans (hZ b ⟨j, hj⟩ ch)

/-- Region 4 (window 4, stride 4, padding 2 over the 253 positions of the third layer): the pooled output of branch 1. -/
theorem stage4
    (h3 : ∀ (b : Fin 2048) (l : Fin 253) (co : Fin 128),
      (W22 m ρ c (Proc.devRef .tc main_v55) : S2048x253x128.Idx → EReal) (ix3 b l co) = H3 (PR m c) b.val l.val co.val) :
    ∀ (b : Fin 2048) (l : Fin 64) (ch : Fin 128),
      (W26 m ρ c (Proc.devRef .tc main_v59) : S2048x64x128.Idx → EReal) (ix3 b l ch) = X1 (PR m c) b.val l.val ch.val := by
  have e : (W26 m ρ c (Proc.devRef .tc main_v59) : S2048x64x128.Idx → EReal) = (dat4 (V25 m ρ) c).arrAt 1 cfg4.N := W26_arr m ρ c 1
  refine pool4_of (PR m c) (W26 m ρ c (Proc.devRef .tc main_v59)) (W25 m ρ c (Proc.devRef .tc main_v58)) (W22 m ρ c (Proc.devRef .tc main_v55)) (fun b l ch => ?_) (RGlue.in4_0 m ρ c) h3
  rw [e]
  exact RRegion.region4_at (V25 m ρ) c b l ch

end Cert.ReferenceIdeal.RStage

end
-- ==== Proof.RConvB.lean ====
/-
  The second branch's three "convolution, batch normalisation, tanh-GELU" bodies of the reference program, read at
  an index. Each body leaves in its output block, at position l and output channel co,

      gelu ((∑ a < A, ∑ q < C, x (0, l + a, q) · w (a, q, co)) · scale (0, co) + shift (0, co)),

  where x is the padded input block, w the weights (tap, input channel, output channel), A the number of taps and C the
  number of input channels: A = 8, C = 50 for the first, A = 7 and C = 64, 128 for the other two. The taps are added
  left to right starting from zero, each tap being a matrix product accumulated into zero; 0 + m = m holds on all
  of the extended reals, so no finiteness is needed.
-/
import proofs.«125144_g2000006933354569_pallasbulk_1054_1_alg».proof.Proof.Gen.ReferenceIdeal.Frame
import proofs.«125144_g2000006933354569_pallasbulk_1054_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RBody

open Cert.ReferenceIdeal Cert.ReferenceIdeal.Gen Cert.Spec Idealize.ShloMosaic Idealize.ShloMosaic.ValueIdx

/-! ## Reading a row slice, one tap, and splitting the sum over the taps -/

/-- A load through a unit-stride rectangle of a rank-3 array reads the array at the shifted coordinates. -/
private theorem ld3_apply {Val : EltTy → Type} {e : EltTy} {n0 n1 n2 m0 m1 m2 : ℕ} (X : (⟨3, ![n0, n1, n2]⟩ : Shape).Idx → Val e) (off : Fin 3 → ℕ)
    (inb : ∀ a, off a + (⟨3, ![m0, m1, m2]⟩ : Shape).size a ≤ (⟨3, ![n0, n1, n2]⟩ : Shape).size a)
    (i : Fin m0) (j : Fin m1) (k : Fin m2) (i' : Fin n0) (j' : Fin n1) (k' : Fin n2)
    (hi : i'.val = off 0 + i.val) (hj : j'.val = off 1 + j.val) (hk : k'.val = off 2 + k.val) :
    View.ld X (Rect.unit (s := ⟨3, ![n0, n1, n2]⟩) off (⟨3, ![m0, m1, m2]⟩ : Shape).size inb) (ix3 i j k) = X (ix3 i' j' k') := by
  show X _ = X _
  congr 1
  funext ax; apply Fin.ext
  match ax with
  | ⟨0, _⟩ => simp [LoadRect.idx]; exact hi.symm
  | ⟨1, _⟩ => simp [LoadRect.idx]; exact hj.symm
  | ⟨2, _⟩ => simp [LoadRect.idx]; exact hk.symm

/-- An array of literal extents read by natural-number indices inside the extents. -/
private theorem ofArr3_eq {n0 n1 n2 : ℕ} (a : (⟨3, ![n0, n1, n2]⟩ : Shape).Idx → EReal) (i j k : ℕ) (hi : i < n0) (hj : j < n1) (hk : k < n2) :
    ofArr3 a i j k = a (ix3 ⟨i, hi⟩ ⟨j, hj⟩ ⟨k, hk⟩) := by
  simp [ofArr3, hi, hj, hk]

/-- One tap of the convolution: the product of the row slice at offset a of the signal with the a-th weight matrix,
    accumulated into zero, at (l, co) is the sum over the input channels of signal (l + a, q) times weight (a, q, co). -/
private theorem tap_apply {L K N R A : ℕ} (D : DotDims ⟨2, ![L, K]⟩ ⟨2, ![K, N]⟩ ⟨2, ![L, N]⟩)
    (w : DotDims.WF ⟨2, ![L, K]⟩ ⟨2, ![K, N]⟩ ⟨2, ![L, N]⟩ [1] [0] [0] [1] [] [])
    (hD : D = ⟨[1], [0], [0], [1], [], [], w⟩)
    (x : Vec Ideal ⟨3, ![1, R, K]⟩ .f32) (wt : Vec Ideal ⟨3, ![A, K, N]⟩ .f32) (a : ℕ)
    (inbx : ∀ ax, (![0, a, 0] : Fin 3 → ℕ) ax + (⟨3, ![1, L, K]⟩ : Shape).size ax ≤ (⟨3, ![1, R, K]⟩ : Shape).size ax)
    (inbw : ∀ ax, (![a, 0, 0] : Fin 3 → ℕ) ax + (⟨3, ![1, K, N]⟩ : Shape).size ax ≤ (⟨3, ![A, K, N]⟩ : Shape).size ax)
    (h1 : (⟨3, ![1, L, K]⟩ : Shape).ShapeCasts ⟨2, ![L, K]⟩) (h2 : (⟨3, ![1, K, N]⟩ : Shape).ShapeCasts ⟨2, ![K, N]⟩)
    (l : Fin L) (co : Fin N) :
    matmul (F := Ideal) (φ₁ := .f32) (φ₂ := .f32) D none
      (shapeCast ⟨2, ![L, K]⟩ (View.ld (Val := Elt Ideal) (e' := .f32) x (Rect.unit (s := ⟨3, ![1, R, K]⟩) ![0, a, 0] (⟨3, ![1, L, K]⟩ : Shape).size inbx)) h1)
      (shapeCast ⟨2, ![K, N]⟩ (View.ld (Val := Elt Ideal) (e' := .f32) wt (Rect.unit (s := ⟨3, ![A, K, N]⟩) ![a, 0, 0] (⟨3, ![1, K, N]⟩ : Shape).size inbw)) h2)
      (constant (F := Ideal) ⟨2, ![L, N]⟩ .f32 0x00000000#32) (ix2 l co)
    = ∑ q ∈ Finset.range K, ofArr3 x 0 (l.val + a) q * ofArr3 wt a q co.val := by
  subst hD
  have hR : l.val + a < R := by have := inbx 1; simp at this; omega
  have hA : a < A := by have := inbw 0; simp at this; omega
  refine (Ideal.matmul_constant_zero_apply _ _ _ _ _).trans ?_
  rw [← Equiv.sum_comp (contrEquiv1 (⟨[1], [0], [0], [1], [], [], w⟩ : DotDims _ _ _) K rfl rfl).symm, Finset.sum_range]
  refine Finset.sum_congr rfl fun q _ => ?_
  have cq := contrEquiv1_symm_val
    (⟨[1], [0], [0], [1], [], [], w⟩ : DotDims ⟨2, ![L, K]⟩ ⟨2, ![K, N]⟩ ⟨2, ![L, N]⟩) K rfl rfl q
  have l2 : (⟨[1], [0], [0], [1], [], [], w⟩ : DotDims ⟨2, ![L, K]⟩ ⟨2, ![K, N]⟩ ⟨2, ![L, N]⟩).lhsIdx (ix2 l co)
      ((contrEquiv1 _ K rfl rfl).symm q) = ix2 l q := by
    funext ax; apply Fin.ext
    match ax with
    | ⟨0, _⟩ => simp [DotDims.lhsIdx]; rfl
    | ⟨1, _⟩ => simp [DotDims.lhsIdx]; exact cq
  have r2 : (⟨[1], [0], [0], [1], [], [], w⟩ : DotDims ⟨2, ![L, K]⟩ ⟨2, ![K, N]⟩ ⟨2, ![L, N]⟩).rhsIdx (ix2 l co)
      ((contrEquiv1 _ K rfl rfl).symm q) = ix2 q co := by
    funext ax; apply Fin.ext
    match ax with
    | ⟨0, _⟩ => simp [DotDims.rhsIdx]; exact cq
    | ⟨1, _⟩ => simp [DotDims.rhsIdx]; rfl
  rw [l2, r2, shapeCast_1ab_ab_apply, shapeCast_1ab_ab_apply,
    ld3_apply x _ inbx 0 l q 0 ⟨l.val + a, hR⟩ q (by simp) (by simp; omega) (by simp),
    ld3_apply wt _ inbw 0 q co ⟨a, hA⟩ q co (by simp) (by simp) (by simp),
    ofArr3_eq x 0 (l.val + a) q.val (by omega) hR q.isLt, ofArr3_eq wt a q.val co.val hA q.isLt co.isLt]
  rfl

/-- Offsets all zero, however spelt. -/
private theorem hz3 : (![0, 0, 0] : Fin 3 → ℕ) = fun _ => 0 := funext fun a => by fin_cases a <;> rfl
private theorem hz2 : (![0, 0] : Fin 2 → ℕ) = fun _ => 0 := funext fun a => by fin_cases a <;> rfl

/-- The hyperbolic tangent of a vector, entry by entry. -/
private theorem tanhv_apply {s : Shape} {φ : FTy} (v : FVec Ideal s φ) (i : s.Idx) : tanh v i = Ideal.tanh (v i) := rfl

/-- Eight taps, the first four apart. -/
private theorem sum_range_8 (f : ℕ → EReal) : ∑ a ∈ Finset.range 8, f a = ∑ a ∈ Finset.range 4, f a + f 4 + f 5 + f 6 + f 7 := by
  simp only [Finset.sum_range_succ]
private theorem sum_range_4 (f : ℕ → EReal) : ∑ a ∈ Finset.range 4, f a = 0 + f 0 + f 1 + f 2 + f 3 := by
  simp only [Finset.sum_range_succ, Finset.sum_range_zero]

/-! ## The first body: 8 taps of 50 channels into 64, 61 positions -/

theorem pay1_5_apply (v : FVec Ideal S61x64 .f32) (l : Fin 61) (co : Fin 64) :
    k5_pay1 (F := Ideal) v (Scalar.ofBits .f32 0x3F000000#32) (ix3 0 l co) = gelu (v (ix2 l co)) := by
  unfold k5_pay1
  rw [shapeCast_ab_1ab_apply]
  simp only [mulf_apply, addf_apply, broadcast_apply, tanhv_apply]
  rfl

theorem pay2_5_apply (x0 : Vec Ideal S1x68x50 .f32) (x1 : Vec Ideal S8x50x64 .f32) (l : Fin 61) (co : Fin 64) :
    k5_pay2 (F := Ideal) (View.ld x0 r5_0) (View.ld x1 r5_1) (View.ld x0 r5_2) (View.ld x1 r5_3) (View.ld x0 r5_4) (View.ld x1 r5_5)
        (View.ld x0 r5_6) (View.ld x1 r5_7) (ix2 l co)
      = ∑ a ∈ Finset.range 4, ∑ q ∈ Finset.range 50, ofArr3 x0 0 (l.val + a) q * ofArr3 x1 a q co.val := by
  unfold k5_pay2
  simp only [addf_apply, broadcast_apply]
  rw [tap_apply dot_S61x50_S50x64_S61x64_1_0_0_1_n_n dot_S61x50_S50x64_S61x64_1_0_0_1_n_n_wf rfl x0 x1 0 inb_S1x68x50_S1x61x50_0_0_0 inb_S8x50x64_S1x50x64_0_0_0,
    tap_apply dot_S61x50_S50x64_S61x64_1_0_0_1_n_n dot_S61x50_S50x64_S61x64_1_0_0_1_n_n_wf rfl x0 x1 1 inb_S1x68x50_S1x61x50_0_1_0 inb_S8x50x64_S1x50x64_1_0_0,
    tap_apply dot_S61x50_S50x64_S61x64_1_0_0_1_n_n dot_S61x50_S50x64_S61x64_1_0_0_1_n_n_wf rfl x0 x1 2 inb_S1x68x50_S1x61x50_0_2_0 inb_S8x50x64_S1x50x64_2_0_0,
    tap_apply dot_S61x50_S50x64_S61x64_1_0_0_1_n_n dot_S61x50_S50x64_S61x64_1_0_0_1_n_n_wf rfl x0 x1 3 inb_S1x68x50_S1x61x50_0_3_0 inb_S8x50x64_S1x50x64_3_0_0,
    sum_range_4]
  simp only [Ideal.ofBits_def, Ideal.ofBits_zero_f32]

theorem pay4_5_apply (x0 : Vec Ideal S1x68x50 .f32) (x1 : Vec Ideal S8x50x64 .f32) (x2 : Vec Ideal S1x64 .f32) (x3 : Vec Ideal S1x64 .f32)
    (l : Fin 61) (co : Fin 64) :
    k5_pay4 (F := Ideal)
        (k5_pay2 (View.ld x0 r5_0) (View.ld x1 r5_1) (View.ld x0 r5_2) (View.ld x1 r5_3) (View.ld x0 r5_4) (View.ld x1 r5_5)
          (View.ld x0 r5_6) (View.ld x1 r5_7))
        (k5_pay3 (View.ld x0 r5_8)) (View.ld x1 r5_9) (View.ld x0 r5_10) (View.ld x1 r5_11) (View.ld x0 r5_12) (View.ld x1 r5_13)
        (View.ld x0 r5_14) (View.ld x1 r5_15) (View.ld x2 r5_16) (View.ld x3 r5_16) (ix2 l co)
      = (∑ a ∈ Finset.range 8, ∑ q ∈ Finset.range 50, ofArr3 x0 0 (l.val + a) q * ofArr3 x1 a q co.val) * x2 (ix2 0 co)
          + x3 (ix2 0 co) := by
  unfold k5_pay4 k5_pay3
  simp only [addf_apply, mulf_apply]
  rw [pay2_5_apply,
    tap_apply dot_S61x50_S50x64_S61x64_1_0_0_1_n_n dot_S61x50_S50x64_S61x64_1_0_0_1_n_n_wf rfl x0 x1 4 inb_S1x68x50_S1x61x50_0_4_0 inb_S8x50x64_S1x50x64_4_0_0,
    tap_apply dot_S61x50_S50x64_S61x64_1_0_0_1_n_n dot_S61x50_S50x64_S61x64_1_0_0_1_n_n_wf rfl x0 x1 5 inb_S1x68x50_S1x61x50_0_5_0 inb_S8x50x64_S1x50x64_5_0_0,
    tap_apply dot_S61x50_S50x64_S61x64_1_0_0_1_n_n dot_S61x50_S50x64_S61x64_1_0_0_1_n_n_wf rfl x0 x1 6 inb_S1x68x50_S1x61x50_0_6_0 inb_S8x50x64_S1x50x64_6_0_0,
    tap_apply dot_S61x50_S50x64_S61x64_1_0_0_1_n_n dot_S61x50_S50x64_S61x64_1_0_0_1_n_n_wf rfl x0 x1 7 inb_S1x68x50_S1x61x50_0_7_0 inb_S8x50x64_S1x50x64_7_0_0,
    broadcastTo_1b_ab_apply, broadcastTo_1b_ab_apply, shapeCast_self, shapeCast_self,
    View.ld_unit_zero hz2, View.ld_unit_zero hz2, sum_range_8]

theorem out5_4_apply (x0 : Vec Ideal S1x68x50 .f32) (x1 : Vec Ideal S8x50x64 .f32) (x2 : Vec Ideal S1x64 .f32) (x3 : Vec Ideal S1x64 .f32)
    (l : Fin 61) (co : Fin 64) :
    out5_4 (F := Ideal) x0 x1 x2 x3 (ix3 0 l co) =
      gelu ((∑ a ∈ Finset.range 8, ∑ q ∈ Finset.range 50, ofArr3 x0 0 (l.val + a) q * ofArr3 x1 a q co.val) * x2 (ix2 0 co) + x3 (ix2 0 co)) := by
  unfold out5_4
  rw [View.canon_unit_zero hz3, pay1_5_apply, pay4_5_apply]

/-- Seven taps, the first four apart. -/
private theorem sum_range_7 (f : ℕ → EReal) : ∑ a ∈ Finset.range 7, f a = ∑ a ∈ Finset.range 4, f a + f 4 + f 5 + f 6 := by
  simp only [Finset.sum_range_succ]

/-! ## The second body: 7 taps of 64 channels into 128, 31 positions -/

theorem pay1_7_apply (v52 v60 : FVec Ideal S31x128 .f32) (c : Ideal .f32) (l : Fin 31) (co : Fin 128) :
    k7_pay1 (F := Ideal) v52 v60 c (ix3 0 l co) = v52 (ix2 l co) * (c + v60 (ix2 l co)) := by
  unfold k7_pay1
  rw [shapeCast_ab_1ab_apply]
  simp only [mulf_apply, addf_apply, broadcast_apply]

theorem pay2_7_apply (x0 : Vec Ideal S1x37x64 .f32) (x1 : Vec Ideal S7x64x128 .f32) (l : Fin 31) (co : Fin 128) :
    k7_pay2 (F := Ideal) (View.ld x0 r7_0) (View.ld x1 r7_1) (View.ld x0 r7_2) (View.ld x1 r7_3) (View.ld x0 r7_4) (View.ld x1 r7_5)
          (View.ld x0 r7_6) (View.ld x1 r7_7) (ix2 l co)
      = ∑ a ∈ Finset.range 4, ∑ q ∈ Finset.range 64, ofArr3 x0 0 (l.val + a) q * ofArr3 x1 a q co.val := by
  unfold k7_pay2
  simp only [addf_apply, broadcast_apply]
  rw [tap_apply dot_S31x64_S64x128_S31x128_1_0_0_1_n_n dot_S31x64_S64x128_S31x128_1_0_0_1_n_n_wf rfl x0 x1 0 inb_S1x37x64_S1x31x64_0_0_0 inb_S7x64x128_S1x64x128_0_0_0,
    tap_apply dot_S31x64_S64x128_S31x128_1_0_0_1_n_n dot_S31x64_S64x128_S31x128_1_0_0_1_n_n_wf rfl x0 x1 1 inb_S1x37x64_S1x31x64_0_1_0 inb_S7x64x128_S1x64x128_1_0_0,
    tap_apply dot_S31x64_S64x128_S31x128_1_0_0_1_n_n dot_S31x64_S64x128_S31x128_1_0_0_1_n_n_wf rfl x0 x1 2 inb_S1x37x64_S1x31x64_0_2_0 inb_S7x64x128_S1x64x128_2_0_0,
    tap_apply dot_S31x64_S64x128_S31x128_1_0_0_1_n_n dot_S31x64_S64x128_S31x128_1_0_0_1_n_n_wf rfl x0 x1 3 inb_S1x37x64_S1x31x64_0_3_0 inb_S7x64x128_S1x64x128_3_0_0,
    sum_range_4]
  simp only [Ideal.ofBits_def, Ideal.ofBits_zero_f32]

theorem pay4_7_apply (x0 : Vec Ideal S1x37x64 .f32) (x1 : Vec Ideal S7x64x128 .f32) (x2 : Vec Ideal S1x128 .f32) (x3 : Vec Ideal S1x128 .f32)
    (l : Fin 31) (co : Fin 128) :
    k7_pay4 (F := Ideal)
        (k7_pay2 (View.ld x0 r7_0) (View.ld x1 r7_1) (View.ld x0 r7_2) (View.ld x1 r7_3) (View.ld x0 r7_4) (View.ld x1 r7_5)
          (View.ld x0 r7_6) (View.ld x1 r7_7))
        (k7_pay3 (View.ld x0 r7_8)) (View.ld x1 r7_9) (View.ld x0 r7_10) (View.ld x1 r7_11) (View.ld x0 r7_12) (View.ld x1 r7_13)
        (View.ld x2 r7_14) (View.ld x3 r7_14) (ix2 l co)
      = (∑ a ∈ Finset.range 7, ∑ q ∈ Finset.range 64, ofArr3 x0 0 (l.val + a) q * ofArr3 x1 a q co.val) * x2 (ix2 0 co)
          + x3 (ix2 0 co) := by
  unfold k7_pay4 k7_pay3
  simp only [addf_apply, mulf_apply]
  rw [pay2_7_apply,
    tap_apply dot_S31x64_S64x128_S31x128_1_0_0_1_n_n dot_S31x64_S64x128_S31x128_1_0_0_1_n_n_wf rfl x0 x1 4 inb_S1x37x64_S1x31x64_0_4_0 inb_S7x64x128_S1x64x128_4_0_0,
    tap_apply dot_S31x64_S64x128_S31x128_1_0_0_1_n_n dot_S31x64_S64x128_S31x128_1_0_0_1_n_n_wf rfl x0 x1 5 inb_S1x37x64_S1x31x64_0_5_0 inb_S7x64x128_S1x64x128_5_0_0,
    tap_apply dot_S31x64_S64x128_S31x128_1_0_0_1_n_n dot_S31x64_S64x128_S31x128_1_0_0_1_n_n_wf rfl x0 x1 6 inb_S1x37x64_S1x31x64_0_6_0 inb_S7x64x128_S1x64x128_6_0_0,
    broadcastTo_1b_ab_apply, broadcastTo_1b_ab_apply, shapeCast_self, shapeCast_self,
    View.ld_unit_zero hz2, View.ld_unit_zero hz2, sum_range_7]

theorem out7_4_apply (x0 : Vec Ideal S1x37x64 .f32) (x1 : Vec Ideal S7x64x128 .f32) (x2 : Vec Ideal S1x128 .f32) (x3 : Vec Ideal S1x128 .f32)
    (l : Fin 31) (co : Fin 128) :
    out7_4 (F := Ideal) x0 x1 x2 x3 (ix3 0 l co) =
      gelu ((∑ a ∈ Finset.range 7, ∑ q ∈ Finset.range 64, ofArr3 x0 0 (l.val + a) q * ofArr3 x1 a q co.val) * x2 (ix2 0 co) + x3 (ix2 0 co)) := by
  unfold out7_4
  rw [View.canon_unit_zero hz3, pay1_7_apply]
  unfold k7_pay5 k7_pay6
  simp only [mulf_apply, addf_apply, broadcast_apply, tanhv_apply]
  rw [pay4_7_apply]
  rfl

/-! ## The third body: 7 taps of 128 channels into 128, 31 positions -/

theorem pay1_8_apply (v52 v60 : FVec Ideal S31x128 .f32) (c : Ideal .f32) (l : Fin 31) (co : Fin 128) :
    k8_pay1 (F := Ideal) v52 v60 c (ix3 0 l co) = v52 (ix2 l co) * (c + v60 (ix2 l co)) := by
  unfold k8_pay1
  rw [shapeCast_ab_1ab_apply]
  simp only [mulf_apply, addf_apply, broadcast_apply]

theorem pay2_8_apply (x0 : Vec Ideal S1x37x128 .f32) (x1 : Vec Ideal S7x128x128 .f32) (l : Fin 31) (co : Fin 128) :
    k8_pay2 (F := Ideal) (View.ld x0 r8_0) (View.ld x1 r8_1) (View.ld x0 r8_2) (View.ld x1 r8_3) (View.ld x0 r8_4) (View.ld x1 r8_5)
          (View.ld x0 r8_6) (View.ld x1 r8_7) (ix2 l co)
      = ∑ a ∈ Finset.range 4, ∑ q ∈ Finset.range 128, ofArr3 x0 0 (l.val + a) q * ofArr3 x1 a q co.val := by
  unfold k8_pay2
  simp only [addf_apply, broadcast_apply]
  rw [tap_apply dot_S31x128_S128x128_S31x128_1_0_0_1_n_n dot_S31x128_S128x128_S31x128_1_0_0_1_n_n_wf rfl x0 x1 0 inb_S1x37x128_S1x31x128_0_0_0 inb_S7x128x128_S1x128x128_0_0_0,
    tap_apply dot_S31x128_S128x128_S31x128_1_0_0_1_n_n dot_S31x128_S128x128_S31x128_1_0_0_1_n_n_wf rfl x0 x1 1 inb_S1x37x128_S1x31x128_0_1_0 inb_S7x128x128_S1x128x128_1_0_0,
    tap_apply dot_S31x128_S128x128_S31x128_1_0_0_1_n_n dot_S31x128_S128x128_S31x128_1_0_0_1_n_n_wf rfl x0 x1 2 inb_S1x37x128_S1x31x128_0_2_0 inb_S7x128x128_S1x128x128_2_0_0,
    tap_apply dot_S31x128_S128x128_S31x128_1_0_0_1_n_n dot_S31x128_S128x128_S31x128_1_0_0_1_n_n_wf rfl x0 x1 3 inb_S1x37x128_S1x31x128_0_3_0 inb_S7x128x128_S1x128x128_3_0_0,
    sum_range_4]
  simp only [Ideal.ofBits_def, Ideal.ofBits_zero_f32]

theorem pay4_8_apply (x0 : Vec Ideal S1x37x128 .f32) (x1 : Vec Ideal S7x128x128 .f32) (x2 : Vec Ideal S1x128 .f32) (x3 : Vec Ideal S1x128 .f32)
    (l : Fin 31) (co : Fin 128) :
    k8_pay4 (F := Ideal)
        (k8_pay2 (View.ld x0 r8_0) (View.ld x1 r8_1) (View.ld x0 r8_2) (View.ld x1 r8_3) (View.ld x0 r8_4) (View.ld x1 r8_5)
          (View.ld x0 r8_6) (View.ld x1 r8_7))
        (k8_pay3 (View.ld x0 r8_8)) (View.ld x1 r8_9) (View.ld x0 r8_10) (View.ld x1 r8_11) (View.ld x0 r8_12) (View.ld x1 r8_13)
        (View.ld x2 r8_14) (View.ld x3 r8_14) (ix2 l co)
      = (∑ a ∈ Finset.range 7, ∑ q ∈ Finset.range 128, ofArr3 x0 0 (l.val + a) q * ofArr3 x1 a q co.val) * x2 (ix2 0 co)
          + x3 (ix2 0 co) := by
  unfold k8_pay4 k8_pay3
  simp only [addf_apply, mulf_apply]
  rw [pay2_8_apply,
    tap_apply dot_S31x128_S128x128_S31x128_1_0_0_1_n_n dot_S31x128_S128x128_S31x128_1_0_0_1_n_n_wf rfl x0 x1 4 inb_S1x37x128_S1x31x128_0_4_0 inb_S7x128x128_S1x128x128_4_0_0,
    tap_apply dot_S31x128_S128x128_S31x128_1_0_0_1_n_n dot_S31x128_S128x128_S31x128_1_0_0_1_n_n_wf rfl x0 x1 5 inb_S1x37x128_S1x31x128_0_5_0 inb_S7x128x128_S1x128x128_5_0_0,
    tap_apply dot_S31x128_S128x128_S31x128_1_0_0_1_n_n dot_S31x128_S128x128_S31x128_1_0_0_1_n_n_wf rfl x0 x1 6 inb_S1x37x128_S1x31x128_0_6_0 inb_S7x128x128_S1x128x128_6_0_0,
    broadcastTo_1b_ab_apply, broadcastTo_1b_ab_apply, shapeCast_self, shapeCast_self,
    View.ld_unit_zero hz2, View.ld_unit_zero hz2, sum_range_7]

theorem out8_4_apply (x0 : Vec Ideal S1x37x128 .f32) (x1 : Vec Ideal S7x128x128 .f32) (x2 : Vec Ideal S1x128 .f32) (x3 : Vec Ideal S1x128 .f32)
    (l : Fin 31) (co : Fin 128) :
    out8_4 (F := Ideal) x0 x1 x2 x3 (ix3 0 l co) =
      gelu ((∑ a ∈ Finset.range 7, ∑ q ∈ Finset.range 128, ofArr3 x0 0 (l.val + a) q * ofArr3 x1 a q co.val) * x2 (ix2 0 co) + x3 (ix2 0 co)) := by
  unfold out8_4
  rw [View.canon_unit_zero hz3, pay1_8_apply]
  unfold k8_pay5 k8_pay6
  simp only [mulf_apply, addf_apply, broadcast_apply, tanhv_apply]
  rw [pay4_8_apply]
  rfl

end Cert.ReferenceIdeal.RBody
end
-- ==== Proof.RRegionB5.lean ====
/-
  From blocks to the array, region 5 of the reference program (convolution, batch normalisation, GELU).

  The region's grid is the 2048 batch rows. Grid point `t` stages batch row `t` of each batch-indexed array (a block of
  leading extent 1) and the whole of every other array, and writes its result back to batch row `t` of the output
  array. Hence the output array after the region, read at batch row `b`, is the body's result of row `b` of the input
  array and the whole other arrays: `region5_at`.
-/
import proofs.«125144_g2000006933354569_pallasbulk_1054_1_alg».proof.Proof.Gen.ReferenceIdeal.Frame
import Idealize.ShloMosaic.Lib.ValueIdx
import Idealize.ShloMosaic.Lib.Pipeline.Value

noncomputable section

namespace Cert.ReferenceIdeal.RRegion

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 5: a convolution, batch normalisation and GELU of one batch row per grid point -/

/-- At grid point `t` the batch-indexed windows (the input, 0, and the output, 4) sit at block `t` of the batch axis. -/
theorem idx5_b : ∀ t : Fin cfg5.N,
    win5_0.index t (0 : Fin 3) = t.val ∧ win5_4.index t (0 : Fin 3) = t.val :=
  (by decide +kernel : ∀ t : Fin grid5.N, _)

/-- The output array as one function of the arrays the region finds: at batch row `i 0`, the body's result of that
    row of the input and the whole weight, scale and shift arrays. -/
def G5 (c : Dev nD) : S2048x61x64.Idx → EReal := fun i =>
  out5_4 (F := Ideal) (fun y => (V c (Pipeline.arrRef spec5 0) : S2048x68x50.Idx → EReal) (ix3 (i 0) (y 1) (y 2)))
    (V c (Pipeline.arrRef spec5 1)) (V c (Pipeline.arrRef spec5 2)) (V c (Pipeline.arrRef spec5 3)) (ix3 0 (i 1) (i 2))

/-- Window 0's block at point `t` is batch row `t` of its array. -/
theorem iblk5_0_apply (c : Dev nD) (t : Fin cfg5.N) (y : S1x68x50.Idx) :
    (iblk5 V c 0 t : Vec Ideal S1x68x50 .f32) y
      = (V c (Pipeline.arrRef spec5 0) : S2048x68x50.Idx → EReal) (ix3 (Fin.cast N_5 t) (y 1) (y 2)) := by
  unfold iblk5
  rw [View.read_apply]
  show V c (Pipeline.arrRef spec5 0) _ = V c (Pipeline.arrRef spec5 0) _
  congr 1
  funext a
  apply Fin.ext
  have h0 : (y 0).val < 1 := (y 0).isLt
  match a with
  | ⟨0, _⟩ => show win5_0.index t 0 * 1 + 1 * (y 0).val = t.val; rw [(idx5_b t).1]; omega
  | ⟨1, _⟩ => show 0 * 68 + 1 * (y 1).val = (y 1).val; omega
  | ⟨2, _⟩ => show 0 * 50 + 1 * (y 2).val = (y 2).val; omega

/-- Windows 1, 2 and 3 (weights, scale, shift) hold their whole arrays at every point. -/
theorem iblk5_1_eq (c : Dev nD) (t : Fin cfg5.N) :
    (iblk5 V c 1 t : Vec Ideal S8x50x64 .f32) = V c (Pipeline.arrRef spec5 1) := by
  funext y
  unfold iblk5
  rw [View.read_apply]
  show V c (Pipeline.arrRef spec5 1) _ = V c (Pipeline.arrRef spec5 1) _
  congr 1
  funext a
  apply Fin.ext
  match a with
  | ⟨0, _⟩ => show 0 * 8 + 1 * (y 0).val = (y 0).val; omega
  | ⟨1, _⟩ => show 0 * 50 + 1 * (y 1).val = (y 1).val; omega
  | ⟨2, _⟩ => show 0 * 64 + 1 * (y 2).val = (y 2).val; omega
theorem iblk5_2_eq (c : Dev nD) (t : Fin cfg5.N) :
    (iblk5 V c 2 t : Vec Ideal S1x64 .f32) = V c (Pipeline.arrRef spec5 2) := by
  funext y
  unfold iblk5
  rw [View.read_apply]
  show V c (Pipeline.arrRef spec5 2) _ = V c (Pipeline.arrRef spec5 2) _
  congr 1
  funext a
  apply Fin.ext
  match a with
  | ⟨0, _⟩ => show 0 * 1 + 1 * (y 0).val = (y 0).val; omega
  | ⟨1, _⟩ => show 0 * 64 + 1 * (y 1).val = (y 1).val; omega
theorem iblk5_3_eq (c : Dev nD) (t : Fin cfg5.N) :
    (iblk5 V c 3 t : Vec Ideal S1x64 .f32) = V c (Pipeline.arrRef spec5 3) := by
  funext y
  unfold iblk5
  rw [View.read_apply]
  show V c (Pipeline.arrRef spec5 3) _ = V c (Pipeline.arrRef spec5 3) _
  congr 1
  funext a
  apply Fin.ext
  match a with
  | ⟨0, _⟩ => show 0 * 1 + 1 * (y 0).val = (y 0).val; omega
  | ⟨1, _⟩ => show 0 * 64 + 1 * (y 1).val = (y 1).val; omega

/-- `G5` at an array index whose batch coordinate is `t` and whose other coordinates are `y`'s is the body's
    result of batch row `t` at `y`. -/
theorem G5_at (c : Dev nD) (t : Fin cfg5.N) (y : S1x61x64.Idx) (i : S2048x61x64.Idx)
    (h0 : (i 0).val = t.val) (h1 : (i 1).val = (y 1).val) (h2 : (i 2).val = (y 2).val) :
    G5 V c i = out5_4 (F := Ideal)
      (fun y' => (V c (Pipeline.arrRef spec5 0) : S2048x68x50.Idx → EReal) (ix3 (Fin.cast N_5 t) (y' 1) (y' 2)))
      (V c (Pipeline.arrRef spec5 1)) (V c (Pipeline.arrRef spec5 2)) (V c (Pipeline.arrRef spec5 3)) y := by
  have e0 : i 0 = Fin.cast N_5 t := Fin.ext h0
  have ey : (ix3 0 (i 1) (i 2) : S1x61x64.Idx) = y := by
    funext a
    apply Fin.ext
    have hy : (y 0).val < 1 := (y 0).isLt
    match a with
    | ⟨0, _⟩ => show 0 = (y 0).val; omega
    | ⟨1, _⟩ => exact h1
    | ⟨2, _⟩ => exact h2
  unfold G5
  rw [e0, ey]

/-- What point `t` writes back to the output array is block `t` of `G5`. -/
theorem flushed5_eq (c : Dev nD) (t : Fin cfg5.N) :
    (dat5 V c).flushed 4 t = ((cfg5.win 4).blk t).view.read (Elt Ideal) (G5 V c) := by
  show (cfg5.win 4).cut (grid5.coords t) ((dat5 V c).after 4 t) = _
  rw [after5_4, iblk5_1_eq, iblk5_2_eq, iblk5_3_eq,
    show (iblk5 V c 0 t : Vec Ideal S1x68x50 .f32) = _ from funext (iblk5_0_apply V c t)]
  funext y
  rw [View.read_apply]
  show out5_4 (F := Ideal) _ _ _ _ _ = G5 V c _
  refine (G5_at V c t _ _ ?_ ?_ ?_).symm
  · show win5_4.index t 0 * 1 + 1 * (y 0).val = t.val
    have h0 : (y 0).val < 1 := (y 0).isLt
    rw [(idx5_b t).2]; omega
  · show 0 * 61 + 1 * (y 1).val = (y 1).val; omega
  · show 0 * 64 + 1 * (y 2).val = (y 2).val; omega

/-- An index of the output array with batch coordinate `t` is in point `t`'s block. -/
theorem mem_blk5 (t : Fin cfg5.N) (i : S2048x61x64.Idx) (h : (i 0).val = t.val) :
    i ∈ ((cfg5.win 4).blk t).view.set := by
  show i ∈ ((View.whole main_v76).slice (win5_4.rect t)).set
  rw [View.set_slice_whole, Rect.mem_set_unit]
  intro a
  have h1 : (i 1).val < 61 := (i 1).isLt
  have h2 : (i 2).val < 64 := (i 2).isLt
  match a with
  | ⟨0, _⟩ => show win5_4.index t 0 * 1 ≤ (i 0).val ∧ (i 0).val < win5_4.index t 0 * 1 + 1; rw [(idx5_b t).2]; omega
  | ⟨1, _⟩ => show 0 * 61 ≤ (i 1).val ∧ (i 1).val < 0 * 61 + 61; omega
  | ⟨2, _⟩ => show 0 * 64 ≤ (i 2).val ∧ (i 2).val < 0 * 64 + 64; omega

/-- The output array after the region, at batch row `b`: the body's result of row `b` of the input array and the
    whole weight, scale and shift arrays. -/
theorem region5_at (c : Dev nD) (b : Fin 2048) (l : Fin 61) (co : Fin 64) :
    ((dat5 V c).arrAt 4 cfg5.N : S2048x61x64.Idx → EReal) (ix3 b l co)
      = out5_4 (F := Ideal) (fun y => (V c (Pipeline.arrRef spec5 0) : S2048x68x50.Idx → EReal) (ix3 b (y 1) (y 2)))
          (V c (Pipeline.arrRef spec5 1)) (V c (Pipeline.arrRef spec5 2)) (V c (Pipeline.arrRef spec5 3)) (ix3 0 l co) :=
  (dat5 V c).arrAt_apply_of_mem 4 (G5 V c) (fun t _ => flushed5_eq V c t) cfg5.N (Fin.cast N_5.symm b) (ix3 b l co)
    (Fin.cast N_5.symm b).isLt (flush5_4 _) (mem_blk5 _ _ rfl)

end Cert.ReferenceIdeal.RRegion

end
-- ==== Proof.RStage5.lean ====
/-
  The fifth launch of the reference program computes the first layer of the second branch: its output array, when the
  launch is left, holds at (b, l, co)

      G1 b l co = gelu ((∑ k < 400, zpad 200 3000 (x b) (50·l + k) · w4 co k) · s4 co + t4 co).

  The launch reads the padded signal split into 68 rows of 50 lanes (row u, lane r is sample 50·u + r) and the 400
  taps split into 8 rows of 50 (row a, lane r is tap 50·a + r); its body sums, over the 8 tap rows a and the 50
  lanes q, signal (l + a, q) times tap (a, q). Sample 50·(l + a) + q is sample 50·l + (50·a + q), so the double sum
  is the single sum over the 400 taps k = 50·a + q.
-/
import proofs.«125144_g2000006933354569_pallasbulk_1054_1_alg».proof.Proof.RConvB
import proofs.«125144_g2000006933354569_pallasbulk_1054_1_alg».proof.Proof.RRegionB5
import proofs.«125144_g2000006933354569_pallasbulk_1054_1_alg».proof.Proof.RGlueB
import proofs.«125144_g2000006933354569_pallasbulk_1054_1_alg».proof.Proof.SpecRef
import proofs.«125144_g2000006933354569_pallasbulk_1054_1_alg».proof.Proof.RIface

noncomputable section

namespace Cert.ReferenceIdeal.RStage

open Cert.ReferenceIdeal Cert.ReferenceIdeal.Gen Cert.Spec Idealize.ShloMosaic Idealize.ShloMosaic.TcCoe Idealize.ShloMosaic.ValueIdx Idealize.SL.Sem

/-- The first layer of the second branch from its block: the padded signal split into 68 rows of 50 lanes, the 400 taps
    into 8 rows of 50, is the 400-tap stride-50 convolution. -/
theorem core5 (P : Params) (X0 : S2048x68x50.Idx → EReal) (R : Vec Ideal S1x68x50 .f32) (x1 : Vec Ideal S8x50x64 .f32)
    (x2 x3 : Vec Ideal S1x64 .f32) (b : Fin 2048)
    (hR : ∀ (j : Fin 68) (k : Fin 50), R (ix3 0 j k) = X0 (ix3 b j k))
    (h0 : ∀ (b : Fin 2048) (u : Fin 68) (r : Fin 50), X0 (ix3 b u r) = zpad 200 3000 (P.x b.val) (50 * u.val + r.val))
    (h1 : ∀ (a : Fin 8) (r : Fin 50) (co : Fin 64), x1 (ix3 a r co) = P.w4 co.val (50 * a.val + r.val))
    (h2 : ∀ co : Fin 64, x2 (ix2 0 co) = s4 P co.val) (h3 : ∀ co : Fin 64, x3 (ix2 0 co) = t4 P co.val)
    (l : Fin 61) (co : Fin 64) :
    out5_4 (F := Ideal) R x1 x2 x3 (ix3 0 l co) = G1 P b.val l.val co.val := by
  rw [RBody.out5_4_apply, h2, h3]
  unfold G1
  rw [show (400 : ℕ) = 8 * 50 from rfl, sum_range_mul 8 50]
  congr 3
  refine Finset.sum_congr rfl fun a ha => Finset.sum_congr rfl fun q hq => ?_
  have ha' := Finset.mem_range.1 ha
  have hq' := Finset.mem_range.1 hq
  have hl := l.isLt
  rw [ofArr3_row X0 b R hR, ofArr3_val X0 b ⟨l.val + a, by omega⟩ ⟨q, hq'⟩, ofArr3_val x1 ⟨a, ha'⟩ ⟨q, hq'⟩ co, h0, h1]
  show zpad 200 3000 (P.x b.val) (50 * (l.val + a) + q) * P.w4 co.val (50 * a + q) = _
  rw [show 50 * (l.val + a) + q = 50 * l.val + (a * 50 + q) by ring, show 50 * a + q = a * 50 + q by ring]

variable (m : (ℓ : Loc nD τ sig) → Buf (Elt Ideal) ℓ) (ρ : Dev nD → PrngReg) (c : Dev nD)

/-- STAGE 5: what the fifth launch leaves in its output array is the first layer of the second branch. -/
theorem stage5 : ∀ (b : Fin 2048) (l : Fin 61) (co : Fin 64),
    (W32 m ρ c (Proc.devRef .tc main_v76) : S2048x61x64.Idx → EReal) (ix3 b l co) = G1 (PR m c) b.val l.val co.val := by
  intro b l co
  have e : W32 m ρ c (Proc.devRef .tc main_v76) = (dat5 (V31 m ρ) c).arrAt 4 cfg5.N := W32_arr m ρ c 4
  rw [e, RRegion.region5_at]
  exact core5 (PR m c) (W31 m ρ c (Proc.devRef .tc main_v63)) _ _ _ _ b (fun _ _ => rfl)
    (RGlue.in5_0 m ρ c) (RGlue.in5_1 m ρ c) (RGlue.in5_2 m ρ c) (RGlue.in5_3 m ρ c) l co

end Cert.ReferenceIdeal.RStage
end
-- ==== Proof.RRegionB6.lean ====
/-
  From blocks to the array, region 6 of the reference program (max pooling).

  The region's grid is the 2048 batch rows. Grid point `t` stages batch row `t` of each batch-indexed array (a block of
  leading extent 1) and the whole of every other array, and writes its result back to batch row `t` of the output
  array. Hence the output array after the region, read at batch row `b`, is the body's result of row `b` of the input
  array and the whole other arrays: `region6_at`.
-/
import proofs.«125144_g2000006933354569_pallasbulk_1054_1_alg».proof.Proof.Gen.ReferenceIdeal.Frame
import Idealize.ShloMosaic.Lib.ValueIdx
import Idealize.ShloMosaic.Lib.Pipeline.Value

noncomputable section

namespace Cert.ReferenceIdeal.RRegion

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 6: a max pooling of one batch row per grid point -/

/-- At grid point `t` both windows (the input, 0, and the output, 1) sit at block `t` of the batch axis. -/
theorem idx6_b : ∀ t : Fin cfg6.N,
    win6_0.index t (0 : Fin 4) = t.val ∧ win6_1.index t (0 : Fin 3) = t.val :=
  (by decide +kernel : ∀ t : Fin grid6.N, _)

/-- The output array as one function of the array the region finds: at batch row `i 0`, the body's result of that
    row of the input. -/
def G6 (c : Dev nD) : S2048x31x64.Idx → EReal := fun i =>
  out6_1 (F := Ideal) (fun y => (V c (Pipeline.arrRef spec6 0) : S2048x2x32x64.Idx → EReal) (ix4 (i 0) (y 1) (y 2) (y 3)))
    (ix3 0 (i 1) (i 2))

/-- Window 0's block at point `t` is batch row `t` of its array. -/
theorem iblk6_0_apply (c : Dev nD) (t : Fin cfg6.N) (y : S1x2x32x64.Idx) :
    (iblk6 V c 0 t : Vec Ideal S1x2x32x64 .f32) y
      = (V c (Pipeline.arrRef spec6 0) : S2048x2x32x64.Idx → EReal) (ix4 (Fin.cast N_6 t) (y 1) (y 2) (y 3)) := by
  unfold iblk6
  rw [View.read_apply]
  show V c (Pipeline.arrRef spec6 0) _ = V c (Pipeline.arrRef spec6 0) _
  congr 1
  funext a
  apply Fin.ext
  have h0 : (y 0).val < 1 := (y 0).isLt
  match a with
  | ⟨0, _⟩ => show win6_0.index t 0 * 1 + 1 * (y 0).val = t.val; rw [(idx6_b t).1]; omega
  | ⟨1, _⟩ => show 0 * 2 + 1 * (y 1).val = (y 1).val; omega
  | ⟨2, _⟩ => show 0 * 32 + 1 * (y 2).val = (y 2).val; omega
  | ⟨3, _⟩ => show 0 * 64 + 1 * (y 3).val = (y 3).val; omega

/-- `G6` at an array index whose batch coordinate is `t` and whose other coordinates are `y`'s is the body's
    result of batch row `t` at `y`. -/
theorem G6_at (c : Dev nD) (t : Fin cfg6.N) (y : S1x31x64.Idx) (i : S2048x31x64.Idx)
    (h0 : (i 0).val = t.val) (h1 : (i 1).val = (y 1).val) (h2 : (i 2).val = (y 2).val) :
    G6 V c i = out6_1 (F := Ideal)
      (fun y' => (V c (Pipeline.arrRef spec6 0) : S2048x2x32x64.Idx → EReal) (ix4 (Fin.cast N_6 t) (y' 1) (y' 2) (y' 3))) y := by
  have e0 : i 0 = Fin.cast N_6 t := Fin.ext h0
  have ey : (ix3 0 (i 1) (i 2) : S1x31x64.Idx) = y := by
    funext a
    apply Fin.ext
    have hy : (y 0).val < 1 := (y 0).isLt
    match a with
    | ⟨0, _⟩ => show 0 = (y 0).val; omega
    | ⟨1, _⟩ => exact h1
    | ⟨2, _⟩ => exact h2
  unfold G6
  rw [e0, ey]

/-- What point `t` writes back to the output array is block `t` of `G6`. -/
theorem flushed6_eq (c : Dev nD) (t : Fin cfg6.N) :
    (dat6 V c).flushed 1 t = ((cfg6.win 1).blk t).view.read (Elt Ideal) (G6 V c) := by
  show (cfg6.win 1).cut (grid6.coords t) ((dat6 V c).after 1 t) = _
  rw [after6_1, show (iblk6 V c 0 t : Vec Ideal S1x2x32x64 .f32) = _ from funext (iblk6_0_apply V c t)]
  funext y
  rw [View.read_apply]
  show out6_1 (F := Ideal) _ _ = G6 V c _
  refine (G6_at V c t _ _ ?_ ?_ ?_).symm
  · show win6_1.index t 0 * 1 + 1 * (y 0).val = t.val
    have h0 : (y 0).val < 1 := (y 0).isLt
    rw [(idx6_b t).2]; omega
  · show 0 * 31 + 1 * (y 1).val = (y 1).val; omega
  · show 0 * 64 + 1 * (y 2).val = (y 2).val; omega

/-- An index of the output array with batch coordinate `t` is in point `t`'s block. -/
theorem mem_blk6 (t : Fin cfg6.N) (i : S2048x31x64.Idx) (h : (i 0).val = t.val) :
    i ∈ ((cfg6.win 1).blk t).view.set := by
  show i ∈ ((View.whole main_v80).slice (win6_1.rect t)).set
  rw [View.set_slice_whole, Rect.mem_set_unit]
  intro a
  have h1 : (i 1).val < 31 := (i 1).isLt
  have h2 : (i 2).val < 64 := (i 2).isLt
  match a with
  | ⟨0, _⟩ => show win6_1.index t 0 * 1 ≤ (i 0).val ∧ (i 0).val < win6_1.index t 0 * 1 + 1; rw [(idx6_b t).2]; omega
  | ⟨1, _⟩ => show 0 * 31 ≤ (i 1).val ∧ (i 1).val < 0 * 31 + 31; omega
  | ⟨2, _⟩ => show 0 * 64 ≤ (i 2).val ∧ (i 2).val < 0 * 64 + 64; omega

/-- The output array after the region, at batch row `b`: the body's result of row `b` of the input array. -/
theorem region6_at (c : Dev nD) (b : Fin 2048) (l : Fin 31) (co : Fin 64) :
    ((dat6 V c).arrAt 1 cfg6.N : S2048x31x64.Idx → EReal) (ix3 b l co)
      = out6_1 (F := Ideal) (fun y => (V c (Pipeline.arrRef spec6 0) : S2048x2x32x64.Idx → EReal) (ix4 b (y 1) (y 2) (y 3)))
          (ix3 0 l co) :=
  (dat6 V c).arrAt_apply_of_mem 1 (G6 V c) (fun t _ => flushed6_eq V c t) cfg6.N (Fin.cast N_6.symm b) (ix3 b l co)
    (Fin.cast N_6.symm b).isLt (flush6_1 _) (mem_blk6 _ _ rfl)

end Cert.ReferenceIdeal.RRegion

end
-- ==== Proof.RGlueC.lean ====
/-
  The reference program's host operations between its launches, second half: what the arrays hold that the launches of
  regions 6 to 9 read, and the result array, each entry in terms of the previous launch's output array and of the
  network's arrays.

  Every array a launch reads is a composition of paddings, reshapes and transposes of one earlier array (or, for a
  batch normalisation's scale and shift, the host's arithmetic on four argument arrays). The composition is read off the
  fold over the stretch's operations, then read at an index coordinate by coordinate. An argument array is never
  written, so at any point of the run it holds its launch contents.
-/
import proofs.«125144_g2000006933354569_pallasbulk_1054_1_alg».proof.Proof.Gen.ReferenceIdeal.Frame
import proofs.«125144_g2000006933354569_pallasbulk_1054_1_alg».proof.Proof.RIface
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

set_option maxRecDepth 16384

noncomputable section

namespace Cert.ReferenceIdeal.RGlue

open Cert.ReferenceIdeal Cert.ReferenceIdeal.Gen Cert.Spec
open Idealize.ShloMosaic Idealize.ShloMosaic.ValueIdx Idealize.ShloMosaic.StableHlo
open Idealize.ShloMosaic.TcCoe
open Idealize.SL.Sem

/-! ## Layout operations of rank 3 and 4 read at an index -/

section Layout
variable {α : Type}

/-- A rank-3 array padded along its middle axis only: inside the operand's range the operand, elsewhere the fill. -/
theorem pad3_mid_apply {n0 n1 n2 N1 : ℕ} (lo hi : ℕ) (x : (⟨3, ![n0, n1, n2]⟩ : Shape).Idx → α) {u : Shape} (v : u.Idx → α)
    (h : (⟨3, ![n0, n1, n2]⟩ : Shape).Pads ![0, lo, 0] ![0, hi, 0] ![0, 0, 0] ⟨3, ![n0, N1, n2]⟩) (hu : 0 < u.numel)
    (b : Fin n0) (j : Fin N1) (c : Fin n2) :
    pad ⟨3, ![n0, N1, n2]⟩ ![0, lo, 0] ![0, hi, 0] ![0, 0, 0] x v h hu (ix3 b j c)
      = if hj : lo ≤ j.val ∧ j.val < lo + n1 then x (ix3 b ⟨j.val - lo, by omega⟩ c) else v (Shape.Idx.first hu) := by
  by_cases hj : lo ≤ j.val ∧ j.val < lo + n1
  · rw [dif_pos hj]
    refine pad_apply_of_inside _ _ _ x v h hu _ _ fun a => ?_
    match a with
    | ⟨0, _⟩ => show b.val = 0 + b.val * (0 + 1); omega
    | ⟨1, _⟩ => show j.val = lo + (j.val - lo) * (0 + 1); omega
    | ⟨2, _⟩ => show c.val = 0 + c.val * (0 + 1); omega
  · rw [dif_neg hj]
    refine pad_apply_of_not_inside _ _ _ x v h hu _ (⟨1, Nat.lt_of_sub_eq_succ rfl⟩ : Fin 3) fun hc => hj ?_
    have h1 : lo ≤ j.val := hc.1
    have h2 : (j.val - lo) / (0 + 1) < n1 := hc.2.2
    rw [Nat.zero_add, Nat.div_one] at h2
    exact ⟨h1, by omega⟩

/-- A rank-3 array padded by nothing is itself. -/
theorem pad3_none_apply {n0 n1 n2 : ℕ} (x : (⟨3, ![n0, n1, n2]⟩ : Shape).Idx → α) {u : Shape} (v : u.Idx → α)
    (h : (⟨3, ![n0, n1, n2]⟩ : Shape).Pads ![0, 0, 0] ![0, 0, 0] ![0, 0, 0] ⟨3, ![n0, n1, n2]⟩) (hu : 0 < u.numel)
    (a : Fin n0) (b : Fin n1) (c : Fin n2) :
    pad ⟨3, ![n0, n1, n2]⟩ ![0, 0, 0] ![0, 0, 0] ![0, 0, 0] x v h hu (ix3 a b c) = x (ix3 a b c) := by
  refine pad_apply_of_inside _ _ _ x v h hu _ _ fun d => ?_
  match d with
  | ⟨0, _⟩ => show a.val = 0 + a.val * (0 + 1); omega
  | ⟨1, _⟩ => show b.val = 0 + b.val * (0 + 1); omega
  | ⟨2, _⟩ => show c.val = 0 + c.val * (0 + 1); omega

/-- The middle axis of a rank-3 array split in two, `N = U · s`: entry `(b, u, p, c)` is the operand's `(b, u·s + p, c)`. -/
theorem shapeCast_splitMid_apply {B N U s C : ℕ} (hN : N = U * s) (x : (⟨3, ![B, N, C]⟩ : Shape).Idx → α)
    (h : (⟨3, ![B, N, C]⟩ : Shape).ShapeCasts ⟨4, ![B, U, s, C]⟩) (b : Fin B) (u : Fin U) (p : Fin s) (c : Fin C) :
    shapeCast ⟨4, ![B, U, s, C]⟩ x h (ix4 b u p c)
      = x (ix3 b ⟨u.val * s + p.val, by
          have := u.isLt; have := p.isLt; subst hN
          calc u.val * s + p.val < u.val * s + s := by omega
            _ = (u.val + 1) * s := by ring
            _ ≤ U * s := Nat.mul_le_mul_right _ (by omega)⟩ c) :=
  shapeCast_apply x h _ _ (by
    rw [Shape.rowMajor_val_three, Shape.rowMajor_val_four]
    show (b.val * N + (u.val * s + p.val)) * C + c.val = ((b.val * U + u.val) * s + p.val) * C + c.val
    subst hN; ring)

/-- Axes 1 and 2 of a rank-4 array exchanged. -/
theorem transpose4_0213_apply {n0 n1 n2 n3 : ℕ} (x : (⟨4, ![n0, n1, n2, n3]⟩ : Shape).Idx → α)
    (h : (⟨4, ![n0, n1, n2, n3]⟩ : Shape).Transposes [0, 2, 1, 3] ⟨4, ![n0, n2, n1, n3]⟩)
    (a : Fin n0) (b : Fin n2) (c : Fin n1) (d : Fin n3) :
    transpose ⟨4, ![n0, n2, n1, n3]⟩ [0, 2, 1, 3] x h (ix4 a b c d) = x (ix4 a c b d) :=
  transpose_apply _ x h _ _ fun e => match e with | ⟨0, _⟩ => rfl | ⟨1, _⟩ => rfl | ⟨2, _⟩ => rfl | ⟨3, _⟩ => rfl

/-- Axes 2 and 3 of a rank-4 array exchanged. -/
theorem transpose4_0132_apply {n0 n1 n2 n3 : ℕ} (x : (⟨4, ![n0, n1, n2, n3]⟩ : Shape).Idx → α)
    (h : (⟨4, ![n0, n1, n2, n3]⟩ : Shape).Transposes [0, 1, 3, 2] ⟨4, ![n0, n1, n3, n2]⟩)
    (a : Fin n0) (b : Fin n1) (c : Fin n3) (d : Fin n2) :
    transpose ⟨4, ![n0, n1, n3, n2]⟩ [0, 1, 3, 2] x h (ix4 a b c d) = x (ix4 a b d c) :=
  transpose_apply _ x h _ _ fun e => match e with | ⟨0, _⟩ => rfl | ⟨1, _⟩ => rfl | ⟨2, _⟩ => rfl | ⟨3, _⟩ => rfl

/-- The permutation `[2, 1, 3, 0]` of a rank-4 array: entry `(c, b, d, a)` is the operand's `(a, b, c, d)`. -/
theorem transpose4_2130_apply {n0 n1 n2 n3 : ℕ} (x : (⟨4, ![n0, n1, n2, n3]⟩ : Shape).Idx → α)
    (h : (⟨4, ![n0, n1, n2, n3]⟩ : Shape).Transposes [2, 1, 3, 0] ⟨4, ![n2, n1, n3, n0]⟩)
    (c : Fin n2) (b : Fin n1) (d : Fin n3) (a : Fin n0) :
    transpose ⟨4, ![n2, n1, n3, n0]⟩ [2, 1, 3, 0] x h (ix4 c b d a) = x (ix4 a b c d) :=
  transpose_apply _ x h _ _ fun e => match e with | ⟨0, _⟩ => rfl | ⟨1, _⟩ => rfl | ⟨2, _⟩ => rfl | ⟨3, _⟩ => rfl

/-- A unit axis put before the last axis of a rank-3 array. -/
theorem shapeCast_abc_ab1c_apply {n0 n1 n2 : ℕ} (x : (⟨3, ![n0, n1, n2]⟩ : Shape).Idx → α)
    (h : (⟨3, ![n0, n1, n2]⟩ : Shape).ShapeCasts ⟨4, ![n0, n1, 1, n2]⟩) (a : Fin n0) (b : Fin n1) (u : Fin 1) (c : Fin n2) :
    shapeCast ⟨4, ![n0, n1, 1, n2]⟩ x h (ix4 a b u c) = x (ix3 a b c) :=
  shapeCast_apply x h _ _ (by
    have hu : u.val = 0 := by omega
    rw [Shape.rowMajor_val_three, Shape.rowMajor_val_four]
    show (a.val * n1 + b.val) * n2 + c.val = ((a.val * n1 + b.val) * 1 + u.val) * n2 + c.val
    rw [hu, Nat.mul_one, Nat.add_zero])

/-- A unit axis put after the last axis of a rank-3 array. -/
theorem shapeCast_abc_abc1_apply {n0 n1 n2 : ℕ} (x : (⟨3, ![n0, n1, n2]⟩ : Shape).Idx → α)
    (h : (⟨3, ![n0, n1, n2]⟩ : Shape).ShapeCasts ⟨4, ![n0, n1, n2, 1]⟩) (a : Fin n0) (b : Fin n1) (c : Fin n2) (u : Fin 1) :
    shapeCast ⟨4, ![n0, n1, n2, 1]⟩ x h (ix4 a b c u) = x (ix3 a b c) :=
  shapeCast_apply x h _ _ (by
    have hu : u.val = 0 := by omega
    rw [Shape.rowMajor_val_three, Shape.rowMajor_val_four]
    show (a.val * n1 + b.val) * n2 + c.val = ((a.val * n1 + b.val) * n2 + c.val) * 1 + u.val
    rw [hu, Nat.mul_one, Nat.add_zero])

/-- The last, unit, axis of a rank-4 array dropped. -/
theorem shapeCast_abc1_abc_apply {n0 n1 n2 : ℕ} (x : (⟨4, ![n0, n1, n2, 1]⟩ : Shape).Idx → α)
    (h : (⟨4, ![n0, n1, n2, 1]⟩ : Shape).ShapeCasts ⟨3, ![n0, n1, n2]⟩) (a : Fin n0) (b : Fin n1) (c : Fin n2) :
    shapeCast ⟨3, ![n0, n1, n2]⟩ x h (ix3 a b c) = x (ix4 a b c (0 : Fin 1)) :=
  shapeCast_apply x h _ _ (by
    rw [Shape.rowMajor_val_three, Shape.rowMajor_val_four]
    show ((a.val * n1 + b.val) * n2 + c.val) * 1 + 0 = (a.val * n1 + b.val) * n2 + c.val
    rw [Nat.mul_one, Nat.add_zero])

/-- The unit axis before the last axis of a rank-4 array dropped. -/
theorem shapeCast_ab1c_abc_apply {n0 n1 n2 : ℕ} (x : (⟨4, ![n0, n1, 1, n2]⟩ : Shape).Idx → α)
    (h : (⟨4, ![n0, n1, 1, n2]⟩ : Shape).ShapeCasts ⟨3, ![n0, n1, n2]⟩) (a : Fin n0) (b : Fin n1) (c : Fin n2) :
    shapeCast ⟨3, ![n0, n1, n2]⟩ x h (ix3 a b c) = x (ix4 a b (0 : Fin 1) c) :=
  shapeCast_apply x h _ _ (by
    rw [Shape.rowMajor_val_three, Shape.rowMajor_val_four]
    show ((a.val * n1 + b.val) * 1 + 0) * n2 + c.val = (a.val * n1 + b.val) * n2 + c.val
    rw [Nat.mul_one, Nat.add_zero])

/-- Two rank-3 arrays laid side by side along the middle axis. -/
theorem concat3_mid_apply {n0 a1 a2 n2 N : ℕ} (hN : N = a1 + a2) (x₁ : (⟨3, ![n0, a1, n2]⟩ : Shape).Idx → α)
    (x₂ : (⟨3, ![n0, a2, n2]⟩ : Shape).Idx → α)
    (h : Shape.Concatenates [(⟨3, ![n0, a1, n2]⟩ : Shape), ⟨3, ![n0, a2, n2]⟩] ⟨3, ![n0, N, n2]⟩ (1 : Fin 3))
    (b : Fin n0) (l : Fin N) (c : Fin n2) :
    concatenate ⟨3, ![n0, N, n2]⟩ (1 : Fin 3) [⟨⟨3, ![n0, a1, n2]⟩, x₁⟩, ⟨⟨3, ![n0, a2, n2]⟩, x₂⟩] h (ix3 b l c)
      = if hl : l.val < a1 then x₁ (ix3 b ⟨l.val, hl⟩ c) else x₂ (ix3 b ⟨l.val - a1, by have := l.isLt; omega⟩ c) := by
  by_cases hl : l.val < a1
  · rw [dif_pos hl]
    exact concatenate_pair_apply_left (1 : Fin 3) x₁ x₂ h (ix3 b l c) rfl (ix3 b ⟨l.val, hl⟩ c)
      fun d => match d with | ⟨0, _⟩ => rfl | ⟨1, _⟩ => rfl | ⟨2, _⟩ => rfl
  · rw [dif_neg hl]
    refine concatenate_pair_apply_right (1 : Fin 3) x₁ x₂ h (ix3 b l c) rfl rfl (ix3 b ⟨l.val - a1, by have := l.isLt; omega⟩ c)
      (fun d hd => match d, hd with | ⟨0, _⟩, _ => rfl | ⟨1, _⟩, hd => absurd rfl hd | ⟨2, _⟩, _ => rfl) ?_
    show l.val - a1 + a1 = l.val
    omega

end Layout

/-- An array read by natural numbers that are the values of bounded coordinates. -/
theorem ofArr3_of_val {n0 n1 n2 : ℕ} (a : (⟨3, ![n0, n1, n2]⟩ : Shape).Idx → EReal) (i : Fin n0) (j : Fin n1) (k : Fin n2)
    (i' j' k' : ℕ) (hi : i' = i.val) (hj : j' = j.val) (hk : k' = k.val) : ofArr3 a i' j' k' = a (ix3 i j k) := by
  subst hi hj hk; exact ofArr3_val a i j k

/-! ## Elementwise host operations read at an index -/

theorem hostDivf_apply {s : Shape} {φ : FTy} (x y : FVec Ideal s φ) (i : s.Idx) : Host.divf x y i = Ideal.div (x i) (y i) := rfl
theorem hostSqrt_apply {s : Shape} {φ : FTy} (x : FVec Ideal s φ) (i : s.Idx) : Host.sqrt x i = Ideal.sqrt (x i) := rfl
/-- The converted integer zero a zero padding fills with is the real zero. -/
theorem zero_fill (i : S_.Idx) : (sitofp (F := Ideal) .f32 (constantI S_ 32 0#32)) i = (0 : EReal) := by
  show (Scalar.sitofp .f32 0#32 : Ideal .f32) = 0
  exact sitofp_zero

variable (m : (ℓ : Loc nD τ sig) → Buf (Elt Ideal) ℓ) (ρ : Dev nD → PrngReg) (c : Dev nD)

/-! ## Buffers no operation of a stretch writes -/

/-- A buffer that no operation of a stretch of host operations writes is unchanged by the stretch. -/
local macro "host_step" : tactic => `(tactic|
  exact StableHlo.after_of_forall_not_mem _ _ (List.forall_iff_forall_mem.mp (by
    simp only [hostOps5, hostOps5_1, hostOps5_2, hostOps5_3, hostOps5_4, hostOps6, hostOps6_1, hostOps6_2, hostOps7, hostOps7_1,
      hostOps7_2, hostOps7_3, hostOps7_4, hostOps8, hostOps8_1, hostOps8_2, hostOps8_3, hostOps8_4, hostOps9, hostOps9_1,
      hostOps9_2, hostOps10, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W36_arg21 : W36 m ρ c (Proc.devRef .tc main_arg21) = m ((c : Thread nD τ).loc main_arg21) := by
  refine Eq.trans (Eq.symm ?_) (W53_main_arg21 m ρ c)
  calc W53 m ρ c (Proc.devRef .tc main_arg21)
    _ = W52 m ρ c (Proc.devRef .tc main_arg21) := by host_step
    _ = W51 m ρ c (Proc.devRef .tc main_arg21) := W52_of_ne m ρ c _ (by decide)
    _ = W50 m ρ c (Proc.devRef .tc main_arg21) := by host_step
    _ = W49 m ρ c (Proc.devRef .tc main_arg21) := by host_step
    _ = W48 m ρ c (Proc.devRef .tc main_arg21) := by host_step
    _ = W47 m ρ c (Proc.devRef .tc main_arg21) := W48_of_ne m ρ c _ (by decide)
    _ = W46 m ρ c (Proc.devRef .tc main_arg21) := by host_step
    _ = W45 m ρ c (Proc.devRef .tc main_arg21) := by host_step
    _ = W44 m ρ c (Proc.devRef .tc main_arg21) := by host_step
    _ = W43 m ρ c (Proc.devRef .tc main_arg21) := by host_step
    _ = W42 m ρ c (Proc.devRef .tc main_arg21) := by host_step
    _ = W41 m ρ c (Proc.devRef .tc main_arg21) := W42_of_ne m ρ c _ (by decide)
    _ = W40 m ρ c (Proc.devRef .tc main_arg21) := by host_step
    _ = W39 m ρ c (Proc.devRef .tc main_arg21) := by host_step
    _ = W38 m ρ c (Proc.devRef .tc main_arg21) := by host_step
    _ = W37 m ρ c (Proc.devRef .tc main_arg21) := by host_step
    _ = W36 m ρ c (Proc.devRef .tc main_arg21) := by host_step

theorem W36_arg22 : W36 m ρ c (Proc.devRef .tc main_arg22) = m ((c : Thread nD τ).loc main_arg22) := by
  refine Eq.trans (Eq.symm ?_) (W53_main_arg22 m ρ c)
  calc W53 m ρ c (Proc.devRef .tc main_arg22)
    _ = W52 m ρ c (Proc.devRef .tc main_arg22) := by host_step
    _ = W51 m ρ c (Proc.devRef .tc main_arg22) := W52_of_ne m ρ c _ (by decide)
    _ = W50 m ρ c (Proc.devRef .tc main_arg22) := by host_step
    _ = W49 m ρ c (Proc.devRef .tc main_arg22) := by host_step
    _ = W48 m ρ c (Proc.devRef .tc main_arg22) := by host_step
    _ = W47 m ρ c (Proc.devRef .tc main_arg22) := W48_of_ne m ρ c _ (by decide)
    _ = W46 m ρ c (Proc.devRef .tc main_arg22) := by host_step
    _ = W45 m ρ c (Proc.devRef .tc main_arg22) := by host_step
    _ = W44 m ρ c (Proc.devRef .tc main_arg22) := by host_step
    _ = W43 m ρ c (Proc.devRef .tc main_arg22) := by host_step
    _ = W42 m ρ c (Proc.devRef .tc main_arg22) := by host_step
    _ = W41 m ρ c (Proc.devRef .tc main_arg22) := W42_of_ne m ρ c _ (by decide)
    _ = W40 m ρ c (Proc.devRef .tc main_arg22) := by host_step
    _ = W39 m ρ c (Proc.devRef .tc main_arg22) := by host_step
    _ = W38 m ρ c (Proc.devRef .tc main_arg22) := by host_step
    _ = W37 m ρ c (Proc.devRef .tc main_arg22) := by host_step
    _ = W36 m ρ c (Proc.devRef .tc main_arg22) := by host_step

theorem W36_arg23 : W36 m ρ c (Proc.devRef .tc main_arg23) = m ((c : Thread nD τ).loc main_arg23) := by
  refine Eq.trans (Eq.symm ?_) (W53_main_arg23 m ρ c)
  calc W53 m ρ c (Proc.devRef .tc main_arg23)
    _ = W52 m ρ c (Proc.devRef .tc main_arg23) := by host_step
    _ = W51 m ρ c (Proc.devRef .tc main_arg23) := W52_of_ne m ρ c _ (by decide)
    _ = W50 m ρ c (Proc.devRef .tc main_arg23) := by host_step
    _ = W49 m ρ c (Proc.devRef .tc main_arg23) := by host_step
    _ = W48 m ρ c (Proc.devRef .tc main_arg23) := by host_step
    _ = W47 m ρ c (Proc.devRef .tc main_arg23) := W48_of_ne m ρ c _ (by decide)
    _ = W46 m ρ c (Proc.devRef .tc main_arg23) := by host_step
    _ = W45 m ρ c (Proc.devRef .tc main_arg23) := by host_step
    _ = W44 m ρ c (Proc.devRef .tc main_arg23) := by host_step
    _ = W43 m ρ c (Proc.devRef .tc main_arg23) := by host_step
    _ = W42 m ρ c (Proc.devRef .tc main_arg23) := by host_step
    _ = W41 m ρ c (Proc.devRef .tc main_arg23) := W42_of_ne m ρ c _ (by decide)
    _ = W40 m ρ c (Proc.devRef .tc main_arg23) := by host_step
    _ = W39 m ρ c (Proc.devRef .tc main_arg23) := by host_step
    _ = W38 m ρ c (Proc.devRef .tc main_arg23) := by host_step
    _ = W37 m ρ c (Proc.devRef .tc main_arg23) := by host_step
    _ = W36 m ρ c (Proc.devRef .tc main_arg23) := by host_step

theorem W36_arg24 : W36 m ρ c (Proc.devRef .tc main_arg24) = m ((c : Thread nD τ).loc main_arg24) := by
  refine Eq.trans (Eq.symm ?_) (W53_main_arg24 m ρ c)
  calc W53 m ρ c (Proc.devRef .tc main_arg24)
    _ = W52 m ρ c (Proc.devRef .tc main_arg24) := by host_step
    _ = W51 m ρ c (Proc.devRef .tc main_arg24) := W52_of_ne m ρ c _ (by decide)
    _ = W50 m ρ c (Proc.devRef .tc main_arg24) := by host_step
    _ = W49 m ρ c (Proc.devRef .tc main_arg24) := by host_step
    _ = W48 m ρ c (Proc.devRef .tc main_arg24) := by host_step
    _ = W47 m ρ c (Proc.devRef .tc main_arg24) := W48_of_ne m ρ c _ (by decide)
    _ = W46 m ρ c (Proc.devRef .tc main_arg24) := by host_step
    _ = W45 m ρ c (Proc.devRef .tc main_arg24) := by host_step
    _ = W44 m ρ c (Proc.devRef .tc main_arg24) := by host_step
    _ = W43 m ρ c (Proc.devRef .tc main_arg24) := by host_step
    _ = W42 m ρ c (Proc.devRef .tc main_arg24) := by host_step
    _ = W41 m ρ c (Proc.devRef .tc main_arg24) := W42_of_ne m ρ c _ (by decide)
    _ = W40 m ρ c (Proc.devRef .tc main_arg24) := by host_step
    _ = W39 m ρ c (Proc.devRef .tc main_arg24) := by host_step
    _ = W38 m ρ c (Proc.devRef .tc main_arg24) := by host_step
    _ = W37 m ρ c (Proc.devRef .tc main_arg24) := by host_step
    _ = W36 m ρ c (Proc.devRef .tc main_arg24) := by host_step

theorem W36_arg25 : W36 m ρ c (Proc.devRef .tc main_arg25) = m ((c : Thread nD τ).loc main_arg25) := by
  refine Eq.trans (Eq.symm ?_) (W53_main_arg25 m ρ c)
  calc W53 m ρ c (Proc.devRef .tc main_arg25)
    _ = W52 m ρ c (Proc.devRef .tc main_arg25) := by host_step
    _ = W51 m ρ c (Proc.devRef .tc main_arg25) := W52_of_ne m ρ c _ (by decide)
    _ = W50 m ρ c (Proc.devRef .tc main_arg25) := by host_step
    _ = W49 m ρ c (Proc.devRef .tc main_arg25) := by host_step
    _ = W48 m ρ c (Proc.devRef .tc main_arg25) := by host_step
    _ = W47 m ρ c (Proc.devRef .tc main_arg25) := W48_of_ne m ρ c _ (by decide)
    _ = W46 m ρ c (Proc.devRef .tc main_arg25) := by host_step
    _ = W45 m ρ c (Proc.devRef .tc main_arg25) := by host_step
    _ = W44 m ρ c (Proc.devRef .tc main_arg25) := by host_step
    _ = W43 m ρ c (Proc.devRef .tc main_arg25) := by host_step
    _ = W42 m ρ c (Proc.devRef .tc main_arg25) := by host_step
    _ = W41 m ρ c (Proc.devRef .tc main_arg25) := W42_of_ne m ρ c _ (by decide)
    _ = W40 m ρ c (Proc.devRef .tc main_arg25) := by host_step
    _ = W39 m ρ c (Proc.devRef .tc main_arg25) := by host_step
    _ = W38 m ρ c (Proc.devRef .tc main_arg25) := by host_step
    _ = W37 m ρ c (Proc.devRef .tc main_arg25) := by host_step
    _ = W36 m ρ c (Proc.devRef .tc main_arg25) := by host_step

theorem W42_arg26 : W42 m ρ c (Proc.devRef .tc main_arg26) = m ((c : Thread nD τ).loc main_arg26) := by
  refine Eq.trans (Eq.symm ?_) (W53_main_arg26 m ρ c)
  calc W53 m ρ c (Proc.devRef .tc main_arg26)
    _ = W52 m ρ c (Proc.devRef .tc main_arg26) := by host_step
    _ = W51 m ρ c (Proc.devRef .tc main_arg26) := W52_of_ne m ρ c _ (by decide)
    _ = W50 m ρ c (Proc.devRef .tc main_arg26) := by host_step
    _ = W49 m ρ c (Proc.devRef .tc main_arg26) := by host_step
    _ = W48 m ρ c (Proc.devRef .tc main_arg26) := by host_step
    _ = W47 m ρ c (Proc.devRef .tc main_arg26) := W48_of_ne m ρ c _ (by decide)
    _ = W46 m ρ c (Proc.devRef .tc main_arg26) := by host_step
    _ = W45 m ρ c (Proc.devRef .tc main_arg26) := by host_step
    _ = W44 m ρ c (Proc.devRef .tc main_arg26) := by host_step
    _ = W43 m ρ c (Proc.devRef .tc main_arg26) := by host_step
    _ = W42 m ρ c (Proc.devRef .tc main_arg26) := by host_step

theorem W42_arg27 : W42 m ρ c (Proc.devRef .tc main_arg27) = m ((c : Thread nD τ).loc main_arg27) := by
  refine Eq.trans (Eq.symm ?_) (W53_main_arg27 m ρ c)
  calc W53 m ρ c (Proc.devRef .tc main_arg27)
    _ = W52 m ρ c (Proc.devRef .tc main_arg27) := by host_step
    _ = W51 m ρ c (Proc.devRef .tc main_arg27) := W52_of_ne m ρ c _ (by decide)
    _ = W50 m ρ c (Proc.devRef .tc main_arg27) := by host_step
    _ = W49 m ρ c (Proc.devRef .tc main_arg27) := by host_step
    _ = W48 m ρ c (Proc.devRef .tc main_arg27) := by host_step
    _ = W47 m ρ c (Proc.devRef .tc main_arg27) := W48_of_ne m ρ c _ (by decide)
    _ = W46 m ρ c (Proc.devRef .tc main_arg27) := by host_step
    _ = W45 m ρ c (Proc.devRef .tc main_arg27) := by host_step
    _ = W44 m ρ c (Proc.devRef .tc main_arg27) := by host_step
    _ = W43 m ρ c (Proc.devRef .tc main_arg27) := by host_step
    _ = W42 m ρ c (Proc.devRef .tc main_arg27) := by host_step

theorem W42_arg28 : W42 m ρ c (Proc.devRef .tc main_arg28) = m ((c : Thread nD τ).loc main_arg28) := by
  refine Eq.trans (Eq.symm ?_) (W53_main_arg28 m ρ c)
  calc W53 m ρ c (Proc.devRef .tc main_arg28)
    _ = W52 m ρ c (Proc.devRef .tc main_arg28) := by host_step
    _ = W51 m ρ c (Proc.devRef .tc main_arg28) := W52_of_ne m ρ c _ (by decide)
    _ = W50 m ρ c (Proc.devRef .tc main_arg28) := by host_step
    _ = W49 m ρ c (Proc.devRef .tc main_arg28) := by host_step
    _ = W48 m ρ c (Proc.devRef .tc main_arg28) := by host_step
    _ = W47 m ρ c (Proc.devRef .tc main_arg28) := W48_of_ne m ρ c _ (by decide)
    _ = W46 m ρ c (Proc.devRef .tc main_arg28) := by host_step
    _ = W45 m ρ c (Proc.devRef .tc main_arg28) := by host_step
    _ = W44 m ρ c (Proc.devRef .tc main_arg28) := by host_step
    _ = W43 m ρ c (Proc.devRef .tc main_arg28) := by host_step
    _ = W42 m ρ c (Proc.devRef .tc main_arg28) := by host_step

theorem W42_arg29 : W42 m ρ c (Proc.devRef .tc main_arg29) = m ((c : Thread nD τ).loc main_arg29) := by
  refine Eq.trans (Eq.symm ?_) (W53_main_arg29 m ρ c)
  calc W53 m ρ c (Proc.devRef .tc main_arg29)
    _ = W52 m ρ c (Proc.devRef .tc main_arg29) := by host_step
    _ = W51 m ρ c (Proc.devRef .tc main_arg29) := W52_of_ne m ρ c _ (by decide)
    _ = W50 m ρ c (Proc.devRef .tc main_arg29) := by host_step
    _ = W49 m ρ c (Proc.devRef .tc main_arg29) := by host_step
    _ = W48 m ρ c (Proc.devRef .tc main_arg29) := by host_step
    _ = W47 m ρ c (Proc.devRef .tc main_arg29) := W48_of_ne m ρ c _ (by decide)
    _ = W46 m ρ c (Proc.devRef .tc main_arg29) := by host_step
    _ = W45 m ρ c (Proc.devRef .tc main_arg29) := by host_step
    _ = W44 m ρ c (Proc.devRef .tc main_arg29) := by host_step
    _ = W43 m ρ c (Proc.devRef .tc main_arg29) := by host_step
    _ = W42 m ρ c (Proc.devRef .tc main_arg29) := by host_step

theorem W42_arg30 : W42 m ρ c (Proc.devRef .tc main_arg30) = m ((c : Thread nD τ).loc main_arg30) := by
  refine Eq.trans (Eq.symm ?_) (W53_main_arg30 m ρ c)
  calc W53 m ρ c (Proc.devRef .tc main_arg30)
    _ = W52 m ρ c (Proc.devRef .tc main_arg30) := by host_step
    _ = W51 m ρ c (Proc.devRef .tc main_arg30) := W52_of_ne m ρ c _ (by decide)
    _ = W50 m ρ c (Proc.devRef .tc main_arg30) := by host_step
    _ = W49 m ρ c (Proc.devRef .tc main_arg30) := by host_step
    _ = W48 m ρ c (Proc.devRef .tc main_arg30) := by host_step
    _ = W47 m ρ c (Proc.devRef .tc main_arg30) := W48_of_ne m ρ c _ (by decide)
    _ = W46 m ρ c (Proc.devRef .tc main_arg30) := by host_step
    _ = W45 m ρ c (Proc.devRef .tc main_arg30) := by host_step
    _ = W44 m ρ c (Proc.devRef .tc main_arg30) := by host_step
    _ = W43 m ρ c (Proc.devRef .tc main_arg30) := by host_step
    _ = W42 m ρ c (Proc.devRef .tc main_arg30) := by host_step

/-! ## Region 6: the second branch's first max pooling -/

/-- The pooling's input array: the previous layer's output padded with the most negative finite number (2 in front, 1
    behind), its 64 positions split as 32 pairs, the pair axis moved in front. -/
theorem v79_eq : (W35 m ρ c (Proc.devRef .tc main_v79) : S2048x2x32x64.Idx → EReal)
    = transpose S2048x2x32x64 [0, 2, 1, 3]
        (shapeCast S2048x32x2x64
          (pad S2048x64x64 ![0, 2, 0] ![0, 1, 0] ![0, 0, 0] (W32 m ρ c (Proc.devRef .tc main_v76) : S2048x61x64.Idx → EReal)
            (constant (F := Ideal) S_ .f32 0xFF7FFFFF#32) pads_S2048x61x64_S2048x64x64_000_210_000 h_S_)
          shapeCasts_S2048x64x64_S2048x32x2x64)
        transposes_S2048x32x2x64_S2048x2x32x64_0_2_1_3 := by
  show StableHlo.after hostOps6_2 (StableHlo.after hostOps6_1 (StableHlo.after hostOps6 (W32 m ρ c))) (Proc.devRef .tc main_v79) = _
  after_results
  rfl

theorem in6_0 (b : Fin 2048) (ph : Fin 2) (u : Fin 32) (ch : Fin 64) :
    (W35 m ρ c (Proc.devRef .tc main_v79) : S2048x2x32x64.Idx → EReal) (ix4 b ph u ch)
      = npad 2 61 (fun j => ofArr3 (W32 m ρ c (Proc.devRef .tc main_v76) : S2048x61x64.Idx → EReal) b.val j ch.val) (2 * u.val + ph.val) := by
  rw [v79_eq, transpose4_0213_apply, shapeCast_splitMid_apply (U := 32) (s := 2) rfl, pad3_mid_apply]
  unfold npad
  have e : u.val * 2 + ph.val = 2 * u.val + ph.val := by omega
  by_cases hj : 2 ≤ 2 * u.val + ph.val ∧ 2 * u.val + ph.val < 2 + 61
  · rw [dif_pos (by simpa only [e] using hj), if_pos hj]
    exact (ofArr3_of_val _ b ⟨_, _⟩ ch _ _ _ rfl (by simp only [e]) rfl).symm
  · rw [dif_neg (by simpa only [e] using hj), if_neg hj]
    rfl

/-! ## Region 7: the second branch's second convolution -/

/-- The convolution's input array: the pooled signal padded with 3 zeros on each side (the two reshapes and the
    transpose between them move a unit axis and change nothing). -/
theorem v84_eq : (W41 m ρ c (Proc.devRef .tc main_v84) : S2048x37x64.Idx → EReal)
    = shapeCast S2048x37x64
        (transpose S2048x37x64x1 [0, 1, 3, 2]
          (shapeCast S2048x37x1x64
            (pad S2048x37x64 ![0, 3, 0] ![0, 3, 0] ![0, 0, 0] (W36 m ρ c (Proc.devRef .tc main_v80) : S2048x31x64.Idx → EReal)
              (sitofp (F := Ideal) .f32 (constantI S_ 32 0#32)) pads_S2048x31x64_S2048x37x64_000_330_000 h_S_)
            shapeCasts_S2048x37x64_S2048x37x1x64)
          transposes_S2048x37x1x64_S2048x37x64x1_0_1_3_2)
        shapeCasts_S2048x37x64x1_S2048x37x64 := by
  show StableHlo.after hostOps7_4 (StableHlo.after hostOps7_3 (StableHlo.after hostOps7_2 (StableHlo.after hostOps7_1 (StableHlo.after hostOps7 (W36 m ρ c))))) (Proc.devRef .tc main_v84) = _
  after_results
  rfl

/-- The convolution's weights, tap-major: entry `(k, ci, co)` is the weight array's `(co, ci, k)`. -/
theorem v88_eq : (W41 m ρ c (Proc.devRef .tc main_v88) : S7x64x128.Idx → EReal)
    = shapeCast S7x64x128
        (transpose S7x64x1x128 [2, 1, 3, 0]
          (shapeCast S128x64x7x1
            (pad S128x64x7 ![0, 0, 0] ![0, 0, 0] ![0, 0, 0] (W36 m ρ c (Proc.devRef .tc main_arg21) : S128x64x7.Idx → EReal)
              (sitofp (F := Ideal) .f32 (constantI S_ 32 0#32)) pads_S128x64x7_S128x64x7_000_000_000 h_S_)
            shapeCasts_S128x64x7_S128x64x7x1)
          transposes_S128x64x7x1_S7x64x1x128_2_1_3_0)
        shapeCasts_S7x64x1x128_S7x64x128 := by
  show StableHlo.after hostOps7_4 (StableHlo.after hostOps7_3 (StableHlo.after hostOps7_2 (StableHlo.after hostOps7_1 (StableHlo.after hostOps7 (W36 m ρ c))))) (Proc.devRef .tc main_v88) = _
  after_results
  rfl

/-- The batch normalisation's scale as the host computes it. -/
theorem v93_eq : (W41 m ρ c (Proc.devRef .tc main_v93) : S1x128.Idx → EReal)
    = shapeCast S1x128
        (Host.divf (W36 m ρ c (Proc.devRef .tc main_arg22) : S128.Idx → EReal)
          (Host.sqrt (addf (W36 m ρ c (Proc.devRef .tc main_arg25) : S128.Idx → EReal)
            (broadcastInDim S128 ![] bcast_S_S128 (constant (F := Ideal) S_ .f32 0x3727C5AC#32)))))
        shapeCasts_S128_S1x128 := by
  show StableHlo.after hostOps7_4 (StableHlo.after hostOps7_3 (StableHlo.after hostOps7_2 (StableHlo.after hostOps7_1 (StableHlo.after hostOps7 (W36 m ρ c))))) (Proc.devRef .tc main_v93) = _
  after_results
  rfl

/-- The batch normalisation's shift as the host computes it. -/
theorem v96_eq : (W41 m ρ c (Proc.devRef .tc main_v96) : S1x128.Idx → EReal)
    = shapeCast S1x128
        (subf (W36 m ρ c (Proc.devRef .tc main_arg23) : S128.Idx → EReal)
          (mulf (W36 m ρ c (Proc.devRef .tc main_arg24) : S128.Idx → EReal)
            (Host.divf (W36 m ρ c (Proc.devRef .tc main_arg22) : S128.Idx → EReal)
              (Host.sqrt (addf (W36 m ρ c (Proc.devRef .tc main_arg25) : S128.Idx → EReal)
                (broadcastInDim S128 ![] bcast_S_S128 (constant (F := Ideal) S_ .f32 0x3727C5AC#32)))))))
        shapeCasts_S128_S1x128 := by
  show StableHlo.after hostOps7_4 (StableHlo.after hostOps7_3 (StableHlo.after hostOps7_2 (StableHlo.after hostOps7_1 (StableHlo.after hostOps7 (W36 m ρ c))))) (Proc.devRef .tc main_v96) = _
  after_results_simp
  rfl

theorem in7_0 (b : Fin 2048) (j : Fin 37) (ci : Fin 64) :
    (W41 m ρ c (Proc.devRef .tc main_v84) : S2048x37x64.Idx → EReal) (ix3 b j ci)
      = zpad 3 31 (fun l => ofArr3 (W36 m ρ c (Proc.devRef .tc main_v80) : S2048x31x64.Idx → EReal) b.val l ci.val) j.val := by
  rw [v84_eq, shapeCast_abc1_abc_apply, transpose4_0132_apply, shapeCast_abc_ab1c_apply, pad3_mid_apply]
  unfold zpad
  by_cases hj : 3 ≤ j.val ∧ j.val < 3 + 31
  · rw [dif_pos hj, if_pos hj]
    exact (ofArr3_of_val _ b ⟨_, _⟩ ci _ _ _ rfl rfl rfl).symm
  · rw [dif_neg hj, if_neg hj]
    exact zero_fill _

theorem in7_1 (k : Fin 7) (ci : Fin 64) (co : Fin 128) :
    (W41 m ρ c (Proc.devRef .tc main_v88) : S7x64x128.Idx → EReal) (ix3 k ci co) = (PR m c).w5 co.val ci.val k.val := by
  rw [v88_eq, shapeCast_ab1c_abc_apply, transpose4_2130_apply, shapeCast_abc_abc1_apply, pad3_none_apply, W36_arg21]
  exact (ofArr3_val _ co ci k).symm

theorem in7_2 (co : Fin 128) :
    (W41 m ρ c (Proc.devRef .tc main_v93) : S1x128.Idx → EReal) (ix2 0 co) = s5 (PR m c) co.val := by
  rw [v93_eq, shapeCast_a_1a_apply, hostDivf_apply, hostSqrt_apply, addf_apply, W36_arg22, W36_arg25]
  show _ = Ideal.div (ofArr1 _ co.val) (Ideal.sqrt (ofArr1 _ co.val + eps))
  rw [ofArr1_val, ofArr1_val]
  rfl

theorem in7_3 (co : Fin 128) :
    (W41 m ρ c (Proc.devRef .tc main_v96) : S1x128.Idx → EReal) (ix2 0 co) = t5 (PR m c) co.val := by
  rw [v96_eq, shapeCast_a_1a_apply, subf_apply, mulf_apply, hostDivf_apply, hostSqrt_apply, addf_apply, W36_arg22, W36_arg23,
    W36_arg24, W36_arg25]
  show _ = ofArr1 _ co.val - ofArr1 _ co.val * Ideal.div (ofArr1 _ co.val) (Ideal.sqrt (ofArr1 _ co.val + eps))
  rw [ofArr1_val, ofArr1_val, ofArr1_val, ofArr1_val]
  rfl

/-! ## Region 8: the second branch's third convolution -/

/-- The convolution's input array: the previous layer's output padded with 3 zeros on each side. -/
theorem v101_eq : (W47 m ρ c (Proc.devRef .tc main_v101) : S2048x37x128.Idx → EReal)
    = shapeCast S2048x37x128
        (transpose S2048x37x128x1 [0, 1, 3, 2]
          (shapeCast S2048x37x1x128
            (pad S2048x37x128 ![0, 3, 0] ![0, 3, 0] ![0, 0, 0] (W42 m ρ c (Proc.devRef .tc main_v97) : S2048x31x128.Idx → EReal)
              (sitofp (F := Ideal) .f32 (constantI S_ 32 0#32)) pads_S2048x31x128_S2048x37x128_000_330_000 h_S_)
            shapeCasts_S2048x37x128_S2048x37x1x128)
          transposes_S2048x37x1x128_S2048x37x128x1_0_1_3_2)
        shapeCasts_S2048x37x128x1_S2048x37x128 := by
  show StableHlo.after hostOps8_4 (StableHlo.after hostOps8_3 (StableHlo.after hostOps8_2 (StableHlo.after hostOps8_1 (StableHlo.after hostOps8 (W42 m ρ c))))) (Proc.devRef .tc main_v101) = _
  after_results
  rfl

/-- The convolution's weights, tap-major: entry `(k, ci, co)` is the weight array's `(co, ci, k)`. -/
theorem v105_eq : (W47 m ρ c (Proc.devRef .tc main_v105) : S7x128x128.Idx → EReal)
    = shapeCast S7x128x128
        (transpose S7x128x1x128 [2, 1, 3, 0]
          (shapeCast S128x128x7x1
            (pad S128x128x7 ![0, 0, 0] ![0, 0, 0] ![0, 0, 0] (W42 m ρ c (Proc.devRef .tc main_arg26) : S128x128x7.Idx → EReal)
              (sitofp (F := Ideal) .f32 (constantI S_ 32 0#32)) pads_S128x128x7_S128x128x7_000_000_000 h_S_)
            shapeCasts_S128x128x7_S128x128x7x1)
          transposes_S128x128x7x1_S7x128x1x128_2_1_3_0)
        shapeCasts_S7x128x1x128_S7x128x128 := by
  show StableHlo.after hostOps8_4 (StableHlo.after hostOps8_3 (StableHlo.after hostOps8_2 (StableHlo.after hostOps8_1 (StableHlo.after hostOps8 (W42 m ρ c))))) (Proc.devRef .tc main_v105) = _
  after_results
  rfl

/-- The batch normalisation's scale as the host computes it. -/
theorem v110_eq : (W47 m ρ c (Proc.devRef .tc main_v110) : S1x128.Idx → EReal)
    = shapeCast S1x128
        (Host.divf (W42 m ρ c (Proc.devRef .tc main_arg27) : S128.Idx → EReal)
          (Host.sqrt (addf (W42 m ρ c (Proc.devRef .tc main_arg30) : S128.Idx → EReal)
            (broadcastInDim S128 ![] bcast_S_S128 (constant (F := Ideal) S_ .f32 0x3727C5AC#32)))))
        shapeCasts_S128_S1x128 := by
  show StableHlo.after hostOps8_4 (StableHlo.after hostOps8_3 (StableHlo.after hostOps8_2 (StableHlo.after hostOps8_1 (StableHlo.after hostOps8 (W42 m ρ c))))) (Proc.devRef .tc main_v110) = _
  after_results
  rfl

/-- The batch normalisation's shift as the host computes it. -/
theorem v113_eq : (W47 m ρ c (Proc.devRef .tc main_v113) : S1x128.Idx → EReal)
    = shapeCast S1x128
        (subf (W42 m ρ c (Proc.devRef .tc main_arg28) : S128.Idx → EReal)
          (mulf (W42 m ρ c (Proc.devRef .tc main_arg29) : S128.Idx → EReal)
            (Host.divf (W42 m ρ c (Proc.devRef .tc main_arg27) : S128.Idx → EReal)
              (Host.sqrt (addf (W42 m ρ c (Proc.devRef .tc main_arg30) : S128.Idx → EReal)
                (broadcastInDim S128 ![] bcast_S_S128 (constant (F := Ideal) S_ .f32 0x3727C5AC#32)))))))
        shapeCasts_S128_S1x128 := by
  show StableHlo.after hostOps8_4 (StableHlo.after hostOps8_3 (StableHlo.after hostOps8_2 (StableHlo.after hostOps8_1 (StableHlo.after hostOps8 (W42 m ρ c))))) (Proc.devRef .tc main_v113) = _
  after_results_simp
  rfl

theorem in8_0 (b : Fin 2048) (j : Fin 37) (ci : Fin 128) :
    (W47 m ρ c (Proc.devRef .tc main_v101) : S2048x37x128.Idx → EReal) (ix3 b j ci)
      = zpad 3 31 (fun l => ofArr3 (W42 m ρ c (Proc.devRef .tc main_v97) : S2048x31x128.Idx → EReal) b.val l ci.val) j.val := by
  rw [v101_eq, shapeCast_abc1_abc_apply, transpose4_0132_apply, shapeCast_abc_ab1c_apply, pad3_mid_apply]
  unfold zpad
  by_cases hj : 3 ≤ j.val ∧ j.val < 3 + 31
  · rw [dif_pos hj, if_pos hj]
    exact (ofArr3_of_val _ b ⟨_, _⟩ ci _ _ _ rfl rfl rfl).symm
  · rw [dif_neg hj, if_neg hj]
    exact zero_fill _

theorem in8_1 (k : Fin 7) (ci : Fin 128) (co : Fin 128) :
    (W47 m ρ c (Proc.devRef .tc main_v105) : S7x128x128.Idx → EReal) (ix3 k ci co) = (PR m c).w6 co.val ci.val k.val := by
  rw [v105_eq, shapeCast_ab1c_abc_apply, transpose4_2130_apply, shapeCast_abc_abc1_apply, pad3_none_apply, W42_arg26]
  exact (ofArr3_val _ co ci k).symm

theorem in8_2 (co : Fin 128) :
    (W47 m ρ c (Proc.devRef .tc main_v110) : S1x128.Idx → EReal) (ix2 0 co) = s6 (PR m c) co.val := by
  rw [v110_eq, shapeCast_a_1a_apply, hostDivf_apply, hostSqrt_apply, addf_apply, W42_arg27, W42_arg30]
  show _ = Ideal.div (ofArr1 _ co.val) (Ideal.sqrt (ofArr1 _ co.val + eps))
  rw [ofArr1_val, ofArr1_val]
  rfl

theorem in8_3 (co : Fin 128) :
    (W47 m ρ c (Proc.devRef .tc main_v113) : S1x128.Idx → EReal) (ix2 0 co) = t6 (PR m c) co.val := by
  rw [v113_eq, shapeCast_a_1a_apply, subf_apply, mulf_apply, hostDivf_apply, hostSqrt_apply, addf_apply, W42_arg27, W42_arg28,
    W42_arg29, W42_arg30]
  show _ = ofArr1 _ co.val - ofArr1 _ co.val * Ideal.div (ofArr1 _ co.val) (Ideal.sqrt (ofArr1 _ co.val + eps))
  rw [ofArr1_val, ofArr1_val, ofArr1_val, ofArr1_val]
  rfl

/-! ## Region 9: the second branch's last max pooling -/

/-- The pooling's input array: the previous layer's output padded with one most negative finite number in front, its 32
    positions split as 16 pairs, the pair axis moved in front. -/
theorem v117_eq : (W51 m ρ c (Proc.devRef .tc main_v117) : S2048x2x16x128.Idx → EReal)
    = transpose S2048x2x16x128 [0, 2, 1, 3]
        (shapeCast S2048x16x2x128
          (pad S2048x32x128 ![0, 1, 0] ![0, 0, 0] ![0, 0, 0] (W48 m ρ c (Proc.devRef .tc main_v114) : S2048x31x128.Idx → EReal)
            (constant (F := Ideal) S_ .f32 0xFF7FFFFF#32) pads_S2048x31x128_S2048x32x128_000_100_000 h_S_)
          shapeCasts_S2048x32x128_S2048x16x2x128)
        transposes_S2048x16x2x128_S2048x2x16x128_0_2_1_3 := by
  show StableHlo.after hostOps9_2 (StableHlo.after hostOps9_1 (StableHlo.after hostOps9 (W48 m ρ c))) (Proc.devRef .tc main_v117) = _
  after_results
  rfl

theorem in9_0 (b : Fin 2048) (ph : Fin 2) (u : Fin 16) (ch : Fin 128) :
    (W51 m ρ c (Proc.devRef .tc main_v117) : S2048x2x16x128.Idx → EReal) (ix4 b ph u ch)
      = npad 1 31 (fun j => ofArr3 (W48 m ρ c (Proc.devRef .tc main_v114) : S2048x31x128.Idx → EReal) b.val j ch.val) (2 * u.val + ph.val) := by
  rw [v117_eq, transpose4_0213_apply, shapeCast_splitMid_apply (U := 16) (s := 2) rfl, pad3_mid_apply]
  unfold npad
  have e : u.val * 2 + ph.val = 2 * u.val + ph.val := by omega
  by_cases hj : 1 ≤ 2 * u.val + ph.val ∧ 2 * u.val + ph.val < 1 + 31
  · rw [dif_pos (by simpa only [e] using hj), if_pos hj]
    exact (ofArr3_of_val _ b ⟨_, _⟩ ch _ _ _ rfl (by simp only [e]) rfl).symm
  · rw [dif_neg (by simpa only [e] using hj), if_neg hj]
    rfl

/-! ## The result: the two branches side by side along time, read channel-major -/

/-- The first branch's output, written when region 4 is left, is not written again. -/
theorem W52_v59 : W52 m ρ c (Proc.devRef .tc main_v59) = W26 m ρ c (Proc.devRef .tc main_v59) :=
  calc W52 m ρ c (Proc.devRef .tc main_v59)
    _ = W51 m ρ c (Proc.devRef .tc main_v59) := W52_of_ne m ρ c _ (by decide)
    _ = W50 m ρ c (Proc.devRef .tc main_v59) := by host_step
    _ = W49 m ρ c (Proc.devRef .tc main_v59) := by host_step
    _ = W48 m ρ c (Proc.devRef .tc main_v59) := by host_step
    _ = W47 m ρ c (Proc.devRef .tc main_v59) := W48_of_ne m ρ c _ (by decide)
    _ = W46 m ρ c (Proc.devRef .tc main_v59) := by host_step
    _ = W45 m ρ c (Proc.devRef .tc main_v59) := by host_step
    _ = W44 m ρ c (Proc.devRef .tc main_v59) := by host_step
    _ = W43 m ρ c (Proc.devRef .tc main_v59) := by host_step
    _ = W42 m ρ c (Proc.devRef .tc main_v59) := by host_step
    _ = W41 m ρ c (Proc.devRef .tc main_v59) := W42_of_ne m ρ c _ (by decide)
    _ = W40 m ρ c (Proc.devRef .tc main_v59) := by host_step
    _ = W39 m ρ c (Proc.devRef .tc main_v59) := by host_step
    _ = W38 m ρ c (Proc.devRef .tc main_v59) := by host_step
    _ = W37 m ρ c (Proc.devRef .tc main_v59) := by host_step
    _ = W36 m ρ c (Proc.devRef .tc main_v59) := by host_step
    _ = W35 m ρ c (Proc.devRef .tc main_v59) := W36_of_ne m ρ c _ (by decide)
    _ = W34 m ρ c (Proc.devRef .tc main_v59) := by host_step
    _ = W33 m ρ c (Proc.devRef .tc main_v59) := by host_step
    _ = W32 m ρ c (Proc.devRef .tc main_v59) := by host_step
    _ = W31 m ρ c (Proc.devRef .tc main_v59) := W32_of_ne m ρ c _ (by decide)
    _ = W30 m ρ c (Proc.devRef .tc main_v59) := by host_step
    _ = W29 m ρ c (Proc.devRef .tc main_v59) := by host_step
    _ = W28 m ρ c (Proc.devRef .tc main_v59) := by host_step
    _ = W27 m ρ c (Proc.devRef .tc main_v59) := by host_step
    _ = W26 m ρ c (Proc.devRef .tc main_v59) := by host_step

theorem v120_eq : (W53 m ρ c (Proc.devRef .tc main_v120) : S2048x128x80.Idx → EReal)
    = transpose S2048x128x80 [0, 2, 1]
        (concatenate S2048x80x128 1
          [⟨S2048x64x128, (W52 m ρ c (Proc.devRef .tc main_v59) : S2048x64x128.Idx → EReal)⟩,
           ⟨S2048x16x128, (W52 m ρ c (Proc.devRef .tc main_v118) : S2048x16x128.Idx → EReal)⟩]
          concatenates_S2048x64x128_S2048x16x128_S2048x80x128_d1)
        transposes_S2048x80x128_S2048x128x80_0_2_1 := by
  show StableHlo.after hostOps10 (W52 m ρ c) (Proc.devRef .tc main_v120) = _
  after_results

theorem result_at (b : Fin 2048) (ch : Fin 128) (l : Fin 80) :
    (W53 m ρ c (Proc.devRef .tc main_v120) : S2048x128x80.Idx → EReal) (ix3 b ch l)
      = if l.val < 64 then ofArr3 (W26 m ρ c (Proc.devRef .tc main_v59) : S2048x64x128.Idx → EReal) b.val l.val ch.val
        else ofArr3 (W52 m ρ c (Proc.devRef .tc main_v118) : S2048x16x128.Idx → EReal) b.val (l.val - 64) ch.val := by
  rw [v120_eq, transpose_ix3_021_apply, concat3_mid_apply (a1 := 64) (a2 := 16) rfl, W52_v59]
  by_cases hl : l.val < 64
  · rw [dif_pos hl, if_pos hl]
    exact (ofArr3_of_val _ b ⟨_, _⟩ ch _ _ _ rfl rfl rfl).symm
  · rw [dif_neg hl, if_neg hl]
    exact (ofArr3_of_val _ b ⟨_, _⟩ ch _ _ _ rfl rfl rfl).symm

end Cert.ReferenceIdeal.RGlue
end
-- ==== Proof.RStage6.lean ====
/-
  Region 6 of the reference program: the max pooling (window 4, stride 2, padding 2) after the first layer of
  branch 2. The region reads its input phase-split — entry (phase, row) of the padded sequence is position
  2·row + phase — and takes, per output row l, the maximum over rows l, l + 1 and both phases: positions
  2·l … 2·l + 3 of the padded sequence.
-/
import proofs.«125144_g2000006933354569_pallasbulk_1054_1_alg».proof.Proof.Gen.ReferenceIdeal.Frame
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RPool
import proofs.«125144_g2000006933354569_pallasbulk_1054_1_alg».proof.Proof.RRegionB6
import proofs.«125144_g2000006933354569_pallasbulk_1054_1_alg».proof.Proof.RGlueC

noncomputable section

namespace Cert.ReferenceIdeal.RStage

open Cert.ReferenceIdeal Cert.ReferenceIdeal.Gen Cert.Spec Idealize.ShloMosaic Idealize.ShloMosaic.ValueIdx Idealize.SL.Sem

/-- Two rows of two phases of the phase-split, padded sequence are the window of four of the pooling:
    row l + a, phase ph is position 2·(l + a) + ph = 2·l + (2·a + ph). -/
theorem pool6_math (R : (⟨4, ![1, 2, 32, 64]⟩ : Shape).Idx → EReal) (g : ℕ → EReal) (l : Fin 31) (ch : Fin 64)
    (hR : ∀ (ph : Fin 2) (u : Fin 32), R (ix4 0 ph u ch) = npad 2 61 g (2 * u.val + ph.val)) :
    ((Finset.range 2).sup fun a => (Finset.range 2).sup fun ph => ofArr4 R 0 ph (l.val + a) ch.val)
      = Cert.Spec.pool 2 4 (npad 2 61 g) l.val := by
  unfold Cert.Spec.pool
  rw [show (4 : ℕ) = 2 * 2 from rfl, sup_range_mul 2 2]
  refine Finset.sup_congr rfl fun a ha => Finset.sup_congr rfl fun ph hph => ?_
  have ha' := Finset.mem_range.1 ha
  have hph' := Finset.mem_range.1 hph
  have hl := l.isLt
  have e := ofArr4_val R (0 : Fin 1) ⟨ph, hph'⟩ ⟨l.val + a, by omega⟩ ch
  rw [show ofArr4 R 0 ph (l.val + a) ch.val = R (ix4 0 ⟨ph, hph'⟩ ⟨l.val + a, by omega⟩ ch) from e, hR]
  show npad 2 61 g (2 * (l.val + a) + ph) = npad 2 61 g (2 * l.val + (a * 2 + ph))
  congr 1
  omega

variable (m : (ℓ : Loc nD τ sig) → Buf (Elt Ideal) ℓ) (ρ : Dev nD → PrngReg) (c : Dev nD)

/-- Region 6 (the max pooling of window 4, stride 2 after the first layer of branch 2), from what its input array
    holds on entry and what the region's output block is in terms of its input block. -/
theorem stage6_core
    (RB : Fin 2048 → (⟨4, ![1, 2, 32, 64]⟩ : Shape).Idx → EReal)
    (hRB : ∀ (b : Fin 2048) (ph : Fin 2) (u : Fin 32) (ch : Fin 64),
      RB b (ix4 0 ph u ch) = (W35 m ρ c (Proc.devRef .tc main_v79) : S2048x2x32x64.Idx → EReal) (ix4 b ph u ch))
    (hreg : ∀ (b : Fin 2048) (l : Fin 31) (ch : Fin 64),
      ((dat6 (V35 m ρ) c).arrAt 1 cfg6.N : S2048x31x64.Idx → EReal) (ix3 b l ch) = out6_1 (F := Ideal) (RB b) (ix3 0 l ch))
    (hin : ∀ (b : Fin 2048) (ph : Fin 2) (u : Fin 32) (ch : Fin 64),
      (W35 m ρ c (Proc.devRef .tc main_v79) : S2048x2x32x64.Idx → EReal) (ix4 b ph u ch)
        = npad 2 61 (fun j => ofArr3 (W32 m ρ c (Proc.devRef .tc main_v76) : S2048x61x64.Idx → EReal) b.val j ch.val) (2 * u.val + ph.val))
    (h5 : ∀ (b : Fin 2048) (l : Fin 61) (co : Fin 64),
      (W32 m ρ c (Proc.devRef .tc main_v76) : S2048x61x64.Idx → EReal) (ix3 b l co) = G1 (PR m c) b.val l.val co.val) :
    ∀ (b : Fin 2048) (l : Fin 31) (ch : Fin 64),
      (W36 m ρ c (Proc.devRef .tc main_v80) : S2048x31x64.Idx → EReal) (ix3 b l ch) = Q1 (PR m c) b.val l.val ch.val := by
  intro b l ch
  rw [show W36 m ρ c (Proc.devRef .tc main_v80) = (dat6 (V35 m ρ) c).arrAt 1 cfg6.N from W36_arr m ρ c 1,
    hreg b l ch, RBody.out6_1_apply]
  refine pool6_math (RB b) (fun j => G1 (PR m c) b.val j ch.val) l ch fun ph u => ?_
  rw [hRB, hin]
  refine npad_congr 2 61 _ _ (fun j hj => ?_) _
  rw [← h5 b ⟨j, hj⟩ ch]
  exact ofArr3_val _ b ⟨j, hj⟩ ch

/-- Region 6 of the reference program leaves the pooled first layer of branch 2 in its output array. -/
theorem stage6
    (h5 : ∀ (b : Fin 2048) (l : Fin 61) (co : Fin 64),
      (W32 m ρ c (Proc.devRef .tc main_v76) : S2048x61x64.Idx → EReal) (ix3 b l co) = G1 (PR m c) b.val l.val co.val) :
    ∀ (b : Fin 2048) (l : Fin 31) (ch : Fin 64),
      (W36 m ρ c (Proc.devRef .tc main_v80) : S2048x31x64.Idx → EReal) (ix3 b l ch) = Q1 (PR m c) b.val l.val ch.val :=
  stage6_core m ρ c
    (fun b y => (V35 m ρ c (Pipeline.arrRef spec6 0) : S2048x2x32x64.Idx → EReal) (ix4 b (y 1) (y 2) (y 3)))
    (fun _ _ _ _ => rfl)
    (fun b l ch => RRegion.region6_at (V35 m ρ) c b l ch)
    (RGlue.in6_0 m ρ c) h5

end Cert.ReferenceIdeal.RStage
end
-- ==== Proof.RRegionB7.lean ====
/-
  From blocks to the array, region 7 of the reference program (convolution, batch normalisation, GELU).

  The region's grid is the 2048 batch rows. Grid point `t` stages batch row `t` of each batch-indexed array (a block of
  leading extent 1) and the whole of every other array, and writes its result back to batch row `t` of the output
  array. Hence the output array after the region, read at batch row `b`, is the body's result of row `b` of the input
  array and the whole other arrays: `region7_at`.
-/
import proofs.«125144_g2000006933354569_pallasbulk_1054_1_alg».proof.Proof.Gen.ReferenceIdeal.Frame
import Idealize.ShloMosaic.Lib.ValueIdx
import Idealize.ShloMosaic.Lib.Pipeline.Value

noncomputable section

namespace Cert.ReferenceIdeal.RRegion

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 7: a convolution, batch normalisation and GELU of one batch row per grid point -/

/-- At grid point `t` the batch-indexed windows (the input, 0, and the output, 4) sit at block `t` of the batch axis. -/
theorem idx7_b : ∀ t : Fin cfg7.N,
    win7_0.index t (0 : Fin 3) = t.val ∧ win7_4.index t (0 : Fin 3) = t.val :=
  (by decide +kernel : ∀ t : Fin grid7.N, _)

/-- The output array as one function of the arrays the region finds: at batch row `i 0`, the body's result of that
    row of the input and the whole weight, scale and shift arrays. -/
def G7 (c : Dev nD) : S2048x31x128.Idx → EReal := fun i =>
  out7_4 (F := Ideal) (fun y => (V c (Pipeline.arrRef spec7 0) : S2048x37x64.Idx → EReal) (ix3 (i 0) (y 1) (y 2)))
    (V c (Pipeline.arrRef spec7 1)) (V c (Pipeline.arrRef spec7 2)) (V c (Pipeline.arrRef spec7 3)) (ix3 0 (i 1) (i 2))

/-- Window 0's block at point `t` is batch row `t` of its array. -/
theorem iblk7_0_apply (c : Dev nD) (t : Fin cfg7.N) (y : S1x37x64.Idx) :
    (iblk7 V c 0 t : Vec Ideal S1x37x64 .f32) y
      = (V c (Pipeline.arrRef spec7 0) : S2048x37x64.Idx → EReal) (ix3 (Fin.cast N_7 t) (y 1) (y 2)) := by
  unfold iblk7
  rw [View.read_apply]
  show V c (Pipeline.arrRef spec7 0) _ = V c (Pipeline.arrRef spec7 0) _
  congr 1
  funext a
  apply Fin.ext
  have h0 : (y 0).val < 1 := (y 0).isLt
  match a with
  | ⟨0, _⟩ => show win7_0.index t 0 * 1 + 1 * (y 0).val = t.val; rw [(idx7_b t).1]; omega
  | ⟨1, _⟩ => show 0 * 37 + 1 * (y 1).val = (y 1).val; omega
  | ⟨2, _⟩ => show 0 * 64 + 1 * (y 2).val = (y 2).val; omega

/-- Windows 1, 2 and 3 (weights, scale, shift) hold their whole arrays at every point. -/
theorem iblk7_1_eq (c : Dev nD) (t : Fin cfg7.N) :
    (iblk7 V c 1 t : Vec Ideal S7x64x128 .f32) = V c (Pipeline.arrRef spec7 1) := by
  funext y
  unfold iblk7
  rw [View.read_apply]
  show V c (Pipeline.arrRef spec7 1) _ = V c (Pipeline.arrRef spec7 1) _
  congr 1
  funext a
  apply Fin.ext
  match a with
  | ⟨0, _⟩ => show 0 * 7 + 1 * (y 0).val = (y 0).val; omega
  | ⟨1, _⟩ => show 0 * 64 + 1 * (y 1).val = (y 1).val; omega
  | ⟨2, _⟩ => show 0 * 128 + 1 * (y 2).val = (y 2).val; omega
theorem iblk7_2_eq (c : Dev nD) (t : Fin cfg7.N) :
    (iblk7 V c 2 t : Vec Ideal S1x128 .f32) = V c (Pipeline.arrRef spec7 2) := by
  funext y
  unfold iblk7
  rw [View.read_apply]
  show V c (Pipeline.arrRef spec7 2) _ = V c (Pipeline.arrRef spec7 2) _
  congr 1
  funext a
  apply Fin.ext
  match a with
  | ⟨0, _⟩ => show 0 * 1 + 1 * (y 0).val = (y 0).val; omega
  | ⟨1, _⟩ => show 0 * 128 + 1 * (y 1).val = (y 1).val; omega
theorem iblk7_3_eq (c : Dev nD) (t : Fin cfg7.N) :
    (iblk7 V c 3 t : Vec Ideal S1x128 .f32) = V c (Pipeline.arrRef spec7 3) := by
  funext y
  unfold iblk7
  rw [View.read_apply]
  show V c (Pipeline.arrRef spec7 3) _ = V c (Pipeline.arrRef spec7 3) _
  congr 1
  funext a
  apply Fin.ext
  match a with
  | ⟨0, _⟩ => show 0 * 1 + 1 * (y 0).val = (y 0).val; omega
  | ⟨1, _⟩ => show 0 * 128 + 1 * (y 1).val = (y 1).val; omega

/-- `G7` at an array index whose batch coordinate is `t` and whose other coordinates are `y`'s is the body's
    result of batch row `t` at `y`. -/
theorem G7_at (c : Dev nD) (t : Fin cfg7.N) (y : S1x31x128.Idx) (i : S2048x31x128.Idx)
    (h0 : (i 0).val = t.val) (h1 : (i 1).val = (y 1).val) (h2 : (i 2).val = (y 2).val) :
    G7 V c i = out7_4 (F := Ideal)
      (fun y' => (V c (Pipeline.arrRef spec7 0) : S2048x37x64.Idx → EReal) (ix3 (Fin.cast N_7 t) (y' 1) (y' 2)))
      (V c (Pipeline.arrRef spec7 1)) (V c (Pipeline.arrRef spec7 2)) (V c (Pipeline.arrRef spec7 3)) y := by
  have e0 : i 0 = Fin.cast N_7 t := Fin.ext h0
  have ey : (ix3 0 (i 1) (i 2) : S1x31x128.Idx) = y := by
    funext a
    apply Fin.ext
    have hy : (y 0).val < 1 := (y 0).isLt
    match a with
    | ⟨0, _⟩ => show 0 = (y 0).val; omega
    | ⟨1, _⟩ => exact h1
    | ⟨2, _⟩ => exact h2
  unfold G7
  rw [e0, ey]

/-- What point `t` writes back to the output array is block `t` of `G7`. -/
theorem flushed7_eq (c : Dev nD) (t : Fin cfg7.N) :
    (dat7 V c).flushed 4 t = ((cfg7.win 4).blk t).view.read (Elt Ideal) (G7 V c) := by
  show (cfg7.win 4).cut (grid7.coords t) ((dat7 V c).after 4 t) = _
  rw [after7_4, iblk7_1_eq, iblk7_2_eq, iblk7_3_eq,
    show (iblk7 V c 0 t : Vec Ideal S1x37x64 .f32) = _ from funext (iblk7_0_apply V c t)]
  funext y
  rw [View.read_apply]
  show out7_4 (F := Ideal) _ _ _ _ _ = G7 V c _
  refine (G7_at V c t _ _ ?_ ?_ ?_).symm
  · show win7_4.index t 0 * 1 + 1 * (y 0).val = t.val
    have h0 : (y 0).val < 1 := (y 0).isLt
    rw [(idx7_b t).2]; omega
  · show 0 * 31 + 1 * (y 1).val = (y 1).val; omega
  · show 0 * 128 + 1 * (y 2).val = (y 2).val; omega

/-- An index of the output array with batch coordinate `t` is in point `t`'s block. -/
theorem mem_blk7 (t : Fin cfg7.N) (i : S2048x31x128.Idx) (h : (i 0).val = t.val) :
    i ∈ ((cfg7.win 4).blk t).view.set := by
  show i ∈ ((View.whole main_v97).slice (win7_4.rect t)).set
  rw [View.set_slice_whole, Rect.mem_set_unit]
  intro a
  have h1 : (i 1).val < 31 := (i 1).isLt
  have h2 : (i 2).val < 128 := (i 2).isLt
  match a with
  | ⟨0, _⟩ => show win7_4.index t 0 * 1 ≤ (i 0).val ∧ (i 0).val < win7_4.index t 0 * 1 + 1; rw [(idx7_b t).2]; omega
  | ⟨1, _⟩ => show 0 * 31 ≤ (i 1).val ∧ (i 1).val < 0 * 31 + 31; omega
  | ⟨2, _⟩ => show 0 * 128 ≤ (i 2).val ∧ (i 2).val < 0 * 128 + 128; omega

/-- The output array after the region, at batch row `b`: the body's result of row `b` of the input array and the
    whole weight, scale and shift arrays. -/
theorem region7_at (c : Dev nD) (b : Fin 2048) (l : Fin 31) (co : Fin 128) :
    ((dat7 V c).arrAt 4 cfg7.N : S2048x31x128.Idx → EReal) (ix3 b l co)
      = out7_4 (F := Ideal) (fun y => (V c (Pipeline.arrRef spec7 0) : S2048x37x64.Idx → EReal) (ix3 b (y 1) (y 2)))
          (V c (Pipeline.arrRef spec7 1)) (V c (Pipeline.arrRef spec7 2)) (V c (Pipeline.arrRef spec7 3)) (ix3 0 l co) :=
  (dat7 V c).arrAt_apply_of_mem 4 (G7 V c) (fun t _ => flushed7_eq V c t) cfg7.N (Fin.cast N_7.symm b) (ix3 b l co)
    (Fin.cast N_7.symm b).isLt (flush7_4 _) (mem_blk7 _ _ rfl)

end Cert.ReferenceIdeal.RRegion

end
-- ==== Proof.RStage7.lean ====
/-
  Region 7 of the reference program: the second layer of branch 2.

  The region's output array, at batch row b, is the body's result of row b of its input array and the whole
  weight, scale and shift arrays; the body is seven taps over the 64 channels of its input, times the scale, plus
  the shift, through the tanh-GELU. On entry the input array is the previous region's output zero-padded by
  three positions on each side, the weights are the network's with the tap index first, and the scale and shift
  rows are the batch normalisation's. With the previous region's output the pooled first layer, this is the
  network's second layer term for term.
-/
import proofs.«125144_g2000006933354569_pallasbulk_1054_1_alg».proof.Proof.Gen.ReferenceIdeal.Frame
import proofs.«125144_g2000006933354569_pallasbulk_1054_1_alg».proof.Proof.RConvB
import proofs.«125144_g2000006933354569_pallasbulk_1054_1_alg».proof.Proof.SpecRef
import proofs.«125144_g2000006933354569_pallasbulk_1054_1_alg».proof.Proof.RIface
import proofs.«125144_g2000006933354569_pallasbulk_1054_1_alg».proof.Proof.RRegionB7
import proofs.«125144_g2000006933354569_pallasbulk_1054_1_alg».proof.Proof.RGlueC

noncomputable section

namespace Cert.ReferenceIdeal.RStage

open Cert.ReferenceIdeal Cert.ReferenceIdeal.Gen Cert.Spec Idealize.ShloMosaic Idealize.ShloMosaic.TcCoe Idealize.ShloMosaic.ValueIdx Idealize.SL.Sem

/-- The second layer of the second branch from its block: 7 taps over the 64 channels of the zero-padded pooled layer. -/
theorem core7 (P : Params) (X0 : S2048x37x64.Idx → EReal) (Y : S2048x31x64.Idx → EReal) (R : Vec Ideal S1x37x64 .f32)
    (x1 : Vec Ideal S7x64x128 .f32) (x2 x3 : Vec Ideal S1x128 .f32) (b : Fin 2048)
    (hR : ∀ (j : Fin 37) (k : Fin 64), R (ix3 0 j k) = X0 (ix3 b j k))
    (h0 : ∀ (b : Fin 2048) (j : Fin 37) (ci : Fin 64), X0 (ix3 b j ci) = zpad 3 31 (fun l => ofArr3 Y b.val l ci.val) j.val)
    (h1 : ∀ (k : Fin 7) (ci : Fin 64) (co : Fin 128), x1 (ix3 k ci co) = P.w5 co.val ci.val k.val)
    (h2 : ∀ co : Fin 128, x2 (ix2 0 co) = s5 P co.val) (h3 : ∀ co : Fin 128, x3 (ix2 0 co) = t5 P co.val)
    (h6 : ∀ (b : Fin 2048) (l : Fin 31) (ch : Fin 64), Y (ix3 b l ch) = Q1 P b.val l.val ch.val)
    (l : Fin 31) (co : Fin 128) :
    out7_4 (F := Ideal) R x1 x2 x3 (ix3 0 l co) = G2 P b.val l.val co.val := by
  rw [RBody.out7_4_apply, h2, h3]
  unfold G2
  congr 3
  refine Finset.sum_congr rfl fun a ha => Finset.sum_congr rfl fun q hq => ?_
  have ha' := Finset.mem_range.1 ha
  have hq' := Finset.mem_range.1 hq
  have hl := l.isLt
  rw [ofArr3_row X0 b R hR, ofArr3_val X0 b ⟨l.val + a, by omega⟩ ⟨q, hq'⟩, ofArr3_val x1 ⟨a, ha'⟩ ⟨q, hq'⟩ co, h0, h1]
  congr 1
  exact zpad_congr 3 31 _ _ (fun j hj => by rw [ofArr3_val Y b ⟨j, hj⟩ ⟨q, hq'⟩, h6]) _

variable (m : (ℓ : Loc nD τ sig) → Buf (Elt Ideal) ℓ) (ρ : Dev nD → PrngReg)

/-- Region 7's output array is the second layer of branch 2, given that region 6's is the pooled first layer. -/
theorem stage7 (c : Dev nD)
    (h6 : ∀ (b : Fin 2048) (l : Fin 31) (ch : Fin 64),
      (W36 m ρ c (Proc.devRef .tc main_v80) : S2048x31x64.Idx → EReal) (ix3 b l ch) = Q1 (PR m c) b.val l.val ch.val) :
    ∀ (b : Fin 2048) (l : Fin 31) (co : Fin 128),
      (W42 m ρ c (Proc.devRef .tc main_v97) : S2048x31x128.Idx → EReal) (ix3 b l co) = G2 (PR m c) b.val l.val co.val := by
  intro b l co
  have e : (W42 m ρ c (Proc.devRef .tc main_v97) : S2048x31x128.Idx → EReal) = (dat7 (V41 m ρ) c).arrAt 4 cfg7.N :=
    W42_arr m ρ c 4
  rw [e, RRegion.region7_at]
  exact core7 (PR m c) (W41 m ρ c (Proc.devRef .tc main_v84)) (W36 m ρ c (Proc.devRef .tc main_v80)) _ _ _ _ b
    (fun _ _ => rfl) (RGlue.in7_0 m ρ c) (RGlue.in7_1 m ρ c) (RGlue.in7_2 m ρ c) (RGlue.in7_3 m ρ c) h6 l co

end Cert.ReferenceIdeal.RStage

end
-- ==== Proof.RRegionB8.lean ====
/-
  From blocks to the array, region 8 of the reference program (convolution, batch normalisation, GELU).

  The region's grid is the 2048 batch rows. Grid point `t` stages batch row `t` of each batch-indexed array (a block of
  leading extent 1) and the whole of every other array, and writes its result back to batch row `t` of the output
  array. Hence the output array after the region, read at batch row `b`, is the body's result of row `b` of the input
  array and the whole other arrays: `region8_at`.
-/
import proofs.«125144_g2000006933354569_pallasbulk_1054_1_alg».proof.Proof.Gen.ReferenceIdeal.Frame
import Idealize.ShloMosaic.Lib.ValueIdx
import Idealize.ShloMosaic.Lib.Pipeline.Value

noncomputable section

namespace Cert.ReferenceIdeal.RRegion

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 8: a convolution, batch normalisation and GELU of one batch row per grid point -/

/-- At grid point `t` the batch-indexed windows (the input, 0, and the output, 4) sit at block `t` of the batch axis. -/
theorem idx8_b : ∀ t : Fin cfg8.N,
    win8_0.index t (0 : Fin 3) = t.val ∧ win8_4.index t (0 : Fin 3) = t.val :=
  (by decide +kernel : ∀ t : Fin grid8.N, _)

/-- The output array as one function of the arrays the region finds: at batch row `i 0`, the body's result of that
    row of the input and the whole weight, scale and shift arrays. -/
def G8 (c : Dev nD) : S2048x31x128.Idx → EReal := fun i =>
  out8_4 (F := Ideal) (fun y => (V c (Pipeline.arrRef spec8 0) : S2048x37x128.Idx → EReal) (ix3 (i 0) (y 1) (y 2)))
    (V c (Pipeline.arrRef spec8 1)) (V c (Pipeline.arrRef spec8 2)) (V c (Pipeline.arrRef spec8 3)) (ix3 0 (i 1) (i 2))

/-- Window 0's block at point `t` is batch row `t` of its array. -/
theorem iblk8_0_apply (c : Dev nD) (t : Fin cfg8.N) (y : S1x37x128.Idx) :
    (iblk8 V c 0 t : Vec Ideal S1x37x128 .f32) y
      = (V c (Pipeline.arrRef spec8 0) : S2048x37x128.Idx → EReal) (ix3 (Fin.cast N_8 t) (y 1) (y 2)) := by
  unfold iblk8
  rw [View.read_apply]
  show V c (Pipeline.arrRef spec8 0) _ = V c (Pipeline.arrRef spec8 0) _
  congr 1
  funext a
  apply Fin.ext
  have h0 : (y 0).val < 1 := (y 0).isLt
  match a with
  | ⟨0, _⟩ => show win8_0.index t 0 * 1 + 1 * (y 0).val = t.val; rw [(idx8_b t).1]; omega
  | ⟨1, _⟩ => show 0 * 37 + 1 * (y 1).val = (y 1).val; omega
  | ⟨2, _⟩ => show 0 * 128 + 1 * (y 2).val = (y 2).val; omega

/-- Windows 1, 2 and 3 (weights, scale, shift) hold their whole arrays at every point. -/
theorem iblk8_1_eq (c : Dev nD) (t : Fin cfg8.N) :
    (iblk8 V c 1 t : Vec Ideal S7x128x128 .f32) = V c (Pipeline.arrRef spec8 1) := by
  funext y
  unfold iblk8
  rw [View.read_apply]
  show V c (Pipeline.arrRef spec8 1) _ = V c (Pipeline.arrRef spec8 1) _
  congr 1
  funext a
  apply Fin.ext
  match a with
  | ⟨0, _⟩ => show 0 * 7 + 1 * (y 0).val = (y 0).val; omega
  | ⟨1, _⟩ => show 0 * 128 + 1 * (y 1).val = (y 1).val; omega
  | ⟨2, _⟩ => show 0 * 128 + 1 * (y 2).val = (y 2).val; omega
theorem iblk8_2_eq (c : Dev nD) (t : Fin cfg8.N) :
    (iblk8 V c 2 t : Vec Ideal S1x128 .f32) = V c (Pipeline.arrRef spec8 2) := by
  funext y
  unfold iblk8
  rw [View.read_apply]
  show V c (Pipeline.arrRef spec8 2) _ = V c (Pipeline.arrRef spec8 2) _
  congr 1
  funext a
  apply Fin.ext
  match a with
  | ⟨0, _⟩ => show 0 * 1 + 1 * (y 0).val = (y 0).val; omega
  | ⟨1, _⟩ => show 0 * 128 + 1 * (y 1).val = (y 1).val; omega
theorem iblk8_3_eq (c : Dev nD) (t : Fin cfg8.N) :
    (iblk8 V c 3 t : Vec Ideal S1x128 .f32) = V c (Pipeline.arrRef spec8 3) := by
  funext y
  unfold iblk8
  rw [View.read_apply]
  show V c (Pipeline.arrRef spec8 3) _ = V c (Pipeline.arrRef spec8 3) _
  congr 1
  funext a
  apply Fin.ext
  match a with
  | ⟨0, _⟩ => show 0 * 1 + 1 * (y 0).val = (y 0).val; omega
  | ⟨1, _⟩ => show 0 * 128 + 1 * (y 1).val = (y 1).val; omega

/-- `G8` at an array index whose batch coordinate is `t` and whose other coordinates are `y`'s is the body's
    result of batch row `t` at `y`. -/
theorem G8_at (c : Dev nD) (t : Fin cfg8.N) (y : S1x31x128.Idx) (i : S2048x31x128.Idx)
    (h0 : (i 0).val = t.val) (h1 : (i 1).val = (y 1).val) (h2 : (i 2).val = (y 2).val) :
    G8 V c i = out8_4 (F := Ideal)
      (fun y' => (V c (Pipeline.arrRef spec8 0) : S2048x37x128.Idx → EReal) (ix3 (Fin.cast N_8 t) (y' 1) (y' 2)))
      (V c (Pipeline.arrRef spec8 1)) (V c (Pipeline.arrRef spec8 2)) (V c (Pipeline.arrRef spec8 3)) y := by
  have e0 : i 0 = Fin.cast N_8 t := Fin.ext h0
  have ey : (ix3 0 (i 1) (i 2) : S1x31x128.Idx) = y := by
    funext a
    apply Fin.ext
    have hy : (y 0).val < 1 := (y 0).isLt
    match a with
    | ⟨0, _⟩ => show 0 = (y 0).val; omega
    | ⟨1, _⟩ => exact h1
    | ⟨2, _⟩ => exact h2
  unfold G8
  rw [e0, ey]

/-- What point `t` writes back to the output array is block `t` of `G8`. -/
theorem flushed8_eq (c : Dev nD) (t : Fin cfg8.N) :
    (dat8 V c).flushed 4 t = ((cfg8.win 4).blk t).view.read (Elt Ideal) (G8 V c) := by
  show (cfg8.win 4).cut (grid8.coords t) ((dat8 V c).after 4 t) = _
  rw [after8_4, iblk8_1_eq, iblk8_2_eq, iblk8_3_eq,
    show (iblk8 V c 0 t : Vec Ideal S1x37x128 .f32) = _ from funext (iblk8_0_apply V c t)]
  funext y
  rw [View.read_apply]
  show out8_4 (F := Ideal) _ _ _ _ _ = G8 V c _
  refine (G8_at V c t _ _ ?_ ?_ ?_).symm
  · show win8_4.index t 0 * 1 + 1 * (y 0).val = t.val
    have h0 : (y 0).val < 1 := (y 0).isLt
    rw [(idx8_b t).2]; omega
  · show 0 * 31 + 1 * (y 1).val = (y 1).val; omega
  · show 0 * 128 + 1 * (y 2).val = (y 2).val; omega

/-- An index of the output array with batch coordinate `t` is in point `t`'s block. -/
theorem mem_blk8 (t : Fin cfg8.N) (i : S2048x31x128.Idx) (h : (i 0).val = t.val) :
    i ∈ ((cfg8.win 4).blk t).view.set := by
  show i ∈ ((View.whole main_v114).slice (win8_4.rect t)).set
  rw [View.set_slice_whole, Rect.mem_set_unit]
  intro a
  have h1 : (i 1).val < 31 := (i 1).isLt
  have h2 : (i 2).val < 128 := (i 2).isLt
  match a with
  | ⟨0, _⟩ => show win8_4.index t 0 * 1 ≤ (i 0).val ∧ (i 0).val < win8_4.index t 0 * 1 + 1; rw [(idx8_b t).2]; omega
  | ⟨1, _⟩ => show 0 * 31 ≤ (i 1).val ∧ (i 1).val < 0 * 31 + 31; omega
  | ⟨2, _⟩ => show 0 * 128 ≤ (i 2).val ∧ (i 2).val < 0 * 128 + 128; omega

/-- The output array after the region, at batch row `b`: the body's result of row `b` of the input array and the
    whole weight, scale and shift arrays. -/
theorem region8_at (c : Dev nD) (b : Fin 2048) (l : Fin 31) (co : Fin 128) :
    ((dat8 V c).arrAt 4 cfg8.N : S2048x31x128.Idx → EReal) (ix3 b l co)
      = out8_4 (F := Ideal) (fun y => (V c (Pipeline.arrRef spec8 0) : S2048x37x128.Idx → EReal) (ix3 b (y 1) (y 2)))
          (V c (Pipeline.arrRef spec8 1)) (V c (Pipeline.arrRef spec8 2)) (V c (Pipeline.arrRef spec8 3)) (ix3 0 l co) :=
  (dat8 V c).arrAt_apply_of_mem 4 (G8 V c) (fun t _ => flushed8_eq V c t) cfg8.N (Fin.cast N_8.symm b) (ix3 b l co)
    (Fin.cast N_8.symm b).isLt (flush8_4 _) (mem_blk8 _ _ rfl)

end Cert.ReferenceIdeal.RRegion

end
-- ==== Proof.RStage8.lean ====
/-
  Stage 8 of the reference program: region 8 (the third convolution of the second branch) leaves the network's
  layer G3 in its output array, given that region 7 left G2.

  The output array at batch row b is the region's body applied to row b of the zero-padded previous layer, the
  weights, and the batch normalisation's scale and shift; the body at (l, co) is the GELU of
  (Σ_{a<7} Σ_{q<128} x[b, l+a, q] · w[a, q, co]) · s[co] + t[co]; and the arrays the region is entered with are
  the zero-padded G2, w6 read tap-major, s6 and t6 — which is G3's definition term for term.
-/
import proofs.«125144_g2000006933354569_pallasbulk_1054_1_alg».proof.Proof.RConvB
import proofs.«125144_g2000006933354569_pallasbulk_1054_1_alg».proof.Proof.SpecRef
import proofs.«125144_g2000006933354569_pallasbulk_1054_1_alg».proof.Proof.RIface
import proofs.«125144_g2000006933354569_pallasbulk_1054_1_alg».proof.Proof.RRegionB8
import proofs.«125144_g2000006933354569_pallasbulk_1054_1_alg».proof.Proof.RGlueC

noncomputable section

namespace Cert.ReferenceIdeal.RStage

open Cert.ReferenceIdeal Cert.ReferenceIdeal.Gen Cert.Spec Idealize.ShloMosaic Idealize.ShloMosaic.TcCoe
  Idealize.ShloMosaic.ValueIdx Idealize.SL.Sem

/-- The third layer of the second branch from its block: 7 taps over the 128 channels of the zero-padded second layer. -/
theorem core8 (P : Params) (X0 : S2048x37x128.Idx → EReal) (Y : S2048x31x128.Idx → EReal) (R : Vec Ideal S1x37x128 .f32)
    (x1 : Vec Ideal S7x128x128 .f32) (x2 x3 : Vec Ideal S1x128 .f32) (b : Fin 2048)
    (hR : ∀ (j : Fin 37) (k : Fin 128), R (ix3 0 j k) = X0 (ix3 b j k))
    (h0 : ∀ (b : Fin 2048) (j : Fin 37) (ci : Fin 128), X0 (ix3 b j ci) = zpad 3 31 (fun l => ofArr3 Y b.val l ci.val) j.val)
    (h1 : ∀ (k : Fin 7) (ci : Fin 128) (co : Fin 128), x1 (ix3 k ci co) = P.w6 co.val ci.val k.val)
    (h2 : ∀ co : Fin 128, x2 (ix2 0 co) = s6 P co.val) (h3 : ∀ co : Fin 128, x3 (ix2 0 co) = t6 P co.val)
    (h7 : ∀ (b : Fin 2048) (l : Fin 31) (ch : Fin 128), Y (ix3 b l ch) = G2 P b.val l.val ch.val)
    (l : Fin 31) (co : Fin 128) :
    out8_4 (F := Ideal) R x1 x2 x3 (ix3 0 l co) = G3 P b.val l.val co.val := by
  rw [RBody.out8_4_apply, h2, h3]
  unfold G3
  congr 3
  refine Finset.sum_congr rfl fun a ha => Finset.sum_congr rfl fun q hq => ?_
  have ha' := Finset.mem_range.1 ha
  have hq' := Finset.mem_range.1 hq
  have hl := l.isLt
  rw [ofArr3_row X0 b R hR, ofArr3_val X0 b ⟨l.val + a, by omega⟩ ⟨q, hq'⟩, ofArr3_val x1 ⟨a, ha'⟩ ⟨q, hq'⟩ co, h0, h1]
  congr 1
  exact zpad_congr 3 31 _ _ (fun j hj => by rw [ofArr3_val Y b ⟨j, hj⟩ ⟨q, hq'⟩, h7]) _

variable (m : (ℓ : Loc nD τ sig) → Buf (Elt Ideal) ℓ) (ρ : Dev nD → PrngReg) (c : Dev nD)

/-- Region 8 leaves the third layer of the second branch, given that region 7 left the second. -/
theorem stage8
    (h7 : ∀ (b : Fin 2048) (l : Fin 31) (co : Fin 128),
      (W42 m ρ c (Proc.devRef .tc main_v97) : S2048x31x128.Idx → EReal) (ix3 b l co) = G2 (PR m c) b.val l.val co.val) :
    ∀ (b : Fin 2048) (l : Fin 31) (co : Fin 128),
      (W48 m ρ c (Proc.devRef .tc main_v114) : S2048x31x128.Idx → EReal) (ix3 b l co) = G3 (PR m c) b.val l.val co.val := by
  intro b l co
  have e : W48 m ρ c (Proc.devRef .tc main_v114) = (dat8 (V47 m ρ) c).arrAt 4 cfg8.N := W48_arr m ρ c 4
  rw [e]
  refine (RRegion.region8_at (V47 m ρ) c b l co).trans ?_
  exact core8 (PR m c) (W47 m ρ c (Proc.devRef .tc main_v101)) (W42 m ρ c (Proc.devRef .tc main_v97)) _ _ _ _ b
    (fun _ _ => rfl) (RGlue.in8_0 m ρ c) (RGlue.in8_1 m ρ c) (RGlue.in8_2 m ρ c) (RGlue.in8_3 m ρ c) h7 l co

end Cert.ReferenceIdeal.RStage

end
-- ==== Proof.RRegionB9.lean ====
/-
  From blocks to the array, region 9 of the reference program (max pooling).

  The region's grid is the 2048 batch rows. Grid point `t` stages batch row `t` of each batch-indexed array (a block of
  leading extent 1) and the whole of every other array, and writes its result back to batch row `t` of the output
  array. Hence the output array after the region, read at batch row `b`, is the body's result of row `b` of the input
  array and the whole other arrays: `region9_at`.
-/
import proofs.«125144_g2000006933354569_pallasbulk_1054_1_alg».proof.Proof.Gen.ReferenceIdeal.Frame
import Idealize.ShloMosaic.Lib.ValueIdx
import Idealize.ShloMosaic.Lib.Pipeline.Value

noncomputable section

namespace Cert.ReferenceIdeal.RRegion

open Cert.ReferenceIdeal Cert.ReferenceIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Region 9: a max pooling of one batch row per grid point -/

/-- At grid point `t` both windows (the input, 0, and the output, 1) sit at block `t` of the batch axis. -/
theorem idx9_b : ∀ t : Fin cfg9.N,
    win9_0.index t (0 : Fin 4) = t.val ∧ win9_1.index t (0 : Fin 3) = t.val :=
  (by decide +kernel : ∀ t : Fin grid9.N, _)

/-- The output array as one function of the array the region finds: at batch row `i 0`, the body's result of that
    row of the input. -/
def G9 (c : Dev nD) : S2048x16x128.Idx → EReal := fun i =>
  out9_1 (F := Ideal) (fun y => (V c (Pipeline.arrRef spec9 0) : S2048x2x16x128.Idx → EReal) (ix4 (i 0) (y 1) (y 2) (y 3)))
    (ix3 0 (i 1) (i 2))

/-- Window 0's block at point `t` is batch row `t` of its array. -/
theorem iblk9_0_apply (c : Dev nD) (t : Fin cfg9.N) (y : S1x2x16x128.Idx) :
    (iblk9 V c 0 t : Vec Ideal S1x2x16x128 .f32) y
      = (V c (Pipeline.arrRef spec9 0) : S2048x2x16x128.Idx → EReal) (ix4 (Fin.cast N_9 t) (y 1) (y 2) (y 3)) := by
  unfold iblk9
  rw [View.read_apply]
  show V c (Pipeline.arrRef spec9 0) _ = V c (Pipeline.arrRef spec9 0) _
  congr 1
  funext a
  apply Fin.ext
  have h0 : (y 0).val < 1 := (y 0).isLt
  match a with
  | ⟨0, _⟩ => show win9_0.index t 0 * 1 + 1 * (y 0).val = t.val; rw [(idx9_b t).1]; omega
  | ⟨1, _⟩ => show 0 * 2 + 1 * (y 1).val = (y 1).val; omega
  | ⟨2, _⟩ => show 0 * 16 + 1 * (y 2).val = (y 2).val; omega
  | ⟨3, _⟩ => show 0 * 128 + 1 * (y 3).val = (y 3).val; omega

/-- `G9` at an array index whose batch coordinate is `t` and whose other coordinates are `y`'s is the body's
    result of batch row `t` at `y`. -/
theorem G9_at (c : Dev nD) (t : Fin cfg9.N) (y : S1x16x128.Idx) (i : S2048x16x128.Idx)
    (h0 : (i 0).val = t.val) (h1 : (i 1).val = (y 1).val) (h2 : (i 2).val = (y 2).val) :
    G9 V c i = out9_1 (F := Ideal)
      (fun y' => (V c (Pipeline.arrRef spec9 0) : S2048x2x16x128.Idx → EReal) (ix4 (Fin.cast N_9 t) (y' 1) (y' 2) (y' 3))) y := by
  have e0 : i 0 = Fin.cast N_9 t := Fin.ext h0
  have ey : (ix3 0 (i 1) (i 2) : S1x16x128.Idx) = y := by
    funext a
    apply Fin.ext
    have hy : (y 0).val < 1 := (y 0).isLt
    match a with
    | ⟨0, _⟩ => show 0 = (y 0).val; omega
    | ⟨1, _⟩ => exact h1
    | ⟨2, _⟩ => exact h2
  unfold G9
  rw [e0, ey]

/-- What point `t` writes back to the output array is block `t` of `G9`. -/
theorem flushed9_eq (c : Dev nD) (t : Fin cfg9.N) :
    (dat9 V c).flushed 1 t = ((cfg9.win 1).blk t).view.read (Elt Ideal) (G9 V c) := by
  show (cfg9.win 1).cut (grid9.coords t) ((dat9 V c).after 1 t) = _
  rw [after9_1, show (iblk9 V c 0 t : Vec Ideal S1x2x16x128 .f32) = _ from funext (iblk9_0_apply V c t)]
  funext y
  rw [View.read_apply]
  show out9_1 (F := Ideal) _ _ = G9 V c _
  refine (G9_at V c t _ _ ?_ ?_ ?_).symm
  · show win9_1.index t 0 * 1 + 1 * (y 0).val = t.val
    have h0 : (y 0).val < 1 := (y 0).isLt
    rw [(idx9_b t).2]; omega
  · show 0 * 16 + 1 * (y 1).val = (y 1).val; omega
  · show 0 * 128 + 1 * (y 2).val = (y 2).val; omega

/-- An index of the output array with batch coordinate `t` is in point `t`'s block. -/
theorem mem_blk9 (t : Fin cfg9.N) (i : S2048x16x128.Idx) (h : (i 0).val = t.val) :
    i ∈ ((cfg9.win 1).blk t).view.set := by
  show i ∈ ((View.whole main_v118).slice (win9_1.rect t)).set
  rw [View.set_slice_whole, Rect.mem_set_unit]
  intro a
  have h1 : (i 1).val < 16 := (i 1).isLt
  have h2 : (i 2).val < 128 := (i 2).isLt
  match a with
  | ⟨0, _⟩ => show win9_1.index t 0 * 1 ≤ (i 0).val ∧ (i 0).val < win9_1.index t 0 * 1 + 1; rw [(idx9_b t).2]; omega
  | ⟨1, _⟩ => show 0 * 16 ≤ (i 1).val ∧ (i 1).val < 0 * 16 + 16; omega
  | ⟨2, _⟩ => show 0 * 128 ≤ (i 2).val ∧ (i 2).val < 0 * 128 + 128; omega

/-- The output array after the region, at batch row `b`: the body's result of row `b` of the input array. -/
theorem region9_at (c : Dev nD) (b : Fin 2048) (l : Fin 16) (co : Fin 128) :
    ((dat9 V c).arrAt 1 cfg9.N : S2048x16x128.Idx → EReal) (ix3 b l co)
      = out9_1 (F := Ideal) (fun y => (V c (Pipeline.arrRef spec9 0) : S2048x2x16x128.Idx → EReal) (ix4 b (y 1) (y 2) (y 3)))
          (ix3 0 l co) :=
  (dat9 V c).arrAt_apply_of_mem 1 (G9 V c) (fun t _ => flushed9_eq V c t) cfg9.N (Fin.cast N_9.symm b) (ix3 b l co)
    (Fin.cast N_9.symm b).isLt (flush9_1 _) (mem_blk9 _ _ rfl)

end Cert.ReferenceIdeal.RRegion

end
-- ==== Proof.RStage9.lean ====
/-
  The last pooling of the reference program and its result.

  Region 9 reads, for each batch row, the two phases of the third layer of branch 2 padded in front with one copy of
  the most negative finite number (31 positions to 32, read as 16 rows of 2 phases) and takes the maximum over the
  phase: window 2, stride 2, padding 1, branch 2's output. The program's result lays branch 1's 64 positions and
  branch 2's 16 side by side along time and reads them channel-major: the network's output array.
-/
import proofs.«125144_g2000006933354569_pallasbulk_1054_1_alg».proof.Proof.Gen.ReferenceIdeal.Frame
import proofs.«125144_g2000006933354569_pallasbulk_1054_1_alg».proof.Proof.RIface
import proofs.«125144_g2000006933354569_pallasbulk_1054_1_alg».proof.Proof.SpecRef
import proofs.«125144_g2000006933354569_pallasbulk_1054_1_alg».proof.Proof.RPool
import proofs.«125144_g2000006933354569_pallasbulk_1054_1_alg».proof.Proof.RRegionB9
import proofs.«125144_g2000006933354569_pallasbulk_1054_1_alg».proof.Proof.RGlueC
import Idealize.ShloMosaic.Lib.ValueIdx

noncomputable section

namespace Cert.ReferenceIdeal.RStage

open Cert.ReferenceIdeal Cert.ReferenceIdeal.Gen Cert.Spec Idealize.ShloMosaic Idealize.ShloMosaic.ValueIdx Idealize.SL.Sem
open Idealize.ShloMosaic.TcCoe

variable (m : (ℓ : Loc nD τ sig) → Buf (Elt Ideal) ℓ) (ρ : Dev nD → PrngReg) (c : Dev nD)

/-- An array of extents [n0, n1, n2, n3] read through its row b (as a [1, n1, n2, n3] block) and through itself agree. -/
private theorem ofArr4_row {n0 n1 n2 n3 : ℕ} (X : (⟨4, ![n0, n1, n2, n3]⟩ : Shape).Idx → EReal) (b : Fin n0)
    (R : (⟨4, ![1, n1, n2, n3]⟩ : Shape).Idx → EReal)
    (hR : ∀ (i : Fin n1) (j : Fin n2) (k : Fin n3), R (ix4 0 i j k) = X (ix4 b i j k)) (i j k : ℕ) :
    ofArr4 R 0 i j k = ofArr4 X b.val i j k := by
  unfold ofArr4
  by_cases h : i < n1 ∧ j < n2 ∧ k < n3
  · rw [dif_pos ⟨by omega, h.1, h.2.1, h.2.2⟩, dif_pos ⟨b.isLt, h.1, h.2.1, h.2.2⟩]
    exact hR ⟨i, h.1⟩ ⟨j, h.2.1⟩ ⟨k, h.2.2⟩
  · rw [dif_neg (fun h' => h ⟨h'.2.1, h'.2.2.1, h'.2.2.2⟩), dif_neg (fun h' => h ⟨h'.2.1, h'.2.2.1, h'.2.2.2⟩)]

/-- Region 9 pools the third layer of branch 2 (window 2, stride 2, padding 1): branch 2's output. -/
theorem stage9
    (h8 : ∀ (b : Fin 2048) (l : Fin 31) (co : Fin 128),
      (W48 m ρ c (Proc.devRef .tc main_v114) : S2048x31x128.Idx → EReal) (ix3 b l co) = G3 (PR m c) b.val l.val co.val) :
    ∀ (b : Fin 2048) (l : Fin 16) (ch : Fin 128),
      (W52 m ρ c (Proc.devRef .tc main_v118) : S2048x16x128.Idx → EReal) (ix3 b l ch) = X2 (PR m c) b.val l.val ch.val := by
  intro b l ch
  have e1 : W52 m ρ c (Proc.devRef .tc main_v118) = (dat9 (V51 m ρ) c).arrAt 1 cfg9.N := W52_arr m ρ c 1
  rw [e1, RRegion.region9_at (V51 m ρ) c b l ch, RBody.out9_1_apply]
  show ((Finset.range 2).sup fun ph => ofArr4 _ 0 ph l.val ch.val : EReal)
    = (Finset.range 2).sup fun ph => npad 1 31 (fun j => G3 (PR m c) b.val j ch.val) (2 * l.val + ph)
  refine Finset.sup_congr rfl fun ph hph => ?_
  have hph2 : ph < 2 := Finset.mem_range.1 hph
  rw [ofArr4_row (V51 m ρ c (Pipeline.arrRef spec9 0) : S2048x2x16x128.Idx → EReal) b _ (fun _ _ _ => rfl) ph l.val ch.val]
  have e2 := ofArr4_val (V51 m ρ c (Pipeline.arrRef spec9 0) : S2048x2x16x128.Idx → EReal) b ⟨ph, hph2⟩ l ch
  rw [show ofArr4 (V51 m ρ c (Pipeline.arrRef spec9 0) : S2048x2x16x128.Idx → EReal) b.val ph l.val ch.val = _ from e2]
  refine (RGlue.in9_0 m ρ c b ⟨ph, hph2⟩ l ch).trans ?_
  exact npad_congr 1 31 _ _ (fun j hj => (ofArr3_val _ b ⟨j, hj⟩ ch).trans (h8 b ⟨j, hj⟩ ch)) _

/-- The program's result is the network's output: branch 1's 64 positions, then branch 2's 16, channel-major. -/
theorem result
    (h4 : ∀ (b : Fin 2048) (l : Fin 64) (ch : Fin 128),
      (W26 m ρ c (Proc.devRef .tc main_v59) : S2048x64x128.Idx → EReal) (ix3 b l ch) = X1 (PR m c) b.val l.val ch.val)
    (h9 : ∀ (b : Fin 2048) (l : Fin 16) (ch : Fin 128),
      (W52 m ρ c (Proc.devRef .tc main_v118) : S2048x16x128.Idx → EReal) (ix3 b l ch) = X2 (PR m c) b.val l.val ch.val) :
    (W53 m ρ c (Proc.devRef .tc main_v120) : S2048x128x80.Idx → EReal) = Cert.Spec.outArr (PR m c) := by
  funext i
  obtain ⟨b, ch, l, rfl⟩ : ∃ (b : Fin 2048) (ch : Fin 128) (l : Fin 80), i = ix3 b ch l := ⟨i 0, i 1, i 2, eq_ix3 i⟩
  have hl80 := l.isLt
  rw [RGlue.result_at m ρ c b ch l]
  show _ = Out (PR m c) b.val ch.val l.val
  unfold Out
  by_cases hl : l.val < 64
  · rw [if_pos hl, if_pos hl]
    exact (ofArr3_val _ b ⟨l.val, hl⟩ ch).trans (h4 b ⟨l.val, hl⟩ ch)
  · rw [if_neg hl, if_neg hl]
    exact (ofArr3_val _ b ⟨l.val - 64, by omega⟩ ch).trans (h9 b ⟨l.val - 64, by omega⟩ ch)

end Cert.ReferenceIdeal.RStage

end
-- ==== Proof.RChain.lean ====
/-
  The reference program's run with its result named: the ten launches' output arrays are, one after the
  other, the network's layers (each stage from the one before), so the result array ends at
  `Cert.Spec.outArr` of the network's arrays; the argument arrays end as launched.
-/
import proofs.«125144_g2000006933354569_pallasbulk_1054_1_alg».proof.Proof.RefRun
import proofs.«125144_g2000006933354569_pallasbulk_1054_1_alg».proof.Proof.RStage0
import proofs.«125144_g2000006933354569_pallasbulk_1054_1_alg».proof.Proof.RStage1
import proofs.«125144_g2000006933354569_pallasbulk_1054_1_alg».proof.Proof.RStage2
import proofs.«125144_g2000006933354569_pallasbulk_1054_1_alg».proof.Proof.RStage3
import proofs.«125144_g2000006933354569_pallasbulk_1054_1_alg».proof.Proof.RStage4
import proofs.«125144_g2000006933354569_pallasbulk_1054_1_alg».proof.Proof.RStage5
import proofs.«125144_g2000006933354569_pallasbulk_1054_1_alg».proof.Proof.RStage6
import proofs.«125144_g2000006933354569_pallasbulk_1054_1_alg».proof.Proof.RStage7
import proofs.«125144_g2000006933354569_pallasbulk_1054_1_alg».proof.Proof.RStage8
import proofs.«125144_g2000006933354569_pallasbulk_1054_1_alg».proof.Proof.RStage9

noncomputable section

namespace Cert.ReferenceIdeal.RChain

open Cert.ReferenceIdeal Cert.ReferenceIdeal.Gen Idealize.ShloMosaic Idealize.ShloMosaic.TcCoe Idealize.SL.Sem

variable (m : (ℓ : Loc nD τ sig) → Buf (Elt Ideal) ℓ) (ρ : Dev nD → PrngReg)

/-- The result array after the last host operations is the network's output. -/
theorem result_eq (c : Dev nD) :
    (W53 m ρ c (Proc.devRef .tc main_v120) : S2048x128x80.Idx → EReal) = Cert.Spec.outArr (PR m c) :=
  RStage.result m ρ c
    (RStage.stage4 m ρ c (RStage.stage3 m ρ c (RStage.stage2 m ρ c (RStage.stage1 m ρ c (RStage.stage0 m ρ c)))))
    (RStage.stage9 m ρ c (RStage.stage8 m ρ c (RStage.stage7 m ρ c (RStage.stage6 m ρ c (RStage.stage5 m ρ c)))))

/-- The reference program's run: the result array at the network's output, the arguments unchanged. -/
theorem ref_run : θ_run defs (onTc (τ := τ) (main (F := Ideal))) ⟨m, fun _ => 0, ρ⟩ (fun r => ∀ c : Dev nD,
      r.2.mem ((c.tc : Thread nD τ).loc main_v120) = Cert.Spec.outArr (PR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  (θ_run defs _ _).mono (fun r h c =>
    ⟨(h c _ (mem_uc main_v120 (by decide))).trans (result_eq m ρ c),
     (h c _ (mem_uc main_arg0 (by decide))).trans (W53_main_arg0 m ρ c),
     (h c _ (mem_uc main_arg1 (by decide))).trans (W53_main_arg1 m ρ c),
     (h c _ (mem_uc main_arg2 (by decide))).trans (W53_main_arg2 m ρ c),
     (h c _ (mem_uc main_arg3 (by decide))).trans (W53_main_arg3 m ρ c),
     (h c _ (mem_uc main_arg4 (by decide))).trans (W53_main_arg4 m ρ c),
     (h c _ (mem_uc main_arg5 (by decide))).trans (W53_main_arg5 m ρ c),
     (h c _ (mem_uc main_arg6 (by decide))).trans (W53_main_arg6 m ρ c),
     (h c _ (mem_uc main_arg7 (by decide))).trans (W53_main_arg7 m ρ c),
     (h c _ (mem_uc main_arg8 (by decide))).trans (W53_main_arg8 m ρ c),
     (h c _ (mem_uc main_arg9 (by decide))).trans (W53_main_arg9 m ρ c),
     (h c _ (mem_uc main_arg10 (by decide))).trans (W53_main_arg10 m ρ c),
     (h c _ (mem_uc main_arg11 (by decide))).trans (W53_main_arg11 m ρ c),
     (h c _ (mem_uc main_arg12 (by decide))).trans (W53_main_arg12 m ρ c),
     (h c _ (mem_uc main_arg13 (by decide))).trans (W53_main_arg13 m ρ c),
     (h c _ (mem_uc main_arg14 (by decide))).trans (W53_main_arg14 m ρ c),
     (h c _ (mem_uc main_arg15 (by decide))).trans (W53_main_arg15 m ρ c),
     (h c _ (mem_uc main_arg16 (by decide))).trans (W53_main_arg16 m ρ c),
     (h c _ (mem_uc main_arg17 (by decide))).trans (W53_main_arg17 m ρ c),
     (h c _ (mem_uc main_arg18 (by decide))).trans (W53_main_arg18 m ρ c),
     (h c _ (mem_uc main_arg19 (by decide))).trans (W53_main_arg19 m ρ c),
     (h c _ (mem_uc main_arg20 (by decide))).trans (W53_main_arg20 m ρ c),
     (h c _ (mem_uc main_arg21 (by decide))).trans (W53_main_arg21 m ρ c),
     (h c _ (mem_uc main_arg22 (by decide))).trans (W53_main_arg22 m ρ c),
     (h c _ (mem_uc main_arg23 (by decide))).trans (W53_main_arg23 m ρ c),
     (h c _ (mem_uc main_arg24 (by decide))).trans (W53_main_arg24 m ρ c),
     (h c _ (mem_uc main_arg25 (by decide))).trans (W53_main_arg25 m ρ c),
     (h c _ (mem_uc main_arg26 (by decide))).trans (W53_main_arg26 m ρ c),
     (h c _ (mem_uc main_arg27 (by decide))).trans (W53_main_arg27 m ρ c),
     (h c _ (mem_uc main_arg28 (by decide))).trans (W53_main_arg28 m ρ c),
     (h c _ (mem_uc main_arg29 (by decide))).trans (W53_main_arg29 m ρ c),
     (h c _ (mem_uc main_arg30 (by decide))).trans (W53_main_arg30 m ρ c)⟩)
    (RefRun.run_all m ρ)

end Cert.ReferenceIdeal.RChain

end
-- ==== Proof.Alg.lean ====
/-
  The two idealized programs compute one function. Run from memories that agree on the 31 argument
  arrays (finite numbers, the six variances nonnegative), the kernel program's result array and the
  reference program's result array both end at `Cert.Spec.outArr` of the network's arrays: the kernel's by
  its one launch read block by block, the reference's by its ten launches read layer by layer.
-/
import proofs.«125144_g2000006933354569_pallasbulk_1054_1_alg».proof.Defs
import proofs.«125144_g2000006933354569_pallasbulk_1054_1_alg».proof.Proof.PreReal
import proofs.«125144_g2000006933354569_pallasbulk_1054_1_alg».proof.Proof.KProlog1
import proofs.«125144_g2000006933354569_pallasbulk_1054_1_alg».proof.Proof.KProlog2
import proofs.«125144_g2000006933354569_pallasbulk_1054_1_alg».proof.Proof.KFinal
import proofs.«125144_g2000006933354569_pallasbulk_1054_1_alg».proof.Proof.KOut
import proofs.«125144_g2000006933354569_pallasbulk_1054_1_alg».proof.Proof.RefRun
import proofs.«125144_g2000006933354569_pallasbulk_1054_1_alg».proof.Proof.RChain

noncomputable section

namespace Cert.Proof.Alg

open Idealize.ShloMosaic Idealize.SL.Sem

/-- Under the precondition every entry of the network's arrays is a real number and the variances are nonnegative. -/
theorem real_of_pre (m : (ℓ : Loc Cert.KernelIdeal.nD Cert.KernelIdeal.τ Cert.KernelIdeal.sig) → Buf (Elt Ideal) ℓ)
    (hpre : @Cert.Pre_KernelIdeal Cert.Pre_finite_inputs.Gen.facts m) (c : Dev Cert.KernelIdeal.nD) :
    (Cert.KernelIdeal.PK m c).Real := by
  haveI := Cert.Pre_finite_inputs.Gen.facts
  have g := Cert.PreReal.good_of_pre _ _ _ _ _ _ _ _ _ _ _ _ _ _ _ _ _ _ _ _ _ _ _ _ _ _ _ _ _ _ _ (hpre c)
  exact Cert.Spec.real_params _ _ _ _ _ _ _ _ _ _ _ _ _ _ _ _ _ _ _ _ _ _ _ _ _ _ _ _ _ _ _ g.r0 g.r1 g.r2 g.r3 g.r4 g.r5 g.r6 g.r7 g.r8 g.r9 g.r10 g.r11 g.r12 g.r13 g.r14 g.r15 g.r16 g.r17 g.r18 g.r19 g.r20 g.r21 g.r22 g.r23 g.r24 g.r25 g.r26 g.r27 g.r28 g.r29 g.r30 g.v5 g.v10 g.v15 g.v20 g.v25 g.v30

/-- What the launch's fourteen arrays hold. -/
theorem karr (m : (ℓ : Loc Cert.KernelIdeal.nD Cert.KernelIdeal.τ Cert.KernelIdeal.sig) → Buf (Elt Ideal) ℓ) (c : Dev Cert.KernelIdeal.nD) :
    Cert.KernelIdeal.KIface.KArr (Cert.KernelIdeal.PK m c) (Cert.KernelIdeal.Gen.V m c Cert.KernelIdeal.main_v2) (Cert.KernelIdeal.Gen.V m c Cert.KernelIdeal.main_v4)
      (Cert.KernelIdeal.Gen.V m c Cert.KernelIdeal.main_v19) (Cert.KernelIdeal.Gen.V m c Cert.KernelIdeal.main_v21) (Cert.KernelIdeal.Gen.V m c Cert.KernelIdeal.main_v32)
      (Cert.KernelIdeal.Gen.V m c Cert.KernelIdeal.main_v33) (Cert.KernelIdeal.Gen.V m c Cert.KernelIdeal.main_v44) (Cert.KernelIdeal.Gen.V m c Cert.KernelIdeal.main_v45)
      (Cert.KernelIdeal.Gen.V m c Cert.KernelIdeal.main_v60) (Cert.KernelIdeal.Gen.V m c Cert.KernelIdeal.main_v62) (Cert.KernelIdeal.Gen.V m c Cert.KernelIdeal.main_v73)
      (Cert.KernelIdeal.Gen.V m c Cert.KernelIdeal.main_v74) (Cert.KernelIdeal.Gen.V m c Cert.KernelIdeal.main_v85) (Cert.KernelIdeal.Gen.V m c Cert.KernelIdeal.main_v86) :=
  ⟨Cert.KernelIdeal.KProlog.arr0 m c, Cert.KernelIdeal.KProlog.arr1 m c, Cert.KernelIdeal.KProlog.arr2 m c, Cert.KernelIdeal.KProlog.arr3 m c,
   Cert.KernelIdeal.KProlog.arr4 m c, Cert.KernelIdeal.KProlog.arr5 m c, Cert.KernelIdeal.KProlog.arr6 m c, Cert.KernelIdeal.KProlog.arr7 m c,
   Cert.KernelIdeal.KProlog.arr8 m c, Cert.KernelIdeal.KProlog.arr9 m c, Cert.KernelIdeal.KProlog.arr10 m c, Cert.KernelIdeal.KProlog.arr11 m c,
   Cert.KernelIdeal.KProlog.arr12 m c, Cert.KernelIdeal.KProlog.arr13 m c⟩

/-- The block a grid point stores is the network's output on the batch rows it stages. -/
theorem kernel_out (m : (ℓ : Loc Cert.KernelIdeal.nD Cert.KernelIdeal.τ Cert.KernelIdeal.sig) → Buf (Elt Ideal) ℓ)
    (hpre : @Cert.Pre_KernelIdeal Cert.Pre_finite_inputs.Gen.facts m) (c : Dev Cert.KernelIdeal.nD) (t : Fin Cert.KernelIdeal.cfg0.N)
    (bb : Fin 8) (ch : Fin 128) (l : Fin 80) :
    Cert.KernelIdeal.Gen.out0_14 (F := Ideal) (Cert.KernelIdeal.Gen.iblk m c 0 t) (Cert.KernelIdeal.Gen.iblk m c 1 t) (Cert.KernelIdeal.Gen.iblk m c 2 t)
      (Cert.KernelIdeal.Gen.iblk m c 3 t) (Cert.KernelIdeal.Gen.iblk m c 4 t) (Cert.KernelIdeal.Gen.iblk m c 5 t) (Cert.KernelIdeal.Gen.iblk m c 6 t)
      (Cert.KernelIdeal.Gen.iblk m c 7 t) (Cert.KernelIdeal.Gen.iblk m c 8 t) (Cert.KernelIdeal.Gen.iblk m c 9 t) (Cert.KernelIdeal.Gen.iblk m c 10 t)
      (Cert.KernelIdeal.Gen.iblk m c 11 t) (Cert.KernelIdeal.Gen.iblk m c 12 t) (Cert.KernelIdeal.Gen.iblk m c 13 t) (Idealize.ShloMosaic.ValueIdx.ix3 bb ch l)
      = Cert.Spec.Out (Cert.KernelIdeal.PK m c) (8 * t.val + bb.val) ch.val l.val := by
    rw [Cert.KernelIdeal.KFinal.out_unfold]
    exact Cert.KernelIdeal.KBody.pay_eq (Cert.KernelIdeal.PK m c) (8 * t.val) (real_of_pre m hpre c) _ _ _ _ _ _ _ _ _ _ _ _ _ _
      (Cert.KernelIdeal.KFinal.khyp_of_karr m c t (karr m c)) bb ch l

/-- Memories that agree on the arguments give the two programs the same network arrays. -/
theorem params_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) :
    Cert.ReferenceIdeal.PR m' c = Cert.KernelIdeal.PK m c := by
  obtain ⟨h0, h1, h2, h3, h4, h5, h6, h7, h8, h9, h10, h11, h12, h13, h14, h15, h16, h17, h18, h19, h20, h21, h22, h23, h24, h25, h26, h27, h28, h29, h30⟩ := h
  unfold Cert.ReferenceIdeal.PR Cert.KernelIdeal.PK
  rw [h0, h1, h2, h3, h4, h5, h6, h7, h8, h9, h10, h11, h12, h13, h14, h15, h16, h17, h18, h19, h20, h21, h22, h23, h24, h25, h26, h27, h28, h29, h30]

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Spec.outArr (Cert.KernelIdeal.PK m c), Cert.KernelIdeal.KFinal.run m ρ (fun c t bb ch l => kernel_out m hpre c t bb ch l), ?_⟩
  refine (θ_run Cert.ReferenceIdeal.defs _ _).mono (fun r h c => ⟨(h c).1.trans (by rw [params_agree m m' c (hagree c)]), (h c).2⟩)
    (Cert.ReferenceIdeal.RChain.ref_run m' ρ')

end Cert.Proof.Alg

end
-- ==== Proof.lean ====
/-
  The certificate: each of the three programs runs to the end without a fault and leaves its argument
  arrays unchanged; the idealized kernel program is the kernel program (the ideal pass rewrote nothing);
  and the idealized kernel program and the idealized reference program, run from memories that agree on
  the arguments (finite numbers, nonnegative batch-norm variances), end with equal result arrays on the
  extended reals — both end at the network written out in `Cert.Spec`.
-/
import proofs.«125144_g2000006933354569_pallasbulk_1054_1_alg».proof.Defs
import proofs.«125144_g2000006933354569_pallasbulk_1054_1_alg».proof.Proof.Gen.Kernel
import proofs.«125144_g2000006933354569_pallasbulk_1054_1_alg».proof.Proof.Gen.KernelIdeal
import proofs.«125144_g2000006933354569_pallasbulk_1054_1_alg».proof.Proof.Gen.ReferenceIdeal
import proofs.«125144_g2000006933354569_pallasbulk_1054_1_alg».proof.Proof.Gen.Pre_finite_inputs
import proofs.«125144_g2000006933354569_pallasbulk_1054_1_alg».proof.Proof.Frames
import proofs.«125144_g2000006933354569_pallasbulk_1054_1_alg».proof.Proof.Alg

noncomputable section

namespace Cert.Proof

theorem claim : Cert.Claim :=
  ⟨Cert.Kernel.Gen.facts, Cert.KernelIdeal.Gen.facts, Cert.ReferenceIdeal.Gen.facts, Cert.Pre_finite_inputs.Gen.facts,
    Frames.frame_p, Frames.frame_pi, Frames.frame_ri, Frames.preserves, Alg.algebraic⟩

end Cert.Proof

end
